-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x8192 : Shape := ⟨2, ![512, 8192]⟩
abbrev S8192x512 : Shape := ⟨2, ![8192, 512]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S512x8192 .f32) (main_arg1 : FVec F S8192x512 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S16x512 : Shape := ⟨2, ![16, 512]⟩
abbrev S512x512 : Shape := ⟨2, ![512, 512]⟩
abbrev S8x4x16x512 : Shape := ⟨4, ![8, 4, 16, 512]⟩
abbrev S4x16x512 : Shape := ⟨3, ![4, 16, 512]⟩
abbrev S8 : Shape := ⟨1, ![8]⟩
abbrev S4 : Shape := ⟨1, ![4]⟩
abbrev S_ : Shape := ⟨0, ![]⟩
abbrev S1x1x16x512 : Shape := ⟨4, ![1, 1, 16, 512]⟩
abbrev S1 : Shape := ⟨1, ![1]⟩
abbrev S1x4x16x512 : Shape := ⟨4, ![1, 4, 16, 512]⟩
abbrev S1x16x512 : Shape := ⟨3, ![1, 16, 512]⟩
abbrev S7x4x16x512 : Shape := ⟨4, ![7, 4, 16, 512]⟩
abbrev S3x16x512 : Shape := ⟨3, ![3, 16, 512]⟩

abbrev nBuf : Space → Nat
  | .hbm => 3
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S16x512, .f32⟩
  | .local _ .vmem, ⟨0, _⟩ => ⟨S512x256, .f32⟩
  | .local _ .vmem, ⟨1, _⟩ => ⟨S256x512, .f32⟩
  | .local _ .vmem, ⟨2, _⟩ => ⟨S16x512, .f32⟩
  | .local _ .vmem, ⟨3, _⟩ => ⟨S512x512, .f32⟩
  | .local _ .vmem, ⟨4, _⟩ => ⟨S8x4x16x512, .bf16⟩
  | .local _ .vmem, ⟨5, _⟩ => ⟨S8x4x16x512, .bf16⟩
  | .local _ .vmem, ⟨6, _⟩ => ⟨S4x16x512, .f32⟩
  | .local _ .vmem, ⟨7, _⟩ => ⟨S4x16x512, .bf16⟩
  | .local _ .vmem, ⟨8, _⟩ => ⟨S4x16x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  { ofTc nBuf bufTy 2 27 bufScoped semScoped dmaSemScoped tileCredit tileCredit_eq_zero tileCredit_pos with
    barrierSem := RefSig.barrierTable [(0, 1)]
    barrierSem_unscoped := RefSig.barrierTable_unscoped [(0, 1)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_1 : BitVec 32 := 8#32
  let v6 : BitVec 32 := Scalar.muli v3 c8_i32_1
  let c8_i32_0 : BitVec 32 := 8#32
  let v4 : BitVec 32 := Scalar.remsi v2 c8_i32_0
  let c1_i32_2 : BitVec 32 := 1#32
  let v7 : BitVec 32 := Scalar.addi v4 c1_i32_2
  let c8_i32_3 : BitVec 32 := 8#32
  let v8 : BitVec 32 := Scalar.remsi v7 c8_i32_3
  let v9 : BitVec 32 := Scalar.addi v6 v8
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_6 : BitVec 32 := 8#32
  let v12 : BitVec 32 := Scalar.muli v3 c8_i32_6
  let c8_i32_0 : BitVec 32 := 8#32
  let v4 : BitVec 32 := Scalar.remsi v2 c8_i32_0
  let c2_i32 : BitVec 32 := 2#32
  let v13 : BitVec 32 := Scalar.addi v4 c2_i32
  let c8_i32_7 : BitVec 32 := 8#32
  let v14 : BitVec 32 := Scalar.remsi v13 c8_i32_7
  let v15 : BitVec 32 := Scalar.addi v12 v14
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_11 : BitVec 32 := 8#32
  let v18 : BitVec 32 := Scalar.muli v3 c8_i32_11
  let c8_i32_0 : BitVec 32 := 8#32
  let v4 : BitVec 32 := Scalar.remsi v2 c8_i32_0
  let c3_i32 : BitVec 32 := 3#32
  let v19 : BitVec 32 := Scalar.addi v4 c3_i32
  let c8_i32_12 : BitVec 32 := 8#32
  let v20 : BitVec 32 := Scalar.remsi v19 c8_i32_12
  let v21 : BitVec 32 := Scalar.addi v18 v20
  let c1_i32_14 : BitVec 32 := 1#32
  let v22 : BitVec 32 := Scalar.muli v21 c1_i32_14
  let v23 : BitVec 32 := Scalar.addi c0_i32_15 v22
  v23.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_16 : BitVec 32 := 8#32
  let v24 : BitVec 32 := Scalar.muli v3 c8_i32_16
  let c8_i32_0 : BitVec 32 := 8#32
  let v4 : BitVec 32 := Scalar.remsi v2 c8_i32_0
  let c4_i32 : BitVec 32 := 4#32
  let v25 : BitVec 32 := Scalar.addi v4 c4_i32
  let c8_i32_17 : BitVec 32 := 8#32
  let v26 : BitVec 32 := Scalar.remsi v25 c8_i32_17
  let v27 : BitVec 32 := Scalar.addi v24 v26
  let c1_i32_19 : BitVec 32 := 1#32
  let v28 : BitVec 32 := Scalar.muli v27 c1_i32_19
  let v29 : BitVec 32 := Scalar.addi c0_i32_20 v28
  v29.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_21 : BitVec 32 := 8#32
  let v30 : BitVec 32 := Scalar.muli v3 c8_i32_21
  let c8_i32_0 : BitVec 32 := 8#32
  let v4 : BitVec 32 := Scalar.remsi v2 c8_i32_0
  let c5_i32 : BitVec 32 := 5#32
  let v31 : BitVec 32 := Scalar.addi v4 c5_i32
  let c8_i32_22 : BitVec 32 := 8#32
  let v32 : BitVec 32 := Scalar.remsi v31 c8_i32_22
  let v33 : BitVec 32 := Scalar.addi v30 v32
  let c1_i32_24 : BitVec 32 := 1#32
  let v34 : BitVec 32 := Scalar.muli v33 c1_i32_24
  let v35 : BitVec 32 := Scalar.addi c0_i32_25 v34
  v35.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_26 : BitVec 32 := 8#32
  let v36 : BitVec 32 := Scalar.muli v3 c8_i32_26
  let c8_i32_0 : BitVec 32 := 8#32
  let v4 : BitVec 32 := Scalar.remsi v2 c8_i32_0
  let c6_i32 : BitVec 32 := 6#32
  let v37 : BitVec 32 := Scalar.addi v4 c6_i32
  let c8_i32_27 : BitVec 32 := 8#32
  let v38 : BitVec 32 := Scalar.remsi v37 c8_i32_27
  let v39 : BitVec 32 := Scalar.addi v36 v38
  let c1_i32_29 : BitVec 32 := 1#32
  let v40 : BitVec 32 := Scalar.muli v39 c1_i32_29
  let v41 : BitVec 32 := Scalar.addi c0_i32_30 v40
  v41.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_31 : BitVec 32 := 8#32
  let v42 : BitVec 32 := Scalar.muli v3 c8_i32_31
  let c8_i32_0 : BitVec 32 := 8#32
  let v4 : BitVec 32 := Scalar.remsi v2 c8_i32_0
  let c7_i32 : BitVec 32 := 7#32
  let v43 : BitVec 32 := Scalar.addi v4 c7_i32
  let c8_i32_32 : BitVec 32 := 8#32
  let v44 : BitVec 32 := Scalar.remsi v43 c8_i32_32
  let v45 : BitVec 32 := Scalar.addi v42 v44
  let c1_i32_34 : BitVec 32 := 1#32
  let v46 : BitVec 32 := Scalar.muli v45 c1_i32_34
  let v47 : BitVec 32 := Scalar.addi c0_i32_35 v46
  v47.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_36 : BitVec 32 := 1#32
  let v48 : BitVec 32 := Scalar.addi v3 c1_i32_36
  let c4_i32_37 : BitVec 32 := 4#32
  let v49 : BitVec 32 := Scalar.remsi v48 c4_i32_37
  let c8_i32_38 : BitVec 32 := 8#32
  let v50 : BitVec 32 := Scalar.muli v49 c8_i32_38
  let c8_i32_0 : BitVec 32 := 8#32
  let v4 : BitVec 32 := Scalar.remsi v2 c8_i32_0
  let v51 : BitVec 32 := Scalar.addi v50 v4
  let c1_i32_40 : BitVec 32 := 1#32
  let v52 : BitVec 32 := Scalar.muli v51 c1_i32_40
  let v53 : BitVec 32 := Scalar.addi c0_i32_41 v52
  v53.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_42 : BitVec 32 := 2#32
  let v54 : BitVec 32 := Scalar.addi v3 c2_i32_42
  let c4_i32_43 : BitVec 32 := 4#32
  let v55 : BitVec 32 := Scalar.remsi v54 c4_i32_43
  let c8_i32_44 : BitVec 32 := 8#32
  let v56 : BitVec 32 := Scalar.muli v55 c8_i32_44
  let c8_i32_0 : BitVec 32 := 8#32
  let v4 : BitVec 32 := Scalar.remsi v2 c8_i32_0
  let v57 : BitVec 32 := Scalar.addi v56 v4
  let c1_i32_46 : BitVec 32 := 1#32
  let v58 : BitVec 32 := Scalar.muli v57 c1_i32_46
  let v59 : BitVec 32 := Scalar.addi c0_i32_47 v58
  v59.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_48 : BitVec 32 := 3#32
  let v60 : BitVec 32 := Scalar.addi v3 c3_i32_48
  let c4_i32_49 : BitVec 32 := 4#32
  let v61 : BitVec 32 := Scalar.remsi v60 c4_i32_49
  let c8_i32_50 : BitVec 32 := 8#32
  let v62 : BitVec 32 := Scalar.muli v61 c8_i32_50
  let c8_i32_0 : BitVec 32 := 8#32
  let v4 : BitVec 32 := Scalar.remsi v2 c8_i32_0
  let v63 : BitVec 32 := Scalar.addi v62 v4
  let c1_i32_52 : BitVec 32 := 1#32
  let v64 : BitVec 32 := Scalar.muli v63 c1_i32_52
  let v65 : BitVec 32 := Scalar.addi c0_i32_53 v64
  v65.toNat
def k0_off1 (d0 : Dev nD) (c1_i32_181 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v234 : BitVec 32 := Scalar.addi v4 c1_i32_181
  let c8_i32_182 : BitVec 32 := 8#32
  let v235 : BitVec 32 := Scalar.remsi v234 c8_i32_182
  let c0_i32_192 : BitVec 32 := 0#32
  let c0_i32_193 : BitVec 32 := 0#32
  let c0_i32_194 : BitVec 32 := 0#32
  ![v235.toNat, 0, 0, 0]
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_183 : BitVec 32 := 8#32
  let v236 : BitVec 32 := Scalar.muli v3 c8_i32_183
  let c8_i32_0 : BitVec 32 := 8#32
  let v4 : BitVec 32 := Scalar.remsi v2 c8_i32_0
  let c1_i32_181 : BitVec 32 := 1#32
  let v234 : BitVec 32 := Scalar.addi v4 c1_i32_181
  let c8_i32_182 : BitVec 32 := 8#32
  let v235 : BitVec 32 := Scalar.remsi v234 c8_i32_182
  let v237 : BitVec 32 := Scalar.addi v236 v235
  let c1_i32_187 : BitVec 32 := 1#32
  let v238 : BitVec 32 := Scalar.muli v237 c1_i32_187
  let v239 : BitVec 32 := Scalar.addi c0_i32_188 v238
  v239.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_197 : BitVec 32 := 8#32
  let v250 : BitVec 32 := Scalar.muli v3 c8_i32_197
  let c8_i32_0 : BitVec 32 := 8#32
  let v4 : BitVec 32 := Scalar.remsi v2 c8_i32_0
  let c2_i32_195 : BitVec 32 := 2#32
  let v248 : BitVec 32 := Scalar.addi v4 c2_i32_195
  let c8_i32_196 : BitVec 32 := 8#32
  let v249 : BitVec 32 := Scalar.remsi v248 c8_i32_196
  let v251 : BitVec 32 := Scalar.addi v250 v249
  let c1_i32_201 : BitVec 32 := 1#32
  let v252 : BitVec 32 := Scalar.muli v251 c1_i32_201
  let v253 : BitVec 32 := Scalar.addi c0_i32_202 v252
  v253.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_211 : BitVec 32 := 8#32
  let v264 : BitVec 32 := Scalar.muli v3 c8_i32_211
  let c8_i32_0 : BitVec 32 := 8#32
  let v4 : BitVec 32 := Scalar.remsi v2 c8_i32_0
  let c3_i32_209 : BitVec 32 := 3#32
  let v262 : BitVec 32 := Scalar.addi v4 c3_i32_209
  let c8_i32_210 : BitVec 32 := 8#32
  let v263 : BitVec 32 := Scalar.remsi v262 c8_i32_210
  let v265 : BitVec 32 := Scalar.addi v264 v263
  let c1_i32_215 : BitVec 32 := 1#32
  let v266 : BitVec 32 := Scalar.muli v265 c1_i32_215
  let v267 : BitVec 32 := Scalar.addi c0_i32_216 v266
  v267.toNat
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_225 : BitVec 32 := 8#32
  let v278 : BitVec 32 := Scalar.muli v3 c8_i32_225
  let c8_i32_0 : BitVec 32 := 8#32
  let v4 : BitVec 32 := Scalar.remsi v2 c8_i32_0
  let c4_i32_223 : BitVec 32 := 4#32
  let v276 : BitVec 32 := Scalar.addi v4 c4_i32_223
  let c8_i32_224 : BitVec 32 := 8#32
  let v277 : BitVec 32 := Scalar.remsi v276 c8_i32_224
  let v279 : BitVec 32 := Scalar.addi v278 v277
  let c1_i32_229 : BitVec 32 := 1#32
  let v280 : BitVec 32 := Scalar.muli v279 c1_i32_229
  let v281 : BitVec 32 := Scalar.addi c0_i32_230 v280
  v281.toNat
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_239 : BitVec 32 := 8#32
  let v292 : BitVec 32 := Scalar.muli v3 c8_i32_239
  let c8_i32_0 : BitVec 32 := 8#32
  let v4 : BitVec 32 := Scalar.remsi v2 c8_i32_0
  let c5_i32_237 : BitVec 32 := 5#32
  let v290 : BitVec 32 := Scalar.addi v4 c5_i32_237
  let c8_i32_238 : BitVec 32 := 8#32
  let v291 : BitVec 32 := Scalar.remsi v290 c8_i32_238
  let v293 : BitVec 32 := Scalar.addi v292 v291
  let c1_i32_243 : BitVec 32 := 1#32
  let v294 : BitVec 32 := Scalar.muli v293 c1_i32_243
  let v295 : BitVec 32 := Scalar.addi c0_i32_244 v294
  v295.toNat
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_253 : BitVec 32 := 8#32
  let v306 : BitVec 32 := Scalar.muli v3 c8_i32_253
  let c8_i32_0 : BitVec 32 := 8#32
  let v4 : BitVec 32 := Scalar.remsi v2 c8_i32_0
  let c6_i32_251 : BitVec 32 := 6#32
  let v304 : BitVec 32 := Scalar.addi v4 c6_i32_251
  let c8_i32_252 : BitVec 32 := 8#32
  let v305 : BitVec 32 := Scalar.remsi v304 c8_i32_252
  let v307 : BitVec 32 := Scalar.addi v306 v305
  let c1_i32_257 : BitVec 32 := 1#32
  let v308 : BitVec 32 := Scalar.muli v307 c1_i32_257
  let v309 : BitVec 32 := Scalar.addi c0_i32_258 v308
  v309.toNat
def k0_dev17 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_267 : BitVec 32 := 8#32
  let v320 : BitVec 32 := Scalar.muli v3 c8_i32_267
  let c8_i32_0 : BitVec 32 := 8#32
  let v4 : BitVec 32 := Scalar.remsi v2 c8_i32_0
  let c7_i32_265 : BitVec 32 := 7#32
  let v318 : BitVec 32 := Scalar.addi v4 c7_i32_265
  let c8_i32_266 : BitVec 32 := 8#32
  let v319 : BitVec 32 := Scalar.remsi v318 c8_i32_266
  let v321 : BitVec 32 := Scalar.addi v320 v319
  let c1_i32_271 : BitVec 32 := 1#32
  let v322 : BitVec 32 := Scalar.muli v321 c1_i32_271
  let v323 : BitVec 32 := Scalar.addi c0_i32_272 v322
  v323.toNat
def k0_off2 (d0 : Dev nD) (c0_i32_356 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c16_i32 : BitVec 32 := 16#32
  let v388 : BitVec 32 := Scalar.muli v4 c16_i32
  let v389 : BitVec 32 := Scalar.addi c0_i32_356 v388
  let v390 : Index := Scalar.indexCast v389
  let c0_357 : Index := 0#32
  ![v390.toNat, 0]
def k0_off3 (d0 : Dev nD) (c1_i32_377 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v420 : BitVec 32 := Scalar.addi v3 c1_i32_377
  let c4_i32_378 : BitVec 32 := 4#32
  let v421 : BitVec 32 := Scalar.remsi v420 c4_i32_378
  let c0_i32_387 : BitVec 32 := 0#32
  let c0_i32_388 : BitVec 32 := 0#32
  ![v421.toNat, 0, 0]
def k0_dev18 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_377 : BitVec 32 := 1#32
  let v420 : BitVec 32 := Scalar.addi v3 c1_i32_377
  let c4_i32_378 : BitVec 32 := 4#32
  let v421 : BitVec 32 := Scalar.remsi v420 c4_i32_378
  let c8_i32_379 : BitVec 32 := 8#32
  let v422 : BitVec 32 := Scalar.muli v421 c8_i32_379
  let c8_i32_0 : BitVec 32 := 8#32
  let v4 : BitVec 32 := Scalar.remsi v2 c8_i32_0
  let v423 : BitVec 32 := Scalar.addi v422 v4
  let c1_i32_383 : BitVec 32 := 1#32
  let v424 : BitVec 32 := Scalar.muli v423 c1_i32_383
  let v425 : BitVec 32 := Scalar.addi c0_i32_384 v424
  v425.toNat
def k0_dev19 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_389 : BitVec 32 := 2#32
  let v434 : BitVec 32 := Scalar.addi v3 c2_i32_389
  let c4_i32_390 : BitVec 32 := 4#32
  let v435 : BitVec 32 := Scalar.remsi v434 c4_i32_390
  let c8_i32_391 : BitVec 32 := 8#32
  let v436 : BitVec 32 := Scalar.muli v435 c8_i32_391
  let c8_i32_0 : BitVec 32 := 8#32
  let v4 : BitVec 32 := Scalar.remsi v2 c8_i32_0
  let v437 : BitVec 32 := Scalar.addi v436 v4
  let c1_i32_395 : BitVec 32 := 1#32
  let v438 : BitVec 32 := Scalar.muli v437 c1_i32_395
  let v439 : BitVec 32 := Scalar.addi c0_i32_396 v438
  v439.toNat
def k0_dev20 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_401 : BitVec 32 := 3#32
  let v448 : BitVec 32 := Scalar.addi v3 c3_i32_401
  let c4_i32_402 : BitVec 32 := 4#32
  let v449 : BitVec 32 := Scalar.remsi v448 c4_i32_402
  let c8_i32_403 : BitVec 32 := 8#32
  let v450 : BitVec 32 := Scalar.muli v449 c8_i32_403
  let c8_i32_0 : BitVec 32 := 8#32
  let v4 : BitVec 32 := Scalar.remsi v2 c8_i32_0
  let v451 : BitVec 32 := Scalar.addi v450 v4
  let c1_i32_407 : BitVec 32 := 1#32
  let v452 : BitVec 32 := Scalar.muli v451 c1_i32_407
  let v453 : BitVec 32 := Scalar.addi c0_i32_408 v452
  v453.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v486 : Index := Scalar.indexCast v3
  let c0_440 : Index := 0#32
  let c0_441 : Index := 0#32
  ![v486.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S16x512 : S512x512.Slices ![0, 0] S16x512
  bitsLt_bf16_f32 : FTy.bits .bf16 < FTy.bits .f32
  inb_S8x4x16x512_S1x1x16x512_0_0_0_0 : ∀ a, (![0, 0, 0, 0] : Fin 4 → Nat) a + S1x1x16x512.size a ≤ S8x4x16x512.size a
  h_S1x1x16x512 : 0 < S1x1x16x512.numel
  shapeCasts_S1x1x16x512_S16x512 : S1x1x16x512.ShapeCasts S16x512
  shapeCasts_S16x512_S1x1x16x512 : S16x512.ShapeCasts S1x1x16x512
  packedbf16_S8x4x16x512_S1x1x16x512_0_0_0_0 : (Rect.unit (s := S8x4x16x512) ![0, 0, 0, 0] S1x1x16x512.size inb_S8x4x16x512_S1x1x16x512_0_0_0_0).PackedRows (EltTy.packing .bf16)
  slices_S512x512_o16_0_S16x512 : S512x512.Slices ![16, 0] S16x512
  inb_S8x4x16x512_S1x1x16x512_1_0_0_0 : ∀ a, (![1, 0, 0, 0] : Fin 4 → Nat) a + S1x1x16x512.size a ≤ S8x4x16x512.size a
  packedbf16_S8x4x16x512_S1x1x16x512_1_0_0_0 : (Rect.unit (s := S8x4x16x512) ![1, 0, 0, 0] S1x1x16x512.size inb_S8x4x16x512_S1x1x16x512_1_0_0_0).PackedRows (EltTy.packing .bf16)
  slices_S512x512_o32_0_S16x512 : S512x512.Slices ![32, 0] S16x512
  inb_S8x4x16x512_S1x1x16x512_2_0_0_0 : ∀ a, (![2, 0, 0, 0] : Fin 4 → Nat) a + S1x1x16x512.size a ≤ S8x4x16x512.size a
  packedbf16_S8x4x16x512_S1x1x16x512_2_0_0_0 : (Rect.unit (s := S8x4x16x512) ![2, 0, 0, 0] S1x1x16x512.size inb_S8x4x16x512_S1x1x16x512_2_0_0_0).PackedRows (EltTy.packing .bf16)
  slices_S512x512_o48_0_S16x512 : S512x512.Slices ![48, 0] S16x512
  inb_S8x4x16x512_S1x1x16x512_3_0_0_0 : ∀ a, (![3, 0, 0, 0] : Fin 4 → Nat) a + S1x1x16x512.size a ≤ S8x4x16x512.size a
  packedbf16_S8x4x16x512_S1x1x16x512_3_0_0_0 : (Rect.unit (s := S8x4x16x512) ![3, 0, 0, 0] S1x1x16x512.size inb_S8x4x16x512_S1x1x16x512_3_0_0_0).PackedRows (EltTy.packing .bf16)
  slices_S512x512_o64_0_S16x512 : S512x512.Slices ![64, 0] S16x512
  inb_S8x4x16x512_S1x1x16x512_4_0_0_0 : ∀ a, (![4, 0, 0, 0] : Fin 4 → Nat) a + S1x1x16x512.size a ≤ S8x4x16x512.size a
  packedbf16_S8x4x16x512_S1x1x16x512_4_0_0_0 : (Rect.unit (s := S8x4x16x512) ![4, 0, 0, 0] S1x1x16x512.size inb_S8x4x16x512_S1x1x16x512_4_0_0_0).PackedRows (EltTy.packing .bf16)
  slices_S512x512_o80_0_S16x512 : S512x512.Slices ![80, 0] S16x512
  inb_S8x4x16x512_S1x1x16x512_5_0_0_0 : ∀ a, (![5, 0, 0, 0] : Fin 4 → Nat) a + S1x1x16x512.size a ≤ S8x4x16x512.size a
  packedbf16_S8x4x16x512_S1x1x16x512_5_0_0_0 : (Rect.unit (s := S8x4x16x512) ![5, 0, 0, 0] S1x1x16x512.size inb_S8x4x16x512_S1x1x16x512_5_0_0_0).PackedRows (EltTy.packing .bf16)
  slices_S512x512_o96_0_S16x512 : S512x512.Slices ![96, 0] S16x512
  inb_S8x4x16x512_S1x1x16x512_6_0_0_0 : ∀ a, (![6, 0, 0, 0] : Fin 4 → Nat) a + S1x1x16x512.size a ≤ S8x4x16x512.size a
  packedbf16_S8x4x16x512_S1x1x16x512_6_0_0_0 : (Rect.unit (s := S8x4x16x512) ![6, 0, 0, 0] S1x1x16x512.size inb_S8x4x16x512_S1x1x16x512_6_0_0_0).PackedRows (EltTy.packing .bf16)
  slices_S512x512_o112_0_S16x512 : S512x512.Slices ![112, 0] S16x512
  inb_S8x4x16x512_S1x1x16x512_7_0_0_0 : ∀ a, (![7, 0, 0, 0] : Fin 4 → Nat) a + S1x1x16x512.size a ≤ S8x4x16x512.size a
  packedbf16_S8x4x16x512_S1x1x16x512_7_0_0_0 : (Rect.unit (s := S8x4x16x512) ![7, 0, 0, 0] S1x1x16x512.size inb_S8x4x16x512_S1x1x16x512_7_0_0_0).PackedRows (EltTy.packing .bf16)
  slices_S512x512_o128_0_S16x512 : S512x512.Slices ![128, 0] S16x512
  inb_S8x4x16x512_S1x1x16x512_0_1_0_0 : ∀ a, (![0, 1, 0, 0] : Fin 4 → Nat) a + S1x1x16x512.size a ≤ S8x4x16x512.size a
  packedbf16_S8x4x16x512_S1x1x16x512_0_1_0_0 : (Rect.unit (s := S8x4x16x512) ![0, 1, 0, 0] S1x1x16x512.size inb_S8x4x16x512_S1x1x16x512_0_1_0_0).PackedRows (EltTy.packing .bf16)
  slices_S512x512_o144_0_S16x512 : S512x512.Slices ![144, 0] S16x512
  inb_S8x4x16x512_S1x1x16x512_1_1_0_0 : ∀ a, (![1, 1, 0, 0] : Fin 4 → Nat) a + S1x1x16x512.size a ≤ S8x4x16x512.size a
  packedbf16_S8x4x16x512_S1x1x16x512_1_1_0_0 : (Rect.unit (s := S8x4x16x512) ![1, 1, 0, 0] S1x1x16x512.size inb_S8x4x16x512_S1x1x16x512_1_1_0_0).PackedRows (EltTy.packing .bf16)
  slices_S512x512_o160_0_S16x512 : S512x512.Slices ![160, 0] S16x512
  inb_S8x4x16x512_S1x1x16x512_2_1_0_0 : ∀ a, (![2, 1, 0, 0] : Fin 4 → Nat) a + S1x1x16x512.size a ≤ S8x4x16x512.size a
  packedbf16_S8x4x16x512_S1x1x16x512_2_1_0_0 : (Rect.unit (s := S8x4x16x512) ![2, 1, 0, 0] S1x1x16x512.size inb_S8x4x16x512_S1x1x16x512_2_1_0_0).PackedRows (EltTy.packing .bf16)
  slices_S512x512_o176_0_S16x512 : S512x512.Slices ![176, 0] S16x512
  inb_S8x4x16x512_S1x1x16x512_3_1_0_0 : ∀ a, (![3, 1, 0, 0] : Fin 4 → Nat) a + S1x1x16x512.size a ≤ S8x4x16x512.size a
  packedbf16_S8x4x16x512_S1x1x16x512_3_1_0_0 : (Rect.unit (s := S8x4x16x512) ![3, 1, 0, 0] S1x1x16x512.size inb_S8x4x16x512_S1x1x16x512_3_1_0_0).PackedRows (EltTy.packing .bf16)
  slices_S512x512_o192_0_S16x512 : S512x512.Slices ![192, 0] S16x512
  inb_S8x4x16x512_S1x1x16x512_4_1_0_0 : ∀ a, (![4, 1, 0, 0] : Fin 4 → Nat) a + S1x1x16x512.size a ≤ S8x4x16x512.size a
  packedbf16_S8x4x16x512_S1x1x16x512_4_1_0_0 : (Rect.unit (s := S8x4x16x512) ![4, 1, 0, 0] S1x1x16x512.size inb_S8x4x16x512_S1x1x16x512_4_1_0_0).PackedRows (EltTy.packing .bf16)
  slices_S512x512_o208_0_S16x512 : S512x512.Slices ![208, 0] S16x512
  inb_S8x4x16x512_S1x1x16x512_5_1_0_0 : ∀ a, (![5, 1, 0, 0] : Fin 4 → Nat) a + S1x1x16x512.size a ≤ S8x4x16x512.size a
  packedbf16_S8x4x16x512_S1x1x16x512_5_1_0_0 : (Rect.unit (s := S8x4x16x512) ![5, 1, 0, 0] S1x1x16x512.size inb_S8x4x16x512_S1x1x16x512_5_1_0_0).PackedRows (EltTy.packing .bf16)
  slices_S512x512_o224_0_S16x512 : S512x512.Slices ![224, 0] S16x512
  inb_S8x4x16x512_S1x1x16x512_6_1_0_0 : ∀ a, (![6, 1, 0, 0] : Fin 4 → Nat) a + S1x1x16x512.size a ≤ S8x4x16x512.size a
  packedbf16_S8x4x16x512_S1x1x16x512_6_1_0_0 : (Rect.unit (s := S8x4x16x512) ![6, 1, 0, 0] S1x1x16x512.size inb_S8x4x16x512_S1x1x16x512_6_1_0_0).PackedRows (EltTy.packing .bf16)
  slices_S512x512_o240_0_S16x512 : S512x512.Slices ![240, 0] S16x512
  inb_S8x4x16x512_S1x1x16x512_7_1_0_0 : ∀ a, (![7, 1, 0, 0] : Fin 4 → Nat) a + S1x1x16x512.size a ≤ S8x4x16x512.size a
  packedbf16_S8x4x16x512_S1x1x16x512_7_1_0_0 : (Rect.unit (s := S8x4x16x512) ![7, 1, 0, 0] S1x1x16x512.size inb_S8x4x16x512_S1x1x16x512_7_1_0_0).PackedRows (EltTy.packing .bf16)
  slices_S512x512_o256_0_S16x512 : S512x512.Slices ![256, 0] S16x512
  inb_S8x4x16x512_S1x1x16x512_0_2_0_0 : ∀ a, (![0, 2, 0, 0] : Fin 4 → Nat) a + S1x1x16x512.size a ≤ S8x4x16x512.size a
  packedbf16_S8x4x16x512_S1x1x16x512_0_2_0_0 : (Rect.unit (s := S8x4x16x512) ![0, 2, 0, 0] S1x1x16x512.size inb_S8x4x16x512_S1x1x16x512_0_2_0_0).PackedRows (EltTy.packing .bf16)
  slices_S512x512_o272_0_S16x512 : S512x512.Slices ![272, 0] S16x512
  inb_S8x4x16x512_S1x1x16x512_1_2_0_0 : ∀ a, (![1, 2, 0, 0] : Fin 4 → Nat) a + S1x1x16x512.size a ≤ S8x4x16x512.size a
  packedbf16_S8x4x16x512_S1x1x16x512_1_2_0_0 : (Rect.unit (s := S8x4x16x512) ![1, 2, 0, 0] S1x1x16x512.size inb_S8x4x16x512_S1x1x16x512_1_2_0_0).PackedRows (EltTy.packing .bf16)
  slices_S512x512_o288_0_S16x512 : S512x512.Slices ![288, 0] S16x512
  inb_S8x4x16x512_S1x1x16x512_2_2_0_0 : ∀ a, (![2, 2, 0, 0] : Fin 4 → Nat) a + S1x1x16x512.size a ≤ S8x4x16x512.size a
  packedbf16_S8x4x16x512_S1x1x16x512_2_2_0_0 : (Rect.unit (s := S8x4x16x512) ![2, 2, 0, 0] S1x1x16x512.size inb_S8x4x16x512_S1x1x16x512_2_2_0_0).PackedRows (EltTy.packing .bf16)
  slices_S512x512_o304_0_S16x512 : S512x512.Slices ![304, 0] S16x512
  inb_S8x4x16x512_S1x1x16x512_3_2_0_0 : ∀ a, (![3, 2, 0, 0] : Fin 4 → Nat) a + S1x1x16x512.size a ≤ S8x4x16x512.size a
  packedbf16_S8x4x16x512_S1x1x16x512_3_2_0_0 : (Rect.unit (s := S8x4x16x512) ![3, 2, 0, 0] S1x1x16x512.size inb_S8x4x16x512_S1x1x16x512_3_2_0_0).PackedRows (EltTy.packing .bf16)
  slices_S512x512_o320_0_S16x512 : S512x512.Slices ![320, 0] S16x512
  inb_S8x4x16x512_S1x1x16x512_4_2_0_0 : ∀ a, (![4, 2, 0, 0] : Fin 4 → Nat) a + S1x1x16x512.size a ≤ S8x4x16x512.size a
  packedbf16_S8x4x16x512_S1x1x16x512_4_2_0_0 : (Rect.unit (s := S8x4x16x512) ![4, 2, 0, 0] S1x1x16x512.size inb_S8x4x16x512_S1x1x16x512_4_2_0_0).PackedRows (EltTy.packing .bf16)
  slices_S512x512_o336_0_S16x512 : S512x512.Slices ![336, 0] S16x512
  inb_S8x4x16x512_S1x1x16x512_5_2_0_0 : ∀ a, (![5, 2, 0, 0] : Fin 4 → Nat) a + S1x1x16x512.size a ≤ S8x4x16x512.size a
  packedbf16_S8x4x16x512_S1x1x16x512_5_2_0_0 : (Rect.unit (s := S8x4x16x512) ![5, 2, 0, 0] S1x1x16x512.size inb_S8x4x16x512_S1x1x16x512_5_2_0_0).PackedRows (EltTy.packing .bf16)
  slices_S512x512_o352_0_S16x512 : S512x512.Slices ![352, 0] S16x512
  inb_S8x4x16x512_S1x1x16x512_6_2_0_0 : ∀ a, (![6, 2, 0, 0] : Fin 4 → Nat) a + S1x1x16x512.size a ≤ S8x4x16x512.size a
  packedbf16_S8x4x16x512_S1x1x16x512_6_2_0_0 : (Rect.unit (s := S8x4x16x512) ![6, 2, 0, 0] S1x1x16x512.size inb_S8x4x16x512_S1x1x16x512_6_2_0_0).PackedRows (EltTy.packing .bf16)
  slices_S512x512_o368_0_S16x512 : S512x512.Slices ![368, 0] S16x512
  inb_S8x4x16x512_S1x1x16x512_7_2_0_0 : ∀ a, (![7, 2, 0, 0] : Fin 4 → Nat) a + S1x1x16x512.size a ≤ S8x4x16x512.size a
  packedbf16_S8x4x16x512_S1x1x16x512_7_2_0_0 : (Rect.unit (s := S8x4x16x512) ![7, 2, 0, 0] S1x1x16x512.size inb_S8x4x16x512_S1x1x16x512_7_2_0_0).PackedRows (EltTy.packing .bf16)
  slices_S512x512_o384_0_S16x512 : S512x512.Slices ![384, 0] S16x512
  inb_S8x4x16x512_S1x1x16x512_0_3_0_0 : ∀ a, (![0, 3, 0, 0] : Fin 4 → Nat) a + S1x1x16x512.size a ≤ S8x4x16x512.size a
  packedbf16_S8x4x16x512_S1x1x16x512_0_3_0_0 : (Rect.unit (s := S8x4x16x512) ![0, 3, 0, 0] S1x1x16x512.size inb_S8x4x16x512_S1x1x16x512_0_3_0_0).PackedRows (EltTy.packing .bf16)
  slices_S512x512_o400_0_S16x512 : S512x512.Slices ![400, 0] S16x512
  inb_S8x4x16x512_S1x1x16x512_1_3_0_0 : ∀ a, (![1, 3, 0, 0] : Fin 4 → Nat) a + S1x1x16x512.size a ≤ S8x4x16x512.size a
  packedbf16_S8x4x16x512_S1x1x16x512_1_3_0_0 : (Rect.unit (s := S8x4x16x512) ![1, 3, 0, 0] S1x1x16x512.size inb_S8x4x16x512_S1x1x16x512_1_3_0_0).PackedRows (EltTy.packing .bf16)
  slices_S512x512_o416_0_S16x512 : S512x512.Slices ![416, 0] S16x512
  inb_S8x4x16x512_S1x1x16x512_2_3_0_0 : ∀ a, (![2, 3, 0, 0] : Fin 4 → Nat) a + S1x1x16x512.size a ≤ S8x4x16x512.size a
  packedbf16_S8x4x16x512_S1x1x16x512_2_3_0_0 : (Rect.unit (s := S8x4x16x512) ![2, 3, 0, 0] S1x1x16x512.size inb_S8x4x16x512_S1x1x16x512_2_3_0_0).PackedRows (EltTy.packing .bf16)
  slices_S512x512_o432_0_S16x512 : S512x512.Slices ![432, 0] S16x512
  inb_S8x4x16x512_S1x1x16x512_3_3_0_0 : ∀ a, (![3, 3, 0, 0] : Fin 4 → Nat) a + S1x1x16x512.size a ≤ S8x4x16x512.size a
  packedbf16_S8x4x16x512_S1x1x16x512_3_3_0_0 : (Rect.unit (s := S8x4x16x512) ![3, 3, 0, 0] S1x1x16x512.size inb_S8x4x16x512_S1x1x16x512_3_3_0_0).PackedRows (EltTy.packing .bf16)
  slices_S512x512_o448_0_S16x512 : S512x512.Slices ![448, 0] S16x512
  inb_S8x4x16x512_S1x1x16x512_4_3_0_0 : ∀ a, (![4, 3, 0, 0] : Fin 4 → Nat) a + S1x1x16x512.size a ≤ S8x4x16x512.size a
  packedbf16_S8x4x16x512_S1x1x16x512_4_3_0_0 : (Rect.unit (s := S8x4x16x512) ![4, 3, 0, 0] S1x1x16x512.size inb_S8x4x16x512_S1x1x16x512_4_3_0_0).PackedRows (EltTy.packing .bf16)
  slices_S512x512_o464_0_S16x512 : S512x512.Slices ![464, 0] S16x512
  inb_S8x4x16x512_S1x1x16x512_5_3_0_0 : ∀ a, (![5, 3, 0, 0] : Fin 4 → Nat) a + S1x1x16x512.size a ≤ S8x4x16x512.size a
  packedbf16_S8x4x16x512_S1x1x16x512_5_3_0_0 : (Rect.unit (s := S8x4x16x512) ![5, 3, 0, 0] S1x1x16x512.size inb_S8x4x16x512_S1x1x16x512_5_3_0_0).PackedRows (EltTy.packing .bf16)
  slices_S512x512_o480_0_S16x512 : S512x512.Slices ![480, 0] S16x512
  inb_S8x4x16x512_S1x1x16x512_6_3_0_0 : ∀ a, (![6, 3, 0, 0] : Fin 4 → Nat) a + S1x1x16x512.size a ≤ S8x4x16x512.size a
  packedbf16_S8x4x16x512_S1x1x16x512_6_3_0_0 : (Rect.unit (s := S8x4x16x512) ![6, 3, 0, 0] S1x1x16x512.size inb_S8x4x16x512_S1x1x16x512_6_3_0_0).PackedRows (EltTy.packing .bf16)
  slices_S512x512_o496_0_S16x512 : S512x512.Slices ![496, 0] S16x512
  inb_S8x4x16x512_S1x1x16x512_7_3_0_0 : ∀ a, (![7, 3, 0, 0] : Fin 4 → Nat) a + S1x1x16x512.size a ≤ S8x4x16x512.size a
  packedbf16_S8x4x16x512_S1x1x16x512_7_3_0_0 : (Rect.unit (s := S8x4x16x512) ![7, 3, 0, 0] S1x1x16x512.size inb_S8x4x16x512_S1x1x16x512_7_3_0_0).PackedRows (EltTy.packing .bf16)
  hamt_7 : (7#32 : BitVec 32).msb = false
  inb_S8_S1_1 : ∀ a, (![1] : Fin 1 → Nat) a + S1.size a ≤ S8.size a
  squeezes_S1_S_ : S1.Squeezes S_
  inb_S8x4x16x512_S1x4x16x512_1_0_0_0 : ∀ a, (![1, 0, 0, 0] : Fin 4 → Nat) a + S1x4x16x512.size a ≤ S8x4x16x512.size a
  squeezes_S1x4x16x512_S4x16x512 : S1x4x16x512.Squeezes S4x16x512
  wordsbf16_S8x4x16x512_S1x4x16x512_1_0_0_0 : (Rect.unit (s := S8x4x16x512) ![1, 0, 0, 0] S1x4x16x512.size inb_S8x4x16x512_S1x4x16x512_1_0_0_0).WholeWords (EltTy.packing .bf16)
  inb_S8_S1_2 : ∀ a, (![2] : Fin 1 → Nat) a + S1.size a ≤ S8.size a
  inb_S8x4x16x512_S1x4x16x512_2_0_0_0 : ∀ a, (![2, 0, 0, 0] : Fin 4 → Nat) a + S1x4x16x512.size a ≤ S8x4x16x512.size a
  wordsbf16_S8x4x16x512_S1x4x16x512_2_0_0_0 : (Rect.unit (s := S8x4x16x512) ![2, 0, 0, 0] S1x4x16x512.size inb_S8x4x16x512_S1x4x16x512_2_0_0_0).WholeWords (EltTy.packing .bf16)
  inb_S8_S1_3 : ∀ a, (![3] : Fin 1 → Nat) a + S1.size a ≤ S8.size a
  inb_S8x4x16x512_S1x4x16x512_3_0_0_0 : ∀ a, (![3, 0, 0, 0] : Fin 4 → Nat) a + S1x4x16x512.size a ≤ S8x4x16x512.size a
  wordsbf16_S8x4x16x512_S1x4x16x512_3_0_0_0 : (Rect.unit (s := S8x4x16x512) ![3, 0, 0, 0] S1x4x16x512.size inb_S8x4x16x512_S1x4x16x512_3_0_0_0).WholeWords (EltTy.packing .bf16)
  inb_S8_S1_4 : ∀ a, (![4] : Fin 1 → Nat) a + S1.size a ≤ S8.size a
  inb_S8x4x16x512_S1x4x16x512_4_0_0_0 : ∀ a, (![4, 0, 0, 0] : Fin 4 → Nat) a + S1x4x16x512.size a ≤ S8x4x16x512.size a
  wordsbf16_S8x4x16x512_S1x4x16x512_4_0_0_0 : (Rect.unit (s := S8x4x16x512) ![4, 0, 0, 0] S1x4x16x512.size inb_S8x4x16x512_S1x4x16x512_4_0_0_0).WholeWords (EltTy.packing .bf16)
  inb_S8_S1_5 : ∀ a, (![5] : Fin 1 → Nat) a + S1.size a ≤ S8.size a
  inb_S8x4x16x512_S1x4x16x512_5_0_0_0 : ∀ a, (![5, 0, 0, 0] : Fin 4 → Nat) a + S1x4x16x512.size a ≤ S8x4x16x512.size a
  wordsbf16_S8x4x16x512_S1x4x16x512_5_0_0_0 : (Rect.unit (s := S8x4x16x512) ![5, 0, 0, 0] S1x4x16x512.size inb_S8x4x16x512_S1x4x16x512_5_0_0_0).WholeWords (EltTy.packing .bf16)
  inb_S8_S1_6 : ∀ a, (![6] : Fin 1 → Nat) a + S1.size a ≤ S8.size a
  inb_S8x4x16x512_S1x4x16x512_6_0_0_0 : ∀ a, (![6, 0, 0, 0] : Fin 4 → Nat) a + S1x4x16x512.size a ≤ S8x4x16x512.size a
  wordsbf16_S8x4x16x512_S1x4x16x512_6_0_0_0 : (Rect.unit (s := S8x4x16x512) ![6, 0, 0, 0] S1x4x16x512.size inb_S8x4x16x512_S1x4x16x512_6_0_0_0).WholeWords (EltTy.packing .bf16)
  inb_S8_S1_7 : ∀ a, (![7] : Fin 1 → Nat) a + S1.size a ≤ S8.size a
  inb_S8x4x16x512_S1x4x16x512_7_0_0_0 : ∀ a, (![7, 0, 0, 0] : Fin 4 → Nat) a + S1x4x16x512.size a ≤ S8x4x16x512.size a
  wordsbf16_S8x4x16x512_S1x4x16x512_7_0_0_0 : (Rect.unit (s := S8x4x16x512) ![7, 0, 0, 0] S1x4x16x512.size inb_S8x4x16x512_S1x4x16x512_7_0_0_0).WholeWords (EltTy.packing .bf16)
  h_S16x512 : 0 < S16x512.numel
  shapeCasts_S16x512_S1x16x512 : S16x512.ShapeCasts S1x16x512
  concatenates_S1x16x512_S1x16x512_S1x16x512_S1x16x512_S4x16x512_d0 : Shape.Concatenates [S1x16x512, S1x16x512, S1x16x512, S1x16x512] S4x16x512 0
  inb_S8x4x16x512_S7x4x16x512_1_0_0_0 : ∀ a, (![1, 0, 0, 0] : Fin 4 → Nat) a + S7x4x16x512.size a ≤ S8x4x16x512.size a
  h_S7x4x16x512 : 0 < S7x4x16x512.numel
  reduces_S7x4x16x512_S4x16x512 : S7x4x16x512.Reduces [0] S4x16x512
  inb_S4x16x512_S4x16x512_0_0_0 : ∀ a, (![0, 0, 0] : Fin 3 → Nat) a + S4x16x512.size a ≤ S4x16x512.size a
  h_S4x16x512 : 0 < S4x16x512.numel
  shapeCasts_S4x16x512_S4x16x512 : S4x16x512.ShapeCasts S4x16x512
  packedbf16_S4x16x512_S4x16x512_0_0_0 : (Rect.unit (s := S4x16x512) ![0, 0, 0] S4x16x512.size inb_S4x16x512_S4x16x512_0_0_0).PackedRows (EltTy.packing .bf16)
  hamt_3 : (3#32 : BitVec 32).msb = false
  inb_S4_S1_1 : ∀ a, (![1] : Fin 1 → Nat) a + S1.size a ≤ S4.size a
  inb_S4x16x512_S1x16x512_1_0_0 : ∀ a, (![1, 0, 0] : Fin 3 → Nat) a + S1x16x512.size a ≤ S4x16x512.size a
  squeezes_S1x16x512_S16x512 : S1x16x512.Squeezes S16x512
  wordsbf16_S4x16x512_S1x16x512_1_0_0 : (Rect.unit (s := S4x16x512) ![1, 0, 0] S1x16x512.size inb_S4x16x512_S1x16x512_1_0_0).WholeWords (EltTy.packing .bf16)
  inb_S4_S1_2 : ∀ a, (![2] : Fin 1 → Nat) a + S1.size a ≤ S4.size a
  inb_S4x16x512_S1x16x512_2_0_0 : ∀ a, (![2, 0, 0] : Fin 3 → Nat) a + S1x16x512.size a ≤ S4x16x512.size a
  wordsbf16_S4x16x512_S1x16x512_2_0_0 : (Rect.unit (s := S4x16x512) ![2, 0, 0] S1x16x512.size inb_S4x16x512_S1x16x512_2_0_0).WholeWords (EltTy.packing .bf16)
  inb_S4_S1_3 : ∀ a, (![3] : Fin 1 → Nat) a + S1.size a ≤ S4.size a
  inb_S4x16x512_S1x16x512_3_0_0 : ∀ a, (![3, 0, 0] : Fin 3 → Nat) a + S1x16x512.size a ≤ S4x16x512.size a
  wordsbf16_S4x16x512_S1x16x512_3_0_0 : (Rect.unit (s := S4x16x512) ![3, 0, 0] S1x16x512.size inb_S4x16x512_S1x16x512_3_0_0).WholeWords (EltTy.packing .bf16)
  h_S1x16x512 : 0 < S1x16x512.numel
  shapeCasts_S1x16x512_S16x512 : S1x16x512.ShapeCasts S16x512
  inb_S4x16x512_S3x16x512_1_0_0 : ∀ a, (![1, 0, 0] : Fin 3 → Nat) a + S3x16x512.size a ≤ S4x16x512.size a
  h_S3x16x512 : 0 < S3x16x512.numel
  reduces_S3x16x512_S16x512 : S3x16x512.Reduces [0] S16x512
  inb_S16x512_S16x512_0_0 : ∀ a, (![0, 0] : Fin 2 → Nat) a + S16x512.size a ≤ S16x512.size a
  dot_S512x256_S256x512_S512x512_1_0_0_1_n_n_wf : DotDims.WF S512x256 S256x512 S512x512 [1] [0] [0] [1] [] []
  hcc0_scratch10 : 0 + S_.numel ≤ 2
  hcc0_scratch6 : 3 + S8.numel ≤ 27
  hcc0_scratch7 : 11 + S8.numel ≤ 27
  hcc0_scratch8 : 19 + S4.numel ≤ 27
  hcc0_scratch9 : 23 + S4.numel ≤ 27
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off1_inb : ∀ d0 : Dev nD, ∀ (r : Fin 7), ∀ a, (k0_off1 d0 (BitVec.ofNat 32 (1 + r.val))) a + S1x4x16x512.size a ≤ S8x4x16x512.size a
  k0_off1_wordsbf16 : ∀ d0 : Dev nD, ∀ (r : Fin 7), (Rect.unit (s := S8x4x16x512) (k0_off1 d0 (BitVec.ofNat 32 (1 + r.val))) S1x4x16x512.size (k0_off1_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off2_inb : ∀ d0 : Dev nD, ∀ (r : Fin 4), ∀ a, (k0_off2 d0 (BitVec.ofNat 32 (128 * r.val))) a + S16x512.size a ≤ S512x512.size a
  k0_off3_inb : ∀ d0 : Dev nD, ∀ (r : Fin 3), ∀ a, (k0_off3 d0 (BitVec.ofNat 32 (1 + r.val))) a + S1x16x512.size a ≤ S4x16x512.size a
  k0_off3_wordsbf16 : ∀ d0 : Dev nD, ∀ (r : Fin 3), (Rect.unit (s := S4x16x512) (k0_off3 d0 (BitVec.ofNat 32 (1 + r.val))) S1x16x512.size (k0_off3_inb d0 r)).WholeWords (EltTy.packing .bf16)
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_off4_inb : ∀ d0 : Dev nD, ∀ a, (k0_off4 d0) a + S1x16x512.size a ≤ S4x16x512.size a
  hstage0_0 : ∀ j, (stage0_0 j).IsWhole
  hstage0_1 : ∀ j, (stage0_1 j).IsWhole
  hstage0_2 : ∀ j, (stage0_2 j).IsWhole

variable [Facts₀]

abbrev cc0_scratch10 : Sems sig S_ := SemArray.consecutive 0 S_ hcc0_scratch10
abbrev cc0_scratch6 : DmaSems sig S8 := SemArray.consecutive 3 S8 hcc0_scratch6
abbrev cc0_scratch7 : DmaSems sig S8 := SemArray.consecutive 11 S8 hcc0_scratch7
abbrev cc0_scratch8 : DmaSems sig S4 := SemArray.consecutive 19 S4 hcc0_scratch8
abbrev cc0_scratch9 : DmaSems sig S4 := SemArray.consecutive 23 S4 hcc0_scratch9
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192x512 : Shape := ⟨2, ![8192, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x512, .f32⟩
  | .hbm, ⟨2, _⟩ => ⟨S512x512, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S512x8192_S8192x512_S512x512_1_0_0_1_n_n_wf : DotDims.WF S512x8192 S8192x512 S512x512 [1] [0] [0] [1] [] []

variable [Facts₀]

def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

class Facts : Prop extends Facts₀ where

variable [Facts]
-- ==== Proof.Mesh.lean ====
import proofs.«900450_g7700000000000451_dist_matmul_mk_i_outk_m512_n512_k256_v7x_i32_f32_1_alg».proof.Proof.Gen.KernelIdeal.Frame
import proofs.«900450_g7700000000000451_dist_matmul_mk_i_outk_m512_n512_k256_v7x_i32_f32_1_alg».proof.Proof.Gen.KernelIdeal.Skeleton
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of the collective -/

/-- A duty is named by the device that pays it and a small index. -/
abbrev DU : Type := Dev nD × Fin 8
abbrev UB : Type := URounds (GSem nD τ sig) DU
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh as 4 planes of 8: a device is (plane, place) = (c / 8, c % 8) -/

/-- The device `r` places on in the same plane. -/
def rotq (c : Dev nD) (r : ℕ) : Dev nD := ⟨8 * (c.val / 8) + ((c.val % 8) + r) % 8, by have : c.val < 32 := c.2; show _ < 32; omega⟩
/-- The device at the same place `r` planes on. -/
def rotz (c : Dev nD) (r : ℕ) : Dev nD := ⟨8 * (((c.val / 8) + r) % 4) + c.val % 8, by have : c.val < 32 := c.2; show _ < 32; omega⟩

theorem dev1_eq (c : Dev nD) : (⟨k0_dev1 c, k0_dev1_lt c⟩ : Dev nD) = rotq c 1 := Fin.ext (k0_dev1_eq c)
theorem dev2_eq (c : Dev nD) : (⟨k0_dev2 c, k0_dev2_lt c⟩ : Dev nD) = rotq c 2 := Fin.ext (k0_dev2_eq c)
theorem dev3_eq (c : Dev nD) : (⟨k0_dev3 c, k0_dev3_lt c⟩ : Dev nD) = rotq c 3 := Fin.ext (k0_dev3_eq c)
theorem dev4_eq (c : Dev nD) : (⟨k0_dev4 c, k0_dev4_lt c⟩ : Dev nD) = rotq c 4 := Fin.ext (k0_dev4_eq c)
theorem dev5_eq (c : Dev nD) : (⟨k0_dev5 c, k0_dev5_lt c⟩ : Dev nD) = rotq c 5 := Fin.ext (k0_dev5_eq c)
theorem dev6_eq (c : Dev nD) : (⟨k0_dev6 c, k0_dev6_lt c⟩ : Dev nD) = rotq c 6 := Fin.ext (k0_dev6_eq c)
theorem dev7_eq (c : Dev nD) : (⟨k0_dev7 c, k0_dev7_lt c⟩ : Dev nD) = rotq c 7 := Fin.ext (k0_dev7_eq c)
theorem dev8_eq (c : Dev nD) : (⟨k0_dev8 c, k0_dev8_lt c⟩ : Dev nD) = rotz c 1 := Fin.ext (k0_dev8_eq c)
theorem dev9_eq (c : Dev nD) : (⟨k0_dev9 c, k0_dev9_lt c⟩ : Dev nD) = rotz c 2 := Fin.ext (k0_dev9_eq c)
theorem dev10_eq (c : Dev nD) : (⟨k0_dev10 c, k0_dev10_lt c⟩ : Dev nD) = rotz c 3 := Fin.ext (k0_dev10_eq c)
theorem dev11_eq (c : Dev nD) : (⟨k0_dev11 c, k0_dev11_lt c⟩ : Dev nD) = rotq c 1 := Fin.ext (k0_dev11_eq c)
theorem dev12_eq (c : Dev nD) : (⟨k0_dev12 c, k0_dev12_lt c⟩ : Dev nD) = rotq c 2 := Fin.ext (k0_dev12_eq c)
theorem dev13_eq (c : Dev nD) : (⟨k0_dev13 c, k0_dev13_lt c⟩ : Dev nD) = rotq c 3 := Fin.ext (k0_dev13_eq c)
theorem dev14_eq (c : Dev nD) : (⟨k0_dev14 c, k0_dev14_lt c⟩ : Dev nD) = rotq c 4 := Fin.ext (k0_dev14_eq c)
theorem dev15_eq (c : Dev nD) : (⟨k0_dev15 c, k0_dev15_lt c⟩ : Dev nD) = rotq c 5 := Fin.ext (k0_dev15_eq c)
theorem dev16_eq (c : Dev nD) : (⟨k0_dev16 c, k0_dev16_lt c⟩ : Dev nD) = rotq c 6 := Fin.ext (k0_dev16_eq c)
theorem dev17_eq (c : Dev nD) : (⟨k0_dev17 c, k0_dev17_lt c⟩ : Dev nD) = rotq c 7 := Fin.ext (k0_dev17_eq c)
theorem dev18_eq (c : Dev nD) : (⟨k0_dev18 c, k0_dev18_lt c⟩ : Dev nD) = rotz c 1 := Fin.ext (k0_dev18_eq c)
theorem dev19_eq (c : Dev nD) : (⟨k0_dev19 c, k0_dev19_lt c⟩ : Dev nD) = rotz c 2 := Fin.ext (k0_dev19_eq c)
theorem dev20_eq (c : Dev nD) : (⟨k0_dev20 c, k0_dev20_lt c⟩ : Dev nD) = rotz c 3 := Fin.ext (k0_dev20_eq c)
attribute [sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq

theorem rotq_1_7 : ∀ c : Dev nD, rotq (rotq c 1) 7 = c := by decide
theorem rotq_2_6 : ∀ c : Dev nD, rotq (rotq c 2) 6 = c := by decide
theorem rotq_3_5 : ∀ c : Dev nD, rotq (rotq c 3) 5 = c := by decide
theorem rotq_4_4 : ∀ c : Dev nD, rotq (rotq c 4) 4 = c := by decide
theorem rotq_5_3 : ∀ c : Dev nD, rotq (rotq c 5) 3 = c := by decide
theorem rotq_6_2 : ∀ c : Dev nD, rotq (rotq c 6) 2 = c := by decide
theorem rotq_7_1 : ∀ c : Dev nD, rotq (rotq c 7) 1 = c := by decide
theorem rotz_1_3 : ∀ c : Dev nD, rotz (rotz c 1) 3 = c := by decide
theorem rotz_2_2 : ∀ c : Dev nD, rotz (rotz c 2) 2 = c := by decide
theorem rotz_3_1 : ∀ c : Dev nD, rotz (rotz c 3) 1 = c := by decide

/-! ## The semaphores -/

abbrev barS : Sem sig := (SemArray.scalar (sig.barrier 0 rfl) : Sems sig S_).sem
abbrev zrS : Sem sig := (cc0_scratch10 : Sems sig S_).sem
/-- Send and receive semaphores of the in-plane exchange (index `r` is the program's `oq - 1`) and of the cross-plane one. -/
def s1S : Fin 7 → DmaSem sig
  | 0 => ((cc0_scratch6.slice (Rect.unit (s := S8) ![1] S1.size inb_S8_S1_1)).squeeze S_ squeezes_S1_S_).sem
  | 1 => ((cc0_scratch6.slice (Rect.unit (s := S8) ![2] S1.size inb_S8_S1_2)).squeeze S_ squeezes_S1_S_).sem
  | 2 => ((cc0_scratch6.slice (Rect.unit (s := S8) ![3] S1.size inb_S8_S1_3)).squeeze S_ squeezes_S1_S_).sem
  | 3 => ((cc0_scratch6.slice (Rect.unit (s := S8) ![4] S1.size inb_S8_S1_4)).squeeze S_ squeezes_S1_S_).sem
  | 4 => ((cc0_scratch6.slice (Rect.unit (s := S8) ![5] S1.size inb_S8_S1_5)).squeeze S_ squeezes_S1_S_).sem
  | 5 => ((cc0_scratch6.slice (Rect.unit (s := S8) ![6] S1.size inb_S8_S1_6)).squeeze S_ squeezes_S1_S_).sem
  | 6 => ((cc0_scratch6.slice (Rect.unit (s := S8) ![7] S1.size inb_S8_S1_7)).squeeze S_ squeezes_S1_S_).sem
def v1S : Fin 7 → DmaSem sig
  | 0 => ((cc0_scratch7.slice (Rect.unit (s := S8) ![1] S1.size inb_S8_S1_1)).squeeze S_ squeezes_S1_S_).sem
  | 1 => ((cc0_scratch7.slice (Rect.unit (s := S8) ![2] S1.size inb_S8_S1_2)).squeeze S_ squeezes_S1_S_).sem
  | 2 => ((cc0_scratch7.slice (Rect.unit (s := S8) ![3] S1.size inb_S8_S1_3)).squeeze S_ squeezes_S1_S_).sem
  | 3 => ((cc0_scratch7.slice (Rect.unit (s := S8) ![4] S1.size inb_S8_S1_4)).squeeze S_ squeezes_S1_S_).sem
  | 4 => ((cc0_scratch7.slice (Rect.unit (s := S8) ![5] S1.size inb_S8_S1_5)).squeeze S_ squeezes_S1_S_).sem
  | 5 => ((cc0_scratch7.slice (Rect.unit (s := S8) ![6] S1.size inb_S8_S1_6)).squeeze S_ squeezes_S1_S_).sem
  | 6 => ((cc0_scratch7.slice (Rect.unit (s := S8) ![7] S1.size inb_S8_S1_7)).squeeze S_ squeezes_S1_S_).sem
def s2S : Fin 3 → DmaSem sig
  | 0 => ((cc0_scratch8.slice (Rect.unit (s := S4) ![1] S1.size inb_S4_S1_1)).squeeze S_ squeezes_S1_S_).sem
  | 1 => ((cc0_scratch8.slice (Rect.unit (s := S4) ![2] S1.size inb_S4_S1_2)).squeeze S_ squeezes_S1_S_).sem
  | 2 => ((cc0_scratch8.slice (Rect.unit (s := S4) ![3] S1.size inb_S4_S1_3)).squeeze S_ squeezes_S1_S_).sem
def v2S : Fin 3 → DmaSem sig
  | 0 => ((cc0_scratch9.slice (Rect.unit (s := S4) ![1] S1.size inb_S4_S1_1)).squeeze S_ squeezes_S1_S_).sem
  | 1 => ((cc0_scratch9.slice (Rect.unit (s := S4) ![2] S1.size inb_S4_S1_2)).squeeze S_ squeezes_S1_S_).sem
  | 2 => ((cc0_scratch9.slice (Rect.unit (s := S4) ![3] S1.size inb_S4_S1_3)).squeeze S_ squeezes_S1_S_).sem

abbrev barCell (c : Dev nD) : GSem nD τ sig := ((c : Thread nD τ), .reg barS)
abbrev zrCell (c : Dev nD) : GSem nD τ sig := ((c : Thread nD τ), .reg zrS)
abbrev s1Cell (c : Dev nD) (r : Fin 7) : GSem nD τ sig := ((c : Thread nD τ), .dma (s1S r))
abbrev v1Cell (c : Dev nD) (r : Fin 7) : GSem nD τ sig := ((c : Thread nD τ), .dma (v1S r))
abbrev s2Cell (c : Dev nD) (r : Fin 3) : GSem nD τ sig := ((c : Thread nD τ), .dma (s2S r))
abbrev v2Cell (c : Dev nD) (r : Fin 3) : GSem nD τ sig := ((c : Thread nD τ), .dma (v2S r))

/-! ## The slots of the exchange buffers -/

/-- Slot `r + 1` of the in-plane receive buffer. -/
def slot1 : Fin 7 → Memref sig .tc .vmem S4x16x512 .bf16
  | 0 => (((Memref.whole cc0_scratch2 : Memref sig .tc .vmem S8x4x16x512 .bf16).slice (Rect.unit (s := S8x4x16x512) ![1, 0, 0, 0] S1x4x16x512.size inb_S8x4x16x512_S1x4x16x512_1_0_0_0) (fun _ => rfl)).squeeze S4x16x512 squeezes_S1x4x16x512_S4x16x512)
  | 1 => (((Memref.whole cc0_scratch2 : Memref sig .tc .vmem S8x4x16x512 .bf16).slice (Rect.unit (s := S8x4x16x512) ![2, 0, 0, 0] S1x4x16x512.size inb_S8x4x16x512_S1x4x16x512_2_0_0_0) (fun _ => rfl)).squeeze S4x16x512 squeezes_S1x4x16x512_S4x16x512)
  | 2 => (((Memref.whole cc0_scratch2 : Memref sig .tc .vmem S8x4x16x512 .bf16).slice (Rect.unit (s := S8x4x16x512) ![3, 0, 0, 0] S1x4x16x512.size inb_S8x4x16x512_S1x4x16x512_3_0_0_0) (fun _ => rfl)).squeeze S4x16x512 squeezes_S1x4x16x512_S4x16x512)
  | 3 => (((Memref.whole cc0_scratch2 : Memref sig .tc .vmem S8x4x16x512 .bf16).slice (Rect.unit (s := S8x4x16x512) ![4, 0, 0, 0] S1x4x16x512.size inb_S8x4x16x512_S1x4x16x512_4_0_0_0) (fun _ => rfl)).squeeze S4x16x512 squeezes_S1x4x16x512_S4x16x512)
  | 4 => (((Memref.whole cc0_scratch2 : Memref sig .tc .vmem S8x4x16x512 .bf16).slice (Rect.unit (s := S8x4x16x512) ![5, 0, 0, 0] S1x4x16x512.size inb_S8x4x16x512_S1x4x16x512_5_0_0_0) (fun _ => rfl)).squeeze S4x16x512 squeezes_S1x4x16x512_S4x16x512)
  | 5 => (((Memref.whole cc0_scratch2 : Memref sig .tc .vmem S8x4x16x512 .bf16).slice (Rect.unit (s := S8x4x16x512) ![6, 0, 0, 0] S1x4x16x512.size inb_S8x4x16x512_S1x4x16x512_6_0_0_0) (fun _ => rfl)).squeeze S4x16x512 squeezes_S1x4x16x512_S4x16x512)
  | 6 => (((Memref.whole cc0_scratch2 : Memref sig .tc .vmem S8x4x16x512 .bf16).slice (Rect.unit (s := S8x4x16x512) ![7, 0, 0, 0] S1x4x16x512.size inb_S8x4x16x512_S1x4x16x512_7_0_0_0) (fun _ => rfl)).squeeze S4x16x512 squeezes_S1x4x16x512_S4x16x512)
/-- The slice of the rounded partial products device `c` sends with its `r`-th in-plane transfer. -/
def src1 (c : Dev nD) : Fin 7 → Memref sig .tc .vmem S4x16x512 .bf16
  | 0 => (((Memref.whole cc0_scratch1 : Memref sig .tc .vmem S8x4x16x512 .bf16).slice (Rect.unit (s := S8x4x16x512) (k0_off1 c 1#32) S1x4x16x512.size (k0_off1_inb c 0)) (fun _ => rfl)).squeeze S4x16x512 squeezes_S1x4x16x512_S4x16x512)
  | 1 => (((Memref.whole cc0_scratch1 : Memref sig .tc .vmem S8x4x16x512 .bf16).slice (Rect.unit (s := S8x4x16x512) (k0_off1 c 2#32) S1x4x16x512.size (k0_off1_inb c 1)) (fun _ => rfl)).squeeze S4x16x512 squeezes_S1x4x16x512_S4x16x512)
  | 2 => (((Memref.whole cc0_scratch1 : Memref sig .tc .vmem S8x4x16x512 .bf16).slice (Rect.unit (s := S8x4x16x512) (k0_off1 c 3#32) S1x4x16x512.size (k0_off1_inb c 2)) (fun _ => rfl)).squeeze S4x16x512 squeezes_S1x4x16x512_S4x16x512)
  | 3 => (((Memref.whole cc0_scratch1 : Memref sig .tc .vmem S8x4x16x512 .bf16).slice (Rect.unit (s := S8x4x16x512) (k0_off1 c 4#32) S1x4x16x512.size (k0_off1_inb c 3)) (fun _ => rfl)).squeeze S4x16x512 squeezes_S1x4x16x512_S4x16x512)
  | 4 => (((Memref.whole cc0_scratch1 : Memref sig .tc .vmem S8x4x16x512 .bf16).slice (Rect.unit (s := S8x4x16x512) (k0_off1 c 5#32) S1x4x16x512.size (k0_off1_inb c 4)) (fun _ => rfl)).squeeze S4x16x512 squeezes_S1x4x16x512_S4x16x512)
  | 5 => (((Memref.whole cc0_scratch1 : Memref sig .tc .vmem S8x4x16x512 .bf16).slice (Rect.unit (s := S8x4x16x512) (k0_off1 c 6#32) S1x4x16x512.size (k0_off1_inb c 5)) (fun _ => rfl)).squeeze S4x16x512 squeezes_S1x4x16x512_S4x16x512)
  | 6 => (((Memref.whole cc0_scratch1 : Memref sig .tc .vmem S8x4x16x512 .bf16).slice (Rect.unit (s := S8x4x16x512) (k0_off1 c 7#32) S1x4x16x512.size (k0_off1_inb c 6)) (fun _ => rfl)).squeeze S4x16x512 squeezes_S1x4x16x512_S4x16x512)
/-- Slot `r + 1` of the cross-plane receive buffer. -/
def slot2 : Fin 3 → Memref sig .tc .vmem S16x512 .bf16
  | 0 => (((Memref.whole cc0_scratch5 : Memref sig .tc .vmem S4x16x512 .bf16).slice (Rect.unit (s := S4x16x512) ![1, 0, 0] S1x16x512.size inb_S4x16x512_S1x16x512_1_0_0) (fun _ => rfl)).squeeze S16x512 squeezes_S1x16x512_S16x512)
  | 1 => (((Memref.whole cc0_scratch5 : Memref sig .tc .vmem S4x16x512 .bf16).slice (Rect.unit (s := S4x16x512) ![2, 0, 0] S1x16x512.size inb_S4x16x512_S1x16x512_2_0_0) (fun _ => rfl)).squeeze S16x512 squeezes_S1x16x512_S16x512)
  | 2 => (((Memref.whole cc0_scratch5 : Memref sig .tc .vmem S4x16x512 .bf16).slice (Rect.unit (s := S4x16x512) ![3, 0, 0] S1x16x512.size inb_S4x16x512_S1x16x512_3_0_0) (fun _ => rfl)).squeeze S16x512 squeezes_S1x16x512_S16x512)
def src2 (c : Dev nD) : Fin 3 → Memref sig .tc .vmem S16x512 .bf16
  | 0 => (((Memref.whole cc0_scratch4 : Memref sig .tc .vmem S4x16x512 .bf16).slice (Rect.unit (s := S4x16x512) (k0_off3 c 1#32) S1x16x512.size (k0_off3_inb c 0)) (fun _ => rfl)).squeeze S16x512 squeezes_S1x16x512_S16x512)
  | 1 => (((Memref.whole cc0_scratch4 : Memref sig .tc .vmem S4x16x512 .bf16).slice (Rect.unit (s := S4x16x512) (k0_off3 c 2#32) S1x16x512.size (k0_off3_inb c 1)) (fun _ => rfl)).squeeze S16x512 squeezes_S1x16x512_S16x512)
  | 2 => (((Memref.whole cc0_scratch4 : Memref sig .tc .vmem S4x16x512 .bf16).slice (Rect.unit (s := S4x16x512) (k0_off3 c 3#32) S1x16x512.size (k0_off3_inb c 2)) (fun _ => rfl)).squeeze S16x512 squeezes_S1x16x512_S16x512)

abbrev N1 : ℕ := (slot1 0).view.dmaCredit
abbrev N2 : ℕ := (slot2 0).view.dmaCredit

end Cert.KernelIdeal.Hand
end
-- ==== Proof.Sched.lean ====
import proofs.«900450_g7700000000000451_dist_matmul_mk_i_outk_m512_n512_k256_v7x_i32_f32_1_alg».proof.Proof.Mesh

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the exchange buffers hold, as whole-buffer contents -/

/-- The values the payloads are stated at: per device `x`, what lands in slot `r + 1` of its in-plane receive buffer (the sender's rounded
    partial products for `x`'s place), what lands in slot `r + 1` of its cross-plane receive buffer (the sender's rounded plane sums for
    `x`'s plane), and its result block. -/
structure Cont (F : FTy → Type) where
  v1 : (x : Dev nD) → Fin 7 → FVec F S4x16x512 .bf16
  v2 : (x : Dev nD) → Fin 3 → FVec F S16x512 .bf16
  out : (c : Dev nD) → Buf (Elt F) ((c : Thread nD τ).loc cc0_stg2_0)

variable (K : Cont F)

/-! ## The cells, classified -/

inductive CK : Type
  | bar | zr | s1 (r : Fin 7) | v1 (r : Fin 7) | s2 (r : Fin 3) | v2 (r : Fin 3) | other
  deriving DecidableEq

def kindOf : SemLoc sig → CK
  | .reg s => match s.val with
    | 0 => .zr | 1 => .bar | _ => .other
  | .dma q => match q.val with
    | 4 => .s1 0
    | 5 => .s1 1
    | 6 => .s1 2
    | 7 => .s1 3
    | 8 => .s1 4
    | 9 => .s1 5
    | 10 => .s1 6
    | 12 => .v1 0
    | 13 => .v1 1
    | 14 => .v1 2
    | 15 => .v1 3
    | 16 => .v1 4
    | 17 => .v1 5
    | 18 => .v1 6
    | 20 => .s2 0
    | 21 => .s2 1
    | 22 => .s2 2
    | 24 => .v2 0
    | 25 => .v2 1
    | 26 => .v2 2
    | _ => .other

/-! ## The payloads -/

/-- Slot `j + 1` of device `p`'s in-plane receive buffer, at some contents, and that `p` is at round 0 of the slot's receive cell:
    what `p`'s entry signal hands the device that will write the slot. -/
def payBar (p : Dev nD) : Fin 8 → sProp 𝕄
  | 0 => iprop((∃ f : Buf (Elt F) ((slot1 0).view.loc (p : Thread nD τ)), (slot1 0).view.loc (p : Thread nD τ) ↦[(slot1 0).view.set]{fullShare} f) ∗ reached ER (v1Cell p 0) 0)
  | 1 => iprop((∃ f : Buf (Elt F) ((slot1 1).view.loc (p : Thread nD τ)), (slot1 1).view.loc (p : Thread nD τ) ↦[(slot1 1).view.set]{fullShare} f) ∗ reached ER (v1Cell p 1) 0)
  | 2 => iprop((∃ f : Buf (Elt F) ((slot1 2).view.loc (p : Thread nD τ)), (slot1 2).view.loc (p : Thread nD τ) ↦[(slot1 2).view.set]{fullShare} f) ∗ reached ER (v1Cell p 2) 0)
  | 3 => iprop((∃ f : Buf (Elt F) ((slot1 3).view.loc (p : Thread nD τ)), (slot1 3).view.loc (p : Thread nD τ) ↦[(slot1 3).view.set]{fullShare} f) ∗ reached ER (v1Cell p 3) 0)
  | 4 => iprop((∃ f : Buf (Elt F) ((slot1 4).view.loc (p : Thread nD τ)), (slot1 4).view.loc (p : Thread nD τ) ↦[(slot1 4).view.set]{fullShare} f) ∗ reached ER (v1Cell p 4) 0)
  | 5 => iprop((∃ f : Buf (Elt F) ((slot1 5).view.loc (p : Thread nD τ)), (slot1 5).view.loc (p : Thread nD τ) ↦[(slot1 5).view.set]{fullShare} f) ∗ reached ER (v1Cell p 5) 0)
  | 6 => iprop((∃ f : Buf (Elt F) ((slot1 6).view.loc (p : Thread nD τ)), (slot1 6).view.loc (p : Thread nD τ) ↦[(slot1 6).view.set]{fullShare} f) ∗ reached ER (v1Cell p 6) 0)
  | 7 => iprop(emp)
def payZr (p : Dev nD) : Fin 8 → sProp 𝕄
  | 0 => iprop((∃ f : Buf (Elt F) ((slot2 0).view.loc (p : Thread nD τ)), (slot2 0).view.loc (p : Thread nD τ) ↦[(slot2 0).view.set]{fullShare} f) ∗ reached ER (v2Cell p 0) 0)
  | 1 => iprop((∃ f : Buf (Elt F) ((slot2 1).view.loc (p : Thread nD τ)), (slot2 1).view.loc (p : Thread nD τ) ↦[(slot2 1).view.set]{fullShare} f) ∗ reached ER (v2Cell p 1) 0)
  | 2 => iprop((∃ f : Buf (Elt F) ((slot2 2).view.loc (p : Thread nD τ)), (slot2 2).view.loc (p : Thread nD τ) ↦[(slot2 2).view.set]{fullShare} f) ∗ reached ER (v2Cell p 2) 0)
  | _ => iprop(emp)

/-- One round per cell. A barrier cell of `x`: seven unit duties, `(rotq x (j+1), j)` paid by the device `j + 1` places on; a
    ready cell: three, `(rotz x (j+1), j)`; a send cell: the core's own departure; a receive cell: the arrival from the device
    whose `r`-th transfer is addressed to `x`. -/
def Rd : Rounds.Schedule (GSem nD τ sig) DU 𝕄 where
  duties g r := if r = 0 ∧ g.1.2 = .tc then (match kindOf g.2 with
    | .bar => {(rotq g.1.1 1, 0), (rotq g.1.1 2, 1), (rotq g.1.1 3, 2), (rotq g.1.1 4, 3), (rotq g.1.1 5, 4), (rotq g.1.1 6, 5), (rotq g.1.1 7, 6)}
    | .zr => {(rotz g.1.1 1, 0), (rotz g.1.1 2, 1), (rotz g.1.1 3, 2)}
    | .s1 _ => {(g.1.1, 0)}
    | .s2 _ => {(g.1.1, 0)}
    | .v1 0 => {(rotq g.1.1 7, 0)}
    | .v1 1 => {(rotq g.1.1 6, 0)}
    | .v1 2 => {(rotq g.1.1 5, 0)}
    | .v1 3 => {(rotq g.1.1 4, 0)}
    | .v1 4 => {(rotq g.1.1 3, 0)}
    | .v1 5 => {(rotq g.1.1 2, 0)}
    | .v1 6 => {(rotq g.1.1 1, 0)}
    | .v2 0 => {(rotz g.1.1 3, 0)}
    | .v2 1 => {(rotz g.1.1 2, 0)}
    | .v2 2 => {(rotz g.1.1 1, 0)}
    | .other => ∅) else ∅
  unitless _ := False
  amount g _ _ := match kindOf g.2 with
    | .s1 _ => N1 | .v1 _ => N1 | .s2 _ => N2 | .v2 _ => N2 | _ => 1
  payload g _ d := match kindOf g.2 with
    | .bar => payBar d.1 d.2
    | .zr => payZr d.1 d.2
    | .s1 0 => iprop(∃ f : Buf (Elt F) ((src1 g.1.1 0).view.loc (g.1.1 : Thread nD τ)), (src1 g.1.1 0).view.loc (g.1.1 : Thread nD τ) ↦[(src1 g.1.1 0).view.set]{fullShare} f)
    | .s1 1 => iprop(∃ f : Buf (Elt F) ((src1 g.1.1 1).view.loc (g.1.1 : Thread nD τ)), (src1 g.1.1 1).view.loc (g.1.1 : Thread nD τ) ↦[(src1 g.1.1 1).view.set]{fullShare} f)
    | .s1 2 => iprop(∃ f : Buf (Elt F) ((src1 g.1.1 2).view.loc (g.1.1 : Thread nD τ)), (src1 g.1.1 2).view.loc (g.1.1 : Thread nD τ) ↦[(src1 g.1.1 2).view.set]{fullShare} f)
    | .s1 3 => iprop(∃ f : Buf (Elt F) ((src1 g.1.1 3).view.loc (g.1.1 : Thread nD τ)), (src1 g.1.1 3).view.loc (g.1.1 : Thread nD τ) ↦[(src1 g.1.1 3).view.set]{fullShare} f)
    | .s1 4 => iprop(∃ f : Buf (Elt F) ((src1 g.1.1 4).view.loc (g.1.1 : Thread nD τ)), (src1 g.1.1 4).view.loc (g.1.1 : Thread nD τ) ↦[(src1 g.1.1 4).view.set]{fullShare} f)
    | .s1 5 => iprop(∃ f : Buf (Elt F) ((src1 g.1.1 5).view.loc (g.1.1 : Thread nD τ)), (src1 g.1.1 5).view.loc (g.1.1 : Thread nD τ) ↦[(src1 g.1.1 5).view.set]{fullShare} f)
    | .s1 6 => iprop(∃ f : Buf (Elt F) ((src1 g.1.1 6).view.loc (g.1.1 : Thread nD τ)), (src1 g.1.1 6).view.loc (g.1.1 : Thread nD τ) ↦[(src1 g.1.1 6).view.set]{fullShare} f)
    | .v1 0 => iprop(∃ f : Buf (Elt F) ((slot1 0).view.loc (g.1.1 : Thread nD τ)), ⌜(slot1 0).view.read (Elt F) f = K.v1 g.1.1 0⌝ ∗ (slot1 0).view.loc (g.1.1 : Thread nD τ) ↦[(slot1 0).view.set]{fullShare} f)
    | .v1 1 => iprop(∃ f : Buf (Elt F) ((slot1 1).view.loc (g.1.1 : Thread nD τ)), ⌜(slot1 1).view.read (Elt F) f = K.v1 g.1.1 1⌝ ∗ (slot1 1).view.loc (g.1.1 : Thread nD τ) ↦[(slot1 1).view.set]{fullShare} f)
    | .v1 2 => iprop(∃ f : Buf (Elt F) ((slot1 2).view.loc (g.1.1 : Thread nD τ)), ⌜(slot1 2).view.read (Elt F) f = K.v1 g.1.1 2⌝ ∗ (slot1 2).view.loc (g.1.1 : Thread nD τ) ↦[(slot1 2).view.set]{fullShare} f)
    | .v1 3 => iprop(∃ f : Buf (Elt F) ((slot1 3).view.loc (g.1.1 : Thread nD τ)), ⌜(slot1 3).view.read (Elt F) f = K.v1 g.1.1 3⌝ ∗ (slot1 3).view.loc (g.1.1 : Thread nD τ) ↦[(slot1 3).view.set]{fullShare} f)
    | .v1 4 => iprop(∃ f : Buf (Elt F) ((slot1 4).view.loc (g.1.1 : Thread nD τ)), ⌜(slot1 4).view.read (Elt F) f = K.v1 g.1.1 4⌝ ∗ (slot1 4).view.loc (g.1.1 : Thread nD τ) ↦[(slot1 4).view.set]{fullShare} f)
    | .v1 5 => iprop(∃ f : Buf (Elt F) ((slot1 5).view.loc (g.1.1 : Thread nD τ)), ⌜(slot1 5).view.read (Elt F) f = K.v1 g.1.1 5⌝ ∗ (slot1 5).view.loc (g.1.1 : Thread nD τ) ↦[(slot1 5).view.set]{fullShare} f)
    | .v1 6 => iprop(∃ f : Buf (Elt F) ((slot1 6).view.loc (g.1.1 : Thread nD τ)), ⌜(slot1 6).view.read (Elt F) f = K.v1 g.1.1 6⌝ ∗ (slot1 6).view.loc (g.1.1 : Thread nD τ) ↦[(slot1 6).view.set]{fullShare} f)
    | .s2 0 => iprop(∃ f : Buf (Elt F) ((src2 g.1.1 0).view.loc (g.1.1 : Thread nD τ)), (src2 g.1.1 0).view.loc (g.1.1 : Thread nD τ) ↦[(src2 g.1.1 0).view.set]{fullShare} f)
    | .s2 1 => iprop(∃ f : Buf (Elt F) ((src2 g.1.1 1).view.loc (g.1.1 : Thread nD τ)), (src2 g.1.1 1).view.loc (g.1.1 : Thread nD τ) ↦[(src2 g.1.1 1).view.set]{fullShare} f)
    | .s2 2 => iprop(∃ f : Buf (Elt F) ((src2 g.1.1 2).view.loc (g.1.1 : Thread nD τ)), (src2 g.1.1 2).view.loc (g.1.1 : Thread nD τ) ↦[(src2 g.1.1 2).view.set]{fullShare} f)
    | .v2 0 => iprop(∃ f : Buf (Elt F) ((slot2 0).view.loc (g.1.1 : Thread nD τ)), ⌜(slot2 0).view.read (Elt F) f = K.v2 g.1.1 0⌝ ∗ (slot2 0).view.loc (g.1.1 : Thread nD τ) ↦[(slot2 0).view.set]{fullShare} f)
    | .v2 1 => iprop(∃ f : Buf (Elt F) ((slot2 1).view.loc (g.1.1 : Thread nD τ)), ⌜(slot2 1).view.read (Elt F) f = K.v2 g.1.1 1⌝ ∗ (slot2 1).view.loc (g.1.1 : Thread nD τ) ↦[(slot2 1).view.set]{fullShare} f)
    | .v2 2 => iprop(∃ f : Buf (Elt F) ((slot2 2).view.loc (g.1.1 : Thread nD τ)), ⌜(slot2 2).view.read (Elt F) f = K.v2 g.1.1 2⌝ ∗ (slot2 2).view.loc (g.1.1 : Thread nD τ) ↦[(slot2 2).view.set]{fullShare} f)
    | .other => iprop(emp)
  amount_pos g _ _ _ := by
    cases kindOf g.2 <;> first | exact Nat.one_pos | exact View.dmaCredit_pos _ (by decide)

/-! ## The schedule's tables -/

section Tables
variable (x p : Dev nD)

theorem duties_bar : (Rd K).duties (barCell x) 0 = {(rotq x 1, 0), (rotq x 2, 1), (rotq x 3, 2), (rotq x 4, 3), (rotq x 5, 4), (rotq x 6, 5), (rotq x 7, 6)} := by
  dsimp only [Rd]; rw [if_pos ⟨rfl, rfl⟩]; rfl
theorem duties_zr : (Rd K).duties (zrCell x) 0 = {(rotz x 1, 0), (rotz x 2, 1), (rotz x 3, 2)} := by
  dsimp only [Rd]; rw [if_pos ⟨rfl, rfl⟩]; rfl
theorem duties_s1_0 : (Rd K).duties (s1Cell x 0) 0 = {(x, 0)} := by
  dsimp only [Rd]; rw [if_pos ⟨rfl, rfl⟩]; rfl
theorem duties_v1_0 : (Rd K).duties (v1Cell x 0) 0 = {(rotq x 7, 0)} := by
  dsimp only [Rd]; rw [if_pos ⟨rfl, rfl⟩]; rfl
theorem duties_s1_1 : (Rd K).duties (s1Cell x 1) 0 = {(x, 0)} := by
  dsimp only [Rd]; rw [if_pos ⟨rfl, rfl⟩]; rfl
theorem duties_v1_1 : (Rd K).duties (v1Cell x 1) 0 = {(rotq x 6, 0)} := by
  dsimp only [Rd]; rw [if_pos ⟨rfl, rfl⟩]; rfl
theorem duties_s1_2 : (Rd K).duties (s1Cell x 2) 0 = {(x, 0)} := by
  dsimp only [Rd]; rw [if_pos ⟨rfl, rfl⟩]; rfl
theorem duties_v1_2 : (Rd K).duties (v1Cell x 2) 0 = {(rotq x 5, 0)} := by
  dsimp only [Rd]; rw [if_pos ⟨rfl, rfl⟩]; rfl
theorem duties_s1_3 : (Rd K).duties (s1Cell x 3) 0 = {(x, 0)} := by
  dsimp only [Rd]; rw [if_pos ⟨rfl, rfl⟩]; rfl
theorem duties_v1_3 : (Rd K).duties (v1Cell x 3) 0 = {(rotq x 4, 0)} := by
  dsimp only [Rd]; rw [if_pos ⟨rfl, rfl⟩]; rfl
theorem duties_s1_4 : (Rd K).duties (s1Cell x 4) 0 = {(x, 0)} := by
  dsimp only [Rd]; rw [if_pos ⟨rfl, rfl⟩]; rfl
theorem duties_v1_4 : (Rd K).duties (v1Cell x 4) 0 = {(rotq x 3, 0)} := by
  dsimp only [Rd]; rw [if_pos ⟨rfl, rfl⟩]; rfl
theorem duties_s1_5 : (Rd K).duties (s1Cell x 5) 0 = {(x, 0)} := by
  dsimp only [Rd]; rw [if_pos ⟨rfl, rfl⟩]; rfl
theorem duties_v1_5 : (Rd K).duties (v1Cell x 5) 0 = {(rotq x 2, 0)} := by
  dsimp only [Rd]; rw [if_pos ⟨rfl, rfl⟩]; rfl
theorem duties_s1_6 : (Rd K).duties (s1Cell x 6) 0 = {(x, 0)} := by
  dsimp only [Rd]; rw [if_pos ⟨rfl, rfl⟩]; rfl
theorem duties_v1_6 : (Rd K).duties (v1Cell x 6) 0 = {(rotq x 1, 0)} := by
  dsimp only [Rd]; rw [if_pos ⟨rfl, rfl⟩]; rfl
theorem duties_s2_0 : (Rd K).duties (s2Cell x 0) 0 = {(x, 0)} := by
  dsimp only [Rd]; rw [if_pos ⟨rfl, rfl⟩]; rfl
theorem duties_v2_0 : (Rd K).duties (v2Cell x 0) 0 = {(rotz x 3, 0)} := by
  dsimp only [Rd]; rw [if_pos ⟨rfl, rfl⟩]; rfl
theorem duties_s2_1 : (Rd K).duties (s2Cell x 1) 0 = {(x, 0)} := by
  dsimp only [Rd]; rw [if_pos ⟨rfl, rfl⟩]; rfl
theorem duties_v2_1 : (Rd K).duties (v2Cell x 1) 0 = {(rotz x 2, 0)} := by
  dsimp only [Rd]; rw [if_pos ⟨rfl, rfl⟩]; rfl
theorem duties_s2_2 : (Rd K).duties (s2Cell x 2) 0 = {(x, 0)} := by
  dsimp only [Rd]; rw [if_pos ⟨rfl, rfl⟩]; rfl
theorem duties_v2_2 : (Rd K).duties (v2Cell x 2) 0 = {(rotz x 1, 0)} := by
  dsimp only [Rd]; rw [if_pos ⟨rfl, rfl⟩]; rfl
theorem duties_later (g : GSem nD τ sig) : ∀ r, 1 ≤ r → (Rd K).duties g r = ∅ :=
  fun r hr => by dsimp only [Rd]; rw [if_neg fun h => by omega]

theorem amount_bar (d : DU) : (Rd K).amount (barCell x) 0 d = 1 := rfl
theorem amount_zr (d : DU) : (Rd K).amount (zrCell x) 0 d = 1 := rfl
theorem amount_s1_0 (d : DU) : (Rd K).amount (s1Cell x 0) 0 d = N1 := rfl
theorem amount_v1_0 (d : DU) : (Rd K).amount (v1Cell x 0) 0 d = N1 := rfl
theorem amount_s1_1 (d : DU) : (Rd K).amount (s1Cell x 1) 0 d = N1 := rfl
theorem amount_v1_1 (d : DU) : (Rd K).amount (v1Cell x 1) 0 d = N1 := rfl
theorem amount_s1_2 (d : DU) : (Rd K).amount (s1Cell x 2) 0 d = N1 := rfl
theorem amount_v1_2 (d : DU) : (Rd K).amount (v1Cell x 2) 0 d = N1 := rfl
theorem amount_s1_3 (d : DU) : (Rd K).amount (s1Cell x 3) 0 d = N1 := rfl
theorem amount_v1_3 (d : DU) : (Rd K).amount (v1Cell x 3) 0 d = N1 := rfl
theorem amount_s1_4 (d : DU) : (Rd K).amount (s1Cell x 4) 0 d = N1 := rfl
theorem amount_v1_4 (d : DU) : (Rd K).amount (v1Cell x 4) 0 d = N1 := rfl
theorem amount_s1_5 (d : DU) : (Rd K).amount (s1Cell x 5) 0 d = N1 := rfl
theorem amount_v1_5 (d : DU) : (Rd K).amount (v1Cell x 5) 0 d = N1 := rfl
theorem amount_s1_6 (d : DU) : (Rd K).amount (s1Cell x 6) 0 d = N1 := rfl
theorem amount_v1_6 (d : DU) : (Rd K).amount (v1Cell x 6) 0 d = N1 := rfl
theorem amount_s2_0 (d : DU) : (Rd K).amount (s2Cell x 0) 0 d = N2 := rfl
theorem amount_v2_0 (d : DU) : (Rd K).amount (v2Cell x 0) 0 d = N2 := rfl
theorem amount_s2_1 (d : DU) : (Rd K).amount (s2Cell x 1) 0 d = N2 := rfl
theorem amount_v2_1 (d : DU) : (Rd K).amount (v2Cell x 1) 0 d = N2 := rfl
theorem amount_s2_2 (d : DU) : (Rd K).amount (s2Cell x 2) 0 d = N2 := rfl
theorem amount_v2_2 (d : DU) : (Rd K).amount (v2Cell x 2) 0 d = N2 := rfl

theorem payload_bar_0 : (Rd K).payload (barCell x) 0 (p, 0) = iprop((∃ f : Buf (Elt F) ((slot1 0).view.loc (p : Thread nD τ)), (slot1 0).view.loc (p : Thread nD τ) ↦[(slot1 0).view.set]{fullShare} f) ∗ reached ER (v1Cell p 0) 0) := rfl
theorem payload_bar_1 : (Rd K).payload (barCell x) 0 (p, 1) = iprop((∃ f : Buf (Elt F) ((slot1 1).view.loc (p : Thread nD τ)), (slot1 1).view.loc (p : Thread nD τ) ↦[(slot1 1).view.set]{fullShare} f) ∗ reached ER (v1Cell p 1) 0) := rfl
theorem payload_bar_2 : (Rd K).payload (barCell x) 0 (p, 2) = iprop((∃ f : Buf (Elt F) ((slot1 2).view.loc (p : Thread nD τ)), (slot1 2).view.loc (p : Thread nD τ) ↦[(slot1 2).view.set]{fullShare} f) ∗ reached ER (v1Cell p 2) 0) := rfl
theorem payload_bar_3 : (Rd K).payload (barCell x) 0 (p, 3) = iprop((∃ f : Buf (Elt F) ((slot1 3).view.loc (p : Thread nD τ)), (slot1 3).view.loc (p : Thread nD τ) ↦[(slot1 3).view.set]{fullShare} f) ∗ reached ER (v1Cell p 3) 0) := rfl
theorem payload_bar_4 : (Rd K).payload (barCell x) 0 (p, 4) = iprop((∃ f : Buf (Elt F) ((slot1 4).view.loc (p : Thread nD τ)), (slot1 4).view.loc (p : Thread nD τ) ↦[(slot1 4).view.set]{fullShare} f) ∗ reached ER (v1Cell p 4) 0) := rfl
theorem payload_bar_5 : (Rd K).payload (barCell x) 0 (p, 5) = iprop((∃ f : Buf (Elt F) ((slot1 5).view.loc (p : Thread nD τ)), (slot1 5).view.loc (p : Thread nD τ) ↦[(slot1 5).view.set]{fullShare} f) ∗ reached ER (v1Cell p 5) 0) := rfl
theorem payload_bar_6 : (Rd K).payload (barCell x) 0 (p, 6) = iprop((∃ f : Buf (Elt F) ((slot1 6).view.loc (p : Thread nD τ)), (slot1 6).view.loc (p : Thread nD τ) ↦[(slot1 6).view.set]{fullShare} f) ∗ reached ER (v1Cell p 6) 0) := rfl
theorem payload_zr_0 : (Rd K).payload (zrCell x) 0 (p, 0) = iprop((∃ f : Buf (Elt F) ((slot2 0).view.loc (p : Thread nD τ)), (slot2 0).view.loc (p : Thread nD τ) ↦[(slot2 0).view.set]{fullShare} f) ∗ reached ER (v2Cell p 0) 0) := rfl
theorem payload_zr_1 : (Rd K).payload (zrCell x) 0 (p, 1) = iprop((∃ f : Buf (Elt F) ((slot2 1).view.loc (p : Thread nD τ)), (slot2 1).view.loc (p : Thread nD τ) ↦[(slot2 1).view.set]{fullShare} f) ∗ reached ER (v2Cell p 1) 0) := rfl
theorem payload_zr_2 : (Rd K).payload (zrCell x) 0 (p, 2) = iprop((∃ f : Buf (Elt F) ((slot2 2).view.loc (p : Thread nD τ)), (slot2 2).view.loc (p : Thread nD τ) ↦[(slot2 2).view.set]{fullShare} f) ∗ reached ER (v2Cell p 2) 0) := rfl
theorem payload_s1_0 (d : DU) : (Rd K).payload (s1Cell x 0) 0 d = iprop(∃ f : Buf (Elt F) ((src1 x 0).view.loc (x : Thread nD τ)), (src1 x 0).view.loc (x : Thread nD τ) ↦[(src1 x 0).view.set]{fullShare} f) := rfl
theorem payload_v1_0 (d : DU) : (Rd K).payload (v1Cell x 0) 0 d = iprop(∃ f : Buf (Elt F) ((slot1 0).view.loc (x : Thread nD τ)), ⌜(slot1 0).view.read (Elt F) f = K.v1 x 0⌝ ∗ (slot1 0).view.loc (x : Thread nD τ) ↦[(slot1 0).view.set]{fullShare} f) := rfl
theorem payload_s1_1 (d : DU) : (Rd K).payload (s1Cell x 1) 0 d = iprop(∃ f : Buf (Elt F) ((src1 x 1).view.loc (x : Thread nD τ)), (src1 x 1).view.loc (x : Thread nD τ) ↦[(src1 x 1).view.set]{fullShare} f) := rfl
theorem payload_v1_1 (d : DU) : (Rd K).payload (v1Cell x 1) 0 d = iprop(∃ f : Buf (Elt F) ((slot1 1).view.loc (x : Thread nD τ)), ⌜(slot1 1).view.read (Elt F) f = K.v1 x 1⌝ ∗ (slot1 1).view.loc (x : Thread nD τ) ↦[(slot1 1).view.set]{fullShare} f) := rfl
theorem payload_s1_2 (d : DU) : (Rd K).payload (s1Cell x 2) 0 d = iprop(∃ f : Buf (Elt F) ((src1 x 2).view.loc (x : Thread nD τ)), (src1 x 2).view.loc (x : Thread nD τ) ↦[(src1 x 2).view.set]{fullShare} f) := rfl
theorem payload_v1_2 (d : DU) : (Rd K).payload (v1Cell x 2) 0 d = iprop(∃ f : Buf (Elt F) ((slot1 2).view.loc (x : Thread nD τ)), ⌜(slot1 2).view.read (Elt F) f = K.v1 x 2⌝ ∗ (slot1 2).view.loc (x : Thread nD τ) ↦[(slot1 2).view.set]{fullShare} f) := rfl
theorem payload_s1_3 (d : DU) : (Rd K).payload (s1Cell x 3) 0 d = iprop(∃ f : Buf (Elt F) ((src1 x 3).view.loc (x : Thread nD τ)), (src1 x 3).view.loc (x : Thread nD τ) ↦[(src1 x 3).view.set]{fullShare} f) := rfl
theorem payload_v1_3 (d : DU) : (Rd K).payload (v1Cell x 3) 0 d = iprop(∃ f : Buf (Elt F) ((slot1 3).view.loc (x : Thread nD τ)), ⌜(slot1 3).view.read (Elt F) f = K.v1 x 3⌝ ∗ (slot1 3).view.loc (x : Thread nD τ) ↦[(slot1 3).view.set]{fullShare} f) := rfl
theorem payload_s1_4 (d : DU) : (Rd K).payload (s1Cell x 4) 0 d = iprop(∃ f : Buf (Elt F) ((src1 x 4).view.loc (x : Thread nD τ)), (src1 x 4).view.loc (x : Thread nD τ) ↦[(src1 x 4).view.set]{fullShare} f) := rfl
theorem payload_v1_4 (d : DU) : (Rd K).payload (v1Cell x 4) 0 d = iprop(∃ f : Buf (Elt F) ((slot1 4).view.loc (x : Thread nD τ)), ⌜(slot1 4).view.read (Elt F) f = K.v1 x 4⌝ ∗ (slot1 4).view.loc (x : Thread nD τ) ↦[(slot1 4).view.set]{fullShare} f) := rfl
theorem payload_s1_5 (d : DU) : (Rd K).payload (s1Cell x 5) 0 d = iprop(∃ f : Buf (Elt F) ((src1 x 5).view.loc (x : Thread nD τ)), (src1 x 5).view.loc (x : Thread nD τ) ↦[(src1 x 5).view.set]{fullShare} f) := rfl
theorem payload_v1_5 (d : DU) : (Rd K).payload (v1Cell x 5) 0 d = iprop(∃ f : Buf (Elt F) ((slot1 5).view.loc (x : Thread nD τ)), ⌜(slot1 5).view.read (Elt F) f = K.v1 x 5⌝ ∗ (slot1 5).view.loc (x : Thread nD τ) ↦[(slot1 5).view.set]{fullShare} f) := rfl
theorem payload_s1_6 (d : DU) : (Rd K).payload (s1Cell x 6) 0 d = iprop(∃ f : Buf (Elt F) ((src1 x 6).view.loc (x : Thread nD τ)), (src1 x 6).view.loc (x : Thread nD τ) ↦[(src1 x 6).view.set]{fullShare} f) := rfl
theorem payload_v1_6 (d : DU) : (Rd K).payload (v1Cell x 6) 0 d = iprop(∃ f : Buf (Elt F) ((slot1 6).view.loc (x : Thread nD τ)), ⌜(slot1 6).view.read (Elt F) f = K.v1 x 6⌝ ∗ (slot1 6).view.loc (x : Thread nD τ) ↦[(slot1 6).view.set]{fullShare} f) := rfl
theorem payload_s2_0 (d : DU) : (Rd K).payload (s2Cell x 0) 0 d = iprop(∃ f : Buf (Elt F) ((src2 x 0).view.loc (x : Thread nD τ)), (src2 x 0).view.loc (x : Thread nD τ) ↦[(src2 x 0).view.set]{fullShare} f) := rfl
theorem payload_v2_0 (d : DU) : (Rd K).payload (v2Cell x 0) 0 d = iprop(∃ f : Buf (Elt F) ((slot2 0).view.loc (x : Thread nD τ)), ⌜(slot2 0).view.read (Elt F) f = K.v2 x 0⌝ ∗ (slot2 0).view.loc (x : Thread nD τ) ↦[(slot2 0).view.set]{fullShare} f) := rfl
theorem payload_s2_1 (d : DU) : (Rd K).payload (s2Cell x 1) 0 d = iprop(∃ f : Buf (Elt F) ((src2 x 1).view.loc (x : Thread nD τ)), (src2 x 1).view.loc (x : Thread nD τ) ↦[(src2 x 1).view.set]{fullShare} f) := rfl
theorem payload_v2_1 (d : DU) : (Rd K).payload (v2Cell x 1) 0 d = iprop(∃ f : Buf (Elt F) ((slot2 1).view.loc (x : Thread nD τ)), ⌜(slot2 1).view.read (Elt F) f = K.v2 x 1⌝ ∗ (slot2 1).view.loc (x : Thread nD τ) ↦[(slot2 1).view.set]{fullShare} f) := rfl
theorem payload_s2_2 (d : DU) : (Rd K).payload (s2Cell x 2) 0 d = iprop(∃ f : Buf (Elt F) ((src2 x 2).view.loc (x : Thread nD τ)), (src2 x 2).view.loc (x : Thread nD τ) ↦[(src2 x 2).view.set]{fullShare} f) := rfl
theorem payload_v2_2 (d : DU) : (Rd K).payload (v2Cell x 2) 0 d = iprop(∃ f : Buf (Elt F) ((slot2 2).view.loc (x : Thread nD τ)), ⌜(slot2 2).view.read (Elt F) f = K.v2 x 2⌝ ∗ (slot2 2).view.loc (x : Thread nD τ) ↦[(slot2 2).view.set]{fullShare} f) := rfl

theorem expect_bar : (Rd K).expect (barCell x) 0 = 7 := by
  unfold Schedule.expect Schedule.amountOf
  rw [Finset.sum_congr rfl fun d _ => amount_bar K x d, Finset.sum_const, smul_eq_mul, mul_one, duties_bar]
  simp
theorem expect_zr : (Rd K).expect (zrCell x) 0 = 3 := by
  unfold Schedule.expect Schedule.amountOf
  rw [Finset.sum_congr rfl fun d _ => amount_zr K x d, Finset.sum_const, smul_eq_mul, mul_one, duties_zr]
  simp
theorem expect_s1_0 : (Rd K).expect (s1Cell x 0) 0 = N1 := by
  unfold Schedule.expect Schedule.amountOf; rw [duties_s1_0, Finset.sum_singleton]; rfl
theorem expect_v1_0 : (Rd K).expect (v1Cell x 0) 0 = N1 := by
  unfold Schedule.expect Schedule.amountOf; rw [duties_v1_0, Finset.sum_singleton]; rfl
theorem expect_s1_1 : (Rd K).expect (s1Cell x 1) 0 = N1 := by
  unfold Schedule.expect Schedule.amountOf; rw [duties_s1_1, Finset.sum_singleton]; rfl
theorem expect_v1_1 : (Rd K).expect (v1Cell x 1) 0 = N1 := by
  unfold Schedule.expect Schedule.amountOf; rw [duties_v1_1, Finset.sum_singleton]; rfl
theorem expect_s1_2 : (Rd K).expect (s1Cell x 2) 0 = N1 := by
  unfold Schedule.expect Schedule.amountOf; rw [duties_s1_2, Finset.sum_singleton]; rfl
theorem expect_v1_2 : (Rd K).expect (v1Cell x 2) 0 = N1 := by
  unfold Schedule.expect Schedule.amountOf; rw [duties_v1_2, Finset.sum_singleton]; rfl
theorem expect_s1_3 : (Rd K).expect (s1Cell x 3) 0 = N1 := by
  unfold Schedule.expect Schedule.amountOf; rw [duties_s1_3, Finset.sum_singleton]; rfl
theorem expect_v1_3 : (Rd K).expect (v1Cell x 3) 0 = N1 := by
  unfold Schedule.expect Schedule.amountOf; rw [duties_v1_3, Finset.sum_singleton]; rfl
theorem expect_s1_4 : (Rd K).expect (s1Cell x 4) 0 = N1 := by
  unfold Schedule.expect Schedule.amountOf; rw [duties_s1_4, Finset.sum_singleton]; rfl
theorem expect_v1_4 : (Rd K).expect (v1Cell x 4) 0 = N1 := by
  unfold Schedule.expect Schedule.amountOf; rw [duties_v1_4, Finset.sum_singleton]; rfl
theorem expect_s1_5 : (Rd K).expect (s1Cell x 5) 0 = N1 := by
  unfold Schedule.expect Schedule.amountOf; rw [duties_s1_5, Finset.sum_singleton]; rfl
theorem expect_v1_5 : (Rd K).expect (v1Cell x 5) 0 = N1 := by
  unfold Schedule.expect Schedule.amountOf; rw [duties_v1_5, Finset.sum_singleton]; rfl
theorem expect_s1_6 : (Rd K).expect (s1Cell x 6) 0 = N1 := by
  unfold Schedule.expect Schedule.amountOf; rw [duties_s1_6, Finset.sum_singleton]; rfl
theorem expect_v1_6 : (Rd K).expect (v1Cell x 6) 0 = N1 := by
  unfold Schedule.expect Schedule.amountOf; rw [duties_v1_6, Finset.sum_singleton]; rfl
theorem expect_s2_0 : (Rd K).expect (s2Cell x 0) 0 = N2 := by
  unfold Schedule.expect Schedule.amountOf; rw [duties_s2_0, Finset.sum_singleton]; rfl
theorem expect_v2_0 : (Rd K).expect (v2Cell x 0) 0 = N2 := by
  unfold Schedule.expect Schedule.amountOf; rw [duties_v2_0, Finset.sum_singleton]; rfl
theorem expect_s2_1 : (Rd K).expect (s2Cell x 1) 0 = N2 := by
  unfold Schedule.expect Schedule.amountOf; rw [duties_s2_1, Finset.sum_singleton]; rfl
theorem expect_v2_1 : (Rd K).expect (v2Cell x 1) 0 = N2 := by
  unfold Schedule.expect Schedule.amountOf; rw [duties_v2_1, Finset.sum_singleton]; rfl
theorem expect_s2_2 : (Rd K).expect (s2Cell x 2) 0 = N2 := by
  unfold Schedule.expect Schedule.amountOf; rw [duties_s2_2, Finset.sum_singleton]; rfl
theorem expect_v2_2 : (Rd K).expect (v2Cell x 2) 0 = N2 := by
  unfold Schedule.expect Schedule.amountOf; rw [duties_v2_2, Finset.sum_singleton]; rfl

/-- The duty device `x` pays at the barrier cell of the device `r + 1` places on: that device counts `x` as `7 - r` places on. -/
theorem mem_bar_0 : (x, (6 : Fin 8)) ∈ (Rd K).duties (barCell (rotq x 1)) 0 := by
  rw [duties_bar, rotq_1_7]; simp
theorem mem_bar_1 : (x, (5 : Fin 8)) ∈ (Rd K).duties (barCell (rotq x 2)) 0 := by
  rw [duties_bar, rotq_2_6]; simp
theorem mem_bar_2 : (x, (4 : Fin 8)) ∈ (Rd K).duties (barCell (rotq x 3)) 0 := by
  rw [duties_bar, rotq_3_5]; simp
theorem mem_bar_3 : (x, (3 : Fin 8)) ∈ (Rd K).duties (barCell (rotq x 4)) 0 := by
  rw [duties_bar, rotq_4_4]; simp
theorem mem_bar_4 : (x, (2 : Fin 8)) ∈ (Rd K).duties (barCell (rotq x 5)) 0 := by
  rw [duties_bar, rotq_5_3]; simp
theorem mem_bar_5 : (x, (1 : Fin 8)) ∈ (Rd K).duties (barCell (rotq x 6)) 0 := by
  rw [duties_bar, rotq_6_2]; simp
theorem mem_bar_6 : (x, (0 : Fin 8)) ∈ (Rd K).duties (barCell (rotq x 7)) 0 := by
  rw [duties_bar, rotq_7_1]; simp
theorem mem_zr_0 : (x, (2 : Fin 8)) ∈ (Rd K).duties (zrCell (rotz x 1)) 0 := by
  rw [duties_zr, rotz_1_3]; simp
theorem mem_zr_1 : (x, (1 : Fin 8)) ∈ (Rd K).duties (zrCell (rotz x 2)) 0 := by
  rw [duties_zr, rotz_2_2]; simp
theorem mem_zr_2 : (x, (0 : Fin 8)) ∈ (Rd K).duties (zrCell (rotz x 3)) 0 := by
  rw [duties_zr, rotz_3_1]; simp
theorem mem_v1_0 : (x, (0 : Fin 8)) ∈ (Rd K).duties (v1Cell (rotq x 1) 0) 0 := by
  rw [duties_v1_0, rotq_1_7]; simp
theorem mem_v1_1 : (x, (0 : Fin 8)) ∈ (Rd K).duties (v1Cell (rotq x 2) 1) 0 := by
  rw [duties_v1_1, rotq_2_6]; simp
theorem mem_v1_2 : (x, (0 : Fin 8)) ∈ (Rd K).duties (v1Cell (rotq x 3) 2) 0 := by
  rw [duties_v1_2, rotq_3_5]; simp
theorem mem_v1_3 : (x, (0 : Fin 8)) ∈ (Rd K).duties (v1Cell (rotq x 4) 3) 0 := by
  rw [duties_v1_3, rotq_4_4]; simp
theorem mem_v1_4 : (x, (0 : Fin 8)) ∈ (Rd K).duties (v1Cell (rotq x 5) 4) 0 := by
  rw [duties_v1_4, rotq_5_3]; simp
theorem mem_v1_5 : (x, (0 : Fin 8)) ∈ (Rd K).duties (v1Cell (rotq x 6) 5) 0 := by
  rw [duties_v1_5, rotq_6_2]; simp
theorem mem_v1_6 : (x, (0 : Fin 8)) ∈ (Rd K).duties (v1Cell (rotq x 7) 6) 0 := by
  rw [duties_v1_6, rotq_7_1]; simp
theorem mem_v2_0 : (x, (0 : Fin 8)) ∈ (Rd K).duties (v2Cell (rotz x 1) 0) 0 := by
  rw [duties_v2_0, rotz_1_3]; simp
theorem mem_v2_1 : (x, (0 : Fin 8)) ∈ (Rd K).duties (v2Cell (rotz x 2) 1) 0 := by
  rw [duties_v2_1, rotz_2_2]; simp
theorem mem_v2_2 : (x, (0 : Fin 8)) ∈ (Rd K).duties (v2Cell (rotz x 3) 2) 0 := by
  rw [duties_v2_2, rotz_3_1]; simp

end Tables

end Cert.KernelIdeal.Hand
end
-- ==== Proof.Ghost.lean ====
import proofs.«900450_g7700000000000451_dist_matmul_mk_i_outk_m512_n512_k256_v7x_i32_f32_1_alg».proof.Proof.Sched

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)

/-! ## The cells of a device, numbered: barrier, ready, seven in-plane sends, seven in-plane receives, three cross-plane sends, three receives -/

def csem : Fin 22 → SemLoc sig
  | 0 => .reg barS | 1 => .reg zrS
  | 2 => .dma (s1S 0)
  | 3 => .dma (s1S 1)
  | 4 => .dma (s1S 2)
  | 5 => .dma (s1S 3)
  | 6 => .dma (s1S 4)
  | 7 => .dma (s1S 5)
  | 8 => .dma (s1S 6)
  | 9 => .dma (v1S 0)
  | 10 => .dma (v1S 1)
  | 11 => .dma (v1S 2)
  | 12 => .dma (v1S 3)
  | 13 => .dma (v1S 4)
  | 14 => .dma (v1S 5)
  | 15 => .dma (v1S 6)
  | 16 => .dma (s2S 0)
  | 17 => .dma (s2S 1)
  | 18 => .dma (s2S 2)
  | 19 => .dma (v2S 0)
  | 20 => .dma (v2S 1)
  | 21 => .dma (v2S 2)
  | ⟨_ + 22, h⟩ => absurd h (Nat.not_lt.2 (Nat.le_add_left _ _))
abbrev kcell (ck : Dev nD × Fin 22) : GSem nD τ sig := ((ck.1 : Thread nD τ), csem ck.2)

/-- The kernel's own (scoped) semaphores as the launch indexes them: the ready semaphore and the 24 DMA semaphores of its four arrays
    (the four at index 0 are never used). -/
def osem : Fin 25 → SemLoc sig
  | 0 => .reg zrS
  | 1 => .dma 3
  | 2 => .dma 4
  | 3 => .dma 5
  | 4 => .dma 6
  | 5 => .dma 7
  | 6 => .dma 8
  | 7 => .dma 9
  | 8 => .dma 10
  | 9 => .dma 11
  | 10 => .dma 12
  | 11 => .dma 13
  | 12 => .dma 14
  | 13 => .dma 15
  | 14 => .dma 16
  | 15 => .dma 17
  | 16 => .dma 18
  | 17 => .dma 19
  | 18 => .dma 20
  | 19 => .dma 21
  | 20 => .dma 22
  | 21 => .dma 23
  | 22 => .dma 24
  | 23 => .dma 25
  | 24 => .dma 26
  | ⟨_ + 25, h⟩ => absurd h (Nat.not_lt.2 (Nat.le_add_left _ _))

/-! ## What a device owes at launch, in the order it pays (last summand first); the levels -/

def O₀ (c : Dev nD) : CellTallies nD τ sig Unit :=
  0 + tallyAt (v2Cell (rotz c 3) 2) () N2
    + tallyAt (v2Cell (rotz c 2) 1) () N2
    + tallyAt (v2Cell (rotz c 1) 0) () N2
    + tallyAt (v1Cell (rotq c 7) 6) () N1
    + tallyAt (v1Cell (rotq c 6) 5) () N1
    + tallyAt (v1Cell (rotq c 5) 4) () N1
    + tallyAt (v1Cell (rotq c 4) 3) () N1
    + tallyAt (v1Cell (rotq c 3) 2) () N1
    + tallyAt (v1Cell (rotq c 2) 1) () N1
    + tallyAt (v1Cell (rotq c 1) 0) () N1
    + tallyAt (zrCell (rotz c 3)) () 1
    + tallyAt (zrCell (rotz c 2)) () 1
    + tallyAt (zrCell (rotz c 1)) () 1
    + tallyAt (barCell (rotq c 7)) () 1
    + tallyAt (barCell (rotq c 6)) () 1
    + tallyAt (barCell (rotq c 5)) () 1
    + tallyAt (barCell (rotq c 4)) () 1
    + tallyAt (barCell (rotq c 3)) () 1
    + tallyAt (barCell (rotq c 2)) () 1
    + tallyAt (barCell (rotq c 1)) () 1

def L (g : GSem nD τ sig) : Finset Unit := if g.1.2 = .tc then {()} else ∅
/-- Barrier and ready cells at 1, in-plane receive cells at 2, cross-plane receive cells at 3, everything else (staging, sends) at 0:
    a device waits on a cell only while what it still owes lies strictly above. -/
def lv (g : GSem nD τ sig) (_ : Unit) : ℕ := match kindOf g.2 with
  | .bar => 1 | .zr => 1 | .v1 _ => 2 | .v2 _ => 3 | _ => 0

/-! ## A device's ghost state at the start of its body -/

/-- The invariants of the cells device `c`'s body opens — its own 22 and the 20 it pays into — under the names `κ` the launch allocated them at. -/
def invs (κ : Dev nD × Fin 22 → ℕ) (c : Dev nD) : sProp 𝕄 :=
  iprop(cellInv ER (Rd K) (κ (c, 0)) (barCell c)
    ∗ cellInv ER (Rd K) (κ (c, 1)) (zrCell c)
    ∗ cellInv ER (Rd K) (κ (c, 2)) (s1Cell c 0)
    ∗ cellInv ER (Rd K) (κ (c, 3)) (s1Cell c 1)
    ∗ cellInv ER (Rd K) (κ (c, 4)) (s1Cell c 2)
    ∗ cellInv ER (Rd K) (κ (c, 5)) (s1Cell c 3)
    ∗ cellInv ER (Rd K) (κ (c, 6)) (s1Cell c 4)
    ∗ cellInv ER (Rd K) (κ (c, 7)) (s1Cell c 5)
    ∗ cellInv ER (Rd K) (κ (c, 8)) (s1Cell c 6)
    ∗ cellInv ER (Rd K) (κ (c, 9)) (v1Cell c 0)
    ∗ cellInv ER (Rd K) (κ (c, 10)) (v1Cell c 1)
    ∗ cellInv ER (Rd K) (κ (c, 11)) (v1Cell c 2)
    ∗ cellInv ER (Rd K) (κ (c, 12)) (v1Cell c 3)
    ∗ cellInv ER (Rd K) (κ (c, 13)) (v1Cell c 4)
    ∗ cellInv ER (Rd K) (κ (c, 14)) (v1Cell c 5)
    ∗ cellInv ER (Rd K) (κ (c, 15)) (v1Cell c 6)
    ∗ cellInv ER (Rd K) (κ (c, 16)) (s2Cell c 0)
    ∗ cellInv ER (Rd K) (κ (c, 17)) (s2Cell c 1)
    ∗ cellInv ER (Rd K) (κ (c, 18)) (s2Cell c 2)
    ∗ cellInv ER (Rd K) (κ (c, 19)) (v2Cell c 0)
    ∗ cellInv ER (Rd K) (κ (c, 20)) (v2Cell c 1)
    ∗ cellInv ER (Rd K) (κ (c, 21)) (v2Cell c 2)
    ∗ cellInv ER (Rd K) (κ (rotq c 1, 0)) (barCell (rotq c 1))
    ∗ cellInv ER (Rd K) (κ (rotq c 2, 0)) (barCell (rotq c 2))
    ∗ cellInv ER (Rd K) (κ (rotq c 3, 0)) (barCell (rotq c 3))
    ∗ cellInv ER (Rd K) (κ (rotq c 4, 0)) (barCell (rotq c 4))
    ∗ cellInv ER (Rd K) (κ (rotq c 5, 0)) (barCell (rotq c 5))
    ∗ cellInv ER (Rd K) (κ (rotq c 6, 0)) (barCell (rotq c 6))
    ∗ cellInv ER (Rd K) (κ (rotq c 7, 0)) (barCell (rotq c 7))
    ∗ cellInv ER (Rd K) (κ (rotz c 1, 1)) (zrCell (rotz c 1))
    ∗ cellInv ER (Rd K) (κ (rotz c 2, 1)) (zrCell (rotz c 2))
    ∗ cellInv ER (Rd K) (κ (rotz c 3, 1)) (zrCell (rotz c 3))
    ∗ cellInv ER (Rd K) (κ (rotq c 1, 9)) (v1Cell (rotq c 1) 0)
    ∗ cellInv ER (Rd K) (κ (rotq c 2, 10)) (v1Cell (rotq c 2) 1)
    ∗ cellInv ER (Rd K) (κ (rotq c 3, 11)) (v1Cell (rotq c 3) 2)
    ∗ cellInv ER (Rd K) (κ (rotq c 4, 12)) (v1Cell (rotq c 4) 3)
    ∗ cellInv ER (Rd K) (κ (rotq c 5, 13)) (v1Cell (rotq c 5) 4)
    ∗ cellInv ER (Rd K) (κ (rotq c 6, 14)) (v1Cell (rotq c 6) 5)
    ∗ cellInv ER (Rd K) (κ (rotq c 7, 15)) (v1Cell (rotq c 7) 6)
    ∗ cellInv ER (Rd K) (κ (rotz c 1, 19)) (v2Cell (rotz c 1) 0)
    ∗ cellInv ER (Rd K) (κ (rotz c 2, 20)) (v2Cell (rotz c 2) 1)
    ∗ cellInv ER (Rd K) (κ (rotz c 3, 21)) (v2Cell (rotz c 3) 2))

instance invs_persistent (κ : Dev nD × Fin 22 → ℕ) (c : Dev nD) : BI.Persistent (invs K κ c) := by unfold invs; infer_instance

/-- The reached-marks: of the 10 cells it signals, of its own receive cells (handed on with its signals) and of its own send cells. -/
def marks (c : Dev nD) : sProp 𝕄 :=
  iprop(reached ER (barCell (rotq c 1)) 0
    ∗ reached ER (barCell (rotq c 2)) 0
    ∗ reached ER (barCell (rotq c 3)) 0
    ∗ reached ER (barCell (rotq c 4)) 0
    ∗ reached ER (barCell (rotq c 5)) 0
    ∗ reached ER (barCell (rotq c 6)) 0
    ∗ reached ER (barCell (rotq c 7)) 0
    ∗ reached ER (zrCell (rotz c 1)) 0
    ∗ reached ER (zrCell (rotz c 2)) 0
    ∗ reached ER (zrCell (rotz c 3)) 0
    ∗ reached ER (v1Cell c 0) 0
    ∗ reached ER (v1Cell c 1) 0
    ∗ reached ER (v1Cell c 2) 0
    ∗ reached ER (v1Cell c 3) 0
    ∗ reached ER (v1Cell c 4) 0
    ∗ reached ER (v1Cell c 5) 0
    ∗ reached ER (v1Cell c 6) 0
    ∗ reached ER (v2Cell c 0) 0
    ∗ reached ER (v2Cell c 1) 0
    ∗ reached ER (v2Cell c 2) 0
    ∗ reached ER (s1Cell c 0) 0
    ∗ reached ER (s1Cell c 1) 0
    ∗ reached ER (s1Cell c 2) 0
    ∗ reached ER (s1Cell c 3) 0
    ∗ reached ER (s1Cell c 4) 0
    ∗ reached ER (s1Cell c 5) 0
    ∗ reached ER (s1Cell c 6) 0
    ∗ reached ER (s2Cell c 0) 0
    ∗ reached ER (s2Cell c 1) 0
    ∗ reached ER (s2Cell c 2) 0)

instance marks_persistent (c : Dev nD) : BI.Persistent (marks (F := F) c) := by unfold marks; infer_instance

/-- Its positions (round 0 of each own cell) and the 30 duty tokens it pays with. -/
def linear (c : Dev nD) : sProp 𝕄 :=
  iprop(atPos ER (barCell c) 0 ∅ 0
    ∗ atPos ER (zrCell c) 0 ∅ 0
    ∗ atPos ER (s1Cell c 0) 0 ∅ 0
    ∗ atPos ER (s1Cell c 1) 0 ∅ 0
    ∗ atPos ER (s1Cell c 2) 0 ∅ 0
    ∗ atPos ER (s1Cell c 3) 0 ∅ 0
    ∗ atPos ER (s1Cell c 4) 0 ∅ 0
    ∗ atPos ER (s1Cell c 5) 0 ∅ 0
    ∗ atPos ER (s1Cell c 6) 0 ∅ 0
    ∗ atPos ER (v1Cell c 0) 0 ∅ 0
    ∗ atPos ER (v1Cell c 1) 0 ∅ 0
    ∗ atPos ER (v1Cell c 2) 0 ∅ 0
    ∗ atPos ER (v1Cell c 3) 0 ∅ 0
    ∗ atPos ER (v1Cell c 4) 0 ∅ 0
    ∗ atPos ER (v1Cell c 5) 0 ∅ 0
    ∗ atPos ER (v1Cell c 6) 0 ∅ 0
    ∗ atPos ER (s2Cell c 0) 0 ∅ 0
    ∗ atPos ER (s2Cell c 1) 0 ∅ 0
    ∗ atPos ER (s2Cell c 2) 0 ∅ 0
    ∗ atPos ER (v2Cell c 0) 0 ∅ 0
    ∗ atPos ER (v2Cell c 1) 0 ∅ 0
    ∗ atPos ER (v2Cell c 2) 0 ∅ 0
    ∗ dutyTok ER (barCell (rotq c 1)) 0 (c, (6 : Fin 8))
    ∗ dutyTok ER (barCell (rotq c 2)) 0 (c, (5 : Fin 8))
    ∗ dutyTok ER (barCell (rotq c 3)) 0 (c, (4 : Fin 8))
    ∗ dutyTok ER (barCell (rotq c 4)) 0 (c, (3 : Fin 8))
    ∗ dutyTok ER (barCell (rotq c 5)) 0 (c, (2 : Fin 8))
    ∗ dutyTok ER (barCell (rotq c 6)) 0 (c, (1 : Fin 8))
    ∗ dutyTok ER (barCell (rotq c 7)) 0 (c, (0 : Fin 8))
    ∗ dutyTok ER (zrCell (rotz c 1)) 0 (c, (2 : Fin 8))
    ∗ dutyTok ER (zrCell (rotz c 2)) 0 (c, (1 : Fin 8))
    ∗ dutyTok ER (zrCell (rotz c 3)) 0 (c, (0 : Fin 8))
    ∗ dutyTok ER (v1Cell (rotq c 1) 0) 0 (c, (0 : Fin 8))
    ∗ dutyTok ER (v1Cell (rotq c 2) 1) 0 (c, (0 : Fin 8))
    ∗ dutyTok ER (v1Cell (rotq c 3) 2) 0 (c, (0 : Fin 8))
    ∗ dutyTok ER (v1Cell (rotq c 4) 3) 0 (c, (0 : Fin 8))
    ∗ dutyTok ER (v1Cell (rotq c 5) 4) 0 (c, (0 : Fin 8))
    ∗ dutyTok ER (v1Cell (rotq c 6) 5) 0 (c, (0 : Fin 8))
    ∗ dutyTok ER (v1Cell (rotq c 7) 6) 0 (c, (0 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v2Cell (rotz c 1) 0) 0 (c, (0 : Fin 8))
    ∗ dutyTok ER (v2Cell (rotz c 2) 1) 0 (c, (0 : Fin 8))
    ∗ dutyTok ER (v2Cell (rotz c 3) 2) 0 (c, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8)))

def ghost (κ : Dev nD × Fin 22 → ℕ) (c : Dev nD) : sProp 𝕄 := iprop(invs K κ c ∗ marks c ∗ linear c)

/-- The credit dealt at launch for the cells it waits on whose units others pay. -/
def creds (c : Dev nD) : sProp 𝕄 :=
  iprop(cred (tallyAt (barCell c) () 7)
    ∗ cred (tallyAt (zrCell c) () 3)
    ∗ cred (tallyAt (v1Cell c 0) () N1)
    ∗ cred (tallyAt (v1Cell c 1) () N1)
    ∗ cred (tallyAt (v1Cell c 2) () N1)
    ∗ cred (tallyAt (v1Cell c 3) () N1)
    ∗ cred (tallyAt (v1Cell c 4) () N1)
    ∗ cred (tallyAt (v1Cell c 5) () N1)
    ∗ cred (tallyAt (v1Cell c 6) () N1)
    ∗ cred (tallyAt (v2Cell c 0) () N2)
    ∗ cred (tallyAt (v2Cell c 1) () N2)
    ∗ cred (tallyAt (v2Cell c 2) () N2))

/-- The four own DMA semaphores no statement touches, at zero from launch to exit. -/
def idle (c : Dev nD) : sProp 𝕄 :=
  iprop(semVal ((c : Thread nD τ), SemLoc.dma (3 : DmaSem sig)) 0 ∗ semVal ((c : Thread nD τ), SemLoc.dma (11 : DmaSem sig)) 0 ∗ semVal ((c : Thread nD τ), SemLoc.dma (19 : DmaSem sig)) 0 ∗ semVal ((c : Thread nD τ), SemLoc.dma (23 : DmaSem sig)) 0)

def start (c : Dev nD) : sProp 𝕄 :=
  iprop((∃ κ, ghost K κ c) ∗ creds c ∗ levAts L lv ∗ idle c)

end Cert.KernelIdeal.Hand
end
-- ==== Proof.Levels.lean ====
import proofs.«900450_g7700000000000451_dist_matmul_mk_i_outk_m512_n512_k256_v7x_i32_f32_1_alg».proof.Proof.Ghost

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels: a wait is allowed while everything still owed lies strictly above the awaited cell -/

theorem L_tc (c : Dev nD) (sm : SemLoc sig) : L ((c : Thread nD τ), sm) = {()} := if_pos rfl
theorem L_of_ne (g : GSem nD τ sig) (h : g.1.2 ≠ .tc) : L g = ∅ := if_neg h

/-- Every cell `O` owes a unit to is a TensorCore's, at a level above `n`. -/
def Above (n : ℕ) (O : CellTallies nD τ sig Unit) : Prop :=
  ∀ (g : GSem nD τ sig) (i : Unit), 0 < O g i → i ∈ L g ∧ n < lv g i

theorem above_zero (n : ℕ) : Above n 0 := fun g i h => absurd h (by simp)
theorem above_add {n : ℕ} {A B : CellTallies nD τ sig Unit} (hA : Above n A) (hB : Above n B) : Above n (A + B) :=
  fun g i h => (Pipeline.add_pos_cases h).elim (hA g i) (hB g i)
theorem above_tally {n : ℕ} (x : Dev nD) (sm : SemLoc sig) (k : ℕ) (h : n < lv ((x : Thread nD τ), sm) ()) :
    Above n (tallyAt ((x : Thread nD τ), sm) () k) := fun g i hg => by
  rw [tallyAt_apply] at hg
  by_cases e : g = ((x : Thread nD τ), sm) ∧ i = ()
  · rw [e.1, L_tc]; exact ⟨Finset.mem_singleton.mpr (by cases i; rfl), h⟩
  · rw [if_neg e] at hg; exact absurd hg (Nat.lt_irrefl 0)

omit [FloatOps F] in
theorem mayWait_of_above (c : Dev nD) (sm : SemLoc sig) {O : CellTallies nD τ sig Unit} (h : Above (lv ((c : Thread nD τ), sm) ()) O) :
    (levAts L lv : sProp 𝕄) ⊢ MayWait (c : Thread nD τ) sm () O :=
  Pipeline.mayWait_of_levAts (by rw [L_tc]; exact Finset.mem_singleton_self _) h

/-- What device `c` still owes after its entry signals (the ten transfers), and after its in-plane transfers (the three cross-plane ones). -/
def O₁ (c : Dev nD) : CellTallies nD τ sig Unit :=
  0 + tallyAt (v2Cell (rotz c 3) 2) () N2
    + tallyAt (v2Cell (rotz c 2) 1) () N2
    + tallyAt (v2Cell (rotz c 1) 0) () N2
    + tallyAt (v1Cell (rotq c 7) 6) () N1
    + tallyAt (v1Cell (rotq c 6) 5) () N1
    + tallyAt (v1Cell (rotq c 5) 4) () N1
    + tallyAt (v1Cell (rotq c 4) 3) () N1
    + tallyAt (v1Cell (rotq c 3) 2) () N1
    + tallyAt (v1Cell (rotq c 2) 1) () N1
    + tallyAt (v1Cell (rotq c 1) 0) () N1
def O₂ (c : Dev nD) : CellTallies nD τ sig Unit :=
  0 + tallyAt (v2Cell (rotz c 3) 2) () N2
    + tallyAt (v2Cell (rotz c 2) 1) () N2
    + tallyAt (v2Cell (rotz c 1) 0) () N2

theorem above_O₂ (c : Dev nD) : Above 2 (O₂ c) := by
  unfold O₂
  exact above_add (above_add (above_add (above_zero _) (above_tally _ _ _ (show (2 : ℕ) < 3 by decide))) (above_tally _ _ _ (show (2 : ℕ) < 3 by decide))) (above_tally _ _ _ (show (2 : ℕ) < 3 by decide))
theorem above_O₁ (c : Dev nD) : Above 1 (O₁ c) := by
  unfold O₁
  exact above_add (above_add (above_add (above_add (above_add (above_add (above_add (above_add (above_add (above_add (above_zero _) (above_tally _ _ _ (show (1 : ℕ) < 3 by decide))) (above_tally _ _ _ (show (1 : ℕ) < 3 by decide))) (above_tally _ _ _ (show (1 : ℕ) < 3 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))
theorem above_O₀ (c : Dev nD) : Above 0 (O₀ c) := by
  unfold O₀
  exact above_add (above_add (above_add (above_add (above_add (above_add (above_add (above_add (above_add (above_add (above_add (above_add (above_add (above_add (above_add (above_add (above_add (above_add (above_add (above_add (above_zero _) (above_tally _ _ _ (show (0 : ℕ) < 3 by decide))) (above_tally _ _ _ (show (0 : ℕ) < 3 by decide))) (above_tally _ _ _ (show (0 : ℕ) < 3 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))

omit [FloatOps F] in
theorem mayWait_bar (c : Dev nD) : (levAts L lv : sProp 𝕄) ⊢ MayWait (c : Thread nD τ) (.reg barS) () (O₁ c) :=
  mayWait_of_above c _ (above_O₁ c)
omit [FloatOps F] in
theorem mayWait_zr (c : Dev nD) : (levAts L lv : sProp 𝕄) ⊢ MayWait (c : Thread nD τ) (.reg zrS) () (O₂ c) :=
  mayWait_of_above c _ (fun g i h => ⟨(above_O₂ c g i h).1, by have := (above_O₂ c g i h).2; exact lt_of_le_of_lt (show lv ((c : Thread nD τ), SemLoc.reg zrS) () ≤ 2 from (by decide : (1:ℕ) ≤ 2)) this⟩)
omit [FloatOps F] in
theorem mayWait_v1_0 (c : Dev nD) : (levAts L lv : sProp 𝕄) ⊢ MayWait (c : Thread nD τ) (.dma (v1S 0)) () (O₂ c) :=
  mayWait_of_above c _ (above_O₂ c)
omit [FloatOps F] in
theorem mayWait_v1_1 (c : Dev nD) : (levAts L lv : sProp 𝕄) ⊢ MayWait (c : Thread nD τ) (.dma (v1S 1)) () (O₂ c) :=
  mayWait_of_above c _ (above_O₂ c)
omit [FloatOps F] in
theorem mayWait_v1_2 (c : Dev nD) : (levAts L lv : sProp 𝕄) ⊢ MayWait (c : Thread nD τ) (.dma (v1S 2)) () (O₂ c) :=
  mayWait_of_above c _ (above_O₂ c)
omit [FloatOps F] in
theorem mayWait_v1_3 (c : Dev nD) : (levAts L lv : sProp 𝕄) ⊢ MayWait (c : Thread nD τ) (.dma (v1S 3)) () (O₂ c) :=
  mayWait_of_above c _ (above_O₂ c)
omit [FloatOps F] in
theorem mayWait_v1_4 (c : Dev nD) : (levAts L lv : sProp 𝕄) ⊢ MayWait (c : Thread nD τ) (.dma (v1S 4)) () (O₂ c) :=
  mayWait_of_above c _ (above_O₂ c)
omit [FloatOps F] in
theorem mayWait_v1_5 (c : Dev nD) : (levAts L lv : sProp 𝕄) ⊢ MayWait (c : Thread nD τ) (.dma (v1S 5)) () (O₂ c) :=
  mayWait_of_above c _ (above_O₂ c)
omit [FloatOps F] in
theorem mayWait_v1_6 (c : Dev nD) : (levAts L lv : sProp 𝕄) ⊢ MayWait (c : Thread nD τ) (.dma (v1S 6)) () (O₂ c) :=
  mayWait_of_above c _ (above_O₂ c)

end Cert.KernelIdeal.Hand
end
-- ==== Proof.Dats.lean ====
import proofs.«900450_g7700000000000451_dist_matmul_mk_i_outk_m512_n512_k256_v7x_i32_f32_1_alg».proof.Proof.Ghost

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
variable (m : (ℓ : Loc nD τ sig) → Buf (Elt F) ℓ) (ρ : Dev nD → PrngReg)

abbrev 𝒱₀ : Variants := Variants.none

/-- The memory at launch: arbitrary contents, every semaphore counter zero, arbitrary generator registers. -/
def s₀ : MemSt nD τ sig (Elt F) := ⟨m, fun _ => 0, ρ⟩

/-- Device `c`'s block of `A` and of `B`, as staged. -/
def aC (c : Dev nD) : (cc0_stg0_0 : Ref sig .tc).ty.Contents (Elt F) :=
  (win0_0.blk (0 : Fin 1)).view.read (Elt F) ((s₀ m ρ).mem ((c : Thread nD τ).loc main_arg0))
def bC (c : Dev nD) : (cc0_stg1_0 : Ref sig .tc).ty.Contents (Elt F) :=
  (win0_1.blk (0 : Fin 1)).view.read (Elt F) ((s₀ m ρ).mem ((c : Thread nD τ).loc main_arg1))

/-- The six scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The 21 own semaphores the body uses, back at zero. -/
def closed (c : Dev nD) : sProp 𝕄 :=
  iprop(semVal (zrCell c) 0
    ∗ semVal (s1Cell c 0) 0
    ∗ semVal (s1Cell c 1) 0
    ∗ semVal (s1Cell c 2) 0
    ∗ semVal (s1Cell c 3) 0
    ∗ semVal (s1Cell c 4) 0
    ∗ semVal (s1Cell c 5) 0
    ∗ semVal (s1Cell c 6) 0
    ∗ semVal (v1Cell c 0) 0
    ∗ semVal (v1Cell c 1) 0
    ∗ semVal (v1Cell c 2) 0
    ∗ semVal (v1Cell c 3) 0
    ∗ semVal (v1Cell c 4) 0
    ∗ semVal (v1Cell c 5) 0
    ∗ semVal (v1Cell c 6) 0
    ∗ semVal (s2Cell c 0) 0
    ∗ semVal (s2Cell c 1) 0
    ∗ semVal (s2Cell c 2) 0
    ∗ semVal (v2Cell c 0) 0
    ∗ semVal (v2Cell c 1) 0
    ∗ semVal (v2Cell c 2) 0)

def Φ₀ (c : Dev nD) : sProp 𝕄 := iprop(start K c ∗ scr c)
def Φ₁ (c : Dev nD) : sProp 𝕄 := iprop(scr c ∗ closed c ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aC m ρ c
    | ⟨1, _⟩ => bC m ρ c
    | ⟨2, _⟩ => K.out c
  Φ t := match t with
    | ⟨0, _⟩ => Φ₀ K c
    | ⟨_ + 1, _⟩ => Φ₁ c
  q _ := fullShare
  owed t := match t with
    | ⟨0, _⟩ => O₀ c
    | ⟨_ + 1, _⟩ => 0

end Cert.KernelIdeal.Hand
end
-- ==== Proof.Steps.lean ====
import proofs.«900450_g7700000000000451_dist_matmul_mk_i_outk_m512_n512_k256_v7x_i32_f32_1_alg».proof.Proof.Levels
import proofs.«900450_g7700000000000451_dist_matmul_mk_i_outk_m512_n512_k256_v7x_i32_f32_1_alg».proof.Proof.Dats

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)

/-! ## What a whole round of entry signals hands a device -/

theorem bar_payloads (x : Dev nD) :
    bigSep ({(rotq x 1, 0), (rotq x 2, 1), (rotq x 3, 2), (rotq x 4, 3), (rotq x 5, 4), (rotq x 6, 5), (rotq x 7, 6)} : Finset DU) (fun d => (Rd K).payload (barCell x) 0 d)
      = iprop(((∃ f : Buf (Elt F) ((slot1 0).view.loc ((rotq x 1) : Thread nD τ)), (slot1 0).view.loc ((rotq x 1) : Thread nD τ) ↦[(slot1 0).view.set]{fullShare} f) ∗ reached ER (v1Cell (rotq x 1) 0) 0)
      ∗ ((∃ f : Buf (Elt F) ((slot1 1).view.loc ((rotq x 2) : Thread nD τ)), (slot1 1).view.loc ((rotq x 2) : Thread nD τ) ↦[(slot1 1).view.set]{fullShare} f) ∗ reached ER (v1Cell (rotq x 2) 1) 0)
      ∗ ((∃ f : Buf (Elt F) ((slot1 2).view.loc ((rotq x 3) : Thread nD τ)), (slot1 2).view.loc ((rotq x 3) : Thread nD τ) ↦[(slot1 2).view.set]{fullShare} f) ∗ reached ER (v1Cell (rotq x 3) 2) 0)
      ∗ ((∃ f : Buf (Elt F) ((slot1 3).view.loc ((rotq x 4) : Thread nD τ)), (slot1 3).view.loc ((rotq x 4) : Thread nD τ) ↦[(slot1 3).view.set]{fullShare} f) ∗ reached ER (v1Cell (rotq x 4) 3) 0)
      ∗ ((∃ f : Buf (Elt F) ((slot1 4).view.loc ((rotq x 5) : Thread nD τ)), (slot1 4).view.loc ((rotq x 5) : Thread nD τ) ↦[(slot1 4).view.set]{fullShare} f) ∗ reached ER (v1Cell (rotq x 5) 4) 0)
      ∗ ((∃ f : Buf (Elt F) ((slot1 5).view.loc ((rotq x 6) : Thread nD τ)), (slot1 5).view.loc ((rotq x 6) : Thread nD τ) ↦[(slot1 5).view.set]{fullShare} f) ∗ reached ER (v1Cell (rotq x 6) 5) 0)
      ∗ ((∃ f : Buf (Elt F) ((slot1 6).view.loc ((rotq x 7) : Thread nD τ)), (slot1 6).view.loc ((rotq x 7) : Thread nD τ) ↦[(slot1 6).view.set]{fullShare} f) ∗ reached ER (v1Cell (rotq x 7) 6) 0)) := by
  rw [bigSep_eq_bigSepL_of_eq [(rotq x 1, (0 : Fin 8)), (rotq x 2, (1 : Fin 8)), (rotq x 3, (2 : Fin 8)), (rotq x 4, (3 : Fin 8)), (rotq x 5, (4 : Fin 8)), (rotq x 6, (5 : Fin 8)), (rotq x 7, (6 : Fin 8))] (by simp) (by simp)]
  simp only [bigSepL_cons_cons, bigSepL_singleton, payload_bar_0, payload_bar_1, payload_bar_2, payload_bar_3, payload_bar_4, payload_bar_5, payload_bar_6]
  rfl
theorem zr_payloads (x : Dev nD) :
    bigSep ({(rotz x 1, 0), (rotz x 2, 1), (rotz x 3, 2)} : Finset DU) (fun d => (Rd K).payload (zrCell x) 0 d)
      = iprop(((∃ f : Buf (Elt F) ((slot2 0).view.loc ((rotz x 1) : Thread nD τ)), (slot2 0).view.loc ((rotz x 1) : Thread nD τ) ↦[(slot2 0).view.set]{fullShare} f) ∗ reached ER (v2Cell (rotz x 1) 0) 0)
      ∗ ((∃ f : Buf (Elt F) ((slot2 1).view.loc ((rotz x 2) : Thread nD τ)), (slot2 1).view.loc ((rotz x 2) : Thread nD τ) ↦[(slot2 1).view.set]{fullShare} f) ∗ reached ER (v2Cell (rotz x 2) 1) 0)
      ∗ ((∃ f : Buf (Elt F) ((slot2 2).view.loc ((rotz x 3) : Thread nD τ)), (slot2 2).view.loc ((rotz x 3) : Thread nD τ) ↦[(slot2 2).view.set]{fullShare} f) ∗ reached ER (v2Cell (rotz x 3) 2) 0)) := by
  rw [bigSep_eq_bigSepL_of_eq [(rotz x 1, (0 : Fin 8)), (rotz x 2, (1 : Fin 8)), (rotz x 3, (2 : Fin 8))] (by simp) (by simp)]
  simp only [bigSepL_cons_cons, bigSepL_singleton, payload_zr_0, payload_zr_1, payload_zr_2]
  rfl

/-! ## The transfers -/

/-- Device `c`'s transfer number 0 of phase 1, to `rotq c 1`: the source slice is lent to its own send cell, the target's slot lands holding what the slice reads. -/
theorem wp_send1_0 (κ₁ κ₂ : ℕ) (c n : Dev nD) (hn : n = rotq c 1)
    {hsc : ((slot1 0) : Memref sig (Dev.tc n : Thread nD τ).2.kind .vmem S4x16x512 .bf16).view.ref.isScScratch = false}
    {hsrc : (src1 c 0).view.WordExact} {hdst : (slot1 0).view.WordExact}
    {hsem : DmaTarget.Typed .vmem (.dma (v1S 0)) (.remote (Dev.tc n : Thread nD τ) (slot1 0) (.dma (s1S 0)) hsc)}
    {α : Type} {Q : α → sProp 𝕄} {k : PUnit → Prog (TpuEff nD τ sig (Elt F) Λ₀ .tc) α}
    (fs : Buf (Elt F) ((src1 c 0).view.loc (c : Thread nD τ))) (fd : Buf (Elt F) ((slot1 0).view.loc ((rotq c 1 : Dev nD) : Thread nD τ)))
    (hv : (src1 c 0).view.read (Elt F) fs = K.v1 (rotq c 1) 0) (W : Waits sig Unit) (O : CellTallies nD τ sig Unit) :
    iprop(cellInv ER (Rd K) κ₁ (s1Cell c 0) ∗ cellInv ER (Rd K) κ₂ (v1Cell (rotq c 1) 0)
        ∗ ((src1 c 0).view.loc (c : Thread nD τ) ↦[(src1 c 0).view.set]{fullShare} fs)
        ∗ ((slot1 0).view.loc ((rotq c 1 : Dev nD) : Thread nD τ) ↦[(slot1 0).view.set]{fullShare} fd)
        ∗ owes (c : Thread nD τ) (O + tallyAt (v1Cell (rotq c 1) 0) () N1) W
        ∗ dutyTok ER (s1Cell c 0) 0 (c, (0 : Fin 8)) ∗ reached ER (s1Cell c 0) 0
        ∗ dutyTok ER (v1Cell (rotq c 1) 0) 0 (c, (0 : Fin 8)) ∗ reached ER (v1Cell (rotq c 1) 0) 0)
      ⊢ iprop(((cred (tallyAt (s1Cell c 0) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 0) (.remote (Dev.tc n : Thread nD τ) (slot1 0) (.dma (s1S 0)) hsc) (.dma (v1S 0)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_0]; exact Finset.mem_singleton_self _) (mem_v1_0 K c)
    () () N1 rfl rfl rfl O rfl (W := W)
    (by rw [payload_s1_0]; iintro H; iexists fs; iexact H)
    (by
      rw [payload_v1_0]
      iintro H
      iexists ((slot1 0).view.write (Elt F) fd ((src1 c 0).view.read (Elt F) fs) Finset.univ)
      isplitr; · ipureintro; rw [View.read_write_univ]; exact hv
      iexact H)

/-- Device `c`'s transfer number 1 of phase 1, to `rotq c 2`: the source slice is lent to its own send cell, the target's slot lands holding what the slice reads. -/
theorem wp_send1_1 (κ₁ κ₂ : ℕ) (c n : Dev nD) (hn : n = rotq c 2)
    {hsc : ((slot1 1) : Memref sig (Dev.tc n : Thread nD τ).2.kind .vmem S4x16x512 .bf16).view.ref.isScScratch = false}
    {hsrc : (src1 c 1).view.WordExact} {hdst : (slot1 1).view.WordExact}
    {hsem : DmaTarget.Typed .vmem (.dma (v1S 1)) (.remote (Dev.tc n : Thread nD τ) (slot1 1) (.dma (s1S 1)) hsc)}
    {α : Type} {Q : α → sProp 𝕄} {k : PUnit → Prog (TpuEff nD τ sig (Elt F) Λ₀ .tc) α}
    (fs : Buf (Elt F) ((src1 c 1).view.loc (c : Thread nD τ))) (fd : Buf (Elt F) ((slot1 1).view.loc ((rotq c 2 : Dev nD) : Thread nD τ)))
    (hv : (src1 c 1).view.read (Elt F) fs = K.v1 (rotq c 2) 1) (W : Waits sig Unit) (O : CellTallies nD τ sig Unit) :
    iprop(cellInv ER (Rd K) κ₁ (s1Cell c 1) ∗ cellInv ER (Rd K) κ₂ (v1Cell (rotq c 2) 1)
        ∗ ((src1 c 1).view.loc (c : Thread nD τ) ↦[(src1 c 1).view.set]{fullShare} fs)
        ∗ ((slot1 1).view.loc ((rotq c 2 : Dev nD) : Thread nD τ) ↦[(slot1 1).view.set]{fullShare} fd)
        ∗ owes (c : Thread nD τ) (O + tallyAt (v1Cell (rotq c 2) 1) () N1) W
        ∗ dutyTok ER (s1Cell c 1) 0 (c, (0 : Fin 8)) ∗ reached ER (s1Cell c 1) 0
        ∗ dutyTok ER (v1Cell (rotq c 2) 1) 0 (c, (0 : Fin 8)) ∗ reached ER (v1Cell (rotq c 2) 1) 0)
      ⊢ iprop(((cred (tallyAt (s1Cell c 1) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 1) (.remote (Dev.tc n : Thread nD τ) (slot1 1) (.dma (s1S 1)) hsc) (.dma (v1S 1)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_1]; exact Finset.mem_singleton_self _) (mem_v1_1 K c)
    () () N1 rfl rfl rfl O rfl (W := W)
    (by rw [payload_s1_1]; iintro H; iexists fs; iexact H)
    (by
      rw [payload_v1_1]
      iintro H
      iexists ((slot1 1).view.write (Elt F) fd ((src1 c 1).view.read (Elt F) fs) Finset.univ)
      isplitr; · ipureintro; rw [View.read_write_univ]; exact hv
      iexact H)

/-- Device `c`'s transfer number 2 of phase 1, to `rotq c 3`: the source slice is lent to its own send cell, the target's slot lands holding what the slice reads. -/
theorem wp_send1_2 (κ₁ κ₂ : ℕ) (c n : Dev nD) (hn : n = rotq c 3)
    {hsc : ((slot1 2) : Memref sig (Dev.tc n : Thread nD τ).2.kind .vmem S4x16x512 .bf16).view.ref.isScScratch = false}
    {hsrc : (src1 c 2).view.WordExact} {hdst : (slot1 2).view.WordExact}
    {hsem : DmaTarget.Typed .vmem (.dma (v1S 2)) (.remote (Dev.tc n : Thread nD τ) (slot1 2) (.dma (s1S 2)) hsc)}
    {α : Type} {Q : α → sProp 𝕄} {k : PUnit → Prog (TpuEff nD τ sig (Elt F) Λ₀ .tc) α}
    (fs : Buf (Elt F) ((src1 c 2).view.loc (c : Thread nD τ))) (fd : Buf (Elt F) ((slot1 2).view.loc ((rotq c 3 : Dev nD) : Thread nD τ)))
    (hv : (src1 c 2).view.read (Elt F) fs = K.v1 (rotq c 3) 2) (W : Waits sig Unit) (O : CellTallies nD τ sig Unit) :
    iprop(cellInv ER (Rd K) κ₁ (s1Cell c 2) ∗ cellInv ER (Rd K) κ₂ (v1Cell (rotq c 3) 2)
        ∗ ((src1 c 2).view.loc (c : Thread nD τ) ↦[(src1 c 2).view.set]{fullShare} fs)
        ∗ ((slot1 2).view.loc ((rotq c 3 : Dev nD) : Thread nD τ) ↦[(slot1 2).view.set]{fullShare} fd)
        ∗ owes (c : Thread nD τ) (O + tallyAt (v1Cell (rotq c 3) 2) () N1) W
        ∗ dutyTok ER (s1Cell c 2) 0 (c, (0 : Fin 8)) ∗ reached ER (s1Cell c 2) 0
        ∗ dutyTok ER (v1Cell (rotq c 3) 2) 0 (c, (0 : Fin 8)) ∗ reached ER (v1Cell (rotq c 3) 2) 0)
      ⊢ iprop(((cred (tallyAt (s1Cell c 2) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 2) (.remote (Dev.tc n : Thread nD τ) (slot1 2) (.dma (s1S 2)) hsc) (.dma (v1S 2)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_2]; exact Finset.mem_singleton_self _) (mem_v1_2 K c)
    () () N1 rfl rfl rfl O rfl (W := W)
    (by rw [payload_s1_2]; iintro H; iexists fs; iexact H)
    (by
      rw [payload_v1_2]
      iintro H
      iexists ((slot1 2).view.write (Elt F) fd ((src1 c 2).view.read (Elt F) fs) Finset.univ)
      isplitr; · ipureintro; rw [View.read_write_univ]; exact hv
      iexact H)

/-- Device `c`'s transfer number 3 of phase 1, to `rotq c 4`: the source slice is lent to its own send cell, the target's slot lands holding what the slice reads. -/
theorem wp_send1_3 (κ₁ κ₂ : ℕ) (c n : Dev nD) (hn : n = rotq c 4)
    {hsc : ((slot1 3) : Memref sig (Dev.tc n : Thread nD τ).2.kind .vmem S4x16x512 .bf16).view.ref.isScScratch = false}
    {hsrc : (src1 c 3).view.WordExact} {hdst : (slot1 3).view.WordExact}
    {hsem : DmaTarget.Typed .vmem (.dma (v1S 3)) (.remote (Dev.tc n : Thread nD τ) (slot1 3) (.dma (s1S 3)) hsc)}
    {α : Type} {Q : α → sProp 𝕄} {k : PUnit → Prog (TpuEff nD τ sig (Elt F) Λ₀ .tc) α}
    (fs : Buf (Elt F) ((src1 c 3).view.loc (c : Thread nD τ))) (fd : Buf (Elt F) ((slot1 3).view.loc ((rotq c 4 : Dev nD) : Thread nD τ)))
    (hv : (src1 c 3).view.read (Elt F) fs = K.v1 (rotq c 4) 3) (W : Waits sig Unit) (O : CellTallies nD τ sig Unit) :
    iprop(cellInv ER (Rd K) κ₁ (s1Cell c 3) ∗ cellInv ER (Rd K) κ₂ (v1Cell (rotq c 4) 3)
        ∗ ((src1 c 3).view.loc (c : Thread nD τ) ↦[(src1 c 3).view.set]{fullShare} fs)
        ∗ ((slot1 3).view.loc ((rotq c 4 : Dev nD) : Thread nD τ) ↦[(slot1 3).view.set]{fullShare} fd)
        ∗ owes (c : Thread nD τ) (O + tallyAt (v1Cell (rotq c 4) 3) () N1) W
        ∗ dutyTok ER (s1Cell c 3) 0 (c, (0 : Fin 8)) ∗ reached ER (s1Cell c 3) 0
        ∗ dutyTok ER (v1Cell (rotq c 4) 3) 0 (c, (0 : Fin 8)) ∗ reached ER (v1Cell (rotq c 4) 3) 0)
      ⊢ iprop(((cred (tallyAt (s1Cell c 3) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 3) (.remote (Dev.tc n : Thread nD τ) (slot1 3) (.dma (s1S 3)) hsc) (.dma (v1S 3)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_3]; exact Finset.mem_singleton_self _) (mem_v1_3 K c)
    () () N1 rfl rfl rfl O rfl (W := W)
    (by rw [payload_s1_3]; iintro H; iexists fs; iexact H)
    (by
      rw [payload_v1_3]
      iintro H
      iexists ((slot1 3).view.write (Elt F) fd ((src1 c 3).view.read (Elt F) fs) Finset.univ)
      isplitr; · ipureintro; rw [View.read_write_univ]; exact hv
      iexact H)

/-- Device `c`'s transfer number 4 of phase 1, to `rotq c 5`: the source slice is lent to its own send cell, the target's slot lands holding what the slice reads. -/
theorem wp_send1_4 (κ₁ κ₂ : ℕ) (c n : Dev nD) (hn : n = rotq c 5)
    {hsc : ((slot1 4) : Memref sig (Dev.tc n : Thread nD τ).2.kind .vmem S4x16x512 .bf16).view.ref.isScScratch = false}
    {hsrc : (src1 c 4).view.WordExact} {hdst : (slot1 4).view.WordExact}
    {hsem : DmaTarget.Typed .vmem (.dma (v1S 4)) (.remote (Dev.tc n : Thread nD τ) (slot1 4) (.dma (s1S 4)) hsc)}
    {α : Type} {Q : α → sProp 𝕄} {k : PUnit → Prog (TpuEff nD τ sig (Elt F) Λ₀ .tc) α}
    (fs : Buf (Elt F) ((src1 c 4).view.loc (c : Thread nD τ))) (fd : Buf (Elt F) ((slot1 4).view.loc ((rotq c 5 : Dev nD) : Thread nD τ)))
    (hv : (src1 c 4).view.read (Elt F) fs = K.v1 (rotq c 5) 4) (W : Waits sig Unit) (O : CellTallies nD τ sig Unit) :
    iprop(cellInv ER (Rd K) κ₁ (s1Cell c 4) ∗ cellInv ER (Rd K) κ₂ (v1Cell (rotq c 5) 4)
        ∗ ((src1 c 4).view.loc (c : Thread nD τ) ↦[(src1 c 4).view.set]{fullShare} fs)
        ∗ ((slot1 4).view.loc ((rotq c 5 : Dev nD) : Thread nD τ) ↦[(slot1 4).view.set]{fullShare} fd)
        ∗ owes (c : Thread nD τ) (O + tallyAt (v1Cell (rotq c 5) 4) () N1) W
        ∗ dutyTok ER (s1Cell c 4) 0 (c, (0 : Fin 8)) ∗ reached ER (s1Cell c 4) 0
        ∗ dutyTok ER (v1Cell (rotq c 5) 4) 0 (c, (0 : Fin 8)) ∗ reached ER (v1Cell (rotq c 5) 4) 0)
      ⊢ iprop(((cred (tallyAt (s1Cell c 4) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 4) (.remote (Dev.tc n : Thread nD τ) (slot1 4) (.dma (s1S 4)) hsc) (.dma (v1S 4)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_4]; exact Finset.mem_singleton_self _) (mem_v1_4 K c)
    () () N1 rfl rfl rfl O rfl (W := W)
    (by rw [payload_s1_4]; iintro H; iexists fs; iexact H)
    (by
      rw [payload_v1_4]
      iintro H
      iexists ((slot1 4).view.write (Elt F) fd ((src1 c 4).view.read (Elt F) fs) Finset.univ)
      isplitr; · ipureintro; rw [View.read_write_univ]; exact hv
      iexact H)

/-- Device `c`'s transfer number 5 of phase 1, to `rotq c 6`: the source slice is lent to its own send cell, the target's slot lands holding what the slice reads. -/
theorem wp_send1_5 (κ₁ κ₂ : ℕ) (c n : Dev nD) (hn : n = rotq c 6)
    {hsc : ((slot1 5) : Memref sig (Dev.tc n : Thread nD τ).2.kind .vmem S4x16x512 .bf16).view.ref.isScScratch = false}
    {hsrc : (src1 c 5).view.WordExact} {hdst : (slot1 5).view.WordExact}
    {hsem : DmaTarget.Typed .vmem (.dma (v1S 5)) (.remote (Dev.tc n : Thread nD τ) (slot1 5) (.dma (s1S 5)) hsc)}
    {α : Type} {Q : α → sProp 𝕄} {k : PUnit → Prog (TpuEff nD τ sig (Elt F) Λ₀ .tc) α}
    (fs : Buf (Elt F) ((src1 c 5).view.loc (c : Thread nD τ))) (fd : Buf (Elt F) ((slot1 5).view.loc ((rotq c 6 : Dev nD) : Thread nD τ)))
    (hv : (src1 c 5).view.read (Elt F) fs = K.v1 (rotq c 6) 5) (W : Waits sig Unit) (O : CellTallies nD τ sig Unit) :
    iprop(cellInv ER (Rd K) κ₁ (s1Cell c 5) ∗ cellInv ER (Rd K) κ₂ (v1Cell (rotq c 6) 5)
        ∗ ((src1 c 5).view.loc (c : Thread nD τ) ↦[(src1 c 5).view.set]{fullShare} fs)
        ∗ ((slot1 5).view.loc ((rotq c 6 : Dev nD) : Thread nD τ) ↦[(slot1 5).view.set]{fullShare} fd)
        ∗ owes (c : Thread nD τ) (O + tallyAt (v1Cell (rotq c 6) 5) () N1) W
        ∗ dutyTok ER (s1Cell c 5) 0 (c, (0 : Fin 8)) ∗ reached ER (s1Cell c 5) 0
        ∗ dutyTok ER (v1Cell (rotq c 6) 5) 0 (c, (0 : Fin 8)) ∗ reached ER (v1Cell (rotq c 6) 5) 0)
      ⊢ iprop(((cred (tallyAt (s1Cell c 5) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 5) (.remote (Dev.tc n : Thread nD τ) (slot1 5) (.dma (s1S 5)) hsc) (.dma (v1S 5)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_5]; exact Finset.mem_singleton_self _) (mem_v1_5 K c)
    () () N1 rfl rfl rfl O rfl (W := W)
    (by rw [payload_s1_5]; iintro H; iexists fs; iexact H)
    (by
      rw [payload_v1_5]
      iintro H
      iexists ((slot1 5).view.write (Elt F) fd ((src1 c 5).view.read (Elt F) fs) Finset.univ)
      isplitr; · ipureintro; rw [View.read_write_univ]; exact hv
      iexact H)

/-- Device `c`'s transfer number 6 of phase 1, to `rotq c 7`: the source slice is lent to its own send cell, the target's slot lands holding what the slice reads. -/
theorem wp_send1_6 (κ₁ κ₂ : ℕ) (c n : Dev nD) (hn : n = rotq c 7)
    {hsc : ((slot1 6) : Memref sig (Dev.tc n : Thread nD τ).2.kind .vmem S4x16x512 .bf16).view.ref.isScScratch = false}
    {hsrc : (src1 c 6).view.WordExact} {hdst : (slot1 6).view.WordExact}
    {hsem : DmaTarget.Typed .vmem (.dma (v1S 6)) (.remote (Dev.tc n : Thread nD τ) (slot1 6) (.dma (s1S 6)) hsc)}
    {α : Type} {Q : α → sProp 𝕄} {k : PUnit → Prog (TpuEff nD τ sig (Elt F) Λ₀ .tc) α}
    (fs : Buf (Elt F) ((src1 c 6).view.loc (c : Thread nD τ))) (fd : Buf (Elt F) ((slot1 6).view.loc ((rotq c 7 : Dev nD) : Thread nD τ)))
    (hv : (src1 c 6).view.read (Elt F) fs = K.v1 (rotq c 7) 6) (W : Waits sig Unit) (O : CellTallies nD τ sig Unit) :
    iprop(cellInv ER (Rd K) κ₁ (s1Cell c 6) ∗ cellInv ER (Rd K) κ₂ (v1Cell (rotq c 7) 6)
        ∗ ((src1 c 6).view.loc (c : Thread nD τ) ↦[(src1 c 6).view.set]{fullShare} fs)
        ∗ ((slot1 6).view.loc ((rotq c 7 : Dev nD) : Thread nD τ) ↦[(slot1 6).view.set]{fullShare} fd)
        ∗ owes (c : Thread nD τ) (O + tallyAt (v1Cell (rotq c 7) 6) () N1) W
        ∗ dutyTok ER (s1Cell c 6) 0 (c, (0 : Fin 8)) ∗ reached ER (s1Cell c 6) 0
        ∗ dutyTok ER (v1Cell (rotq c 7) 6) 0 (c, (0 : Fin 8)) ∗ reached ER (v1Cell (rotq c 7) 6) 0)
      ⊢ iprop(((cred (tallyAt (s1Cell c 6) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 6) (.remote (Dev.tc n : Thread nD τ) (slot1 6) (.dma (s1S 6)) hsc) (.dma (v1S 6)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_6]; exact Finset.mem_singleton_self _) (mem_v1_6 K c)
    () () N1 rfl rfl rfl O rfl (W := W)
    (by rw [payload_s1_6]; iintro H; iexists fs; iexact H)
    (by
      rw [payload_v1_6]
      iintro H
      iexists ((slot1 6).view.write (Elt F) fd ((src1 c 6).view.read (Elt F) fs) Finset.univ)
      isplitr; · ipureintro; rw [View.read_write_univ]; exact hv
      iexact H)

/-- Device `c`'s transfer number 0 of phase 2, to `rotz c 1`: the source slice is lent to its own send cell, the target's slot lands holding what the slice reads. -/
theorem wp_send2_0 (κ₁ κ₂ : ℕ) (c n : Dev nD) (hn : n = rotz c 1)
    {hsc : ((slot2 0) : Memref sig (Dev.tc n : Thread nD τ).2.kind .vmem S16x512 .bf16).view.ref.isScScratch = false}
    {hsrc : (src2 c 0).view.WordExact} {hdst : (slot2 0).view.WordExact}
    {hsem : DmaTarget.Typed .vmem (.dma (v2S 0)) (.remote (Dev.tc n : Thread nD τ) (slot2 0) (.dma (s2S 0)) hsc)}
    {α : Type} {Q : α → sProp 𝕄} {k : PUnit → Prog (TpuEff nD τ sig (Elt F) Λ₀ .tc) α}
    (fs : Buf (Elt F) ((src2 c 0).view.loc (c : Thread nD τ))) (fd : Buf (Elt F) ((slot2 0).view.loc ((rotz c 1 : Dev nD) : Thread nD τ)))
    (hv : (src2 c 0).view.read (Elt F) fs = K.v2 (rotz c 1) 0) (W : Waits sig Unit) (O : CellTallies nD τ sig Unit) :
    iprop(cellInv ER (Rd K) κ₁ (s2Cell c 0) ∗ cellInv ER (Rd K) κ₂ (v2Cell (rotz c 1) 0)
        ∗ ((src2 c 0).view.loc (c : Thread nD τ) ↦[(src2 c 0).view.set]{fullShare} fs)
        ∗ ((slot2 0).view.loc ((rotz c 1 : Dev nD) : Thread nD τ) ↦[(slot2 0).view.set]{fullShare} fd)
        ∗ owes (c : Thread nD τ) (O + tallyAt (v2Cell (rotz c 1) 0) () N2) W
        ∗ dutyTok ER (s2Cell c 0) 0 (c, (0 : Fin 8)) ∗ reached ER (s2Cell c 0) 0
        ∗ dutyTok ER (v2Cell (rotz c 1) 0) 0 (c, (0 : Fin 8)) ∗ reached ER (v2Cell (rotz c 1) 0) 0)
      ⊢ iprop(((cred (tallyAt (s2Cell c 0) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 0) (.remote (Dev.tc n : Thread nD τ) (slot2 0) (.dma (s2S 0)) hsc) (.dma (v2S 0)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_0]; exact Finset.mem_singleton_self _) (mem_v2_0 K c)
    () () N2 rfl rfl rfl O rfl (W := W)
    (by rw [payload_s2_0]; iintro H; iexists fs; iexact H)
    (by
      rw [payload_v2_0]
      iintro H
      iexists ((slot2 0).view.write (Elt F) fd ((src2 c 0).view.read (Elt F) fs) Finset.univ)
      isplitr; · ipureintro; rw [View.read_write_univ]; exact hv
      iexact H)

/-- Device `c`'s transfer number 1 of phase 2, to `rotz c 2`: the source slice is lent to its own send cell, the target's slot lands holding what the slice reads. -/
theorem wp_send2_1 (κ₁ κ₂ : ℕ) (c n : Dev nD) (hn : n = rotz c 2)
    {hsc : ((slot2 1) : Memref sig (Dev.tc n : Thread nD τ).2.kind .vmem S16x512 .bf16).view.ref.isScScratch = false}
    {hsrc : (src2 c 1).view.WordExact} {hdst : (slot2 1).view.WordExact}
    {hsem : DmaTarget.Typed .vmem (.dma (v2S 1)) (.remote (Dev.tc n : Thread nD τ) (slot2 1) (.dma (s2S 1)) hsc)}
    {α : Type} {Q : α → sProp 𝕄} {k : PUnit → Prog (TpuEff nD τ sig (Elt F) Λ₀ .tc) α}
    (fs : Buf (Elt F) ((src2 c 1).view.loc (c : Thread nD τ))) (fd : Buf (Elt F) ((slot2 1).view.loc ((rotz c 2 : Dev nD) : Thread nD τ)))
    (hv : (src2 c 1).view.read (Elt F) fs = K.v2 (rotz c 2) 1) (W : Waits sig Unit) (O : CellTallies nD τ sig Unit) :
    iprop(cellInv ER (Rd K) κ₁ (s2Cell c 1) ∗ cellInv ER (Rd K) κ₂ (v2Cell (rotz c 2) 1)
        ∗ ((src2 c 1).view.loc (c : Thread nD τ) ↦[(src2 c 1).view.set]{fullShare} fs)
        ∗ ((slot2 1).view.loc ((rotz c 2 : Dev nD) : Thread nD τ) ↦[(slot2 1).view.set]{fullShare} fd)
        ∗ owes (c : Thread nD τ) (O + tallyAt (v2Cell (rotz c 2) 1) () N2) W
        ∗ dutyTok ER (s2Cell c 1) 0 (c, (0 : Fin 8)) ∗ reached ER (s2Cell c 1) 0
        ∗ dutyTok ER (v2Cell (rotz c 2) 1) 0 (c, (0 : Fin 8)) ∗ reached ER (v2Cell (rotz c 2) 1) 0)
      ⊢ iprop(((cred (tallyAt (s2Cell c 1) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 1) (.remote (Dev.tc n : Thread nD τ) (slot2 1) (.dma (s2S 1)) hsc) (.dma (v2S 1)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_1]; exact Finset.mem_singleton_self _) (mem_v2_1 K c)
    () () N2 rfl rfl rfl O rfl (W := W)
    (by rw [payload_s2_1]; iintro H; iexists fs; iexact H)
    (by
      rw [payload_v2_1]
      iintro H
      iexists ((slot2 1).view.write (Elt F) fd ((src2 c 1).view.read (Elt F) fs) Finset.univ)
      isplitr; · ipureintro; rw [View.read_write_univ]; exact hv
      iexact H)

/-- Device `c`'s transfer number 2 of phase 2, to `rotz c 3`: the source slice is lent to its own send cell, the target's slot lands holding what the slice reads. -/
theorem wp_send2_2 (κ₁ κ₂ : ℕ) (c n : Dev nD) (hn : n = rotz c 3)
    {hsc : ((slot2 2) : Memref sig (Dev.tc n : Thread nD τ).2.kind .vmem S16x512 .bf16).view.ref.isScScratch = false}
    {hsrc : (src2 c 2).view.WordExact} {hdst : (slot2 2).view.WordExact}
    {hsem : DmaTarget.Typed .vmem (.dma (v2S 2)) (.remote (Dev.tc n : Thread nD τ) (slot2 2) (.dma (s2S 2)) hsc)}
    {α : Type} {Q : α → sProp 𝕄} {k : PUnit → Prog (TpuEff nD τ sig (Elt F) Λ₀ .tc) α}
    (fs : Buf (Elt F) ((src2 c 2).view.loc (c : Thread nD τ))) (fd : Buf (Elt F) ((slot2 2).view.loc ((rotz c 3 : Dev nD) : Thread nD τ)))
    (hv : (src2 c 2).view.read (Elt F) fs = K.v2 (rotz c 3) 2) (W : Waits sig Unit) (O : CellTallies nD τ sig Unit) :
    iprop(cellInv ER (Rd K) κ₁ (s2Cell c 2) ∗ cellInv ER (Rd K) κ₂ (v2Cell (rotz c 3) 2)
        ∗ ((src2 c 2).view.loc (c : Thread nD τ) ↦[(src2 c 2).view.set]{fullShare} fs)
        ∗ ((slot2 2).view.loc ((rotz c 3 : Dev nD) : Thread nD τ) ↦[(slot2 2).view.set]{fullShare} fd)
        ∗ owes (c : Thread nD τ) (O + tallyAt (v2Cell (rotz c 3) 2) () N2) W
        ∗ dutyTok ER (s2Cell c 2) 0 (c, (0 : Fin 8)) ∗ reached ER (s2Cell c 2) 0
        ∗ dutyTok ER (v2Cell (rotz c 3) 2) 0 (c, (0 : Fin 8)) ∗ reached ER (v2Cell (rotz c 3) 2) 0)
      ⊢ iprop(((cred (tallyAt (s2Cell c 2) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 2) (.remote (Dev.tc n : Thread nD τ) (slot2 2) (.dma (s2S 2)) hsc) (.dma (v2S 2)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_2]; exact Finset.mem_singleton_self _) (mem_v2_2 K c)
    () () N2 rfl rfl rfl O rfl (W := W)
    (by rw [payload_s2_2]; iintro H; iexists fs; iexact H)
    (by
      rw [payload_v2_2]
      iintro H
      iexists ((slot2 2).view.write (Elt F) fd ((src2 c 2).view.read (Elt F) fs) Finset.univ)
      isplitr; · ipureintro; rw [View.read_write_univ]; exact hv
      iexact H)

end Cert.KernelIdeal.Hand
end
-- ==== Proof.Cuts.lean ====
import proofs.«900450_g7700000000000451_dist_matmul_mk_i_outk_m512_n512_k256_v7x_i32_f32_1_alg».proof.Proof.Mesh
import Idealize.ShloMosaic.Lib.Pipeline.Value
import Idealize.ShloMosaic.Rules.PointsTo

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting a buffer along a chain of subsets -/

section Generic
variable {ℓ : Loc nD τ sig} {q : PosShare TreeShare} {f : Buf (Elt F) ℓ}

/-- One step of a cut: a part of what is held is set aside and the remainder is cut further. -/
theorem split_step {I S : Finset (Idx ℓ)} (h : I ⊆ S) {R : sProp 𝕄}
    (hR : (ℓ ↦[S \ I]{q} f : sProp 𝕄) ⊣⊢ R) :
    (ℓ ↦[S]{q} f : sProp 𝕄) ⊣⊢ iprop((ℓ ↦[I]{q} f) ∗ R) :=
  ⟨(pointsTo_split_subset h).1.trans (sep_mono_right hR.1),
   (sep_mono_right hR.2).trans (pointsTo_split_subset h).2⟩

end Generic

section Generic3
variable {ℓ : Loc nD τ sig} {q : PosShare TreeShare}

/-- A buffer cut into 3 parts, each the fibre of a key over one of 3 distinct values, and the remainder. -/
theorem cut3_iff (f : Buf (Elt F) ℓ) (key : Idx ℓ → ℕ) (k0 k1 k2 : ℕ) (I0 I1 I2 : Finset (Idx ℓ))
    (h0 : ∀ i, i ∈ I0 ↔ key i = k0) (h1 : ∀ i, i ∈ I1 ↔ key i = k1) (h2 : ∀ i, i ∈ I2 ↔ key i = k2)
    (hk : Function.Injective ![k0, k1, k2]) :
    (ℓ ↦{q} f : sProp 𝕄) ⊣⊢ iprop((ℓ ↦[I0]{q} f) ∗ (ℓ ↦[I1]{q} f) ∗ (ℓ ↦[I2]{q} f) ∗ (ℓ ↦[Finset.univ \ (I0 ∪ I1 ∪ I2)]{q} f)) := by
  have d (a b : Fin 3) (hab : a ≠ b) : ![k0, k1, k2] a ≠ ![k0, k1, k2] b := fun e => hab (hk e)
  refine split_step (I := I0) (Finset.subset_univ _) ?_
  refine split_step (I := I1) (fun i hi => ?_) ?_
  · have e := (h1 i).mp hi
    refine Finset.mem_sdiff.mpr ⟨?_, fun hj => d 0 1 (by decide) (((h0 i).mp hj).symm.trans e)⟩
    exact Finset.mem_univ i
  refine split_step (I := I2) (fun i hi => ?_) ?_
  · have e := (h2 i).mp hi
    refine Finset.mem_sdiff.mpr ⟨?_, fun hj => d 1 2 (by decide) (((h1 i).mp hj).symm.trans e)⟩
    refine Finset.mem_sdiff.mpr ⟨?_, fun hj => d 0 2 (by decide) (((h0 i).mp hj).symm.trans e)⟩
    exact Finset.mem_univ i
  have e : ((((Finset.univ \ I0) \ I1) \ I2) : Finset (Idx ℓ)) = Finset.univ \ (I0 ∪ I1 ∪ I2) := by
    ext i; simp only [Finset.mem_sdiff, Finset.mem_union, Finset.mem_univ, true_and]; tauto
  rw [e]

/-- The parts put back at different contents: some contents of the whole buffer agree with each part's on it. -/
theorem join3 (f0 f1 f2 fr : Buf (Elt F) ℓ) (key : Idx ℓ → ℕ) (k0 k1 k2 : ℕ) (I0 I1 I2 : Finset (Idx ℓ))
    (h0 : ∀ i, i ∈ I0 ↔ key i = k0) (h1 : ∀ i, i ∈ I1 ↔ key i = k1) (h2 : ∀ i, i ∈ I2 ↔ key i = k2)
    (hk : Function.Injective ![k0, k1, k2]) :
    (iprop((ℓ ↦[I0]{q} f0) ∗ (ℓ ↦[I1]{q} f1) ∗ (ℓ ↦[I2]{q} f2) ∗ (ℓ ↦[Finset.univ \ (I0 ∪ I1 ∪ I2)]{q} fr)) : sProp 𝕄) ⊢
      iprop(∃ g, ⌜(∀ i ∈ I0, g i = f0 i) ∧ (∀ i ∈ I1, g i = f1 i) ∧ (∀ i ∈ I2, g i = f2 i)⌝ ∗ (ℓ ↦{q} g)) := by
  have d (a b : Fin 3) (hab : a ≠ b) : ![k0, k1, k2] a ≠ ![k0, k1, k2] b := fun e => hab (hk e)
  let G : Buf (Elt F) ℓ := I0.piecewise f0 (I1.piecewise f1 (I2.piecewise f2 (fr)))
  have a0 : ∀ i ∈ I0, G i = f0 i := by
    intro i hi
    have e := (h0 i).mp hi
    simp only [G, Finset.piecewise, hi, if_true, if_false]
  have a1 : ∀ i ∈ I1, G i = f1 i := by
    intro i hi
    have e := (h1 i).mp hi
    have n0 : i ∉ I0 := fun hj => d 0 1 (by decide) (((h0 i).mp hj).symm.trans e)
    simp only [G, Finset.piecewise, n0, hi, if_true, if_false]
  have a2 : ∀ i ∈ I2, G i = f2 i := by
    intro i hi
    have e := (h2 i).mp hi
    have n0 : i ∉ I0 := fun hj => d 0 2 (by decide) (((h0 i).mp hj).symm.trans e)
    have n1 : i ∉ I1 := fun hj => d 1 2 (by decide) (((h1 i).mp hj).symm.trans e)
    simp only [G, Finset.piecewise, n0, n1, hi, if_true, if_false]
  have ar : ∀ i ∈ Finset.univ \ (I0 ∪ I1 ∪ I2), G i = fr i := by
    intro i hi
    have hn := (Finset.mem_sdiff.mp hi).2
    simp only [Finset.mem_union, not_or] at hn
    obtain ⟨⟨n0, n1⟩, n2⟩ := hn
    simp only [G, Finset.piecewise, n0, n1, n2, if_false]
  rw [pointsTo_congr (I := I0) (f := f0) (g := G) (fun i hi => (a0 i hi).symm),
    pointsTo_congr (I := I1) (f := f1) (g := G) (fun i hi => (a1 i hi).symm),
    pointsTo_congr (I := I2) (f := f2) (g := G) (fun i hi => (a2 i hi).symm),
    pointsTo_congr (I := Finset.univ \ (I0 ∪ I1 ∪ I2)) (f := fr) (g := G) (fun i hi => (ar i hi).symm)]
  iintro H
  iexists G
  isplitr
  · ipureintro; exact ⟨a0, a1, a2⟩
  · iapply (cut3_iff G key k0 k1 k2 I0 I1 I2 h0 h1 h2 hk).2
    iexact H

end Generic3

section Generic7
variable {ℓ : Loc nD τ sig} {q : PosShare TreeShare}

/-- A buffer cut into 7 parts, each the fibre of a key over one of 7 distinct values, and the remainder. -/
theorem cut7_iff (f : Buf (Elt F) ℓ) (key : Idx ℓ → ℕ) (k0 k1 k2 k3 k4 k5 k6 : ℕ) (I0 I1 I2 I3 I4 I5 I6 : Finset (Idx ℓ))
    (h0 : ∀ i, i ∈ I0 ↔ key i = k0) (h1 : ∀ i, i ∈ I1 ↔ key i = k1) (h2 : ∀ i, i ∈ I2 ↔ key i = k2) (h3 : ∀ i, i ∈ I3 ↔ key i = k3) (h4 : ∀ i, i ∈ I4 ↔ key i = k4) (h5 : ∀ i, i ∈ I5 ↔ key i = k5) (h6 : ∀ i, i ∈ I6 ↔ key i = k6)
    (hk : Function.Injective ![k0, k1, k2, k3, k4, k5, k6]) :
    (ℓ ↦{q} f : sProp 𝕄) ⊣⊢ iprop((ℓ ↦[I0]{q} f) ∗ (ℓ ↦[I1]{q} f) ∗ (ℓ ↦[I2]{q} f) ∗ (ℓ ↦[I3]{q} f) ∗ (ℓ ↦[I4]{q} f) ∗ (ℓ ↦[I5]{q} f) ∗ (ℓ ↦[I6]{q} f) ∗ (ℓ ↦[Finset.univ \ (I0 ∪ I1 ∪ I2 ∪ I3 ∪ I4 ∪ I5 ∪ I6)]{q} f)) := by
  have d (a b : Fin 7) (hab : a ≠ b) : ![k0, k1, k2, k3, k4, k5, k6] a ≠ ![k0, k1, k2, k3, k4, k5, k6] b := fun e => hab (hk e)
  refine split_step (I := I0) (Finset.subset_univ _) ?_
  refine split_step (I := I1) (fun i hi => ?_) ?_
  · have e := (h1 i).mp hi
    refine Finset.mem_sdiff.mpr ⟨?_, fun hj => d 0 1 (by decide) (((h0 i).mp hj).symm.trans e)⟩
    exact Finset.mem_univ i
  refine split_step (I := I2) (fun i hi => ?_) ?_
  · have e := (h2 i).mp hi
    refine Finset.mem_sdiff.mpr ⟨?_, fun hj => d 1 2 (by decide) (((h1 i).mp hj).symm.trans e)⟩
    refine Finset.mem_sdiff.mpr ⟨?_, fun hj => d 0 2 (by decide) (((h0 i).mp hj).symm.trans e)⟩
    exact Finset.mem_univ i
  refine split_step (I := I3) (fun i hi => ?_) ?_
  · have e := (h3 i).mp hi
    refine Finset.mem_sdiff.mpr ⟨?_, fun hj => d 2 3 (by decide) (((h2 i).mp hj).symm.trans e)⟩
    refine Finset.mem_sdiff.mpr ⟨?_, fun hj => d 1 3 (by decide) (((h1 i).mp hj).symm.trans e)⟩
    refine Finset.mem_sdiff.mpr ⟨?_, fun hj => d 0 3 (by decide) (((h0 i).mp hj).symm.trans e)⟩
    exact Finset.mem_univ i
  refine split_step (I := I4) (fun i hi => ?_) ?_
  · have e := (h4 i).mp hi
    refine Finset.mem_sdiff.mpr ⟨?_, fun hj => d 3 4 (by decide) (((h3 i).mp hj).symm.trans e)⟩
    refine Finset.mem_sdiff.mpr ⟨?_, fun hj => d 2 4 (by decide) (((h2 i).mp hj).symm.trans e)⟩
    refine Finset.mem_sdiff.mpr ⟨?_, fun hj => d 1 4 (by decide) (((h1 i).mp hj).symm.trans e)⟩
    refine Finset.mem_sdiff.mpr ⟨?_, fun hj => d 0 4 (by decide) (((h0 i).mp hj).symm.trans e)⟩
    exact Finset.mem_univ i
  refine split_step (I := I5) (fun i hi => ?_) ?_
  · have e := (h5 i).mp hi
    refine Finset.mem_sdiff.mpr ⟨?_, fun hj => d 4 5 (by decide) (((h4 i).mp hj).symm.trans e)⟩
    refine Finset.mem_sdiff.mpr ⟨?_, fun hj => d 3 5 (by decide) (((h3 i).mp hj).symm.trans e)⟩
    refine Finset.mem_sdiff.mpr ⟨?_, fun hj => d 2 5 (by decide) (((h2 i).mp hj).symm.trans e)⟩
    refine Finset.mem_sdiff.mpr ⟨?_, fun hj => d 1 5 (by decide) (((h1 i).mp hj).symm.trans e)⟩
    refine Finset.mem_sdiff.mpr ⟨?_, fun hj => d 0 5 (by decide) (((h0 i).mp hj).symm.trans e)⟩
    exact Finset.mem_univ i
  refine split_step (I := I6) (fun i hi => ?_) ?_
  · have e := (h6 i).mp hi
    refine Finset.mem_sdiff.mpr ⟨?_, fun hj => d 5 6 (by decide) (((h5 i).mp hj).symm.trans e)⟩
    refine Finset.mem_sdiff.mpr ⟨?_, fun hj => d 4 6 (by decide) (((h4 i).mp hj).symm.trans e)⟩
    refine Finset.mem_sdiff.mpr ⟨?_, fun hj => d 3 6 (by decide) (((h3 i).mp hj).symm.trans e)⟩
    refine Finset.mem_sdiff.mpr ⟨?_, fun hj => d 2 6 (by decide) (((h2 i).mp hj).symm.trans e)⟩
    refine Finset.mem_sdiff.mpr ⟨?_, fun hj => d 1 6 (by decide) (((h1 i).mp hj).symm.trans e)⟩
    refine Finset.mem_sdiff.mpr ⟨?_, fun hj => d 0 6 (by decide) (((h0 i).mp hj).symm.trans e)⟩
    exact Finset.mem_univ i
  have e : ((((((((Finset.univ \ I0) \ I1) \ I2) \ I3) \ I4) \ I5) \ I6) : Finset (Idx ℓ)) = Finset.univ \ (I0 ∪ I1 ∪ I2 ∪ I3 ∪ I4 ∪ I5 ∪ I6) := by
    ext i; simp only [Finset.mem_sdiff, Finset.mem_union, Finset.mem_univ, true_and]; tauto
  rw [e]

/-- The parts put back at different contents: some contents of the whole buffer agree with each part's on it. -/
theorem join7 (f0 f1 f2 f3 f4 f5 f6 fr : Buf (Elt F) ℓ) (key : Idx ℓ → ℕ) (k0 k1 k2 k3 k4 k5 k6 : ℕ) (I0 I1 I2 I3 I4 I5 I6 : Finset (Idx ℓ))
    (h0 : ∀ i, i ∈ I0 ↔ key i = k0) (h1 : ∀ i, i ∈ I1 ↔ key i = k1) (h2 : ∀ i, i ∈ I2 ↔ key i = k2) (h3 : ∀ i, i ∈ I3 ↔ key i = k3) (h4 : ∀ i, i ∈ I4 ↔ key i = k4) (h5 : ∀ i, i ∈ I5 ↔ key i = k5) (h6 : ∀ i, i ∈ I6 ↔ key i = k6)
    (hk : Function.Injective ![k0, k1, k2, k3, k4, k5, k6]) :
    (iprop((ℓ ↦[I0]{q} f0) ∗ (ℓ ↦[I1]{q} f1) ∗ (ℓ ↦[I2]{q} f2) ∗ (ℓ ↦[I3]{q} f3) ∗ (ℓ ↦[I4]{q} f4) ∗ (ℓ ↦[I5]{q} f5) ∗ (ℓ ↦[I6]{q} f6) ∗ (ℓ ↦[Finset.univ \ (I0 ∪ I1 ∪ I2 ∪ I3 ∪ I4 ∪ I5 ∪ I6)]{q} fr)) : sProp 𝕄) ⊢
      iprop(∃ g, ⌜(∀ i ∈ I0, g i = f0 i) ∧ (∀ i ∈ I1, g i = f1 i) ∧ (∀ i ∈ I2, g i = f2 i) ∧ (∀ i ∈ I3, g i = f3 i) ∧ (∀ i ∈ I4, g i = f4 i) ∧ (∀ i ∈ I5, g i = f5 i) ∧ (∀ i ∈ I6, g i = f6 i)⌝ ∗ (ℓ ↦{q} g)) := by
  have d (a b : Fin 7) (hab : a ≠ b) : ![k0, k1, k2, k3, k4, k5, k6] a ≠ ![k0, k1, k2, k3, k4, k5, k6] b := fun e => hab (hk e)
  let G : Buf (Elt F) ℓ := I0.piecewise f0 (I1.piecewise f1 (I2.piecewise f2 (I3.piecewise f3 (I4.piecewise f4 (I5.piecewise f5 (I6.piecewise f6 (fr)))))))
  have a0 : ∀ i ∈ I0, G i = f0 i := by
    intro i hi
    have e := (h0 i).mp hi
    simp only [G, Finset.piecewise, hi, if_true, if_false]
  have a1 : ∀ i ∈ I1, G i = f1 i := by
    intro i hi
    have e := (h1 i).mp hi
    have n0 : i ∉ I0 := fun hj => d 0 1 (by decide) (((h0 i).mp hj).symm.trans e)
    simp only [G, Finset.piecewise, n0, hi, if_true, if_false]
  have a2 : ∀ i ∈ I2, G i = f2 i := by
    intro i hi
    have e := (h2 i).mp hi
    have n0 : i ∉ I0 := fun hj => d 0 2 (by decide) (((h0 i).mp hj).symm.trans e)
    have n1 : i ∉ I1 := fun hj => d 1 2 (by decide) (((h1 i).mp hj).symm.trans e)
    simp only [G, Finset.piecewise, n0, n1, hi, if_true, if_false]
  have a3 : ∀ i ∈ I3, G i = f3 i := by
    intro i hi
    have e := (h3 i).mp hi
    have n0 : i ∉ I0 := fun hj => d 0 3 (by decide) (((h0 i).mp hj).symm.trans e)
    have n1 : i ∉ I1 := fun hj => d 1 3 (by decide) (((h1 i).mp hj).symm.trans e)
    have n2 : i ∉ I2 := fun hj => d 2 3 (by decide) (((h2 i).mp hj).symm.trans e)
    simp only [G, Finset.piecewise, n0, n1, n2, hi, if_true, if_false]
  have a4 : ∀ i ∈ I4, G i = f4 i := by
    intro i hi
    have e := (h4 i).mp hi
    have n0 : i ∉ I0 := fun hj => d 0 4 (by decide) (((h0 i).mp hj).symm.trans e)
    have n1 : i ∉ I1 := fun hj => d 1 4 (by decide) (((h1 i).mp hj).symm.trans e)
    have n2 : i ∉ I2 := fun hj => d 2 4 (by decide) (((h2 i).mp hj).symm.trans e)
    have n3 : i ∉ I3 := fun hj => d 3 4 (by decide) (((h3 i).mp hj).symm.trans e)
    simp only [G, Finset.piecewise, n0, n1, n2, n3, hi, if_true, if_false]
  have a5 : ∀ i ∈ I5, G i = f5 i := by
    intro i hi
    have e := (h5 i).mp hi
    have n0 : i ∉ I0 := fun hj => d 0 5 (by decide) (((h0 i).mp hj).symm.trans e)
    have n1 : i ∉ I1 := fun hj => d 1 5 (by decide) (((h1 i).mp hj).symm.trans e)
    have n2 : i ∉ I2 := fun hj => d 2 5 (by decide) (((h2 i).mp hj).symm.trans e)
    have n3 : i ∉ I3 := fun hj => d 3 5 (by decide) (((h3 i).mp hj).symm.trans e)
    have n4 : i ∉ I4 := fun hj => d 4 5 (by decide) (((h4 i).mp hj).symm.trans e)
    simp only [G, Finset.piecewise, n0, n1, n2, n3, n4, hi, if_true, if_false]
  have a6 : ∀ i ∈ I6, G i = f6 i := by
    intro i hi
    have e := (h6 i).mp hi
    have n0 : i ∉ I0 := fun hj => d 0 6 (by decide) (((h0 i).mp hj).symm.trans e)
    have n1 : i ∉ I1 := fun hj => d 1 6 (by decide) (((h1 i).mp hj).symm.trans e)
    have n2 : i ∉ I2 := fun hj => d 2 6 (by decide) (((h2 i).mp hj).symm.trans e)
    have n3 : i ∉ I3 := fun hj => d 3 6 (by decide) (((h3 i).mp hj).symm.trans e)
    have n4 : i ∉ I4 := fun hj => d 4 6 (by decide) (((h4 i).mp hj).symm.trans e)
    have n5 : i ∉ I5 := fun hj => d 5 6 (by decide) (((h5 i).mp hj).symm.trans e)
    simp only [G, Finset.piecewise, n0, n1, n2, n3, n4, n5, hi, if_true, if_false]
  have ar : ∀ i ∈ Finset.univ \ (I0 ∪ I1 ∪ I2 ∪ I3 ∪ I4 ∪ I5 ∪ I6), G i = fr i := by
    intro i hi
    have hn := (Finset.mem_sdiff.mp hi).2
    simp only [Finset.mem_union, not_or] at hn
    obtain ⟨⟨⟨⟨⟨⟨n0, n1⟩, n2⟩, n3⟩, n4⟩, n5⟩, n6⟩ := hn
    simp only [G, Finset.piecewise, n0, n1, n2, n3, n4, n5, n6, if_false]
  rw [pointsTo_congr (I := I0) (f := f0) (g := G) (fun i hi => (a0 i hi).symm),
    pointsTo_congr (I := I1) (f := f1) (g := G) (fun i hi => (a1 i hi).symm),
    pointsTo_congr (I := I2) (f := f2) (g := G) (fun i hi => (a2 i hi).symm),
    pointsTo_congr (I := I3) (f := f3) (g := G) (fun i hi => (a3 i hi).symm),
    pointsTo_congr (I := I4) (f := f4) (g := G) (fun i hi => (a4 i hi).symm),
    pointsTo_congr (I := I5) (f := f5) (g := G) (fun i hi => (a5 i hi).symm),
    pointsTo_congr (I := I6) (f := f6) (g := G) (fun i hi => (a6 i hi).symm),
    pointsTo_congr (I := Finset.univ \ (I0 ∪ I1 ∪ I2 ∪ I3 ∪ I4 ∪ I5 ∪ I6)) (f := fr) (g := G) (fun i hi => (ar i hi).symm)]
  iintro H
  iexists G
  isplitr
  · ipureintro; exact ⟨a0, a1, a2, a3, a4, a5, a6⟩
  · iapply (cut7_iff G key k0 k1 k2 k3 k4 k5 k6 I0 I1 I2 I3 I4 I5 I6 h0 h1 h2 h3 h4 h5 h6 hk).2
    iexact H

end Generic7

/-! ## Slots as fibres of the first coordinate -/

/-- In the four-axis buffer, the block at first coordinate `k` is the set of indices whose first coordinate is `k`. -/
theorem mem_first4 (k : ℕ) {i : S8x4x16x512.Idx} :
    (∀ a, (![k, 0, 0, 0] : Fin 4 → ℕ) a ≤ i a ∧ (i a : ℕ) < (![k, 0, 0, 0] : Fin 4 → ℕ) a + S1x4x16x512.size a) ↔ (i 0 : ℕ) = k := by
  constructor
  · intro h; have := h 0; simp at this; omega
  · intro h a
    fin_cases a
    · simp; omega
    · have := (i 1).isLt; simp at this ⊢; omega
    · have := (i 2).isLt; simp at this ⊢; omega
    · have := (i 3).isLt; simp at this ⊢; omega

theorem mem_unit4 (k : ℕ) (inb) {i : S8x4x16x512.Idx} :
    i ∈ (Rect.unit (s := S8x4x16x512) ![k, 0, 0, 0] S1x4x16x512.size inb).set ↔ (i 0 : ℕ) = k :=
  Rect.mem_set_unit.trans (mem_first4 k)

/-- The first coordinate of an index of the four-axis buffers. -/
def key4 : S8x4x16x512.Idx → ℕ := fun i => (i 0 : ℕ)

theorem mem_slot1_0 {i : S8x4x16x512.Idx} : i ∈ ((slot1 0).view.set : Finset S8x4x16x512.Idx) ↔ key4 i = 1 := by
  simp only [slot1, Memref.view_squeeze, View.set_reshape, Memref.view_slice, Memref.view_whole, View.set_slice_whole]
  exact mem_unit4 _ _
theorem mem_slot1_1 {i : S8x4x16x512.Idx} : i ∈ ((slot1 1).view.set : Finset S8x4x16x512.Idx) ↔ key4 i = 2 := by
  simp only [slot1, Memref.view_squeeze, View.set_reshape, Memref.view_slice, Memref.view_whole, View.set_slice_whole]
  exact mem_unit4 _ _
theorem mem_slot1_2 {i : S8x4x16x512.Idx} : i ∈ ((slot1 2).view.set : Finset S8x4x16x512.Idx) ↔ key4 i = 3 := by
  simp only [slot1, Memref.view_squeeze, View.set_reshape, Memref.view_slice, Memref.view_whole, View.set_slice_whole]
  exact mem_unit4 _ _
theorem mem_slot1_3 {i : S8x4x16x512.Idx} : i ∈ ((slot1 3).view.set : Finset S8x4x16x512.Idx) ↔ key4 i = 4 := by
  simp only [slot1, Memref.view_squeeze, View.set_reshape, Memref.view_slice, Memref.view_whole, View.set_slice_whole]
  exact mem_unit4 _ _
theorem mem_slot1_4 {i : S8x4x16x512.Idx} : i ∈ ((slot1 4).view.set : Finset S8x4x16x512.Idx) ↔ key4 i = 5 := by
  simp only [slot1, Memref.view_squeeze, View.set_reshape, Memref.view_slice, Memref.view_whole, View.set_slice_whole]
  exact mem_unit4 _ _
theorem mem_slot1_5 {i : S8x4x16x512.Idx} : i ∈ ((slot1 5).view.set : Finset S8x4x16x512.Idx) ↔ key4 i = 6 := by
  simp only [slot1, Memref.view_squeeze, View.set_reshape, Memref.view_slice, Memref.view_whole, View.set_slice_whole]
  exact mem_unit4 _ _
theorem mem_slot1_6 {i : S8x4x16x512.Idx} : i ∈ ((slot1 6).view.set : Finset S8x4x16x512.Idx) ↔ key4 i = 7 := by
  simp only [slot1, Memref.view_squeeze, View.set_reshape, Memref.view_slice, Memref.view_whole, View.set_slice_whole]
  exact mem_unit4 _ _

/-- In the three-axis buffer, the block at first coordinate `k` is the set of indices whose first coordinate is `k`. -/
theorem mem_first3 (k : ℕ) {i : S4x16x512.Idx} :
    (∀ a, (![k, 0, 0] : Fin 3 → ℕ) a ≤ i a ∧ (i a : ℕ) < (![k, 0, 0] : Fin 3 → ℕ) a + S1x16x512.size a) ↔ (i 0 : ℕ) = k := by
  constructor
  · intro h; have := h 0; simp at this; omega
  · intro h a
    fin_cases a
    · simp; omega
    · have := (i 1).isLt; simp at this ⊢; omega
    · have := (i 2).isLt; simp at this ⊢; omega

theorem mem_unit3 (k : ℕ) (inb) {i : S4x16x512.Idx} :
    i ∈ (Rect.unit (s := S4x16x512) ![k, 0, 0] S1x16x512.size inb).set ↔ (i 0 : ℕ) = k :=
  Rect.mem_set_unit.trans (mem_first3 k)

/-- The first coordinate of an index of the three-axis buffers. -/
def key3 : S4x16x512.Idx → ℕ := fun i => (i 0 : ℕ)

theorem mem_slot2_0 {i : S4x16x512.Idx} : i ∈ ((slot2 0).view.set : Finset S4x16x512.Idx) ↔ key3 i = 1 := by
  simp only [slot2, Memref.view_squeeze, View.set_reshape, Memref.view_slice, Memref.view_whole, View.set_slice_whole]
  exact mem_unit3 _ _
theorem mem_slot2_1 {i : S4x16x512.Idx} : i ∈ ((slot2 1).view.set : Finset S4x16x512.Idx) ↔ key3 i = 2 := by
  simp only [slot2, Memref.view_squeeze, View.set_reshape, Memref.view_slice, Memref.view_whole, View.set_slice_whole]
  exact mem_unit3 _ _
theorem mem_slot2_2 {i : S4x16x512.Idx} : i ∈ ((slot2 2).view.set : Finset S4x16x512.Idx) ↔ key3 i = 3 := by
  simp only [slot2, Memref.view_squeeze, View.set_reshape, Memref.view_slice, Memref.view_whole, View.set_slice_whole]
  exact mem_unit3 _ _

theorem mem_src1_0 (c : Dev nD) {i : S8x4x16x512.Idx} : i ∈ ((src1 c 0).view.set : Finset S8x4x16x512.Idx) ↔ key4 i = (c.val % 8 + 0 + 1) % 8 := by
  simp only [src1, Memref.view_squeeze, View.set_reshape, Memref.view_slice, Memref.view_whole, View.set_slice_whole]
  refine Rect.mem_set_unit.trans ?_
  rw [show k0_off1 c 1#32 = ![(c.val % 8 + 0 + 1) % 8, 0, 0, 0] from k0_off1_eq c ⟨0, by decide⟩]
  exact mem_first4 _
theorem mem_src1_1 (c : Dev nD) {i : S8x4x16x512.Idx} : i ∈ ((src1 c 1).view.set : Finset S8x4x16x512.Idx) ↔ key4 i = (c.val % 8 + 1 + 1) % 8 := by
  simp only [src1, Memref.view_squeeze, View.set_reshape, Memref.view_slice, Memref.view_whole, View.set_slice_whole]
  refine Rect.mem_set_unit.trans ?_
  rw [show k0_off1 c 2#32 = ![(c.val % 8 + 1 + 1) % 8, 0, 0, 0] from k0_off1_eq c ⟨1, by decide⟩]
  exact mem_first4 _
theorem mem_src1_2 (c : Dev nD) {i : S8x4x16x512.Idx} : i ∈ ((src1 c 2).view.set : Finset S8x4x16x512.Idx) ↔ key4 i = (c.val % 8 + 2 + 1) % 8 := by
  simp only [src1, Memref.view_squeeze, View.set_reshape, Memref.view_slice, Memref.view_whole, View.set_slice_whole]
  refine Rect.mem_set_unit.trans ?_
  rw [show k0_off1 c 3#32 = ![(c.val % 8 + 2 + 1) % 8, 0, 0, 0] from k0_off1_eq c ⟨2, by decide⟩]
  exact mem_first4 _
theorem mem_src1_3 (c : Dev nD) {i : S8x4x16x512.Idx} : i ∈ ((src1 c 3).view.set : Finset S8x4x16x512.Idx) ↔ key4 i = (c.val % 8 + 3 + 1) % 8 := by
  simp only [src1, Memref.view_squeeze, View.set_reshape, Memref.view_slice, Memref.view_whole, View.set_slice_whole]
  refine Rect.mem_set_unit.trans ?_
  rw [show k0_off1 c 4#32 = ![(c.val % 8 + 3 + 1) % 8, 0, 0, 0] from k0_off1_eq c ⟨3, by decide⟩]
  exact mem_first4 _
theorem mem_src1_4 (c : Dev nD) {i : S8x4x16x512.Idx} : i ∈ ((src1 c 4).view.set : Finset S8x4x16x512.Idx) ↔ key4 i = (c.val % 8 + 4 + 1) % 8 := by
  simp only [src1, Memref.view_squeeze, View.set_reshape, Memref.view_slice, Memref.view_whole, View.set_slice_whole]
  refine Rect.mem_set_unit.trans ?_
  rw [show k0_off1 c 5#32 = ![(c.val % 8 + 4 + 1) % 8, 0, 0, 0] from k0_off1_eq c ⟨4, by decide⟩]
  exact mem_first4 _
theorem mem_src1_5 (c : Dev nD) {i : S8x4x16x512.Idx} : i ∈ ((src1 c 5).view.set : Finset S8x4x16x512.Idx) ↔ key4 i = (c.val % 8 + 5 + 1) % 8 := by
  simp only [src1, Memref.view_squeeze, View.set_reshape, Memref.view_slice, Memref.view_whole, View.set_slice_whole]
  refine Rect.mem_set_unit.trans ?_
  rw [show k0_off1 c 6#32 = ![(c.val % 8 + 5 + 1) % 8, 0, 0, 0] from k0_off1_eq c ⟨5, by decide⟩]
  exact mem_first4 _
theorem mem_src1_6 (c : Dev nD) {i : S8x4x16x512.Idx} : i ∈ ((src1 c 6).view.set : Finset S8x4x16x512.Idx) ↔ key4 i = (c.val % 8 + 6 + 1) % 8 := by
  simp only [src1, Memref.view_squeeze, View.set_reshape, Memref.view_slice, Memref.view_whole, View.set_slice_whole]
  refine Rect.mem_set_unit.trans ?_
  rw [show k0_off1 c 7#32 = ![(c.val % 8 + 6 + 1) % 8, 0, 0, 0] from k0_off1_eq c ⟨6, by decide⟩]
  exact mem_first4 _
theorem mem_src2_0 (c : Dev nD) {i : S4x16x512.Idx} : i ∈ ((src2 c 0).view.set : Finset S4x16x512.Idx) ↔ key3 i = (c.val / 8 + 0 + 1) % 4 := by
  simp only [src2, Memref.view_squeeze, View.set_reshape, Memref.view_slice, Memref.view_whole, View.set_slice_whole]
  refine Rect.mem_set_unit.trans ?_
  rw [show k0_off3 c 1#32 = ![(c.val / 8 + 0 + 1) % 4, 0, 0] from k0_off3_eq c ⟨0, by decide⟩]
  exact mem_first3 _
theorem mem_src2_1 (c : Dev nD) {i : S4x16x512.Idx} : i ∈ ((src2 c 1).view.set : Finset S4x16x512.Idx) ↔ key3 i = (c.val / 8 + 1 + 1) % 4 := by
  simp only [src2, Memref.view_squeeze, View.set_reshape, Memref.view_slice, Memref.view_whole, View.set_slice_whole]
  refine Rect.mem_set_unit.trans ?_
  rw [show k0_off3 c 2#32 = ![(c.val / 8 + 1 + 1) % 4, 0, 0] from k0_off3_eq c ⟨1, by decide⟩]
  exact mem_first3 _
theorem mem_src2_2 (c : Dev nD) {i : S4x16x512.Idx} : i ∈ ((src2 c 2).view.set : Finset S4x16x512.Idx) ↔ key3 i = (c.val / 8 + 2 + 1) % 4 := by
  simp only [src2, Memref.view_squeeze, View.set_reshape, Memref.view_slice, Memref.view_whole, View.set_slice_whole]
  refine Rect.mem_set_unit.trans ?_
  rw [show k0_off3 c 3#32 = ![(c.val / 8 + 2 + 1) % 4, 0, 0] from k0_off3_eq c ⟨2, by decide⟩]
  exact mem_first3 _

theorem inj_src1 : ∀ c : Dev nD, Function.Injective ![(c.val % 8 + 0 + 1) % 8, (c.val % 8 + 1 + 1) % 8, (c.val % 8 + 2 + 1) % 8, (c.val % 8 + 3 + 1) % 8, (c.val % 8 + 4 + 1) % 8, (c.val % 8 + 5 + 1) % 8, (c.val % 8 + 6 + 1) % 8] := by decide
theorem inj_src2 : ∀ c : Dev nD, Function.Injective ![(c.val / 8 + 0 + 1) % 4, (c.val / 8 + 1 + 1) % 4, (c.val / 8 + 2 + 1) % 4] := by decide

/-! ## The in-plane receive buffer -/

/-- The elements of the in-plane receive buffer outside its seven slots. -/
def rest1 : Finset S8x4x16x512.Idx :=
  Finset.univ \ ((slot1 0).view.set ∪ (slot1 1).view.set ∪ (slot1 2).view.set ∪ (slot1 3).view.set ∪ (slot1 4).view.set ∪ (slot1 5).view.set ∪ (slot1 6).view.set)

theorem cut_slots1_iff (c : Dev nD) (f : Buf (Elt F) ((Memref.whole cc0_scratch2 : Memref sig .tc .vmem S8x4x16x512 .bf16).view.loc (c : Thread nD τ))) :
    ((Memref.whole cc0_scratch2 : Memref sig .tc .vmem S8x4x16x512 .bf16).view.loc (c : Thread nD τ) ↦{fullShare} f : sProp 𝕄) ⊣⊢
      iprop(((slot1 0).view.loc (c : Thread nD τ) ↦[(slot1 0).view.set]{fullShare} f) ∗
        ((slot1 1).view.loc (c : Thread nD τ) ↦[(slot1 1).view.set]{fullShare} f) ∗
        ((slot1 2).view.loc (c : Thread nD τ) ↦[(slot1 2).view.set]{fullShare} f) ∗
        ((slot1 3).view.loc (c : Thread nD τ) ↦[(slot1 3).view.set]{fullShare} f) ∗
        ((slot1 4).view.loc (c : Thread nD τ) ↦[(slot1 4).view.set]{fullShare} f) ∗
        ((slot1 5).view.loc (c : Thread nD τ) ↦[(slot1 5).view.set]{fullShare} f) ∗
        ((slot1 6).view.loc (c : Thread nD τ) ↦[(slot1 6).view.set]{fullShare} f) ∗
        ((Memref.whole cc0_scratch2 : Memref sig .tc .vmem S8x4x16x512 .bf16).view.loc (c : Thread nD τ) ↦[rest1]{fullShare} f)) :=
  cut7_iff (ℓ := (Memref.whole cc0_scratch2 : Memref sig .tc .vmem S8x4x16x512 .bf16).view.loc (c : Thread nD τ)) f key4 1 2 3 4 5 6 7 (slot1 0).view.set (slot1 1).view.set (slot1 2).view.set (slot1 3).view.set (slot1 4).view.set (slot1 5).view.set (slot1 6).view.set (fun _ => mem_slot1_0) (fun _ => mem_slot1_1) (fun _ => mem_slot1_2) (fun _ => mem_slot1_3) (fun _ => mem_slot1_4) (fun _ => mem_slot1_5) (fun _ => mem_slot1_6) (by decide)

theorem cut_slots1 (c : Dev nD) (f : Buf (Elt F) ((Memref.whole cc0_scratch2 : Memref sig .tc .vmem S8x4x16x512 .bf16).view.loc (c : Thread nD τ))) :
    ((Memref.whole cc0_scratch2 : Memref sig .tc .vmem S8x4x16x512 .bf16).view.loc (c : Thread nD τ) ↦{fullShare} f : sProp 𝕄) ⊢
      iprop(((slot1 0).view.loc (c : Thread nD τ) ↦[(slot1 0).view.set]{fullShare} f) ∗
        ((slot1 1).view.loc (c : Thread nD τ) ↦[(slot1 1).view.set]{fullShare} f) ∗
        ((slot1 2).view.loc (c : Thread nD τ) ↦[(slot1 2).view.set]{fullShare} f) ∗
        ((slot1 3).view.loc (c : Thread nD τ) ↦[(slot1 3).view.set]{fullShare} f) ∗
        ((slot1 4).view.loc (c : Thread nD τ) ↦[(slot1 4).view.set]{fullShare} f) ∗
        ((slot1 5).view.loc (c : Thread nD τ) ↦[(slot1 5).view.set]{fullShare} f) ∗
        ((slot1 6).view.loc (c : Thread nD τ) ↦[(slot1 6).view.set]{fullShare} f) ∗
        ((Memref.whole cc0_scratch2 : Memref sig .tc .vmem S8x4x16x512 .bf16).view.loc (c : Thread nD τ) ↦[rest1]{fullShare} f)) :=
  (cut_slots1_iff c f).1

theorem join_slots1 (c : Dev nD) (f0 f1 f2 f3 f4 f5 f6 frest : Buf (Elt F) ((Memref.whole cc0_scratch2 : Memref sig .tc .vmem S8x4x16x512 .bf16).view.loc (c : Thread nD τ))) :
    (iprop(((slot1 0).view.loc (c : Thread nD τ) ↦[(slot1 0).view.set]{fullShare} f0) ∗
        ((slot1 1).view.loc (c : Thread nD τ) ↦[(slot1 1).view.set]{fullShare} f1) ∗
        ((slot1 2).view.loc (c : Thread nD τ) ↦[(slot1 2).view.set]{fullShare} f2) ∗
        ((slot1 3).view.loc (c : Thread nD τ) ↦[(slot1 3).view.set]{fullShare} f3) ∗
        ((slot1 4).view.loc (c : Thread nD τ) ↦[(slot1 4).view.set]{fullShare} f4) ∗
        ((slot1 5).view.loc (c : Thread nD τ) ↦[(slot1 5).view.set]{fullShare} f5) ∗
        ((slot1 6).view.loc (c : Thread nD τ) ↦[(slot1 6).view.set]{fullShare} f6) ∗
        ((Memref.whole cc0_scratch2 : Memref sig .tc .vmem S8x4x16x512 .bf16).view.loc (c : Thread nD τ) ↦[rest1]{fullShare} frest)) : sProp 𝕄) ⊢
      iprop(∃ g : Buf (Elt F) ((Memref.whole cc0_scratch2 : Memref sig .tc .vmem S8x4x16x512 .bf16).view.loc (c : Thread nD τ)), ⌜(slot1 0).view.read (Elt F) g = (slot1 0).view.read (Elt F) f0 ∧
          (slot1 1).view.read (Elt F) g = (slot1 1).view.read (Elt F) f1 ∧
          (slot1 2).view.read (Elt F) g = (slot1 2).view.read (Elt F) f2 ∧
          (slot1 3).view.read (Elt F) g = (slot1 3).view.read (Elt F) f3 ∧
          (slot1 4).view.read (Elt F) g = (slot1 4).view.read (Elt F) f4 ∧
          (slot1 5).view.read (Elt F) g = (slot1 5).view.read (Elt F) f5 ∧
          (slot1 6).view.read (Elt F) g = (slot1 6).view.read (Elt F) f6⌝ ∗
        ((Memref.whole cc0_scratch2 : Memref sig .tc .vmem S8x4x16x512 .bf16).view.loc (c : Thread nD τ) ↦{fullShare} g)) := by
  refine (join7 (ℓ := (Memref.whole cc0_scratch2 : Memref sig .tc .vmem S8x4x16x512 .bf16).view.loc (c : Thread nD τ)) f0 f1 f2 f3 f4 f5 f6 frest key4 1 2 3 4 5 6 7 (slot1 0).view.set (slot1 1).view.set (slot1 2).view.set (slot1 3).view.set (slot1 4).view.set (slot1 5).view.set (slot1 6).view.set (fun _ => mem_slot1_0) (fun _ => mem_slot1_1) (fun _ => mem_slot1_2) (fun _ => mem_slot1_3) (fun _ => mem_slot1_4) (fun _ => mem_slot1_5) (fun _ => mem_slot1_6) (by decide)).trans ?_
  iintro ⟨%g, %hg, H⟩
  iexists g
  isplitr
  · ipureintro
    obtain ⟨a0, a1, a2, a3, a4, a5, a6⟩ := hg
    exact ⟨View.read_congr a0, View.read_congr a1, View.read_congr a2, View.read_congr a3, View.read_congr a4, View.read_congr a5, View.read_congr a6⟩
  · iexact H

/-! ## The cross-plane receive buffer -/

/-- The elements of the cross-plane receive buffer outside its three slots. -/
def rest2 : Finset S4x16x512.Idx :=
  Finset.univ \ ((slot2 0).view.set ∪ (slot2 1).view.set ∪ (slot2 2).view.set)

theorem cut_slots2_iff (c : Dev nD) (f : Buf (Elt F) ((Memref.whole cc0_scratch5 : Memref sig .tc .vmem S4x16x512 .bf16).view.loc (c : Thread nD τ))) :
    ((Memref.whole cc0_scratch5 : Memref sig .tc .vmem S4x16x512 .bf16).view.loc (c : Thread nD τ) ↦{fullShare} f : sProp 𝕄) ⊣⊢
      iprop(((slot2 0).view.loc (c : Thread nD τ) ↦[(slot2 0).view.set]{fullShare} f) ∗
        ((slot2 1).view.loc (c : Thread nD τ) ↦[(slot2 1).view.set]{fullShare} f) ∗
        ((slot2 2).view.loc (c : Thread nD τ) ↦[(slot2 2).view.set]{fullShare} f) ∗
        ((Memref.whole cc0_scratch5 : Memref sig .tc .vmem S4x16x512 .bf16).view.loc (c : Thread nD τ) ↦[rest2]{fullShare} f)) :=
  cut3_iff (ℓ := (Memref.whole cc0_scratch5 : Memref sig .tc .vmem S4x16x512 .bf16).view.loc (c : Thread nD τ)) f key3 1 2 3 (slot2 0).view.set (slot2 1).view.set (slot2 2).view.set (fun _ => mem_slot2_0) (fun _ => mem_slot2_1) (fun _ => mem_slot2_2) (by decide)

theorem cut_slots2 (c : Dev nD) (f : Buf (Elt F) ((Memref.whole cc0_scratch5 : Memref sig .tc .vmem S4x16x512 .bf16).view.loc (c : Thread nD τ))) :
    ((Memref.whole cc0_scratch5 : Memref sig .tc .vmem S4x16x512 .bf16).view.loc (c : Thread nD τ) ↦{fullShare} f : sProp 𝕄) ⊢
      iprop(((slot2 0).view.loc (c : Thread nD τ) ↦[(slot2 0).view.set]{fullShare} f) ∗
        ((slot2 1).view.loc (c : Thread nD τ) ↦[(slot2 1).view.set]{fullShare} f) ∗
        ((slot2 2).view.loc (c : Thread nD τ) ↦[(slot2 2).view.set]{fullShare} f) ∗
        ((Memref.whole cc0_scratch5 : Memref sig .tc .vmem S4x16x512 .bf16).view.loc (c : Thread nD τ) ↦[rest2]{fullShare} f)) :=
  (cut_slots2_iff c f).1

theorem join_slots2 (c : Dev nD) (f0 f1 f2 frest : Buf (Elt F) ((Memref.whole cc0_scratch5 : Memref sig .tc .vmem S4x16x512 .bf16).view.loc (c : Thread nD τ))) :
    (iprop(((slot2 0).view.loc (c : Thread nD τ) ↦[(slot2 0).view.set]{fullShare} f0) ∗
        ((slot2 1).view.loc (c : Thread nD τ) ↦[(slot2 1).view.set]{fullShare} f1) ∗
        ((slot2 2).view.loc (c : Thread nD τ) ↦[(slot2 2).view.set]{fullShare} f2) ∗
        ((Memref.whole cc0_scratch5 : Memref sig .tc .vmem S4x16x512 .bf16).view.loc (c : Thread nD τ) ↦[rest2]{fullShare} frest)) : sProp 𝕄) ⊢
      iprop(∃ g : Buf (Elt F) ((Memref.whole cc0_scratch5 : Memref sig .tc .vmem S4x16x512 .bf16).view.loc (c : Thread nD τ)), ⌜(slot2 0).view.read (Elt F) g = (slot2 0).view.read (Elt F) f0 ∧
          (slot2 1).view.read (Elt F) g = (slot2 1).view.read (Elt F) f1 ∧
          (slot2 2).view.read (Elt F) g = (slot2 2).view.read (Elt F) f2⌝ ∗
        ((Memref.whole cc0_scratch5 : Memref sig .tc .vmem S4x16x512 .bf16).view.loc (c : Thread nD τ) ↦{fullShare} g)) := by
  refine (join3 (ℓ := (Memref.whole cc0_scratch5 : Memref sig .tc .vmem S4x16x512 .bf16).view.loc (c : Thread nD τ)) f0 f1 f2 frest key3 1 2 3 (slot2 0).view.set (slot2 1).view.set (slot2 2).view.set (fun _ => mem_slot2_0) (fun _ => mem_slot2_1) (fun _ => mem_slot2_2) (by decide)).trans ?_
  iintro ⟨%g, %hg, H⟩
  iexists g
  isplitr
  · ipureintro
    obtain ⟨a0, a1, a2⟩ := hg
    exact ⟨View.read_congr a0, View.read_congr a1, View.read_congr a2⟩
  · iexact H

/-! ## The rounded partial products, by the slices sent in the plane -/

/-- The elements of the rounded partial products outside the seven slices device `c` sends in its plane. -/
def restS1 (c : Dev nD) : Finset S8x4x16x512.Idx :=
  Finset.univ \ ((src1 c 0).view.set ∪ (src1 c 1).view.set ∪ (src1 c 2).view.set ∪ (src1 c 3).view.set ∪ (src1 c 4).view.set ∪ (src1 c 5).view.set ∪ (src1 c 6).view.set)

theorem cut_src1_iff (c : Dev nD) (f : Buf (Elt F) ((Memref.whole cc0_scratch1 : Memref sig .tc .vmem S8x4x16x512 .bf16).view.loc (c : Thread nD τ))) :
    ((Memref.whole cc0_scratch1 : Memref sig .tc .vmem S8x4x16x512 .bf16).view.loc (c : Thread nD τ) ↦{fullShare} f : sProp 𝕄) ⊣⊢
      iprop(((src1 c 0).view.loc (c : Thread nD τ) ↦[(src1 c 0).view.set]{fullShare} f) ∗
        ((src1 c 1).view.loc (c : Thread nD τ) ↦[(src1 c 1).view.set]{fullShare} f) ∗
        ((src1 c 2).view.loc (c : Thread nD τ) ↦[(src1 c 2).view.set]{fullShare} f) ∗
        ((src1 c 3).view.loc (c : Thread nD τ) ↦[(src1 c 3).view.set]{fullShare} f) ∗
        ((src1 c 4).view.loc (c : Thread nD τ) ↦[(src1 c 4).view.set]{fullShare} f) ∗
        ((src1 c 5).view.loc (c : Thread nD τ) ↦[(src1 c 5).view.set]{fullShare} f) ∗
        ((src1 c 6).view.loc (c : Thread nD τ) ↦[(src1 c 6).view.set]{fullShare} f) ∗
        ((Memref.whole cc0_scratch1 : Memref sig .tc .vmem S8x4x16x512 .bf16).view.loc (c : Thread nD τ) ↦[restS1 c]{fullShare} f)) :=
  cut7_iff (ℓ := (Memref.whole cc0_scratch1 : Memref sig .tc .vmem S8x4x16x512 .bf16).view.loc (c : Thread nD τ)) f key4 ((c.val % 8 + 0 + 1) % 8) ((c.val % 8 + 1 + 1) % 8) ((c.val % 8 + 2 + 1) % 8) ((c.val % 8 + 3 + 1) % 8) ((c.val % 8 + 4 + 1) % 8) ((c.val % 8 + 5 + 1) % 8) ((c.val % 8 + 6 + 1) % 8) (src1 c 0).view.set (src1 c 1).view.set (src1 c 2).view.set (src1 c 3).view.set (src1 c 4).view.set (src1 c 5).view.set (src1 c 6).view.set (fun _ => mem_src1_0 c) (fun _ => mem_src1_1 c) (fun _ => mem_src1_2 c) (fun _ => mem_src1_3 c) (fun _ => mem_src1_4 c) (fun _ => mem_src1_5 c) (fun _ => mem_src1_6 c) (inj_src1 c)

theorem cut_src1 (c : Dev nD) (f : Buf (Elt F) ((Memref.whole cc0_scratch1 : Memref sig .tc .vmem S8x4x16x512 .bf16).view.loc (c : Thread nD τ))) :
    ((Memref.whole cc0_scratch1 : Memref sig .tc .vmem S8x4x16x512 .bf16).view.loc (c : Thread nD τ) ↦{fullShare} f : sProp 𝕄) ⊢
      iprop(((src1 c 0).view.loc (c : Thread nD τ) ↦[(src1 c 0).view.set]{fullShare} f) ∗
        ((src1 c 1).view.loc (c : Thread nD τ) ↦[(src1 c 1).view.set]{fullShare} f) ∗
        ((src1 c 2).view.loc (c : Thread nD τ) ↦[(src1 c 2).view.set]{fullShare} f) ∗
        ((src1 c 3).view.loc (c : Thread nD τ) ↦[(src1 c 3).view.set]{fullShare} f) ∗
        ((src1 c 4).view.loc (c : Thread nD τ) ↦[(src1 c 4).view.set]{fullShare} f) ∗
        ((src1 c 5).view.loc (c : Thread nD τ) ↦[(src1 c 5).view.set]{fullShare} f) ∗
        ((src1 c 6).view.loc (c : Thread nD τ) ↦[(src1 c 6).view.set]{fullShare} f) ∗
        ((Memref.whole cc0_scratch1 : Memref sig .tc .vmem S8x4x16x512 .bf16).view.loc (c : Thread nD τ) ↦[restS1 c]{fullShare} f)) :=
  (cut_src1_iff c f).1

theorem join_src1_val (c : Dev nD) (f0 f1 f2 f3 f4 f5 f6 frest : Buf (Elt F) ((Memref.whole cc0_scratch1 : Memref sig .tc .vmem S8x4x16x512 .bf16).view.loc (c : Thread nD τ))) :
    (iprop(((src1 c 0).view.loc (c : Thread nD τ) ↦[(src1 c 0).view.set]{fullShare} f0) ∗
        ((src1 c 1).view.loc (c : Thread nD τ) ↦[(src1 c 1).view.set]{fullShare} f1) ∗
        ((src1 c 2).view.loc (c : Thread nD τ) ↦[(src1 c 2).view.set]{fullShare} f2) ∗
        ((src1 c 3).view.loc (c : Thread nD τ) ↦[(src1 c 3).view.set]{fullShare} f3) ∗
        ((src1 c 4).view.loc (c : Thread nD τ) ↦[(src1 c 4).view.set]{fullShare} f4) ∗
        ((src1 c 5).view.loc (c : Thread nD τ) ↦[(src1 c 5).view.set]{fullShare} f5) ∗
        ((src1 c 6).view.loc (c : Thread nD τ) ↦[(src1 c 6).view.set]{fullShare} f6) ∗
        ((Memref.whole cc0_scratch1 : Memref sig .tc .vmem S8x4x16x512 .bf16).view.loc (c : Thread nD τ) ↦[restS1 c]{fullShare} frest)) : sProp 𝕄) ⊢
      iprop(∃ g : Buf (Elt F) ((Memref.whole cc0_scratch1 : Memref sig .tc .vmem S8x4x16x512 .bf16).view.loc (c : Thread nD τ)), ⌜(src1 c 0).view.read (Elt F) g = (src1 c 0).view.read (Elt F) f0 ∧
          (src1 c 1).view.read (Elt F) g = (src1 c 1).view.read (Elt F) f1 ∧
          (src1 c 2).view.read (Elt F) g = (src1 c 2).view.read (Elt F) f2 ∧
          (src1 c 3).view.read (Elt F) g = (src1 c 3).view.read (Elt F) f3 ∧
          (src1 c 4).view.read (Elt F) g = (src1 c 4).view.read (Elt F) f4 ∧
          (src1 c 5).view.read (Elt F) g = (src1 c 5).view.read (Elt F) f5 ∧
          (src1 c 6).view.read (Elt F) g = (src1 c 6).view.read (Elt F) f6⌝ ∗
        ((Memref.whole cc0_scratch1 : Memref sig .tc .vmem S8x4x16x512 .bf16).view.loc (c : Thread nD τ) ↦{fullShare} g)) := by
  refine (join7 (ℓ := (Memref.whole cc0_scratch1 : Memref sig .tc .vmem S8x4x16x512 .bf16).view.loc (c : Thread nD τ)) f0 f1 f2 f3 f4 f5 f6 frest key4 ((c.val % 8 + 0 + 1) % 8) ((c.val % 8 + 1 + 1) % 8) ((c.val % 8 + 2 + 1) % 8) ((c.val % 8 + 3 + 1) % 8) ((c.val % 8 + 4 + 1) % 8) ((c.val % 8 + 5 + 1) % 8) ((c.val % 8 + 6 + 1) % 8) (src1 c 0).view.set (src1 c 1).view.set (src1 c 2).view.set (src1 c 3).view.set (src1 c 4).view.set (src1 c 5).view.set (src1 c 6).view.set (fun _ => mem_src1_0 c) (fun _ => mem_src1_1 c) (fun _ => mem_src1_2 c) (fun _ => mem_src1_3 c) (fun _ => mem_src1_4 c) (fun _ => mem_src1_5 c) (fun _ => mem_src1_6 c) (inj_src1 c)).trans ?_
  iintro ⟨%g, %hg, H⟩
  iexists g
  isplitr
  · ipureintro
    obtain ⟨a0, a1, a2, a3, a4, a5, a6⟩ := hg
    exact ⟨View.read_congr a0, View.read_congr a1, View.read_congr a2, View.read_congr a3, View.read_congr a4, View.read_congr a5, View.read_congr a6⟩
  · iexact H

theorem join_src1 (c : Dev nD) :
    (iprop((∃ f : Buf (Elt F) ((Memref.whole cc0_scratch1 : Memref sig .tc .vmem S8x4x16x512 .bf16).view.loc (c : Thread nD τ)), (src1 c 0).view.loc (c : Thread nD τ) ↦[(src1 c 0).view.set]{fullShare} f) ∗
        (∃ f : Buf (Elt F) ((Memref.whole cc0_scratch1 : Memref sig .tc .vmem S8x4x16x512 .bf16).view.loc (c : Thread nD τ)), (src1 c 1).view.loc (c : Thread nD τ) ↦[(src1 c 1).view.set]{fullShare} f) ∗
        (∃ f : Buf (Elt F) ((Memref.whole cc0_scratch1 : Memref sig .tc .vmem S8x4x16x512 .bf16).view.loc (c : Thread nD τ)), (src1 c 2).view.loc (c : Thread nD τ) ↦[(src1 c 2).view.set]{fullShare} f) ∗
        (∃ f : Buf (Elt F) ((Memref.whole cc0_scratch1 : Memref sig .tc .vmem S8x4x16x512 .bf16).view.loc (c : Thread nD τ)), (src1 c 3).view.loc (c : Thread nD τ) ↦[(src1 c 3).view.set]{fullShare} f) ∗
        (∃ f : Buf (Elt F) ((Memref.whole cc0_scratch1 : Memref sig .tc .vmem S8x4x16x512 .bf16).view.loc (c : Thread nD τ)), (src1 c 4).view.loc (c : Thread nD τ) ↦[(src1 c 4).view.set]{fullShare} f) ∗
        (∃ f : Buf (Elt F) ((Memref.whole cc0_scratch1 : Memref sig .tc .vmem S8x4x16x512 .bf16).view.loc (c : Thread nD τ)), (src1 c 5).view.loc (c : Thread nD τ) ↦[(src1 c 5).view.set]{fullShare} f) ∗
        (∃ f : Buf (Elt F) ((Memref.whole cc0_scratch1 : Memref sig .tc .vmem S8x4x16x512 .bf16).view.loc (c : Thread nD τ)), (src1 c 6).view.loc (c : Thread nD τ) ↦[(src1 c 6).view.set]{fullShare} f) ∗
        (∃ f : Buf (Elt F) ((Memref.whole cc0_scratch1 : Memref sig .tc .vmem S8x4x16x512 .bf16).view.loc (c : Thread nD τ)), (Memref.whole cc0_scratch1 : Memref sig .tc .vmem S8x4x16x512 .bf16).view.loc (c : Thread nD τ) ↦[restS1 c]{fullShare} f)) : sProp 𝕄) ⊢
      iprop(∃ g : Buf (Elt F) ((Memref.whole cc0_scratch1 : Memref sig .tc .vmem S8x4x16x512 .bf16).view.loc (c : Thread nD τ)), (Memref.whole cc0_scratch1 : Memref sig .tc .vmem S8x4x16x512 .bf16).view.loc (c : Thread nD τ) ↦{fullShare} g) := by
  iintro ⟨⟨%f0, H0⟩, ⟨%f1, H1⟩, ⟨%f2, H2⟩, ⟨%f3, H3⟩, ⟨%f4, H4⟩, ⟨%f5, H5⟩, ⟨%f6, H6⟩, ⟨%fr, HR⟩⟩
  ihave Hj := (join_src1_val c f0 f1 f2 f3 f4 f5 f6 fr) $$ [H0 H1 H2 H3 H4 H5 H6 HR]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact HR
  icases Hj with ⟨%g, %hg, Hw⟩
  iexists g
  iexact Hw

/-! ## The in-plane sums, by the slices sent across planes -/

/-- The elements of the in-plane sums outside the three slices device `c` sends across planes. -/
def restS2 (c : Dev nD) : Finset S4x16x512.Idx :=
  Finset.univ \ ((src2 c 0).view.set ∪ (src2 c 1).view.set ∪ (src2 c 2).view.set)

theorem cut_src2_iff (c : Dev nD) (f : Buf (Elt F) ((Memref.whole cc0_scratch4 : Memref sig .tc .vmem S4x16x512 .bf16).view.loc (c : Thread nD τ))) :
    ((Memref.whole cc0_scratch4 : Memref sig .tc .vmem S4x16x512 .bf16).view.loc (c : Thread nD τ) ↦{fullShare} f : sProp 𝕄) ⊣⊢
      iprop(((src2 c 0).view.loc (c : Thread nD τ) ↦[(src2 c 0).view.set]{fullShare} f) ∗
        ((src2 c 1).view.loc (c : Thread nD τ) ↦[(src2 c 1).view.set]{fullShare} f) ∗
        ((src2 c 2).view.loc (c : Thread nD τ) ↦[(src2 c 2).view.set]{fullShare} f) ∗
        ((Memref.whole cc0_scratch4 : Memref sig .tc .vmem S4x16x512 .bf16).view.loc (c : Thread nD τ) ↦[restS2 c]{fullShare} f)) :=
  cut3_iff (ℓ := (Memref.whole cc0_scratch4 : Memref sig .tc .vmem S4x16x512 .bf16).view.loc (c : Thread nD τ)) f key3 ((c.val / 8 + 0 + 1) % 4) ((c.val / 8 + 1 + 1) % 4) ((c.val / 8 + 2 + 1) % 4) (src2 c 0).view.set (src2 c 1).view.set (src2 c 2).view.set (fun _ => mem_src2_0 c) (fun _ => mem_src2_1 c) (fun _ => mem_src2_2 c) (inj_src2 c)

theorem cut_src2 (c : Dev nD) (f : Buf (Elt F) ((Memref.whole cc0_scratch4 : Memref sig .tc .vmem S4x16x512 .bf16).view.loc (c : Thread nD τ))) :
    ((Memref.whole cc0_scratch4 : Memref sig .tc .vmem S4x16x512 .bf16).view.loc (c : Thread nD τ) ↦{fullShare} f : sProp 𝕄) ⊢
      iprop(((src2 c 0).view.loc (c : Thread nD τ) ↦[(src2 c 0).view.set]{fullShare} f) ∗
        ((src2 c 1).view.loc (c : Thread nD τ) ↦[(src2 c 1).view.set]{fullShare} f) ∗
        ((src2 c 2).view.loc (c : Thread nD τ) ↦[(src2 c 2).view.set]{fullShare} f) ∗
        ((Memref.whole cc0_scratch4 : Memref sig .tc .vmem S4x16x512 .bf16).view.loc (c : Thread nD τ) ↦[restS2 c]{fullShare} f)) :=
  (cut_src2_iff c f).1

theorem join_src2_val (c : Dev nD) (f0 f1 f2 frest : Buf (Elt F) ((Memref.whole cc0_scratch4 : Memref sig .tc .vmem S4x16x512 .bf16).view.loc (c : Thread nD τ))) :
    (iprop(((src2 c 0).view.loc (c : Thread nD τ) ↦[(src2 c 0).view.set]{fullShare} f0) ∗
        ((src2 c 1).view.loc (c : Thread nD τ) ↦[(src2 c 1).view.set]{fullShare} f1) ∗
        ((src2 c 2).view.loc (c : Thread nD τ) ↦[(src2 c 2).view.set]{fullShare} f2) ∗
        ((Memref.whole cc0_scratch4 : Memref sig .tc .vmem S4x16x512 .bf16).view.loc (c : Thread nD τ) ↦[restS2 c]{fullShare} frest)) : sProp 𝕄) ⊢
      iprop(∃ g : Buf (Elt F) ((Memref.whole cc0_scratch4 : Memref sig .tc .vmem S4x16x512 .bf16).view.loc (c : Thread nD τ)), ⌜(src2 c 0).view.read (Elt F) g = (src2 c 0).view.read (Elt F) f0 ∧
          (src2 c 1).view.read (Elt F) g = (src2 c 1).view.read (Elt F) f1 ∧
          (src2 c 2).view.read (Elt F) g = (src2 c 2).view.read (Elt F) f2⌝ ∗
        ((Memref.whole cc0_scratch4 : Memref sig .tc .vmem S4x16x512 .bf16).view.loc (c : Thread nD τ) ↦{fullShare} g)) := by
  refine (join3 (ℓ := (Memref.whole cc0_scratch4 : Memref sig .tc .vmem S4x16x512 .bf16).view.loc (c : Thread nD τ)) f0 f1 f2 frest key3 ((c.val / 8 + 0 + 1) % 4) ((c.val / 8 + 1 + 1) % 4) ((c.val / 8 + 2 + 1) % 4) (src2 c 0).view.set (src2 c 1).view.set (src2 c 2).view.set (fun _ => mem_src2_0 c) (fun _ => mem_src2_1 c) (fun _ => mem_src2_2 c) (inj_src2 c)).trans ?_
  iintro ⟨%g, %hg, H⟩
  iexists g
  isplitr
  · ipureintro
    obtain ⟨a0, a1, a2⟩ := hg
    exact ⟨View.read_congr a0, View.read_congr a1, View.read_congr a2⟩
  · iexact H

theorem join_src2 (c : Dev nD) :
    (iprop((∃ f : Buf (Elt F) ((Memref.whole cc0_scratch4 : Memref sig .tc .vmem S4x16x512 .bf16).view.loc (c : Thread nD τ)), (src2 c 0).view.loc (c : Thread nD τ) ↦[(src2 c 0).view.set]{fullShare} f) ∗
        (∃ f : Buf (Elt F) ((Memref.whole cc0_scratch4 : Memref sig .tc .vmem S4x16x512 .bf16).view.loc (c : Thread nD τ)), (src2 c 1).view.loc (c : Thread nD τ) ↦[(src2 c 1).view.set]{fullShare} f) ∗
        (∃ f : Buf (Elt F) ((Memref.whole cc0_scratch4 : Memref sig .tc .vmem S4x16x512 .bf16).view.loc (c : Thread nD τ)), (src2 c 2).view.loc (c : Thread nD τ) ↦[(src2 c 2).view.set]{fullShare} f) ∗
        (∃ f : Buf (Elt F) ((Memref.whole cc0_scratch4 : Memref sig .tc .vmem S4x16x512 .bf16).view.loc (c : Thread nD τ)), (Memref.whole cc0_scratch4 : Memref sig .tc .vmem S4x16x512 .bf16).view.loc (c : Thread nD τ) ↦[restS2 c]{fullShare} f)) : sProp 𝕄) ⊢
      iprop(∃ g : Buf (Elt F) ((Memref.whole cc0_scratch4 : Memref sig .tc .vmem S4x16x512 .bf16).view.loc (c : Thread nD τ)), (Memref.whole cc0_scratch4 : Memref sig .tc .vmem S4x16x512 .bf16).view.loc (c : Thread nD τ) ↦{fullShare} g) := by
  iintro ⟨⟨%f0, H0⟩, ⟨%f1, H1⟩, ⟨%f2, H2⟩, ⟨%fr, HR⟩⟩
  ihave Hj := (join_src2_val c f0 f1 f2 fr) $$ [H0 H1 H2 HR]
  · isplitl [H0]
    · iexact H0
    isplitl [H1]
    · iexact H1
    isplitl [H2]
    · iexact H2
    iexact HR
  icases Hj with ⟨%g, %hg, Hw⟩
  iexists g
  iexact Hw

/-- info: 'Cert.KernelIdeal.Hand.cut_slots1_iff' depends on axioms: [propext, Classical.choice, Quot.sound] -/
#guard_msgs in #print axioms cut_slots1_iff
/-- info: 'Cert.KernelIdeal.Hand.join_slots1' depends on axioms: [propext, Classical.choice, Quot.sound] -/
#guard_msgs in #print axioms join_slots1
/-- info: 'Cert.KernelIdeal.Hand.cut_slots2_iff' depends on axioms: [propext, Classical.choice, Quot.sound] -/
#guard_msgs in #print axioms cut_slots2_iff
/-- info: 'Cert.KernelIdeal.Hand.join_slots2' depends on axioms: [propext, Classical.choice, Quot.sound] -/
#guard_msgs in #print axioms join_slots2
/-- info: 'Cert.KernelIdeal.Hand.cut_src1_iff' depends on axioms: [propext, Classical.choice, Quot.sound] -/
#guard_msgs in #print axioms cut_src1_iff
/-- info: 'Cert.KernelIdeal.Hand.join_src1' depends on axioms: [propext, Classical.choice, Quot.sound] -/
#guard_msgs in #print axioms join_src1
/-- info: 'Cert.KernelIdeal.Hand.cut_src2_iff' depends on axioms: [propext, Classical.choice, Quot.sound] -/
#guard_msgs in #print axioms cut_src2_iff
/-- info: 'Cert.KernelIdeal.Hand.join_src2' depends on axioms: [propext, Classical.choice, Quot.sound] -/
#guard_msgs in #print axioms join_src2

end Cert.KernelIdeal.Hand
end
-- ==== Proof.Contents.lean ====
/- What a device's buffer of rounded 16-row slices holds after its 32 stores, as a list of pieces (last store
   first), and what each of the seven in-plane transfers carries: the four slices addressed to the receiver's
   place, read from the sender's buffer. The transfer's contents do not depend on what the buffer held before. -/
import proofs.«900450_g7700000000000451_dist_matmul_mk_i_outk_m512_n512_k256_v7x_i32_f32_1_alg».proof.Proof.Dats

set_option maxRecDepth 16384

noncomputable section

namespace Cert.KernelIdeal.Hand

open Cert.KernelIdeal Cert.KernelIdeal.Gen
open Idealize.ShloMosaic
open Idealize.ShloMosaic.TcCoe
open Idealize.SL.Sem

variable {F : FTy → Type} [FloatOps F]

/-- What the load of a device's whole staged block of `A` reads. -/
def laOf (a : (cc0_stg0_0 : Ref sig .tc).ty.Contents (Elt F)) : Vec F S512x256 .f32 :=
  View.readAt (Elt F) (Memref.whole cc0_stg0_0).view (Rect.unit ![0, 0] S512x256.size inb_S512x256_S512x256_0_0).toLoadRect a
/-- What the load of a device's whole staged block of `B` reads. -/
def lbOf (b : (cc0_stg1_0 : Ref sig .tc).ty.Contents (Elt F)) : Vec F S256x512 .f32 :=
  View.readAt (Elt F) (Memref.whole cc0_stg1_0).view (Rect.unit ![0, 0] S256x512.size inb_S256x512_S256x512_0_0).toLoadRect b

/-- The 32 stores of rounded slices, last first: slice `e` (rows `16 e … 16 e + 15` of the partial product) goes
    to position `(e % 8, e / 8)`. -/
def p2bL (la : Vec F S512x256 .f32) (lb : Vec F S256x512 .f32) : List (View.Piece (Elt F) S8x4x16x512 .bf16) :=
  [
    ⟨Rect.unit ![7, 3, 0, 0] S1x1x16x512.size inb_S8x4x16x512_S1x1x16x512_7_3_0_0, k0_pay39 (k0_pay1 la lb)⟩,
    ⟨Rect.unit ![6, 3, 0, 0] S1x1x16x512.size inb_S8x4x16x512_S1x1x16x512_6_3_0_0, k0_pay38 (k0_pay1 la lb)⟩,
    ⟨Rect.unit ![5, 3, 0, 0] S1x1x16x512.size inb_S8x4x16x512_S1x1x16x512_5_3_0_0, k0_pay37 (k0_pay1 la lb)⟩,
    ⟨Rect.unit ![4, 3, 0, 0] S1x1x16x512.size inb_S8x4x16x512_S1x1x16x512_4_3_0_0, k0_pay36 (k0_pay1 la lb)⟩,
    ⟨Rect.unit ![3, 3, 0, 0] S1x1x16x512.size inb_S8x4x16x512_S1x1x16x512_3_3_0_0, k0_pay35 (k0_pay1 la lb)⟩,
    ⟨Rect.unit ![2, 3, 0, 0] S1x1x16x512.size inb_S8x4x16x512_S1x1x16x512_2_3_0_0, k0_pay34 (k0_pay33 (k0_pay1 la lb))⟩,
    ⟨Rect.unit ![1, 3, 0, 0] S1x1x16x512.size inb_S8x4x16x512_S1x1x16x512_1_3_0_0, k0_pay32 (k0_pay1 la lb)⟩,
    ⟨Rect.unit ![0, 3, 0, 0] S1x1x16x512.size inb_S8x4x16x512_S1x1x16x512_0_3_0_0, k0_pay31 (k0_pay1 la lb)⟩,
    ⟨Rect.unit ![7, 2, 0, 0] S1x1x16x512.size inb_S8x4x16x512_S1x1x16x512_7_2_0_0, k0_pay30 (k0_pay1 la lb)⟩,
    ⟨Rect.unit ![6, 2, 0, 0] S1x1x16x512.size inb_S8x4x16x512_S1x1x16x512_6_2_0_0, k0_pay29 (k0_pay1 la lb)⟩,
    ⟨Rect.unit ![5, 2, 0, 0] S1x1x16x512.size inb_S8x4x16x512_S1x1x16x512_5_2_0_0, k0_pay28 (k0_pay1 la lb)⟩,
    ⟨Rect.unit ![4, 2, 0, 0] S1x1x16x512.size inb_S8x4x16x512_S1x1x16x512_4_2_0_0, k0_pay27 (k0_pay26 (k0_pay1 la lb))⟩,
    ⟨Rect.unit ![3, 2, 0, 0] S1x1x16x512.size inb_S8x4x16x512_S1x1x16x512_3_2_0_0, k0_pay25 (k0_pay1 la lb)⟩,
    ⟨Rect.unit ![2, 2, 0, 0] S1x1x16x512.size inb_S8x4x16x512_S1x1x16x512_2_2_0_0, k0_pay24 (k0_pay1 la lb)⟩,
    ⟨Rect.unit ![1, 2, 0, 0] S1x1x16x512.size inb_S8x4x16x512_S1x1x16x512_1_2_0_0, k0_pay23 (k0_pay1 la lb)⟩,
    ⟨Rect.unit ![0, 2, 0, 0] S1x1x16x512.size inb_S8x4x16x512_S1x1x16x512_0_2_0_0, k0_pay22 (k0_pay1 la lb)⟩,
    ⟨Rect.unit ![7, 1, 0, 0] S1x1x16x512.size inb_S8x4x16x512_S1x1x16x512_7_1_0_0, k0_pay21 (k0_pay1 la lb)⟩,
    ⟨Rect.unit ![6, 1, 0, 0] S1x1x16x512.size inb_S8x4x16x512_S1x1x16x512_6_1_0_0, k0_pay20 (k0_pay19 (k0_pay1 la lb))⟩,
    ⟨Rect.unit ![5, 1, 0, 0] S1x1x16x512.size inb_S8x4x16x512_S1x1x16x512_5_1_0_0, k0_pay18 (k0_pay1 la lb)⟩,
    ⟨Rect.unit ![4, 1, 0, 0] S1x1x16x512.size inb_S8x4x16x512_S1x1x16x512_4_1_0_0, k0_pay17 (k0_pay1 la lb)⟩,
    ⟨Rect.unit ![3, 1, 0, 0] S1x1x16x512.size inb_S8x4x16x512_S1x1x16x512_3_1_0_0, k0_pay16 (k0_pay1 la lb)⟩,
    ⟨Rect.unit ![2, 1, 0, 0] S1x1x16x512.size inb_S8x4x16x512_S1x1x16x512_2_1_0_0, k0_pay15 (k0_pay1 la lb)⟩,
    ⟨Rect.unit ![1, 1, 0, 0] S1x1x16x512.size inb_S8x4x16x512_S1x1x16x512_1_1_0_0, k0_pay14 (k0_pay1 la lb)⟩,
    ⟨Rect.unit ![0, 1, 0, 0] S1x1x16x512.size inb_S8x4x16x512_S1x1x16x512_0_1_0_0, k0_pay13 (k0_pay12 (k0_pay1 la lb))⟩,
    ⟨Rect.unit ![7, 0, 0, 0] S1x1x16x512.size inb_S8x4x16x512_S1x1x16x512_7_0_0_0, k0_pay11 (k0_pay1 la lb)⟩,
    ⟨Rect.unit ![6, 0, 0, 0] S1x1x16x512.size inb_S8x4x16x512_S1x1x16x512_6_0_0_0, k0_pay10 (k0_pay1 la lb)⟩,
    ⟨Rect.unit ![5, 0, 0, 0] S1x1x16x512.size inb_S8x4x16x512_S1x1x16x512_5_0_0_0, k0_pay9 (k0_pay1 la lb)⟩,
    ⟨Rect.unit ![4, 0, 0, 0] S1x1x16x512.size inb_S8x4x16x512_S1x1x16x512_4_0_0_0, k0_pay8 (k0_pay1 la lb)⟩,
    ⟨Rect.unit ![3, 0, 0, 0] S1x1x16x512.size inb_S8x4x16x512_S1x1x16x512_3_0_0_0, k0_pay7 (k0_pay1 la lb)⟩,
    ⟨Rect.unit ![2, 0, 0, 0] S1x1x16x512.size inb_S8x4x16x512_S1x1x16x512_2_0_0_0, k0_pay6 (k0_pay5 la lb)⟩,
    ⟨Rect.unit ![1, 0, 0, 0] S1x1x16x512.size inb_S8x4x16x512_S1x1x16x512_1_0_0_0, k0_pay4 la lb⟩,
    ⟨Rect.unit ![0, 0, 0, 0] S1x1x16x512.size inb_S8x4x16x512_S1x1x16x512_0_0_0_0, k0_pay3 la lb⟩]

/-- The 32 pieces tile the buffer: every index lies in one of them. -/
theorem p2bL_cover (la : Vec F S512x256 .f32) (lb : Vec F S256x512 .f32) :
    ∀ y : S8x4x16x512.Idx, ∃ p ∈ p2bL la lb, y ∈ p.1.set :=
  View.cover_of_tiledL (p2bL la lb) S1x1x16x512.size (by sl_kernel_rfl)

/-- A read through one position's four slices does not see what the buffer held before the 32 stores. -/
theorem read_slot_indep (R : Rect S8x4x16x512) (hR : ∀ a, R.stride a = 1) (hq : R.shape.Squeezes S4x16x512)
    (L : List (View.Piece (Elt F) S8x4x16x512 .bf16)) (hc : ∀ y : S8x4x16x512.Idx, ∃ p ∈ L, y ∈ p.1.set)
    (f f' : (Memref.whole cc0_scratch1 : Memref sig .tc .vmem S8x4x16x512 .bf16).view.ty.Contents (Elt F)) :
    (((Memref.whole cc0_scratch1 : Memref sig .tc .vmem S8x4x16x512 .bf16).slice R hR).squeeze S4x16x512 hq).view.read (Elt F)
        ((Memref.whole cc0_scratch1 : Memref sig .tc .vmem S8x4x16x512 .bf16).view.writes (Elt F) f L)
      = (((Memref.whole cc0_scratch1 : Memref sig .tc .vmem S8x4x16x512 .bf16).slice R hR).squeeze S4x16x512 hq).view.read (Elt F)
        ((Memref.whole cc0_scratch1 : Memref sig .tc .vmem S8x4x16x512 .bf16).view.writes (Elt F) f' L) := by
  funext y
  show (Memref.whole cc0_scratch1 : Memref sig .tc .vmem S8x4x16x512 .bf16).view.read (Elt F) _ (R.emb (Shape.reshapeEquiv hq.numel_eq y))
    = (Memref.whole cc0_scratch1 : Memref sig .tc .vmem S8x4x16x512 .bf16).view.read (Elt F) _ (R.emb (Shape.reshapeEquiv hq.numel_eq y))
  rw [View.read_writes_apply_eq_canon _ f _ L (hc _), View.read_writes_apply_eq_canon _ f' _ L (hc _)]

/-- The four slices device `c` sends with its transfer `r`, with `r` a variable: position `(c % 8 + r + 1) % 8` of
    its buffer. For each of the seven `r` this is `src1 c r`. -/
def srcV (c : Dev nD) (r : Fin 7) : Memref sig .tc .vmem S4x16x512 .bf16 :=
  ((Memref.whole cc0_scratch1 : Memref sig .tc .vmem S8x4x16x512 .bf16).slice
    (Rect.unit (s := S8x4x16x512) (k0_off1 c (BitVec.ofNat 32 (1 + r.val))) S1x4x16x512.size (k0_off1_inb c r)) (fun _ => rfl)).squeeze
      S4x16x512 squeezes_S1x4x16x512_S4x16x512

theorem src1_eq (c : Dev nD) (r : Fin 7) : src1 c r = srcV c r := by
  match r with
  | 0 => rfl
  | 1 => rfl
  | 2 => rfl
  | 3 => rfl
  | 4 => rfl
  | 5 => rfl
  | 6 => rfl

variable (m : (ℓ : Loc nD τ sig) → Buf (Elt F) ℓ) (ρ : Dev nD → PrngReg)

/-- What lands in slot `r + 1` of device `x`'s in-plane receive buffer: the four slices at `x`'s place in the
    buffer of the sender, the device `7 - r` places on from `x` (whose transfer `r` is addressed `r + 1` places on). -/
def v1Of (x : Dev nD) (r : Fin 7) : FVec F S4x16x512 .bf16 :=
  (srcV (rotq x (7 - r.val)) r).view.read (Elt F)
    ((Memref.whole cc0_scratch1 : Memref sig .tc .vmem S8x4x16x512 .bf16).view.writes (Elt F)
      (Memref.whole cc0_scratch1 : Memref sig .tc .vmem S8x4x16x512 .bf16).view.junk
      (p2bL (laOf (aC m ρ (rotq x (7 - r.val)))) (lbOf (bC m ρ (rotq x (7 - r.val))))))

theorem rotq_back : ∀ (c : Dev nD) (r : Fin 7), rotq (rotq c (r.val + 1)) (7 - r.val) = c := by decide

/-- Device `c`'s transfer `r`, read from its buffer after the 32 stores over any earlier contents, is what its
    receiver `r + 1` places on is said to get. -/
theorem hv1 (c : Dev nD) (r : Fin 7)
    (fq : (Memref.whole cc0_scratch1 : Memref sig .tc .vmem S8x4x16x512 .bf16).view.ty.Contents (Elt F)) :
    (srcV c r).view.read (Elt F)
        ((Memref.whole cc0_scratch1 : Memref sig .tc .vmem S8x4x16x512 .bf16).view.writes (Elt F) fq
          (p2bL (laOf (aC m ρ c)) (lbOf (bC m ρ c))))
      = v1Of m ρ (rotq c (r.val + 1)) r := by
  unfold v1Of
  rw [rotq_back c r]
  unfold srcV
  exact read_slot_indep (Rect.unit (s := S8x4x16x512) (k0_off1 c (BitVec.ofNat 32 (1 + r.val))) S1x4x16x512.size (k0_off1_inb c r))
    (fun _ => rfl) squeezes_S1x4x16x512_S4x16x512 _ (p2bL_cover _ _) _ _

end Cert.KernelIdeal.Hand

end

/-- info: 'Cert.KernelIdeal.Hand.hv1' depends on axioms: [propext, Classical.choice, Quot.sound] -/
#guard_msgs in #print axioms Cert.KernelIdeal.Hand.hv1
-- ==== Proof.Terms.lean ====
import proofs.«900450_g7700000000000451_dist_matmul_mk_i_outk_m512_n512_k256_v7x_i32_f32_1_alg».proof.Proof.Contents

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (K : Cont F)

/-! ## The values the body computes after its stores, as terms of what it loaded -/

section
variable (c : Dev nD) (la : Vec F S512x256 .f32) (lb : Vec F S256x512 .f32)

/-- The partial product buffer after its one store. -/
def partL : List (View.Piece (Elt F) S512x512 .f32) :=
  [⟨Rect.unit (s := S512x512) ![0, 0] S512x512.size inb_S512x512_S512x512_0_0, k0_pay2 la lb⟩]

variable (f0 : (Memref.whole cc0_scratch0 : Memref sig .tc .vmem S512x512 .f32).view.ty.Contents (Elt F))

/-- The four 16-row slices of the partial product that are device `c`'s own contribution to the four rows blocks of its place. -/
def own0 := View.readAt (Elt F) (Memref.whole cc0_scratch0 : Memref sig .tc .vmem S512x512 .f32).view (Rect.unit (s := S512x512) (k0_off2 c 0#32) S16x512.size (k0_off2_inb c 0)).toLoadRect ((Memref.whole cc0_scratch0 : Memref sig .tc .vmem S512x512 .f32).view.writes (Elt F) f0 (partL la lb))
def own1 := View.readAt (Elt F) (Memref.whole cc0_scratch0 : Memref sig .tc .vmem S512x512 .f32).view (Rect.unit (s := S512x512) (k0_off2 c 128#32) S16x512.size (k0_off2_inb c 1)).toLoadRect ((Memref.whole cc0_scratch0 : Memref sig .tc .vmem S512x512 .f32).view.writes (Elt F) f0 (partL la lb))
def own2 := View.readAt (Elt F) (Memref.whole cc0_scratch0 : Memref sig .tc .vmem S512x512 .f32).view (Rect.unit (s := S512x512) (k0_off2 c 256#32) S16x512.size (k0_off2_inb c 2)).toLoadRect ((Memref.whole cc0_scratch0 : Memref sig .tc .vmem S512x512 .f32).view.writes (Elt F) f0 (partL la lb))
def own3 := View.readAt (Elt F) (Memref.whole cc0_scratch0 : Memref sig .tc .vmem S512x512 .f32).view (Rect.unit (s := S512x512) (k0_off2 c 384#32) S16x512.size (k0_off2_inb c 3)).toLoadRect ((Memref.whole cc0_scratch0 : Memref sig .tc .vmem S512x512 .f32).view.writes (Elt F) f0 (partL la lb))

variable (g1 : (Memref.whole cc0_scratch2 : Memref sig .tc .vmem S8x4x16x512 .bf16).view.ty.Contents (Elt F))

/-- Slots 1 to 7 of the in-plane receive buffer, loaded at once. -/
def r1Load := View.readAt (Elt F) (Memref.whole cc0_scratch2 : Memref sig .tc .vmem S8x4x16x512 .bf16).view (Rect.unit (s := S8x4x16x512) ![1, 0, 0, 0] S7x4x16x512.size inb_S8x4x16x512_S7x4x16x512_1_0_0_0).toLoadRect g1

/-- The plane sums, as stored in f32 and, rounded, in the cross-plane send buffer. -/
def acc1L : List (View.Piece (Elt F) S4x16x512 .f32) :=
  [⟨Rect.unit (s := S4x16x512) ![0, 0, 0] S4x16x512.size inb_S4x16x512_S4x16x512_0_0_0,
    k0_pay41 (own0 c la lb f0) (own1 c la lb f0) (own2 c la lb f0) (own3 c la lb f0) (r1Load g1)⟩]
def acc2L : List (View.Piece (Elt F) S4x16x512 .bf16) :=
  [⟨Rect.unit (s := S4x16x512) ![0, 0, 0] S4x16x512.size inb_S4x16x512_S4x16x512_0_0_0,
    k0_pay42 (own0 c la lb f0) (own1 c la lb f0) (own2 c la lb f0) (own3 c la lb f0) (r1Load g1)⟩]

variable (f1 : (Memref.whole cc0_scratch3 : Memref sig .tc .vmem S4x16x512 .f32).view.ty.Contents (Elt F)) (g2 : (Memref.whole cc0_scratch5 : Memref sig .tc .vmem S4x16x512 .bf16).view.ty.Contents (Elt F))

/-- The device's own plane's sum for its own rows, and slots 1 to 3 of the cross-plane receive buffer. -/
def accLoad := View.readAt (Elt F) (Memref.whole cc0_scratch3 : Memref sig .tc .vmem S4x16x512 .f32).view (Rect.unit (s := S4x16x512) (k0_off4 c) S1x16x512.size (k0_off4_inb c)).toLoadRect ((Memref.whole cc0_scratch3 : Memref sig .tc .vmem S4x16x512 .f32).view.writes (Elt F) f1 (acc1L c la lb f0 g1))
def r2Load := View.readAt (Elt F) (Memref.whole cc0_scratch5 : Memref sig .tc .vmem S4x16x512 .bf16).view (Rect.unit (s := S4x16x512) ![1, 0, 0] S3x16x512.size inb_S4x16x512_S3x16x512_1_0_0).toLoadRect g2

/-- The result block. -/
def outL : List (View.Piece (Elt F) S16x512 .f32) :=
  [⟨Rect.unit (s := S16x512) ![0, 0] S16x512.size inb_S16x512_S16x512_0_0, k0_pay43 (accLoad c la lb f0 g1 f1) (r2Load g2)⟩]

end

/-- What the schedule's values must be for device `c`'s body, whose staged blocks are `a` and `b`: what its transfers read out of its two send
    buffers are the values promised to their targets, and what it stores as its result is its promised result block — whatever the buffers
    held before, and whatever the receive buffers hold outside the slots that landed. -/
structure Good (c : Dev nD) (a : (cc0_stg0_0 : Ref sig .tc).ty.Contents (Elt F)) (b : (cc0_stg1_0 : Ref sig .tc).ty.Contents (Elt F)) : Prop where
  v1 : ∀ fq, (src1 c 0).view.read (Elt F) ((Memref.whole cc0_scratch1 : Memref sig .tc .vmem S8x4x16x512 .bf16).view.writes (Elt F) fq (p2bL (laOf a) (lbOf b))) = K.v1 (rotq c 1) 0
      ∧ (src1 c 1).view.read (Elt F) ((Memref.whole cc0_scratch1 : Memref sig .tc .vmem S8x4x16x512 .bf16).view.writes (Elt F) fq (p2bL (laOf a) (lbOf b))) = K.v1 (rotq c 2) 1
      ∧ (src1 c 2).view.read (Elt F) ((Memref.whole cc0_scratch1 : Memref sig .tc .vmem S8x4x16x512 .bf16).view.writes (Elt F) fq (p2bL (laOf a) (lbOf b))) = K.v1 (rotq c 3) 2
      ∧ (src1 c 3).view.read (Elt F) ((Memref.whole cc0_scratch1 : Memref sig .tc .vmem S8x4x16x512 .bf16).view.writes (Elt F) fq (p2bL (laOf a) (lbOf b))) = K.v1 (rotq c 4) 3
      ∧ (src1 c 4).view.read (Elt F) ((Memref.whole cc0_scratch1 : Memref sig .tc .vmem S8x4x16x512 .bf16).view.writes (Elt F) fq (p2bL (laOf a) (lbOf b))) = K.v1 (rotq c 5) 4
      ∧ (src1 c 5).view.read (Elt F) ((Memref.whole cc0_scratch1 : Memref sig .tc .vmem S8x4x16x512 .bf16).view.writes (Elt F) fq (p2bL (laOf a) (lbOf b))) = K.v1 (rotq c 6) 5
      ∧ (src1 c 6).view.read (Elt F) ((Memref.whole cc0_scratch1 : Memref sig .tc .vmem S8x4x16x512 .bf16).view.writes (Elt F) fq (p2bL (laOf a) (lbOf b))) = K.v1 (rotq c 7) 6
  v2 : ∀ f0 fa2 g1, ((slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6) →
      (src2 c 0).view.read (Elt F) ((Memref.whole cc0_scratch4 : Memref sig .tc .vmem S4x16x512 .bf16).view.writes (Elt F) fa2 (acc2L c (laOf a) (lbOf b) f0 g1)) = K.v2 (rotz c 1) 0
      ∧ (src2 c 1).view.read (Elt F) ((Memref.whole cc0_scratch4 : Memref sig .tc .vmem S4x16x512 .bf16).view.writes (Elt F) fa2 (acc2L c (laOf a) (lbOf b) f0 g1)) = K.v2 (rotz c 2) 1
      ∧ (src2 c 2).view.read (Elt F) ((Memref.whole cc0_scratch4 : Memref sig .tc .vmem S4x16x512 .bf16).view.writes (Elt F) fa2 (acc2L c (laOf a) (lbOf b) f0 g1)) = K.v2 (rotz c 3) 2
  out : ∀ f0 f1 o0 g1 g2, ((slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6) →
      ((slot2 0).view.read (Elt F) g2 = K.v2 c 0 ∧ (slot2 1).view.read (Elt F) g2 = K.v2 c 1 ∧ (slot2 2).view.read (Elt F) g2 = K.v2 c 2) →
      (Memref.whole cc0_stg2_0 : Memref sig .tc .vmem S16x512 .f32).view.writes (Elt F) o0 (outL c (laOf a) (lbOf b) f0 g1 f1 g2) = K.out c

end Cert.KernelIdeal.Hand
end
-- ==== Proof.Body.lean ====
import proofs.«900450_g7700000000000451_dist_matmul_mk_i_outk_m512_n512_k256_v7x_i32_f32_1_alg».proof.Proof.Steps
import proofs.«900450_g7700000000000451_dist_matmul_mk_i_outk_m512_n512_k256_v7x_i32_f32_1_alg».proof.Proof.Cuts
import proofs.«900450_g7700000000000451_dist_matmul_mk_i_outk_m512_n512_k256_v7x_i32_f32_1_alg».proof.Proof.Terms

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
attribute [local sl_rounds] duties_bar duties_zr duties_later amount_bar amount_zr expect_bar expect_zr duties_s1_0 duties_v1_0 amount_s1_0 amount_v1_0 payload_bar_0 payload_s1_0 payload_v1_0 expect_s1_0 expect_v1_0 duties_s1_1 duties_v1_1 amount_s1_1 amount_v1_1 payload_bar_1 payload_s1_1 payload_v1_1 expect_s1_1 expect_v1_1 duties_s1_2 duties_v1_2 amount_s1_2 amount_v1_2 payload_bar_2 payload_s1_2 payload_v1_2 expect_s1_2 expect_v1_2 duties_s1_3 duties_v1_3 amount_s1_3 amount_v1_3 payload_bar_3 payload_s1_3 payload_v1_3 expect_s1_3 expect_v1_3 duties_s1_4 duties_v1_4 amount_s1_4 amount_v1_4 payload_bar_4 payload_s1_4 payload_v1_4 expect_s1_4 expect_v1_4 duties_s1_5 duties_v1_5 amount_s1_5 amount_v1_5 payload_bar_5 payload_s1_5 payload_v1_5 expect_s1_5 expect_v1_5 duties_s1_6 duties_v1_6 amount_s1_6 amount_v1_6 payload_bar_6 payload_s1_6 payload_v1_6 expect_s1_6 expect_v1_6 duties_s2_0 duties_v2_0 amount_s2_0 amount_v2_0 payload_zr_0 payload_s2_0 payload_v2_0 expect_s2_0 expect_v2_0 duties_s2_1 duties_v2_1 amount_s2_1 amount_v2_1 payload_zr_1 payload_s2_1 payload_v2_1 expect_s2_1 expect_v2_1 duties_s2_2 duties_v2_2 amount_s2_2 amount_v2_2 payload_zr_2 payload_s2_2 payload_v2_2 expect_s2_2 expect_v2_2

omit [FloatOps F] in
theorem ex_slot1_0 (c : Dev nD) (f : Buf (Elt F) ((slot1 0).view.loc (c : Thread nD τ))) :
    ((slot1 0).view.loc (c : Thread nD τ) ↦[(slot1 0).view.set]{fullShare} f) ⊢ (iprop(∃ g, ((slot1 0).view.loc (c : Thread nD τ) ↦[(slot1 0).view.set]{fullShare} g)) : sProp 𝕄) := by
  iintro H; iexists f; iexact H
omit [FloatOps F] in
theorem ex_slot1_1 (c : Dev nD) (f : Buf (Elt F) ((slot1 1).view.loc (c : Thread nD τ))) :
    ((slot1 1).view.loc (c : Thread nD τ) ↦[(slot1 1).view.set]{fullShare} f) ⊢ (iprop(∃ g, ((slot1 1).view.loc (c : Thread nD τ) ↦[(slot1 1).view.set]{fullShare} g)) : sProp 𝕄) := by
  iintro H; iexists f; iexact H
omit [FloatOps F] in
theorem ex_slot1_2 (c : Dev nD) (f : Buf (Elt F) ((slot1 2).view.loc (c : Thread nD τ))) :
    ((slot1 2).view.loc (c : Thread nD τ) ↦[(slot1 2).view.set]{fullShare} f) ⊢ (iprop(∃ g, ((slot1 2).view.loc (c : Thread nD τ) ↦[(slot1 2).view.set]{fullShare} g)) : sProp 𝕄) := by
  iintro H; iexists f; iexact H
omit [FloatOps F] in
theorem ex_slot1_3 (c : Dev nD) (f : Buf (Elt F) ((slot1 3).view.loc (c : Thread nD τ))) :
    ((slot1 3).view.loc (c : Thread nD τ) ↦[(slot1 3).view.set]{fullShare} f) ⊢ (iprop(∃ g, ((slot1 3).view.loc (c : Thread nD τ) ↦[(slot1 3).view.set]{fullShare} g)) : sProp 𝕄) := by
  iintro H; iexists f; iexact H
omit [FloatOps F] in
theorem ex_slot1_4 (c : Dev nD) (f : Buf (Elt F) ((slot1 4).view.loc (c : Thread nD τ))) :
    ((slot1 4).view.loc (c : Thread nD τ) ↦[(slot1 4).view.set]{fullShare} f) ⊢ (iprop(∃ g, ((slot1 4).view.loc (c : Thread nD τ) ↦[(slot1 4).view.set]{fullShare} g)) : sProp 𝕄) := by
  iintro H; iexists f; iexact H
omit [FloatOps F] in
theorem ex_slot1_5 (c : Dev nD) (f : Buf (Elt F) ((slot1 5).view.loc (c : Thread nD τ))) :
    ((slot1 5).view.loc (c : Thread nD τ) ↦[(slot1 5).view.set]{fullShare} f) ⊢ (iprop(∃ g, ((slot1 5).view.loc (c : Thread nD τ) ↦[(slot1 5).view.set]{fullShare} g)) : sProp 𝕄) := by
  iintro H; iexists f; iexact H
omit [FloatOps F] in
theorem ex_slot1_6 (c : Dev nD) (f : Buf (Elt F) ((slot1 6).view.loc (c : Thread nD τ))) :
    ((slot1 6).view.loc (c : Thread nD τ) ↦[(slot1 6).view.set]{fullShare} f) ⊢ (iprop(∃ g, ((slot1 6).view.loc (c : Thread nD τ) ↦[(slot1 6).view.set]{fullShare} g)) : sProp 𝕄) := by
  iintro H; iexists f; iexact H
omit [FloatOps F] in
theorem ex_slot2_0 (c : Dev nD) (f : Buf (Elt F) ((slot2 0).view.loc (c : Thread nD τ))) :
    ((slot2 0).view.loc (c : Thread nD τ) ↦[(slot2 0).view.set]{fullShare} f) ⊢ (iprop(∃ g, ((slot2 0).view.loc (c : Thread nD τ) ↦[(slot2 0).view.set]{fullShare} g)) : sProp 𝕄) := by
  iintro H; iexists f; iexact H
omit [FloatOps F] in
theorem ex_slot2_1 (c : Dev nD) (f : Buf (Elt F) ((slot2 1).view.loc (c : Thread nD τ))) :
    ((slot2 1).view.loc (c : Thread nD τ) ↦[(slot2 1).view.set]{fullShare} f) ⊢ (iprop(∃ g, ((slot2 1).view.loc (c : Thread nD τ) ↦[(slot2 1).view.set]{fullShare} g)) : sProp 𝕄) := by
  iintro H; iexists f; iexact H
omit [FloatOps F] in
theorem ex_slot2_2 (c : Dev nD) (f : Buf (Elt F) ((slot2 2).view.loc (c : Thread nD τ))) :
    ((slot2 2).view.loc (c : Thread nD τ) ↦[(slot2 2).view.set]{fullShare} f) ⊢ (iprop(∃ g, ((slot2 2).view.loc (c : Thread nD τ) ↦[(slot2 2).view.set]{fullShare} g)) : sProp 𝕄) := by
  iintro H; iexists f; iexact H
/-- The part of a buffer no transfer touches, set aside while the body runs. -/
def keep2 (c : Dev nD) (f : Buf (Elt F) ((Memref.whole cc0_scratch2 : Memref sig .tc .vmem S8x4x16x512 .bf16).view.loc (c : Thread nD τ))) : sProp 𝕄 :=
  (Memref.whole cc0_scratch2 : Memref sig .tc .vmem S8x4x16x512 .bf16).view.loc (c : Thread nD τ) ↦[rest1]{fullShare} f
omit [FloatOps F] in
theorem keep2_eq (c : Dev nD) (f : Buf (Elt F) ((Memref.whole cc0_scratch2 : Memref sig .tc .vmem S8x4x16x512 .bf16).view.loc (c : Thread nD τ))) :
    keep2 c f = ((Memref.whole cc0_scratch2 : Memref sig .tc .vmem S8x4x16x512 .bf16).view.loc (c : Thread nD τ) ↦[rest1]{fullShare} f : sProp 𝕄) := rfl
attribute [irreducible] keep2
/-- The part of a buffer no transfer touches, set aside while the body runs. -/
def keep5 (c : Dev nD) (f : Buf (Elt F) ((Memref.whole cc0_scratch5 : Memref sig .tc .vmem S4x16x512 .bf16).view.loc (c : Thread nD τ))) : sProp 𝕄 :=
  (Memref.whole cc0_scratch5 : Memref sig .tc .vmem S4x16x512 .bf16).view.loc (c : Thread nD τ) ↦[rest2]{fullShare} f
omit [FloatOps F] in
theorem keep5_eq (c : Dev nD) (f : Buf (Elt F) ((Memref.whole cc0_scratch5 : Memref sig .tc .vmem S4x16x512 .bf16).view.loc (c : Thread nD τ))) :
    keep5 c f = ((Memref.whole cc0_scratch5 : Memref sig .tc .vmem S4x16x512 .bf16).view.loc (c : Thread nD τ) ↦[rest2]{fullShare} f : sProp 𝕄) := rfl
attribute [irreducible] keep5
/-- The part of a buffer no transfer touches, set aside while the body runs. -/
def keep1 (c : Dev nD) (f : Buf (Elt F) ((Memref.whole cc0_scratch1 : Memref sig .tc .vmem S8x4x16x512 .bf16).view.loc (c : Thread nD τ))) : sProp 𝕄 :=
  (Memref.whole cc0_scratch1 : Memref sig .tc .vmem S8x4x16x512 .bf16).view.loc (c : Thread nD τ) ↦[restS1 c]{fullShare} f
omit [FloatOps F] in
theorem keep1_eq (c : Dev nD) (f : Buf (Elt F) ((Memref.whole cc0_scratch1 : Memref sig .tc .vmem S8x4x16x512 .bf16).view.loc (c : Thread nD τ))) :
    keep1 c f = ((Memref.whole cc0_scratch1 : Memref sig .tc .vmem S8x4x16x512 .bf16).view.loc (c : Thread nD τ) ↦[restS1 c]{fullShare} f : sProp 𝕄) := rfl
attribute [irreducible] keep1
/-- The part of a buffer no transfer touches, set aside while the body runs. -/
def keep4 (c : Dev nD) (f : Buf (Elt F) ((Memref.whole cc0_scratch4 : Memref sig .tc .vmem S4x16x512 .bf16).view.loc (c : Thread nD τ))) : sProp 𝕄 :=
  (Memref.whole cc0_scratch4 : Memref sig .tc .vmem S4x16x512 .bf16).view.loc (c : Thread nD τ) ↦[restS2 c]{fullShare} f
omit [FloatOps F] in
theorem keep4_eq (c : Dev nD) (f : Buf (Elt F) ((Memref.whole cc0_scratch4 : Memref sig .tc .vmem S4x16x512 .bf16).view.loc (c : Thread nD τ))) :
    keep4 c f = ((Memref.whole cc0_scratch4 : Memref sig .tc .vmem S4x16x512 .bf16).view.loc (c : Thread nD τ) ↦[restS2 c]{fullShare} f : sProp 𝕄) := rfl
attribute [irreducible] keep4
omit [FloatOps F] in
theorem pts_cast {ℓ : Loc nD τ sig} {f g : Buf (Elt F) ℓ} (h : f = g) : (ℓ ↦{fullShare} f : sProp 𝕄) ⊢ (ℓ ↦{fullShare} g) := by
  subst h; exact BI.Entails.refl _

set_option maxHeartbeats 8000000 in
/-- One device's body, run from its ghost state, its launch credit, what it owes and its buffers: the entry signals, the partial product and its
    rounded slices, the barrier, the seven in-plane transfers and their landings, the plane sums, the ready wait, the three cross-plane transfers and
    their landings, the result, the ten departures — to its own cells closed, every buffer whole again, nothing owed, the result block stored. -/
theorem sound_body (κ : Dev nD × Fin 22 → ℕ) (c : Dev nD) (W : Waits sig Unit) (Kt : PUnit → sProp 𝕄)
    (a : Buf (Elt F) ((c : Thread nD τ).loc cc0_stg0_0)) (b : Buf (Elt F) ((c : Thread nD τ).loc cc0_stg1_0)) (hK : Good K c a b)
    (o0 : Buf (Elt F) ((c : Thread nD τ).loc cc0_stg2_0)) (fp : Buf (Elt F) ((c : Thread nD τ).loc cc0_scratch0)) (fq : Buf (Elt F) ((c : Thread nD τ).loc cc0_scratch1))
    (fs2 : Buf (Elt F) ((c : Thread nD τ).loc cc0_scratch2)) (fa1 : Buf (Elt F) ((c : Thread nD τ).loc cc0_scratch3)) (fa2 : Buf (Elt F) ((c : Thread nD τ).loc cc0_scratch4))
    (fu : Buf (Elt F) ((c : Thread nD τ).loc cc0_scratch5)) :
    iprop(invs K κ c ∗ marks c ∗ levAts L lv ∗ linear c ∗ creds c ∗ owes (c : Thread nD τ) (O₀ c) W
      ∗ ((Memref.whole cc0_stg0_0 : Memref sig .tc .vmem S512x256 .f32).view.loc (c : Thread nD τ) ↦{fullShare} a) ∗ ((Memref.whole cc0_stg1_0 : Memref sig .tc .vmem S256x512 .f32).view.loc (c : Thread nD τ) ↦{fullShare} b) ∗ ((Memref.whole cc0_stg2_0 : Memref sig .tc .vmem S16x512 .f32).view.loc (c : Thread nD τ) ↦{fullShare} o0)
      ∗ ((Memref.whole cc0_scratch0 : Memref sig .tc .vmem S512x512 .f32).view.loc (c : Thread nD τ) ↦{fullShare} fp) ∗ ((Memref.whole cc0_scratch1 : Memref sig .tc .vmem S8x4x16x512 .bf16).view.loc (c : Thread nD τ) ↦{fullShare} fq) ∗ ((Memref.whole cc0_scratch2 : Memref sig .tc .vmem S8x4x16x512 .bf16).view.loc (c : Thread nD τ) ↦{fullShare} fs2)
      ∗ ((Memref.whole cc0_scratch3 : Memref sig .tc .vmem S4x16x512 .f32).view.loc (c : Thread nD τ) ↦{fullShare} fa1) ∗ ((Memref.whole cc0_scratch4 : Memref sig .tc .vmem S4x16x512 .bf16).view.loc (c : Thread nD τ) ↦{fullShare} fa2) ∗ ((Memref.whole cc0_scratch5 : Memref sig .tc .vmem S4x16x512 .bf16).view.loc (c : Thread nD τ) ↦{fullShare} fu)
      ∗ (iprop((scr c ∗ closed c) ∗ (∃ W' : Waits sig Unit, owes (c : Thread nD τ) 0 W')
          ∗ ((Memref.whole cc0_stg0_0 : Memref sig .tc .vmem S512x256 .f32).view.loc (c : Thread nD τ) ↦{fullShare} a) ∗ ((Memref.whole cc0_stg1_0 : Memref sig .tc .vmem S256x512 .f32).view.loc (c : Thread nD τ) ↦{fullShare} b) ∗ ((Memref.whole cc0_stg2_0 : Memref sig .tc .vmem S16x512 .f32).view.loc (c : Thread nD τ) ↦{fullShare} K.out c)) -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt := by
  unfold invs marks linear creds
  iintro ⟨⟨#HI_bar, #HI_zr, #HI_s1_0, #HI_s1_1, #HI_s1_2, #HI_s1_3, #HI_s1_4, #HI_s1_5, #HI_s1_6, #HI_v1_0, #HI_v1_1, #HI_v1_2, #HI_v1_3, #HI_v1_4, #HI_v1_5, #HI_v1_6, #HI_s2_0, #HI_s2_1, #HI_s2_2, #HI_v2_0, #HI_v2_1, #HI_v2_2, #HI_tb0, #HI_tb1, #HI_tb2, #HI_tb3, #HI_tb4, #HI_tb5, #HI_tb6, #HI_tz0, #HI_tz1, #HI_tz2, #HI_tv0, #HI_tv1, #HI_tv2, #HI_tv3, #HI_tv4, #HI_tv5, #HI_tv6, #HI_tw0, #HI_tw1, #HI_tw2⟩, ⟨#Hr_tb0, #Hr_tb1, #Hr_tb2, #Hr_tb3, #Hr_tb4, #Hr_tb5, #Hr_tb6, #Hr_tz0, #Hr_tz1, #Hr_tz2, #Hr_v1_0, #Hr_v1_1, #Hr_v1_2, #Hr_v1_3, #Hr_v1_4, #Hr_v1_5, #Hr_v1_6, #Hr_v2_0, #Hr_v2_1, #Hr_v2_2, #Hr_s1_0, #Hr_s1_1, #Hr_s1_2, #Hr_s1_3, #Hr_s1_4, #Hr_s1_5, #Hr_s1_6, #Hr_s2_0, #Hr_s2_1, #Hr_s2_2⟩, #Hlev, ⟨Hat_bar, Hat_zr, Hat_s1_0, Hat_s1_1, Hat_s1_2, Hat_s1_3, Hat_s1_4, Hat_s1_5, Hat_s1_6, Hat_v1_0, Hat_v1_1, Hat_v1_2, Hat_v1_3, Hat_v1_4, Hat_v1_5, Hat_v1_6, Hat_s2_0, Hat_s2_1, Hat_s2_2, Hat_v2_0, Hat_v2_1, Hat_v2_2, Ht_tb0, Ht_tb1, Ht_tb2, Ht_tb3, Ht_tb4, Ht_tb5, Ht_tb6, Ht_tz0, Ht_tz1, Ht_tz2, Ht_tv0, Ht_tv1, Ht_tv2, Ht_tv3, Ht_tv4, Ht_tv5, Ht_tv6, Ht_s1_0, Ht_s1_1, Ht_s1_2, Ht_s1_3, Ht_s1_4, Ht_s1_5, Ht_s1_6, Ht_tw0, Ht_tw1, Ht_tw2, Ht_s2_0, Ht_s2_1, Ht_s2_2⟩, ⟨Hc_bar, Hc_zr, Hc_v1_0, Hc_v1_1, Hc_v1_2, Hc_v1_3, Hc_v1_4, Hc_v1_5, Hc_v1_6, Hc_v2_0, Hc_v2_1, Hc_v2_2⟩, HO, Hx, Hy, Ho, Hp, Hq, Hs, Ha1, Ha2, Hu, Hk⟩
  have hmb0 := mem_bar_0 K c
  have hmb1 := mem_bar_1 K c
  have hmb2 := mem_bar_2 K c
  have hmb3 := mem_bar_3 K c
  have hmb4 := mem_bar_4 K c
  have hmb5 := mem_bar_5 K c
  have hmb6 := mem_bar_6 K c
  have hmz0 := mem_zr_0 K c
  have hmz1 := mem_zr_1 K c
  have hmz2 := mem_zr_2 K c
  have hmv0 := mem_v1_0 K c
  have hmv1 := mem_v1_1 K c
  have hmv2 := mem_v1_2 K c
  have hmv3 := mem_v1_3 K c
  have hmv4 := mem_v1_4 K c
  have hmv5 := mem_v1_5 K c
  have hmv6 := mem_v1_6 K c
  have hmw0 := mem_v2_0 K c
  have hmw1 := mem_v2_1 K c
  have hmw2 := mem_v2_2 K c
  have hmw_bar := mayWait_bar (F := F) c
  have hmw_zr := mayWait_zr (F := F) c
  have hmw_v1_0 := mayWait_v1_0 (F := F) c
  have hmw_v1_1 := mayWait_v1_1 (F := F) c
  have hmw_v1_2 := mayWait_v1_2 (F := F) c
  have hmw_v1_3 := mayWait_v1_3 (F := F) c
  have hmw_v1_4 := mayWait_v1_4 (F := F) c
  have hmw_v1_5 := mayWait_v1_5 (F := F) c
  have hmw_v1_6 := mayWait_v1_6 (F := F) c
  unfold O₁ at hmw_bar
  unfold O₂ at hmw_zr hmw_v1_0 hmw_v1_1 hmw_v1_2 hmw_v1_3 hmw_v1_4 hmw_v1_5 hmw_v1_6
  unfold O₀
  -- the two receive buffers, cut into their slots (handed on with the entry signals) and the rest
  ihave Hs := (cut_slots1 c fs2) $$ Hs
  icases Hs with ⟨Hs0, Hs1, Hs2, Hs3, Hs4, Hs5, Hs6, Hsr⟩
  ihave Hsr := (Entails.of_eq (keep2_eq c fs2).symm) $$ Hsr
  ihave Hs0 := (ex_slot1_0 c fs2) $$ Hs0
  ihave Hs1 := (ex_slot1_1 c fs2) $$ Hs1
  ihave Hs2 := (ex_slot1_2 c fs2) $$ Hs2
  ihave Hs3 := (ex_slot1_3 c fs2) $$ Hs3
  ihave Hs4 := (ex_slot1_4 c fs2) $$ Hs4
  ihave Hs5 := (ex_slot1_5 c fs2) $$ Hs5
  ihave Hs6 := (ex_slot1_6 c fs2) $$ Hs6
  ihave Hu := (cut_slots2 c fu) $$ Hu
  icases Hu with ⟨Hu0, Hu1, Hu2, Hur⟩
  ihave Hur := (Entails.of_eq (keep5_eq c fu).symm) $$ Hur
  ihave Hu0 := (ex_slot2_0 c fu) $$ Hu0
  ihave Hu1 := (ex_slot2_1 c fu) $$ Hu1
  ihave Hu2 := (ex_slot2_2 c fu) $$ Hu2
  sl_exec_parts
  -- the barrier round's payloads: the seven slots this device will write, each with its receive cell's mark
  ihave Hp' := (Entails.of_eq (bar_payloads K c)) $$ Hat_bar_pay1
  icases Hp' with ⟨⟨⟨%fd1_0, Hd0⟩, #Hrt1_0⟩, ⟨⟨%fd1_1, Hd1⟩, #Hrt1_1⟩, ⟨⟨%fd1_2, Hd2⟩, #Hrt1_2⟩, ⟨⟨%fd1_3, Hd3⟩, #Hrt1_3⟩, ⟨⟨%fd1_4, Hd4⟩, #Hrt1_4⟩, ⟨⟨%fd1_5, Hd5⟩, #Hrt1_5⟩, ⟨⟨%fd1_6, Hd6⟩, #Hrt1_6⟩⟩
  -- the rounded partial products, cut into the seven slices sent and the rest
  obtain ⟨hfs1_0, hfs1_1, hfs1_2, hfs1_3, hfs1_4, hfs1_5, hfs1_6⟩ := hK.v1 fq
  ihave Hq := (cut_src1 c _) $$ Hq
  icases Hq with ⟨Hq0, Hq1, Hq2, Hq3, Hq4, Hq5, Hq6, Hqr⟩
  ihave Hqr := (Entails.of_eq (keep1_eq c _).symm) $$ Hqr
  iapply (wp_send1_0 K (κ (c, 2)) (κ (rotq c 1, 9)) c _ (dev11_eq c) _ fd1_0 (hfs1_0) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1 + tallyAt (v1Cell (rotq c 3) 2) () N1 + tallyAt (v1Cell (rotq c 2) 1) () N1)) $$ [Hq0 Hd0 HO Ht_s1_0 Ht_tv0]
  · isplitr; · iexact HI_s1_0
    isplitr; · iexact HI_tv0
    isplitl [Hq0]; · iexact Hq0
    isplitl [Hd0]; · iexact Hd0
    isplitl [HO]; · iexact HO
    isplitl [Ht_s1_0]; · iexact Ht_s1_0
    isplitr; · iexact Hr_s1_0
    isplitl [Ht_tv0]; · iexact Ht_tv0
    iexact Hrt1_0
  iintro ⟨Hcs1_0, HO⟩
  sl_exec_parts
  iapply (wp_send1_1 K (κ (c, 3)) (κ (rotq c 2, 10)) c _ (dev12_eq c) _ fd1_1 (hfs1_1) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1 + tallyAt (v1Cell (rotq c 3) 2) () N1)) $$ [Hq1 Hd1 HO Ht_s1_1 Ht_tv1]
  · isplitr; · iexact HI_s1_1
    isplitr; · iexact HI_tv1
    isplitl [Hq1]; · iexact Hq1
    isplitl [Hd1]; · iexact Hd1
    isplitl [HO]; · iexact HO
    isplitl [Ht_s1_1]; · iexact Ht_s1_1
    isplitr; · iexact Hr_s1_1
    isplitl [Ht_tv1]; · iexact Ht_tv1
    iexact Hrt1_1
  iintro ⟨Hcs1_1, HO⟩
  sl_exec_parts
  iapply (wp_send1_2 K (κ (c, 4)) (κ (rotq c 3, 11)) c _ (dev13_eq c) _ fd1_2 (hfs1_2) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1)) $$ [Hq2 Hd2 HO Ht_s1_2 Ht_tv2]
  · isplitr; · iexact HI_s1_2
    isplitr; · iexact HI_tv2
    isplitl [Hq2]; · iexact Hq2
    isplitl [Hd2]; · iexact Hd2
    isplitl [HO]; · iexact HO
    isplitl [Ht_s1_2]; · iexact Ht_s1_2
    isplitr; · iexact Hr_s1_2
    isplitl [Ht_tv2]; · iexact Ht_tv2
    iexact Hrt1_2
  iintro ⟨Hcs1_2, HO⟩
  sl_exec_parts
  iapply (wp_send1_3 K (κ (c, 5)) (κ (rotq c 4, 12)) c _ (dev14_eq c) _ fd1_3 (hfs1_3) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1)) $$ [Hq3 Hd3 HO Ht_s1_3 Ht_tv3]
  · isplitr; · iexact HI_s1_3
    isplitr; · iexact HI_tv3
    isplitl [Hq3]; · iexact Hq3
    isplitl [Hd3]; · iexact Hd3
    isplitl [HO]; · iexact HO
    isplitl [Ht_s1_3]; · iexact Ht_s1_3
    isplitr; · iexact Hr_s1_3
    isplitl [Ht_tv3]; · iexact Ht_tv3
    iexact Hrt1_3
  iintro ⟨Hcs1_3, HO⟩
  sl_exec_parts
  iapply (wp_send1_4 K (κ (c, 6)) (κ (rotq c 5, 13)) c _ (dev15_eq c) _ fd1_4 (hfs1_4) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1)) $$ [Hq4 Hd4 HO Ht_s1_4 Ht_tv4]
  · isplitr; · iexact HI_s1_4
    isplitr; · iexact HI_tv4
    isplitl [Hq4]; · iexact Hq4
    isplitl [Hd4]; · iexact Hd4
    isplitl [HO]; · iexact HO
    isplitl [Ht_s1_4]; · iexact Ht_s1_4
    isplitr; · iexact Hr_s1_4
    isplitl [Ht_tv4]; · iexact Ht_tv4
    iexact Hrt1_4
  iintro ⟨Hcs1_4, HO⟩
  sl_exec_parts
  iapply (wp_send1_5 K (κ (c, 7)) (κ (rotq c 6, 14)) c _ (dev16_eq c) _ fd1_5 (hfs1_5) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1)) $$ [Hq5 Hd5 HO Ht_s1_5 Ht_tv5]
  · isplitr; · iexact HI_s1_5
    isplitr; · iexact HI_tv5
    isplitl [Hq5]; · iexact Hq5
    isplitl [Hd5]; · iexact Hd5
    isplitl [HO]; · iexact HO
    isplitl [Ht_s1_5]; · iexact Ht_s1_5
    isplitr; · iexact Hr_s1_5
    isplitl [Ht_tv5]; · iexact Ht_tv5
    iexact Hrt1_5
  iintro ⟨Hcs1_5, HO⟩
  sl_exec_parts
  iapply (wp_send1_6 K (κ (c, 8)) (κ (rotq c 7, 15)) c _ (dev17_eq c) _ fd1_6 (hfs1_6) (insert (SemLoc.reg barS, ()) W) (0 + tallyAt (v2Cell (rotz c 3) 2) () N2 + tallyAt (v2Cell (rotz c 2) 1) () N2 + tallyAt (v2Cell (rotz c 1) 0) () N2)) $$ [Hq6 Hd6 HO Ht_s1_6 Ht_tv6]
  · isplitr; · iexact HI_s1_6
    isplitr; · iexact HI_tv6
    isplitl [Hq6]; · iexact Hq6
    isplitl [Hd6]; · iexact Hd6
    isplitl [HO]; · iexact HO
    isplitl [Ht_s1_6]; · iexact Ht_s1_6
    isplitr; · iexact Hr_s1_6
    isplitl [Ht_tv6]; · iexact Ht_tv6
    iexact Hrt1_6
  iintro ⟨Hcs1_6, HO⟩
  sl_exec_parts
  -- the seven landed slots and the untouched rest are the whole receive buffer again
  icases Hat_v1_0_pay1 with ⟨%hl1_0, Hl0⟩
  icases Hat_v1_1_pay1 with ⟨%hl1_1, Hl1⟩
  icases Hat_v1_2_pay1 with ⟨%hl1_2, Hl2⟩
  icases Hat_v1_3_pay1 with ⟨%hl1_3, Hl3⟩
  icases Hat_v1_4_pay1 with ⟨%hl1_4, Hl4⟩
  icases Hat_v1_5_pay1 with ⟨%hl1_5, Hl5⟩
  icases Hat_v1_6_pay1 with ⟨%hl1_6, Hl6⟩
  ihave Hsr := (Entails.of_eq (keep2_eq c fs2)) $$ Hsr
  ihave Hj := (join_slots1 c Hat_v1_0_pay1_v Hat_v1_1_pay1_v Hat_v1_2_pay1_v Hat_v1_3_pay1_v Hat_v1_4_pay1_v Hat_v1_5_pay1_v Hat_v1_6_pay1_v fs2) $$ [Hl0 Hl1 Hl2 Hl3 Hl4 Hl5 Hl6 Hsr]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hsr
  icases Hj with ⟨%g1, %hg1, Hs⟩
  sl_exec_parts
  -- the ready round's payloads: the three slots this device will write across planes
  ihave Hp' := (Entails.of_eq (zr_payloads K c)) $$ Hat_zr_pay1
  icases Hp' with ⟨⟨⟨%fd2_0, He0⟩, #Hrt2_0⟩, ⟨⟨%fd2_1, He1⟩, #Hrt2_1⟩, ⟨⟨%fd2_2, He2⟩, #Hrt2_2⟩⟩
  have hg1' : (slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6 :=
    ⟨hg1.1.trans hl1_0, hg1.2.1.trans hl1_1, hg1.2.2.1.trans hl1_2, hg1.2.2.2.1.trans hl1_3, hg1.2.2.2.2.1.trans hl1_4, hg1.2.2.2.2.2.1.trans hl1_5, hg1.2.2.2.2.2.2.trans hl1_6⟩
  obtain ⟨hfs2_0, hfs2_1, hfs2_2⟩ := hK.v2 _ fa2 g1 hg1'
  ihave Ha2 := (cut_src2 c _) $$ Ha2
  icases Ha2 with ⟨Hz0, Hz1, Hz2, Hzr⟩
  ihave Hzr := (Entails.of_eq (keep4_eq c _).symm) $$ Hzr
  iapply (wp_send2_0 K (κ (c, 16)) (κ (rotz c 1, 19)) c _ (dev18_eq c) _ fd2_0 (hfs2_0) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0 + tallyAt (v2Cell (rotz c 3) 2) () N2 + tallyAt (v2Cell (rotz c 2) 1) () N2)) $$ [Hz0 He0 HO Ht_s2_0 Ht_tw0]
  · isplitr; · iexact HI_s2_0
    isplitr; · iexact HI_tw0
    isplitl [Hz0]; · iexact Hz0
    isplitl [He0]; · iexact He0
    isplitl [HO]; · iexact HO
    isplitl [Ht_s2_0]; · iexact Ht_s2_0
    isplitr; · iexact Hr_s2_0
    isplitl [Ht_tw0]; · iexact Ht_tw0
    iexact Hrt2_0
  iintro ⟨Hcs2_0, HO⟩
  sl_exec_parts
  iapply (wp_send2_1 K (κ (c, 17)) (κ (rotz c 2, 20)) c _ (dev19_eq c) _ fd2_1 (hfs2_1) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0 + tallyAt (v2Cell (rotz c 3) 2) () N2)) $$ [Hz1 He1 HO Ht_s2_1 Ht_tw1]
  · isplitr; · iexact HI_s2_1
    isplitr; · iexact HI_tw1
    isplitl [Hz1]; · iexact Hz1
    isplitl [He1]; · iexact He1
    isplitl [HO]; · iexact HO
    isplitl [Ht_s2_1]; · iexact Ht_s2_1
    isplitr; · iexact Hr_s2_1
    isplitl [Ht_tw1]; · iexact Ht_tw1
    iexact Hrt2_1
  iintro ⟨Hcs2_1, HO⟩
  sl_exec_parts
  iapply (wp_send2_2 K (κ (c, 18)) (κ (rotz c 3, 21)) c _ (dev20_eq c) _ fd2_2 (hfs2_2) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0)) $$ [Hz2 He2 HO Ht_s2_2 Ht_tw2]
  · isplitr; · iexact HI_s2_2
    isplitr; · iexact HI_tw2
    isplitl [Hz2]; · iexact Hz2
    isplitl [He2]; · iexact He2
    isplitl [HO]; · iexact HO
    isplitl [Ht_s2_2]; · iexact Ht_s2_2
    isplitr; · iexact Hr_s2_2
    isplitl [Ht_tw2]; · iexact Ht_tw2
    iexact Hrt2_2
  iintro ⟨Hcs2_2, HO⟩
  sl_exec_parts
  -- the three landed slots and the untouched rest are the whole cross-plane receive buffer again
  icases Hat_v2_0_pay1 with ⟨%hl2_0, Hm0⟩
  icases Hat_v2_1_pay1 with ⟨%hl2_1, Hm1⟩
  icases Hat_v2_2_pay1 with ⟨%hl2_2, Hm2⟩
  ihave Hur := (Entails.of_eq (keep5_eq c fu)) $$ Hur
  ihave Hj := (join_slots2 c Hat_v2_0_pay1_v Hat_v2_1_pay1_v Hat_v2_2_pay1_v fu) $$ [Hm0 Hm1 Hm2 Hur]
  · isplitl [Hm0]; · iexact Hm0
    isplitl [Hm1]; · iexact Hm1
    isplitl [Hm2]; · iexact Hm2
    iexact Hur
  icases Hj with ⟨%g2, %hg2, Hu⟩
  sl_exec_parts
  -- the own cells close: their counters at zero are the core's again
  imod (Rounds.cell_close ER (Rd K) (Set.mem_univ (κ (c, 1))) (fun h => h) (R := 1) (duties_later K (zrCell c))) $$ [Hat_zr] with Z_zr
  · isplitr; · iexact HI_zr
    iexact Hat_zr
  imod (Rounds.cell_close ER (Rd K) (Set.mem_univ (κ (c, 2))) (fun h => h) (R := 1) (duties_later K (s1Cell c 0))) $$ [Hat_s1_0] with Z_s1_0
  · isplitr; · iexact HI_s1_0
    iexact Hat_s1_0
  imod (Rounds.cell_close ER (Rd K) (Set.mem_univ (κ (c, 3))) (fun h => h) (R := 1) (duties_later K (s1Cell c 1))) $$ [Hat_s1_1] with Z_s1_1
  · isplitr; · iexact HI_s1_1
    iexact Hat_s1_1
  imod (Rounds.cell_close ER (Rd K) (Set.mem_univ (κ (c, 4))) (fun h => h) (R := 1) (duties_later K (s1Cell c 2))) $$ [Hat_s1_2] with Z_s1_2
  · isplitr; · iexact HI_s1_2
    iexact Hat_s1_2
  imod (Rounds.cell_close ER (Rd K) (Set.mem_univ (κ (c, 5))) (fun h => h) (R := 1) (duties_later K (s1Cell c 3))) $$ [Hat_s1_3] with Z_s1_3
  · isplitr; · iexact HI_s1_3
    iexact Hat_s1_3
  imod (Rounds.cell_close ER (Rd K) (Set.mem_univ (κ (c, 6))) (fun h => h) (R := 1) (duties_later K (s1Cell c 4))) $$ [Hat_s1_4] with Z_s1_4
  · isplitr; · iexact HI_s1_4
    iexact Hat_s1_4
  imod (Rounds.cell_close ER (Rd K) (Set.mem_univ (κ (c, 7))) (fun h => h) (R := 1) (duties_later K (s1Cell c 5))) $$ [Hat_s1_5] with Z_s1_5
  · isplitr; · iexact HI_s1_5
    iexact Hat_s1_5
  imod (Rounds.cell_close ER (Rd K) (Set.mem_univ (κ (c, 8))) (fun h => h) (R := 1) (duties_later K (s1Cell c 6))) $$ [Hat_s1_6] with Z_s1_6
  · isplitr; · iexact HI_s1_6
    iexact Hat_s1_6
  imod (Rounds.cell_close ER (Rd K) (Set.mem_univ (κ (c, 9))) (fun h => h) (R := 1) (duties_later K (v1Cell c 0))) $$ [Hat_v1_0] with Z_v1_0
  · isplitr; · iexact HI_v1_0
    iexact Hat_v1_0
  imod (Rounds.cell_close ER (Rd K) (Set.mem_univ (κ (c, 10))) (fun h => h) (R := 1) (duties_later K (v1Cell c 1))) $$ [Hat_v1_1] with Z_v1_1
  · isplitr; · iexact HI_v1_1
    iexact Hat_v1_1
  imod (Rounds.cell_close ER (Rd K) (Set.mem_univ (κ (c, 11))) (fun h => h) (R := 1) (duties_later K (v1Cell c 2))) $$ [Hat_v1_2] with Z_v1_2
  · isplitr; · iexact HI_v1_2
    iexact Hat_v1_2
  imod (Rounds.cell_close ER (Rd K) (Set.mem_univ (κ (c, 12))) (fun h => h) (R := 1) (duties_later K (v1Cell c 3))) $$ [Hat_v1_3] with Z_v1_3
  · isplitr; · iexact HI_v1_3
    iexact Hat_v1_3
  imod (Rounds.cell_close ER (Rd K) (Set.mem_univ (κ (c, 13))) (fun h => h) (R := 1) (duties_later K (v1Cell c 4))) $$ [Hat_v1_4] with Z_v1_4
  · isplitr; · iexact HI_v1_4
    iexact Hat_v1_4
  imod (Rounds.cell_close ER (Rd K) (Set.mem_univ (κ (c, 14))) (fun h => h) (R := 1) (duties_later K (v1Cell c 5))) $$ [Hat_v1_5] with Z_v1_5
  · isplitr; · iexact HI_v1_5
    iexact Hat_v1_5
  imod (Rounds.cell_close ER (Rd K) (Set.mem_univ (κ (c, 15))) (fun h => h) (R := 1) (duties_later K (v1Cell c 6))) $$ [Hat_v1_6] with Z_v1_6
  · isplitr; · iexact HI_v1_6
    iexact Hat_v1_6
  imod (Rounds.cell_close ER (Rd K) (Set.mem_univ (κ (c, 16))) (fun h => h) (R := 1) (duties_later K (s2Cell c 0))) $$ [Hat_s2_0] with Z_s2_0
  · isplitr; · iexact HI_s2_0
    iexact Hat_s2_0
  imod (Rounds.cell_close ER (Rd K) (Set.mem_univ (κ (c, 17))) (fun h => h) (R := 1) (duties_later K (s2Cell c 1))) $$ [Hat_s2_1] with Z_s2_1
  · isplitr; · iexact HI_s2_1
    iexact Hat_s2_1
  imod (Rounds.cell_close ER (Rd K) (Set.mem_univ (κ (c, 18))) (fun h => h) (R := 1) (duties_later K (s2Cell c 2))) $$ [Hat_s2_2] with Z_s2_2
  · isplitr; · iexact HI_s2_2
    iexact Hat_s2_2
  imod (Rounds.cell_close ER (Rd K) (Set.mem_univ (κ (c, 19))) (fun h => h) (R := 1) (duties_later K (v2Cell c 0))) $$ [Hat_v2_0] with Z_v2_0
  · isplitr; · iexact HI_v2_0
    iexact Hat_v2_0
  imod (Rounds.cell_close ER (Rd K) (Set.mem_univ (κ (c, 20))) (fun h => h) (R := 1) (duties_later K (v2Cell c 1))) $$ [Hat_v2_1] with Z_v2_1
  · isplitr; · iexact HI_v2_1
    iexact Hat_v2_1
  imod (Rounds.cell_close ER (Rd K) (Set.mem_univ (κ (c, 21))) (fun h => h) (R := 1) (duties_later K (v2Cell c 2))) $$ [Hat_v2_2] with Z_v2_2
  · isplitr; · iexact HI_v2_2
    iexact Hat_v2_2
  sl_step
  iapply Hk
  have hg2' : (slot2 0).view.read (Elt F) g2 = K.v2 c 0 ∧ (slot2 1).view.read (Elt F) g2 = K.v2 c 1 ∧ (slot2 2).view.read (Elt F) g2 = K.v2 c 2 :=
    ⟨hg2.1.trans hl2_0, hg2.2.1.trans hl2_1, hg2.2.2.trans hl2_2⟩
  unfold scr closed
  isplitl [Hp Hat_s1_0_pay1 Hat_s1_1_pay1 Hat_s1_2_pay1 Hat_s1_3_pay1 Hat_s1_4_pay1 Hat_s1_5_pay1 Hat_s1_6_pay1 Hqr Hs Ha1 Hat_s2_0_pay1 Hat_s2_1_pay1 Hat_s2_2_pay1 Hzr Hu Z_zr Z_s1_0 Z_s1_1 Z_s1_2 Z_s1_3 Z_s1_4 Z_s1_5 Z_s1_6 Z_v1_0 Z_v1_1 Z_v1_2 Z_v1_3 Z_v1_4 Z_v1_5 Z_v1_6 Z_s2_0 Z_s2_1 Z_s2_2 Z_v2_0 Z_v2_1 Z_v2_2]
  · isplitl [Hp Hat_s1_0_pay1 Hat_s1_1_pay1 Hat_s1_2_pay1 Hat_s1_3_pay1 Hat_s1_4_pay1 Hat_s1_5_pay1 Hat_s1_6_pay1 Hqr Hs Ha1 Hat_s2_0_pay1 Hat_s2_1_pay1 Hat_s2_2_pay1 Hzr Hu]
    · isplitl [Hp]; · iexists _; iexact Hp
      isplitl [Hat_s1_0_pay1 Hat_s1_1_pay1 Hat_s1_2_pay1 Hat_s1_3_pay1 Hat_s1_4_pay1 Hat_s1_5_pay1 Hat_s1_6_pay1 Hqr]
      · iapply (join_src1 c)
        isplitl [Hat_s1_0_pay1]; · iexists _; iexact Hat_s1_0_pay1
        isplitl [Hat_s1_1_pay1]; · iexists _; iexact Hat_s1_1_pay1
        isplitl [Hat_s1_2_pay1]; · iexists _; iexact Hat_s1_2_pay1
        isplitl [Hat_s1_3_pay1]; · iexists _; iexact Hat_s1_3_pay1
        isplitl [Hat_s1_4_pay1]; · iexists _; iexact Hat_s1_4_pay1
        isplitl [Hat_s1_5_pay1]; · iexists _; iexact Hat_s1_5_pay1
        isplitl [Hat_s1_6_pay1]; · iexists _; iexact Hat_s1_6_pay1
        iexists _; iapply (Entails.of_eq (keep1_eq c _)); iexact Hqr
      isplitl [Hs]; · iexists _; iexact Hs
      isplitl [Ha1]; · iexists _; iexact Ha1
      isplitl [Hat_s2_0_pay1 Hat_s2_1_pay1 Hat_s2_2_pay1 Hzr]
      · iapply (join_src2 c)
        isplitl [Hat_s2_0_pay1]; · iexists _; iexact Hat_s2_0_pay1
        isplitl [Hat_s2_1_pay1]; · iexists _; iexact Hat_s2_1_pay1
        isplitl [Hat_s2_2_pay1]; · iexists _; iexact Hat_s2_2_pay1
        iexists _; iapply (Entails.of_eq (keep4_eq c _)); iexact Hzr
      iexists _; iexact Hu
    · isplitl [Z_zr]; · iexact Z_zr
      isplitl [Z_s1_0]; · iexact Z_s1_0
      isplitl [Z_s1_1]; · iexact Z_s1_1
      isplitl [Z_s1_2]; · iexact Z_s1_2
      isplitl [Z_s1_3]; · iexact Z_s1_3
      isplitl [Z_s1_4]; · iexact Z_s1_4
      isplitl [Z_s1_5]; · iexact Z_s1_5
      isplitl [Z_s1_6]; · iexact Z_s1_6
      isplitl [Z_v1_0]; · iexact Z_v1_0
      isplitl [Z_v1_1]; · iexact Z_v1_1
      isplitl [Z_v1_2]; · iexact Z_v1_2
      isplitl [Z_v1_3]; · iexact Z_v1_3
      isplitl [Z_v1_4]; · iexact Z_v1_4
      isplitl [Z_v1_5]; · iexact Z_v1_5
      isplitl [Z_v1_6]; · iexact Z_v1_6
      isplitl [Z_s2_0]; · iexact Z_s2_0
      isplitl [Z_s2_1]; · iexact Z_s2_1
      isplitl [Z_s2_2]; · iexact Z_s2_2
      isplitl [Z_v2_0]; · iexact Z_v2_0
      isplitl [Z_v2_1]; · iexact Z_v2_1
      iexact Z_v2_2
  isplitl [HO]; · iexists _; iexact HO
  isplitl [Hx]; · iexact Hx
  isplitl [Hy]; · iexact Hy
  iapply (pts_cast (hK.out _ _ o0 g1 g2 hg1' hg2'))
  iexact Ho

/-- info: 'Cert.KernelIdeal.Hand.sound_body' depends on axioms: [propext, Classical.choice, Quot.sound] -/
#guard_msgs in #print axioms sound_body

end Cert.KernelIdeal.Hand
end
-- ==== Proof.BodyObl.lean ====
import proofs.«900450_g7700000000000451_dist_matmul_mk_i_outk_m512_n512_k256_v7x_i32_f32_1_alg».proof.Proof.Body

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
variable (m : (ℓ : Loc nD τ sig) → Buf (Elt F) ℓ) (ρ : Dev nD → PrngReg)

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 8000 in
/-- The library's body obligation on device `c`, from the run of its body. -/
theorem body_obligation (hK : ∀ c : Dev nD, Good K c (aC m ρ c) (bC m ρ c)) (c : Dev nD) :
    BodyObligation (dats K m ρ 0 c) (defs₀ (F := F)) 𝒱₀ () Set.univ := fun t => by
  rw [fin_N0 t]
  rw [bigSep_W0, bigSep_W0]
  simp only [owns_whole_eq]
  show iprop(Φ₀ K c ∗ (dats K m ρ 0 c).owesAt () t0_0.castSucc
      ∗ (∃ d, stg c cc0_stg0_0 ((dats K m ρ 0 c).before (0 : Fin 3) t0_0 d))
      ∗ (∃ d, stg c cc0_stg1_0 ((dats K m ρ 0 c).before (1 : Fin 3) t0_0 d))
      ∗ (∃ d, stg c cc0_stg2_0 ((dats K m ρ 0 c).before (2 : Fin 3) t0_0 d)))
    ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10)
      (fun _ => iprop(Φ₁ c ∗ (dats K m ρ 0 c).owesAt () t0_0.succ
        ∗ stg c cc0_stg0_0 (aC m ρ c) ∗ stg c cc0_stg1_0 (bC m ρ c) ∗ stg c cc0_stg2_0 (K.out c)))
  unfold Φ₀ start ghost scr
  iintro ⟨⟨⟨⟨%κ, HI, Hm, Hl⟩, Hcr, #Hlev, Hidle⟩, ⟨%fp, Hp⟩, ⟨%fq, Hq⟩, ⟨%fs2, Hs⟩, ⟨%fa1, Ha1⟩, ⟨%fa2, Ha2⟩, ⟨%fu, Hu⟩⟩, Ho, ⟨%d0, %g0, %hg0, Hx⟩, ⟨%d1, %g1, %hg1, Hy⟩, ⟨%d2, %g2, %hg2, Hout⟩⟩
  have hx : g0 = aC m ρ c := by rw [hg0]; unfold Dat.before; rw [if_pos (fetch0_0 t0_0)]; rfl
  have hy : g1 = bC m ρ c := by rw [hg1]; unfold Dat.before; rw [if_pos (fetch0_1 t0_0)]; rfl
  subst hx hy
  unfold Dat.owesAt Pipeline.owesWithin
  icases Ho with ⟨%W, %hW, HO⟩
  rw [show (dats K m ρ 0 c).owed t0_0.castSucc = O₀ c from rfl, show (dats K m ρ 0 c).owed t0_0.succ = 0 from rfl]
  iapply (sound_body K κ c W _ (aC m ρ c) (bC m ρ c) (hK c) g2 fp fq fs2 fa1 fa2 fu)
  isplitl [HI]; · iexact HI
  isplitl [Hm]; · iexact Hm
  isplitr; · iexact Hlev
  isplitl [Hl]; · iexact Hl
  isplitl [Hcr]; · iexact Hcr
  isplitl [HO]; · iexact HO
  isplitl [Hx]; · iexact Hx
  isplitl [Hy]; · iexact Hy
  isplitl [Hout]; · iexact Hout
  isplitl [Hp]; · iexact Hp
  isplitl [Hq]; · iexact Hq
  isplitl [Hs]; · iexact Hs
  isplitl [Ha1]; · iexact Ha1
  isplitl [Ha2]; · iexact Ha2
  isplitl [Hu]; · iexact Hu
  iintro ⟨⟨Hscr, Hcl⟩, ⟨%W', HO⟩, Hx, Hy, Hout⟩
  isplitl [Hscr Hcl Hidle]
  · unfold Φ₁
    isplitl [Hscr]; · iexact Hscr
    isplitl [Hcl]; · iexact Hcl
    iexact Hidle
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-- info: 'Cert.KernelIdeal.Hand.body_obligation' depends on axioms: [propext, Classical.choice, Quot.sound] -/
#guard_msgs in #print axioms body_obligation

end Cert.KernelIdeal.Hand
end
-- ==== Proof.LaunchAlloc.lean ====
import proofs.«900450_g7700000000000451_dist_matmul_mk_i_outk_m512_n512_k256_v7x_i32_f32_1_alg».proof.Proof.Dats
import proofs.«900450_g7700000000000451_dist_matmul_mk_i_outk_m512_n512_k256_v7x_i32_f32_1_alg».proof.Proof.Levels

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Cont F)

/-! ## Every payload can be stored in an invariant -/

omit [FloatOps F] in
instance payBar_storable (p : Dev nD) (j : Fin 8) : BI.Storable (upEmb : UEmb _ 𝕄) (payBar (F := F) p j) := by
  rcases j with ⟨_ | _ | _ | _ | _ | _ | _ | _ | _, h⟩
  all_goals first
    | (exact absurd h (by omega))
    | (show BI.Storable upEmb (iprop(_ ∗ _) : sProp 𝕄); infer_instance)
    | (show BI.Storable upEmb (iprop(emp) : sProp 𝕄); infer_instance)
omit [FloatOps F] in
instance payZr_storable (p : Dev nD) (j : Fin 8) : BI.Storable (upEmb : UEmb _ 𝕄) (payZr (F := F) p j) := by
  rcases j with ⟨_ | _ | _ | _ | _ | _ | _ | _ | _, h⟩
  all_goals first
    | (exact absurd h (by omega))
    | (show BI.Storable upEmb (iprop(_ ∗ _) : sProp 𝕄); infer_instance)
    | (show BI.Storable upEmb (iprop(emp) : sProp 𝕄); infer_instance)

instance Rd_payload_storable (g : GSem nD τ sig) (r : ℕ) (d : DU) : BI.Storable (upEmb : UEmb _ 𝕄) ((Rd K).payload g r d) := by
  dsimp only [Rd]
  split <;> infer_instance

/-! ## The cells of the mesh and the duty tokens minted for them -/

theorem csem_injective : Function.Injective csem := by decide

theorem kcell_injective : Function.Injective (kcell : Dev nD × Fin 22 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def allCells : Finset (GSem nD τ sig) := Finset.univ.map ⟨kcell, kcell_injective⟩

/-- The duty tokens of a device's own cells as minted: (device, which duty) — the seven of its barrier cell, the three of its
    ready cell, one for each send and each receive cell. -/
def tokOf (cj : Dev nD × Fin 30) : GSem nD τ sig × ℕ × DU := match cj.2 with
  | 0 => (barCell cj.1, 0, (rotq cj.1 1, (0 : Fin 8)))
  | 1 => (barCell cj.1, 0, (rotq cj.1 2, (1 : Fin 8)))
  | 2 => (barCell cj.1, 0, (rotq cj.1 3, (2 : Fin 8)))
  | 3 => (barCell cj.1, 0, (rotq cj.1 4, (3 : Fin 8)))
  | 4 => (barCell cj.1, 0, (rotq cj.1 5, (4 : Fin 8)))
  | 5 => (barCell cj.1, 0, (rotq cj.1 6, (5 : Fin 8)))
  | 6 => (barCell cj.1, 0, (rotq cj.1 7, (6 : Fin 8)))
  | 7 => (zrCell cj.1, 0, (rotz cj.1 1, (0 : Fin 8)))
  | 8 => (zrCell cj.1, 0, (rotz cj.1 2, (1 : Fin 8)))
  | 9 => (zrCell cj.1, 0, (rotz cj.1 3, (2 : Fin 8)))
  | 10 => (s1Cell cj.1 0, 0, (cj.1, (0 : Fin 8)))
  | 11 => (s1Cell cj.1 1, 0, (cj.1, (0 : Fin 8)))
  | 12 => (s1Cell cj.1 2, 0, (cj.1, (0 : Fin 8)))
  | 13 => (s1Cell cj.1 3, 0, (cj.1, (0 : Fin 8)))
  | 14 => (s1Cell cj.1 4, 0, (cj.1, (0 : Fin 8)))
  | 15 => (s1Cell cj.1 5, 0, (cj.1, (0 : Fin 8)))
  | 16 => (s1Cell cj.1 6, 0, (cj.1, (0 : Fin 8)))
  | 17 => (v1Cell cj.1 0, 0, (rotq cj.1 7, (0 : Fin 8)))
  | 18 => (v1Cell cj.1 1, 0, (rotq cj.1 6, (0 : Fin 8)))
  | 19 => (v1Cell cj.1 2, 0, (rotq cj.1 5, (0 : Fin 8)))
  | 20 => (v1Cell cj.1 3, 0, (rotq cj.1 4, (0 : Fin 8)))
  | 21 => (v1Cell cj.1 4, 0, (rotq cj.1 3, (0 : Fin 8)))
  | 22 => (v1Cell cj.1 5, 0, (rotq cj.1 2, (0 : Fin 8)))
  | 23 => (v1Cell cj.1 6, 0, (rotq cj.1 1, (0 : Fin 8)))
  | 24 => (s2Cell cj.1 0, 0, (cj.1, (0 : Fin 8)))
  | 25 => (s2Cell cj.1 1, 0, (cj.1, (0 : Fin 8)))
  | 26 => (s2Cell cj.1 2, 0, (cj.1, (0 : Fin 8)))
  | 27 => (v2Cell cj.1 0, 0, (rotz cj.1 3, (0 : Fin 8)))
  | 28 => (v2Cell cj.1 1, 0, (rotz cj.1 2, (0 : Fin 8)))
  | 29 => (v2Cell cj.1 2, 0, (rotz cj.1 1, (0 : Fin 8)))
  | ⟨_ + 30, h⟩ => absurd h (Nat.not_lt.2 (Nat.le_add_left _ _))
/-- Which own cell, and which duty index, token `j` is for. -/
def tokKey : Fin 30 → Fin 22 × Fin 8
  | 0 => (0, 0)
  | 1 => (0, 1)
  | 2 => (0, 2)
  | 3 => (0, 3)
  | 4 => (0, 4)
  | 5 => (0, 5)
  | 6 => (0, 6)
  | 7 => (1, 0)
  | 8 => (1, 1)
  | 9 => (1, 2)
  | 10 => (2, 0)
  | 11 => (3, 0)
  | 12 => (4, 0)
  | 13 => (5, 0)
  | 14 => (6, 0)
  | 15 => (7, 0)
  | 16 => (8, 0)
  | 17 => (9, 0)
  | 18 => (10, 0)
  | 19 => (11, 0)
  | 20 => (12, 0)
  | 21 => (13, 0)
  | 22 => (14, 0)
  | 23 => (15, 0)
  | 24 => (16, 0)
  | 25 => (17, 0)
  | 26 => (18, 0)
  | 27 => (19, 0)
  | 28 => (20, 0)
  | 29 => (21, 0)
  | ⟨_ + 30, h⟩ => absurd h (Nat.not_lt.2 (Nat.le_add_left _ _))
theorem tokKey_injective : Function.Injective tokKey := by decide
theorem tokOf_key (c : Dev nD) (j : Fin 30) : (tokOf (c, j)).1 = kcell (c, (tokKey j).1) ∧ (tokOf (c, j)).2.2.2 = (tokKey j).2 := by
  fin_cases j <;> exact ⟨rfl, rfl⟩
theorem tokOf_injective : Function.Injective (tokOf : Dev nD × Fin 30 → GSem nD τ sig × ℕ × DU) := by
  rintro ⟨c, j⟩ ⟨c', j'⟩ h
  have hk := kcell_injective (((tokOf_key c j).1.symm.trans (congrArg (fun x : GSem nD τ sig × ℕ × DU => x.1) h)).trans (tokOf_key c' j').1)
  have hi : (tokKey j).2 = (tokKey j').2 := ((tokOf_key c j).2.symm.trans (congrArg (fun x : GSem nD τ sig × ℕ × DU => x.2.2.2) h)).trans (tokOf_key c' j').2
  have h1 : c = c' := congrArg Prod.fst hk
  have h2 : (tokKey j).1 = (tokKey j').1 := congrArg Prod.snd hk
  have h3 : j = j' := tokKey_injective (Prod.ext h2 hi)
  rw [h1, h3]
def allToks : Finset (GSem nD τ sig × ℕ × DU) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 (rotq c 1, (0 : Fin 8))
    ∗ dutyTok ER (barCell c) 0 (rotq c 2, (1 : Fin 8))
    ∗ dutyTok ER (barCell c) 0 (rotq c 3, (2 : Fin 8))
    ∗ dutyTok ER (barCell c) 0 (rotq c 4, (3 : Fin 8))
    ∗ dutyTok ER (barCell c) 0 (rotq c 5, (4 : Fin 8))
    ∗ dutyTok ER (barCell c) 0 (rotq c 6, (5 : Fin 8))
    ∗ dutyTok ER (barCell c) 0 (rotq c 7, (6 : Fin 8))
    ∗ dutyTok ER (zrCell c) 0 (rotz c 1, (0 : Fin 8))
    ∗ dutyTok ER (zrCell c) 0 (rotz c 2, (1 : Fin 8))
    ∗ dutyTok ER (zrCell c) 0 (rotz c 3, (2 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v1Cell c 0) 0 (rotq c 7, (0 : Fin 8))
    ∗ dutyTok ER (v1Cell c 1) 0 (rotq c 6, (0 : Fin 8))
    ∗ dutyTok ER (v1Cell c 2) 0 (rotq c 5, (0 : Fin 8))
    ∗ dutyTok ER (v1Cell c 3) 0 (rotq c 4, (0 : Fin 8))
    ∗ dutyTok ER (v1Cell c 4) 0 (rotq c 3, (0 : Fin 8))
    ∗ dutyTok ER (v1Cell c 5) 0 (rotq c 2, (0 : Fin 8))
    ∗ dutyTok ER (v1Cell c 6) 0 (rotq c 1, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8))
    ∗ dutyTok ER (v2Cell c 0) 0 (rotz c 3, (0 : Fin 8))
    ∗ dutyTok ER (v2Cell c 1) 0 (rotz c 2, (0 : Fin 8))
    ∗ dutyTok ER (v2Cell c 2) 0 (rotz c 1, (0 : Fin 8)))

/-- What the launch element deals device `c`. -/
def G (c : Dev nD) : sProp 𝕄 :=
  iprop((bigSep Finset.univ fun k : Fin 22 => roundState ER (Rd K) (kcell (c, k)) 0)
    ∗ (bigSep Finset.univ fun k : Fin 22 => iprop(atPos ER (kcell (c, k)) 0 ∅ 0 ∗ reached ER (kcell (c, k)) 0)) ∗ toks c)

/-- What the global step makes of it. -/
def G' (c : Dev nD) : sProp 𝕄 := iprop((∃ κ, ghost K κ c) ∗ idle c)

omit [FloatOps F] in
theorem bigSep_fin22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ
omit [FloatOps F] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

theorem fund_ring : BI.own (ER (initOf allCells allToks)) ⊢ (|==> bigSep Finset.univ (G K) : sProp 𝕄) := by
  have hX (Φ : GSem nD τ sig → sProp 𝕄) : bigSep allCells Φ = bigSep Finset.univ fun c : Dev nD => bigSep Finset.univ fun k : Fin 22 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin30]; rfl
  iintro HX
  imod (Rounds.fund ER (Rd K) allCells allToks) $$ HX with ⟨Hst, Hr, Hat, Htok⟩
  imodintro
  ihave Hst' := (Entails.of_eq (hX fun g => roundState ER (Rd K) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch: the kernel's own 25 and the barrier semaphore -/

omit [FloatOps F] in
theorem ownSems0_eq (c : Dev nD) : (Pipeline.ownSems0 (Ix := Unit) (Name := ℕ) (U := UU) (Lvl := ℕ) (Val := Elt F) (τ := τ) osem c : sProp 𝕄)
    = iprop(semVal (zrCell c) 0
      ∗ semVal ((c : Thread nD τ), SemLoc.dma (3 : DmaSem sig)) 0
      ∗ semVal (s1Cell c 0) 0
      ∗ semVal (s1Cell c 1) 0
      ∗ semVal (s1Cell c 2) 0
      ∗ semVal (s1Cell c 3) 0
      ∗ semVal (s1Cell c 4) 0
      ∗ semVal (s1Cell c 5) 0
      ∗ semVal (s1Cell c 6) 0
      ∗ semVal ((c : Thread nD τ), SemLoc.dma (11 : DmaSem sig)) 0
      ∗ semVal (v1Cell c 0) 0
      ∗ semVal (v1Cell c 1) 0
      ∗ semVal (v1Cell c 2) 0
      ∗ semVal (v1Cell c 3) 0
      ∗ semVal (v1Cell c 4) 0
      ∗ semVal (v1Cell c 5) 0
      ∗ semVal (v1Cell c 6) 0
      ∗ semVal ((c : Thread nD τ), SemLoc.dma (19 : DmaSem sig)) 0
      ∗ semVal (s2Cell c 0) 0
      ∗ semVal (s2Cell c 1) 0
      ∗ semVal (s2Cell c 2) 0
      ∗ semVal ((c : Thread nD τ), SemLoc.dma (23 : DmaSem sig)) 0
      ∗ semVal (v2Cell c 0) 0
      ∗ semVal (v2Cell c 1) 0
      ∗ semVal (v2Cell c 2) 0) := by
  rw [Pipeline.ownSems0_eq_of_list c osem [0, 1, 2, 3, 4, 5, 6, 7, 8, 9, 10, 11, 12, 13, 14, 15, 16, 17, 18, 19, 20, 21, 22, 23, 24] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 22 => semVal (kcell (c, k)) 0) ∗ idle c) : sProp 𝕄) := by
  rw [ownSems0_eq, unscopedSems0_eq, bigSep_fin22]
  unfold idle
  iintro ⟨⟨H0, H1, H2, H3, H4, H5, H6, H7, H8, H9, H10, H11, H12, H13, H14, H15, H16, H17, H18, H19, H20, H21, H22, H23, H24⟩, HB⟩
  isplitl [HB H0 H2 H3 H4 H5 H6 H7 H8 H10 H11 H12 H13 H14 H15 H16 H18 H19 H20 H22 H23 H24]
  · isplitl [HB]; · iexact HB
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H18]; · iexact H18
    isplitl [H19]; · iexact H19
    isplitl [H20]; · iexact H20
    isplitl [H22]; · iexact H22
    isplitl [H23]; · iexact H23
    iexact H24
  isplitl [H1]; · iexact H1
  isplitl [H9]; · iexact H9
  isplitl [H17]; · iexact H17
  iexact H21

theorem core_alloc (c : Dev nD) :
    iprop(Pipeline.ownSems0 (Ix := Unit) (Name := ℕ) (U := UU) (Lvl := ℕ) (Val := Elt F) (τ := τ) osem c ∗ unscopedSems0 c ∗ G K c)
      ⊢ |={Set.univ}=> iprop((bigSep Finset.univ fun k => iprop(∃ κ : ℕ, cellInv ER (Rd K) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 22 => semVal (kcell (c, k)) 0) ∗ bigSep Finset.univ fun k : Fin 22 => roundState ER (Rd K) (kcell (c, k)) 0)
      ⊢ (|={Set.univ}=> bigSep Finset.univ fun k => iprop(∃ κ : ℕ, cellInv ER (Rd K) κ (kcell (c, k))) : sProp 𝕄) from by
        rw [← bigSep_sep']
        exact (bigSep_mono fun k _ => (Rounds.body_intro ER (Rd K) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## From the dealt pieces to each device's ghost state -/

def records (κ : Dev nD × Fin 22 → ℕ) : sProp 𝕄 :=
  iprop((bigSep Finset.univ fun ck : Dev nD × Fin 22 => cellInv ER (Rd K) (κ ck) (kcell ck))
    ∗ bigSep Finset.univ fun ck : Dev nD × Fin 22 => reached ER (kcell ck) 0)

instance records_persistent (κ : Dev nD × Fin 22 → ℕ) : BI.Persistent (records K κ) := by unfold records; infer_instance

theorem inv_at (κ : Dev nD × Fin 22 → ℕ) (ck : Dev nD × Fin 22) :
    (bigSep Finset.univ fun ck : Dev nD × Fin 22 => (cellInv ER (Rd K) (κ ck) (kcell ck) : sProp 𝕄)) ⊢ cellInv ER (Rd K) (κ ck) (kcell ck) :=
  bigSep_elim (Finset.mem_univ ck)
omit [FloatOps F] in
theorem reached_at (ck : Dev nD × Fin 22) :
    (bigSep Finset.univ fun ck : Dev nD × Fin 22 => (reached ER (kcell ck) 0 : sProp 𝕄)) ⊢ reached ER (kcell ck) 0 :=
  bigSep_elim (Finset.mem_univ ck)

/-- The tokens of the duties device `c` pays. -/
def payToks (c : Dev nD) : sProp 𝕄 :=
  iprop(dutyTok ER (barCell (rotq c 1)) 0 (c, (6 : Fin 8))
    ∗ dutyTok ER (barCell (rotq c 2)) 0 (c, (5 : Fin 8))
    ∗ dutyTok ER (barCell (rotq c 3)) 0 (c, (4 : Fin 8))
    ∗ dutyTok ER (barCell (rotq c 4)) 0 (c, (3 : Fin 8))
    ∗ dutyTok ER (barCell (rotq c 5)) 0 (c, (2 : Fin 8))
    ∗ dutyTok ER (barCell (rotq c 6)) 0 (c, (1 : Fin 8))
    ∗ dutyTok ER (barCell (rotq c 7)) 0 (c, (0 : Fin 8))
    ∗ dutyTok ER (zrCell (rotz c 1)) 0 (c, (2 : Fin 8))
    ∗ dutyTok ER (zrCell (rotz c 2)) 0 (c, (1 : Fin 8))
    ∗ dutyTok ER (zrCell (rotz c 3)) 0 (c, (0 : Fin 8))
    ∗ dutyTok ER (v1Cell (rotq c 1) 0) 0 (c, (0 : Fin 8))
    ∗ dutyTok ER (v1Cell (rotq c 2) 1) 0 (c, (0 : Fin 8))
    ∗ dutyTok ER (v1Cell (rotq c 3) 2) 0 (c, (0 : Fin 8))
    ∗ dutyTok ER (v1Cell (rotq c 4) 3) 0 (c, (0 : Fin 8))
    ∗ dutyTok ER (v1Cell (rotq c 5) 4) 0 (c, (0 : Fin 8))
    ∗ dutyTok ER (v1Cell (rotq c 6) 5) 0 (c, (0 : Fin 8))
    ∗ dutyTok ER (v1Cell (rotq c 7) 6) 0 (c, (0 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v2Cell (rotz c 1) 0) 0 (c, (0 : Fin 8))
    ∗ dutyTok ER (v2Cell (rotz c 2) 1) 0 (c, (0 : Fin 8))
    ∗ dutyTok ER (v2Cell (rotz c 3) 2) 0 (c, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8)))

omit [FloatOps F] in
theorem linear_intro (c : Dev nD) : iprop((bigSep Finset.univ fun k : Fin 22 => (atPos ER (kcell (c, k)) 0 ∅ 0 : sProp 𝕄)) ∗ payToks c) ⊢ linear c := by
  rw [bigSep_fin22]
  unfold payToks linear
  iintro ⟨⟨A0, A1, A2, A3, A4, A5, A6, A7, A8, A9, A10, A11, A12, A13, A14, A15, A16, A17, A18, A19, A20, A21⟩, T0, T1, T2, T3, T4, T5, T6, T7, T8, T9, T10, T11, T12, T13, T14, T15, T16, T17, T18, T19, T20, T21, T22, T23, T24, T25, T26, T27, T28, T29⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  iexact T29

theorem ghost_intro (κ : Dev nD × Fin 22 → ℕ) (c : Dev nD) : iprop(records K κ ∗ linear c) ⊢ (iprop(∃ κ, ghost K κ c) : sProp 𝕄) := by
  unfold records ghost invs marks
  iintro ⟨⟨#HI, #HR⟩, HL⟩
  iexists κ
  isplitr
  · isplitr; · iapply (inv_at K κ (c, 0)); iexact HI
    isplitr; · iapply (inv_at K κ (c, 1)); iexact HI
    isplitr; · iapply (inv_at K κ (c, 2)); iexact HI
    isplitr; · iapply (inv_at K κ (c, 3)); iexact HI
    isplitr; · iapply (inv_at K κ (c, 4)); iexact HI
    isplitr; · iapply (inv_at K κ (c, 5)); iexact HI
    isplitr; · iapply (inv_at K κ (c, 6)); iexact HI
    isplitr; · iapply (inv_at K κ (c, 7)); iexact HI
    isplitr; · iapply (inv_at K κ (c, 8)); iexact HI
    isplitr; · iapply (inv_at K κ (c, 9)); iexact HI
    isplitr; · iapply (inv_at K κ (c, 10)); iexact HI
    isplitr; · iapply (inv_at K κ (c, 11)); iexact HI
    isplitr; · iapply (inv_at K κ (c, 12)); iexact HI
    isplitr; · iapply (inv_at K κ (c, 13)); iexact HI
    isplitr; · iapply (inv_at K κ (c, 14)); iexact HI
    isplitr; · iapply (inv_at K κ (c, 15)); iexact HI
    isplitr; · iapply (inv_at K κ (c, 16)); iexact HI
    isplitr; · iapply (inv_at K κ (c, 17)); iexact HI
    isplitr; · iapply (inv_at K κ (c, 18)); iexact HI
    isplitr; · iapply (inv_at K κ (c, 19)); iexact HI
    isplitr; · iapply (inv_at K κ (c, 20)); iexact HI
    isplitr; · iapply (inv_at K κ (c, 21)); iexact HI
    isplitr; · iapply (inv_at K κ (rotq c 1, 0)); iexact HI
    isplitr; · iapply (inv_at K κ (rotq c 2, 0)); iexact HI
    isplitr; · iapply (inv_at K κ (rotq c 3, 0)); iexact HI
    isplitr; · iapply (inv_at K κ (rotq c 4, 0)); iexact HI
    isplitr; · iapply (inv_at K κ (rotq c 5, 0)); iexact HI
    isplitr; · iapply (inv_at K κ (rotq c 6, 0)); iexact HI
    isplitr; · iapply (inv_at K κ (rotq c 7, 0)); iexact HI
    isplitr; · iapply (inv_at K κ (rotz c 1, 1)); iexact HI
    isplitr; · iapply (inv_at K κ (rotz c 2, 1)); iexact HI
    isplitr; · iapply (inv_at K κ (rotz c 3, 1)); iexact HI
    isplitr; · iapply (inv_at K κ (rotq c 1, 9)); iexact HI
    isplitr; · iapply (inv_at K κ (rotq c 2, 10)); iexact HI
    isplitr; · iapply (inv_at K κ (rotq c 3, 11)); iexact HI
    isplitr; · iapply (inv_at K κ (rotq c 4, 12)); iexact HI
    isplitr; · iapply (inv_at K κ (rotq c 5, 13)); iexact HI
    isplitr; · iapply (inv_at K κ (rotq c 6, 14)); iexact HI
    isplitr; · iapply (inv_at K κ (rotq c 7, 15)); iexact HI
    isplitr; · iapply (inv_at K κ (rotz c 1, 19)); iexact HI
    isplitr; · iapply (inv_at K κ (rotz c 2, 20)); iexact HI
    iapply (inv_at K κ (rotz c 3, 21)); iexact HI
  isplitr
  · isplitr; · iapply (reached_at (F := F) (rotq c 1, 0)); iexact HR
    isplitr; · iapply (reached_at (F := F) (rotq c 2, 0)); iexact HR
    isplitr; · iapply (reached_at (F := F) (rotq c 3, 0)); iexact HR
    isplitr; · iapply (reached_at (F := F) (rotq c 4, 0)); iexact HR
    isplitr; · iapply (reached_at (F := F) (rotq c 5, 0)); iexact HR
    isplitr; · iapply (reached_at (F := F) (rotq c 6, 0)); iexact HR
    isplitr; · iapply (reached_at (F := F) (rotq c 7, 0)); iexact HR
    isplitr; · iapply (reached_at (F := F) (rotz c 1, 1)); iexact HR
    isplitr; · iapply (reached_at (F := F) (rotz c 2, 1)); iexact HR
    isplitr; · iapply (reached_at (F := F) (rotz c 3, 1)); iexact HR
    isplitr; · iapply (reached_at (F := F) (c, 9)); iexact HR
    isplitr; · iapply (reached_at (F := F) (c, 10)); iexact HR
    isplitr; · iapply (reached_at (F := F) (c, 11)); iexact HR
    isplitr; · iapply (reached_at (F := F) (c, 12)); iexact HR
    isplitr; · iapply (reached_at (F := F) (c, 13)); iexact HR
    isplitr; · iapply (reached_at (F := F) (c, 14)); iexact HR
    isplitr; · iapply (reached_at (F := F) (c, 15)); iexact HR
    isplitr; · iapply (reached_at (F := F) (c, 19)); iexact HR
    isplitr; · iapply (reached_at (F := F) (c, 20)); iexact HR
    isplitr; · iapply (reached_at (F := F) (c, 21)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    isplitr; · iapply (reached_at (F := F) (c, 8)); iexact HR
    isplitr; · iapply (reached_at (F := F) (c, 16)); iexact HR
    isplitr; · iapply (reached_at (F := F) (c, 17)); iexact HR
    iapply (reached_at (F := F) (c, 18)); iexact HR
  iexact HL

/-- The rotations as permutations of the devices. -/
def rotqE (k k' : ℕ) (h1 : ∀ c : Dev nD, rotq (rotq c k) k' = c) (h2 : ∀ c : Dev nD, rotq (rotq c k') k = c) : Dev nD ≃ Dev nD := ⟨(rotq · k), (rotq · k'), h1, h2⟩
def rotzE (k k' : ℕ) (h1 : ∀ c : Dev nD, rotz (rotz c k) k' = c) (h2 : ∀ c : Dev nD, rotz (rotz c k') k = c) : Dev nD ≃ Dev nD := ⟨(rotz · k), (rotz · k'), h1, h2⟩

omit [FloatOps F] in
/-- A family indexed by (cell owner, payer), summed over the owners, is the same summed over the payers. -/
theorem deal (Φ : Dev nD → Dev nD → sProp 𝕄) (e : Dev nD ≃ Dev nD) (pay : Dev nD → Dev nD) (h : ∀ p, pay (e p) = p) :
    (bigSep Finset.univ fun x => Φ x (pay x)) = bigSep Finset.univ fun p => Φ (e p) p := by
  rw [bigSep_univ_equiv e]
  exact bigSep_congr fun p _ => by rw [h]

omit [FloatOps F] in
/-- The tokens dealt around the mesh: each duty's token from the cell's owner to the device that pays it. -/
theorem toks_around : (bigSep Finset.univ fun c : Dev nD => (toks c : sProp 𝕄)) ⊢ bigSep Finset.univ fun c : Dev nD => payToks c := by
  have d0 : (bigSep Finset.univ fun c : Dev nD => (dutyTok ER (barCell c) 0 (rotq c 1, (0 : Fin 8)) : sProp 𝕄)) = bigSep Finset.univ fun c : Dev nD => dutyTok ER (barCell (rotq c 7)) 0 (c, (0 : Fin 8)) :=
    deal (fun x p => dutyTok ER (barCell x) 0 (p, (0 : Fin 8))) (rotqE 7 1 rotq_7_1 rotq_1_7) (fun x => rotq x 1) rotq_7_1
  have d1 : (bigSep Finset.univ fun c : Dev nD => (dutyTok ER (barCell c) 0 (rotq c 2, (1 : Fin 8)) : sProp 𝕄)) = bigSep Finset.univ fun c : Dev nD => dutyTok ER (barCell (rotq c 6)) 0 (c, (1 : Fin 8)) :=
    deal (fun x p => dutyTok ER (barCell x) 0 (p, (1 : Fin 8))) (rotqE 6 2 rotq_6_2 rotq_2_6) (fun x => rotq x 2) rotq_6_2
  have d2 : (bigSep Finset.univ fun c : Dev nD => (dutyTok ER (barCell c) 0 (rotq c 3, (2 : Fin 8)) : sProp 𝕄)) = bigSep Finset.univ fun c : Dev nD => dutyTok ER (barCell (rotq c 5)) 0 (c, (2 : Fin 8)) :=
    deal (fun x p => dutyTok ER (barCell x) 0 (p, (2 : Fin 8))) (rotqE 5 3 rotq_5_3 rotq_3_5) (fun x => rotq x 3) rotq_5_3
  have d3 : (bigSep Finset.univ fun c : Dev nD => (dutyTok ER (barCell c) 0 (rotq c 4, (3 : Fin 8)) : sProp 𝕄)) = bigSep Finset.univ fun c : Dev nD => dutyTok ER (barCell (rotq c 4)) 0 (c, (3 : Fin 8)) :=
    deal (fun x p => dutyTok ER (barCell x) 0 (p, (3 : Fin 8))) (rotqE 4 4 rotq_4_4 rotq_4_4) (fun x => rotq x 4) rotq_4_4
  have d4 : (bigSep Finset.univ fun c : Dev nD => (dutyTok ER (barCell c) 0 (rotq c 5, (4 : Fin 8)) : sProp 𝕄)) = bigSep Finset.univ fun c : Dev nD => dutyTok ER (barCell (rotq c 3)) 0 (c, (4 : Fin 8)) :=
    deal (fun x p => dutyTok ER (barCell x) 0 (p, (4 : Fin 8))) (rotqE 3 5 rotq_3_5 rotq_5_3) (fun x => rotq x 5) rotq_3_5
  have d5 : (bigSep Finset.univ fun c : Dev nD => (dutyTok ER (barCell c) 0 (rotq c 6, (5 : Fin 8)) : sProp 𝕄)) = bigSep Finset.univ fun c : Dev nD => dutyTok ER (barCell (rotq c 2)) 0 (c, (5 : Fin 8)) :=
    deal (fun x p => dutyTok ER (barCell x) 0 (p, (5 : Fin 8))) (rotqE 2 6 rotq_2_6 rotq_6_2) (fun x => rotq x 6) rotq_2_6
  have d6 : (bigSep Finset.univ fun c : Dev nD => (dutyTok ER (barCell c) 0 (rotq c 7, (6 : Fin 8)) : sProp 𝕄)) = bigSep Finset.univ fun c : Dev nD => dutyTok ER (barCell (rotq c 1)) 0 (c, (6 : Fin 8)) :=
    deal (fun x p => dutyTok ER (barCell x) 0 (p, (6 : Fin 8))) (rotqE 1 7 rotq_1_7 rotq_7_1) (fun x => rotq x 7) rotq_1_7
  have d7 : (bigSep Finset.univ fun c : Dev nD => (dutyTok ER (zrCell c) 0 (rotz c 1, (0 : Fin 8)) : sProp 𝕄)) = bigSep Finset.univ fun c : Dev nD => dutyTok ER (zrCell (rotz c 3)) 0 (c, (0 : Fin 8)) :=
    deal (fun x p => dutyTok ER (zrCell x) 0 (p, (0 : Fin 8))) (rotzE 3 1 rotz_3_1 rotz_1_3) (fun x => rotz x 1) rotz_3_1
  have d8 : (bigSep Finset.univ fun c : Dev nD => (dutyTok ER (zrCell c) 0 (rotz c 2, (1 : Fin 8)) : sProp 𝕄)) = bigSep Finset.univ fun c : Dev nD => dutyTok ER (zrCell (rotz c 2)) 0 (c, (1 : Fin 8)) :=
    deal (fun x p => dutyTok ER (zrCell x) 0 (p, (1 : Fin 8))) (rotzE 2 2 rotz_2_2 rotz_2_2) (fun x => rotz x 2) rotz_2_2
  have d9 : (bigSep Finset.univ fun c : Dev nD => (dutyTok ER (zrCell c) 0 (rotz c 3, (2 : Fin 8)) : sProp 𝕄)) = bigSep Finset.univ fun c : Dev nD => dutyTok ER (zrCell (rotz c 1)) 0 (c, (2 : Fin 8)) :=
    deal (fun x p => dutyTok ER (zrCell x) 0 (p, (2 : Fin 8))) (rotzE 1 3 rotz_1_3 rotz_3_1) (fun x => rotz x 3) rotz_1_3
  have d17 : (bigSep Finset.univ fun c : Dev nD => (dutyTok ER (v1Cell c 0) 0 (rotq c 7, (0 : Fin 8)) : sProp 𝕄)) = bigSep Finset.univ fun c : Dev nD => dutyTok ER (v1Cell (rotq c 1) 0) 0 (c, (0 : Fin 8)) :=
    deal (fun x p => dutyTok ER (v1Cell x 0) 0 (p, (0 : Fin 8))) (rotqE 1 7 rotq_1_7 rotq_7_1) (fun x => rotq x 7) rotq_1_7
  have d18 : (bigSep Finset.univ fun c : Dev nD => (dutyTok ER (v1Cell c 1) 0 (rotq c 6, (0 : Fin 8)) : sProp 𝕄)) = bigSep Finset.univ fun c : Dev nD => dutyTok ER (v1Cell (rotq c 2) 1) 0 (c, (0 : Fin 8)) :=
    deal (fun x p => dutyTok ER (v1Cell x 1) 0 (p, (0 : Fin 8))) (rotqE 2 6 rotq_2_6 rotq_6_2) (fun x => rotq x 6) rotq_2_6
  have d19 : (bigSep Finset.univ fun c : Dev nD => (dutyTok ER (v1Cell c 2) 0 (rotq c 5, (0 : Fin 8)) : sProp 𝕄)) = bigSep Finset.univ fun c : Dev nD => dutyTok ER (v1Cell (rotq c 3) 2) 0 (c, (0 : Fin 8)) :=
    deal (fun x p => dutyTok ER (v1Cell x 2) 0 (p, (0 : Fin 8))) (rotqE 3 5 rotq_3_5 rotq_5_3) (fun x => rotq x 5) rotq_3_5
  have d20 : (bigSep Finset.univ fun c : Dev nD => (dutyTok ER (v1Cell c 3) 0 (rotq c 4, (0 : Fin 8)) : sProp 𝕄)) = bigSep Finset.univ fun c : Dev nD => dutyTok ER (v1Cell (rotq c 4) 3) 0 (c, (0 : Fin 8)) :=
    deal (fun x p => dutyTok ER (v1Cell x 3) 0 (p, (0 : Fin 8))) (rotqE 4 4 rotq_4_4 rotq_4_4) (fun x => rotq x 4) rotq_4_4
  have d21 : (bigSep Finset.univ fun c : Dev nD => (dutyTok ER (v1Cell c 4) 0 (rotq c 3, (0 : Fin 8)) : sProp 𝕄)) = bigSep Finset.univ fun c : Dev nD => dutyTok ER (v1Cell (rotq c 5) 4) 0 (c, (0 : Fin 8)) :=
    deal (fun x p => dutyTok ER (v1Cell x 4) 0 (p, (0 : Fin 8))) (rotqE 5 3 rotq_5_3 rotq_3_5) (fun x => rotq x 3) rotq_5_3
  have d22 : (bigSep Finset.univ fun c : Dev nD => (dutyTok ER (v1Cell c 5) 0 (rotq c 2, (0 : Fin 8)) : sProp 𝕄)) = bigSep Finset.univ fun c : Dev nD => dutyTok ER (v1Cell (rotq c 6) 5) 0 (c, (0 : Fin 8)) :=
    deal (fun x p => dutyTok ER (v1Cell x 5) 0 (p, (0 : Fin 8))) (rotqE 6 2 rotq_6_2 rotq_2_6) (fun x => rotq x 2) rotq_6_2
  have d23 : (bigSep Finset.univ fun c : Dev nD => (dutyTok ER (v1Cell c 6) 0 (rotq c 1, (0 : Fin 8)) : sProp 𝕄)) = bigSep Finset.univ fun c : Dev nD => dutyTok ER (v1Cell (rotq c 7) 6) 0 (c, (0 : Fin 8)) :=
    deal (fun x p => dutyTok ER (v1Cell x 6) 0 (p, (0 : Fin 8))) (rotqE 7 1 rotq_7_1 rotq_1_7) (fun x => rotq x 1) rotq_7_1
  have d27 : (bigSep Finset.univ fun c : Dev nD => (dutyTok ER (v2Cell c 0) 0 (rotz c 3, (0 : Fin 8)) : sProp 𝕄)) = bigSep Finset.univ fun c : Dev nD => dutyTok ER (v2Cell (rotz c 1) 0) 0 (c, (0 : Fin 8)) :=
    deal (fun x p => dutyTok ER (v2Cell x 0) 0 (p, (0 : Fin 8))) (rotzE 1 3 rotz_1_3 rotz_3_1) (fun x => rotz x 3) rotz_1_3
  have d28 : (bigSep Finset.univ fun c : Dev nD => (dutyTok ER (v2Cell c 1) 0 (rotz c 2, (0 : Fin 8)) : sProp 𝕄)) = bigSep Finset.univ fun c : Dev nD => dutyTok ER (v2Cell (rotz c 2) 1) 0 (c, (0 : Fin 8)) :=
    deal (fun x p => dutyTok ER (v2Cell x 1) 0 (p, (0 : Fin 8))) (rotzE 2 2 rotz_2_2 rotz_2_2) (fun x => rotz x 2) rotz_2_2
  have d29 : (bigSep Finset.univ fun c : Dev nD => (dutyTok ER (v2Cell c 2) 0 (rotz c 1, (0 : Fin 8)) : sProp 𝕄)) = bigSep Finset.univ fun c : Dev nD => dutyTok ER (v2Cell (rotz c 3) 2) 0 (c, (0 : Fin 8)) :=
    deal (fun x p => dutyTok ER (v2Cell x 2) 0 (p, (0 : Fin 8))) (rotzE 3 1 rotz_3_1 rotz_1_3) (fun x => rotz x 1) rotz_3_1
  unfold toks payToks
  simp only [bigSep_sep']
  rw [d0, d1, d2, d3, d4, d5, d6, d7, d8, d9, d17, d18, d19, d20, d21, d22, d23, d27, d28, d29]
  iintro ⟨T0, T1, T2, T3, T4, T5, T6, T7, T8, T9, T10, T11, T12, T13, T14, T15, T16, T17, T18, T19, T20, T21, T22, T23, T24, T25, T26, T27, T28, T29⟩
  isplitl [T6]; · iexact T6
  isplitl [T5]; · iexact T5
  isplitl [T4]; · iexact T4
  isplitl [T3]; · iexact T3
  isplitl [T2]; · iexact T2
  isplitl [T1]; · iexact T1
  isplitl [T0]; · iexact T0
  isplitl [T9]; · iexact T9
  isplitl [T8]; · iexact T8
  isplitl [T7]; · iexact T7
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T27]; · iexact T27
  isplitl [T28]; · iexact T28
  isplitl [T29]; · iexact T29
  isplitl [T24]; · iexact T24
  isplitl [T25]; · iexact T25
  iexact T26

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd K) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' K) := by
  rw [bigSep_sep', bigSep_sep', bigSep_sep', ← bigSep_univ_prod (fun ck : Dev nD × Fin 22 => iprop(∃ κ : ℕ, cellInv ER (Rd K) κ (kcell ck))),
    bigSep_congr (s := Finset.univ) (fun (c : Dev nD) _ => bigSep_sep' Finset.univ (fun k : Fin 22 => (atPos ER (kcell (c, k)) 0 ∅ 0 : sProp 𝕄)) (fun k => reached ER (kcell (c, k)) 0)),
    bigSep_sep', ← bigSep_univ_prod (fun ck : Dev nD × Fin 22 => (reached ER (kcell ck) 0 : sProp 𝕄))]
  iintro ⟨HI, ⟨Hat, #HR⟩, Htok, Hidle⟩
  ihave HK := (BI.bigSep_exists_pi Finset.univ (fun (ck : Dev nD × Fin 22) (κ : ℕ) => (cellInv ER (Rd K) κ (kcell ck) : sProp 𝕄))) $$ HI
  icases HK with ⟨%κ, #HI⟩
  ihave Htk := (toks_around (F := F)) $$ Htok
  unfold G'
  rw [bigSep_sep']
  isplitr [Hidle]
  · iapply (bigSep_with_persistent (R := records K κ) fun c _ => ghost_intro K κ c)
    isplitr
    · unfold records; isplitl; · iexact HI
      iexact HR
    · iapply ((Entails.of_eq (bigSep_sep' Finset.univ (fun c : Dev nD => bigSep Finset.univ fun k : Fin 22 => (atPos ER (kcell (c, k)) 0 ∅ 0 : sProp 𝕄)) payToks).symm).trans
        (bigSep_mono fun c _ => linear_intro c))
      isplitl [Hat]; · iexact Hat
      iexact Htk
  · iexact Hidle

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G K c) : sProp 𝕄)
    ⊢ |={Set.univ}=> bigSep Finset.univ (G' K) :=
  ((bigSep_mono fun c _ => core_alloc K c).trans (bigSep_fupd _ _)).trans (BI.fupd_mono (regroup K))

end Cert.KernelIdeal.Hand
end

/-- info: 'Cert.KernelIdeal.Hand.glob' depends on axioms: [propext, Classical.choice, Quot.sound] -/
#guard_msgs in #print axioms Cert.KernelIdeal.Hand.glob
-- ==== Proof.Launch.lean ====
import proofs.«900450_g7700000000000451_dist_matmul_mk_i_outk_m512_n512_k256_v7x_i32_f32_1_alg».proof.Proof.LaunchAlloc

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Cont F)
variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats K m ρ 0 c).share w = fullShare := by unfold Dat.share; split <;> rfl

/-! ## The launch credit: each waited cell's credit is the sum over the payers of what they owe it -/

omit [FloatOps F] in
theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] in
theorem creds_intro (c : Dev nD) : (Pipeline.launchCred O₀ c : sProp 𝕄) ⊢ creds c := by
  rw [show (O₀ : Dev nD → CellTallies nD τ sig Unit) = fun d => 0 + tallyAt (v2Cell (rotz d 3) 2) () N2 + tallyAt (v2Cell (rotz d 2) 1) () N2 + tallyAt (v2Cell (rotz d 1) 0) () N2 + tallyAt (v1Cell (rotq d 7) 6) () N1 + tallyAt (v1Cell (rotq d 6) 5) () N1 + tallyAt (v1Cell (rotq d 5) 4) () N1 + tallyAt (v1Cell (rotq d 4) 3) () N1 + tallyAt (v1Cell (rotq d 3) 2) () N1 + tallyAt (v1Cell (rotq d 2) 1) () N1 + tallyAt (v1Cell (rotq d 1) 0) () N1 + tallyAt (zrCell (rotz d 3)) () 1 + tallyAt (zrCell (rotz d 2)) () 1 + tallyAt (zrCell (rotz d 1)) () 1 + tallyAt (barCell (rotq d 7)) () 1 + tallyAt (barCell (rotq d 6)) () 1 + tallyAt (barCell (rotq d 5)) () 1 + tallyAt (barCell (rotq d 4)) () 1 + tallyAt (barCell (rotq d 3)) () 1 + tallyAt (barCell (rotq d 2)) () 1 + tallyAt (barCell (rotq d 1)) () 1 from rfl]
  simp only [Pipeline.launchCred_add, Pipeline.launchCred_zero]
  iintro ⟨⟨⟨⟨⟨⟨⟨⟨⟨⟨⟨⟨⟨⟨⟨⟨⟨⟨⟨⟨-, V2c⟩, V2b⟩, V2a⟩, V1_6⟩, V1_5⟩, V1_4⟩, V1_3⟩, V1_2⟩, V1_1⟩, V1_0⟩, Z3⟩, Z2⟩, Z1⟩, B7⟩, B6⟩, B5⟩, B4⟩, B3⟩, B2⟩, B1⟩
  ihave V2c' := (Pipeline.launchCred_tallyAt (SemLoc.dma (v2S 2)) (fun d => rotz d 3) (fun d => rotz d 1) rotz_1_3 rotz_3_1 () N2 c) $$ V2c
  ihave V2b' := (Pipeline.launchCred_tallyAt (SemLoc.dma (v2S 1)) (fun d => rotz d 2) (fun d => rotz d 2) rotz_2_2 rotz_2_2 () N2 c) $$ V2b
  ihave V2a' := (Pipeline.launchCred_tallyAt (SemLoc.dma (v2S 0)) (fun d => rotz d 1) (fun d => rotz d 3) rotz_3_1 rotz_1_3 () N2 c) $$ V2a
  ihave V1_6' := (Pipeline.launchCred_tallyAt (SemLoc.dma (v1S 6)) (fun d => rotq d 7) (fun d => rotq d 1) rotq_1_7 rotq_7_1 () N1 c) $$ V1_6
  ihave V1_5' := (Pipeline.launchCred_tallyAt (SemLoc.dma (v1S 5)) (fun d => rotq d 6) (fun d => rotq d 2) rotq_2_6 rotq_6_2 () N1 c) $$ V1_5
  ihave V1_4' := (Pipeline.launchCred_tallyAt (SemLoc.dma (v1S 4)) (fun d => rotq d 5) (fun d => rotq d 3) rotq_3_5 rotq_5_3 () N1 c) $$ V1_4
  ihave V1_3' := (Pipeline.launchCred_tallyAt (SemLoc.dma (v1S 3)) (fun d => rotq d 4) (fun d => rotq d 4) rotq_4_4 rotq_4_4 () N1 c) $$ V1_3
  ihave V1_2' := (Pipeline.launchCred_tallyAt (SemLoc.dma (v1S 2)) (fun d => rotq d 3) (fun d => rotq d 5) rotq_5_3 rotq_3_5 () N1 c) $$ V1_2
  ihave V1_1' := (Pipeline.launchCred_tallyAt (SemLoc.dma (v1S 1)) (fun d => rotq d 2) (fun d => rotq d 6) rotq_6_2 rotq_2_6 () N1 c) $$ V1_1
  ihave V1_0' := (Pipeline.launchCred_tallyAt (SemLoc.dma (v1S 0)) (fun d => rotq d 1) (fun d => rotq d 7) rotq_7_1 rotq_1_7 () N1 c) $$ V1_0
  ihave Z3' := (Pipeline.launchCred_tallyAt (SemLoc.reg zrS) (fun d => rotz d 3) (fun d => rotz d 1) rotz_1_3 rotz_3_1 () 1 c) $$ Z3
  ihave Z2' := (Pipeline.launchCred_tallyAt (SemLoc.reg zrS) (fun d => rotz d 2) (fun d => rotz d 2) rotz_2_2 rotz_2_2 () 1 c) $$ Z2
  ihave Z1' := (Pipeline.launchCred_tallyAt (SemLoc.reg zrS) (fun d => rotz d 1) (fun d => rotz d 3) rotz_3_1 rotz_1_3 () 1 c) $$ Z1
  ihave B7' := (Pipeline.launchCred_tallyAt (SemLoc.reg barS) (fun d => rotq d 7) (fun d => rotq d 1) rotq_1_7 rotq_7_1 () 1 c) $$ B7
  ihave B6' := (Pipeline.launchCred_tallyAt (SemLoc.reg barS) (fun d => rotq d 6) (fun d => rotq d 2) rotq_2_6 rotq_6_2 () 1 c) $$ B6
  ihave B5' := (Pipeline.launchCred_tallyAt (SemLoc.reg barS) (fun d => rotq d 5) (fun d => rotq d 3) rotq_3_5 rotq_5_3 () 1 c) $$ B5
  ihave B4' := (Pipeline.launchCred_tallyAt (SemLoc.reg barS) (fun d => rotq d 4) (fun d => rotq d 4) rotq_4_4 rotq_4_4 () 1 c) $$ B4
  ihave B3' := (Pipeline.launchCred_tallyAt (SemLoc.reg barS) (fun d => rotq d 3) (fun d => rotq d 5) rotq_5_3 rotq_3_5 () 1 c) $$ B3
  ihave B2' := (Pipeline.launchCred_tallyAt (SemLoc.reg barS) (fun d => rotq d 2) (fun d => rotq d 6) rotq_6_2 rotq_2_6 () 1 c) $$ B2
  ihave B1' := (Pipeline.launchCred_tallyAt (SemLoc.reg barS) (fun d => rotq d 1) (fun d => rotq d 7) rotq_7_1 rotq_1_7 () 1 c) $$ B1
  ihave X2 := (cred_join (F := F) (barCell c) 1 1) $$ [B1' B2']
  · isplitl [B1'] <;> iassumption
  ihave X3 := (cred_join (F := F) (barCell c) 2 1) $$ [X2 B3']
  · isplitl [X2] <;> iassumption
  ihave X4 := (cred_join (F := F) (barCell c) 3 1) $$ [X3 B4']
  · isplitl [X3] <;> iassumption
  ihave X5 := (cred_join (F := F) (barCell c) 4 1) $$ [X4 B5']
  · isplitl [X4] <;> iassumption
  ihave X6 := (cred_join (F := F) (barCell c) 5 1) $$ [X5 B6']
  · isplitl [X5] <;> iassumption
  ihave X7 := (cred_join (F := F) (barCell c) 6 1) $$ [X6 B7']
  · isplitl [X6] <;> iassumption
  ihave Y2 := (cred_join (F := F) (zrCell c) 1 1) $$ [Z1' Z2']
  · isplitl [Z1'] <;> iassumption
  ihave Y3 := (cred_join (F := F) (zrCell c) 2 1) $$ [Y2 Z3']
  · isplitl [Y2] <;> iassumption
  unfold creds
  isplitl [X7]; · iexact X7
  isplitl [Y3]; · iexact Y3
  isplitl [V1_0']; · iexact V1_0'
  isplitl [V1_1']; · iexact V1_1'
  isplitl [V1_2']; · iexact V1_2'
  isplitl [V1_3']; · iexact V1_3'
  isplitl [V1_4']; · iexact V1_4'
  isplitl [V1_5']; · iexact V1_5'
  isplitl [V1_6']; · iexact V1_6'
  isplitl [V2a']; · iexact V2a'
  isplitl [V2b']; · iexact V2b'
  iexact V2c'

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' K c)
      ⊢ |={Set.univ}=> iprop(start K c ∗ emp) := by
  iintro ⟨-, Hlev, Hcr, -, HG⟩
  ihave Hc := (creds_intro (F := F) c) $$ Hcr
  unfold G'
  icases HG with ⟨HG, Hidle⟩
  imodintro
  unfold start
  isplitl
  · isplitl [HG]; · iexact HG
    isplitl [Hc]; · iexact Hc
    isplitl [Hlev]; · iexact Hlev
    iexact Hidle
  · iempintro

theorem phi0_intro (c : Dev nD) :
    iprop(start K c ∗ Pipeline.prefHeld Pipeline.Prefetch.none c (fun _ => fullShare.right) (fun k => k.elim0) ∗ Pipeline.scopedRest cfg0.spec c)
      ⊢ (dats K m ρ 0 c).Φ 0 := by
  rw [show (dats K m ρ 0 c).Φ 0 = Φ₀ K c from rfl, scopedRest0_eq]
  unfold Φ₀ scr
  iintro ⟨Hs, -, Hr⟩
  isplitl [Hs]; · iexact Hs
  iexact Hr

theorem phi1_exit (c : Dev nD) :
    (dats K m ρ 0 c).Φ (Fin.last cfg0.N) ⊢ iprop(emp ∗ Pipeline.ownSems0 osem c ∗ Pipeline.scopedRest cfg0.spec c) := by
  rw [show (dats K m ρ 0 c).Φ (Fin.last cfg0.N) = Φ₁ c from rfl, scopedRest0_eq, ownSems0_eq]
  unfold Φ₁ scr closed idle
  iintro ⟨Hr, ⟨Z0, Z1, Z2, Z3, Z4, Z5, Z6, Z7, Z8, Z9, Z10, Z11, Z12, Z13, Z14, Z15, Z16, Z17, Z18, Z19, Z20⟩, I0, I1, I2, I3⟩
  isplitr; · iempintro
  isplitr [Hr]
  · isplitl [Z0]; · iexact Z0
    isplitl [I0]; · iexact I0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [I1]; · iexact I1
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [I2]; · iexact I2
    isplitl [Z15]; · iexact Z15
    isplitl [Z16]; · iexact Z16
    isplitl [Z17]; · iexact Z17
    isplitl [I3]; · iexact I3
    isplitl [Z18]; · iexact Z18
    isplitl [Z19]; · iexact Z19
    iexact Z20
  iexact Hr

theorem waits (c : Dev nD) : (levAts L lv : sProp 𝕄) ⊢ Pipeline.cellsWaits cfgs (dats K m ρ) () 0 c :=
  Pipeline.cellsWaits_intro cfgs (dats K m ρ) () 0 c fun w s t =>
    mayWait_of_above c _ (by
      have h0 : lv ((c : Thread nD τ), SemLoc.dma ((cfg0.win w).sem s)) () = 0 := by fin_cases w <;> fin_cases s <;> rfl
      rw [h0]
      rcases t with ⟨_ | _, ht⟩
      · exact above_O₀ c
      · exact above_zero 0)

/-! ## The run -/

set_option maxRecDepth 8000 in
/-- At the compiled mesh of 32 devices, for any float values, from any memory with zero counters: given each device's body, every weakly
    fair execution of @main terminates, and every final state has each window's array at what the proof data computes. -/
theorem run_main (hbody : ∀ c : Dev nD, BodyObligation (dats K m ρ 0 c) (defs₀ (F := F)) 𝒱₀ () Set.univ) :
    θ_run defs (onTc (τ := τ) (main (F := F))) (s₀ m ρ)
      (fun r => ∀ (c : Dev nD) (w : Fin cfg0.W), r.2.mem ((cfg0.win w).arr.view.loc (c : Thread nD τ)) = (dats K m ρ 0 c).arrAt w cfg0.N) :=
  Pipeline.θ_run_region_owing_glob_pf (fun p => (cfgs p).toPCfg) (fun p => (cfgs p).toPCfg_adm) (dats K m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq K m ρ)
    (hdistinct := winFacts0.arr_inj)
    (O₀ := O₀) (howed₀ := fun _ => rfl) (howedN := fun _ => rfl)
    (L := L) (lv := lv) (hL := L_of_ne) (hwaits := waits K m ρ)
    (G := G K) (G' := G' K) (u₀ := u₀)
    (hu₀ := by
      unfold u₀
      iintro Hu
      ihave H := (ownU_pair _ _) $$ Hu
      icases H with ⟨HP, HX⟩
      imod (fund_ring K) $$ HX with HG
      imodintro
      isplitl [HP] <;> iassumption)
    (hglob := glob K)
    (hA := fun _ _ => rfl) (hpf := fun _ k => k.elim0)
    (X := start K) (Y := fun _ => iprop(emp)) (Z := fun _ => iprop(emp))
    (hX := start_intro K m ρ) (hin := phi0_intro K m ρ) (hout := phi1_exit K m ρ)
    (QY := fun _ _ => True)
    (hY := fun c s' => by
      iintro ⟨-, -, HSI⟩
      imodintro
      isplitr; · ipureintro; trivial
      iexact HSI)
    (hQ := fun _ h c w => (h c).1 w)

/-! ## The final arrays -/

theorem final_arg0 (c : Dev nD) : (dats K m ρ 0 c).arrAt (0 : Fin 3) cfg0.N = m ((c : Thread nD τ).loc main_arg0) :=
  (dats K m ρ 0 c).arrAt_in (0 : Fin 3) rfl _
theorem final_arg1 (c : Dev nD) : (dats K m ρ 0 c).arrAt (1 : Fin 3) cfg0.N = m ((c : Thread nD τ).loc main_arg1) :=
  (dats K m ρ 0 c).arrAt_in (1 : Fin 3) rfl _

/-- The result array is written once, whole, with what the body leaves in its staging buffer. -/
theorem final_out (c : Dev nD) : (dats K m ρ 0 c).arrAt (2 : Fin 3) cfg0.N = K.out c := by
  have h := (dats K m ρ 0 c).arrAt_succ (2 : Fin 3) t0_0
  rw [flush0_2, if_pos rfl] at h
  show (dats K m ρ 0 c).arrAt (2 : Fin 3) (t0_0.val + 1) = _
  rw [h]
  exact Memref.write_access_unit_zero_univ (Elt F) main_v1 (funext fun a => Nat.zero_mul _) _ _ _

/-- The run with its post read at the three arrays: the result array holds `K.out`, the argument arrays are unchanged. -/
theorem run_post (hbody : ∀ c : Dev nD, BodyObligation (dats K m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = K.out c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (final_out K m ρ c), (h c 0).trans (final_arg0 K m ρ c), (h c 1).trans (final_arg1 K m ρ c)⟩)
    (run_main K m ρ hbody)

end Cert.KernelIdeal.Hand
end

/-- info: 'Cert.KernelIdeal.Hand.run_main' depends on axioms: [propext, Classical.choice, Quot.sound] -/
#guard_msgs in #print axioms Cert.KernelIdeal.Hand.run_main

/-- info: 'Cert.KernelIdeal.Hand.run_post' depends on axioms: [propext, Classical.choice, Quot.sound] -/
#guard_msgs in #print axioms Cert.KernelIdeal.Hand.run_post
-- ==== Proof.KOf.lean ====
/- The values the schedule promises, built from the launch memory: what each in-plane transfer carries, what each
   cross-plane transfer carries, and each device's result block; and the proof that every device's body computes
   exactly these, whatever its buffers held before and whatever its receive buffers hold outside the slots. -/
import proofs.«900450_g7700000000000451_dist_matmul_mk_i_outk_m512_n512_k256_v7x_i32_f32_1_alg».proof.Proof.Terms
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem

variable {F : FTy → Type} [FloatOps F]

/-! ## The terms with the received arrays as parameters -/

/-- The store of the in-plane sum, given the seven received blocks as one array. -/
def acc1Lv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) : List (View.Piece (Elt F) S4x16x512 .f32) :=
  [⟨Rect.unit (s := S4x16x512) ![0, 0, 0] S4x16x512.size inb_S4x16x512_S4x16x512_0_0_0,
    k0_pay41 (own0 c la lb f0) (own1 c la lb f0) (own2 c la lb f0) (own3 c la lb f0) w1⟩]
def acc2Lv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) : List (View.Piece (Elt F) S4x16x512 .bf16) :=
  [⟨Rect.unit (s := S4x16x512) ![0, 0, 0] S4x16x512.size inb_S4x16x512_S4x16x512_0_0_0,
    k0_pay42 (own0 c la lb f0) (own1 c la lb f0) (own2 c la lb f0) (own3 c la lb f0) w1⟩]

theorem acc1L_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) : acc1L c la lb f0 g1 = acc1Lv c la lb f0 (r1Load g1) := rfl
theorem acc2L_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) : acc2L c la lb f0 g1 = acc2Lv c la lb f0 (r1Load g1) := rfl

/-- The own plane's slice of the in-plane sum, read back. -/
def accLoadv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) (f1 : (Memref.whole cc0_scratch3 : Memref sig .tc .vmem S4x16x512 .f32).view.ty.Contents (Elt F)) : Vec F S1x16x512 .f32 :=
  View.readAt (Elt F) (Memref.whole cc0_scratch3 : Memref sig .tc .vmem S4x16x512 .f32).view (Rect.unit (s := S4x16x512) (k0_off4 c) S1x16x512.size (k0_off4_inb c)).toLoadRect
    ((Memref.whole cc0_scratch3 : Memref sig .tc .vmem S4x16x512 .f32).view.writes (Elt F) f1 (acc1Lv c la lb f0 w1))

theorem accLoad_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) (f1 : (Memref.whole cc0_scratch3 : Memref sig .tc .vmem S4x16x512 .f32).view.ty.Contents (Elt F)) :
    accLoad c la lb f0 g1 f1 = accLoadv c la lb f0 (r1Load g1) f1 := rfl

/-- The store of the result, given both received arrays. -/
def outLv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) (f1 : (Memref.whole cc0_scratch3 : Memref sig .tc .vmem S4x16x512 .f32).view.ty.Contents (Elt F)) (w2 : Vec F S3x16x512 .bf16) :
    List (View.Piece (Elt F) S16x512 .f32) :=
  [⟨Rect.unit (s := S16x512) ![0, 0] S16x512.size inb_S16x512_S16x512_0_0, k0_pay43 (accLoadv c la lb f0 w1 f1) w2⟩]

theorem outL_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) (f1 : (Memref.whole cc0_scratch3 : Memref sig .tc .vmem S4x16x512 .f32).view.ty.Contents (Elt F)) (g2 : (Memref.whole cc0_scratch5 : Memref sig .tc .vmem S4x16x512 .bf16).view.ty.Contents (Elt F)) :
    outL c la lb f0 g1 f1 g2 = outLv c la lb f0 (r1Load g1) f1 (r2Load g2) := rfl

/-! ## The slots, with the slot number a variable -/

theorem slot1_inb (r : Fin 7) : ∀ a, (![1 + r.val, 0, 0, 0] : Fin 4 → Nat) a + S1x4x16x512.size a ≤ S8x4x16x512.size a := by
  revert r; decide
theorem slot2_inb (r : Fin 3) : ∀ a, (![1 + r.val, 0, 0] : Fin 3 → Nat) a + S1x16x512.size a ≤ S4x16x512.size a := by
  revert r; decide

/-- Slot `r + 1` of the in-plane receive buffer (for each of the seven `r` this is `slot1 r`). -/
def slot1V (r : Fin 7) : Memref sig .tc .vmem S4x16x512 .bf16 :=
  ((Memref.whole cc0_scratch2 : Memref sig .tc .vmem S8x4x16x512 .bf16).slice (Rect.unit (s := S8x4x16x512) ![1 + r.val, 0, 0, 0] S1x4x16x512.size (slot1_inb r)) (fun _ => rfl)).squeeze S4x16x512 squeezes_S1x4x16x512_S4x16x512
/-- Slot `r + 1` of the cross-plane receive buffer (`slot2 r`). -/
def slot2V (r : Fin 3) : Memref sig .tc .vmem S16x512 .bf16 :=
  ((Memref.whole cc0_scratch5 : Memref sig .tc .vmem S4x16x512 .bf16).slice (Rect.unit (s := S4x16x512) ![1 + r.val, 0, 0] S1x16x512.size (slot2_inb r)) (fun _ => rfl)).squeeze S16x512 squeezes_S1x16x512_S16x512
/-- The slice of the in-plane sum device `c` sends with its cross-plane transfer `r` (`src2 c r`). -/
def src2V (c : Dev nD) (r : Fin 3) : Memref sig .tc .vmem S16x512 .bf16 :=
  ((Memref.whole cc0_scratch4 : Memref sig .tc .vmem S4x16x512 .bf16).slice (Rect.unit (s := S4x16x512) (k0_off3 c (BitVec.ofNat 32 (1 + r.val))) S1x16x512.size (k0_off3_inb c r)) (fun _ => rfl)).squeeze S16x512 squeezes_S1x16x512_S16x512

theorem slot1_eq (r : Fin 7) : slot1 r = slot1V r := by
  match r with
  | 0 => rfl
  | 1 => rfl
  | 2 => rfl
  | 3 => rfl
  | 4 => rfl
  | 5 => rfl
  | 6 => rfl
theorem slot2_eq (r : Fin 3) : slot2 r = slot2V r := by
  match r with
  | 0 => rfl
  | 1 => rfl
  | 2 => rfl
theorem src2_eq (c : Dev nD) (r : Fin 3) : src2 c r = src2V c r := by
  match r with
  | 0 => rfl
  | 1 => rfl
  | 2 => rfl

/-- Seven blocks of four slices as one array. -/
def joinV1 (v : Fin 7 → FVec F S4x16x512 .bf16) : Vec F S7x4x16x512 .bf16 := fun y => v (y 0) (ix3 (y 1) (y 2) (y 3))
/-- Three slices as one array. -/
def joinV2 (v : Fin 3 → FVec F S16x512 .bf16) : Vec F S3x16x512 .bf16 := fun y => v (y 0) (ix2 (y 1) (y 2))

/-- The array read of the in-plane receive buffer sees only its slots. -/
theorem r1Load_eq (g1 : (Memref.whole cc0_scratch2 : Memref sig .tc .vmem S8x4x16x512 .bf16).view.ty.Contents (Elt F)) (v : Fin 7 → FVec F S4x16x512 .bf16)
    (h : ∀ r : Fin 7, (slot1V r).view.read (Elt F) g1 = v r) : r1Load g1 = joinV1 v := by
  funext y
  unfold joinV1
  rw [← h (y 0)]
  unfold r1Load slot1V
  show (Memref.whole cc0_scratch2 : Memref sig .tc .vmem S8x4x16x512 .bf16).view.read (Elt F) g1 _ = (Memref.whole cc0_scratch2 : Memref sig .tc .vmem S8x4x16x512 .bf16).view.read (Elt F) g1
    ((Rect.unit (s := S8x4x16x512) ![1 + (y 0).val, 0, 0, 0] S1x4x16x512.size (slot1_inb (y 0))).emb
      (Shape.reshapeEquiv squeezes_S1x4x16x512_S4x16x512.numel_eq (ix3 (y 1) (y 2) (y 3))))
  have hre : Shape.reshapeEquiv squeezes_S1x4x16x512_S4x16x512.numel_eq (ix3 (y 1) (y 2) (y 3))
      = ix4 (⟨0, Nat.one_pos⟩ : Fin 1) (y 1) (y 2) (y 3) := reshapeEquiv_ix3_1abc _ (y 1) (y 2) (y 3)
  rw [hre]
  refine congrArg ((Memref.whole cc0_scratch2 : Memref sig .tc .vmem S8x4x16x512 .bf16).view.read (Elt F) g1) (funext fun a => Fin.ext ?_)
  match a with
  | ⟨0, _⟩ =>
    show 1 + 1 * (y 0).val = (1 + (y 0).val) + 1 * 0
    omega
  | ⟨1, _⟩ => rfl
  | ⟨2, _⟩ => rfl
  | ⟨3, _⟩ => rfl

/-- The array read of the cross-plane receive buffer sees only its slots. -/
theorem r2Load_eq (g2 : (Memref.whole cc0_scratch5 : Memref sig .tc .vmem S4x16x512 .bf16).view.ty.Contents (Elt F)) (v : Fin 3 → FVec F S16x512 .bf16)
    (h : ∀ r : Fin 3, (slot2V r).view.read (Elt F) g2 = v r) : r2Load g2 = joinV2 v := by
  funext y
  unfold joinV2
  rw [← h (y 0)]
  unfold r2Load slot2V
  show (Memref.whole cc0_scratch5 : Memref sig .tc .vmem S4x16x512 .bf16).view.read (Elt F) g2 _ = (Memref.whole cc0_scratch5 : Memref sig .tc .vmem S4x16x512 .bf16).view.read (Elt F) g2
    ((Rect.unit (s := S4x16x512) ![1 + (y 0).val, 0, 0] S1x16x512.size (slot2_inb (y 0))).emb
      (Shape.reshapeEquiv squeezes_S1x16x512_S16x512.numel_eq (ix2 (y 1) (y 2))))
  have hre : Shape.reshapeEquiv squeezes_S1x16x512_S16x512.numel_eq (ix2 (y 1) (y 2))
      = ix3 (⟨0, Nat.one_pos⟩ : Fin 1) (y 1) (y 2) := reshapeEquiv_ix2_1ab _ (y 1) (y 2)
  rw [hre]
  refine congrArg ((Memref.whole cc0_scratch5 : Memref sig .tc .vmem S4x16x512 .bf16).view.read (Elt F) g2) (funext fun a => Fin.ext ?_)
  match a with
  | ⟨0, _⟩ =>
    show 1 + 1 * (y 0).val = (1 + (y 0).val) + 1 * 0
    omega
  | ⟨1, _⟩ => rfl
  | ⟨2, _⟩ => rfl

/-! ## Nothing read depends on what a buffer held before a store that covers it -/

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A load after stores that cover the buffer does not see the earlier contents. -/
theorem readAt_writes_indep {κ : Kind} {sp : Space} {s : Shape} {e : EltTy} (v : View sig κ sp s e) (B : LoadRect s)
    (L : List (View.Piece (Elt F) s e)) (hc : ∀ y : s.Idx, ∃ p ∈ L, y ∈ p.1.set) (f f' : v.ty.Contents (Elt F)) :
    v.readAt (Elt F) B (v.writes (Elt F) f L) = v.readAt (Elt F) B (v.writes (Elt F) f' L) := by
  funext y
  rw [View.readAt_apply, View.readAt_apply, View.read_writes_apply_eq_canon v f _ L (hc _),
    View.read_writes_apply_eq_canon v f' _ L (hc _)]

/-- A read through a squeezed slice after stores that cover the buffer does not see the earlier contents. -/
theorem read_sq_indep {s s' : Shape} {e : EltTy} (W : Memref sig .tc .vmem s e) (R : Rect s) (hR : ∀ a, R.stride a = 1)
    (hq : R.shape.Squeezes s') (L : List (View.Piece (Elt F) s e)) (hc : ∀ y : s.Idx, ∃ p ∈ L, y ∈ p.1.set)
    (f f' : W.view.ty.Contents (Elt F)) :
    ((W.slice R hR).squeeze s' hq).view.read (Elt F) (W.view.writes (Elt F) f L)
      = ((W.slice R hR).squeeze s' hq).view.read (Elt F) (W.view.writes (Elt F) f' L) := by
  funext y
  show W.view.read (Elt F) _ (R.emb (Shape.reshapeEquiv hq.numel_eq y)) = W.view.read (Elt F) _ (R.emb (Shape.reshapeEquiv hq.numel_eq y))
  rw [View.read_writes_apply_eq_canon _ f _ L (hc _), View.read_writes_apply_eq_canon _ f' _ L (hc _)]

theorem partL_cover (la : Vec F S512x256 .f32) (lb : Vec F S256x512 .f32) :
    ∀ y : S512x512.Idx, ∃ p ∈ partL (F := F) la lb, y ∈ p.1.set :=
  fun y => ⟨_, List.mem_singleton.2 rfl, View.mem_set_unit_zero (S := S512x512) hz2 inb_S512x512_S512x512_0_0 y⟩

section
variable (c : Dev nD) (la : Vec F S512x256 .f32) (lb : Vec F S256x512 .f32) (f0 f0' : (Memref.whole cc0_scratch0 : Memref sig .tc .vmem S512x512 .f32).view.ty.Contents (Elt F))

theorem own0_indep : own0 c la lb f0 = own0 c la lb f0' := readAt_writes_indep _ _ _ (partL_cover la lb) f0 f0'
theorem own1_indep : own1 c la lb f0 = own1 c la lb f0' := readAt_writes_indep _ _ _ (partL_cover la lb) f0 f0'
theorem own2_indep : own2 c la lb f0 = own2 c la lb f0' := readAt_writes_indep _ _ _ (partL_cover la lb) f0 f0'
theorem own3_indep : own3 c la lb f0 = own3 c la lb f0' := readAt_writes_indep _ _ _ (partL_cover la lb) f0 f0'

theorem acc1Lv_indep (w1 : Vec F S7x4x16x512 .bf16) : acc1Lv c la lb f0 w1 = acc1Lv c la lb f0' w1 := by
  unfold acc1Lv
  rw [own0_indep c la lb f0 f0', own1_indep c la lb f0 f0', own2_indep c la lb f0 f0', own3_indep c la lb f0 f0']
theorem acc2Lv_indep (w1 : Vec F S7x4x16x512 .bf16) : acc2Lv c la lb f0 w1 = acc2Lv c la lb f0' w1 := by
  unfold acc2Lv
  rw [own0_indep c la lb f0 f0', own1_indep c la lb f0 f0', own2_indep c la lb f0 f0', own3_indep c la lb f0 f0']

theorem acc1Lv_cover (w1 : Vec F S7x4x16x512 .bf16) : ∀ y : S4x16x512.Idx, ∃ p ∈ acc1Lv c la lb f0 w1, y ∈ p.1.set :=
  fun y => ⟨_, List.mem_singleton.2 rfl, View.mem_set_unit_zero (S := S4x16x512) hz3 inb_S4x16x512_S4x16x512_0_0_0 y⟩
theorem acc2Lv_cover (w1 : Vec F S7x4x16x512 .bf16) : ∀ y : S4x16x512.Idx, ∃ p ∈ acc2Lv c la lb f0 w1, y ∈ p.1.set :=
  fun y => ⟨_, List.mem_singleton.2 rfl, View.mem_set_unit_zero (S := S4x16x512) hz3 inb_S4x16x512_S4x16x512_0_0_0 y⟩

theorem accLoadv_indep (w1 : Vec F S7x4x16x512 .bf16) (f1 f1' : (Memref.whole cc0_scratch3 : Memref sig .tc .vmem S4x16x512 .f32).view.ty.Contents (Elt F)) :
    accLoadv c la lb f0 w1 f1 = accLoadv c la lb f0' w1 f1' := by
  unfold accLoadv
  rw [acc1Lv_indep c la lb f0 f0' w1]
  exact readAt_writes_indep _ _ _ (acc1Lv_cover c la lb f0' w1) f1 f1'

theorem outLv_indep (w1 : Vec F S7x4x16x512 .bf16) (f1 f1' : (Memref.whole cc0_scratch3 : Memref sig .tc .vmem S4x16x512 .f32).view.ty.Contents (Elt F)) (w2 : Vec F S3x16x512 .bf16) :
    outLv c la lb f0 w1 f1 w2 = outLv c la lb f0' w1 f1' w2 := by
  unfold outLv
  rw [accLoadv_indep c la lb f0 f0' w1 f1 f1']

/-- A store of the whole result block replaces whatever the block held. -/
theorem out_writes_indep (w : S16x512.Idx → Elt F .f32) (o0 o0' : (Memref.whole cc0_stg2_0 : Memref sig .tc .vmem S16x512 .f32).view.ty.Contents (Elt F)) :
    (Memref.whole cc0_stg2_0 : Memref sig .tc .vmem S16x512 .f32).view.writes (Elt F) o0 [⟨Rect.unit (s := S16x512) ![0, 0] S16x512.size inb_S16x512_S16x512_0_0, w⟩]
      = (Memref.whole cc0_stg2_0 : Memref sig .tc .vmem S16x512 .f32).view.writes (Elt F) o0' [⟨Rect.unit (s := S16x512) ![0, 0] S16x512.size inb_S16x512_S16x512_0_0, w⟩] :=
  (Memref.write_access_unit_zero_univ (Elt F) cc0_stg2_0 hz2 inb_S16x512_S16x512_0_0 o0 w).trans
    (Memref.write_access_unit_zero_univ (Elt F) cc0_stg2_0 hz2 inb_S16x512_S16x512_0_0 o0' w).symm
end

/-! ## The promised values, and that every body computes them -/

variable (m : (ℓ : Loc nD τ sig) → Buf (Elt F) ℓ) (ρ : Dev nD → PrngReg)

/-- What lands in slot `s + 1` of device `x`'s cross-plane receive buffer: the slice for `x`'s plane of the in-plane sum
    of the sender, the device at `x`'s place `3 - s` planes on (whose transfer `s` is addressed `s + 1` planes on). -/
def v2Of (x : Dev nD) (s : Fin 3) : FVec F S16x512 .bf16 :=
  (src2V (rotz x (3 - s.val)) s).view.read (Elt F)
    ((Memref.whole cc0_scratch4 : Memref sig .tc .vmem S4x16x512 .bf16).view.writes (Elt F) (Memref.whole cc0_scratch4 : Memref sig .tc .vmem S4x16x512 .bf16).view.junk
      (acc2Lv (rotz x (3 - s.val)) (laOf (aC m ρ (rotz x (3 - s.val)))) (lbOf (bC m ρ (rotz x (3 - s.val))))
        (Memref.whole cc0_scratch0 : Memref sig .tc .vmem S512x512 .f32).view.junk (joinV1 (v1Of m ρ (rotz x (3 - s.val))))))

/-- Device `c`'s result block. -/
def outK (c : Dev nD) : Buf (Elt F) ((c : Thread nD τ).loc cc0_stg2_0) :=
  (Memref.whole cc0_stg2_0 : Memref sig .tc .vmem S16x512 .f32).view.writes (Elt F) (Memref.whole cc0_stg2_0 : Memref sig .tc .vmem S16x512 .f32).view.junk
    (outLv c (laOf (aC m ρ c)) (lbOf (bC m ρ c)) (Memref.whole cc0_scratch0 : Memref sig .tc .vmem S512x512 .f32).view.junk (joinV1 (v1Of m ρ c)) (Memref.whole cc0_scratch3 : Memref sig .tc .vmem S4x16x512 .f32).view.junk (joinV2 (v2Of m ρ c)))

/-- The schedule's values, from the launch memory. -/
def KOf : Cont F := ⟨v1Of m ρ, v2Of m ρ, outK m ρ⟩

theorem rotz_back : ∀ (c : Dev nD) (r : Fin 3), rotz (rotz c (r.val + 1)) (3 - r.val) = c := by decide

theorem hv2 (c : Dev nD) (r : Fin 3) (f0 : (Memref.whole cc0_scratch0 : Memref sig .tc .vmem S512x512 .f32).view.ty.Contents (Elt F)) (fa2 : (Memref.whole cc0_scratch4 : Memref sig .tc .vmem S4x16x512 .bf16).view.ty.Contents (Elt F))
    (g1 : (Memref.whole cc0_scratch2 : Memref sig .tc .vmem S8x4x16x512 .bf16).view.ty.Contents (Elt F)) (h1 : ∀ r' : Fin 7, (slot1V r').view.read (Elt F) g1 = v1Of m ρ c r') :
    (src2V c r).view.read (Elt F) ((Memref.whole cc0_scratch4 : Memref sig .tc .vmem S4x16x512 .bf16).view.writes (Elt F) fa2 (acc2L c (laOf (aC m ρ c)) (lbOf (bC m ρ c)) f0 g1))
      = v2Of m ρ (rotz c (r.val + 1)) r := by
  unfold v2Of
  rw [rotz_back c r, acc2L_eq, r1Load_eq g1 _ h1, acc2Lv_indep c _ _ f0 (Memref.whole cc0_scratch0 : Memref sig .tc .vmem S512x512 .f32).view.junk]
  unfold src2V
  exact read_sq_indep (Memref.whole cc0_scratch4 : Memref sig .tc .vmem S4x16x512 .bf16) (Rect.unit (s := S4x16x512) (k0_off3 c (BitVec.ofNat 32 (1 + r.val))) S1x16x512.size (k0_off3_inb c r))
    (fun _ => rfl) squeezes_S1x16x512_S16x512 _ (acc2Lv_cover c _ _ _ _) _ _

theorem hout (c : Dev nD) (f0 : (Memref.whole cc0_scratch0 : Memref sig .tc .vmem S512x512 .f32).view.ty.Contents (Elt F)) (f1 : (Memref.whole cc0_scratch3 : Memref sig .tc .vmem S4x16x512 .f32).view.ty.Contents (Elt F)) (o0 : (Memref.whole cc0_stg2_0 : Memref sig .tc .vmem S16x512 .f32).view.ty.Contents (Elt F))
    (g1 : (Memref.whole cc0_scratch2 : Memref sig .tc .vmem S8x4x16x512 .bf16).view.ty.Contents (Elt F)) (g2 : (Memref.whole cc0_scratch5 : Memref sig .tc .vmem S4x16x512 .bf16).view.ty.Contents (Elt F))
    (h1 : ∀ r' : Fin 7, (slot1V r').view.read (Elt F) g1 = v1Of m ρ c r')
    (h2 : ∀ r' : Fin 3, (slot2V r').view.read (Elt F) g2 = v2Of m ρ c r') :
    (Memref.whole cc0_stg2_0 : Memref sig .tc .vmem S16x512 .f32).view.writes (Elt F) o0 (outL c (laOf (aC m ρ c)) (lbOf (bC m ρ c)) f0 g1 f1 g2) = outK m ρ c := by
  unfold outK
  rw [outL_eq, r1Load_eq g1 _ h1, r2Load_eq g2 _ h2, outLv_indep c _ _ f0 (Memref.whole cc0_scratch0 : Memref sig .tc .vmem S512x512 .f32).view.junk _ f1 (Memref.whole cc0_scratch3 : Memref sig .tc .vmem S4x16x512 .f32).view.junk]
  exact out_writes_indep _ o0 _

/-- Seven facts about the literal slots as one fact about the slot with its number a variable. -/
theorem h1_of7 (g1 : (Memref.whole cc0_scratch2 : Memref sig .tc .vmem S8x4x16x512 .bf16).view.ty.Contents (Elt F)) (v : Fin 7 → FVec F S4x16x512 .bf16)
    (h : (slot1 0).view.read (Elt F) g1 = v 0 ∧ (slot1 1).view.read (Elt F) g1 = v 1 ∧ (slot1 2).view.read (Elt F) g1 = v 2 ∧ (slot1 3).view.read (Elt F) g1 = v 3 ∧ (slot1 4).view.read (Elt F) g1 = v 4 ∧ (slot1 5).view.read (Elt F) g1 = v 5 ∧ (slot1 6).view.read (Elt F) g1 = v 6) :
    ∀ r' : Fin 7, (slot1V r').view.read (Elt F) g1 = v r' := by
  intro r'
  match r' with
  | 0 => exact h.1
  | 1 => exact h.2.1
  | 2 => exact h.2.2.1
  | 3 => exact h.2.2.2.1
  | 4 => exact h.2.2.2.2.1
  | 5 => exact h.2.2.2.2.2.1
  | 6 => exact h.2.2.2.2.2.2

theorem h2_of3 (g2 : (Memref.whole cc0_scratch5 : Memref sig .tc .vmem S4x16x512 .bf16).view.ty.Contents (Elt F)) (v : Fin 3 → FVec F S16x512 .bf16)
    (h : (slot2 0).view.read (Elt F) g2 = v 0 ∧ (slot2 1).view.read (Elt F) g2 = v 1 ∧ (slot2 2).view.read (Elt F) g2 = v 2) :
    ∀ r' : Fin 3, (slot2V r').view.read (Elt F) g2 = v r' := by
  intro r'
  match r' with
  | 0 => exact h.1
  | 1 => exact h.2.1
  | 2 => exact h.2.2

section
attribute [local irreducible] v1Of v2Of outK

theorem KOf_v1 : (KOf m ρ).v1 = v1Of m ρ := rfl
theorem KOf_v2 : (KOf m ρ).v2 = v2Of m ρ := rfl
theorem KOf_out : (KOf m ρ).out = outK m ρ := rfl

/-- Every device's body computes the promised values. -/
theorem good (c : Dev nD) : Good (KOf m ρ) c (aC m ρ c) (bC m ρ c) := by
  refine ⟨?_, ?_, ?_⟩
  · intro fq
    rw [KOf_v1]
    exact ⟨hv1 m ρ c 0 fq, hv1 m ρ c 1 fq, hv1 m ρ c 2 fq, hv1 m ρ c 3 fq, hv1 m ρ c 4 fq, hv1 m ρ c 5 fq, hv1 m ρ c 6 fq⟩
  · intro f0 fa2 g1 h
    rw [KOf_v1] at h
    rw [KOf_v2]
    have h1 := h1_of7 g1 (v1Of m ρ c) h
    exact ⟨hv2 m ρ c 0 f0 fa2 g1 h1, hv2 m ρ c 1 f0 fa2 g1 h1, hv2 m ρ c 2 f0 fa2 g1 h1⟩
  · intro f0 f1 o0 g1 g2 h h'
    rw [KOf_v1] at h
    rw [KOf_v2] at h'
    rw [KOf_out]
    exact hout m ρ c f0 f1 o0 g1 g2 (h1_of7 g1 (v1Of m ρ c) h) (h2_of3 g2 (v2Of m ρ c) h')

end

end Cert.KernelIdeal.Hand

end

/-- info: 'Cert.KernelIdeal.Hand.good' depends on axioms: [propext, Classical.choice, Quot.sound] -/
#guard_msgs in #print axioms Cert.KernelIdeal.Hand.good
-- ==== Proof.Run.lean ====
import proofs.«900450_g7700000000000451_dist_matmul_mk_i_outk_m512_n512_k256_v7x_i32_f32_1_alg».proof.Proof.BodyObl
import proofs.«900450_g7700000000000451_dist_matmul_mk_i_outk_m512_n512_k256_v7x_i32_f32_1_alg».proof.Proof.Launch
import proofs.«900450_g7700000000000451_dist_matmul_mk_i_outk_m512_n512_k256_v7x_i32_f32_1_alg».proof.Proof.KOf

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- On the mesh of 32 devices, from any memory with every semaphore at zero: every weakly fair execution terminates, nothing faults, each
    device's result block ends at the value the schedule promises it and its two argument blocks end as they began. -/
theorem run_all : θ_run defs (onTc (τ := τ) (main (F := F))) ⟨m, fun _ => 0, ρ⟩ (fun r => ∀ c : Dev nD,
    r.2.mem ((c.tc : Thread nD τ).loc main_v1) = (KOf m ρ).out c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  run_post (KOf m ρ) m ρ (body_obligation (KOf m ρ) m ρ (good m ρ))

/-- info: 'Cert.KernelIdeal.Hand.run_all' depends on axioms: [propext, Classical.choice, Quot.sound] -/
#guard_msgs in #print axioms run_all

end Cert.KernelIdeal.Hand
end
-- ==== Proof.Bits.Mesh.lean ====
import proofs.«900450_g7700000000000451_dist_matmul_mk_i_outk_m512_n512_k256_v7x_i32_f32_1_alg».proof.Proof.Gen.Kernel.Frame
import proofs.«900450_g7700000000000451_dist_matmul_mk_i_outk_m512_n512_k256_v7x_i32_f32_1_alg».proof.Proof.Gen.Kernel.Skeleton
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of the collective -/

/-- A duty is named by the device that pays it and a small index. -/
abbrev DU : Type := Dev nD × Fin 8
abbrev UB : Type := URounds (GSem nD τ sig) DU
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh as 4 planes of 8: a device is (plane, place) = (c / 8, c % 8) -/

/-- The device `r` places on in the same plane. -/
def rotq (c : Dev nD) (r : ℕ) : Dev nD := ⟨8 * (c.val / 8) + ((c.val % 8) + r) % 8, by have : c.val < 32 := c.2; show _ < 32; omega⟩
/-- The device at the same place `r` planes on. -/
def rotz (c : Dev nD) (r : ℕ) : Dev nD := ⟨8 * (((c.val / 8) + r) % 4) + c.val % 8, by have : c.val < 32 := c.2; show _ < 32; omega⟩

theorem dev1_eq (c : Dev nD) : (⟨k0_dev1 c, k0_dev1_lt c⟩ : Dev nD) = rotq c 1 := Fin.ext (k0_dev1_eq c)
theorem dev2_eq (c : Dev nD) : (⟨k0_dev2 c, k0_dev2_lt c⟩ : Dev nD) = rotq c 2 := Fin.ext (k0_dev2_eq c)
theorem dev3_eq (c : Dev nD) : (⟨k0_dev3 c, k0_dev3_lt c⟩ : Dev nD) = rotq c 3 := Fin.ext (k0_dev3_eq c)
theorem dev4_eq (c : Dev nD) : (⟨k0_dev4 c, k0_dev4_lt c⟩ : Dev nD) = rotq c 4 := Fin.ext (k0_dev4_eq c)
theorem dev5_eq (c : Dev nD) : (⟨k0_dev5 c, k0_dev5_lt c⟩ : Dev nD) = rotq c 5 := Fin.ext (k0_dev5_eq c)
theorem dev6_eq (c : Dev nD) : (⟨k0_dev6 c, k0_dev6_lt c⟩ : Dev nD) = rotq c 6 := Fin.ext (k0_dev6_eq c)
theorem dev7_eq (c : Dev nD) : (⟨k0_dev7 c, k0_dev7_lt c⟩ : Dev nD) = rotq c 7 := Fin.ext (k0_dev7_eq c)
theorem dev8_eq (c : Dev nD) : (⟨k0_dev8 c, k0_dev8_lt c⟩ : Dev nD) = rotz c 1 := Fin.ext (k0_dev8_eq c)
theorem dev9_eq (c : Dev nD) : (⟨k0_dev9 c, k0_dev9_lt c⟩ : Dev nD) = rotz c 2 := Fin.ext (k0_dev9_eq c)
theorem dev10_eq (c : Dev nD) : (⟨k0_dev10 c, k0_dev10_lt c⟩ : Dev nD) = rotz c 3 := Fin.ext (k0_dev10_eq c)
theorem dev11_eq (c : Dev nD) : (⟨k0_dev11 c, k0_dev11_lt c⟩ : Dev nD) = rotq c 1 := Fin.ext (k0_dev11_eq c)
theorem dev12_eq (c : Dev nD) : (⟨k0_dev12 c, k0_dev12_lt c⟩ : Dev nD) = rotq c 2 := Fin.ext (k0_dev12_eq c)
theorem dev13_eq (c : Dev nD) : (⟨k0_dev13 c, k0_dev13_lt c⟩ : Dev nD) = rotq c 3 := Fin.ext (k0_dev13_eq c)
theorem dev14_eq (c : Dev nD) : (⟨k0_dev14 c, k0_dev14_lt c⟩ : Dev nD) = rotq c 4 := Fin.ext (k0_dev14_eq c)
theorem dev15_eq (c : Dev nD) : (⟨k0_dev15 c, k0_dev15_lt c⟩ : Dev nD) = rotq c 5 := Fin.ext (k0_dev15_eq c)
theorem dev16_eq (c : Dev nD) : (⟨k0_dev16 c, k0_dev16_lt c⟩ : Dev nD) = rotq c 6 := Fin.ext (k0_dev16_eq c)
theorem dev17_eq (c : Dev nD) : (⟨k0_dev17 c, k0_dev17_lt c⟩ : Dev nD) = rotq c 7 := Fin.ext (k0_dev17_eq c)
theorem dev18_eq (c : Dev nD) : (⟨k0_dev18 c, k0_dev18_lt c⟩ : Dev nD) = rotz c 1 := Fin.ext (k0_dev18_eq c)
theorem dev19_eq (c : Dev nD) : (⟨k0_dev19 c, k0_dev19_lt c⟩ : Dev nD) = rotz c 2 := Fin.ext (k0_dev19_eq c)
theorem dev20_eq (c : Dev nD) : (⟨k0_dev20 c, k0_dev20_lt c⟩ : Dev nD) = rotz c 3 := Fin.ext (k0_dev20_eq c)
attribute [sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq

theorem rotq_1_7 : ∀ c : Dev nD, rotq (rotq c 1) 7 = c := by decide
theorem rotq_2_6 : ∀ c : Dev nD, rotq (rotq c 2) 6 = c := by decide
theorem rotq_3_5 : ∀ c : Dev nD, rotq (rotq c 3) 5 = c := by decide
theorem rotq_4_4 : ∀ c : Dev nD, rotq (rotq c 4) 4 = c := by decide
theorem rotq_5_3 : ∀ c : Dev nD, rotq (rotq c 5) 3 = c := by decide
theorem rotq_6_2 : ∀ c : Dev nD, rotq (rotq c 6) 2 = c := by decide
theorem rotq_7_1 : ∀ c : Dev nD, rotq (rotq c 7) 1 = c := by decide
theorem rotz_1_3 : ∀ c : Dev nD, rotz (rotz c 1) 3 = c := by decide
theorem rotz_2_2 : ∀ c : Dev nD, rotz (rotz c 2) 2 = c := by decide
theorem rotz_3_1 : ∀ c : Dev nD, rotz (rotz c 3) 1 = c := by decide

/-! ## The semaphores -/

abbrev barS : Sem sig := (SemArray.scalar (sig.barrier 0 rfl) : Sems sig S_).sem
abbrev zrS : Sem sig := (cc0_scratch10 : Sems sig S_).sem
/-- Send and receive semaphores of the in-plane exchange (index `r` is the program's `oq - 1`) and of the cross-plane one. -/
def s1S : Fin 7 → DmaSem sig
  | 0 => ((cc0_scratch6.slice (Rect.unit (s := S8) ![1] S1.size inb_S8_S1_1)).squeeze S_ squeezes_S1_S_).sem
  | 1 => ((cc0_scratch6.slice (Rect.unit (s := S8) ![2] S1.size inb_S8_S1_2)).squeeze S_ squeezes_S1_S_).sem
  | 2 => ((cc0_scratch6.slice (Rect.unit (s := S8) ![3] S1.size inb_S8_S1_3)).squeeze S_ squeezes_S1_S_).sem
  | 3 => ((cc0_scratch6.slice (Rect.unit (s := S8) ![4] S1.size inb_S8_S1_4)).squeeze S_ squeezes_S1_S_).sem
  | 4 => ((cc0_scratch6.slice (Rect.unit (s := S8) ![5] S1.size inb_S8_S1_5)).squeeze S_ squeezes_S1_S_).sem
  | 5 => ((cc0_scratch6.slice (Rect.unit (s := S8) ![6] S1.size inb_S8_S1_6)).squeeze S_ squeezes_S1_S_).sem
  | 6 => ((cc0_scratch6.slice (Rect.unit (s := S8) ![7] S1.size inb_S8_S1_7)).squeeze S_ squeezes_S1_S_).sem
def v1S : Fin 7 → DmaSem sig
  | 0 => ((cc0_scratch7.slice (Rect.unit (s := S8) ![1] S1.size inb_S8_S1_1)).squeeze S_ squeezes_S1_S_).sem
  | 1 => ((cc0_scratch7.slice (Rect.unit (s := S8) ![2] S1.size inb_S8_S1_2)).squeeze S_ squeezes_S1_S_).sem
  | 2 => ((cc0_scratch7.slice (Rect.unit (s := S8) ![3] S1.size inb_S8_S1_3)).squeeze S_ squeezes_S1_S_).sem
  | 3 => ((cc0_scratch7.slice (Rect.unit (s := S8) ![4] S1.size inb_S8_S1_4)).squeeze S_ squeezes_S1_S_).sem
  | 4 => ((cc0_scratch7.slice (Rect.unit (s := S8) ![5] S1.size inb_S8_S1_5)).squeeze S_ squeezes_S1_S_).sem
  | 5 => ((cc0_scratch7.slice (Rect.unit (s := S8) ![6] S1.size inb_S8_S1_6)).squeeze S_ squeezes_S1_S_).sem
  | 6 => ((cc0_scratch7.slice (Rect.unit (s := S8) ![7] S1.size inb_S8_S1_7)).squeeze S_ squeezes_S1_S_).sem
def s2S : Fin 3 → DmaSem sig
  | 0 => ((cc0_scratch8.slice (Rect.unit (s := S4) ![1] S1.size inb_S4_S1_1)).squeeze S_ squeezes_S1_S_).sem
  | 1 => ((cc0_scratch8.slice (Rect.unit (s := S4) ![2] S1.size inb_S4_S1_2)).squeeze S_ squeezes_S1_S_).sem
  | 2 => ((cc0_scratch8.slice (Rect.unit (s := S4) ![3] S1.size inb_S4_S1_3)).squeeze S_ squeezes_S1_S_).sem
def v2S : Fin 3 → DmaSem sig
  | 0 => ((cc0_scratch9.slice (Rect.unit (s := S4) ![1] S1.size inb_S4_S1_1)).squeeze S_ squeezes_S1_S_).sem
  | 1 => ((cc0_scratch9.slice (Rect.unit (s := S4) ![2] S1.size inb_S4_S1_2)).squeeze S_ squeezes_S1_S_).sem
  | 2 => ((cc0_scratch9.slice (Rect.unit (s := S4) ![3] S1.size inb_S4_S1_3)).squeeze S_ squeezes_S1_S_).sem

abbrev barCell (c : Dev nD) : GSem nD τ sig := ((c : Thread nD τ), .reg barS)
abbrev zrCell (c : Dev nD) : GSem nD τ sig := ((c : Thread nD τ), .reg zrS)
abbrev s1Cell (c : Dev nD) (r : Fin 7) : GSem nD τ sig := ((c : Thread nD τ), .dma (s1S r))
abbrev v1Cell (c : Dev nD) (r : Fin 7) : GSem nD τ sig := ((c : Thread nD τ), .dma (v1S r))
abbrev s2Cell (c : Dev nD) (r : Fin 3) : GSem nD τ sig := ((c : Thread nD τ), .dma (s2S r))
abbrev v2Cell (c : Dev nD) (r : Fin 3) : GSem nD τ sig := ((c : Thread nD τ), .dma (v2S r))

/-! ## The slots of the exchange buffers -/

/-- Slot `r + 1` of the in-plane receive buffer. -/
def slot1 : Fin 7 → Memref sig .tc .vmem S4x16x512 .bf16
  | 0 => (((Memref.whole cc0_scratch2 : Memref sig .tc .vmem S8x4x16x512 .bf16).slice (Rect.unit (s := S8x4x16x512) ![1, 0, 0, 0] S1x4x16x512.size inb_S8x4x16x512_S1x4x16x512_1_0_0_0) (fun _ => rfl)).squeeze S4x16x512 squeezes_S1x4x16x512_S4x16x512)
  | 1 => (((Memref.whole cc0_scratch2 : Memref sig .tc .vmem S8x4x16x512 .bf16).slice (Rect.unit (s := S8x4x16x512) ![2, 0, 0, 0] S1x4x16x512.size inb_S8x4x16x512_S1x4x16x512_2_0_0_0) (fun _ => rfl)).squeeze S4x16x512 squeezes_S1x4x16x512_S4x16x512)
  | 2 => (((Memref.whole cc0_scratch2 : Memref sig .tc .vmem S8x4x16x512 .bf16).slice (Rect.unit (s := S8x4x16x512) ![3, 0, 0, 0] S1x4x16x512.size inb_S8x4x16x512_S1x4x16x512_3_0_0_0) (fun _ => rfl)).squeeze S4x16x512 squeezes_S1x4x16x512_S4x16x512)
  | 3 => (((Memref.whole cc0_scratch2 : Memref sig .tc .vmem S8x4x16x512 .bf16).slice (Rect.unit (s := S8x4x16x512) ![4, 0, 0, 0] S1x4x16x512.size inb_S8x4x16x512_S1x4x16x512_4_0_0_0) (fun _ => rfl)).squeeze S4x16x512 squeezes_S1x4x16x512_S4x16x512)
  | 4 => (((Memref.whole cc0_scratch2 : Memref sig .tc .vmem S8x4x16x512 .bf16).slice (Rect.unit (s := S8x4x16x512) ![5, 0, 0, 0] S1x4x16x512.size inb_S8x4x16x512_S1x4x16x512_5_0_0_0) (fun _ => rfl)).squeeze S4x16x512 squeezes_S1x4x16x512_S4x16x512)
  | 5 => (((Memref.whole cc0_scratch2 : Memref sig .tc .vmem S8x4x16x512 .bf16).slice (Rect.unit (s := S8x4x16x512) ![6, 0, 0, 0] S1x4x16x512.size inb_S8x4x16x512_S1x4x16x512_6_0_0_0) (fun _ => rfl)).squeeze S4x16x512 squeezes_S1x4x16x512_S4x16x512)
  | 6 => (((Memref.whole cc0_scratch2 : Memref sig .tc .vmem S8x4x16x512 .bf16).slice (Rect.unit (s := S8x4x16x512) ![7, 0, 0, 0] S1x4x16x512.size inb_S8x4x16x512_S1x4x16x512_7_0_0_0) (fun _ => rfl)).squeeze S4x16x512 squeezes_S1x4x16x512_S4x16x512)
/-- The slice of the rounded partial products device `c` sends with its `r`-th in-plane transfer. -/
def src1 (c : Dev nD) : Fin 7 → Memref sig .tc .vmem S4x16x512 .bf16
  | 0 => (((Memref.whole cc0_scratch1 : Memref sig .tc .vmem S8x4x16x512 .bf16).slice (Rect.unit (s := S8x4x16x512) (k0_off1 c 1#32) S1x4x16x512.size (k0_off1_inb c 0)) (fun _ => rfl)).squeeze S4x16x512 squeezes_S1x4x16x512_S4x16x512)
  | 1 => (((Memref.whole cc0_scratch1 : Memref sig .tc .vmem S8x4x16x512 .bf16).slice (Rect.unit (s := S8x4x16x512) (k0_off1 c 2#32) S1x4x16x512.size (k0_off1_inb c 1)) (fun _ => rfl)).squeeze S4x16x512 squeezes_S1x4x16x512_S4x16x512)
  | 2 => (((Memref.whole cc0_scratch1 : Memref sig .tc .vmem S8x4x16x512 .bf16).slice (Rect.unit (s := S8x4x16x512) (k0_off1 c 3#32) S1x4x16x512.size (k0_off1_inb c 2)) (fun _ => rfl)).squeeze S4x16x512 squeezes_S1x4x16x512_S4x16x512)
  | 3 => (((Memref.whole cc0_scratch1 : Memref sig .tc .vmem S8x4x16x512 .bf16).slice (Rect.unit (s := S8x4x16x512) (k0_off1 c 4#32) S1x4x16x512.size (k0_off1_inb c 3)) (fun _ => rfl)).squeeze S4x16x512 squeezes_S1x4x16x512_S4x16x512)
  | 4 => (((Memref.whole cc0_scratch1 : Memref sig .tc .vmem S8x4x16x512 .bf16).slice (Rect.unit (s := S8x4x16x512) (k0_off1 c 5#32) S1x4x16x512.size (k0_off1_inb c 4)) (fun _ => rfl)).squeeze S4x16x512 squeezes_S1x4x16x512_S4x16x512)
  | 5 => (((Memref.whole cc0_scratch1 : Memref sig .tc .vmem S8x4x16x512 .bf16).slice (Rect.unit (s := S8x4x16x512) (k0_off1 c 6#32) S1x4x16x512.size (k0_off1_inb c 5)) (fun _ => rfl)).squeeze S4x16x512 squeezes_S1x4x16x512_S4x16x512)
  | 6 => (((Memref.whole cc0_scratch1 : Memref sig .tc .vmem S8x4x16x512 .bf16).slice (Rect.unit (s := S8x4x16x512) (k0_off1 c 7#32) S1x4x16x512.size (k0_off1_inb c 6)) (fun _ => rfl)).squeeze S4x16x512 squeezes_S1x4x16x512_S4x16x512)
/-- Slot `r + 1` of the cross-plane receive buffer. -/
def slot2 : Fin 3 → Memref sig .tc .vmem S16x512 .bf16
  | 0 => (((Memref.whole cc0_scratch5 : Memref sig .tc .vmem S4x16x512 .bf16).slice (Rect.unit (s := S4x16x512) ![1, 0, 0] S1x16x512.size inb_S4x16x512_S1x16x512_1_0_0) (fun _ => rfl)).squeeze S16x512 squeezes_S1x16x512_S16x512)
  | 1 => (((Memref.whole cc0_scratch5 : Memref sig .tc .vmem S4x16x512 .bf16).slice (Rect.unit (s := S4x16x512) ![2, 0, 0] S1x16x512.size inb_S4x16x512_S1x16x512_2_0_0) (fun _ => rfl)).squeeze S16x512 squeezes_S1x16x512_S16x512)
  | 2 => (((Memref.whole cc0_scratch5 : Memref sig .tc .vmem S4x16x512 .bf16).slice (Rect.unit (s := S4x16x512) ![3, 0, 0] S1x16x512.size inb_S4x16x512_S1x16x512_3_0_0) (fun _ => rfl)).squeeze S16x512 squeezes_S1x16x512_S16x512)
def src2 (c : Dev nD) : Fin 3 → Memref sig .tc .vmem S16x512 .bf16
  | 0 => (((Memref.whole cc0_scratch4 : Memref sig .tc .vmem S4x16x512 .bf16).slice (Rect.unit (s := S4x16x512) (k0_off3 c 1#32) S1x16x512.size (k0_off3_inb c 0)) (fun _ => rfl)).squeeze S16x512 squeezes_S1x16x512_S16x512)
  | 1 => (((Memref.whole cc0_scratch4 : Memref sig .tc .vmem S4x16x512 .bf16).slice (Rect.unit (s := S4x16x512) (k0_off3 c 2#32) S1x16x512.size (k0_off3_inb c 1)) (fun _ => rfl)).squeeze S16x512 squeezes_S1x16x512_S16x512)
  | 2 => (((Memref.whole cc0_scratch4 : Memref sig .tc .vmem S4x16x512 .bf16).slice (Rect.unit (s := S4x16x512) (k0_off3 c 3#32) S1x16x512.size (k0_off3_inb c 2)) (fun _ => rfl)).squeeze S16x512 squeezes_S1x16x512_S16x512)

abbrev N1 : ℕ := (slot1 0).view.dmaCredit
abbrev N2 : ℕ := (slot2 0).view.dmaCredit

end Cert.Kernel.Hand
end
-- ==== Proof.Bits.Sched.lean ====
import proofs.«900450_g7700000000000451_dist_matmul_mk_i_outk_m512_n512_k256_v7x_i32_f32_1_alg».proof.Proof.Bits.Mesh

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the exchange buffers hold, as whole-buffer contents -/

/-- The values the payloads are stated at: per device `x`, what lands in slot `r + 1` of its in-plane receive buffer (the sender's rounded
    partial products for `x`'s place), what lands in slot `r + 1` of its cross-plane receive buffer (the sender's rounded plane sums for
    `x`'s plane), and its result block. -/
structure Cont (F : FTy → Type) where
  v1 : (x : Dev nD) → Fin 7 → FVec F S4x16x512 .bf16
  v2 : (x : Dev nD) → Fin 3 → FVec F S16x512 .bf16
  out : (c : Dev nD) → Buf (Elt F) ((c : Thread nD τ).loc cc0_stg2_0)

variable (K : Cont F)

/-! ## The cells, classified -/

inductive CK : Type
  | bar | zr | s1 (r : Fin 7) | v1 (r : Fin 7) | s2 (r : Fin 3) | v2 (r : Fin 3) | other
  deriving DecidableEq

def kindOf : SemLoc sig → CK
  | .reg s => match s.val with
    | 0 => .zr | 1 => .bar | _ => .other
  | .dma q => match q.val with
    | 4 => .s1 0
    | 5 => .s1 1
    | 6 => .s1 2
    | 7 => .s1 3
    | 8 => .s1 4
    | 9 => .s1 5
    | 10 => .s1 6
    | 12 => .v1 0
    | 13 => .v1 1
    | 14 => .v1 2
    | 15 => .v1 3
    | 16 => .v1 4
    | 17 => .v1 5
    | 18 => .v1 6
    | 20 => .s2 0
    | 21 => .s2 1
    | 22 => .s2 2
    | 24 => .v2 0
    | 25 => .v2 1
    | 26 => .v2 2
    | _ => .other

/-! ## The payloads -/

/-- Slot `j + 1` of device `p`'s in-plane receive buffer, at some contents, and that `p` is at round 0 of the slot's receive cell:
    what `p`'s entry signal hands the device that will write the slot. -/
def payBar (p : Dev nD) : Fin 8 → sProp 𝕄
  | 0 => iprop((∃ f : Buf (Elt F) ((slot1 0).view.loc (p : Thread nD τ)), (slot1 0).view.loc (p : Thread nD τ) ↦[(slot1 0).view.set]{fullShare} f) ∗ reached ER (v1Cell p 0) 0)
  | 1 => iprop((∃ f : Buf (Elt F) ((slot1 1).view.loc (p : Thread nD τ)), (slot1 1).view.loc (p : Thread nD τ) ↦[(slot1 1).view.set]{fullShare} f) ∗ reached ER (v1Cell p 1) 0)
  | 2 => iprop((∃ f : Buf (Elt F) ((slot1 2).view.loc (p : Thread nD τ)), (slot1 2).view.loc (p : Thread nD τ) ↦[(slot1 2).view.set]{fullShare} f) ∗ reached ER (v1Cell p 2) 0)
  | 3 => iprop((∃ f : Buf (Elt F) ((slot1 3).view.loc (p : Thread nD τ)), (slot1 3).view.loc (p : Thread nD τ) ↦[(slot1 3).view.set]{fullShare} f) ∗ reached ER (v1Cell p 3) 0)
  | 4 => iprop((∃ f : Buf (Elt F) ((slot1 4).view.loc (p : Thread nD τ)), (slot1 4).view.loc (p : Thread nD τ) ↦[(slot1 4).view.set]{fullShare} f) ∗ reached ER (v1Cell p 4) 0)
  | 5 => iprop((∃ f : Buf (Elt F) ((slot1 5).view.loc (p : Thread nD τ)), (slot1 5).view.loc (p : Thread nD τ) ↦[(slot1 5).view.set]{fullShare} f) ∗ reached ER (v1Cell p 5) 0)
  | 6 => iprop((∃ f : Buf (Elt F) ((slot1 6).view.loc (p : Thread nD τ)), (slot1 6).view.loc (p : Thread nD τ) ↦[(slot1 6).view.set]{fullShare} f) ∗ reached ER (v1Cell p 6) 0)
  | 7 => iprop(emp)
def payZr (p : Dev nD) : Fin 8 → sProp 𝕄
  | 0 => iprop((∃ f : Buf (Elt F) ((slot2 0).view.loc (p : Thread nD τ)), (slot2 0).view.loc (p : Thread nD τ) ↦[(slot2 0).view.set]{fullShare} f) ∗ reached ER (v2Cell p 0) 0)
  | 1 => iprop((∃ f : Buf (Elt F) ((slot2 1).view.loc (p : Thread nD τ)), (slot2 1).view.loc (p : Thread nD τ) ↦[(slot2 1).view.set]{fullShare} f) ∗ reached ER (v2Cell p 1) 0)
  | 2 => iprop((∃ f : Buf (Elt F) ((slot2 2).view.loc (p : Thread nD τ)), (slot2 2).view.loc (p : Thread nD τ) ↦[(slot2 2).view.set]{fullShare} f) ∗ reached ER (v2Cell p 2) 0)
  | _ => iprop(emp)

/-- One round per cell. A barrier cell of `x`: seven unit duties, `(rotq x (j+1), j)` paid by the device `j + 1` places on; a
    ready cell: three, `(rotz x (j+1), j)`; a send cell: the core's own departure; a receive cell: the arrival from the device
    whose `r`-th transfer is addressed to `x`. -/
def Rd : Rounds.Schedule (GSem nD τ sig) DU 𝕄 where
  duties g r := if r = 0 ∧ g.1.2 = .tc then (match kindOf g.2 with
    | .bar => {(rotq g.1.1 1, 0), (rotq g.1.1 2, 1), (rotq g.1.1 3, 2), (rotq g.1.1 4, 3), (rotq g.1.1 5, 4), (rotq g.1.1 6, 5), (rotq g.1.1 7, 6)}
    | .zr => {(rotz g.1.1 1, 0), (rotz g.1.1 2, 1), (rotz g.1.1 3, 2)}
    | .s1 _ => {(g.1.1, 0)}
    | .s2 _ => {(g.1.1, 0)}
    | .v1 0 => {(rotq g.1.1 7, 0)}
    | .v1 1 => {(rotq g.1.1 6, 0)}
    | .v1 2 => {(rotq g.1.1 5, 0)}
    | .v1 3 => {(rotq g.1.1 4, 0)}
    | .v1 4 => {(rotq g.1.1 3, 0)}
    | .v1 5 => {(rotq g.1.1 2, 0)}
    | .v1 6 => {(rotq g.1.1 1, 0)}
    | .v2 0 => {(rotz g.1.1 3, 0)}
    | .v2 1 => {(rotz g.1.1 2, 0)}
    | .v2 2 => {(rotz g.1.1 1, 0)}
    | .other => ∅) else ∅
  unitless _ := False
  amount g _ _ := match kindOf g.2 with
    | .s1 _ => N1 | .v1 _ => N1 | .s2 _ => N2 | .v2 _ => N2 | _ => 1
  payload g _ d := match kindOf g.2 with
    | .bar => payBar d.1 d.2
    | .zr => payZr d.1 d.2
    | .s1 0 => iprop(∃ f : Buf (Elt F) ((src1 g.1.1 0).view.loc (g.1.1 : Thread nD τ)), (src1 g.1.1 0).view.loc (g.1.1 : Thread nD τ) ↦[(src1 g.1.1 0).view.set]{fullShare} f)
    | .s1 1 => iprop(∃ f : Buf (Elt F) ((src1 g.1.1 1).view.loc (g.1.1 : Thread nD τ)), (src1 g.1.1 1).view.loc (g.1.1 : Thread nD τ) ↦[(src1 g.1.1 1).view.set]{fullShare} f)
    | .s1 2 => iprop(∃ f : Buf (Elt F) ((src1 g.1.1 2).view.loc (g.1.1 : Thread nD τ)), (src1 g.1.1 2).view.loc (g.1.1 : Thread nD τ) ↦[(src1 g.1.1 2).view.set]{fullShare} f)
    | .s1 3 => iprop(∃ f : Buf (Elt F) ((src1 g.1.1 3).view.loc (g.1.1 : Thread nD τ)), (src1 g.1.1 3).view.loc (g.1.1 : Thread nD τ) ↦[(src1 g.1.1 3).view.set]{fullShare} f)
    | .s1 4 => iprop(∃ f : Buf (Elt F) ((src1 g.1.1 4).view.loc (g.1.1 : Thread nD τ)), (src1 g.1.1 4).view.loc (g.1.1 : Thread nD τ) ↦[(src1 g.1.1 4).view.set]{fullShare} f)
    | .s1 5 => iprop(∃ f : Buf (Elt F) ((src1 g.1.1 5).view.loc (g.1.1 : Thread nD τ)), (src1 g.1.1 5).view.loc (g.1.1 : Thread nD τ) ↦[(src1 g.1.1 5).view.set]{fullShare} f)
    | .s1 6 => iprop(∃ f : Buf (Elt F) ((src1 g.1.1 6).view.loc (g.1.1 : Thread nD τ)), (src1 g.1.1 6).view.loc (g.1.1 : Thread nD τ) ↦[(src1 g.1.1 6).view.set]{fullShare} f)
    | .v1 0 => iprop(∃ f : Buf (Elt F) ((slot1 0).view.loc (g.1.1 : Thread nD τ)), ⌜(slot1 0).view.read (Elt F) f = K.v1 g.1.1 0⌝ ∗ (slot1 0).view.loc (g.1.1 : Thread nD τ) ↦[(slot1 0).view.set]{fullShare} f)
    | .v1 1 => iprop(∃ f : Buf (Elt F) ((slot1 1).view.loc (g.1.1 : Thread nD τ)), ⌜(slot1 1).view.read (Elt F) f = K.v1 g.1.1 1⌝ ∗ (slot1 1).view.loc (g.1.1 : Thread nD τ) ↦[(slot1 1).view.set]{fullShare} f)
    | .v1 2 => iprop(∃ f : Buf (Elt F) ((slot1 2).view.loc (g.1.1 : Thread nD τ)), ⌜(slot1 2).view.read (Elt F) f = K.v1 g.1.1 2⌝ ∗ (slot1 2).view.loc (g.1.1 : Thread nD τ) ↦[(slot1 2).view.set]{fullShare} f)
    | .v1 3 => iprop(∃ f : Buf (Elt F) ((slot1 3).view.loc (g.1.1 : Thread nD τ)), ⌜(slot1 3).view.read (Elt F) f = K.v1 g.1.1 3⌝ ∗ (slot1 3).view.loc (g.1.1 : Thread nD τ) ↦[(slot1 3).view.set]{fullShare} f)
    | .v1 4 => iprop(∃ f : Buf (Elt F) ((slot1 4).view.loc (g.1.1 : Thread nD τ)), ⌜(slot1 4).view.read (Elt F) f = K.v1 g.1.1 4⌝ ∗ (slot1 4).view.loc (g.1.1 : Thread nD τ) ↦[(slot1 4).view.set]{fullShare} f)
    | .v1 5 => iprop(∃ f : Buf (Elt F) ((slot1 5).view.loc (g.1.1 : Thread nD τ)), ⌜(slot1 5).view.read (Elt F) f = K.v1 g.1.1 5⌝ ∗ (slot1 5).view.loc (g.1.1 : Thread nD τ) ↦[(slot1 5).view.set]{fullShare} f)
    | .v1 6 => iprop(∃ f : Buf (Elt F) ((slot1 6).view.loc (g.1.1 : Thread nD τ)), ⌜(slot1 6).view.read (Elt F) f = K.v1 g.1.1 6⌝ ∗ (slot1 6).view.loc (g.1.1 : Thread nD τ) ↦[(slot1 6).view.set]{fullShare} f)
    | .s2 0 => iprop(∃ f : Buf (Elt F) ((src2 g.1.1 0).view.loc (g.1.1 : Thread nD τ)), (src2 g.1.1 0).view.loc (g.1.1 : Thread nD τ) ↦[(src2 g.1.1 0).view.set]{fullShare} f)
    | .s2 1 => iprop(∃ f : Buf (Elt F) ((src2 g.1.1 1).view.loc (g.1.1 : Thread nD τ)), (src2 g.1.1 1).view.loc (g.1.1 : Thread nD τ) ↦[(src2 g.1.1 1).view.set]{fullShare} f)
    | .s2 2 => iprop(∃ f : Buf (Elt F) ((src2 g.1.1 2).view.loc (g.1.1 : Thread nD τ)), (src2 g.1.1 2).view.loc (g.1.1 : Thread nD τ) ↦[(src2 g.1.1 2).view.set]{fullShare} f)
    | .v2 0 => iprop(∃ f : Buf (Elt F) ((slot2 0).view.loc (g.1.1 : Thread nD τ)), ⌜(slot2 0).view.read (Elt F) f = K.v2 g.1.1 0⌝ ∗ (slot2 0).view.loc (g.1.1 : Thread nD τ) ↦[(slot2 0).view.set]{fullShare} f)
    | .v2 1 => iprop(∃ f : Buf (Elt F) ((slot2 1).view.loc (g.1.1 : Thread nD τ)), ⌜(slot2 1).view.read (Elt F) f = K.v2 g.1.1 1⌝ ∗ (slot2 1).view.loc (g.1.1 : Thread nD τ) ↦[(slot2 1).view.set]{fullShare} f)
    | .v2 2 => iprop(∃ f : Buf (Elt F) ((slot2 2).view.loc (g.1.1 : Thread nD τ)), ⌜(slot2 2).view.read (Elt F) f = K.v2 g.1.1 2⌝ ∗ (slot2 2).view.loc (g.1.1 : Thread nD τ) ↦[(slot2 2).view.set]{fullShare} f)
    | .other => iprop(emp)
  amount_pos g _ _ _ := by
    cases kindOf g.2 <;> first | exact Nat.one_pos | exact View.dmaCredit_pos _ (by decide)

/-! ## The schedule's tables -/

section Tables
variable (x p : Dev nD)

theorem duties_bar : (Rd K).duties (barCell x) 0 = {(rotq x 1, 0), (rotq x 2, 1), (rotq x 3, 2), (rotq x 4, 3), (rotq x 5, 4), (rotq x 6, 5), (rotq x 7, 6)} := by
  dsimp only [Rd]; rw [if_pos ⟨rfl, rfl⟩]; rfl
theorem duties_zr : (Rd K).duties (zrCell x) 0 = {(rotz x 1, 0), (rotz x 2, 1), (rotz x 3, 2)} := by
  dsimp only [Rd]; rw [if_pos ⟨rfl, rfl⟩]; rfl
theorem duties_s1_0 : (Rd K).duties (s1Cell x 0) 0 = {(x, 0)} := by
  dsimp only [Rd]; rw [if_pos ⟨rfl, rfl⟩]; rfl
theorem duties_v1_0 : (Rd K).duties (v1Cell x 0) 0 = {(rotq x 7, 0)} := by
  dsimp only [Rd]; rw [if_pos ⟨rfl, rfl⟩]; rfl
theorem duties_s1_1 : (Rd K).duties (s1Cell x 1) 0 = {(x, 0)} := by
  dsimp only [Rd]; rw [if_pos ⟨rfl, rfl⟩]; rfl
theorem duties_v1_1 : (Rd K).duties (v1Cell x 1) 0 = {(rotq x 6, 0)} := by
  dsimp only [Rd]; rw [if_pos ⟨rfl, rfl⟩]; rfl
theorem duties_s1_2 : (Rd K).duties (s1Cell x 2) 0 = {(x, 0)} := by
  dsimp only [Rd]; rw [if_pos ⟨rfl, rfl⟩]; rfl
theorem duties_v1_2 : (Rd K).duties (v1Cell x 2) 0 = {(rotq x 5, 0)} := by
  dsimp only [Rd]; rw [if_pos ⟨rfl, rfl⟩]; rfl
theorem duties_s1_3 : (Rd K).duties (s1Cell x 3) 0 = {(x, 0)} := by
  dsimp only [Rd]; rw [if_pos ⟨rfl, rfl⟩]; rfl
theorem duties_v1_3 : (Rd K).duties (v1Cell x 3) 0 = {(rotq x 4, 0)} := by
  dsimp only [Rd]; rw [if_pos ⟨rfl, rfl⟩]; rfl
theorem duties_s1_4 : (Rd K).duties (s1Cell x 4) 0 = {(x, 0)} := by
  dsimp only [Rd]; rw [if_pos ⟨rfl, rfl⟩]; rfl
theorem duties_v1_4 : (Rd K).duties (v1Cell x 4) 0 = {(rotq x 3, 0)} := by
  dsimp only [Rd]; rw [if_pos ⟨rfl, rfl⟩]; rfl
theorem duties_s1_5 : (Rd K).duties (s1Cell x 5) 0 = {(x, 0)} := by
  dsimp only [Rd]; rw [if_pos ⟨rfl, rfl⟩]; rfl
theorem duties_v1_5 : (Rd K).duties (v1Cell x 5) 0 = {(rotq x 2, 0)} := by
  dsimp only [Rd]; rw [if_pos ⟨rfl, rfl⟩]; rfl
theorem duties_s1_6 : (Rd K).duties (s1Cell x 6) 0 = {(x, 0)} := by
  dsimp only [Rd]; rw [if_pos ⟨rfl, rfl⟩]; rfl
theorem duties_v1_6 : (Rd K).duties (v1Cell x 6) 0 = {(rotq x 1, 0)} := by
  dsimp only [Rd]; rw [if_pos ⟨rfl, rfl⟩]; rfl
theorem duties_s2_0 : (Rd K).duties (s2Cell x 0) 0 = {(x, 0)} := by
  dsimp only [Rd]; rw [if_pos ⟨rfl, rfl⟩]; rfl
theorem duties_v2_0 : (Rd K).duties (v2Cell x 0) 0 = {(rotz x 3, 0)} := by
  dsimp only [Rd]; rw [if_pos ⟨rfl, rfl⟩]; rfl
theorem duties_s2_1 : (Rd K).duties (s2Cell x 1) 0 = {(x, 0)} := by
  dsimp only [Rd]; rw [if_pos ⟨rfl, rfl⟩]; rfl
theorem duties_v2_1 : (Rd K).duties (v2Cell x 1) 0 = {(rotz x 2, 0)} := by
  dsimp only [Rd]; rw [if_pos ⟨rfl, rfl⟩]; rfl
theorem duties_s2_2 : (Rd K).duties (s2Cell x 2) 0 = {(x, 0)} := by
  dsimp only [Rd]; rw [if_pos ⟨rfl, rfl⟩]; rfl
theorem duties_v2_2 : (Rd K).duties (v2Cell x 2) 0 = {(rotz x 1, 0)} := by
  dsimp only [Rd]; rw [if_pos ⟨rfl, rfl⟩]; rfl
theorem duties_later (g : GSem nD τ sig) : ∀ r, 1 ≤ r → (Rd K).duties g r = ∅ :=
  fun r hr => by dsimp only [Rd]; rw [if_neg fun h => by omega]

theorem amount_bar (d : DU) : (Rd K).amount (barCell x) 0 d = 1 := rfl
theorem amount_zr (d : DU) : (Rd K).amount (zrCell x) 0 d = 1 := rfl
theorem amount_s1_0 (d : DU) : (Rd K).amount (s1Cell x 0) 0 d = N1 := rfl
theorem amount_v1_0 (d : DU) : (Rd K).amount (v1Cell x 0) 0 d = N1 := rfl
theorem amount_s1_1 (d : DU) : (Rd K).amount (s1Cell x 1) 0 d = N1 := rfl
theorem amount_v1_1 (d : DU) : (Rd K).amount (v1Cell x 1) 0 d = N1 := rfl
theorem amount_s1_2 (d : DU) : (Rd K).amount (s1Cell x 2) 0 d = N1 := rfl
theorem amount_v1_2 (d : DU) : (Rd K).amount (v1Cell x 2) 0 d = N1 := rfl
theorem amount_s1_3 (d : DU) : (Rd K).amount (s1Cell x 3) 0 d = N1 := rfl
theorem amount_v1_3 (d : DU) : (Rd K).amount (v1Cell x 3) 0 d = N1 := rfl
theorem amount_s1_4 (d : DU) : (Rd K).amount (s1Cell x 4) 0 d = N1 := rfl
theorem amount_v1_4 (d : DU) : (Rd K).amount (v1Cell x 4) 0 d = N1 := rfl
theorem amount_s1_5 (d : DU) : (Rd K).amount (s1Cell x 5) 0 d = N1 := rfl
theorem amount_v1_5 (d : DU) : (Rd K).amount (v1Cell x 5) 0 d = N1 := rfl
theorem amount_s1_6 (d : DU) : (Rd K).amount (s1Cell x 6) 0 d = N1 := rfl
theorem amount_v1_6 (d : DU) : (Rd K).amount (v1Cell x 6) 0 d = N1 := rfl
theorem amount_s2_0 (d : DU) : (Rd K).amount (s2Cell x 0) 0 d = N2 := rfl
theorem amount_v2_0 (d : DU) : (Rd K).amount (v2Cell x 0) 0 d = N2 := rfl
theorem amount_s2_1 (d : DU) : (Rd K).amount (s2Cell x 1) 0 d = N2 := rfl
theorem amount_v2_1 (d : DU) : (Rd K).amount (v2Cell x 1) 0 d = N2 := rfl
theorem amount_s2_2 (d : DU) : (Rd K).amount (s2Cell x 2) 0 d = N2 := rfl
theorem amount_v2_2 (d : DU) : (Rd K).amount (v2Cell x 2) 0 d = N2 := rfl

theorem payload_bar_0 : (Rd K).payload (barCell x) 0 (p, 0) = iprop((∃ f : Buf (Elt F) ((slot1 0).view.loc (p : Thread nD τ)), (slot1 0).view.loc (p : Thread nD τ) ↦[(slot1 0).view.set]{fullShare} f) ∗ reached ER (v1Cell p 0) 0) := rfl
theorem payload_bar_1 : (Rd K).payload (barCell x) 0 (p, 1) = iprop((∃ f : Buf (Elt F) ((slot1 1).view.loc (p : Thread nD τ)), (slot1 1).view.loc (p : Thread nD τ) ↦[(slot1 1).view.set]{fullShare} f) ∗ reached ER (v1Cell p 1) 0) := rfl
theorem payload_bar_2 : (Rd K).payload (barCell x) 0 (p, 2) = iprop((∃ f : Buf (Elt F) ((slot1 2).view.loc (p : Thread nD τ)), (slot1 2).view.loc (p : Thread nD τ) ↦[(slot1 2).view.set]{fullShare} f) ∗ reached ER (v1Cell p 2) 0) := rfl
theorem payload_bar_3 : (Rd K).payload (barCell x) 0 (p, 3) = iprop((∃ f : Buf (Elt F) ((slot1 3).view.loc (p : Thread nD τ)), (slot1 3).view.loc (p : Thread nD τ) ↦[(slot1 3).view.set]{fullShare} f) ∗ reached ER (v1Cell p 3) 0) := rfl
theorem payload_bar_4 : (Rd K).payload (barCell x) 0 (p, 4) = iprop((∃ f : Buf (Elt F) ((slot1 4).view.loc (p : Thread nD τ)), (slot1 4).view.loc (p : Thread nD τ) ↦[(slot1 4).view.set]{fullShare} f) ∗ reached ER (v1Cell p 4) 0) := rfl
theorem payload_bar_5 : (Rd K).payload (barCell x) 0 (p, 5) = iprop((∃ f : Buf (Elt F) ((slot1 5).view.loc (p : Thread nD τ)), (slot1 5).view.loc (p : Thread nD τ) ↦[(slot1 5).view.set]{fullShare} f) ∗ reached ER (v1Cell p 5) 0) := rfl
theorem payload_bar_6 : (Rd K).payload (barCell x) 0 (p, 6) = iprop((∃ f : Buf (Elt F) ((slot1 6).view.loc (p : Thread nD τ)), (slot1 6).view.loc (p : Thread nD τ) ↦[(slot1 6).view.set]{fullShare} f) ∗ reached ER (v1Cell p 6) 0) := rfl
theorem payload_zr_0 : (Rd K).payload (zrCell x) 0 (p, 0) = iprop((∃ f : Buf (Elt F) ((slot2 0).view.loc (p : Thread nD τ)), (slot2 0).view.loc (p : Thread nD τ) ↦[(slot2 0).view.set]{fullShare} f) ∗ reached ER (v2Cell p 0) 0) := rfl
theorem payload_zr_1 : (Rd K).payload (zrCell x) 0 (p, 1) = iprop((∃ f : Buf (Elt F) ((slot2 1).view.loc (p : Thread nD τ)), (slot2 1).view.loc (p : Thread nD τ) ↦[(slot2 1).view.set]{fullShare} f) ∗ reached ER (v2Cell p 1) 0) := rfl
theorem payload_zr_2 : (Rd K).payload (zrCell x) 0 (p, 2) = iprop((∃ f : Buf (Elt F) ((slot2 2).view.loc (p : Thread nD τ)), (slot2 2).view.loc (p : Thread nD τ) ↦[(slot2 2).view.set]{fullShare} f) ∗ reached ER (v2Cell p 2) 0) := rfl
theorem payload_s1_0 (d : DU) : (Rd K).payload (s1Cell x 0) 0 d = iprop(∃ f : Buf (Elt F) ((src1 x 0).view.loc (x : Thread nD τ)), (src1 x 0).view.loc (x : Thread nD τ) ↦[(src1 x 0).view.set]{fullShare} f) := rfl
theorem payload_v1_0 (d : DU) : (Rd K).payload (v1Cell x 0) 0 d = iprop(∃ f : Buf (Elt F) ((slot1 0).view.loc (x : Thread nD τ)), ⌜(slot1 0).view.read (Elt F) f = K.v1 x 0⌝ ∗ (slot1 0).view.loc (x : Thread nD τ) ↦[(slot1 0).view.set]{fullShare} f) := rfl
theorem payload_s1_1 (d : DU) : (Rd K).payload (s1Cell x 1) 0 d = iprop(∃ f : Buf (Elt F) ((src1 x 1).view.loc (x : Thread nD τ)), (src1 x 1).view.loc (x : Thread nD τ) ↦[(src1 x 1).view.set]{fullShare} f) := rfl
theorem payload_v1_1 (d : DU) : (Rd K).payload (v1Cell x 1) 0 d = iprop(∃ f : Buf (Elt F) ((slot1 1).view.loc (x : Thread nD τ)), ⌜(slot1 1).view.read (Elt F) f = K.v1 x 1⌝ ∗ (slot1 1).view.loc (x : Thread nD τ) ↦[(slot1 1).view.set]{fullShare} f) := rfl
theorem payload_s1_2 (d : DU) : (Rd K).payload (s1Cell x 2) 0 d = iprop(∃ f : Buf (Elt F) ((src1 x 2).view.loc (x : Thread nD τ)), (src1 x 2).view.loc (x : Thread nD τ) ↦[(src1 x 2).view.set]{fullShare} f) := rfl
theorem payload_v1_2 (d : DU) : (Rd K).payload (v1Cell x 2) 0 d = iprop(∃ f : Buf (Elt F) ((slot1 2).view.loc (x : Thread nD τ)), ⌜(slot1 2).view.read (Elt F) f = K.v1 x 2⌝ ∗ (slot1 2).view.loc (x : Thread nD τ) ↦[(slot1 2).view.set]{fullShare} f) := rfl
theorem payload_s1_3 (d : DU) : (Rd K).payload (s1Cell x 3) 0 d = iprop(∃ f : Buf (Elt F) ((src1 x 3).view.loc (x : Thread nD τ)), (src1 x 3).view.loc (x : Thread nD τ) ↦[(src1 x 3).view.set]{fullShare} f) := rfl
theorem payload_v1_3 (d : DU) : (Rd K).payload (v1Cell x 3) 0 d = iprop(∃ f : Buf (Elt F) ((slot1 3).view.loc (x : Thread nD τ)), ⌜(slot1 3).view.read (Elt F) f = K.v1 x 3⌝ ∗ (slot1 3).view.loc (x : Thread nD τ) ↦[(slot1 3).view.set]{fullShare} f) := rfl
theorem payload_s1_4 (d : DU) : (Rd K).payload (s1Cell x 4) 0 d = iprop(∃ f : Buf (Elt F) ((src1 x 4).view.loc (x : Thread nD τ)), (src1 x 4).view.loc (x : Thread nD τ) ↦[(src1 x 4).view.set]{fullShare} f) := rfl
theorem payload_v1_4 (d : DU) : (Rd K).payload (v1Cell x 4) 0 d = iprop(∃ f : Buf (Elt F) ((slot1 4).view.loc (x : Thread nD τ)), ⌜(slot1 4).view.read (Elt F) f = K.v1 x 4⌝ ∗ (slot1 4).view.loc (x : Thread nD τ) ↦[(slot1 4).view.set]{fullShare} f) := rfl
theorem payload_s1_5 (d : DU) : (Rd K).payload (s1Cell x 5) 0 d = iprop(∃ f : Buf (Elt F) ((src1 x 5).view.loc (x : Thread nD τ)), (src1 x 5).view.loc (x : Thread nD τ) ↦[(src1 x 5).view.set]{fullShare} f) := rfl
theorem payload_v1_5 (d : DU) : (Rd K).payload (v1Cell x 5) 0 d = iprop(∃ f : Buf (Elt F) ((slot1 5).view.loc (x : Thread nD τ)), ⌜(slot1 5).view.read (Elt F) f = K.v1 x 5⌝ ∗ (slot1 5).view.loc (x : Thread nD τ) ↦[(slot1 5).view.set]{fullShare} f) := rfl
theorem payload_s1_6 (d : DU) : (Rd K).payload (s1Cell x 6) 0 d = iprop(∃ f : Buf (Elt F) ((src1 x 6).view.loc (x : Thread nD τ)), (src1 x 6).view.loc (x : Thread nD τ) ↦[(src1 x 6).view.set]{fullShare} f) := rfl
theorem payload_v1_6 (d : DU) : (Rd K).payload (v1Cell x 6) 0 d = iprop(∃ f : Buf (Elt F) ((slot1 6).view.loc (x : Thread nD τ)), ⌜(slot1 6).view.read (Elt F) f = K.v1 x 6⌝ ∗ (slot1 6).view.loc (x : Thread nD τ) ↦[(slot1 6).view.set]{fullShare} f) := rfl
theorem payload_s2_0 (d : DU) : (Rd K).payload (s2Cell x 0) 0 d = iprop(∃ f : Buf (Elt F) ((src2 x 0).view.loc (x : Thread nD τ)), (src2 x 0).view.loc (x : Thread nD τ) ↦[(src2 x 0).view.set]{fullShare} f) := rfl
theorem payload_v2_0 (d : DU) : (Rd K).payload (v2Cell x 0) 0 d = iprop(∃ f : Buf (Elt F) ((slot2 0).view.loc (x : Thread nD τ)), ⌜(slot2 0).view.read (Elt F) f = K.v2 x 0⌝ ∗ (slot2 0).view.loc (x : Thread nD τ) ↦[(slot2 0).view.set]{fullShare} f) := rfl
theorem payload_s2_1 (d : DU) : (Rd K).payload (s2Cell x 1) 0 d = iprop(∃ f : Buf (Elt F) ((src2 x 1).view.loc (x : Thread nD τ)), (src2 x 1).view.loc (x : Thread nD τ) ↦[(src2 x 1).view.set]{fullShare} f) := rfl
theorem payload_v2_1 (d : DU) : (Rd K).payload (v2Cell x 1) 0 d = iprop(∃ f : Buf (Elt F) ((slot2 1).view.loc (x : Thread nD τ)), ⌜(slot2 1).view.read (Elt F) f = K.v2 x 1⌝ ∗ (slot2 1).view.loc (x : Thread nD τ) ↦[(slot2 1).view.set]{fullShare} f) := rfl
theorem payload_s2_2 (d : DU) : (Rd K).payload (s2Cell x 2) 0 d = iprop(∃ f : Buf (Elt F) ((src2 x 2).view.loc (x : Thread nD τ)), (src2 x 2).view.loc (x : Thread nD τ) ↦[(src2 x 2).view.set]{fullShare} f) := rfl
theorem payload_v2_2 (d : DU) : (Rd K).payload (v2Cell x 2) 0 d = iprop(∃ f : Buf (Elt F) ((slot2 2).view.loc (x : Thread nD τ)), ⌜(slot2 2).view.read (Elt F) f = K.v2 x 2⌝ ∗ (slot2 2).view.loc (x : Thread nD τ) ↦[(slot2 2).view.set]{fullShare} f) := rfl

theorem expect_bar : (Rd K).expect (barCell x) 0 = 7 := by
  unfold Schedule.expect Schedule.amountOf
  rw [Finset.sum_congr rfl fun d _ => amount_bar K x d, Finset.sum_const, smul_eq_mul, mul_one, duties_bar]
  simp
theorem expect_zr : (Rd K).expect (zrCell x) 0 = 3 := by
  unfold Schedule.expect Schedule.amountOf
  rw [Finset.sum_congr rfl fun d _ => amount_zr K x d, Finset.sum_const, smul_eq_mul, mul_one, duties_zr]
  simp
theorem expect_s1_0 : (Rd K).expect (s1Cell x 0) 0 = N1 := by
  unfold Schedule.expect Schedule.amountOf; rw [duties_s1_0, Finset.sum_singleton]; rfl
theorem expect_v1_0 : (Rd K).expect (v1Cell x 0) 0 = N1 := by
  unfold Schedule.expect Schedule.amountOf; rw [duties_v1_0, Finset.sum_singleton]; rfl
theorem expect_s1_1 : (Rd K).expect (s1Cell x 1) 0 = N1 := by
  unfold Schedule.expect Schedule.amountOf; rw [duties_s1_1, Finset.sum_singleton]; rfl
theorem expect_v1_1 : (Rd K).expect (v1Cell x 1) 0 = N1 := by
  unfold Schedule.expect Schedule.amountOf; rw [duties_v1_1, Finset.sum_singleton]; rfl
theorem expect_s1_2 : (Rd K).expect (s1Cell x 2) 0 = N1 := by
  unfold Schedule.expect Schedule.amountOf; rw [duties_s1_2, Finset.sum_singleton]; rfl
theorem expect_v1_2 : (Rd K).expect (v1Cell x 2) 0 = N1 := by
  unfold Schedule.expect Schedule.amountOf; rw [duties_v1_2, Finset.sum_singleton]; rfl
theorem expect_s1_3 : (Rd K).expect (s1Cell x 3) 0 = N1 := by
  unfold Schedule.expect Schedule.amountOf; rw [duties_s1_3, Finset.sum_singleton]; rfl
theorem expect_v1_3 : (Rd K).expect (v1Cell x 3) 0 = N1 := by
  unfold Schedule.expect Schedule.amountOf; rw [duties_v1_3, Finset.sum_singleton]; rfl
theorem expect_s1_4 : (Rd K).expect (s1Cell x 4) 0 = N1 := by
  unfold Schedule.expect Schedule.amountOf; rw [duties_s1_4, Finset.sum_singleton]; rfl
theorem expect_v1_4 : (Rd K).expect (v1Cell x 4) 0 = N1 := by
  unfold Schedule.expect Schedule.amountOf; rw [duties_v1_4, Finset.sum_singleton]; rfl
theorem expect_s1_5 : (Rd K).expect (s1Cell x 5) 0 = N1 := by
  unfold Schedule.expect Schedule.amountOf; rw [duties_s1_5, Finset.sum_singleton]; rfl
theorem expect_v1_5 : (Rd K).expect (v1Cell x 5) 0 = N1 := by
  unfold Schedule.expect Schedule.amountOf; rw [duties_v1_5, Finset.sum_singleton]; rfl
theorem expect_s1_6 : (Rd K).expect (s1Cell x 6) 0 = N1 := by
  unfold Schedule.expect Schedule.amountOf; rw [duties_s1_6, Finset.sum_singleton]; rfl
theorem expect_v1_6 : (Rd K).expect (v1Cell x 6) 0 = N1 := by
  unfold Schedule.expect Schedule.amountOf; rw [duties_v1_6, Finset.sum_singleton]; rfl
theorem expect_s2_0 : (Rd K).expect (s2Cell x 0) 0 = N2 := by
  unfold Schedule.expect Schedule.amountOf; rw [duties_s2_0, Finset.sum_singleton]; rfl
theorem expect_v2_0 : (Rd K).expect (v2Cell x 0) 0 = N2 := by
  unfold Schedule.expect Schedule.amountOf; rw [duties_v2_0, Finset.sum_singleton]; rfl
theorem expect_s2_1 : (Rd K).expect (s2Cell x 1) 0 = N2 := by
  unfold Schedule.expect Schedule.amountOf; rw [duties_s2_1, Finset.sum_singleton]; rfl
theorem expect_v2_1 : (Rd K).expect (v2Cell x 1) 0 = N2 := by
  unfold Schedule.expect Schedule.amountOf; rw [duties_v2_1, Finset.sum_singleton]; rfl
theorem expect_s2_2 : (Rd K).expect (s2Cell x 2) 0 = N2 := by
  unfold Schedule.expect Schedule.amountOf; rw [duties_s2_2, Finset.sum_singleton]; rfl
theorem expect_v2_2 : (Rd K).expect (v2Cell x 2) 0 = N2 := by
  unfold Schedule.expect Schedule.amountOf; rw [duties_v2_2, Finset.sum_singleton]; rfl

/-- The duty device `x` pays at the barrier cell of the device `r + 1` places on: that device counts `x` as `7 - r` places on. -/
theorem mem_bar_0 : (x, (6 : Fin 8)) ∈ (Rd K).duties (barCell (rotq x 1)) 0 := by
  rw [duties_bar, rotq_1_7]; simp
theorem mem_bar_1 : (x, (5 : Fin 8)) ∈ (Rd K).duties (barCell (rotq x 2)) 0 := by
  rw [duties_bar, rotq_2_6]; simp
theorem mem_bar_2 : (x, (4 : Fin 8)) ∈ (Rd K).duties (barCell (rotq x 3)) 0 := by
  rw [duties_bar, rotq_3_5]; simp
theorem mem_bar_3 : (x, (3 : Fin 8)) ∈ (Rd K).duties (barCell (rotq x 4)) 0 := by
  rw [duties_bar, rotq_4_4]; simp
theorem mem_bar_4 : (x, (2 : Fin 8)) ∈ (Rd K).duties (barCell (rotq x 5)) 0 := by
  rw [duties_bar, rotq_5_3]; simp
theorem mem_bar_5 : (x, (1 : Fin 8)) ∈ (Rd K).duties (barCell (rotq x 6)) 0 := by
  rw [duties_bar, rotq_6_2]; simp
theorem mem_bar_6 : (x, (0 : Fin 8)) ∈ (Rd K).duties (barCell (rotq x 7)) 0 := by
  rw [duties_bar, rotq_7_1]; simp
theorem mem_zr_0 : (x, (2 : Fin 8)) ∈ (Rd K).duties (zrCell (rotz x 1)) 0 := by
  rw [duties_zr, rotz_1_3]; simp
theorem mem_zr_1 : (x, (1 : Fin 8)) ∈ (Rd K).duties (zrCell (rotz x 2)) 0 := by
  rw [duties_zr, rotz_2_2]; simp
theorem mem_zr_2 : (x, (0 : Fin 8)) ∈ (Rd K).duties (zrCell (rotz x 3)) 0 := by
  rw [duties_zr, rotz_3_1]; simp
theorem mem_v1_0 : (x, (0 : Fin 8)) ∈ (Rd K).duties (v1Cell (rotq x 1) 0) 0 := by
  rw [duties_v1_0, rotq_1_7]; simp
theorem mem_v1_1 : (x, (0 : Fin 8)) ∈ (Rd K).duties (v1Cell (rotq x 2) 1) 0 := by
  rw [duties_v1_1, rotq_2_6]; simp
theorem mem_v1_2 : (x, (0 : Fin 8)) ∈ (Rd K).duties (v1Cell (rotq x 3) 2) 0 := by
  rw [duties_v1_2, rotq_3_5]; simp
theorem mem_v1_3 : (x, (0 : Fin 8)) ∈ (Rd K).duties (v1Cell (rotq x 4) 3) 0 := by
  rw [duties_v1_3, rotq_4_4]; simp
theorem mem_v1_4 : (x, (0 : Fin 8)) ∈ (Rd K).duties (v1Cell (rotq x 5) 4) 0 := by
  rw [duties_v1_4, rotq_5_3]; simp
theorem mem_v1_5 : (x, (0 : Fin 8)) ∈ (Rd K).duties (v1Cell (rotq x 6) 5) 0 := by
  rw [duties_v1_5, rotq_6_2]; simp
theorem mem_v1_6 : (x, (0 : Fin 8)) ∈ (Rd K).duties (v1Cell (rotq x 7) 6) 0 := by
  rw [duties_v1_6, rotq_7_1]; simp
theorem mem_v2_0 : (x, (0 : Fin 8)) ∈ (Rd K).duties (v2Cell (rotz x 1) 0) 0 := by
  rw [duties_v2_0, rotz_1_3]; simp
theorem mem_v2_1 : (x, (0 : Fin 8)) ∈ (Rd K).duties (v2Cell (rotz x 2) 1) 0 := by
  rw [duties_v2_1, rotz_2_2]; simp
theorem mem_v2_2 : (x, (0 : Fin 8)) ∈ (Rd K).duties (v2Cell (rotz x 3) 2) 0 := by
  rw [duties_v2_2, rotz_3_1]; simp

end Tables

end Cert.Kernel.Hand
end
-- ==== Proof.Bits.Ghost.lean ====
import proofs.«900450_g7700000000000451_dist_matmul_mk_i_outk_m512_n512_k256_v7x_i32_f32_1_alg».proof.Proof.Bits.Sched

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)

/-! ## The cells of a device, numbered: barrier, ready, seven in-plane sends, seven in-plane receives, three cross-plane sends, three receives -/

def csem : Fin 22 → SemLoc sig
  | 0 => .reg barS | 1 => .reg zrS
  | 2 => .dma (s1S 0)
  | 3 => .dma (s1S 1)
  | 4 => .dma (s1S 2)
  | 5 => .dma (s1S 3)
  | 6 => .dma (s1S 4)
  | 7 => .dma (s1S 5)
  | 8 => .dma (s1S 6)
  | 9 => .dma (v1S 0)
  | 10 => .dma (v1S 1)
  | 11 => .dma (v1S 2)
  | 12 => .dma (v1S 3)
  | 13 => .dma (v1S 4)
  | 14 => .dma (v1S 5)
  | 15 => .dma (v1S 6)
  | 16 => .dma (s2S 0)
  | 17 => .dma (s2S 1)
  | 18 => .dma (s2S 2)
  | 19 => .dma (v2S 0)
  | 20 => .dma (v2S 1)
  | 21 => .dma (v2S 2)
  | ⟨_ + 22, h⟩ => absurd h (Nat.not_lt.2 (Nat.le_add_left _ _))
abbrev kcell (ck : Dev nD × Fin 22) : GSem nD τ sig := ((ck.1 : Thread nD τ), csem ck.2)

/-- The kernel's own (scoped) semaphores as the launch indexes them: the ready semaphore and the 24 DMA semaphores of its four arrays
    (the four at index 0 are never used). -/
def osem : Fin 25 → SemLoc sig
  | 0 => .reg zrS
  | 1 => .dma 3
  | 2 => .dma 4
  | 3 => .dma 5
  | 4 => .dma 6
  | 5 => .dma 7
  | 6 => .dma 8
  | 7 => .dma 9
  | 8 => .dma 10
  | 9 => .dma 11
  | 10 => .dma 12
  | 11 => .dma 13
  | 12 => .dma 14
  | 13 => .dma 15
  | 14 => .dma 16
  | 15 => .dma 17
  | 16 => .dma 18
  | 17 => .dma 19
  | 18 => .dma 20
  | 19 => .dma 21
  | 20 => .dma 22
  | 21 => .dma 23
  | 22 => .dma 24
  | 23 => .dma 25
  | 24 => .dma 26
  | ⟨_ + 25, h⟩ => absurd h (Nat.not_lt.2 (Nat.le_add_left _ _))

/-! ## What a device owes at launch, in the order it pays (last summand first); the levels -/

def O₀ (c : Dev nD) : CellTallies nD τ sig Unit :=
  0 + tallyAt (v2Cell (rotz c 3) 2) () N2
    + tallyAt (v2Cell (rotz c 2) 1) () N2
    + tallyAt (v2Cell (rotz c 1) 0) () N2
    + tallyAt (v1Cell (rotq c 7) 6) () N1
    + tallyAt (v1Cell (rotq c 6) 5) () N1
    + tallyAt (v1Cell (rotq c 5) 4) () N1
    + tallyAt (v1Cell (rotq c 4) 3) () N1
    + tallyAt (v1Cell (rotq c 3) 2) () N1
    + tallyAt (v1Cell (rotq c 2) 1) () N1
    + tallyAt (v1Cell (rotq c 1) 0) () N1
    + tallyAt (zrCell (rotz c 3)) () 1
    + tallyAt (zrCell (rotz c 2)) () 1
    + tallyAt (zrCell (rotz c 1)) () 1
    + tallyAt (barCell (rotq c 7)) () 1
    + tallyAt (barCell (rotq c 6)) () 1
    + tallyAt (barCell (rotq c 5)) () 1
    + tallyAt (barCell (rotq c 4)) () 1
    + tallyAt (barCell (rotq c 3)) () 1
    + tallyAt (barCell (rotq c 2)) () 1
    + tallyAt (barCell (rotq c 1)) () 1

def L (g : GSem nD τ sig) : Finset Unit := if g.1.2 = .tc then {()} else ∅
/-- Barrier and ready cells at 1, in-plane receive cells at 2, cross-plane receive cells at 3, everything else (staging, sends) at 0:
    a device waits on a cell only while what it still owes lies strictly above. -/
def lv (g : GSem nD τ sig) (_ : Unit) : ℕ := match kindOf g.2 with
  | .bar => 1 | .zr => 1 | .v1 _ => 2 | .v2 _ => 3 | _ => 0

/-! ## A device's ghost state at the start of its body -/

/-- The invariants of the cells device `c`'s body opens — its own 22 and the 20 it pays into — under the names `κ` the launch allocated them at. -/
def invs (κ : Dev nD × Fin 22 → ℕ) (c : Dev nD) : sProp 𝕄 :=
  iprop(cellInv ER (Rd K) (κ (c, 0)) (barCell c)
    ∗ cellInv ER (Rd K) (κ (c, 1)) (zrCell c)
    ∗ cellInv ER (Rd K) (κ (c, 2)) (s1Cell c 0)
    ∗ cellInv ER (Rd K) (κ (c, 3)) (s1Cell c 1)
    ∗ cellInv ER (Rd K) (κ (c, 4)) (s1Cell c 2)
    ∗ cellInv ER (Rd K) (κ (c, 5)) (s1Cell c 3)
    ∗ cellInv ER (Rd K) (κ (c, 6)) (s1Cell c 4)
    ∗ cellInv ER (Rd K) (κ (c, 7)) (s1Cell c 5)
    ∗ cellInv ER (Rd K) (κ (c, 8)) (s1Cell c 6)
    ∗ cellInv ER (Rd K) (κ (c, 9)) (v1Cell c 0)
    ∗ cellInv ER (Rd K) (κ (c, 10)) (v1Cell c 1)
    ∗ cellInv ER (Rd K) (κ (c, 11)) (v1Cell c 2)
    ∗ cellInv ER (Rd K) (κ (c, 12)) (v1Cell c 3)
    ∗ cellInv ER (Rd K) (κ (c, 13)) (v1Cell c 4)
    ∗ cellInv ER (Rd K) (κ (c, 14)) (v1Cell c 5)
    ∗ cellInv ER (Rd K) (κ (c, 15)) (v1Cell c 6)
    ∗ cellInv ER (Rd K) (κ (c, 16)) (s2Cell c 0)
    ∗ cellInv ER (Rd K) (κ (c, 17)) (s2Cell c 1)
    ∗ cellInv ER (Rd K) (κ (c, 18)) (s2Cell c 2)
    ∗ cellInv ER (Rd K) (κ (c, 19)) (v2Cell c 0)
    ∗ cellInv ER (Rd K) (κ (c, 20)) (v2Cell c 1)
    ∗ cellInv ER (Rd K) (κ (c, 21)) (v2Cell c 2)
    ∗ cellInv ER (Rd K) (κ (rotq c 1, 0)) (barCell (rotq c 1))
    ∗ cellInv ER (Rd K) (κ (rotq c 2, 0)) (barCell (rotq c 2))
    ∗ cellInv ER (Rd K) (κ (rotq c 3, 0)) (barCell (rotq c 3))
    ∗ cellInv ER (Rd K) (κ (rotq c 4, 0)) (barCell (rotq c 4))
    ∗ cellInv ER (Rd K) (κ (rotq c 5, 0)) (barCell (rotq c 5))
    ∗ cellInv ER (Rd K) (κ (rotq c 6, 0)) (barCell (rotq c 6))
    ∗ cellInv ER (Rd K) (κ (rotq c 7, 0)) (barCell (rotq c 7))
    ∗ cellInv ER (Rd K) (κ (rotz c 1, 1)) (zrCell (rotz c 1))
    ∗ cellInv ER (Rd K) (κ (rotz c 2, 1)) (zrCell (rotz c 2))
    ∗ cellInv ER (Rd K) (κ (rotz c 3, 1)) (zrCell (rotz c 3))
    ∗ cellInv ER (Rd K) (κ (rotq c 1, 9)) (v1Cell (rotq c 1) 0)
    ∗ cellInv ER (Rd K) (κ (rotq c 2, 10)) (v1Cell (rotq c 2) 1)
    ∗ cellInv ER (Rd K) (κ (rotq c 3, 11)) (v1Cell (rotq c 3) 2)
    ∗ cellInv ER (Rd K) (κ (rotq c 4, 12)) (v1Cell (rotq c 4) 3)
    ∗ cellInv ER (Rd K) (κ (rotq c 5, 13)) (v1Cell (rotq c 5) 4)
    ∗ cellInv ER (Rd K) (κ (rotq c 6, 14)) (v1Cell (rotq c 6) 5)
    ∗ cellInv ER (Rd K) (κ (rotq c 7, 15)) (v1Cell (rotq c 7) 6)
    ∗ cellInv ER (Rd K) (κ (rotz c 1, 19)) (v2Cell (rotz c 1) 0)
    ∗ cellInv ER (Rd K) (κ (rotz c 2, 20)) (v2Cell (rotz c 2) 1)
    ∗ cellInv ER (Rd K) (κ (rotz c 3, 21)) (v2Cell (rotz c 3) 2))

instance invs_persistent (κ : Dev nD × Fin 22 → ℕ) (c : Dev nD) : BI.Persistent (invs K κ c) := by unfold invs; infer_instance

/-- The reached-marks: of the 10 cells it signals, of its own receive cells (handed on with its signals) and of its own send cells. -/
def marks (c : Dev nD) : sProp 𝕄 :=
  iprop(reached ER (barCell (rotq c 1)) 0
    ∗ reached ER (barCell (rotq c 2)) 0
    ∗ reached ER (barCell (rotq c 3)) 0
    ∗ reached ER (barCell (rotq c 4)) 0
    ∗ reached ER (barCell (rotq c 5)) 0
    ∗ reached ER (barCell (rotq c 6)) 0
    ∗ reached ER (barCell (rotq c 7)) 0
    ∗ reached ER (zrCell (rotz c 1)) 0
    ∗ reached ER (zrCell (rotz c 2)) 0
    ∗ reached ER (zrCell (rotz c 3)) 0
    ∗ reached ER (v1Cell c 0) 0
    ∗ reached ER (v1Cell c 1) 0
    ∗ reached ER (v1Cell c 2) 0
    ∗ reached ER (v1Cell c 3) 0
    ∗ reached ER (v1Cell c 4) 0
    ∗ reached ER (v1Cell c 5) 0
    ∗ reached ER (v1Cell c 6) 0
    ∗ reached ER (v2Cell c 0) 0
    ∗ reached ER (v2Cell c 1) 0
    ∗ reached ER (v2Cell c 2) 0
    ∗ reached ER (s1Cell c 0) 0
    ∗ reached ER (s1Cell c 1) 0
    ∗ reached ER (s1Cell c 2) 0
    ∗ reached ER (s1Cell c 3) 0
    ∗ reached ER (s1Cell c 4) 0
    ∗ reached ER (s1Cell c 5) 0
    ∗ reached ER (s1Cell c 6) 0
    ∗ reached ER (s2Cell c 0) 0
    ∗ reached ER (s2Cell c 1) 0
    ∗ reached ER (s2Cell c 2) 0)

instance marks_persistent (c : Dev nD) : BI.Persistent (marks (F := F) c) := by unfold marks; infer_instance

/-- Its positions (round 0 of each own cell) and the 30 duty tokens it pays with. -/
def linear (c : Dev nD) : sProp 𝕄 :=
  iprop(atPos ER (barCell c) 0 ∅ 0
    ∗ atPos ER (zrCell c) 0 ∅ 0
    ∗ atPos ER (s1Cell c 0) 0 ∅ 0
    ∗ atPos ER (s1Cell c 1) 0 ∅ 0
    ∗ atPos ER (s1Cell c 2) 0 ∅ 0
    ∗ atPos ER (s1Cell c 3) 0 ∅ 0
    ∗ atPos ER (s1Cell c 4) 0 ∅ 0
    ∗ atPos ER (s1Cell c 5) 0 ∅ 0
    ∗ atPos ER (s1Cell c 6) 0 ∅ 0
    ∗ atPos ER (v1Cell c 0) 0 ∅ 0
    ∗ atPos ER (v1Cell c 1) 0 ∅ 0
    ∗ atPos ER (v1Cell c 2) 0 ∅ 0
    ∗ atPos ER (v1Cell c 3) 0 ∅ 0
    ∗ atPos ER (v1Cell c 4) 0 ∅ 0
    ∗ atPos ER (v1Cell c 5) 0 ∅ 0
    ∗ atPos ER (v1Cell c 6) 0 ∅ 0
    ∗ atPos ER (s2Cell c 0) 0 ∅ 0
    ∗ atPos ER (s2Cell c 1) 0 ∅ 0
    ∗ atPos ER (s2Cell c 2) 0 ∅ 0
    ∗ atPos ER (v2Cell c 0) 0 ∅ 0
    ∗ atPos ER (v2Cell c 1) 0 ∅ 0
    ∗ atPos ER (v2Cell c 2) 0 ∅ 0
    ∗ dutyTok ER (barCell (rotq c 1)) 0 (c, (6 : Fin 8))
    ∗ dutyTok ER (barCell (rotq c 2)) 0 (c, (5 : Fin 8))
    ∗ dutyTok ER (barCell (rotq c 3)) 0 (c, (4 : Fin 8))
    ∗ dutyTok ER (barCell (rotq c 4)) 0 (c, (3 : Fin 8))
    ∗ dutyTok ER (barCell (rotq c 5)) 0 (c, (2 : Fin 8))
    ∗ dutyTok ER (barCell (rotq c 6)) 0 (c, (1 : Fin 8))
    ∗ dutyTok ER (barCell (rotq c 7)) 0 (c, (0 : Fin 8))
    ∗ dutyTok ER (zrCell (rotz c 1)) 0 (c, (2 : Fin 8))
    ∗ dutyTok ER (zrCell (rotz c 2)) 0 (c, (1 : Fin 8))
    ∗ dutyTok ER (zrCell (rotz c 3)) 0 (c, (0 : Fin 8))
    ∗ dutyTok ER (v1Cell (rotq c 1) 0) 0 (c, (0 : Fin 8))
    ∗ dutyTok ER (v1Cell (rotq c 2) 1) 0 (c, (0 : Fin 8))
    ∗ dutyTok ER (v1Cell (rotq c 3) 2) 0 (c, (0 : Fin 8))
    ∗ dutyTok ER (v1Cell (rotq c 4) 3) 0 (c, (0 : Fin 8))
    ∗ dutyTok ER (v1Cell (rotq c 5) 4) 0 (c, (0 : Fin 8))
    ∗ dutyTok ER (v1Cell (rotq c 6) 5) 0 (c, (0 : Fin 8))
    ∗ dutyTok ER (v1Cell (rotq c 7) 6) 0 (c, (0 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v2Cell (rotz c 1) 0) 0 (c, (0 : Fin 8))
    ∗ dutyTok ER (v2Cell (rotz c 2) 1) 0 (c, (0 : Fin 8))
    ∗ dutyTok ER (v2Cell (rotz c 3) 2) 0 (c, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8)))

def ghost (κ : Dev nD × Fin 22 → ℕ) (c : Dev nD) : sProp 𝕄 := iprop(invs K κ c ∗ marks c ∗ linear c)

/-- The credit dealt at launch for the cells it waits on whose units others pay. -/
def creds (c : Dev nD) : sProp 𝕄 :=
  iprop(cred (tallyAt (barCell c) () 7)
    ∗ cred (tallyAt (zrCell c) () 3)
    ∗ cred (tallyAt (v1Cell c 0) () N1)
    ∗ cred (tallyAt (v1Cell c 1) () N1)
    ∗ cred (tallyAt (v1Cell c 2) () N1)
    ∗ cred (tallyAt (v1Cell c 3) () N1)
    ∗ cred (tallyAt (v1Cell c 4) () N1)
    ∗ cred (tallyAt (v1Cell c 5) () N1)
    ∗ cred (tallyAt (v1Cell c 6) () N1)
    ∗ cred (tallyAt (v2Cell c 0) () N2)
    ∗ cred (tallyAt (v2Cell c 1) () N2)
    ∗ cred (tallyAt (v2Cell c 2) () N2))

/-- The four own DMA semaphores no statement touches, at zero from launch to exit. -/
def idle (c : Dev nD) : sProp 𝕄 :=
  iprop(semVal ((c : Thread nD τ), SemLoc.dma (3 : DmaSem sig)) 0 ∗ semVal ((c : Thread nD τ), SemLoc.dma (11 : DmaSem sig)) 0 ∗ semVal ((c : Thread nD τ), SemLoc.dma (19 : DmaSem sig)) 0 ∗ semVal ((c : Thread nD τ), SemLoc.dma (23 : DmaSem sig)) 0)

def start (c : Dev nD) : sProp 𝕄 :=
  iprop((∃ κ, ghost K κ c) ∗ creds c ∗ levAts L lv ∗ idle c)

end Cert.Kernel.Hand
end
-- ==== Proof.Bits.Levels.lean ====
import proofs.«900450_g7700000000000451_dist_matmul_mk_i_outk_m512_n512_k256_v7x_i32_f32_1_alg».proof.Proof.Bits.Ghost

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels: a wait is allowed while everything still owed lies strictly above the awaited cell -/

theorem L_tc (c : Dev nD) (sm : SemLoc sig) : L ((c : Thread nD τ), sm) = {()} := if_pos rfl
theorem L_of_ne (g : GSem nD τ sig) (h : g.1.2 ≠ .tc) : L g = ∅ := if_neg h

/-- Every cell `O` owes a unit to is a TensorCore's, at a level above `n`. -/
def Above (n : ℕ) (O : CellTallies nD τ sig Unit) : Prop :=
  ∀ (g : GSem nD τ sig) (i : Unit), 0 < O g i → i ∈ L g ∧ n < lv g i

theorem above_zero (n : ℕ) : Above n 0 := fun g i h => absurd h (by simp)
theorem above_add {n : ℕ} {A B : CellTallies nD τ sig Unit} (hA : Above n A) (hB : Above n B) : Above n (A + B) :=
  fun g i h => (Pipeline.add_pos_cases h).elim (hA g i) (hB g i)
theorem above_tally {n : ℕ} (x : Dev nD) (sm : SemLoc sig) (k : ℕ) (h : n < lv ((x : Thread nD τ), sm) ()) :
    Above n (tallyAt ((x : Thread nD τ), sm) () k) := fun g i hg => by
  rw [tallyAt_apply] at hg
  by_cases e : g = ((x : Thread nD τ), sm) ∧ i = ()
  · rw [e.1, L_tc]; exact ⟨Finset.mem_singleton.mpr (by cases i; rfl), h⟩
  · rw [if_neg e] at hg; exact absurd hg (Nat.lt_irrefl 0)

omit [FloatOps F] in
theorem mayWait_of_above (c : Dev nD) (sm : SemLoc sig) {O : CellTallies nD τ sig Unit} (h : Above (lv ((c : Thread nD τ), sm) ()) O) :
    (levAts L lv : sProp 𝕄) ⊢ MayWait (c : Thread nD τ) sm () O :=
  Pipeline.mayWait_of_levAts (by rw [L_tc]; exact Finset.mem_singleton_self _) h

/-- What device `c` still owes after its entry signals (the ten transfers), and after its in-plane transfers (the three cross-plane ones). -/
def O₁ (c : Dev nD) : CellTallies nD τ sig Unit :=
  0 + tallyAt (v2Cell (rotz c 3) 2) () N2
    + tallyAt (v2Cell (rotz c 2) 1) () N2
    + tallyAt (v2Cell (rotz c 1) 0) () N2
    + tallyAt (v1Cell (rotq c 7) 6) () N1
    + tallyAt (v1Cell (rotq c 6) 5) () N1
    + tallyAt (v1Cell (rotq c 5) 4) () N1
    + tallyAt (v1Cell (rotq c 4) 3) () N1
    + tallyAt (v1Cell (rotq c 3) 2) () N1
    + tallyAt (v1Cell (rotq c 2) 1) () N1
    + tallyAt (v1Cell (rotq c 1) 0) () N1
def O₂ (c : Dev nD) : CellTallies nD τ sig Unit :=
  0 + tallyAt (v2Cell (rotz c 3) 2) () N2
    + tallyAt (v2Cell (rotz c 2) 1) () N2
    + tallyAt (v2Cell (rotz c 1) 0) () N2

theorem above_O₂ (c : Dev nD) : Above 2 (O₂ c) := by
  unfold O₂
  exact above_add (above_add (above_add (above_zero _) (above_tally _ _ _ (show (2 : ℕ) < 3 by decide))) (above_tally _ _ _ (show (2 : ℕ) < 3 by decide))) (above_tally _ _ _ (show (2 : ℕ) < 3 by decide))
theorem above_O₁ (c : Dev nD) : Above 1 (O₁ c) := by
  unfold O₁
  exact above_add (above_add (above_add (above_add (above_add (above_add (above_add (above_add (above_add (above_add (above_zero _) (above_tally _ _ _ (show (1 : ℕ) < 3 by decide))) (above_tally _ _ _ (show (1 : ℕ) < 3 by decide))) (above_tally _ _ _ (show (1 : ℕ) < 3 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))) (above_tally _ _ _ (show (1 : ℕ) < 2 by decide))
theorem above_O₀ (c : Dev nD) : Above 0 (O₀ c) := by
  unfold O₀
  exact above_add (above_add (above_add (above_add (above_add (above_add (above_add (above_add (above_add (above_add (above_add (above_add (above_add (above_add (above_add (above_add (above_add (above_add (above_add (above_add (above_zero _) (above_tally _ _ _ (show (0 : ℕ) < 3 by decide))) (above_tally _ _ _ (show (0 : ℕ) < 3 by decide))) (above_tally _ _ _ (show (0 : ℕ) < 3 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 2 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))) (above_tally _ _ _ (show (0 : ℕ) < 1 by decide))

omit [FloatOps F] in
theorem mayWait_bar (c : Dev nD) : (levAts L lv : sProp 𝕄) ⊢ MayWait (c : Thread nD τ) (.reg barS) () (O₁ c) :=
  mayWait_of_above c _ (above_O₁ c)
omit [FloatOps F] in
theorem mayWait_zr (c : Dev nD) : (levAts L lv : sProp 𝕄) ⊢ MayWait (c : Thread nD τ) (.reg zrS) () (O₂ c) :=
  mayWait_of_above c _ (fun g i h => ⟨(above_O₂ c g i h).1, by have := (above_O₂ c g i h).2; exact lt_of_le_of_lt (show lv ((c : Thread nD τ), SemLoc.reg zrS) () ≤ 2 from (by decide : (1:ℕ) ≤ 2)) this⟩)
omit [FloatOps F] in
theorem mayWait_v1_0 (c : Dev nD) : (levAts L lv : sProp 𝕄) ⊢ MayWait (c : Thread nD τ) (.dma (v1S 0)) () (O₂ c) :=
  mayWait_of_above c _ (above_O₂ c)
omit [FloatOps F] in
theorem mayWait_v1_1 (c : Dev nD) : (levAts L lv : sProp 𝕄) ⊢ MayWait (c : Thread nD τ) (.dma (v1S 1)) () (O₂ c) :=
  mayWait_of_above c _ (above_O₂ c)
omit [FloatOps F] in
theorem mayWait_v1_2 (c : Dev nD) : (levAts L lv : sProp 𝕄) ⊢ MayWait (c : Thread nD τ) (.dma (v1S 2)) () (O₂ c) :=
  mayWait_of_above c _ (above_O₂ c)
omit [FloatOps F] in
theorem mayWait_v1_3 (c : Dev nD) : (levAts L lv : sProp 𝕄) ⊢ MayWait (c : Thread nD τ) (.dma (v1S 3)) () (O₂ c) :=
  mayWait_of_above c _ (above_O₂ c)
omit [FloatOps F] in
theorem mayWait_v1_4 (c : Dev nD) : (levAts L lv : sProp 𝕄) ⊢ MayWait (c : Thread nD τ) (.dma (v1S 4)) () (O₂ c) :=
  mayWait_of_above c _ (above_O₂ c)
omit [FloatOps F] in
theorem mayWait_v1_5 (c : Dev nD) : (levAts L lv : sProp 𝕄) ⊢ MayWait (c : Thread nD τ) (.dma (v1S 5)) () (O₂ c) :=
  mayWait_of_above c _ (above_O₂ c)
omit [FloatOps F] in
theorem mayWait_v1_6 (c : Dev nD) : (levAts L lv : sProp 𝕄) ⊢ MayWait (c : Thread nD τ) (.dma (v1S 6)) () (O₂ c) :=
  mayWait_of_above c _ (above_O₂ c)

end Cert.Kernel.Hand
end
-- ==== Proof.Bits.Dats.lean ====
import proofs.«900450_g7700000000000451_dist_matmul_mk_i_outk_m512_n512_k256_v7x_i32_f32_1_alg».proof.Proof.Bits.Ghost

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
variable (m : (ℓ : Loc nD τ sig) → Buf (Elt F) ℓ) (ρ : Dev nD → PrngReg)

abbrev 𝒱₀ : Variants := Variants.none

/-- The memory at launch: arbitrary contents, every semaphore counter zero, arbitrary generator registers. -/
def s₀ : MemSt nD τ sig (Elt F) := ⟨m, fun _ => 0, ρ⟩

/-- Device `c`'s block of `A` and of `B`, as staged. -/
def aC (c : Dev nD) : (cc0_stg0_0 : Ref sig .tc).ty.Contents (Elt F) :=
  (win0_0.blk (0 : Fin 1)).view.read (Elt F) ((s₀ m ρ).mem ((c : Thread nD τ).loc main_arg0))
def bC (c : Dev nD) : (cc0_stg1_0 : Ref sig .tc).ty.Contents (Elt F) :=
  (win0_1.blk (0 : Fin 1)).view.read (Elt F) ((s₀ m ρ).mem ((c : Thread nD τ).loc main_arg1))

/-- The six scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- The 21 own semaphores the body uses, back at zero. -/
def closed (c : Dev nD) : sProp 𝕄 :=
  iprop(semVal (zrCell c) 0
    ∗ semVal (s1Cell c 0) 0
    ∗ semVal (s1Cell c 1) 0
    ∗ semVal (s1Cell c 2) 0
    ∗ semVal (s1Cell c 3) 0
    ∗ semVal (s1Cell c 4) 0
    ∗ semVal (s1Cell c 5) 0
    ∗ semVal (s1Cell c 6) 0
    ∗ semVal (v1Cell c 0) 0
    ∗ semVal (v1Cell c 1) 0
    ∗ semVal (v1Cell c 2) 0
    ∗ semVal (v1Cell c 3) 0
    ∗ semVal (v1Cell c 4) 0
    ∗ semVal (v1Cell c 5) 0
    ∗ semVal (v1Cell c 6) 0
    ∗ semVal (s2Cell c 0) 0
    ∗ semVal (s2Cell c 1) 0
    ∗ semVal (s2Cell c 2) 0
    ∗ semVal (v2Cell c 0) 0
    ∗ semVal (v2Cell c 1) 0
    ∗ semVal (v2Cell c 2) 0)

def Φ₀ (c : Dev nD) : sProp 𝕄 := iprop(start K c ∗ scr c)
def Φ₁ (c : Dev nD) : sProp 𝕄 := iprop(scr c ∗ closed c ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aC m ρ c
    | ⟨1, _⟩ => bC m ρ c
    | ⟨2, _⟩ => K.out c
  Φ t := match t with
    | ⟨0, _⟩ => Φ₀ K c
    | ⟨_ + 1, _⟩ => Φ₁ c
  q _ := fullShare
  owed t := match t with
    | ⟨0, _⟩ => O₀ c
    | ⟨_ + 1, _⟩ => 0

end Cert.Kernel.Hand
end
-- ==== Proof.Bits.Steps.lean ====
import proofs.«900450_g7700000000000451_dist_matmul_mk_i_outk_m512_n512_k256_v7x_i32_f32_1_alg».proof.Proof.Bits.Levels
import proofs.«900450_g7700000000000451_dist_matmul_mk_i_outk_m512_n512_k256_v7x_i32_f32_1_alg».proof.Proof.Bits.Dats

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)

/-! ## What a whole round of entry signals hands a device -/

theorem bar_payloads (x : Dev nD) :
    bigSep ({(rotq x 1, 0), (rotq x 2, 1), (rotq x 3, 2), (rotq x 4, 3), (rotq x 5, 4), (rotq x 6, 5), (rotq x 7, 6)} : Finset DU) (fun d => (Rd K).payload (barCell x) 0 d)
      = iprop(((∃ f : Buf (Elt F) ((slot1 0).view.loc ((rotq x 1) : Thread nD τ)), (slot1 0).view.loc ((rotq x 1) : Thread nD τ) ↦[(slot1 0).view.set]{fullShare} f) ∗ reached ER (v1Cell (rotq x 1) 0) 0)
      ∗ ((∃ f : Buf (Elt F) ((slot1 1).view.loc ((rotq x 2) : Thread nD τ)), (slot1 1).view.loc ((rotq x 2) : Thread nD τ) ↦[(slot1 1).view.set]{fullShare} f) ∗ reached ER (v1Cell (rotq x 2) 1) 0)
      ∗ ((∃ f : Buf (Elt F) ((slot1 2).view.loc ((rotq x 3) : Thread nD τ)), (slot1 2).view.loc ((rotq x 3) : Thread nD τ) ↦[(slot1 2).view.set]{fullShare} f) ∗ reached ER (v1Cell (rotq x 3) 2) 0)
      ∗ ((∃ f : Buf (Elt F) ((slot1 3).view.loc ((rotq x 4) : Thread nD τ)), (slot1 3).view.loc ((rotq x 4) : Thread nD τ) ↦[(slot1 3).view.set]{fullShare} f) ∗ reached ER (v1Cell (rotq x 4) 3) 0)
      ∗ ((∃ f : Buf (Elt F) ((slot1 4).view.loc ((rotq x 5) : Thread nD τ)), (slot1 4).view.loc ((rotq x 5) : Thread nD τ) ↦[(slot1 4).view.set]{fullShare} f) ∗ reached ER (v1Cell (rotq x 5) 4) 0)
      ∗ ((∃ f : Buf (Elt F) ((slot1 5).view.loc ((rotq x 6) : Thread nD τ)), (slot1 5).view.loc ((rotq x 6) : Thread nD τ) ↦[(slot1 5).view.set]{fullShare} f) ∗ reached ER (v1Cell (rotq x 6) 5) 0)
      ∗ ((∃ f : Buf (Elt F) ((slot1 6).view.loc ((rotq x 7) : Thread nD τ)), (slot1 6).view.loc ((rotq x 7) : Thread nD τ) ↦[(slot1 6).view.set]{fullShare} f) ∗ reached ER (v1Cell (rotq x 7) 6) 0)) := by
  rw [bigSep_eq_bigSepL_of_eq [(rotq x 1, (0 : Fin 8)), (rotq x 2, (1 : Fin 8)), (rotq x 3, (2 : Fin 8)), (rotq x 4, (3 : Fin 8)), (rotq x 5, (4 : Fin 8)), (rotq x 6, (5 : Fin 8)), (rotq x 7, (6 : Fin 8))] (by simp) (by simp)]
  simp only [bigSepL_cons_cons, bigSepL_singleton, payload_bar_0, payload_bar_1, payload_bar_2, payload_bar_3, payload_bar_4, payload_bar_5, payload_bar_6]
  rfl
theorem zr_payloads (x : Dev nD) :
    bigSep ({(rotz x 1, 0), (rotz x 2, 1), (rotz x 3, 2)} : Finset DU) (fun d => (Rd K).payload (zrCell x) 0 d)
      = iprop(((∃ f : Buf (Elt F) ((slot2 0).view.loc ((rotz x 1) : Thread nD τ)), (slot2 0).view.loc ((rotz x 1) : Thread nD τ) ↦[(slot2 0).view.set]{fullShare} f) ∗ reached ER (v2Cell (rotz x 1) 0) 0)
      ∗ ((∃ f : Buf (Elt F) ((slot2 1).view.loc ((rotz x 2) : Thread nD τ)), (slot2 1).view.loc ((rotz x 2) : Thread nD τ) ↦[(slot2 1).view.set]{fullShare} f) ∗ reached ER (v2Cell (rotz x 2) 1) 0)
      ∗ ((∃ f : Buf (Elt F) ((slot2 2).view.loc ((rotz x 3) : Thread nD τ)), (slot2 2).view.loc ((rotz x 3) : Thread nD τ) ↦[(slot2 2).view.set]{fullShare} f) ∗ reached ER (v2Cell (rotz x 3) 2) 0)) := by
  rw [bigSep_eq_bigSepL_of_eq [(rotz x 1, (0 : Fin 8)), (rotz x 2, (1 : Fin 8)), (rotz x 3, (2 : Fin 8))] (by simp) (by simp)]
  simp only [bigSepL_cons_cons, bigSepL_singleton, payload_zr_0, payload_zr_1, payload_zr_2]
  rfl

/-! ## The transfers -/

/-- Device `c`'s transfer number 0 of phase 1, to `rotq c 1`: the source slice is lent to its own send cell, the target's slot lands holding what the slice reads. -/
theorem wp_send1_0 (κ₁ κ₂ : ℕ) (c n : Dev nD) (hn : n = rotq c 1)
    {hsc : ((slot1 0) : Memref sig (Dev.tc n : Thread nD τ).2.kind .vmem S4x16x512 .bf16).view.ref.isScScratch = false}
    {hsrc : (src1 c 0).view.WordExact} {hdst : (slot1 0).view.WordExact}
    {hsem : DmaTarget.Typed .vmem (.dma (v1S 0)) (.remote (Dev.tc n : Thread nD τ) (slot1 0) (.dma (s1S 0)) hsc)}
    {α : Type} {Q : α → sProp 𝕄} {k : PUnit → Prog (TpuEff nD τ sig (Elt F) Λ₀ .tc) α}
    (fs : Buf (Elt F) ((src1 c 0).view.loc (c : Thread nD τ))) (fd : Buf (Elt F) ((slot1 0).view.loc ((rotq c 1 : Dev nD) : Thread nD τ)))
    (hv : (src1 c 0).view.read (Elt F) fs = K.v1 (rotq c 1) 0) (W : Waits sig Unit) (O : CellTallies nD τ sig Unit) :
    iprop(cellInv ER (Rd K) κ₁ (s1Cell c 0) ∗ cellInv ER (Rd K) κ₂ (v1Cell (rotq c 1) 0)
        ∗ ((src1 c 0).view.loc (c : Thread nD τ) ↦[(src1 c 0).view.set]{fullShare} fs)
        ∗ ((slot1 0).view.loc ((rotq c 1 : Dev nD) : Thread nD τ) ↦[(slot1 0).view.set]{fullShare} fd)
        ∗ owes (c : Thread nD τ) (O + tallyAt (v1Cell (rotq c 1) 0) () N1) W
        ∗ dutyTok ER (s1Cell c 0) 0 (c, (0 : Fin 8)) ∗ reached ER (s1Cell c 0) 0
        ∗ dutyTok ER (v1Cell (rotq c 1) 0) 0 (c, (0 : Fin 8)) ∗ reached ER (v1Cell (rotq c 1) 0) 0)
      ⊢ iprop(((cred (tallyAt (s1Cell c 0) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 0) (.remote (Dev.tc n : Thread nD τ) (slot1 0) (.dma (s1S 0)) hsc) (.dma (v1S 0)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_0]; exact Finset.mem_singleton_self _) (mem_v1_0 K c)
    () () N1 rfl rfl rfl O rfl (W := W)
    (by rw [payload_s1_0]; iintro H; iexists fs; iexact H)
    (by
      rw [payload_v1_0]
      iintro H
      iexists ((slot1 0).view.write (Elt F) fd ((src1 c 0).view.read (Elt F) fs) Finset.univ)
      isplitr; · ipureintro; rw [View.read_write_univ]; exact hv
      iexact H)

/-- Device `c`'s transfer number 1 of phase 1, to `rotq c 2`: the source slice is lent to its own send cell, the target's slot lands holding what the slice reads. -/
theorem wp_send1_1 (κ₁ κ₂ : ℕ) (c n : Dev nD) (hn : n = rotq c 2)
    {hsc : ((slot1 1) : Memref sig (Dev.tc n : Thread nD τ).2.kind .vmem S4x16x512 .bf16).view.ref.isScScratch = false}
    {hsrc : (src1 c 1).view.WordExact} {hdst : (slot1 1).view.WordExact}
    {hsem : DmaTarget.Typed .vmem (.dma (v1S 1)) (.remote (Dev.tc n : Thread nD τ) (slot1 1) (.dma (s1S 1)) hsc)}
    {α : Type} {Q : α → sProp 𝕄} {k : PUnit → Prog (TpuEff nD τ sig (Elt F) Λ₀ .tc) α}
    (fs : Buf (Elt F) ((src1 c 1).view.loc (c : Thread nD τ))) (fd : Buf (Elt F) ((slot1 1).view.loc ((rotq c 2 : Dev nD) : Thread nD τ)))
    (hv : (src1 c 1).view.read (Elt F) fs = K.v1 (rotq c 2) 1) (W : Waits sig Unit) (O : CellTallies nD τ sig Unit) :
    iprop(cellInv ER (Rd K) κ₁ (s1Cell c 1) ∗ cellInv ER (Rd K) κ₂ (v1Cell (rotq c 2) 1)
        ∗ ((src1 c 1).view.loc (c : Thread nD τ) ↦[(src1 c 1).view.set]{fullShare} fs)
        ∗ ((slot1 1).view.loc ((rotq c 2 : Dev nD) : Thread nD τ) ↦[(slot1 1).view.set]{fullShare} fd)
        ∗ owes (c : Thread nD τ) (O + tallyAt (v1Cell (rotq c 2) 1) () N1) W
        ∗ dutyTok ER (s1Cell c 1) 0 (c, (0 : Fin 8)) ∗ reached ER (s1Cell c 1) 0
        ∗ dutyTok ER (v1Cell (rotq c 2) 1) 0 (c, (0 : Fin 8)) ∗ reached ER (v1Cell (rotq c 2) 1) 0)
      ⊢ iprop(((cred (tallyAt (s1Cell c 1) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 1) (.remote (Dev.tc n : Thread nD τ) (slot1 1) (.dma (s1S 1)) hsc) (.dma (v1S 1)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_1]; exact Finset.mem_singleton_self _) (mem_v1_1 K c)
    () () N1 rfl rfl rfl O rfl (W := W)
    (by rw [payload_s1_1]; iintro H; iexists fs; iexact H)
    (by
      rw [payload_v1_1]
      iintro H
      iexists ((slot1 1).view.write (Elt F) fd ((src1 c 1).view.read (Elt F) fs) Finset.univ)
      isplitr; · ipureintro; rw [View.read_write_univ]; exact hv
      iexact H)

/-- Device `c`'s transfer number 2 of phase 1, to `rotq c 3`: the source slice is lent to its own send cell, the target's slot lands holding what the slice reads. -/
theorem wp_send1_2 (κ₁ κ₂ : ℕ) (c n : Dev nD) (hn : n = rotq c 3)
    {hsc : ((slot1 2) : Memref sig (Dev.tc n : Thread nD τ).2.kind .vmem S4x16x512 .bf16).view.ref.isScScratch = false}
    {hsrc : (src1 c 2).view.WordExact} {hdst : (slot1 2).view.WordExact}
    {hsem : DmaTarget.Typed .vmem (.dma (v1S 2)) (.remote (Dev.tc n : Thread nD τ) (slot1 2) (.dma (s1S 2)) hsc)}
    {α : Type} {Q : α → sProp 𝕄} {k : PUnit → Prog (TpuEff nD τ sig (Elt F) Λ₀ .tc) α}
    (fs : Buf (Elt F) ((src1 c 2).view.loc (c : Thread nD τ))) (fd : Buf (Elt F) ((slot1 2).view.loc ((rotq c 3 : Dev nD) : Thread nD τ)))
    (hv : (src1 c 2).view.read (Elt F) fs = K.v1 (rotq c 3) 2) (W : Waits sig Unit) (O : CellTallies nD τ sig Unit) :
    iprop(cellInv ER (Rd K) κ₁ (s1Cell c 2) ∗ cellInv ER (Rd K) κ₂ (v1Cell (rotq c 3) 2)
        ∗ ((src1 c 2).view.loc (c : Thread nD τ) ↦[(src1 c 2).view.set]{fullShare} fs)
        ∗ ((slot1 2).view.loc ((rotq c 3 : Dev nD) : Thread nD τ) ↦[(slot1 2).view.set]{fullShare} fd)
        ∗ owes (c : Thread nD τ) (O + tallyAt (v1Cell (rotq c 3) 2) () N1) W
        ∗ dutyTok ER (s1Cell c 2) 0 (c, (0 : Fin 8)) ∗ reached ER (s1Cell c 2) 0
        ∗ dutyTok ER (v1Cell (rotq c 3) 2) 0 (c, (0 : Fin 8)) ∗ reached ER (v1Cell (rotq c 3) 2) 0)
      ⊢ iprop(((cred (tallyAt (s1Cell c 2) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 2) (.remote (Dev.tc n : Thread nD τ) (slot1 2) (.dma (s1S 2)) hsc) (.dma (v1S 2)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_2]; exact Finset.mem_singleton_self _) (mem_v1_2 K c)
    () () N1 rfl rfl rfl O rfl (W := W)
    (by rw [payload_s1_2]; iintro H; iexists fs; iexact H)
    (by
      rw [payload_v1_2]
      iintro H
      iexists ((slot1 2).view.write (Elt F) fd ((src1 c 2).view.read (Elt F) fs) Finset.univ)
      isplitr; · ipureintro; rw [View.read_write_univ]; exact hv
      iexact H)

/-- Device `c`'s transfer number 3 of phase 1, to `rotq c 4`: the source slice is lent to its own send cell, the target's slot lands holding what the slice reads. -/
theorem wp_send1_3 (κ₁ κ₂ : ℕ) (c n : Dev nD) (hn : n = rotq c 4)
    {hsc : ((slot1 3) : Memref sig (Dev.tc n : Thread nD τ).2.kind .vmem S4x16x512 .bf16).view.ref.isScScratch = false}
    {hsrc : (src1 c 3).view.WordExact} {hdst : (slot1 3).view.WordExact}
    {hsem : DmaTarget.Typed .vmem (.dma (v1S 3)) (.remote (Dev.tc n : Thread nD τ) (slot1 3) (.dma (s1S 3)) hsc)}
    {α : Type} {Q : α → sProp 𝕄} {k : PUnit → Prog (TpuEff nD τ sig (Elt F) Λ₀ .tc) α}
    (fs : Buf (Elt F) ((src1 c 3).view.loc (c : Thread nD τ))) (fd : Buf (Elt F) ((slot1 3).view.loc ((rotq c 4 : Dev nD) : Thread nD τ)))
    (hv : (src1 c 3).view.read (Elt F) fs = K.v1 (rotq c 4) 3) (W : Waits sig Unit) (O : CellTallies nD τ sig Unit) :
    iprop(cellInv ER (Rd K) κ₁ (s1Cell c 3) ∗ cellInv ER (Rd K) κ₂ (v1Cell (rotq c 4) 3)
        ∗ ((src1 c 3).view.loc (c : Thread nD τ) ↦[(src1 c 3).view.set]{fullShare} fs)
        ∗ ((slot1 3).view.loc ((rotq c 4 : Dev nD) : Thread nD τ) ↦[(slot1 3).view.set]{fullShare} fd)
        ∗ owes (c : Thread nD τ) (O + tallyAt (v1Cell (rotq c 4) 3) () N1) W
        ∗ dutyTok ER (s1Cell c 3) 0 (c, (0 : Fin 8)) ∗ reached ER (s1Cell c 3) 0
        ∗ dutyTok ER (v1Cell (rotq c 4) 3) 0 (c, (0 : Fin 8)) ∗ reached ER (v1Cell (rotq c 4) 3) 0)
      ⊢ iprop(((cred (tallyAt (s1Cell c 3) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 3) (.remote (Dev.tc n : Thread nD τ) (slot1 3) (.dma (s1S 3)) hsc) (.dma (v1S 3)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_3]; exact Finset.mem_singleton_self _) (mem_v1_3 K c)
    () () N1 rfl rfl rfl O rfl (W := W)
    (by rw [payload_s1_3]; iintro H; iexists fs; iexact H)
    (by
      rw [payload_v1_3]
      iintro H
      iexists ((slot1 3).view.write (Elt F) fd ((src1 c 3).view.read (Elt F) fs) Finset.univ)
      isplitr; · ipureintro; rw [View.read_write_univ]; exact hv
      iexact H)

/-- Device `c`'s transfer number 4 of phase 1, to `rotq c 5`: the source slice is lent to its own send cell, the target's slot lands holding what the slice reads. -/
theorem wp_send1_4 (κ₁ κ₂ : ℕ) (c n : Dev nD) (hn : n = rotq c 5)
    {hsc : ((slot1 4) : Memref sig (Dev.tc n : Thread nD τ).2.kind .vmem S4x16x512 .bf16).view.ref.isScScratch = false}
    {hsrc : (src1 c 4).view.WordExact} {hdst : (slot1 4).view.WordExact}
    {hsem : DmaTarget.Typed .vmem (.dma (v1S 4)) (.remote (Dev.tc n : Thread nD τ) (slot1 4) (.dma (s1S 4)) hsc)}
    {α : Type} {Q : α → sProp 𝕄} {k : PUnit → Prog (TpuEff nD τ sig (Elt F) Λ₀ .tc) α}
    (fs : Buf (Elt F) ((src1 c 4).view.loc (c : Thread nD τ))) (fd : Buf (Elt F) ((slot1 4).view.loc ((rotq c 5 : Dev nD) : Thread nD τ)))
    (hv : (src1 c 4).view.read (Elt F) fs = K.v1 (rotq c 5) 4) (W : Waits sig Unit) (O : CellTallies nD τ sig Unit) :
    iprop(cellInv ER (Rd K) κ₁ (s1Cell c 4) ∗ cellInv ER (Rd K) κ₂ (v1Cell (rotq c 5) 4)
        ∗ ((src1 c 4).view.loc (c : Thread nD τ) ↦[(src1 c 4).view.set]{fullShare} fs)
        ∗ ((slot1 4).view.loc ((rotq c 5 : Dev nD) : Thread nD τ) ↦[(slot1 4).view.set]{fullShare} fd)
        ∗ owes (c : Thread nD τ) (O + tallyAt (v1Cell (rotq c 5) 4) () N1) W
        ∗ dutyTok ER (s1Cell c 4) 0 (c, (0 : Fin 8)) ∗ reached ER (s1Cell c 4) 0
        ∗ dutyTok ER (v1Cell (rotq c 5) 4) 0 (c, (0 : Fin 8)) ∗ reached ER (v1Cell (rotq c 5) 4) 0)
      ⊢ iprop(((cred (tallyAt (s1Cell c 4) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 4) (.remote (Dev.tc n : Thread nD τ) (slot1 4) (.dma (s1S 4)) hsc) (.dma (v1S 4)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_4]; exact Finset.mem_singleton_self _) (mem_v1_4 K c)
    () () N1 rfl rfl rfl O rfl (W := W)
    (by rw [payload_s1_4]; iintro H; iexists fs; iexact H)
    (by
      rw [payload_v1_4]
      iintro H
      iexists ((slot1 4).view.write (Elt F) fd ((src1 c 4).view.read (Elt F) fs) Finset.univ)
      isplitr; · ipureintro; rw [View.read_write_univ]; exact hv
      iexact H)

/-- Device `c`'s transfer number 5 of phase 1, to `rotq c 6`: the source slice is lent to its own send cell, the target's slot lands holding what the slice reads. -/
theorem wp_send1_5 (κ₁ κ₂ : ℕ) (c n : Dev nD) (hn : n = rotq c 6)
    {hsc : ((slot1 5) : Memref sig (Dev.tc n : Thread nD τ).2.kind .vmem S4x16x512 .bf16).view.ref.isScScratch = false}
    {hsrc : (src1 c 5).view.WordExact} {hdst : (slot1 5).view.WordExact}
    {hsem : DmaTarget.Typed .vmem (.dma (v1S 5)) (.remote (Dev.tc n : Thread nD τ) (slot1 5) (.dma (s1S 5)) hsc)}
    {α : Type} {Q : α → sProp 𝕄} {k : PUnit → Prog (TpuEff nD τ sig (Elt F) Λ₀ .tc) α}
    (fs : Buf (Elt F) ((src1 c 5).view.loc (c : Thread nD τ))) (fd : Buf (Elt F) ((slot1 5).view.loc ((rotq c 6 : Dev nD) : Thread nD τ)))
    (hv : (src1 c 5).view.read (Elt F) fs = K.v1 (rotq c 6) 5) (W : Waits sig Unit) (O : CellTallies nD τ sig Unit) :
    iprop(cellInv ER (Rd K) κ₁ (s1Cell c 5) ∗ cellInv ER (Rd K) κ₂ (v1Cell (rotq c 6) 5)
        ∗ ((src1 c 5).view.loc (c : Thread nD τ) ↦[(src1 c 5).view.set]{fullShare} fs)
        ∗ ((slot1 5).view.loc ((rotq c 6 : Dev nD) : Thread nD τ) ↦[(slot1 5).view.set]{fullShare} fd)
        ∗ owes (c : Thread nD τ) (O + tallyAt (v1Cell (rotq c 6) 5) () N1) W
        ∗ dutyTok ER (s1Cell c 5) 0 (c, (0 : Fin 8)) ∗ reached ER (s1Cell c 5) 0
        ∗ dutyTok ER (v1Cell (rotq c 6) 5) 0 (c, (0 : Fin 8)) ∗ reached ER (v1Cell (rotq c 6) 5) 0)
      ⊢ iprop(((cred (tallyAt (s1Cell c 5) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 5) (.remote (Dev.tc n : Thread nD τ) (slot1 5) (.dma (s1S 5)) hsc) (.dma (v1S 5)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_5]; exact Finset.mem_singleton_self _) (mem_v1_5 K c)
    () () N1 rfl rfl rfl O rfl (W := W)
    (by rw [payload_s1_5]; iintro H; iexists fs; iexact H)
    (by
      rw [payload_v1_5]
      iintro H
      iexists ((slot1 5).view.write (Elt F) fd ((src1 c 5).view.read (Elt F) fs) Finset.univ)
      isplitr; · ipureintro; rw [View.read_write_univ]; exact hv
      iexact H)

/-- Device `c`'s transfer number 6 of phase 1, to `rotq c 7`: the source slice is lent to its own send cell, the target's slot lands holding what the slice reads. -/
theorem wp_send1_6 (κ₁ κ₂ : ℕ) (c n : Dev nD) (hn : n = rotq c 7)
    {hsc : ((slot1 6) : Memref sig (Dev.tc n : Thread nD τ).2.kind .vmem S4x16x512 .bf16).view.ref.isScScratch = false}
    {hsrc : (src1 c 6).view.WordExact} {hdst : (slot1 6).view.WordExact}
    {hsem : DmaTarget.Typed .vmem (.dma (v1S 6)) (.remote (Dev.tc n : Thread nD τ) (slot1 6) (.dma (s1S 6)) hsc)}
    {α : Type} {Q : α → sProp 𝕄} {k : PUnit → Prog (TpuEff nD τ sig (Elt F) Λ₀ .tc) α}
    (fs : Buf (Elt F) ((src1 c 6).view.loc (c : Thread nD τ))) (fd : Buf (Elt F) ((slot1 6).view.loc ((rotq c 7 : Dev nD) : Thread nD τ)))
    (hv : (src1 c 6).view.read (Elt F) fs = K.v1 (rotq c 7) 6) (W : Waits sig Unit) (O : CellTallies nD τ sig Unit) :
    iprop(cellInv ER (Rd K) κ₁ (s1Cell c 6) ∗ cellInv ER (Rd K) κ₂ (v1Cell (rotq c 7) 6)
        ∗ ((src1 c 6).view.loc (c : Thread nD τ) ↦[(src1 c 6).view.set]{fullShare} fs)
        ∗ ((slot1 6).view.loc ((rotq c 7 : Dev nD) : Thread nD τ) ↦[(slot1 6).view.set]{fullShare} fd)
        ∗ owes (c : Thread nD τ) (O + tallyAt (v1Cell (rotq c 7) 6) () N1) W
        ∗ dutyTok ER (s1Cell c 6) 0 (c, (0 : Fin 8)) ∗ reached ER (s1Cell c 6) 0
        ∗ dutyTok ER (v1Cell (rotq c 7) 6) 0 (c, (0 : Fin 8)) ∗ reached ER (v1Cell (rotq c 7) 6) 0)
      ⊢ iprop(((cred (tallyAt (s1Cell c 6) () N1) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c 6) (.remote (Dev.tc n : Thread nD τ) (slot1 6) (.dma (s1S 6)) hsc) (.dma (v1S 6)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s1_6]; exact Finset.mem_singleton_self _) (mem_v1_6 K c)
    () () N1 rfl rfl rfl O rfl (W := W)
    (by rw [payload_s1_6]; iintro H; iexists fs; iexact H)
    (by
      rw [payload_v1_6]
      iintro H
      iexists ((slot1 6).view.write (Elt F) fd ((src1 c 6).view.read (Elt F) fs) Finset.univ)
      isplitr; · ipureintro; rw [View.read_write_univ]; exact hv
      iexact H)

/-- Device `c`'s transfer number 0 of phase 2, to `rotz c 1`: the source slice is lent to its own send cell, the target's slot lands holding what the slice reads. -/
theorem wp_send2_0 (κ₁ κ₂ : ℕ) (c n : Dev nD) (hn : n = rotz c 1)
    {hsc : ((slot2 0) : Memref sig (Dev.tc n : Thread nD τ).2.kind .vmem S16x512 .bf16).view.ref.isScScratch = false}
    {hsrc : (src2 c 0).view.WordExact} {hdst : (slot2 0).view.WordExact}
    {hsem : DmaTarget.Typed .vmem (.dma (v2S 0)) (.remote (Dev.tc n : Thread nD τ) (slot2 0) (.dma (s2S 0)) hsc)}
    {α : Type} {Q : α → sProp 𝕄} {k : PUnit → Prog (TpuEff nD τ sig (Elt F) Λ₀ .tc) α}
    (fs : Buf (Elt F) ((src2 c 0).view.loc (c : Thread nD τ))) (fd : Buf (Elt F) ((slot2 0).view.loc ((rotz c 1 : Dev nD) : Thread nD τ)))
    (hv : (src2 c 0).view.read (Elt F) fs = K.v2 (rotz c 1) 0) (W : Waits sig Unit) (O : CellTallies nD τ sig Unit) :
    iprop(cellInv ER (Rd K) κ₁ (s2Cell c 0) ∗ cellInv ER (Rd K) κ₂ (v2Cell (rotz c 1) 0)
        ∗ ((src2 c 0).view.loc (c : Thread nD τ) ↦[(src2 c 0).view.set]{fullShare} fs)
        ∗ ((slot2 0).view.loc ((rotz c 1 : Dev nD) : Thread nD τ) ↦[(slot2 0).view.set]{fullShare} fd)
        ∗ owes (c : Thread nD τ) (O + tallyAt (v2Cell (rotz c 1) 0) () N2) W
        ∗ dutyTok ER (s2Cell c 0) 0 (c, (0 : Fin 8)) ∗ reached ER (s2Cell c 0) 0
        ∗ dutyTok ER (v2Cell (rotz c 1) 0) 0 (c, (0 : Fin 8)) ∗ reached ER (v2Cell (rotz c 1) 0) 0)
      ⊢ iprop(((cred (tallyAt (s2Cell c 0) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 0) (.remote (Dev.tc n : Thread nD τ) (slot2 0) (.dma (s2S 0)) hsc) (.dma (v2S 0)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_0]; exact Finset.mem_singleton_self _) (mem_v2_0 K c)
    () () N2 rfl rfl rfl O rfl (W := W)
    (by rw [payload_s2_0]; iintro H; iexists fs; iexact H)
    (by
      rw [payload_v2_0]
      iintro H
      iexists ((slot2 0).view.write (Elt F) fd ((src2 c 0).view.read (Elt F) fs) Finset.univ)
      isplitr; · ipureintro; rw [View.read_write_univ]; exact hv
      iexact H)

/-- Device `c`'s transfer number 1 of phase 2, to `rotz c 2`: the source slice is lent to its own send cell, the target's slot lands holding what the slice reads. -/
theorem wp_send2_1 (κ₁ κ₂ : ℕ) (c n : Dev nD) (hn : n = rotz c 2)
    {hsc : ((slot2 1) : Memref sig (Dev.tc n : Thread nD τ).2.kind .vmem S16x512 .bf16).view.ref.isScScratch = false}
    {hsrc : (src2 c 1).view.WordExact} {hdst : (slot2 1).view.WordExact}
    {hsem : DmaTarget.Typed .vmem (.dma (v2S 1)) (.remote (Dev.tc n : Thread nD τ) (slot2 1) (.dma (s2S 1)) hsc)}
    {α : Type} {Q : α → sProp 𝕄} {k : PUnit → Prog (TpuEff nD τ sig (Elt F) Λ₀ .tc) α}
    (fs : Buf (Elt F) ((src2 c 1).view.loc (c : Thread nD τ))) (fd : Buf (Elt F) ((slot2 1).view.loc ((rotz c 2 : Dev nD) : Thread nD τ)))
    (hv : (src2 c 1).view.read (Elt F) fs = K.v2 (rotz c 2) 1) (W : Waits sig Unit) (O : CellTallies nD τ sig Unit) :
    iprop(cellInv ER (Rd K) κ₁ (s2Cell c 1) ∗ cellInv ER (Rd K) κ₂ (v2Cell (rotz c 2) 1)
        ∗ ((src2 c 1).view.loc (c : Thread nD τ) ↦[(src2 c 1).view.set]{fullShare} fs)
        ∗ ((slot2 1).view.loc ((rotz c 2 : Dev nD) : Thread nD τ) ↦[(slot2 1).view.set]{fullShare} fd)
        ∗ owes (c : Thread nD τ) (O + tallyAt (v2Cell (rotz c 2) 1) () N2) W
        ∗ dutyTok ER (s2Cell c 1) 0 (c, (0 : Fin 8)) ∗ reached ER (s2Cell c 1) 0
        ∗ dutyTok ER (v2Cell (rotz c 2) 1) 0 (c, (0 : Fin 8)) ∗ reached ER (v2Cell (rotz c 2) 1) 0)
      ⊢ iprop(((cred (tallyAt (s2Cell c 1) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 1) (.remote (Dev.tc n : Thread nD τ) (slot2 1) (.dma (s2S 1)) hsc) (.dma (v2S 1)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_1]; exact Finset.mem_singleton_self _) (mem_v2_1 K c)
    () () N2 rfl rfl rfl O rfl (W := W)
    (by rw [payload_s2_1]; iintro H; iexists fs; iexact H)
    (by
      rw [payload_v2_1]
      iintro H
      iexists ((slot2 1).view.write (Elt F) fd ((src2 c 1).view.read (Elt F) fs) Finset.univ)
      isplitr; · ipureintro; rw [View.read_write_univ]; exact hv
      iexact H)

/-- Device `c`'s transfer number 2 of phase 2, to `rotz c 3`: the source slice is lent to its own send cell, the target's slot lands holding what the slice reads. -/
theorem wp_send2_2 (κ₁ κ₂ : ℕ) (c n : Dev nD) (hn : n = rotz c 3)
    {hsc : ((slot2 2) : Memref sig (Dev.tc n : Thread nD τ).2.kind .vmem S16x512 .bf16).view.ref.isScScratch = false}
    {hsrc : (src2 c 2).view.WordExact} {hdst : (slot2 2).view.WordExact}
    {hsem : DmaTarget.Typed .vmem (.dma (v2S 2)) (.remote (Dev.tc n : Thread nD τ) (slot2 2) (.dma (s2S 2)) hsc)}
    {α : Type} {Q : α → sProp 𝕄} {k : PUnit → Prog (TpuEff nD τ sig (Elt F) Λ₀ .tc) α}
    (fs : Buf (Elt F) ((src2 c 2).view.loc (c : Thread nD τ))) (fd : Buf (Elt F) ((slot2 2).view.loc ((rotz c 3 : Dev nD) : Thread nD τ)))
    (hv : (src2 c 2).view.read (Elt F) fs = K.v2 (rotz c 3) 2) (W : Waits sig Unit) (O : CellTallies nD τ sig Unit) :
    iprop(cellInv ER (Rd K) κ₁ (s2Cell c 2) ∗ cellInv ER (Rd K) κ₂ (v2Cell (rotz c 3) 2)
        ∗ ((src2 c 2).view.loc (c : Thread nD τ) ↦[(src2 c 2).view.set]{fullShare} fs)
        ∗ ((slot2 2).view.loc ((rotz c 3 : Dev nD) : Thread nD τ) ↦[(slot2 2).view.set]{fullShare} fd)
        ∗ owes (c : Thread nD τ) (O + tallyAt (v2Cell (rotz c 3) 2) () N2) W
        ∗ dutyTok ER (s2Cell c 2) 0 (c, (0 : Fin 8)) ∗ reached ER (s2Cell c 2) 0
        ∗ dutyTok ER (v2Cell (rotz c 3) 2) 0 (c, (0 : Fin 8)) ∗ reached ER (v2Cell (rotz c 3) 2) 0)
      ⊢ iprop(((cred (tallyAt (s2Cell c 2) () N2) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c 2) (.remote (Dev.tc n : Thread nD τ) (slot2 2) (.dma (s2S 2)) hsc) (.dma (v2S 2)) hsrc hdst hsem) k) Q) := by
  subst hn
  exact Rounds.wp_send_pointsTo 𝒱₀ ER (Rd K) (c : Thread nD τ) none (κ₁ := κ₁) (κ₂ := κ₂)
    (r₁ := 0) (r₂ := 0) (d₁ := (c, 0)) (d₂ := (c, 0)) (fs := fs) (fd := fd)
    (by rw [duties_s2_2]; exact Finset.mem_singleton_self _) (mem_v2_2 K c)
    () () N2 rfl rfl rfl O rfl (W := W)
    (by rw [payload_s2_2]; iintro H; iexists fs; iexact H)
    (by
      rw [payload_v2_2]
      iintro H
      iexists ((slot2 2).view.write (Elt F) fd ((src2 c 2).view.read (Elt F) fs) Finset.univ)
      isplitr; · ipureintro; rw [View.read_write_univ]; exact hv
      iexact H)

end Cert.Kernel.Hand
end
-- ==== Proof.Bits.Cuts.lean ====
import proofs.«900450_g7700000000000451_dist_matmul_mk_i_outk_m512_n512_k256_v7x_i32_f32_1_alg».proof.Proof.Bits.Mesh
import Idealize.ShloMosaic.Lib.Pipeline.Value
import Idealize.ShloMosaic.Rules.PointsTo

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting a buffer along a chain of subsets -/

section Generic
variable {ℓ : Loc nD τ sig} {q : PosShare TreeShare} {f : Buf (Elt F) ℓ}

/-- One step of a cut: a part of what is held is set aside and the remainder is cut further. -/
theorem split_step {I S : Finset (Idx ℓ)} (h : I ⊆ S) {R : sProp 𝕄}
    (hR : (ℓ ↦[S \ I]{q} f : sProp 𝕄) ⊣⊢ R) :
    (ℓ ↦[S]{q} f : sProp 𝕄) ⊣⊢ iprop((ℓ ↦[I]{q} f) ∗ R) :=
  ⟨(pointsTo_split_subset h).1.trans (sep_mono_right hR.1),
   (sep_mono_right hR.2).trans (pointsTo_split_subset h).2⟩

end Generic

section Generic3
variable {ℓ : Loc nD τ sig} {q : PosShare TreeShare}

/-- A buffer cut into 3 parts, each the fibre of a key over one of 3 distinct values, and the remainder. -/
theorem cut3_iff (f : Buf (Elt F) ℓ) (key : Idx ℓ → ℕ) (k0 k1 k2 : ℕ) (I0 I1 I2 : Finset (Idx ℓ))
    (h0 : ∀ i, i ∈ I0 ↔ key i = k0) (h1 : ∀ i, i ∈ I1 ↔ key i = k1) (h2 : ∀ i, i ∈ I2 ↔ key i = k2)
    (hk : Function.Injective ![k0, k1, k2]) :
    (ℓ ↦{q} f : sProp 𝕄) ⊣⊢ iprop((ℓ ↦[I0]{q} f) ∗ (ℓ ↦[I1]{q} f) ∗ (ℓ ↦[I2]{q} f) ∗ (ℓ ↦[Finset.univ \ (I0 ∪ I1 ∪ I2)]{q} f)) := by
  have d (a b : Fin 3) (hab : a ≠ b) : ![k0, k1, k2] a ≠ ![k0, k1, k2] b := fun e => hab (hk e)
  refine split_step (I := I0) (Finset.subset_univ _) ?_
  refine split_step (I := I1) (fun i hi => ?_) ?_
  · have e := (h1 i).mp hi
    refine Finset.mem_sdiff.mpr ⟨?_, fun hj => d 0 1 (by decide) (((h0 i).mp hj).symm.trans e)⟩
    exact Finset.mem_univ i
  refine split_step (I := I2) (fun i hi => ?_) ?_
  · have e := (h2 i).mp hi
    refine Finset.mem_sdiff.mpr ⟨?_, fun hj => d 1 2 (by decide) (((h1 i).mp hj).symm.trans e)⟩
    refine Finset.mem_sdiff.mpr ⟨?_, fun hj => d 0 2 (by decide) (((h0 i).mp hj).symm.trans e)⟩
    exact Finset.mem_univ i
  have e : ((((Finset.univ \ I0) \ I1) \ I2) : Finset (Idx ℓ)) = Finset.univ \ (I0 ∪ I1 ∪ I2) := by
    ext i; simp only [Finset.mem_sdiff, Finset.mem_union, Finset.mem_univ, true_and]; tauto
  rw [e]

/-- The parts put back at different contents: some contents of the whole buffer agree with each part's on it. -/
theorem join3 (f0 f1 f2 fr : Buf (Elt F) ℓ) (key : Idx ℓ → ℕ) (k0 k1 k2 : ℕ) (I0 I1 I2 : Finset (Idx ℓ))
    (h0 : ∀ i, i ∈ I0 ↔ key i = k0) (h1 : ∀ i, i ∈ I1 ↔ key i = k1) (h2 : ∀ i, i ∈ I2 ↔ key i = k2)
    (hk : Function.Injective ![k0, k1, k2]) :
    (iprop((ℓ ↦[I0]{q} f0) ∗ (ℓ ↦[I1]{q} f1) ∗ (ℓ ↦[I2]{q} f2) ∗ (ℓ ↦[Finset.univ \ (I0 ∪ I1 ∪ I2)]{q} fr)) : sProp 𝕄) ⊢
      iprop(∃ g, ⌜(∀ i ∈ I0, g i = f0 i) ∧ (∀ i ∈ I1, g i = f1 i) ∧ (∀ i ∈ I2, g i = f2 i)⌝ ∗ (ℓ ↦{q} g)) := by
  have d (a b : Fin 3) (hab : a ≠ b) : ![k0, k1, k2] a ≠ ![k0, k1, k2] b := fun e => hab (hk e)
  let G : Buf (Elt F) ℓ := I0.piecewise f0 (I1.piecewise f1 (I2.piecewise f2 (fr)))
  have a0 : ∀ i ∈ I0, G i = f0 i := by
    intro i hi
    have e := (h0 i).mp hi
    simp only [G, Finset.piecewise, hi, if_true, if_false]
  have a1 : ∀ i ∈ I1, G i = f1 i := by
    intro i hi
    have e := (h1 i).mp hi
    have n0 : i ∉ I0 := fun hj => d 0 1 (by decide) (((h0 i).mp hj).symm.trans e)
    simp only [G, Finset.piecewise, n0, hi, if_true, if_false]
  have a2 : ∀ i ∈ I2, G i = f2 i := by
    intro i hi
    have e := (h2 i).mp hi
    have n0 : i ∉ I0 := fun hj => d 0 2 (by decide) (((h0 i).mp hj).symm.trans e)
    have n1 : i ∉ I1 := fun hj => d 1 2 (by decide) (((h1 i).mp hj).symm.trans e)
    simp only [G, Finset.piecewise, n0, n1, hi, if_true, if_false]
  have ar : ∀ i ∈ Finset.univ \ (I0 ∪ I1 ∪ I2), G i = fr i := by
    intro i hi
    have hn := (Finset.mem_sdiff.mp hi).2
    simp only [Finset.mem_union, not_or] at hn
    obtain ⟨⟨n0, n1⟩, n2⟩ := hn
    simp only [G, Finset.piecewise, n0, n1, n2, if_false]
  rw [pointsTo_congr (I := I0) (f := f0) (g := G) (fun i hi => (a0 i hi).symm),
    pointsTo_congr (I := I1) (f := f1) (g := G) (fun i hi => (a1 i hi).symm),
    pointsTo_congr (I := I2) (f := f2) (g := G) (fun i hi => (a2 i hi).symm),
    pointsTo_congr (I := Finset.univ \ (I0 ∪ I1 ∪ I2)) (f := fr) (g := G) (fun i hi => (ar i hi).symm)]
  iintro H
  iexists G
  isplitr
  · ipureintro; exact ⟨a0, a1, a2⟩
  · iapply (cut3_iff G key k0 k1 k2 I0 I1 I2 h0 h1 h2 hk).2
    iexact H

end Generic3

section Generic7
variable {ℓ : Loc nD τ sig} {q : PosShare TreeShare}

/-- A buffer cut into 7 parts, each the fibre of a key over one of 7 distinct values, and the remainder. -/
theorem cut7_iff (f : Buf (Elt F) ℓ) (key : Idx ℓ → ℕ) (k0 k1 k2 k3 k4 k5 k6 : ℕ) (I0 I1 I2 I3 I4 I5 I6 : Finset (Idx ℓ))
    (h0 : ∀ i, i ∈ I0 ↔ key i = k0) (h1 : ∀ i, i ∈ I1 ↔ key i = k1) (h2 : ∀ i, i ∈ I2 ↔ key i = k2) (h3 : ∀ i, i ∈ I3 ↔ key i = k3) (h4 : ∀ i, i ∈ I4 ↔ key i = k4) (h5 : ∀ i, i ∈ I5 ↔ key i = k5) (h6 : ∀ i, i ∈ I6 ↔ key i = k6)
    (hk : Function.Injective ![k0, k1, k2, k3, k4, k5, k6]) :
    (ℓ ↦{q} f : sProp 𝕄) ⊣⊢ iprop((ℓ ↦[I0]{q} f) ∗ (ℓ ↦[I1]{q} f) ∗ (ℓ ↦[I2]{q} f) ∗ (ℓ ↦[I3]{q} f) ∗ (ℓ ↦[I4]{q} f) ∗ (ℓ ↦[I5]{q} f) ∗ (ℓ ↦[I6]{q} f) ∗ (ℓ ↦[Finset.univ \ (I0 ∪ I1 ∪ I2 ∪ I3 ∪ I4 ∪ I5 ∪ I6)]{q} f)) := by
  have d (a b : Fin 7) (hab : a ≠ b) : ![k0, k1, k2, k3, k4, k5, k6] a ≠ ![k0, k1, k2, k3, k4, k5, k6] b := fun e => hab (hk e)
  refine split_step (I := I0) (Finset.subset_univ _) ?_
  refine split_step (I := I1) (fun i hi => ?_) ?_
  · have e := (h1 i).mp hi
    refine Finset.mem_sdiff.mpr ⟨?_, fun hj => d 0 1 (by decide) (((h0 i).mp hj).symm.trans e)⟩
    exact Finset.mem_univ i
  refine split_step (I := I2) (fun i hi => ?_) ?_
  · have e := (h2 i).mp hi
    refine Finset.mem_sdiff.mpr ⟨?_, fun hj => d 1 2 (by decide) (((h1 i).mp hj).symm.trans e)⟩
    refine Finset.mem_sdiff.mpr ⟨?_, fun hj => d 0 2 (by decide) (((h0 i).mp hj).symm.trans e)⟩
    exact Finset.mem_univ i
  refine split_step (I := I3) (fun i hi => ?_) ?_
  · have e := (h3 i).mp hi
    refine Finset.mem_sdiff.mpr ⟨?_, fun hj => d 2 3 (by decide) (((h2 i).mp hj).symm.trans e)⟩
    refine Finset.mem_sdiff.mpr ⟨?_, fun hj => d 1 3 (by decide) (((h1 i).mp hj).symm.trans e)⟩
    refine Finset.mem_sdiff.mpr ⟨?_, fun hj => d 0 3 (by decide) (((h0 i).mp hj).symm.trans e)⟩
    exact Finset.mem_univ i
  refine split_step (I := I4) (fun i hi => ?_) ?_
  · have e := (h4 i).mp hi
    refine Finset.mem_sdiff.mpr ⟨?_, fun hj => d 3 4 (by decide) (((h3 i).mp hj).symm.trans e)⟩
    refine Finset.mem_sdiff.mpr ⟨?_, fun hj => d 2 4 (by decide) (((h2 i).mp hj).symm.trans e)⟩
    refine Finset.mem_sdiff.mpr ⟨?_, fun hj => d 1 4 (by decide) (((h1 i).mp hj).symm.trans e)⟩
    refine Finset.mem_sdiff.mpr ⟨?_, fun hj => d 0 4 (by decide) (((h0 i).mp hj).symm.trans e)⟩
    exact Finset.mem_univ i
  refine split_step (I := I5) (fun i hi => ?_) ?_
  · have e := (h5 i).mp hi
    refine Finset.mem_sdiff.mpr ⟨?_, fun hj => d 4 5 (by decide) (((h4 i).mp hj).symm.trans e)⟩
    refine Finset.mem_sdiff.mpr ⟨?_, fun hj => d 3 5 (by decide) (((h3 i).mp hj).symm.trans e)⟩
    refine Finset.mem_sdiff.mpr ⟨?_, fun hj => d 2 5 (by decide) (((h2 i).mp hj).symm.trans e)⟩
    refine Finset.mem_sdiff.mpr ⟨?_, fun hj => d 1 5 (by decide) (((h1 i).mp hj).symm.trans e)⟩
    refine Finset.mem_sdiff.mpr ⟨?_, fun hj => d 0 5 (by decide) (((h0 i).mp hj).symm.trans e)⟩
    exact Finset.mem_univ i
  refine split_step (I := I6) (fun i hi => ?_) ?_
  · have e := (h6 i).mp hi
    refine Finset.mem_sdiff.mpr ⟨?_, fun hj => d 5 6 (by decide) (((h5 i).mp hj).symm.trans e)⟩
    refine Finset.mem_sdiff.mpr ⟨?_, fun hj => d 4 6 (by decide) (((h4 i).mp hj).symm.trans e)⟩
    refine Finset.mem_sdiff.mpr ⟨?_, fun hj => d 3 6 (by decide) (((h3 i).mp hj).symm.trans e)⟩
    refine Finset.mem_sdiff.mpr ⟨?_, fun hj => d 2 6 (by decide) (((h2 i).mp hj).symm.trans e)⟩
    refine Finset.mem_sdiff.mpr ⟨?_, fun hj => d 1 6 (by decide) (((h1 i).mp hj).symm.trans e)⟩
    refine Finset.mem_sdiff.mpr ⟨?_, fun hj => d 0 6 (by decide) (((h0 i).mp hj).symm.trans e)⟩
    exact Finset.mem_univ i
  have e : ((((((((Finset.univ \ I0) \ I1) \ I2) \ I3) \ I4) \ I5) \ I6) : Finset (Idx ℓ)) = Finset.univ \ (I0 ∪ I1 ∪ I2 ∪ I3 ∪ I4 ∪ I5 ∪ I6) := by
    ext i; simp only [Finset.mem_sdiff, Finset.mem_union, Finset.mem_univ, true_and]; tauto
  rw [e]

/-- The parts put back at different contents: some contents of the whole buffer agree with each part's on it. -/
theorem join7 (f0 f1 f2 f3 f4 f5 f6 fr : Buf (Elt F) ℓ) (key : Idx ℓ → ℕ) (k0 k1 k2 k3 k4 k5 k6 : ℕ) (I0 I1 I2 I3 I4 I5 I6 : Finset (Idx ℓ))
    (h0 : ∀ i, i ∈ I0 ↔ key i = k0) (h1 : ∀ i, i ∈ I1 ↔ key i = k1) (h2 : ∀ i, i ∈ I2 ↔ key i = k2) (h3 : ∀ i, i ∈ I3 ↔ key i = k3) (h4 : ∀ i, i ∈ I4 ↔ key i = k4) (h5 : ∀ i, i ∈ I5 ↔ key i = k5) (h6 : ∀ i, i ∈ I6 ↔ key i = k6)
    (hk : Function.Injective ![k0, k1, k2, k3, k4, k5, k6]) :
    (iprop((ℓ ↦[I0]{q} f0) ∗ (ℓ ↦[I1]{q} f1) ∗ (ℓ ↦[I2]{q} f2) ∗ (ℓ ↦[I3]{q} f3) ∗ (ℓ ↦[I4]{q} f4) ∗ (ℓ ↦[I5]{q} f5) ∗ (ℓ ↦[I6]{q} f6) ∗ (ℓ ↦[Finset.univ \ (I0 ∪ I1 ∪ I2 ∪ I3 ∪ I4 ∪ I5 ∪ I6)]{q} fr)) : sProp 𝕄) ⊢
      iprop(∃ g, ⌜(∀ i ∈ I0, g i = f0 i) ∧ (∀ i ∈ I1, g i = f1 i) ∧ (∀ i ∈ I2, g i = f2 i) ∧ (∀ i ∈ I3, g i = f3 i) ∧ (∀ i ∈ I4, g i = f4 i) ∧ (∀ i ∈ I5, g i = f5 i) ∧ (∀ i ∈ I6, g i = f6 i)⌝ ∗ (ℓ ↦{q} g)) := by
  have d (a b : Fin 7) (hab : a ≠ b) : ![k0, k1, k2, k3, k4, k5, k6] a ≠ ![k0, k1, k2, k3, k4, k5, k6] b := fun e => hab (hk e)
  let G : Buf (Elt F) ℓ := I0.piecewise f0 (I1.piecewise f1 (I2.piecewise f2 (I3.piecewise f3 (I4.piecewise f4 (I5.piecewise f5 (I6.piecewise f6 (fr)))))))
  have a0 : ∀ i ∈ I0, G i = f0 i := by
    intro i hi
    have e := (h0 i).mp hi
    simp only [G, Finset.piecewise, hi, if_true, if_false]
  have a1 : ∀ i ∈ I1, G i = f1 i := by
    intro i hi
    have e := (h1 i).mp hi
    have n0 : i ∉ I0 := fun hj => d 0 1 (by decide) (((h0 i).mp hj).symm.trans e)
    simp only [G, Finset.piecewise, n0, hi, if_true, if_false]
  have a2 : ∀ i ∈ I2, G i = f2 i := by
    intro i hi
    have e := (h2 i).mp hi
    have n0 : i ∉ I0 := fun hj => d 0 2 (by decide) (((h0 i).mp hj).symm.trans e)
    have n1 : i ∉ I1 := fun hj => d 1 2 (by decide) (((h1 i).mp hj).symm.trans e)
    simp only [G, Finset.piecewise, n0, n1, hi, if_true, if_false]
  have a3 : ∀ i ∈ I3, G i = f3 i := by
    intro i hi
    have e := (h3 i).mp hi
    have n0 : i ∉ I0 := fun hj => d 0 3 (by decide) (((h0 i).mp hj).symm.trans e)
    have n1 : i ∉ I1 := fun hj => d 1 3 (by decide) (((h1 i).mp hj).symm.trans e)
    have n2 : i ∉ I2 := fun hj => d 2 3 (by decide) (((h2 i).mp hj).symm.trans e)
    simp only [G, Finset.piecewise, n0, n1, n2, hi, if_true, if_false]
  have a4 : ∀ i ∈ I4, G i = f4 i := by
    intro i hi
    have e := (h4 i).mp hi
    have n0 : i ∉ I0 := fun hj => d 0 4 (by decide) (((h0 i).mp hj).symm.trans e)
    have n1 : i ∉ I1 := fun hj => d 1 4 (by decide) (((h1 i).mp hj).symm.trans e)
    have n2 : i ∉ I2 := fun hj => d 2 4 (by decide) (((h2 i).mp hj).symm.trans e)
    have n3 : i ∉ I3 := fun hj => d 3 4 (by decide) (((h3 i).mp hj).symm.trans e)
    simp only [G, Finset.piecewise, n0, n1, n2, n3, hi, if_true, if_false]
  have a5 : ∀ i ∈ I5, G i = f5 i := by
    intro i hi
    have e := (h5 i).mp hi
    have n0 : i ∉ I0 := fun hj => d 0 5 (by decide) (((h0 i).mp hj).symm.trans e)
    have n1 : i ∉ I1 := fun hj => d 1 5 (by decide) (((h1 i).mp hj).symm.trans e)
    have n2 : i ∉ I2 := fun hj => d 2 5 (by decide) (((h2 i).mp hj).symm.trans e)
    have n3 : i ∉ I3 := fun hj => d 3 5 (by decide) (((h3 i).mp hj).symm.trans e)
    have n4 : i ∉ I4 := fun hj => d 4 5 (by decide) (((h4 i).mp hj).symm.trans e)
    simp only [G, Finset.piecewise, n0, n1, n2, n3, n4, hi, if_true, if_false]
  have a6 : ∀ i ∈ I6, G i = f6 i := by
    intro i hi
    have e := (h6 i).mp hi
    have n0 : i ∉ I0 := fun hj => d 0 6 (by decide) (((h0 i).mp hj).symm.trans e)
    have n1 : i ∉ I1 := fun hj => d 1 6 (by decide) (((h1 i).mp hj).symm.trans e)
    have n2 : i ∉ I2 := fun hj => d 2 6 (by decide) (((h2 i).mp hj).symm.trans e)
    have n3 : i ∉ I3 := fun hj => d 3 6 (by decide) (((h3 i).mp hj).symm.trans e)
    have n4 : i ∉ I4 := fun hj => d 4 6 (by decide) (((h4 i).mp hj).symm.trans e)
    have n5 : i ∉ I5 := fun hj => d 5 6 (by decide) (((h5 i).mp hj).symm.trans e)
    simp only [G, Finset.piecewise, n0, n1, n2, n3, n4, n5, hi, if_true, if_false]
  have ar : ∀ i ∈ Finset.univ \ (I0 ∪ I1 ∪ I2 ∪ I3 ∪ I4 ∪ I5 ∪ I6), G i = fr i := by
    intro i hi
    have hn := (Finset.mem_sdiff.mp hi).2
    simp only [Finset.mem_union, not_or] at hn
    obtain ⟨⟨⟨⟨⟨⟨n0, n1⟩, n2⟩, n3⟩, n4⟩, n5⟩, n6⟩ := hn
    simp only [G, Finset.piecewise, n0, n1, n2, n3, n4, n5, n6, if_false]
  rw [pointsTo_congr (I := I0) (f := f0) (g := G) (fun i hi => (a0 i hi).symm),
    pointsTo_congr (I := I1) (f := f1) (g := G) (fun i hi => (a1 i hi).symm),
    pointsTo_congr (I := I2) (f := f2) (g := G) (fun i hi => (a2 i hi).symm),
    pointsTo_congr (I := I3) (f := f3) (g := G) (fun i hi => (a3 i hi).symm),
    pointsTo_congr (I := I4) (f := f4) (g := G) (fun i hi => (a4 i hi).symm),
    pointsTo_congr (I := I5) (f := f5) (g := G) (fun i hi => (a5 i hi).symm),
    pointsTo_congr (I := I6) (f := f6) (g := G) (fun i hi => (a6 i hi).symm),
    pointsTo_congr (I := Finset.univ \ (I0 ∪ I1 ∪ I2 ∪ I3 ∪ I4 ∪ I5 ∪ I6)) (f := fr) (g := G) (fun i hi => (ar i hi).symm)]
  iintro H
  iexists G
  isplitr
  · ipureintro; exact ⟨a0, a1, a2, a3, a4, a5, a6⟩
  · iapply (cut7_iff G key k0 k1 k2 k3 k4 k5 k6 I0 I1 I2 I3 I4 I5 I6 h0 h1 h2 h3 h4 h5 h6 hk).2
    iexact H

end Generic7

/-! ## Slots as fibres of the first coordinate -/

/-- In the four-axis buffer, the block at first coordinate `k` is the set of indices whose first coordinate is `k`. -/
theorem mem_first4 (k : ℕ) {i : S8x4x16x512.Idx} :
    (∀ a, (![k, 0, 0, 0] : Fin 4 → ℕ) a ≤ i a ∧ (i a : ℕ) < (![k, 0, 0, 0] : Fin 4 → ℕ) a + S1x4x16x512.size a) ↔ (i 0 : ℕ) = k := by
  constructor
  · intro h; have := h 0; simp at this; omega
  · intro h a
    fin_cases a
    · simp; omega
    · have := (i 1).isLt; simp at this ⊢; omega
    · have := (i 2).isLt; simp at this ⊢; omega
    · have := (i 3).isLt; simp at this ⊢; omega

theorem mem_unit4 (k : ℕ) (inb) {i : S8x4x16x512.Idx} :
    i ∈ (Rect.unit (s := S8x4x16x512) ![k, 0, 0, 0] S1x4x16x512.size inb).set ↔ (i 0 : ℕ) = k :=
  Rect.mem_set_unit.trans (mem_first4 k)

/-- The first coordinate of an index of the four-axis buffers. -/
def key4 : S8x4x16x512.Idx → ℕ := fun i => (i 0 : ℕ)

theorem mem_slot1_0 {i : S8x4x16x512.Idx} : i ∈ ((slot1 0).view.set : Finset S8x4x16x512.Idx) ↔ key4 i = 1 := by
  simp only [slot1, Memref.view_squeeze, View.set_reshape, Memref.view_slice, Memref.view_whole, View.set_slice_whole]
  exact mem_unit4 _ _
theorem mem_slot1_1 {i : S8x4x16x512.Idx} : i ∈ ((slot1 1).view.set : Finset S8x4x16x512.Idx) ↔ key4 i = 2 := by
  simp only [slot1, Memref.view_squeeze, View.set_reshape, Memref.view_slice, Memref.view_whole, View.set_slice_whole]
  exact mem_unit4 _ _
theorem mem_slot1_2 {i : S8x4x16x512.Idx} : i ∈ ((slot1 2).view.set : Finset S8x4x16x512.Idx) ↔ key4 i = 3 := by
  simp only [slot1, Memref.view_squeeze, View.set_reshape, Memref.view_slice, Memref.view_whole, View.set_slice_whole]
  exact mem_unit4 _ _
theorem mem_slot1_3 {i : S8x4x16x512.Idx} : i ∈ ((slot1 3).view.set : Finset S8x4x16x512.Idx) ↔ key4 i = 4 := by
  simp only [slot1, Memref.view_squeeze, View.set_reshape, Memref.view_slice, Memref.view_whole, View.set_slice_whole]
  exact mem_unit4 _ _
theorem mem_slot1_4 {i : S8x4x16x512.Idx} : i ∈ ((slot1 4).view.set : Finset S8x4x16x512.Idx) ↔ key4 i = 5 := by
  simp only [slot1, Memref.view_squeeze, View.set_reshape, Memref.view_slice, Memref.view_whole, View.set_slice_whole]
  exact mem_unit4 _ _
theorem mem_slot1_5 {i : S8x4x16x512.Idx} : i ∈ ((slot1 5).view.set : Finset S8x4x16x512.Idx) ↔ key4 i = 6 := by
  simp only [slot1, Memref.view_squeeze, View.set_reshape, Memref.view_slice, Memref.view_whole, View.set_slice_whole]
  exact mem_unit4 _ _
theorem mem_slot1_6 {i : S8x4x16x512.Idx} : i ∈ ((slot1 6).view.set : Finset S8x4x16x512.Idx) ↔ key4 i = 7 := by
  simp only [slot1, Memref.view_squeeze, View.set_reshape, Memref.view_slice, Memref.view_whole, View.set_slice_whole]
  exact mem_unit4 _ _

/-- In the three-axis buffer, the block at first coordinate `k` is the set of indices whose first coordinate is `k`. -/
theorem mem_first3 (k : ℕ) {i : S4x16x512.Idx} :
    (∀ a, (![k, 0, 0] : Fin 3 → ℕ) a ≤ i a ∧ (i a : ℕ) < (![k, 0, 0] : Fin 3 → ℕ) a + S1x16x512.size a) ↔ (i 0 : ℕ) = k := by
  constructor
  · intro h; have := h 0; simp at this; omega
  · intro h a
    fin_cases a
    · simp; omega
    · have := (i 1).isLt; simp at this ⊢; omega
    · have := (i 2).isLt; simp at this ⊢; omega

theorem mem_unit3 (k : ℕ) (inb) {i : S4x16x512.Idx} :
    i ∈ (Rect.unit (s := S4x16x512) ![k, 0, 0] S1x16x512.size inb).set ↔ (i 0 : ℕ) = k :=
  Rect.mem_set_unit.trans (mem_first3 k)

/-- The first coordinate of an index of the three-axis buffers. -/
def key3 : S4x16x512.Idx → ℕ := fun i => (i 0 : ℕ)

theorem mem_slot2_0 {i : S4x16x512.Idx} : i ∈ ((slot2 0).view.set : Finset S4x16x512.Idx) ↔ key3 i = 1 := by
  simp only [slot2, Memref.view_squeeze, View.set_reshape, Memref.view_slice, Memref.view_whole, View.set_slice_whole]
  exact mem_unit3 _ _
theorem mem_slot2_1 {i : S4x16x512.Idx} : i ∈ ((slot2 1).view.set : Finset S4x16x512.Idx) ↔ key3 i = 2 := by
  simp only [slot2, Memref.view_squeeze, View.set_reshape, Memref.view_slice, Memref.view_whole, View.set_slice_whole]
  exact mem_unit3 _ _
theorem mem_slot2_2 {i : S4x16x512.Idx} : i ∈ ((slot2 2).view.set : Finset S4x16x512.Idx) ↔ key3 i = 3 := by
  simp only [slot2, Memref.view_squeeze, View.set_reshape, Memref.view_slice, Memref.view_whole, View.set_slice_whole]
  exact mem_unit3 _ _

theorem mem_src1_0 (c : Dev nD) {i : S8x4x16x512.Idx} : i ∈ ((src1 c 0).view.set : Finset S8x4x16x512.Idx) ↔ key4 i = (c.val % 8 + 0 + 1) % 8 := by
  simp only [src1, Memref.view_squeeze, View.set_reshape, Memref.view_slice, Memref.view_whole, View.set_slice_whole]
  refine Rect.mem_set_unit.trans ?_
  rw [show k0_off1 c 1#32 = ![(c.val % 8 + 0 + 1) % 8, 0, 0, 0] from k0_off1_eq c ⟨0, by decide⟩]
  exact mem_first4 _
theorem mem_src1_1 (c : Dev nD) {i : S8x4x16x512.Idx} : i ∈ ((src1 c 1).view.set : Finset S8x4x16x512.Idx) ↔ key4 i = (c.val % 8 + 1 + 1) % 8 := by
  simp only [src1, Memref.view_squeeze, View.set_reshape, Memref.view_slice, Memref.view_whole, View.set_slice_whole]
  refine Rect.mem_set_unit.trans ?_
  rw [show k0_off1 c 2#32 = ![(c.val % 8 + 1 + 1) % 8, 0, 0, 0] from k0_off1_eq c ⟨1, by decide⟩]
  exact mem_first4 _
theorem mem_src1_2 (c : Dev nD) {i : S8x4x16x512.Idx} : i ∈ ((src1 c 2).view.set : Finset S8x4x16x512.Idx) ↔ key4 i = (c.val % 8 + 2 + 1) % 8 := by
  simp only [src1, Memref.view_squeeze, View.set_reshape, Memref.view_slice, Memref.view_whole, View.set_slice_whole]
  refine Rect.mem_set_unit.trans ?_
  rw [show k0_off1 c 3#32 = ![(c.val % 8 + 2 + 1) % 8, 0, 0, 0] from k0_off1_eq c ⟨2, by decide⟩]
  exact mem_first4 _
theorem mem_src1_3 (c : Dev nD) {i : S8x4x16x512.Idx} : i ∈ ((src1 c 3).view.set : Finset S8x4x16x512.Idx) ↔ key4 i = (c.val % 8 + 3 + 1) % 8 := by
  simp only [src1, Memref.view_squeeze, View.set_reshape, Memref.view_slice, Memref.view_whole, View.set_slice_whole]
  refine Rect.mem_set_unit.trans ?_
  rw [show k0_off1 c 4#32 = ![(c.val % 8 + 3 + 1) % 8, 0, 0, 0] from k0_off1_eq c ⟨3, by decide⟩]
  exact mem_first4 _
theorem mem_src1_4 (c : Dev nD) {i : S8x4x16x512.Idx} : i ∈ ((src1 c 4).view.set : Finset S8x4x16x512.Idx) ↔ key4 i = (c.val % 8 + 4 + 1) % 8 := by
  simp only [src1, Memref.view_squeeze, View.set_reshape, Memref.view_slice, Memref.view_whole, View.set_slice_whole]
  refine Rect.mem_set_unit.trans ?_
  rw [show k0_off1 c 5#32 = ![(c.val % 8 + 4 + 1) % 8, 0, 0, 0] from k0_off1_eq c ⟨4, by decide⟩]
  exact mem_first4 _
theorem mem_src1_5 (c : Dev nD) {i : S8x4x16x512.Idx} : i ∈ ((src1 c 5).view.set : Finset S8x4x16x512.Idx) ↔ key4 i = (c.val % 8 + 5 + 1) % 8 := by
  simp only [src1, Memref.view_squeeze, View.set_reshape, Memref.view_slice, Memref.view_whole, View.set_slice_whole]
  refine Rect.mem_set_unit.trans ?_
  rw [show k0_off1 c 6#32 = ![(c.val % 8 + 5 + 1) % 8, 0, 0, 0] from k0_off1_eq c ⟨5, by decide⟩]
  exact mem_first4 _
theorem mem_src1_6 (c : Dev nD) {i : S8x4x16x512.Idx} : i ∈ ((src1 c 6).view.set : Finset S8x4x16x512.Idx) ↔ key4 i = (c.val % 8 + 6 + 1) % 8 := by
  simp only [src1, Memref.view_squeeze, View.set_reshape, Memref.view_slice, Memref.view_whole, View.set_slice_whole]
  refine Rect.mem_set_unit.trans ?_
  rw [show k0_off1 c 7#32 = ![(c.val % 8 + 6 + 1) % 8, 0, 0, 0] from k0_off1_eq c ⟨6, by decide⟩]
  exact mem_first4 _
theorem mem_src2_0 (c : Dev nD) {i : S4x16x512.Idx} : i ∈ ((src2 c 0).view.set : Finset S4x16x512.Idx) ↔ key3 i = (c.val / 8 + 0 + 1) % 4 := by
  simp only [src2, Memref.view_squeeze, View.set_reshape, Memref.view_slice, Memref.view_whole, View.set_slice_whole]
  refine Rect.mem_set_unit.trans ?_
  rw [show k0_off3 c 1#32 = ![(c.val / 8 + 0 + 1) % 4, 0, 0] from k0_off3_eq c ⟨0, by decide⟩]
  exact mem_first3 _
theorem mem_src2_1 (c : Dev nD) {i : S4x16x512.Idx} : i ∈ ((src2 c 1).view.set : Finset S4x16x512.Idx) ↔ key3 i = (c.val / 8 + 1 + 1) % 4 := by
  simp only [src2, Memref.view_squeeze, View.set_reshape, Memref.view_slice, Memref.view_whole, View.set_slice_whole]
  refine Rect.mem_set_unit.trans ?_
  rw [show k0_off3 c 2#32 = ![(c.val / 8 + 1 + 1) % 4, 0, 0] from k0_off3_eq c ⟨1, by decide⟩]
  exact mem_first3 _
theorem mem_src2_2 (c : Dev nD) {i : S4x16x512.Idx} : i ∈ ((src2 c 2).view.set : Finset S4x16x512.Idx) ↔ key3 i = (c.val / 8 + 2 + 1) % 4 := by
  simp only [src2, Memref.view_squeeze, View.set_reshape, Memref.view_slice, Memref.view_whole, View.set_slice_whole]
  refine Rect.mem_set_unit.trans ?_
  rw [show k0_off3 c 3#32 = ![(c.val / 8 + 2 + 1) % 4, 0, 0] from k0_off3_eq c ⟨2, by decide⟩]
  exact mem_first3 _

theorem inj_src1 : ∀ c : Dev nD, Function.Injective ![(c.val % 8 + 0 + 1) % 8, (c.val % 8 + 1 + 1) % 8, (c.val % 8 + 2 + 1) % 8, (c.val % 8 + 3 + 1) % 8, (c.val % 8 + 4 + 1) % 8, (c.val % 8 + 5 + 1) % 8, (c.val % 8 + 6 + 1) % 8] := by decide
theorem inj_src2 : ∀ c : Dev nD, Function.Injective ![(c.val / 8 + 0 + 1) % 4, (c.val / 8 + 1 + 1) % 4, (c.val / 8 + 2 + 1) % 4] := by decide

/-! ## The in-plane receive buffer -/

/-- The elements of the in-plane receive buffer outside its seven slots. -/
def rest1 : Finset S8x4x16x512.Idx :=
  Finset.univ \ ((slot1 0).view.set ∪ (slot1 1).view.set ∪ (slot1 2).view.set ∪ (slot1 3).view.set ∪ (slot1 4).view.set ∪ (slot1 5).view.set ∪ (slot1 6).view.set)

theorem cut_slots1_iff (c : Dev nD) (f : Buf (Elt F) ((Memref.whole cc0_scratch2 : Memref sig .tc .vmem S8x4x16x512 .bf16).view.loc (c : Thread nD τ))) :
    ((Memref.whole cc0_scratch2 : Memref sig .tc .vmem S8x4x16x512 .bf16).view.loc (c : Thread nD τ) ↦{fullShare} f : sProp 𝕄) ⊣⊢
      iprop(((slot1 0).view.loc (c : Thread nD τ) ↦[(slot1 0).view.set]{fullShare} f) ∗
        ((slot1 1).view.loc (c : Thread nD τ) ↦[(slot1 1).view.set]{fullShare} f) ∗
        ((slot1 2).view.loc (c : Thread nD τ) ↦[(slot1 2).view.set]{fullShare} f) ∗
        ((slot1 3).view.loc (c : Thread nD τ) ↦[(slot1 3).view.set]{fullShare} f) ∗
        ((slot1 4).view.loc (c : Thread nD τ) ↦[(slot1 4).view.set]{fullShare} f) ∗
        ((slot1 5).view.loc (c : Thread nD τ) ↦[(slot1 5).view.set]{fullShare} f) ∗
        ((slot1 6).view.loc (c : Thread nD τ) ↦[(slot1 6).view.set]{fullShare} f) ∗
        ((Memref.whole cc0_scratch2 : Memref sig .tc .vmem S8x4x16x512 .bf16).view.loc (c : Thread nD τ) ↦[rest1]{fullShare} f)) :=
  cut7_iff (ℓ := (Memref.whole cc0_scratch2 : Memref sig .tc .vmem S8x4x16x512 .bf16).view.loc (c : Thread nD τ)) f key4 1 2 3 4 5 6 7 (slot1 0).view.set (slot1 1).view.set (slot1 2).view.set (slot1 3).view.set (slot1 4).view.set (slot1 5).view.set (slot1 6).view.set (fun _ => mem_slot1_0) (fun _ => mem_slot1_1) (fun _ => mem_slot1_2) (fun _ => mem_slot1_3) (fun _ => mem_slot1_4) (fun _ => mem_slot1_5) (fun _ => mem_slot1_6) (by decide)

theorem cut_slots1 (c : Dev nD) (f : Buf (Elt F) ((Memref.whole cc0_scratch2 : Memref sig .tc .vmem S8x4x16x512 .bf16).view.loc (c : Thread nD τ))) :
    ((Memref.whole cc0_scratch2 : Memref sig .tc .vmem S8x4x16x512 .bf16).view.loc (c : Thread nD τ) ↦{fullShare} f : sProp 𝕄) ⊢
      iprop(((slot1 0).view.loc (c : Thread nD τ) ↦[(slot1 0).view.set]{fullShare} f) ∗
        ((slot1 1).view.loc (c : Thread nD τ) ↦[(slot1 1).view.set]{fullShare} f) ∗
        ((slot1 2).view.loc (c : Thread nD τ) ↦[(slot1 2).view.set]{fullShare} f) ∗
        ((slot1 3).view.loc (c : Thread nD τ) ↦[(slot1 3).view.set]{fullShare} f) ∗
        ((slot1 4).view.loc (c : Thread nD τ) ↦[(slot1 4).view.set]{fullShare} f) ∗
        ((slot1 5).view.loc (c : Thread nD τ) ↦[(slot1 5).view.set]{fullShare} f) ∗
        ((slot1 6).view.loc (c : Thread nD τ) ↦[(slot1 6).view.set]{fullShare} f) ∗
        ((Memref.whole cc0_scratch2 : Memref sig .tc .vmem S8x4x16x512 .bf16).view.loc (c : Thread nD τ) ↦[rest1]{fullShare} f)) :=
  (cut_slots1_iff c f).1

theorem join_slots1 (c : Dev nD) (f0 f1 f2 f3 f4 f5 f6 frest : Buf (Elt F) ((Memref.whole cc0_scratch2 : Memref sig .tc .vmem S8x4x16x512 .bf16).view.loc (c : Thread nD τ))) :
    (iprop(((slot1 0).view.loc (c : Thread nD τ) ↦[(slot1 0).view.set]{fullShare} f0) ∗
        ((slot1 1).view.loc (c : Thread nD τ) ↦[(slot1 1).view.set]{fullShare} f1) ∗
        ((slot1 2).view.loc (c : Thread nD τ) ↦[(slot1 2).view.set]{fullShare} f2) ∗
        ((slot1 3).view.loc (c : Thread nD τ) ↦[(slot1 3).view.set]{fullShare} f3) ∗
        ((slot1 4).view.loc (c : Thread nD τ) ↦[(slot1 4).view.set]{fullShare} f4) ∗
        ((slot1 5).view.loc (c : Thread nD τ) ↦[(slot1 5).view.set]{fullShare} f5) ∗
        ((slot1 6).view.loc (c : Thread nD τ) ↦[(slot1 6).view.set]{fullShare} f6) ∗
        ((Memref.whole cc0_scratch2 : Memref sig .tc .vmem S8x4x16x512 .bf16).view.loc (c : Thread nD τ) ↦[rest1]{fullShare} frest)) : sProp 𝕄) ⊢
      iprop(∃ g : Buf (Elt F) ((Memref.whole cc0_scratch2 : Memref sig .tc .vmem S8x4x16x512 .bf16).view.loc (c : Thread nD τ)), ⌜(slot1 0).view.read (Elt F) g = (slot1 0).view.read (Elt F) f0 ∧
          (slot1 1).view.read (Elt F) g = (slot1 1).view.read (Elt F) f1 ∧
          (slot1 2).view.read (Elt F) g = (slot1 2).view.read (Elt F) f2 ∧
          (slot1 3).view.read (Elt F) g = (slot1 3).view.read (Elt F) f3 ∧
          (slot1 4).view.read (Elt F) g = (slot1 4).view.read (Elt F) f4 ∧
          (slot1 5).view.read (Elt F) g = (slot1 5).view.read (Elt F) f5 ∧
          (slot1 6).view.read (Elt F) g = (slot1 6).view.read (Elt F) f6⌝ ∗
        ((Memref.whole cc0_scratch2 : Memref sig .tc .vmem S8x4x16x512 .bf16).view.loc (c : Thread nD τ) ↦{fullShare} g)) := by
  refine (join7 (ℓ := (Memref.whole cc0_scratch2 : Memref sig .tc .vmem S8x4x16x512 .bf16).view.loc (c : Thread nD τ)) f0 f1 f2 f3 f4 f5 f6 frest key4 1 2 3 4 5 6 7 (slot1 0).view.set (slot1 1).view.set (slot1 2).view.set (slot1 3).view.set (slot1 4).view.set (slot1 5).view.set (slot1 6).view.set (fun _ => mem_slot1_0) (fun _ => mem_slot1_1) (fun _ => mem_slot1_2) (fun _ => mem_slot1_3) (fun _ => mem_slot1_4) (fun _ => mem_slot1_5) (fun _ => mem_slot1_6) (by decide)).trans ?_
  iintro ⟨%g, %hg, H⟩
  iexists g
  isplitr
  · ipureintro
    obtain ⟨a0, a1, a2, a3, a4, a5, a6⟩ := hg
    exact ⟨View.read_congr a0, View.read_congr a1, View.read_congr a2, View.read_congr a3, View.read_congr a4, View.read_congr a5, View.read_congr a6⟩
  · iexact H

/-! ## The cross-plane receive buffer -/

/-- The elements of the cross-plane receive buffer outside its three slots. -/
def rest2 : Finset S4x16x512.Idx :=
  Finset.univ \ ((slot2 0).view.set ∪ (slot2 1).view.set ∪ (slot2 2).view.set)

theorem cut_slots2_iff (c : Dev nD) (f : Buf (Elt F) ((Memref.whole cc0_scratch5 : Memref sig .tc .vmem S4x16x512 .bf16).view.loc (c : Thread nD τ))) :
    ((Memref.whole cc0_scratch5 : Memref sig .tc .vmem S4x16x512 .bf16).view.loc (c : Thread nD τ) ↦{fullShare} f : sProp 𝕄) ⊣⊢
      iprop(((slot2 0).view.loc (c : Thread nD τ) ↦[(slot2 0).view.set]{fullShare} f) ∗
        ((slot2 1).view.loc (c : Thread nD τ) ↦[(slot2 1).view.set]{fullShare} f) ∗
        ((slot2 2).view.loc (c : Thread nD τ) ↦[(slot2 2).view.set]{fullShare} f) ∗
        ((Memref.whole cc0_scratch5 : Memref sig .tc .vmem S4x16x512 .bf16).view.loc (c : Thread nD τ) ↦[rest2]{fullShare} f)) :=
  cut3_iff (ℓ := (Memref.whole cc0_scratch5 : Memref sig .tc .vmem S4x16x512 .bf16).view.loc (c : Thread nD τ)) f key3 1 2 3 (slot2 0).view.set (slot2 1).view.set (slot2 2).view.set (fun _ => mem_slot2_0) (fun _ => mem_slot2_1) (fun _ => mem_slot2_2) (by decide)

theorem cut_slots2 (c : Dev nD) (f : Buf (Elt F) ((Memref.whole cc0_scratch5 : Memref sig .tc .vmem S4x16x512 .bf16).view.loc (c : Thread nD τ))) :
    ((Memref.whole cc0_scratch5 : Memref sig .tc .vmem S4x16x512 .bf16).view.loc (c : Thread nD τ) ↦{fullShare} f : sProp 𝕄) ⊢
      iprop(((slot2 0).view.loc (c : Thread nD τ) ↦[(slot2 0).view.set]{fullShare} f) ∗
        ((slot2 1).view.loc (c : Thread nD τ) ↦[(slot2 1).view.set]{fullShare} f) ∗
        ((slot2 2).view.loc (c : Thread nD τ) ↦[(slot2 2).view.set]{fullShare} f) ∗
        ((Memref.whole cc0_scratch5 : Memref sig .tc .vmem S4x16x512 .bf16).view.loc (c : Thread nD τ) ↦[rest2]{fullShare} f)) :=
  (cut_slots2_iff c f).1

theorem join_slots2 (c : Dev nD) (f0 f1 f2 frest : Buf (Elt F) ((Memref.whole cc0_scratch5 : Memref sig .tc .vmem S4x16x512 .bf16).view.loc (c : Thread nD τ))) :
    (iprop(((slot2 0).view.loc (c : Thread nD τ) ↦[(slot2 0).view.set]{fullShare} f0) ∗
        ((slot2 1).view.loc (c : Thread nD τ) ↦[(slot2 1).view.set]{fullShare} f1) ∗
        ((slot2 2).view.loc (c : Thread nD τ) ↦[(slot2 2).view.set]{fullShare} f2) ∗
        ((Memref.whole cc0_scratch5 : Memref sig .tc .vmem S4x16x512 .bf16).view.loc (c : Thread nD τ) ↦[rest2]{fullShare} frest)) : sProp 𝕄) ⊢
      iprop(∃ g : Buf (Elt F) ((Memref.whole cc0_scratch5 : Memref sig .tc .vmem S4x16x512 .bf16).view.loc (c : Thread nD τ)), ⌜(slot2 0).view.read (Elt F) g = (slot2 0).view.read (Elt F) f0 ∧
          (slot2 1).view.read (Elt F) g = (slot2 1).view.read (Elt F) f1 ∧
          (slot2 2).view.read (Elt F) g = (slot2 2).view.read (Elt F) f2⌝ ∗
        ((Memref.whole cc0_scratch5 : Memref sig .tc .vmem S4x16x512 .bf16).view.loc (c : Thread nD τ) ↦{fullShare} g)) := by
  refine (join3 (ℓ := (Memref.whole cc0_scratch5 : Memref sig .tc .vmem S4x16x512 .bf16).view.loc (c : Thread nD τ)) f0 f1 f2 frest key3 1 2 3 (slot2 0).view.set (slot2 1).view.set (slot2 2).view.set (fun _ => mem_slot2_0) (fun _ => mem_slot2_1) (fun _ => mem_slot2_2) (by decide)).trans ?_
  iintro ⟨%g, %hg, H⟩
  iexists g
  isplitr
  · ipureintro
    obtain ⟨a0, a1, a2⟩ := hg
    exact ⟨View.read_congr a0, View.read_congr a1, View.read_congr a2⟩
  · iexact H

/-! ## The rounded partial products, by the slices sent in the plane -/

/-- The elements of the rounded partial products outside the seven slices device `c` sends in its plane. -/
def restS1 (c : Dev nD) : Finset S8x4x16x512.Idx :=
  Finset.univ \ ((src1 c 0).view.set ∪ (src1 c 1).view.set ∪ (src1 c 2).view.set ∪ (src1 c 3).view.set ∪ (src1 c 4).view.set ∪ (src1 c 5).view.set ∪ (src1 c 6).view.set)

theorem cut_src1_iff (c : Dev nD) (f : Buf (Elt F) ((Memref.whole cc0_scratch1 : Memref sig .tc .vmem S8x4x16x512 .bf16).view.loc (c : Thread nD τ))) :
    ((Memref.whole cc0_scratch1 : Memref sig .tc .vmem S8x4x16x512 .bf16).view.loc (c : Thread nD τ) ↦{fullShare} f : sProp 𝕄) ⊣⊢
      iprop(((src1 c 0).view.loc (c : Thread nD τ) ↦[(src1 c 0).view.set]{fullShare} f) ∗
        ((src1 c 1).view.loc (c : Thread nD τ) ↦[(src1 c 1).view.set]{fullShare} f) ∗
        ((src1 c 2).view.loc (c : Thread nD τ) ↦[(src1 c 2).view.set]{fullShare} f) ∗
        ((src1 c 3).view.loc (c : Thread nD τ) ↦[(src1 c 3).view.set]{fullShare} f) ∗
        ((src1 c 4).view.loc (c : Thread nD τ) ↦[(src1 c 4).view.set]{fullShare} f) ∗
        ((src1 c 5).view.loc (c : Thread nD τ) ↦[(src1 c 5).view.set]{fullShare} f) ∗
        ((src1 c 6).view.loc (c : Thread nD τ) ↦[(src1 c 6).view.set]{fullShare} f) ∗
        ((Memref.whole cc0_scratch1 : Memref sig .tc .vmem S8x4x16x512 .bf16).view.loc (c : Thread nD τ) ↦[restS1 c]{fullShare} f)) :=
  cut7_iff (ℓ := (Memref.whole cc0_scratch1 : Memref sig .tc .vmem S8x4x16x512 .bf16).view.loc (c : Thread nD τ)) f key4 ((c.val % 8 + 0 + 1) % 8) ((c.val % 8 + 1 + 1) % 8) ((c.val % 8 + 2 + 1) % 8) ((c.val % 8 + 3 + 1) % 8) ((c.val % 8 + 4 + 1) % 8) ((c.val % 8 + 5 + 1) % 8) ((c.val % 8 + 6 + 1) % 8) (src1 c 0).view.set (src1 c 1).view.set (src1 c 2).view.set (src1 c 3).view.set (src1 c 4).view.set (src1 c 5).view.set (src1 c 6).view.set (fun _ => mem_src1_0 c) (fun _ => mem_src1_1 c) (fun _ => mem_src1_2 c) (fun _ => mem_src1_3 c) (fun _ => mem_src1_4 c) (fun _ => mem_src1_5 c) (fun _ => mem_src1_6 c) (inj_src1 c)

theorem cut_src1 (c : Dev nD) (f : Buf (Elt F) ((Memref.whole cc0_scratch1 : Memref sig .tc .vmem S8x4x16x512 .bf16).view.loc (c : Thread nD τ))) :
    ((Memref.whole cc0_scratch1 : Memref sig .tc .vmem S8x4x16x512 .bf16).view.loc (c : Thread nD τ) ↦{fullShare} f : sProp 𝕄) ⊢
      iprop(((src1 c 0).view.loc (c : Thread nD τ) ↦[(src1 c 0).view.set]{fullShare} f) ∗
        ((src1 c 1).view.loc (c : Thread nD τ) ↦[(src1 c 1).view.set]{fullShare} f) ∗
        ((src1 c 2).view.loc (c : Thread nD τ) ↦[(src1 c 2).view.set]{fullShare} f) ∗
        ((src1 c 3).view.loc (c : Thread nD τ) ↦[(src1 c 3).view.set]{fullShare} f) ∗
        ((src1 c 4).view.loc (c : Thread nD τ) ↦[(src1 c 4).view.set]{fullShare} f) ∗
        ((src1 c 5).view.loc (c : Thread nD τ) ↦[(src1 c 5).view.set]{fullShare} f) ∗
        ((src1 c 6).view.loc (c : Thread nD τ) ↦[(src1 c 6).view.set]{fullShare} f) ∗
        ((Memref.whole cc0_scratch1 : Memref sig .tc .vmem S8x4x16x512 .bf16).view.loc (c : Thread nD τ) ↦[restS1 c]{fullShare} f)) :=
  (cut_src1_iff c f).1

theorem join_src1_val (c : Dev nD) (f0 f1 f2 f3 f4 f5 f6 frest : Buf (Elt F) ((Memref.whole cc0_scratch1 : Memref sig .tc .vmem S8x4x16x512 .bf16).view.loc (c : Thread nD τ))) :
    (iprop(((src1 c 0).view.loc (c : Thread nD τ) ↦[(src1 c 0).view.set]{fullShare} f0) ∗
        ((src1 c 1).view.loc (c : Thread nD τ) ↦[(src1 c 1).view.set]{fullShare} f1) ∗
        ((src1 c 2).view.loc (c : Thread nD τ) ↦[(src1 c 2).view.set]{fullShare} f2) ∗
        ((src1 c 3).view.loc (c : Thread nD τ) ↦[(src1 c 3).view.set]{fullShare} f3) ∗
        ((src1 c 4).view.loc (c : Thread nD τ) ↦[(src1 c 4).view.set]{fullShare} f4) ∗
        ((src1 c 5).view.loc (c : Thread nD τ) ↦[(src1 c 5).view.set]{fullShare} f5) ∗
        ((src1 c 6).view.loc (c : Thread nD τ) ↦[(src1 c 6).view.set]{fullShare} f6) ∗
        ((Memref.whole cc0_scratch1 : Memref sig .tc .vmem S8x4x16x512 .bf16).view.loc (c : Thread nD τ) ↦[restS1 c]{fullShare} frest)) : sProp 𝕄) ⊢
      iprop(∃ g : Buf (Elt F) ((Memref.whole cc0_scratch1 : Memref sig .tc .vmem S8x4x16x512 .bf16).view.loc (c : Thread nD τ)), ⌜(src1 c 0).view.read (Elt F) g = (src1 c 0).view.read (Elt F) f0 ∧
          (src1 c 1).view.read (Elt F) g = (src1 c 1).view.read (Elt F) f1 ∧
          (src1 c 2).view.read (Elt F) g = (src1 c 2).view.read (Elt F) f2 ∧
          (src1 c 3).view.read (Elt F) g = (src1 c 3).view.read (Elt F) f3 ∧
          (src1 c 4).view.read (Elt F) g = (src1 c 4).view.read (Elt F) f4 ∧
          (src1 c 5).view.read (Elt F) g = (src1 c 5).view.read (Elt F) f5 ∧
          (src1 c 6).view.read (Elt F) g = (src1 c 6).view.read (Elt F) f6⌝ ∗
        ((Memref.whole cc0_scratch1 : Memref sig .tc .vmem S8x4x16x512 .bf16).view.loc (c : Thread nD τ) ↦{fullShare} g)) := by
  refine (join7 (ℓ := (Memref.whole cc0_scratch1 : Memref sig .tc .vmem S8x4x16x512 .bf16).view.loc (c : Thread nD τ)) f0 f1 f2 f3 f4 f5 f6 frest key4 ((c.val % 8 + 0 + 1) % 8) ((c.val % 8 + 1 + 1) % 8) ((c.val % 8 + 2 + 1) % 8) ((c.val % 8 + 3 + 1) % 8) ((c.val % 8 + 4 + 1) % 8) ((c.val % 8 + 5 + 1) % 8) ((c.val % 8 + 6 + 1) % 8) (src1 c 0).view.set (src1 c 1).view.set (src1 c 2).view.set (src1 c 3).view.set (src1 c 4).view.set (src1 c 5).view.set (src1 c 6).view.set (fun _ => mem_src1_0 c) (fun _ => mem_src1_1 c) (fun _ => mem_src1_2 c) (fun _ => mem_src1_3 c) (fun _ => mem_src1_4 c) (fun _ => mem_src1_5 c) (fun _ => mem_src1_6 c) (inj_src1 c)).trans ?_
  iintro ⟨%g, %hg, H⟩
  iexists g
  isplitr
  · ipureintro
    obtain ⟨a0, a1, a2, a3, a4, a5, a6⟩ := hg
    exact ⟨View.read_congr a0, View.read_congr a1, View.read_congr a2, View.read_congr a3, View.read_congr a4, View.read_congr a5, View.read_congr a6⟩
  · iexact H

theorem join_src1 (c : Dev nD) :
    (iprop((∃ f : Buf (Elt F) ((Memref.whole cc0_scratch1 : Memref sig .tc .vmem S8x4x16x512 .bf16).view.loc (c : Thread nD τ)), (src1 c 0).view.loc (c : Thread nD τ) ↦[(src1 c 0).view.set]{fullShare} f) ∗
        (∃ f : Buf (Elt F) ((Memref.whole cc0_scratch1 : Memref sig .tc .vmem S8x4x16x512 .bf16).view.loc (c : Thread nD τ)), (src1 c 1).view.loc (c : Thread nD τ) ↦[(src1 c 1).view.set]{fullShare} f) ∗
        (∃ f : Buf (Elt F) ((Memref.whole cc0_scratch1 : Memref sig .tc .vmem S8x4x16x512 .bf16).view.loc (c : Thread nD τ)), (src1 c 2).view.loc (c : Thread nD τ) ↦[(src1 c 2).view.set]{fullShare} f) ∗
        (∃ f : Buf (Elt F) ((Memref.whole cc0_scratch1 : Memref sig .tc .vmem S8x4x16x512 .bf16).view.loc (c : Thread nD τ)), (src1 c 3).view.loc (c : Thread nD τ) ↦[(src1 c 3).view.set]{fullShare} f) ∗
        (∃ f : Buf (Elt F) ((Memref.whole cc0_scratch1 : Memref sig .tc .vmem S8x4x16x512 .bf16).view.loc (c : Thread nD τ)), (src1 c 4).view.loc (c : Thread nD τ) ↦[(src1 c 4).view.set]{fullShare} f) ∗
        (∃ f : Buf (Elt F) ((Memref.whole cc0_scratch1 : Memref sig .tc .vmem S8x4x16x512 .bf16).view.loc (c : Thread nD τ)), (src1 c 5).view.loc (c : Thread nD τ) ↦[(src1 c 5).view.set]{fullShare} f) ∗
        (∃ f : Buf (Elt F) ((Memref.whole cc0_scratch1 : Memref sig .tc .vmem S8x4x16x512 .bf16).view.loc (c : Thread nD τ)), (src1 c 6).view.loc (c : Thread nD τ) ↦[(src1 c 6).view.set]{fullShare} f) ∗
        (∃ f : Buf (Elt F) ((Memref.whole cc0_scratch1 : Memref sig .tc .vmem S8x4x16x512 .bf16).view.loc (c : Thread nD τ)), (Memref.whole cc0_scratch1 : Memref sig .tc .vmem S8x4x16x512 .bf16).view.loc (c : Thread nD τ) ↦[restS1 c]{fullShare} f)) : sProp 𝕄) ⊢
      iprop(∃ g : Buf (Elt F) ((Memref.whole cc0_scratch1 : Memref sig .tc .vmem S8x4x16x512 .bf16).view.loc (c : Thread nD τ)), (Memref.whole cc0_scratch1 : Memref sig .tc .vmem S8x4x16x512 .bf16).view.loc (c : Thread nD τ) ↦{fullShare} g) := by
  iintro ⟨⟨%f0, H0⟩, ⟨%f1, H1⟩, ⟨%f2, H2⟩, ⟨%f3, H3⟩, ⟨%f4, H4⟩, ⟨%f5, H5⟩, ⟨%f6, H6⟩, ⟨%fr, HR⟩⟩
  ihave Hj := (join_src1_val c f0 f1 f2 f3 f4 f5 f6 fr) $$ [H0 H1 H2 H3 H4 H5 H6 HR]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact HR
  icases Hj with ⟨%g, %hg, Hw⟩
  iexists g
  iexact Hw

/-! ## The in-plane sums, by the slices sent across planes -/

/-- The elements of the in-plane sums outside the three slices device `c` sends across planes. -/
def restS2 (c : Dev nD) : Finset S4x16x512.Idx :=
  Finset.univ \ ((src2 c 0).view.set ∪ (src2 c 1).view.set ∪ (src2 c 2).view.set)

theorem cut_src2_iff (c : Dev nD) (f : Buf (Elt F) ((Memref.whole cc0_scratch4 : Memref sig .tc .vmem S4x16x512 .bf16).view.loc (c : Thread nD τ))) :
    ((Memref.whole cc0_scratch4 : Memref sig .tc .vmem S4x16x512 .bf16).view.loc (c : Thread nD τ) ↦{fullShare} f : sProp 𝕄) ⊣⊢
      iprop(((src2 c 0).view.loc (c : Thread nD τ) ↦[(src2 c 0).view.set]{fullShare} f) ∗
        ((src2 c 1).view.loc (c : Thread nD τ) ↦[(src2 c 1).view.set]{fullShare} f) ∗
        ((src2 c 2).view.loc (c : Thread nD τ) ↦[(src2 c 2).view.set]{fullShare} f) ∗
        ((Memref.whole cc0_scratch4 : Memref sig .tc .vmem S4x16x512 .bf16).view.loc (c : Thread nD τ) ↦[restS2 c]{fullShare} f)) :=
  cut3_iff (ℓ := (Memref.whole cc0_scratch4 : Memref sig .tc .vmem S4x16x512 .bf16).view.loc (c : Thread nD τ)) f key3 ((c.val / 8 + 0 + 1) % 4) ((c.val / 8 + 1 + 1) % 4) ((c.val / 8 + 2 + 1) % 4) (src2 c 0).view.set (src2 c 1).view.set (src2 c 2).view.set (fun _ => mem_src2_0 c) (fun _ => mem_src2_1 c) (fun _ => mem_src2_2 c) (inj_src2 c)

theorem cut_src2 (c : Dev nD) (f : Buf (Elt F) ((Memref.whole cc0_scratch4 : Memref sig .tc .vmem S4x16x512 .bf16).view.loc (c : Thread nD τ))) :
    ((Memref.whole cc0_scratch4 : Memref sig .tc .vmem S4x16x512 .bf16).view.loc (c : Thread nD τ) ↦{fullShare} f : sProp 𝕄) ⊢
      iprop(((src2 c 0).view.loc (c : Thread nD τ) ↦[(src2 c 0).view.set]{fullShare} f) ∗
        ((src2 c 1).view.loc (c : Thread nD τ) ↦[(src2 c 1).view.set]{fullShare} f) ∗
        ((src2 c 2).view.loc (c : Thread nD τ) ↦[(src2 c 2).view.set]{fullShare} f) ∗
        ((Memref.whole cc0_scratch4 : Memref sig .tc .vmem S4x16x512 .bf16).view.loc (c : Thread nD τ) ↦[restS2 c]{fullShare} f)) :=
  (cut_src2_iff c f).1

theorem join_src2_val (c : Dev nD) (f0 f1 f2 frest : Buf (Elt F) ((Memref.whole cc0_scratch4 : Memref sig .tc .vmem S4x16x512 .bf16).view.loc (c : Thread nD τ))) :
    (iprop(((src2 c 0).view.loc (c : Thread nD τ) ↦[(src2 c 0).view.set]{fullShare} f0) ∗
        ((src2 c 1).view.loc (c : Thread nD τ) ↦[(src2 c 1).view.set]{fullShare} f1) ∗
        ((src2 c 2).view.loc (c : Thread nD τ) ↦[(src2 c 2).view.set]{fullShare} f2) ∗
        ((Memref.whole cc0_scratch4 : Memref sig .tc .vmem S4x16x512 .bf16).view.loc (c : Thread nD τ) ↦[restS2 c]{fullShare} frest)) : sProp 𝕄) ⊢
      iprop(∃ g : Buf (Elt F) ((Memref.whole cc0_scratch4 : Memref sig .tc .vmem S4x16x512 .bf16).view.loc (c : Thread nD τ)), ⌜(src2 c 0).view.read (Elt F) g = (src2 c 0).view.read (Elt F) f0 ∧
          (src2 c 1).view.read (Elt F) g = (src2 c 1).view.read (Elt F) f1 ∧
          (src2 c 2).view.read (Elt F) g = (src2 c 2).view.read (Elt F) f2⌝ ∗
        ((Memref.whole cc0_scratch4 : Memref sig .tc .vmem S4x16x512 .bf16).view.loc (c : Thread nD τ) ↦{fullShare} g)) := by
  refine (join3 (ℓ := (Memref.whole cc0_scratch4 : Memref sig .tc .vmem S4x16x512 .bf16).view.loc (c : Thread nD τ)) f0 f1 f2 frest key3 ((c.val / 8 + 0 + 1) % 4) ((c.val / 8 + 1 + 1) % 4) ((c.val / 8 + 2 + 1) % 4) (src2 c 0).view.set (src2 c 1).view.set (src2 c 2).view.set (fun _ => mem_src2_0 c) (fun _ => mem_src2_1 c) (fun _ => mem_src2_2 c) (inj_src2 c)).trans ?_
  iintro ⟨%g, %hg, H⟩
  iexists g
  isplitr
  · ipureintro
    obtain ⟨a0, a1, a2⟩ := hg
    exact ⟨View.read_congr a0, View.read_congr a1, View.read_congr a2⟩
  · iexact H

theorem join_src2 (c : Dev nD) :
    (iprop((∃ f : Buf (Elt F) ((Memref.whole cc0_scratch4 : Memref sig .tc .vmem S4x16x512 .bf16).view.loc (c : Thread nD τ)), (src2 c 0).view.loc (c : Thread nD τ) ↦[(src2 c 0).view.set]{fullShare} f) ∗
        (∃ f : Buf (Elt F) ((Memref.whole cc0_scratch4 : Memref sig .tc .vmem S4x16x512 .bf16).view.loc (c : Thread nD τ)), (src2 c 1).view.loc (c : Thread nD τ) ↦[(src2 c 1).view.set]{fullShare} f) ∗
        (∃ f : Buf (Elt F) ((Memref.whole cc0_scratch4 : Memref sig .tc .vmem S4x16x512 .bf16).view.loc (c : Thread nD τ)), (src2 c 2).view.loc (c : Thread nD τ) ↦[(src2 c 2).view.set]{fullShare} f) ∗
        (∃ f : Buf (Elt F) ((Memref.whole cc0_scratch4 : Memref sig .tc .vmem S4x16x512 .bf16).view.loc (c : Thread nD τ)), (Memref.whole cc0_scratch4 : Memref sig .tc .vmem S4x16x512 .bf16).view.loc (c : Thread nD τ) ↦[restS2 c]{fullShare} f)) : sProp 𝕄) ⊢
      iprop(∃ g : Buf (Elt F) ((Memref.whole cc0_scratch4 : Memref sig .tc .vmem S4x16x512 .bf16).view.loc (c : Thread nD τ)), (Memref.whole cc0_scratch4 : Memref sig .tc .vmem S4x16x512 .bf16).view.loc (c : Thread nD τ) ↦{fullShare} g) := by
  iintro ⟨⟨%f0, H0⟩, ⟨%f1, H1⟩, ⟨%f2, H2⟩, ⟨%fr, HR⟩⟩
  ihave Hj := (join_src2_val c f0 f1 f2 fr) $$ [H0 H1 H2 HR]
  · isplitl [H0]
    · iexact H0
    isplitl [H1]
    · iexact H1
    isplitl [H2]
    · iexact H2
    iexact HR
  icases Hj with ⟨%g, %hg, Hw⟩
  iexists g
  iexact Hw

/-- info: 'Cert.Kernel.Hand.cut_slots1_iff' depends on axioms: [propext, Classical.choice, Quot.sound] -/
#guard_msgs in #print axioms cut_slots1_iff
/-- info: 'Cert.Kernel.Hand.join_slots1' depends on axioms: [propext, Classical.choice, Quot.sound] -/
#guard_msgs in #print axioms join_slots1
/-- info: 'Cert.Kernel.Hand.cut_slots2_iff' depends on axioms: [propext, Classical.choice, Quot.sound] -/
#guard_msgs in #print axioms cut_slots2_iff
/-- info: 'Cert.Kernel.Hand.join_slots2' depends on axioms: [propext, Classical.choice, Quot.sound] -/
#guard_msgs in #print axioms join_slots2
/-- info: 'Cert.Kernel.Hand.cut_src1_iff' depends on axioms: [propext, Classical.choice, Quot.sound] -/
#guard_msgs in #print axioms cut_src1_iff
/-- info: 'Cert.Kernel.Hand.join_src1' depends on axioms: [propext, Classical.choice, Quot.sound] -/
#guard_msgs in #print axioms join_src1
/-- info: 'Cert.Kernel.Hand.cut_src2_iff' depends on axioms: [propext, Classical.choice, Quot.sound] -/
#guard_msgs in #print axioms cut_src2_iff
/-- info: 'Cert.Kernel.Hand.join_src2' depends on axioms: [propext, Classical.choice, Quot.sound] -/
#guard_msgs in #print axioms join_src2

end Cert.Kernel.Hand
end
-- ==== Proof.Bits.Contents.lean ====
/- What a device's buffer of rounded 16-row slices holds after its 32 stores, as a list of pieces (last store
   first), and what each of the seven in-plane transfers carries: the four slices addressed to the receiver's
   place, read from the sender's buffer. The transfer's contents do not depend on what the buffer held before. -/
import proofs.«900450_g7700000000000451_dist_matmul_mk_i_outk_m512_n512_k256_v7x_i32_f32_1_alg».proof.Proof.Bits.Dats

set_option maxRecDepth 16384

noncomputable section

namespace Cert.Kernel.Hand

open Cert.Kernel Cert.Kernel.Gen
open Idealize.ShloMosaic
open Idealize.ShloMosaic.TcCoe
open Idealize.SL.Sem

variable {F : FTy → Type} [FloatOps F]

/-- What the load of a device's whole staged block of `A` reads. -/
def laOf (a : (cc0_stg0_0 : Ref sig .tc).ty.Contents (Elt F)) : Vec F S512x256 .f32 :=
  View.readAt (Elt F) (Memref.whole cc0_stg0_0).view (Rect.unit ![0, 0] S512x256.size inb_S512x256_S512x256_0_0).toLoadRect a
/-- What the load of a device's whole staged block of `B` reads. -/
def lbOf (b : (cc0_stg1_0 : Ref sig .tc).ty.Contents (Elt F)) : Vec F S256x512 .f32 :=
  View.readAt (Elt F) (Memref.whole cc0_stg1_0).view (Rect.unit ![0, 0] S256x512.size inb_S256x512_S256x512_0_0).toLoadRect b

/-- The 32 stores of rounded slices, last first: slice `e` (rows `16 e … 16 e + 15` of the partial product) goes
    to position `(e % 8, e / 8)`. -/
def p2bL (la : Vec F S512x256 .f32) (lb : Vec F S256x512 .f32) : List (View.Piece (Elt F) S8x4x16x512 .bf16) :=
  [
    ⟨Rect.unit ![7, 3, 0, 0] S1x1x16x512.size inb_S8x4x16x512_S1x1x16x512_7_3_0_0, k0_pay39 (k0_pay1 la lb)⟩,
    ⟨Rect.unit ![6, 3, 0, 0] S1x1x16x512.size inb_S8x4x16x512_S1x1x16x512_6_3_0_0, k0_pay38 (k0_pay1 la lb)⟩,
    ⟨Rect.unit ![5, 3, 0, 0] S1x1x16x512.size inb_S8x4x16x512_S1x1x16x512_5_3_0_0, k0_pay37 (k0_pay1 la lb)⟩,
    ⟨Rect.unit ![4, 3, 0, 0] S1x1x16x512.size inb_S8x4x16x512_S1x1x16x512_4_3_0_0, k0_pay36 (k0_pay1 la lb)⟩,
    ⟨Rect.unit ![3, 3, 0, 0] S1x1x16x512.size inb_S8x4x16x512_S1x1x16x512_3_3_0_0, k0_pay35 (k0_pay1 la lb)⟩,
    ⟨Rect.unit ![2, 3, 0, 0] S1x1x16x512.size inb_S8x4x16x512_S1x1x16x512_2_3_0_0, k0_pay34 (k0_pay33 (k0_pay1 la lb))⟩,
    ⟨Rect.unit ![1, 3, 0, 0] S1x1x16x512.size inb_S8x4x16x512_S1x1x16x512_1_3_0_0, k0_pay32 (k0_pay1 la lb)⟩,
    ⟨Rect.unit ![0, 3, 0, 0] S1x1x16x512.size inb_S8x4x16x512_S1x1x16x512_0_3_0_0, k0_pay31 (k0_pay1 la lb)⟩,
    ⟨Rect.unit ![7, 2, 0, 0] S1x1x16x512.size inb_S8x4x16x512_S1x1x16x512_7_2_0_0, k0_pay30 (k0_pay1 la lb)⟩,
    ⟨Rect.unit ![6, 2, 0, 0] S1x1x16x512.size inb_S8x4x16x512_S1x1x16x512_6_2_0_0, k0_pay29 (k0_pay1 la lb)⟩,
    ⟨Rect.unit ![5, 2, 0, 0] S1x1x16x512.size inb_S8x4x16x512_S1x1x16x512_5_2_0_0, k0_pay28 (k0_pay1 la lb)⟩,
    ⟨Rect.unit ![4, 2, 0, 0] S1x1x16x512.size inb_S8x4x16x512_S1x1x16x512_4_2_0_0, k0_pay27 (k0_pay26 (k0_pay1 la lb))⟩,
    ⟨Rect.unit ![3, 2, 0, 0] S1x1x16x512.size inb_S8x4x16x512_S1x1x16x512_3_2_0_0, k0_pay25 (k0_pay1 la lb)⟩,
    ⟨Rect.unit ![2, 2, 0, 0] S1x1x16x512.size inb_S8x4x16x512_S1x1x16x512_2_2_0_0, k0_pay24 (k0_pay1 la lb)⟩,
    ⟨Rect.unit ![1, 2, 0, 0] S1x1x16x512.size inb_S8x4x16x512_S1x1x16x512_1_2_0_0, k0_pay23 (k0_pay1 la lb)⟩,
    ⟨Rect.unit ![0, 2, 0, 0] S1x1x16x512.size inb_S8x4x16x512_S1x1x16x512_0_2_0_0, k0_pay22 (k0_pay1 la lb)⟩,
    ⟨Rect.unit ![7, 1, 0, 0] S1x1x16x512.size inb_S8x4x16x512_S1x1x16x512_7_1_0_0, k0_pay21 (k0_pay1 la lb)⟩,
    ⟨Rect.unit ![6, 1, 0, 0] S1x1x16x512.size inb_S8x4x16x512_S1x1x16x512_6_1_0_0, k0_pay20 (k0_pay19 (k0_pay1 la lb))⟩,
    ⟨Rect.unit ![5, 1, 0, 0] S1x1x16x512.size inb_S8x4x16x512_S1x1x16x512_5_1_0_0, k0_pay18 (k0_pay1 la lb)⟩,
    ⟨Rect.unit ![4, 1, 0, 0] S1x1x16x512.size inb_S8x4x16x512_S1x1x16x512_4_1_0_0, k0_pay17 (k0_pay1 la lb)⟩,
    ⟨Rect.unit ![3, 1, 0, 0] S1x1x16x512.size inb_S8x4x16x512_S1x1x16x512_3_1_0_0, k0_pay16 (k0_pay1 la lb)⟩,
    ⟨Rect.unit ![2, 1, 0, 0] S1x1x16x512.size inb_S8x4x16x512_S1x1x16x512_2_1_0_0, k0_pay15 (k0_pay1 la lb)⟩,
    ⟨Rect.unit ![1, 1, 0, 0] S1x1x16x512.size inb_S8x4x16x512_S1x1x16x512_1_1_0_0, k0_pay14 (k0_pay1 la lb)⟩,
    ⟨Rect.unit ![0, 1, 0, 0] S1x1x16x512.size inb_S8x4x16x512_S1x1x16x512_0_1_0_0, k0_pay13 (k0_pay12 (k0_pay1 la lb))⟩,
    ⟨Rect.unit ![7, 0, 0, 0] S1x1x16x512.size inb_S8x4x16x512_S1x1x16x512_7_0_0_0, k0_pay11 (k0_pay1 la lb)⟩,
    ⟨Rect.unit ![6, 0, 0, 0] S1x1x16x512.size inb_S8x4x16x512_S1x1x16x512_6_0_0_0, k0_pay10 (k0_pay1 la lb)⟩,
    ⟨Rect.unit ![5, 0, 0, 0] S1x1x16x512.size inb_S8x4x16x512_S1x1x16x512_5_0_0_0, k0_pay9 (k0_pay1 la lb)⟩,
    ⟨Rect.unit ![4, 0, 0, 0] S1x1x16x512.size inb_S8x4x16x512_S1x1x16x512_4_0_0_0, k0_pay8 (k0_pay1 la lb)⟩,
    ⟨Rect.unit ![3, 0, 0, 0] S1x1x16x512.size inb_S8x4x16x512_S1x1x16x512_3_0_0_0, k0_pay7 (k0_pay1 la lb)⟩,
    ⟨Rect.unit ![2, 0, 0, 0] S1x1x16x512.size inb_S8x4x16x512_S1x1x16x512_2_0_0_0, k0_pay6 (k0_pay5 la lb)⟩,
    ⟨Rect.unit ![1, 0, 0, 0] S1x1x16x512.size inb_S8x4x16x512_S1x1x16x512_1_0_0_0, k0_pay4 la lb⟩,
    ⟨Rect.unit ![0, 0, 0, 0] S1x1x16x512.size inb_S8x4x16x512_S1x1x16x512_0_0_0_0, k0_pay3 la lb⟩]

/-- The 32 pieces tile the buffer: every index lies in one of them. -/
theorem p2bL_cover (la : Vec F S512x256 .f32) (lb : Vec F S256x512 .f32) :
    ∀ y : S8x4x16x512.Idx, ∃ p ∈ p2bL la lb, y ∈ p.1.set :=
  View.cover_of_tiledL (p2bL la lb) S1x1x16x512.size (by sl_kernel_rfl)

/-- A read through one position's four slices does not see what the buffer held before the 32 stores. -/
theorem read_slot_indep (R : Rect S8x4x16x512) (hR : ∀ a, R.stride a = 1) (hq : R.shape.Squeezes S4x16x512)
    (L : List (View.Piece (Elt F) S8x4x16x512 .bf16)) (hc : ∀ y : S8x4x16x512.Idx, ∃ p ∈ L, y ∈ p.1.set)
    (f f' : (Memref.whole cc0_scratch1 : Memref sig .tc .vmem S8x4x16x512 .bf16).view.ty.Contents (Elt F)) :
    (((Memref.whole cc0_scratch1 : Memref sig .tc .vmem S8x4x16x512 .bf16).slice R hR).squeeze S4x16x512 hq).view.read (Elt F)
        ((Memref.whole cc0_scratch1 : Memref sig .tc .vmem S8x4x16x512 .bf16).view.writes (Elt F) f L)
      = (((Memref.whole cc0_scratch1 : Memref sig .tc .vmem S8x4x16x512 .bf16).slice R hR).squeeze S4x16x512 hq).view.read (Elt F)
        ((Memref.whole cc0_scratch1 : Memref sig .tc .vmem S8x4x16x512 .bf16).view.writes (Elt F) f' L) := by
  funext y
  show (Memref.whole cc0_scratch1 : Memref sig .tc .vmem S8x4x16x512 .bf16).view.read (Elt F) _ (R.emb (Shape.reshapeEquiv hq.numel_eq y))
    = (Memref.whole cc0_scratch1 : Memref sig .tc .vmem S8x4x16x512 .bf16).view.read (Elt F) _ (R.emb (Shape.reshapeEquiv hq.numel_eq y))
  rw [View.read_writes_apply_eq_canon _ f _ L (hc _), View.read_writes_apply_eq_canon _ f' _ L (hc _)]

/-- The four slices device `c` sends with its transfer `r`, with `r` a variable: position `(c % 8 + r + 1) % 8` of
    its buffer. For each of the seven `r` this is `src1 c r`. -/
def srcV (c : Dev nD) (r : Fin 7) : Memref sig .tc .vmem S4x16x512 .bf16 :=
  ((Memref.whole cc0_scratch1 : Memref sig .tc .vmem S8x4x16x512 .bf16).slice
    (Rect.unit (s := S8x4x16x512) (k0_off1 c (BitVec.ofNat 32 (1 + r.val))) S1x4x16x512.size (k0_off1_inb c r)) (fun _ => rfl)).squeeze
      S4x16x512 squeezes_S1x4x16x512_S4x16x512

theorem src1_eq (c : Dev nD) (r : Fin 7) : src1 c r = srcV c r := by
  match r with
  | 0 => rfl
  | 1 => rfl
  | 2 => rfl
  | 3 => rfl
  | 4 => rfl
  | 5 => rfl
  | 6 => rfl

variable (m : (ℓ : Loc nD τ sig) → Buf (Elt F) ℓ) (ρ : Dev nD → PrngReg)

/-- What lands in slot `r + 1` of device `x`'s in-plane receive buffer: the four slices at `x`'s place in the
    buffer of the sender, the device `7 - r` places on from `x` (whose transfer `r` is addressed `r + 1` places on). -/
def v1Of (x : Dev nD) (r : Fin 7) : FVec F S4x16x512 .bf16 :=
  (srcV (rotq x (7 - r.val)) r).view.read (Elt F)
    ((Memref.whole cc0_scratch1 : Memref sig .tc .vmem S8x4x16x512 .bf16).view.writes (Elt F)
      (Memref.whole cc0_scratch1 : Memref sig .tc .vmem S8x4x16x512 .bf16).view.junk
      (p2bL (laOf (aC m ρ (rotq x (7 - r.val)))) (lbOf (bC m ρ (rotq x (7 - r.val))))))

theorem rotq_back : ∀ (c : Dev nD) (r : Fin 7), rotq (rotq c (r.val + 1)) (7 - r.val) = c := by decide

/-- Device `c`'s transfer `r`, read from its buffer after the 32 stores over any earlier contents, is what its
    receiver `r + 1` places on is said to get. -/
theorem hv1 (c : Dev nD) (r : Fin 7)
    (fq : (Memref.whole cc0_scratch1 : Memref sig .tc .vmem S8x4x16x512 .bf16).view.ty.Contents (Elt F)) :
    (srcV c r).view.read (Elt F)
        ((Memref.whole cc0_scratch1 : Memref sig .tc .vmem S8x4x16x512 .bf16).view.writes (Elt F) fq
          (p2bL (laOf (aC m ρ c)) (lbOf (bC m ρ c))))
      = v1Of m ρ (rotq c (r.val + 1)) r := by
  unfold v1Of
  rw [rotq_back c r]
  unfold srcV
  exact read_slot_indep (Rect.unit (s := S8x4x16x512) (k0_off1 c (BitVec.ofNat 32 (1 + r.val))) S1x4x16x512.size (k0_off1_inb c r))
    (fun _ => rfl) squeezes_S1x4x16x512_S4x16x512 _ (p2bL_cover _ _) _ _

end Cert.Kernel.Hand

end

/-- info: 'Cert.Kernel.Hand.hv1' depends on axioms: [propext, Classical.choice, Quot.sound] -/
#guard_msgs in #print axioms Cert.Kernel.Hand.hv1
-- ==== Proof.Bits.Terms.lean ====
import proofs.«900450_g7700000000000451_dist_matmul_mk_i_outk_m512_n512_k256_v7x_i32_f32_1_alg».proof.Proof.Bits.Contents

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (K : Cont F)

/-! ## The values the body computes after its stores, as terms of what it loaded -/

section
variable (c : Dev nD) (la : Vec F S512x256 .f32) (lb : Vec F S256x512 .f32)

/-- The partial product buffer after its one store. -/
def partL : List (View.Piece (Elt F) S512x512 .f32) :=
  [⟨Rect.unit (s := S512x512) ![0, 0] S512x512.size inb_S512x512_S512x512_0_0, k0_pay2 la lb⟩]

variable (f0 : (Memref.whole cc0_scratch0 : Memref sig .tc .vmem S512x512 .f32).view.ty.Contents (Elt F))

/-- The four 16-row slices of the partial product that are device `c`'s own contribution to the four rows blocks of its place. -/
def own0 := View.readAt (Elt F) (Memref.whole cc0_scratch0 : Memref sig .tc .vmem S512x512 .f32).view (Rect.unit (s := S512x512) (k0_off2 c 0#32) S16x512.size (k0_off2_inb c 0)).toLoadRect ((Memref.whole cc0_scratch0 : Memref sig .tc .vmem S512x512 .f32).view.writes (Elt F) f0 (partL la lb))
def own1 := View.readAt (Elt F) (Memref.whole cc0_scratch0 : Memref sig .tc .vmem S512x512 .f32).view (Rect.unit (s := S512x512) (k0_off2 c 128#32) S16x512.size (k0_off2_inb c 1)).toLoadRect ((Memref.whole cc0_scratch0 : Memref sig .tc .vmem S512x512 .f32).view.writes (Elt F) f0 (partL la lb))
def own2 := View.readAt (Elt F) (Memref.whole cc0_scratch0 : Memref sig .tc .vmem S512x512 .f32).view (Rect.unit (s := S512x512) (k0_off2 c 256#32) S16x512.size (k0_off2_inb c 2)).toLoadRect ((Memref.whole cc0_scratch0 : Memref sig .tc .vmem S512x512 .f32).view.writes (Elt F) f0 (partL la lb))
def own3 := View.readAt (Elt F) (Memref.whole cc0_scratch0 : Memref sig .tc .vmem S512x512 .f32).view (Rect.unit (s := S512x512) (k0_off2 c 384#32) S16x512.size (k0_off2_inb c 3)).toLoadRect ((Memref.whole cc0_scratch0 : Memref sig .tc .vmem S512x512 .f32).view.writes (Elt F) f0 (partL la lb))

variable (g1 : (Memref.whole cc0_scratch2 : Memref sig .tc .vmem S8x4x16x512 .bf16).view.ty.Contents (Elt F))

/-- Slots 1 to 7 of the in-plane receive buffer, loaded at once. -/
def r1Load := View.readAt (Elt F) (Memref.whole cc0_scratch2 : Memref sig .tc .vmem S8x4x16x512 .bf16).view (Rect.unit (s := S8x4x16x512) ![1, 0, 0, 0] S7x4x16x512.size inb_S8x4x16x512_S7x4x16x512_1_0_0_0).toLoadRect g1

/-- The plane sums, as stored in f32 and, rounded, in the cross-plane send buffer. -/
def acc1L : List (View.Piece (Elt F) S4x16x512 .f32) :=
  [⟨Rect.unit (s := S4x16x512) ![0, 0, 0] S4x16x512.size inb_S4x16x512_S4x16x512_0_0_0,
    k0_pay41 (own0 c la lb f0) (own1 c la lb f0) (own2 c la lb f0) (own3 c la lb f0) (r1Load g1)⟩]
def acc2L : List (View.Piece (Elt F) S4x16x512 .bf16) :=
  [⟨Rect.unit (s := S4x16x512) ![0, 0, 0] S4x16x512.size inb_S4x16x512_S4x16x512_0_0_0,
    k0_pay42 (own0 c la lb f0) (own1 c la lb f0) (own2 c la lb f0) (own3 c la lb f0) (r1Load g1)⟩]

variable (f1 : (Memref.whole cc0_scratch3 : Memref sig .tc .vmem S4x16x512 .f32).view.ty.Contents (Elt F)) (g2 : (Memref.whole cc0_scratch5 : Memref sig .tc .vmem S4x16x512 .bf16).view.ty.Contents (Elt F))

/-- The device's own plane's sum for its own rows, and slots 1 to 3 of the cross-plane receive buffer. -/
def accLoad := View.readAt (Elt F) (Memref.whole cc0_scratch3 : Memref sig .tc .vmem S4x16x512 .f32).view (Rect.unit (s := S4x16x512) (k0_off4 c) S1x16x512.size (k0_off4_inb c)).toLoadRect ((Memref.whole cc0_scratch3 : Memref sig .tc .vmem S4x16x512 .f32).view.writes (Elt F) f1 (acc1L c la lb f0 g1))
def r2Load := View.readAt (Elt F) (Memref.whole cc0_scratch5 : Memref sig .tc .vmem S4x16x512 .bf16).view (Rect.unit (s := S4x16x512) ![1, 0, 0] S3x16x512.size inb_S4x16x512_S3x16x512_1_0_0).toLoadRect g2

/-- The result block. -/
def outL : List (View.Piece (Elt F) S16x512 .f32) :=
  [⟨Rect.unit (s := S16x512) ![0, 0] S16x512.size inb_S16x512_S16x512_0_0, k0_pay43 (accLoad c la lb f0 g1 f1) (r2Load g2)⟩]

end

/-- What the schedule's values must be for device `c`'s body, whose staged blocks are `a` and `b`: what its transfers read out of its two send
    buffers are the values promised to their targets, and what it stores as its result is its promised result block — whatever the buffers
    held before, and whatever the receive buffers hold outside the slots that landed. -/
structure Good (c : Dev nD) (a : (cc0_stg0_0 : Ref sig .tc).ty.Contents (Elt F)) (b : (cc0_stg1_0 : Ref sig .tc).ty.Contents (Elt F)) : Prop where
  v1 : ∀ fq, (src1 c 0).view.read (Elt F) ((Memref.whole cc0_scratch1 : Memref sig .tc .vmem S8x4x16x512 .bf16).view.writes (Elt F) fq (p2bL (laOf a) (lbOf b))) = K.v1 (rotq c 1) 0
      ∧ (src1 c 1).view.read (Elt F) ((Memref.whole cc0_scratch1 : Memref sig .tc .vmem S8x4x16x512 .bf16).view.writes (Elt F) fq (p2bL (laOf a) (lbOf b))) = K.v1 (rotq c 2) 1
      ∧ (src1 c 2).view.read (Elt F) ((Memref.whole cc0_scratch1 : Memref sig .tc .vmem S8x4x16x512 .bf16).view.writes (Elt F) fq (p2bL (laOf a) (lbOf b))) = K.v1 (rotq c 3) 2
      ∧ (src1 c 3).view.read (Elt F) ((Memref.whole cc0_scratch1 : Memref sig .tc .vmem S8x4x16x512 .bf16).view.writes (Elt F) fq (p2bL (laOf a) (lbOf b))) = K.v1 (rotq c 4) 3
      ∧ (src1 c 4).view.read (Elt F) ((Memref.whole cc0_scratch1 : Memref sig .tc .vmem S8x4x16x512 .bf16).view.writes (Elt F) fq (p2bL (laOf a) (lbOf b))) = K.v1 (rotq c 5) 4
      ∧ (src1 c 5).view.read (Elt F) ((Memref.whole cc0_scratch1 : Memref sig .tc .vmem S8x4x16x512 .bf16).view.writes (Elt F) fq (p2bL (laOf a) (lbOf b))) = K.v1 (rotq c 6) 5
      ∧ (src1 c 6).view.read (Elt F) ((Memref.whole cc0_scratch1 : Memref sig .tc .vmem S8x4x16x512 .bf16).view.writes (Elt F) fq (p2bL (laOf a) (lbOf b))) = K.v1 (rotq c 7) 6
  v2 : ∀ f0 fa2 g1, ((slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6) →
      (src2 c 0).view.read (Elt F) ((Memref.whole cc0_scratch4 : Memref sig .tc .vmem S4x16x512 .bf16).view.writes (Elt F) fa2 (acc2L c (laOf a) (lbOf b) f0 g1)) = K.v2 (rotz c 1) 0
      ∧ (src2 c 1).view.read (Elt F) ((Memref.whole cc0_scratch4 : Memref sig .tc .vmem S4x16x512 .bf16).view.writes (Elt F) fa2 (acc2L c (laOf a) (lbOf b) f0 g1)) = K.v2 (rotz c 2) 1
      ∧ (src2 c 2).view.read (Elt F) ((Memref.whole cc0_scratch4 : Memref sig .tc .vmem S4x16x512 .bf16).view.writes (Elt F) fa2 (acc2L c (laOf a) (lbOf b) f0 g1)) = K.v2 (rotz c 3) 2
  out : ∀ f0 f1 o0 g1 g2, ((slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6) →
      ((slot2 0).view.read (Elt F) g2 = K.v2 c 0 ∧ (slot2 1).view.read (Elt F) g2 = K.v2 c 1 ∧ (slot2 2).view.read (Elt F) g2 = K.v2 c 2) →
      (Memref.whole cc0_stg2_0 : Memref sig .tc .vmem S16x512 .f32).view.writes (Elt F) o0 (outL c (laOf a) (lbOf b) f0 g1 f1 g2) = K.out c

end Cert.Kernel.Hand
end
-- ==== Proof.Bits.Body.lean ====
import proofs.«900450_g7700000000000451_dist_matmul_mk_i_outk_m512_n512_k256_v7x_i32_f32_1_alg».proof.Proof.Bits.Steps
import proofs.«900450_g7700000000000451_dist_matmul_mk_i_outk_m512_n512_k256_v7x_i32_f32_1_alg».proof.Proof.Bits.Cuts
import proofs.«900450_g7700000000000451_dist_matmul_mk_i_outk_m512_n512_k256_v7x_i32_f32_1_alg».proof.Proof.Bits.Terms

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
attribute [local sl_rounds] duties_bar duties_zr duties_later amount_bar amount_zr expect_bar expect_zr duties_s1_0 duties_v1_0 amount_s1_0 amount_v1_0 payload_bar_0 payload_s1_0 payload_v1_0 expect_s1_0 expect_v1_0 duties_s1_1 duties_v1_1 amount_s1_1 amount_v1_1 payload_bar_1 payload_s1_1 payload_v1_1 expect_s1_1 expect_v1_1 duties_s1_2 duties_v1_2 amount_s1_2 amount_v1_2 payload_bar_2 payload_s1_2 payload_v1_2 expect_s1_2 expect_v1_2 duties_s1_3 duties_v1_3 amount_s1_3 amount_v1_3 payload_bar_3 payload_s1_3 payload_v1_3 expect_s1_3 expect_v1_3 duties_s1_4 duties_v1_4 amount_s1_4 amount_v1_4 payload_bar_4 payload_s1_4 payload_v1_4 expect_s1_4 expect_v1_4 duties_s1_5 duties_v1_5 amount_s1_5 amount_v1_5 payload_bar_5 payload_s1_5 payload_v1_5 expect_s1_5 expect_v1_5 duties_s1_6 duties_v1_6 amount_s1_6 amount_v1_6 payload_bar_6 payload_s1_6 payload_v1_6 expect_s1_6 expect_v1_6 duties_s2_0 duties_v2_0 amount_s2_0 amount_v2_0 payload_zr_0 payload_s2_0 payload_v2_0 expect_s2_0 expect_v2_0 duties_s2_1 duties_v2_1 amount_s2_1 amount_v2_1 payload_zr_1 payload_s2_1 payload_v2_1 expect_s2_1 expect_v2_1 duties_s2_2 duties_v2_2 amount_s2_2 amount_v2_2 payload_zr_2 payload_s2_2 payload_v2_2 expect_s2_2 expect_v2_2

omit [FloatOps F] in
theorem ex_slot1_0 (c : Dev nD) (f : Buf (Elt F) ((slot1 0).view.loc (c : Thread nD τ))) :
    ((slot1 0).view.loc (c : Thread nD τ) ↦[(slot1 0).view.set]{fullShare} f) ⊢ (iprop(∃ g, ((slot1 0).view.loc (c : Thread nD τ) ↦[(slot1 0).view.set]{fullShare} g)) : sProp 𝕄) := by
  iintro H; iexists f; iexact H
omit [FloatOps F] in
theorem ex_slot1_1 (c : Dev nD) (f : Buf (Elt F) ((slot1 1).view.loc (c : Thread nD τ))) :
    ((slot1 1).view.loc (c : Thread nD τ) ↦[(slot1 1).view.set]{fullShare} f) ⊢ (iprop(∃ g, ((slot1 1).view.loc (c : Thread nD τ) ↦[(slot1 1).view.set]{fullShare} g)) : sProp 𝕄) := by
  iintro H; iexists f; iexact H
omit [FloatOps F] in
theorem ex_slot1_2 (c : Dev nD) (f : Buf (Elt F) ((slot1 2).view.loc (c : Thread nD τ))) :
    ((slot1 2).view.loc (c : Thread nD τ) ↦[(slot1 2).view.set]{fullShare} f) ⊢ (iprop(∃ g, ((slot1 2).view.loc (c : Thread nD τ) ↦[(slot1 2).view.set]{fullShare} g)) : sProp 𝕄) := by
  iintro H; iexists f; iexact H
omit [FloatOps F] in
theorem ex_slot1_3 (c : Dev nD) (f : Buf (Elt F) ((slot1 3).view.loc (c : Thread nD τ))) :
    ((slot1 3).view.loc (c : Thread nD τ) ↦[(slot1 3).view.set]{fullShare} f) ⊢ (iprop(∃ g, ((slot1 3).view.loc (c : Thread nD τ) ↦[(slot1 3).view.set]{fullShare} g)) : sProp 𝕄) := by
  iintro H; iexists f; iexact H
omit [FloatOps F] in
theorem ex_slot1_4 (c : Dev nD) (f : Buf (Elt F) ((slot1 4).view.loc (c : Thread nD τ))) :
    ((slot1 4).view.loc (c : Thread nD τ) ↦[(slot1 4).view.set]{fullShare} f) ⊢ (iprop(∃ g, ((slot1 4).view.loc (c : Thread nD τ) ↦[(slot1 4).view.set]{fullShare} g)) : sProp 𝕄) := by
  iintro H; iexists f; iexact H
omit [FloatOps F] in
theorem ex_slot1_5 (c : Dev nD) (f : Buf (Elt F) ((slot1 5).view.loc (c : Thread nD τ))) :
    ((slot1 5).view.loc (c : Thread nD τ) ↦[(slot1 5).view.set]{fullShare} f) ⊢ (iprop(∃ g, ((slot1 5).view.loc (c : Thread nD τ) ↦[(slot1 5).view.set]{fullShare} g)) : sProp 𝕄) := by
  iintro H; iexists f; iexact H
omit [FloatOps F] in
theorem ex_slot1_6 (c : Dev nD) (f : Buf (Elt F) ((slot1 6).view.loc (c : Thread nD τ))) :
    ((slot1 6).view.loc (c : Thread nD τ) ↦[(slot1 6).view.set]{fullShare} f) ⊢ (iprop(∃ g, ((slot1 6).view.loc (c : Thread nD τ) ↦[(slot1 6).view.set]{fullShare} g)) : sProp 𝕄) := by
  iintro H; iexists f; iexact H
omit [FloatOps F] in
theorem ex_slot2_0 (c : Dev nD) (f : Buf (Elt F) ((slot2 0).view.loc (c : Thread nD τ))) :
    ((slot2 0).view.loc (c : Thread nD τ) ↦[(slot2 0).view.set]{fullShare} f) ⊢ (iprop(∃ g, ((slot2 0).view.loc (c : Thread nD τ) ↦[(slot2 0).view.set]{fullShare} g)) : sProp 𝕄) := by
  iintro H; iexists f; iexact H
omit [FloatOps F] in
theorem ex_slot2_1 (c : Dev nD) (f : Buf (Elt F) ((slot2 1).view.loc (c : Thread nD τ))) :
    ((slot2 1).view.loc (c : Thread nD τ) ↦[(slot2 1).view.set]{fullShare} f) ⊢ (iprop(∃ g, ((slot2 1).view.loc (c : Thread nD τ) ↦[(slot2 1).view.set]{fullShare} g)) : sProp 𝕄) := by
  iintro H; iexists f; iexact H
omit [FloatOps F] in
theorem ex_slot2_2 (c : Dev nD) (f : Buf (Elt F) ((slot2 2).view.loc (c : Thread nD τ))) :
    ((slot2 2).view.loc (c : Thread nD τ) ↦[(slot2 2).view.set]{fullShare} f) ⊢ (iprop(∃ g, ((slot2 2).view.loc (c : Thread nD τ) ↦[(slot2 2).view.set]{fullShare} g)) : sProp 𝕄) := by
  iintro H; iexists f; iexact H
/-- The part of a buffer no transfer touches, set aside while the body runs. -/
def keep2 (c : Dev nD) (f : Buf (Elt F) ((Memref.whole cc0_scratch2 : Memref sig .tc .vmem S8x4x16x512 .bf16).view.loc (c : Thread nD τ))) : sProp 𝕄 :=
  (Memref.whole cc0_scratch2 : Memref sig .tc .vmem S8x4x16x512 .bf16).view.loc (c : Thread nD τ) ↦[rest1]{fullShare} f
omit [FloatOps F] in
theorem keep2_eq (c : Dev nD) (f : Buf (Elt F) ((Memref.whole cc0_scratch2 : Memref sig .tc .vmem S8x4x16x512 .bf16).view.loc (c : Thread nD τ))) :
    keep2 c f = ((Memref.whole cc0_scratch2 : Memref sig .tc .vmem S8x4x16x512 .bf16).view.loc (c : Thread nD τ) ↦[rest1]{fullShare} f : sProp 𝕄) := rfl
attribute [irreducible] keep2
/-- The part of a buffer no transfer touches, set aside while the body runs. -/
def keep5 (c : Dev nD) (f : Buf (Elt F) ((Memref.whole cc0_scratch5 : Memref sig .tc .vmem S4x16x512 .bf16).view.loc (c : Thread nD τ))) : sProp 𝕄 :=
  (Memref.whole cc0_scratch5 : Memref sig .tc .vmem S4x16x512 .bf16).view.loc (c : Thread nD τ) ↦[rest2]{fullShare} f
omit [FloatOps F] in
theorem keep5_eq (c : Dev nD) (f : Buf (Elt F) ((Memref.whole cc0_scratch5 : Memref sig .tc .vmem S4x16x512 .bf16).view.loc (c : Thread nD τ))) :
    keep5 c f = ((Memref.whole cc0_scratch5 : Memref sig .tc .vmem S4x16x512 .bf16).view.loc (c : Thread nD τ) ↦[rest2]{fullShare} f : sProp 𝕄) := rfl
attribute [irreducible] keep5
/-- The part of a buffer no transfer touches, set aside while the body runs. -/
def keep1 (c : Dev nD) (f : Buf (Elt F) ((Memref.whole cc0_scratch1 : Memref sig .tc .vmem S8x4x16x512 .bf16).view.loc (c : Thread nD τ))) : sProp 𝕄 :=
  (Memref.whole cc0_scratch1 : Memref sig .tc .vmem S8x4x16x512 .bf16).view.loc (c : Thread nD τ) ↦[restS1 c]{fullShare} f
omit [FloatOps F] in
theorem keep1_eq (c : Dev nD) (f : Buf (Elt F) ((Memref.whole cc0_scratch1 : Memref sig .tc .vmem S8x4x16x512 .bf16).view.loc (c : Thread nD τ))) :
    keep1 c f = ((Memref.whole cc0_scratch1 : Memref sig .tc .vmem S8x4x16x512 .bf16).view.loc (c : Thread nD τ) ↦[restS1 c]{fullShare} f : sProp 𝕄) := rfl
attribute [irreducible] keep1
/-- The part of a buffer no transfer touches, set aside while the body runs. -/
def keep4 (c : Dev nD) (f : Buf (Elt F) ((Memref.whole cc0_scratch4 : Memref sig .tc .vmem S4x16x512 .bf16).view.loc (c : Thread nD τ))) : sProp 𝕄 :=
  (Memref.whole cc0_scratch4 : Memref sig .tc .vmem S4x16x512 .bf16).view.loc (c : Thread nD τ) ↦[restS2 c]{fullShare} f
omit [FloatOps F] in
theorem keep4_eq (c : Dev nD) (f : Buf (Elt F) ((Memref.whole cc0_scratch4 : Memref sig .tc .vmem S4x16x512 .bf16).view.loc (c : Thread nD τ))) :
    keep4 c f = ((Memref.whole cc0_scratch4 : Memref sig .tc .vmem S4x16x512 .bf16).view.loc (c : Thread nD τ) ↦[restS2 c]{fullShare} f : sProp 𝕄) := rfl
attribute [irreducible] keep4
omit [FloatOps F] in
theorem pts_cast {ℓ : Loc nD τ sig} {f g : Buf (Elt F) ℓ} (h : f = g) : (ℓ ↦{fullShare} f : sProp 𝕄) ⊢ (ℓ ↦{fullShare} g) := by
  subst h; exact BI.Entails.refl _

set_option maxHeartbeats 8000000 in
/-- One device's body, run from its ghost state, its launch credit, what it owes and its buffers: the entry signals, the partial product and its
    rounded slices, the barrier, the seven in-plane transfers and their landings, the plane sums, the ready wait, the three cross-plane transfers and
    their landings, the result, the ten departures — to its own cells closed, every buffer whole again, nothing owed, the result block stored. -/
theorem sound_body (κ : Dev nD × Fin 22 → ℕ) (c : Dev nD) (W : Waits sig Unit) (Kt : PUnit → sProp 𝕄)
    (a : Buf (Elt F) ((c : Thread nD τ).loc cc0_stg0_0)) (b : Buf (Elt F) ((c : Thread nD τ).loc cc0_stg1_0)) (hK : Good K c a b)
    (o0 : Buf (Elt F) ((c : Thread nD τ).loc cc0_stg2_0)) (fp : Buf (Elt F) ((c : Thread nD τ).loc cc0_scratch0)) (fq : Buf (Elt F) ((c : Thread nD τ).loc cc0_scratch1))
    (fs2 : Buf (Elt F) ((c : Thread nD τ).loc cc0_scratch2)) (fa1 : Buf (Elt F) ((c : Thread nD τ).loc cc0_scratch3)) (fa2 : Buf (Elt F) ((c : Thread nD τ).loc cc0_scratch4))
    (fu : Buf (Elt F) ((c : Thread nD τ).loc cc0_scratch5)) :
    iprop(invs K κ c ∗ marks c ∗ levAts L lv ∗ linear c ∗ creds c ∗ owes (c : Thread nD τ) (O₀ c) W
      ∗ ((Memref.whole cc0_stg0_0 : Memref sig .tc .vmem S512x256 .f32).view.loc (c : Thread nD τ) ↦{fullShare} a) ∗ ((Memref.whole cc0_stg1_0 : Memref sig .tc .vmem S256x512 .f32).view.loc (c : Thread nD τ) ↦{fullShare} b) ∗ ((Memref.whole cc0_stg2_0 : Memref sig .tc .vmem S16x512 .f32).view.loc (c : Thread nD τ) ↦{fullShare} o0)
      ∗ ((Memref.whole cc0_scratch0 : Memref sig .tc .vmem S512x512 .f32).view.loc (c : Thread nD τ) ↦{fullShare} fp) ∗ ((Memref.whole cc0_scratch1 : Memref sig .tc .vmem S8x4x16x512 .bf16).view.loc (c : Thread nD τ) ↦{fullShare} fq) ∗ ((Memref.whole cc0_scratch2 : Memref sig .tc .vmem S8x4x16x512 .bf16).view.loc (c : Thread nD τ) ↦{fullShare} fs2)
      ∗ ((Memref.whole cc0_scratch3 : Memref sig .tc .vmem S4x16x512 .f32).view.loc (c : Thread nD τ) ↦{fullShare} fa1) ∗ ((Memref.whole cc0_scratch4 : Memref sig .tc .vmem S4x16x512 .bf16).view.loc (c : Thread nD τ) ↦{fullShare} fa2) ∗ ((Memref.whole cc0_scratch5 : Memref sig .tc .vmem S4x16x512 .bf16).view.loc (c : Thread nD τ) ↦{fullShare} fu)
      ∗ (iprop((scr c ∗ closed c) ∗ (∃ W' : Waits sig Unit, owes (c : Thread nD τ) 0 W')
          ∗ ((Memref.whole cc0_stg0_0 : Memref sig .tc .vmem S512x256 .f32).view.loc (c : Thread nD τ) ↦{fullShare} a) ∗ ((Memref.whole cc0_stg1_0 : Memref sig .tc .vmem S256x512 .f32).view.loc (c : Thread nD τ) ↦{fullShare} b) ∗ ((Memref.whole cc0_stg2_0 : Memref sig .tc .vmem S16x512 .f32).view.loc (c : Thread nD τ) ↦{fullShare} K.out c)) -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt := by
  unfold invs marks linear creds
  iintro ⟨⟨#HI_bar, #HI_zr, #HI_s1_0, #HI_s1_1, #HI_s1_2, #HI_s1_3, #HI_s1_4, #HI_s1_5, #HI_s1_6, #HI_v1_0, #HI_v1_1, #HI_v1_2, #HI_v1_3, #HI_v1_4, #HI_v1_5, #HI_v1_6, #HI_s2_0, #HI_s2_1, #HI_s2_2, #HI_v2_0, #HI_v2_1, #HI_v2_2, #HI_tb0, #HI_tb1, #HI_tb2, #HI_tb3, #HI_tb4, #HI_tb5, #HI_tb6, #HI_tz0, #HI_tz1, #HI_tz2, #HI_tv0, #HI_tv1, #HI_tv2, #HI_tv3, #HI_tv4, #HI_tv5, #HI_tv6, #HI_tw0, #HI_tw1, #HI_tw2⟩, ⟨#Hr_tb0, #Hr_tb1, #Hr_tb2, #Hr_tb3, #Hr_tb4, #Hr_tb5, #Hr_tb6, #Hr_tz0, #Hr_tz1, #Hr_tz2, #Hr_v1_0, #Hr_v1_1, #Hr_v1_2, #Hr_v1_3, #Hr_v1_4, #Hr_v1_5, #Hr_v1_6, #Hr_v2_0, #Hr_v2_1, #Hr_v2_2, #Hr_s1_0, #Hr_s1_1, #Hr_s1_2, #Hr_s1_3, #Hr_s1_4, #Hr_s1_5, #Hr_s1_6, #Hr_s2_0, #Hr_s2_1, #Hr_s2_2⟩, #Hlev, ⟨Hat_bar, Hat_zr, Hat_s1_0, Hat_s1_1, Hat_s1_2, Hat_s1_3, Hat_s1_4, Hat_s1_5, Hat_s1_6, Hat_v1_0, Hat_v1_1, Hat_v1_2, Hat_v1_3, Hat_v1_4, Hat_v1_5, Hat_v1_6, Hat_s2_0, Hat_s2_1, Hat_s2_2, Hat_v2_0, Hat_v2_1, Hat_v2_2, Ht_tb0, Ht_tb1, Ht_tb2, Ht_tb3, Ht_tb4, Ht_tb5, Ht_tb6, Ht_tz0, Ht_tz1, Ht_tz2, Ht_tv0, Ht_tv1, Ht_tv2, Ht_tv3, Ht_tv4, Ht_tv5, Ht_tv6, Ht_s1_0, Ht_s1_1, Ht_s1_2, Ht_s1_3, Ht_s1_4, Ht_s1_5, Ht_s1_6, Ht_tw0, Ht_tw1, Ht_tw2, Ht_s2_0, Ht_s2_1, Ht_s2_2⟩, ⟨Hc_bar, Hc_zr, Hc_v1_0, Hc_v1_1, Hc_v1_2, Hc_v1_3, Hc_v1_4, Hc_v1_5, Hc_v1_6, Hc_v2_0, Hc_v2_1, Hc_v2_2⟩, HO, Hx, Hy, Ho, Hp, Hq, Hs, Ha1, Ha2, Hu, Hk⟩
  have hmb0 := mem_bar_0 K c
  have hmb1 := mem_bar_1 K c
  have hmb2 := mem_bar_2 K c
  have hmb3 := mem_bar_3 K c
  have hmb4 := mem_bar_4 K c
  have hmb5 := mem_bar_5 K c
  have hmb6 := mem_bar_6 K c
  have hmz0 := mem_zr_0 K c
  have hmz1 := mem_zr_1 K c
  have hmz2 := mem_zr_2 K c
  have hmv0 := mem_v1_0 K c
  have hmv1 := mem_v1_1 K c
  have hmv2 := mem_v1_2 K c
  have hmv3 := mem_v1_3 K c
  have hmv4 := mem_v1_4 K c
  have hmv5 := mem_v1_5 K c
  have hmv6 := mem_v1_6 K c
  have hmw0 := mem_v2_0 K c
  have hmw1 := mem_v2_1 K c
  have hmw2 := mem_v2_2 K c
  have hmw_bar := mayWait_bar (F := F) c
  have hmw_zr := mayWait_zr (F := F) c
  have hmw_v1_0 := mayWait_v1_0 (F := F) c
  have hmw_v1_1 := mayWait_v1_1 (F := F) c
  have hmw_v1_2 := mayWait_v1_2 (F := F) c
  have hmw_v1_3 := mayWait_v1_3 (F := F) c
  have hmw_v1_4 := mayWait_v1_4 (F := F) c
  have hmw_v1_5 := mayWait_v1_5 (F := F) c
  have hmw_v1_6 := mayWait_v1_6 (F := F) c
  unfold O₁ at hmw_bar
  unfold O₂ at hmw_zr hmw_v1_0 hmw_v1_1 hmw_v1_2 hmw_v1_3 hmw_v1_4 hmw_v1_5 hmw_v1_6
  unfold O₀
  -- the two receive buffers, cut into their slots (handed on with the entry signals) and the rest
  ihave Hs := (cut_slots1 c fs2) $$ Hs
  icases Hs with ⟨Hs0, Hs1, Hs2, Hs3, Hs4, Hs5, Hs6, Hsr⟩
  ihave Hsr := (Entails.of_eq (keep2_eq c fs2).symm) $$ Hsr
  ihave Hs0 := (ex_slot1_0 c fs2) $$ Hs0
  ihave Hs1 := (ex_slot1_1 c fs2) $$ Hs1
  ihave Hs2 := (ex_slot1_2 c fs2) $$ Hs2
  ihave Hs3 := (ex_slot1_3 c fs2) $$ Hs3
  ihave Hs4 := (ex_slot1_4 c fs2) $$ Hs4
  ihave Hs5 := (ex_slot1_5 c fs2) $$ Hs5
  ihave Hs6 := (ex_slot1_6 c fs2) $$ Hs6
  ihave Hu := (cut_slots2 c fu) $$ Hu
  icases Hu with ⟨Hu0, Hu1, Hu2, Hur⟩
  ihave Hur := (Entails.of_eq (keep5_eq c fu).symm) $$ Hur
  ihave Hu0 := (ex_slot2_0 c fu) $$ Hu0
  ihave Hu1 := (ex_slot2_1 c fu) $$ Hu1
  ihave Hu2 := (ex_slot2_2 c fu) $$ Hu2
  sl_exec_parts
  -- the barrier round's payloads: the seven slots this device will write, each with its receive cell's mark
  ihave Hp' := (Entails.of_eq (bar_payloads K c)) $$ Hat_bar_pay1
  icases Hp' with ⟨⟨⟨%fd1_0, Hd0⟩, #Hrt1_0⟩, ⟨⟨%fd1_1, Hd1⟩, #Hrt1_1⟩, ⟨⟨%fd1_2, Hd2⟩, #Hrt1_2⟩, ⟨⟨%fd1_3, Hd3⟩, #Hrt1_3⟩, ⟨⟨%fd1_4, Hd4⟩, #Hrt1_4⟩, ⟨⟨%fd1_5, Hd5⟩, #Hrt1_5⟩, ⟨⟨%fd1_6, Hd6⟩, #Hrt1_6⟩⟩
  -- the rounded partial products, cut into the seven slices sent and the rest
  obtain ⟨hfs1_0, hfs1_1, hfs1_2, hfs1_3, hfs1_4, hfs1_5, hfs1_6⟩ := hK.v1 fq
  ihave Hq := (cut_src1 c _) $$ Hq
  icases Hq with ⟨Hq0, Hq1, Hq2, Hq3, Hq4, Hq5, Hq6, Hqr⟩
  ihave Hqr := (Entails.of_eq (keep1_eq c _).symm) $$ Hqr
  iapply (wp_send1_0 K (κ (c, 2)) (κ (rotq c 1, 9)) c _ (dev11_eq c) _ fd1_0 (hfs1_0) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1 + tallyAt (v1Cell (rotq c 3) 2) () N1 + tallyAt (v1Cell (rotq c 2) 1) () N1)) $$ [Hq0 Hd0 HO Ht_s1_0 Ht_tv0]
  · isplitr; · iexact HI_s1_0
    isplitr; · iexact HI_tv0
    isplitl [Hq0]; · iexact Hq0
    isplitl [Hd0]; · iexact Hd0
    isplitl [HO]; · iexact HO
    isplitl [Ht_s1_0]; · iexact Ht_s1_0
    isplitr; · iexact Hr_s1_0
    isplitl [Ht_tv0]; · iexact Ht_tv0
    iexact Hrt1_0
  iintro ⟨Hcs1_0, HO⟩
  sl_exec_parts
  iapply (wp_send1_1 K (κ (c, 3)) (κ (rotq c 2, 10)) c _ (dev12_eq c) _ fd1_1 (hfs1_1) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1 + tallyAt (v1Cell (rotq c 3) 2) () N1)) $$ [Hq1 Hd1 HO Ht_s1_1 Ht_tv1]
  · isplitr; · iexact HI_s1_1
    isplitr; · iexact HI_tv1
    isplitl [Hq1]; · iexact Hq1
    isplitl [Hd1]; · iexact Hd1
    isplitl [HO]; · iexact HO
    isplitl [Ht_s1_1]; · iexact Ht_s1_1
    isplitr; · iexact Hr_s1_1
    isplitl [Ht_tv1]; · iexact Ht_tv1
    iexact Hrt1_1
  iintro ⟨Hcs1_1, HO⟩
  sl_exec_parts
  iapply (wp_send1_2 K (κ (c, 4)) (κ (rotq c 3, 11)) c _ (dev13_eq c) _ fd1_2 (hfs1_2) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1 + tallyAt (v1Cell (rotq c 4) 3) () N1)) $$ [Hq2 Hd2 HO Ht_s1_2 Ht_tv2]
  · isplitr; · iexact HI_s1_2
    isplitr; · iexact HI_tv2
    isplitl [Hq2]; · iexact Hq2
    isplitl [Hd2]; · iexact Hd2
    isplitl [HO]; · iexact HO
    isplitl [Ht_s1_2]; · iexact Ht_s1_2
    isplitr; · iexact Hr_s1_2
    isplitl [Ht_tv2]; · iexact Ht_tv2
    iexact Hrt1_2
  iintro ⟨Hcs1_2, HO⟩
  sl_exec_parts
  iapply (wp_send1_3 K (κ (c, 5)) (κ (rotq c 4, 12)) c _ (dev14_eq c) _ fd1_3 (hfs1_3) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1 + tallyAt (v1Cell (rotq c 5) 4) () N1)) $$ [Hq3 Hd3 HO Ht_s1_3 Ht_tv3]
  · isplitr; · iexact HI_s1_3
    isplitr; · iexact HI_tv3
    isplitl [Hq3]; · iexact Hq3
    isplitl [Hd3]; · iexact Hd3
    isplitl [HO]; · iexact HO
    isplitl [Ht_s1_3]; · iexact Ht_s1_3
    isplitr; · iexact Hr_s1_3
    isplitl [Ht_tv3]; · iexact Ht_tv3
    iexact Hrt1_3
  iintro ⟨Hcs1_3, HO⟩
  sl_exec_parts
  iapply (wp_send1_4 K (κ (c, 6)) (κ (rotq c 5, 13)) c _ (dev15_eq c) _ fd1_4 (hfs1_4) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1 + tallyAt (v1Cell (rotq c 6) 5) () N1)) $$ [Hq4 Hd4 HO Ht_s1_4 Ht_tv4]
  · isplitr; · iexact HI_s1_4
    isplitr; · iexact HI_tv4
    isplitl [Hq4]; · iexact Hq4
    isplitl [Hd4]; · iexact Hd4
    isplitl [HO]; · iexact HO
    isplitl [Ht_s1_4]; · iexact Ht_s1_4
    isplitr; · iexact Hr_s1_4
    isplitl [Ht_tv4]; · iexact Ht_tv4
    iexact Hrt1_4
  iintro ⟨Hcs1_4, HO⟩
  sl_exec_parts
  iapply (wp_send1_5 K (κ (c, 7)) (κ (rotq c 6, 14)) c _ (dev16_eq c) _ fd1_5 (hfs1_5) (insert (SemLoc.reg barS, ()) W) (0 + tallyAt (v2Cell (rotz c 3) 2) () N2 + tallyAt (v2Cell (rotz c 2) 1) () N2 + tallyAt (v2Cell (rotz c 1) 0) () N2 + tallyAt (v1Cell (rotq c 7) 6) () N1)) $$ [Hq5 Hd5 HO Ht_s1_5 Ht_tv5]
  · isplitr; · iexact HI_s1_5
    isplitr; · iexact HI_tv5
    isplitl [Hq5]; · iexact Hq5
    isplitl [Hd5]; · iexact Hd5
    isplitl [HO]; · iexact HO
    isplitl [Ht_s1_5]; · iexact Ht_s1_5
    isplitr; · iexact Hr_s1_5
    isplitl [Ht_tv5]; · iexact Ht_tv5
    iexact Hrt1_5
  iintro ⟨Hcs1_5, HO⟩
  sl_exec_parts
  iapply (wp_send1_6 K (κ (c, 8)) (κ (rotq c 7, 15)) c _ (dev17_eq c) _ fd1_6 (hfs1_6) (insert (SemLoc.reg barS, ()) W) (0 + tallyAt (v2Cell (rotz c 3) 2) () N2 + tallyAt (v2Cell (rotz c 2) 1) () N2 + tallyAt (v2Cell (rotz c 1) 0) () N2)) $$ [Hq6 Hd6 HO Ht_s1_6 Ht_tv6]
  · isplitr; · iexact HI_s1_6
    isplitr; · iexact HI_tv6
    isplitl [Hq6]; · iexact Hq6
    isplitl [Hd6]; · iexact Hd6
    isplitl [HO]; · iexact HO
    isplitl [Ht_s1_6]; · iexact Ht_s1_6
    isplitr; · iexact Hr_s1_6
    isplitl [Ht_tv6]; · iexact Ht_tv6
    iexact Hrt1_6
  iintro ⟨Hcs1_6, HO⟩
  sl_exec_parts
  -- the seven landed slots and the untouched rest are the whole receive buffer again
  icases Hat_v1_0_pay1 with ⟨%hl1_0, Hl0⟩
  icases Hat_v1_1_pay1 with ⟨%hl1_1, Hl1⟩
  icases Hat_v1_2_pay1 with ⟨%hl1_2, Hl2⟩
  icases Hat_v1_3_pay1 with ⟨%hl1_3, Hl3⟩
  icases Hat_v1_4_pay1 with ⟨%hl1_4, Hl4⟩
  icases Hat_v1_5_pay1 with ⟨%hl1_5, Hl5⟩
  icases Hat_v1_6_pay1 with ⟨%hl1_6, Hl6⟩
  ihave Hsr := (Entails.of_eq (keep2_eq c fs2)) $$ Hsr
  ihave Hj := (join_slots1 c Hat_v1_0_pay1_v Hat_v1_1_pay1_v Hat_v1_2_pay1_v Hat_v1_3_pay1_v Hat_v1_4_pay1_v Hat_v1_5_pay1_v Hat_v1_6_pay1_v fs2) $$ [Hl0 Hl1 Hl2 Hl3 Hl4 Hl5 Hl6 Hsr]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hsr
  icases Hj with ⟨%g1, %hg1, Hs⟩
  sl_exec_parts
  -- the ready round's payloads: the three slots this device will write across planes
  ihave Hp' := (Entails.of_eq (zr_payloads K c)) $$ Hat_zr_pay1
  icases Hp' with ⟨⟨⟨%fd2_0, He0⟩, #Hrt2_0⟩, ⟨⟨%fd2_1, He1⟩, #Hrt2_1⟩, ⟨⟨%fd2_2, He2⟩, #Hrt2_2⟩⟩
  have hg1' : (slot1 0).view.read (Elt F) g1 = K.v1 c 0 ∧ (slot1 1).view.read (Elt F) g1 = K.v1 c 1 ∧ (slot1 2).view.read (Elt F) g1 = K.v1 c 2 ∧ (slot1 3).view.read (Elt F) g1 = K.v1 c 3 ∧ (slot1 4).view.read (Elt F) g1 = K.v1 c 4 ∧ (slot1 5).view.read (Elt F) g1 = K.v1 c 5 ∧ (slot1 6).view.read (Elt F) g1 = K.v1 c 6 :=
    ⟨hg1.1.trans hl1_0, hg1.2.1.trans hl1_1, hg1.2.2.1.trans hl1_2, hg1.2.2.2.1.trans hl1_3, hg1.2.2.2.2.1.trans hl1_4, hg1.2.2.2.2.2.1.trans hl1_5, hg1.2.2.2.2.2.2.trans hl1_6⟩
  obtain ⟨hfs2_0, hfs2_1, hfs2_2⟩ := hK.v2 _ fa2 g1 hg1'
  ihave Ha2 := (cut_src2 c _) $$ Ha2
  icases Ha2 with ⟨Hz0, Hz1, Hz2, Hzr⟩
  ihave Hzr := (Entails.of_eq (keep4_eq c _).symm) $$ Hzr
  iapply (wp_send2_0 K (κ (c, 16)) (κ (rotz c 1, 19)) c _ (dev18_eq c) _ fd2_0 (hfs2_0) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0 + tallyAt (v2Cell (rotz c 3) 2) () N2 + tallyAt (v2Cell (rotz c 2) 1) () N2)) $$ [Hz0 He0 HO Ht_s2_0 Ht_tw0]
  · isplitr; · iexact HI_s2_0
    isplitr; · iexact HI_tw0
    isplitl [Hz0]; · iexact Hz0
    isplitl [He0]; · iexact He0
    isplitl [HO]; · iexact HO
    isplitl [Ht_s2_0]; · iexact Ht_s2_0
    isplitr; · iexact Hr_s2_0
    isplitl [Ht_tw0]; · iexact Ht_tw0
    iexact Hrt2_0
  iintro ⟨Hcs2_0, HO⟩
  sl_exec_parts
  iapply (wp_send2_1 K (κ (c, 17)) (κ (rotz c 2, 20)) c _ (dev19_eq c) _ fd2_1 (hfs2_1) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0 + tallyAt (v2Cell (rotz c 3) 2) () N2)) $$ [Hz1 He1 HO Ht_s2_1 Ht_tw1]
  · isplitr; · iexact HI_s2_1
    isplitr; · iexact HI_tw1
    isplitl [Hz1]; · iexact Hz1
    isplitl [He1]; · iexact He1
    isplitl [HO]; · iexact HO
    isplitl [Ht_s2_1]; · iexact Ht_s2_1
    isplitr; · iexact Hr_s2_1
    isplitl [Ht_tw1]; · iexact Ht_tw1
    iexact Hrt2_1
  iintro ⟨Hcs2_1, HO⟩
  sl_exec_parts
  iapply (wp_send2_2 K (κ (c, 18)) (κ (rotz c 3, 21)) c _ (dev20_eq c) _ fd2_2 (hfs2_2) (insert (SemLoc.reg zrS, ()) (insert (SemLoc.dma (v1S 6), ()) (insert (SemLoc.dma (v1S 5), ()) (insert (SemLoc.dma (v1S 4), ()) (insert (SemLoc.dma (v1S 3), ()) (insert (SemLoc.dma (v1S 2), ()) (insert (SemLoc.dma (v1S 1), ()) (insert (SemLoc.dma (v1S 0), ()) (insert (SemLoc.reg barS, ()) W))))))))) (0)) $$ [Hz2 He2 HO Ht_s2_2 Ht_tw2]
  · isplitr; · iexact HI_s2_2
    isplitr; · iexact HI_tw2
    isplitl [Hz2]; · iexact Hz2
    isplitl [He2]; · iexact He2
    isplitl [HO]; · iexact HO
    isplitl [Ht_s2_2]; · iexact Ht_s2_2
    isplitr; · iexact Hr_s2_2
    isplitl [Ht_tw2]; · iexact Ht_tw2
    iexact Hrt2_2
  iintro ⟨Hcs2_2, HO⟩
  sl_exec_parts
  -- the three landed slots and the untouched rest are the whole cross-plane receive buffer again
  icases Hat_v2_0_pay1 with ⟨%hl2_0, Hm0⟩
  icases Hat_v2_1_pay1 with ⟨%hl2_1, Hm1⟩
  icases Hat_v2_2_pay1 with ⟨%hl2_2, Hm2⟩
  ihave Hur := (Entails.of_eq (keep5_eq c fu)) $$ Hur
  ihave Hj := (join_slots2 c Hat_v2_0_pay1_v Hat_v2_1_pay1_v Hat_v2_2_pay1_v fu) $$ [Hm0 Hm1 Hm2 Hur]
  · isplitl [Hm0]; · iexact Hm0
    isplitl [Hm1]; · iexact Hm1
    isplitl [Hm2]; · iexact Hm2
    iexact Hur
  icases Hj with ⟨%g2, %hg2, Hu⟩
  sl_exec_parts
  -- the own cells close: their counters at zero are the core's again
  imod (Rounds.cell_close ER (Rd K) (Set.mem_univ (κ (c, 1))) (fun h => h) (R := 1) (duties_later K (zrCell c))) $$ [Hat_zr] with Z_zr
  · isplitr; · iexact HI_zr
    iexact Hat_zr
  imod (Rounds.cell_close ER (Rd K) (Set.mem_univ (κ (c, 2))) (fun h => h) (R := 1) (duties_later K (s1Cell c 0))) $$ [Hat_s1_0] with Z_s1_0
  · isplitr; · iexact HI_s1_0
    iexact Hat_s1_0
  imod (Rounds.cell_close ER (Rd K) (Set.mem_univ (κ (c, 3))) (fun h => h) (R := 1) (duties_later K (s1Cell c 1))) $$ [Hat_s1_1] with Z_s1_1
  · isplitr; · iexact HI_s1_1
    iexact Hat_s1_1
  imod (Rounds.cell_close ER (Rd K) (Set.mem_univ (κ (c, 4))) (fun h => h) (R := 1) (duties_later K (s1Cell c 2))) $$ [Hat_s1_2] with Z_s1_2
  · isplitr; · iexact HI_s1_2
    iexact Hat_s1_2
  imod (Rounds.cell_close ER (Rd K) (Set.mem_univ (κ (c, 5))) (fun h => h) (R := 1) (duties_later K (s1Cell c 3))) $$ [Hat_s1_3] with Z_s1_3
  · isplitr; · iexact HI_s1_3
    iexact Hat_s1_3
  imod (Rounds.cell_close ER (Rd K) (Set.mem_univ (κ (c, 6))) (fun h => h) (R := 1) (duties_later K (s1Cell c 4))) $$ [Hat_s1_4] with Z_s1_4
  · isplitr; · iexact HI_s1_4
    iexact Hat_s1_4
  imod (Rounds.cell_close ER (Rd K) (Set.mem_univ (κ (c, 7))) (fun h => h) (R := 1) (duties_later K (s1Cell c 5))) $$ [Hat_s1_5] with Z_s1_5
  · isplitr; · iexact HI_s1_5
    iexact Hat_s1_5
  imod (Rounds.cell_close ER (Rd K) (Set.mem_univ (κ (c, 8))) (fun h => h) (R := 1) (duties_later K (s1Cell c 6))) $$ [Hat_s1_6] with Z_s1_6
  · isplitr; · iexact HI_s1_6
    iexact Hat_s1_6
  imod (Rounds.cell_close ER (Rd K) (Set.mem_univ (κ (c, 9))) (fun h => h) (R := 1) (duties_later K (v1Cell c 0))) $$ [Hat_v1_0] with Z_v1_0
  · isplitr; · iexact HI_v1_0
    iexact Hat_v1_0
  imod (Rounds.cell_close ER (Rd K) (Set.mem_univ (κ (c, 10))) (fun h => h) (R := 1) (duties_later K (v1Cell c 1))) $$ [Hat_v1_1] with Z_v1_1
  · isplitr; · iexact HI_v1_1
    iexact Hat_v1_1
  imod (Rounds.cell_close ER (Rd K) (Set.mem_univ (κ (c, 11))) (fun h => h) (R := 1) (duties_later K (v1Cell c 2))) $$ [Hat_v1_2] with Z_v1_2
  · isplitr; · iexact HI_v1_2
    iexact Hat_v1_2
  imod (Rounds.cell_close ER (Rd K) (Set.mem_univ (κ (c, 12))) (fun h => h) (R := 1) (duties_later K (v1Cell c 3))) $$ [Hat_v1_3] with Z_v1_3
  · isplitr; · iexact HI_v1_3
    iexact Hat_v1_3
  imod (Rounds.cell_close ER (Rd K) (Set.mem_univ (κ (c, 13))) (fun h => h) (R := 1) (duties_later K (v1Cell c 4))) $$ [Hat_v1_4] with Z_v1_4
  · isplitr; · iexact HI_v1_4
    iexact Hat_v1_4
  imod (Rounds.cell_close ER (Rd K) (Set.mem_univ (κ (c, 14))) (fun h => h) (R := 1) (duties_later K (v1Cell c 5))) $$ [Hat_v1_5] with Z_v1_5
  · isplitr; · iexact HI_v1_5
    iexact Hat_v1_5
  imod (Rounds.cell_close ER (Rd K) (Set.mem_univ (κ (c, 15))) (fun h => h) (R := 1) (duties_later K (v1Cell c 6))) $$ [Hat_v1_6] with Z_v1_6
  · isplitr; · iexact HI_v1_6
    iexact Hat_v1_6
  imod (Rounds.cell_close ER (Rd K) (Set.mem_univ (κ (c, 16))) (fun h => h) (R := 1) (duties_later K (s2Cell c 0))) $$ [Hat_s2_0] with Z_s2_0
  · isplitr; · iexact HI_s2_0
    iexact Hat_s2_0
  imod (Rounds.cell_close ER (Rd K) (Set.mem_univ (κ (c, 17))) (fun h => h) (R := 1) (duties_later K (s2Cell c 1))) $$ [Hat_s2_1] with Z_s2_1
  · isplitr; · iexact HI_s2_1
    iexact Hat_s2_1
  imod (Rounds.cell_close ER (Rd K) (Set.mem_univ (κ (c, 18))) (fun h => h) (R := 1) (duties_later K (s2Cell c 2))) $$ [Hat_s2_2] with Z_s2_2
  · isplitr; · iexact HI_s2_2
    iexact Hat_s2_2
  imod (Rounds.cell_close ER (Rd K) (Set.mem_univ (κ (c, 19))) (fun h => h) (R := 1) (duties_later K (v2Cell c 0))) $$ [Hat_v2_0] with Z_v2_0
  · isplitr; · iexact HI_v2_0
    iexact Hat_v2_0
  imod (Rounds.cell_close ER (Rd K) (Set.mem_univ (κ (c, 20))) (fun h => h) (R := 1) (duties_later K (v2Cell c 1))) $$ [Hat_v2_1] with Z_v2_1
  · isplitr; · iexact HI_v2_1
    iexact Hat_v2_1
  imod (Rounds.cell_close ER (Rd K) (Set.mem_univ (κ (c, 21))) (fun h => h) (R := 1) (duties_later K (v2Cell c 2))) $$ [Hat_v2_2] with Z_v2_2
  · isplitr; · iexact HI_v2_2
    iexact Hat_v2_2
  sl_step
  iapply Hk
  have hg2' : (slot2 0).view.read (Elt F) g2 = K.v2 c 0 ∧ (slot2 1).view.read (Elt F) g2 = K.v2 c 1 ∧ (slot2 2).view.read (Elt F) g2 = K.v2 c 2 :=
    ⟨hg2.1.trans hl2_0, hg2.2.1.trans hl2_1, hg2.2.2.trans hl2_2⟩
  unfold scr closed
  isplitl [Hp Hat_s1_0_pay1 Hat_s1_1_pay1 Hat_s1_2_pay1 Hat_s1_3_pay1 Hat_s1_4_pay1 Hat_s1_5_pay1 Hat_s1_6_pay1 Hqr Hs Ha1 Hat_s2_0_pay1 Hat_s2_1_pay1 Hat_s2_2_pay1 Hzr Hu Z_zr Z_s1_0 Z_s1_1 Z_s1_2 Z_s1_3 Z_s1_4 Z_s1_5 Z_s1_6 Z_v1_0 Z_v1_1 Z_v1_2 Z_v1_3 Z_v1_4 Z_v1_5 Z_v1_6 Z_s2_0 Z_s2_1 Z_s2_2 Z_v2_0 Z_v2_1 Z_v2_2]
  · isplitl [Hp Hat_s1_0_pay1 Hat_s1_1_pay1 Hat_s1_2_pay1 Hat_s1_3_pay1 Hat_s1_4_pay1 Hat_s1_5_pay1 Hat_s1_6_pay1 Hqr Hs Ha1 Hat_s2_0_pay1 Hat_s2_1_pay1 Hat_s2_2_pay1 Hzr Hu]
    · isplitl [Hp]; · iexists _; iexact Hp
      isplitl [Hat_s1_0_pay1 Hat_s1_1_pay1 Hat_s1_2_pay1 Hat_s1_3_pay1 Hat_s1_4_pay1 Hat_s1_5_pay1 Hat_s1_6_pay1 Hqr]
      · iapply (join_src1 c)
        isplitl [Hat_s1_0_pay1]; · iexists _; iexact Hat_s1_0_pay1
        isplitl [Hat_s1_1_pay1]; · iexists _; iexact Hat_s1_1_pay1
        isplitl [Hat_s1_2_pay1]; · iexists _; iexact Hat_s1_2_pay1
        isplitl [Hat_s1_3_pay1]; · iexists _; iexact Hat_s1_3_pay1
        isplitl [Hat_s1_4_pay1]; · iexists _; iexact Hat_s1_4_pay1
        isplitl [Hat_s1_5_pay1]; · iexists _; iexact Hat_s1_5_pay1
        isplitl [Hat_s1_6_pay1]; · iexists _; iexact Hat_s1_6_pay1
        iexists _; iapply (Entails.of_eq (keep1_eq c _)); iexact Hqr
      isplitl [Hs]; · iexists _; iexact Hs
      isplitl [Ha1]; · iexists _; iexact Ha1
      isplitl [Hat_s2_0_pay1 Hat_s2_1_pay1 Hat_s2_2_pay1 Hzr]
      · iapply (join_src2 c)
        isplitl [Hat_s2_0_pay1]; · iexists _; iexact Hat_s2_0_pay1
        isplitl [Hat_s2_1_pay1]; · iexists _; iexact Hat_s2_1_pay1
        isplitl [Hat_s2_2_pay1]; · iexists _; iexact Hat_s2_2_pay1
        iexists _; iapply (Entails.of_eq (keep4_eq c _)); iexact Hzr
      iexists _; iexact Hu
    · isplitl [Z_zr]; · iexact Z_zr
      isplitl [Z_s1_0]; · iexact Z_s1_0
      isplitl [Z_s1_1]; · iexact Z_s1_1
      isplitl [Z_s1_2]; · iexact Z_s1_2
      isplitl [Z_s1_3]; · iexact Z_s1_3
      isplitl [Z_s1_4]; · iexact Z_s1_4
      isplitl [Z_s1_5]; · iexact Z_s1_5
      isplitl [Z_s1_6]; · iexact Z_s1_6
      isplitl [Z_v1_0]; · iexact Z_v1_0
      isplitl [Z_v1_1]; · iexact Z_v1_1
      isplitl [Z_v1_2]; · iexact Z_v1_2
      isplitl [Z_v1_3]; · iexact Z_v1_3
      isplitl [Z_v1_4]; · iexact Z_v1_4
      isplitl [Z_v1_5]; · iexact Z_v1_5
      isplitl [Z_v1_6]; · iexact Z_v1_6
      isplitl [Z_s2_0]; · iexact Z_s2_0
      isplitl [Z_s2_1]; · iexact Z_s2_1
      isplitl [Z_s2_2]; · iexact Z_s2_2
      isplitl [Z_v2_0]; · iexact Z_v2_0
      isplitl [Z_v2_1]; · iexact Z_v2_1
      iexact Z_v2_2
  isplitl [HO]; · iexists _; iexact HO
  isplitl [Hx]; · iexact Hx
  isplitl [Hy]; · iexact Hy
  iapply (pts_cast (hK.out _ _ o0 g1 g2 hg1' hg2'))
  iexact Ho

/-- info: 'Cert.Kernel.Hand.sound_body' depends on axioms: [propext, Classical.choice, Quot.sound] -/
#guard_msgs in #print axioms sound_body

end Cert.Kernel.Hand
end
-- ==== Proof.Bits.BodyObl.lean ====
import proofs.«900450_g7700000000000451_dist_matmul_mk_i_outk_m512_n512_k256_v7x_i32_f32_1_alg».proof.Proof.Bits.Body

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (K : Cont F)
variable (m : (ℓ : Loc nD τ sig) → Buf (Elt F) ℓ) (ρ : Dev nD → PrngReg)

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 8000 in
/-- The library's body obligation on device `c`, from the run of its body. -/
theorem body_obligation (hK : ∀ c : Dev nD, Good K c (aC m ρ c) (bC m ρ c)) (c : Dev nD) :
    BodyObligation (dats K m ρ 0 c) (defs₀ (F := F)) 𝒱₀ () Set.univ := fun t => by
  rw [fin_N0 t]
  rw [bigSep_W0, bigSep_W0]
  simp only [owns_whole_eq]
  show iprop(Φ₀ K c ∗ (dats K m ρ 0 c).owesAt () t0_0.castSucc
      ∗ (∃ d, stg c cc0_stg0_0 ((dats K m ρ 0 c).before (0 : Fin 3) t0_0 d))
      ∗ (∃ d, stg c cc0_stg1_0 ((dats K m ρ 0 c).before (1 : Fin 3) t0_0 d))
      ∗ (∃ d, stg c cc0_stg2_0 ((dats K m ρ 0 c).before (2 : Fin 3) t0_0 d)))
    ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10)
      (fun _ => iprop(Φ₁ c ∗ (dats K m ρ 0 c).owesAt () t0_0.succ
        ∗ stg c cc0_stg0_0 (aC m ρ c) ∗ stg c cc0_stg1_0 (bC m ρ c) ∗ stg c cc0_stg2_0 (K.out c)))
  unfold Φ₀ start ghost scr
  iintro ⟨⟨⟨⟨%κ, HI, Hm, Hl⟩, Hcr, #Hlev, Hidle⟩, ⟨%fp, Hp⟩, ⟨%fq, Hq⟩, ⟨%fs2, Hs⟩, ⟨%fa1, Ha1⟩, ⟨%fa2, Ha2⟩, ⟨%fu, Hu⟩⟩, Ho, ⟨%d0, %g0, %hg0, Hx⟩, ⟨%d1, %g1, %hg1, Hy⟩, ⟨%d2, %g2, %hg2, Hout⟩⟩
  have hx : g0 = aC m ρ c := by rw [hg0]; unfold Dat.before; rw [if_pos (fetch0_0 t0_0)]; rfl
  have hy : g1 = bC m ρ c := by rw [hg1]; unfold Dat.before; rw [if_pos (fetch0_1 t0_0)]; rfl
  subst hx hy
  unfold Dat.owesAt Pipeline.owesWithin
  icases Ho with ⟨%W, %hW, HO⟩
  rw [show (dats K m ρ 0 c).owed t0_0.castSucc = O₀ c from rfl, show (dats K m ρ 0 c).owed t0_0.succ = 0 from rfl]
  iapply (sound_body K κ c W _ (aC m ρ c) (bC m ρ c) (hK c) g2 fp fq fs2 fa1 fa2 fu)
  isplitl [HI]; · iexact HI
  isplitl [Hm]; · iexact Hm
  isplitr; · iexact Hlev
  isplitl [Hl]; · iexact Hl
  isplitl [Hcr]; · iexact Hcr
  isplitl [HO]; · iexact HO
  isplitl [Hx]; · iexact Hx
  isplitl [Hy]; · iexact Hy
  isplitl [Hout]; · iexact Hout
  isplitl [Hp]; · iexact Hp
  isplitl [Hq]; · iexact Hq
  isplitl [Hs]; · iexact Hs
  isplitl [Ha1]; · iexact Ha1
  isplitl [Ha2]; · iexact Ha2
  isplitl [Hu]; · iexact Hu
  iintro ⟨⟨Hscr, Hcl⟩, ⟨%W', HO⟩, Hx, Hy, Hout⟩
  isplitl [Hscr Hcl Hidle]
  · unfold Φ₁
    isplitl [Hscr]; · iexact Hscr
    isplitl [Hcl]; · iexact Hcl
    iexact Hidle
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-- info: 'Cert.Kernel.Hand.body_obligation' depends on axioms: [propext, Classical.choice, Quot.sound] -/
#guard_msgs in #print axioms body_obligation

end Cert.Kernel.Hand
end
-- ==== Proof.Bits.LaunchAlloc.lean ====
import proofs.«900450_g7700000000000451_dist_matmul_mk_i_outk_m512_n512_k256_v7x_i32_f32_1_alg».proof.Proof.Bits.Dats
import proofs.«900450_g7700000000000451_dist_matmul_mk_i_outk_m512_n512_k256_v7x_i32_f32_1_alg».proof.Proof.Bits.Levels

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Cont F)

/-! ## Every payload can be stored in an invariant -/

omit [FloatOps F] in
instance payBar_storable (p : Dev nD) (j : Fin 8) : BI.Storable (upEmb : UEmb _ 𝕄) (payBar (F := F) p j) := by
  rcases j with ⟨_ | _ | _ | _ | _ | _ | _ | _ | _, h⟩
  all_goals first
    | (exact absurd h (by omega))
    | (show BI.Storable upEmb (iprop(_ ∗ _) : sProp 𝕄); infer_instance)
    | (show BI.Storable upEmb (iprop(emp) : sProp 𝕄); infer_instance)
omit [FloatOps F] in
instance payZr_storable (p : Dev nD) (j : Fin 8) : BI.Storable (upEmb : UEmb _ 𝕄) (payZr (F := F) p j) := by
  rcases j with ⟨_ | _ | _ | _ | _ | _ | _ | _ | _, h⟩
  all_goals first
    | (exact absurd h (by omega))
    | (show BI.Storable upEmb (iprop(_ ∗ _) : sProp 𝕄); infer_instance)
    | (show BI.Storable upEmb (iprop(emp) : sProp 𝕄); infer_instance)

instance Rd_payload_storable (g : GSem nD τ sig) (r : ℕ) (d : DU) : BI.Storable (upEmb : UEmb _ 𝕄) ((Rd K).payload g r d) := by
  dsimp only [Rd]
  split <;> infer_instance

/-! ## The cells of the mesh and the duty tokens minted for them -/

theorem csem_injective : Function.Injective csem := by decide

theorem kcell_injective : Function.Injective (kcell : Dev nD × Fin 22 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def allCells : Finset (GSem nD τ sig) := Finset.univ.map ⟨kcell, kcell_injective⟩

/-- The duty tokens of a device's own cells as minted: (device, which duty) — the seven of its barrier cell, the three of its
    ready cell, one for each send and each receive cell. -/
def tokOf (cj : Dev nD × Fin 30) : GSem nD τ sig × ℕ × DU := match cj.2 with
  | 0 => (barCell cj.1, 0, (rotq cj.1 1, (0 : Fin 8)))
  | 1 => (barCell cj.1, 0, (rotq cj.1 2, (1 : Fin 8)))
  | 2 => (barCell cj.1, 0, (rotq cj.1 3, (2 : Fin 8)))
  | 3 => (barCell cj.1, 0, (rotq cj.1 4, (3 : Fin 8)))
  | 4 => (barCell cj.1, 0, (rotq cj.1 5, (4 : Fin 8)))
  | 5 => (barCell cj.1, 0, (rotq cj.1 6, (5 : Fin 8)))
  | 6 => (barCell cj.1, 0, (rotq cj.1 7, (6 : Fin 8)))
  | 7 => (zrCell cj.1, 0, (rotz cj.1 1, (0 : Fin 8)))
  | 8 => (zrCell cj.1, 0, (rotz cj.1 2, (1 : Fin 8)))
  | 9 => (zrCell cj.1, 0, (rotz cj.1 3, (2 : Fin 8)))
  | 10 => (s1Cell cj.1 0, 0, (cj.1, (0 : Fin 8)))
  | 11 => (s1Cell cj.1 1, 0, (cj.1, (0 : Fin 8)))
  | 12 => (s1Cell cj.1 2, 0, (cj.1, (0 : Fin 8)))
  | 13 => (s1Cell cj.1 3, 0, (cj.1, (0 : Fin 8)))
  | 14 => (s1Cell cj.1 4, 0, (cj.1, (0 : Fin 8)))
  | 15 => (s1Cell cj.1 5, 0, (cj.1, (0 : Fin 8)))
  | 16 => (s1Cell cj.1 6, 0, (cj.1, (0 : Fin 8)))
  | 17 => (v1Cell cj.1 0, 0, (rotq cj.1 7, (0 : Fin 8)))
  | 18 => (v1Cell cj.1 1, 0, (rotq cj.1 6, (0 : Fin 8)))
  | 19 => (v1Cell cj.1 2, 0, (rotq cj.1 5, (0 : Fin 8)))
  | 20 => (v1Cell cj.1 3, 0, (rotq cj.1 4, (0 : Fin 8)))
  | 21 => (v1Cell cj.1 4, 0, (rotq cj.1 3, (0 : Fin 8)))
  | 22 => (v1Cell cj.1 5, 0, (rotq cj.1 2, (0 : Fin 8)))
  | 23 => (v1Cell cj.1 6, 0, (rotq cj.1 1, (0 : Fin 8)))
  | 24 => (s2Cell cj.1 0, 0, (cj.1, (0 : Fin 8)))
  | 25 => (s2Cell cj.1 1, 0, (cj.1, (0 : Fin 8)))
  | 26 => (s2Cell cj.1 2, 0, (cj.1, (0 : Fin 8)))
  | 27 => (v2Cell cj.1 0, 0, (rotz cj.1 3, (0 : Fin 8)))
  | 28 => (v2Cell cj.1 1, 0, (rotz cj.1 2, (0 : Fin 8)))
  | 29 => (v2Cell cj.1 2, 0, (rotz cj.1 1, (0 : Fin 8)))
  | ⟨_ + 30, h⟩ => absurd h (Nat.not_lt.2 (Nat.le_add_left _ _))
/-- Which own cell, and which duty index, token `j` is for. -/
def tokKey : Fin 30 → Fin 22 × Fin 8
  | 0 => (0, 0)
  | 1 => (0, 1)
  | 2 => (0, 2)
  | 3 => (0, 3)
  | 4 => (0, 4)
  | 5 => (0, 5)
  | 6 => (0, 6)
  | 7 => (1, 0)
  | 8 => (1, 1)
  | 9 => (1, 2)
  | 10 => (2, 0)
  | 11 => (3, 0)
  | 12 => (4, 0)
  | 13 => (5, 0)
  | 14 => (6, 0)
  | 15 => (7, 0)
  | 16 => (8, 0)
  | 17 => (9, 0)
  | 18 => (10, 0)
  | 19 => (11, 0)
  | 20 => (12, 0)
  | 21 => (13, 0)
  | 22 => (14, 0)
  | 23 => (15, 0)
  | 24 => (16, 0)
  | 25 => (17, 0)
  | 26 => (18, 0)
  | 27 => (19, 0)
  | 28 => (20, 0)
  | 29 => (21, 0)
  | ⟨_ + 30, h⟩ => absurd h (Nat.not_lt.2 (Nat.le_add_left _ _))
theorem tokKey_injective : Function.Injective tokKey := by decide
theorem tokOf_key (c : Dev nD) (j : Fin 30) : (tokOf (c, j)).1 = kcell (c, (tokKey j).1) ∧ (tokOf (c, j)).2.2.2 = (tokKey j).2 := by
  fin_cases j <;> exact ⟨rfl, rfl⟩
theorem tokOf_injective : Function.Injective (tokOf : Dev nD × Fin 30 → GSem nD τ sig × ℕ × DU) := by
  rintro ⟨c, j⟩ ⟨c', j'⟩ h
  have hk := kcell_injective (((tokOf_key c j).1.symm.trans (congrArg (fun x : GSem nD τ sig × ℕ × DU => x.1) h)).trans (tokOf_key c' j').1)
  have hi : (tokKey j).2 = (tokKey j').2 := ((tokOf_key c j).2.symm.trans (congrArg (fun x : GSem nD τ sig × ℕ × DU => x.2.2.2) h)).trans (tokOf_key c' j').2
  have h1 : c = c' := congrArg Prod.fst hk
  have h2 : (tokKey j).1 = (tokKey j').1 := congrArg Prod.snd hk
  have h3 : j = j' := tokKey_injective (Prod.ext h2 hi)
  rw [h1, h3]
def allToks : Finset (GSem nD τ sig × ℕ × DU) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 (rotq c 1, (0 : Fin 8))
    ∗ dutyTok ER (barCell c) 0 (rotq c 2, (1 : Fin 8))
    ∗ dutyTok ER (barCell c) 0 (rotq c 3, (2 : Fin 8))
    ∗ dutyTok ER (barCell c) 0 (rotq c 4, (3 : Fin 8))
    ∗ dutyTok ER (barCell c) 0 (rotq c 5, (4 : Fin 8))
    ∗ dutyTok ER (barCell c) 0 (rotq c 6, (5 : Fin 8))
    ∗ dutyTok ER (barCell c) 0 (rotq c 7, (6 : Fin 8))
    ∗ dutyTok ER (zrCell c) 0 (rotz c 1, (0 : Fin 8))
    ∗ dutyTok ER (zrCell c) 0 (rotz c 2, (1 : Fin 8))
    ∗ dutyTok ER (zrCell c) 0 (rotz c 3, (2 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v1Cell c 0) 0 (rotq c 7, (0 : Fin 8))
    ∗ dutyTok ER (v1Cell c 1) 0 (rotq c 6, (0 : Fin 8))
    ∗ dutyTok ER (v1Cell c 2) 0 (rotq c 5, (0 : Fin 8))
    ∗ dutyTok ER (v1Cell c 3) 0 (rotq c 4, (0 : Fin 8))
    ∗ dutyTok ER (v1Cell c 4) 0 (rotq c 3, (0 : Fin 8))
    ∗ dutyTok ER (v1Cell c 5) 0 (rotq c 2, (0 : Fin 8))
    ∗ dutyTok ER (v1Cell c 6) 0 (rotq c 1, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8))
    ∗ dutyTok ER (v2Cell c 0) 0 (rotz c 3, (0 : Fin 8))
    ∗ dutyTok ER (v2Cell c 1) 0 (rotz c 2, (0 : Fin 8))
    ∗ dutyTok ER (v2Cell c 2) 0 (rotz c 1, (0 : Fin 8)))

/-- What the launch element deals device `c`. -/
def G (c : Dev nD) : sProp 𝕄 :=
  iprop((bigSep Finset.univ fun k : Fin 22 => roundState ER (Rd K) (kcell (c, k)) 0)
    ∗ (bigSep Finset.univ fun k : Fin 22 => iprop(atPos ER (kcell (c, k)) 0 ∅ 0 ∗ reached ER (kcell (c, k)) 0)) ∗ toks c)

/-- What the global step makes of it. -/
def G' (c : Dev nD) : sProp 𝕄 := iprop((∃ κ, ghost K κ c) ∗ idle c)

omit [FloatOps F] in
theorem bigSep_fin22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ
omit [FloatOps F] in
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

theorem fund_ring : BI.own (ER (initOf allCells allToks)) ⊢ (|==> bigSep Finset.univ (G K) : sProp 𝕄) := by
  have hX (Φ : GSem nD τ sig → sProp 𝕄) : bigSep allCells Φ = bigSep Finset.univ fun c : Dev nD => bigSep Finset.univ fun k : Fin 22 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin30]; rfl
  iintro HX
  imod (Rounds.fund ER (Rd K) allCells allToks) $$ HX with ⟨Hst, Hr, Hat, Htok⟩
  imodintro
  ihave Hst' := (Entails.of_eq (hX fun g => roundState ER (Rd K) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch: the kernel's own 25 and the barrier semaphore -/

omit [FloatOps F] in
theorem ownSems0_eq (c : Dev nD) : (Pipeline.ownSems0 (Ix := Unit) (Name := ℕ) (U := UU) (Lvl := ℕ) (Val := Elt F) (τ := τ) osem c : sProp 𝕄)
    = iprop(semVal (zrCell c) 0
      ∗ semVal ((c : Thread nD τ), SemLoc.dma (3 : DmaSem sig)) 0
      ∗ semVal (s1Cell c 0) 0
      ∗ semVal (s1Cell c 1) 0
      ∗ semVal (s1Cell c 2) 0
      ∗ semVal (s1Cell c 3) 0
      ∗ semVal (s1Cell c 4) 0
      ∗ semVal (s1Cell c 5) 0
      ∗ semVal (s1Cell c 6) 0
      ∗ semVal ((c : Thread nD τ), SemLoc.dma (11 : DmaSem sig)) 0
      ∗ semVal (v1Cell c 0) 0
      ∗ semVal (v1Cell c 1) 0
      ∗ semVal (v1Cell c 2) 0
      ∗ semVal (v1Cell c 3) 0
      ∗ semVal (v1Cell c 4) 0
      ∗ semVal (v1Cell c 5) 0
      ∗ semVal (v1Cell c 6) 0
      ∗ semVal ((c : Thread nD τ), SemLoc.dma (19 : DmaSem sig)) 0
      ∗ semVal (s2Cell c 0) 0
      ∗ semVal (s2Cell c 1) 0
      ∗ semVal (s2Cell c 2) 0
      ∗ semVal ((c : Thread nD τ), SemLoc.dma (23 : DmaSem sig)) 0
      ∗ semVal (v2Cell c 0) 0
      ∗ semVal (v2Cell c 1) 0
      ∗ semVal (v2Cell c 2) 0) := by
  rw [Pipeline.ownSems0_eq_of_list c osem [0, 1, 2, 3, 4, 5, 6, 7, 8, 9, 10, 11, 12, 13, 14, 15, 16, 17, 18, 19, 20, 21, 22, 23, 24] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 22 => semVal (kcell (c, k)) 0) ∗ idle c) : sProp 𝕄) := by
  rw [ownSems0_eq, unscopedSems0_eq, bigSep_fin22]
  unfold idle
  iintro ⟨⟨H0, H1, H2, H3, H4, H5, H6, H7, H8, H9, H10, H11, H12, H13, H14, H15, H16, H17, H18, H19, H20, H21, H22, H23, H24⟩, HB⟩
  isplitl [HB H0 H2 H3 H4 H5 H6 H7 H8 H10 H11 H12 H13 H14 H15 H16 H18 H19 H20 H22 H23 H24]
  · isplitl [HB]; · iexact HB
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H18]; · iexact H18
    isplitl [H19]; · iexact H19
    isplitl [H20]; · iexact H20
    isplitl [H22]; · iexact H22
    isplitl [H23]; · iexact H23
    iexact H24
  isplitl [H1]; · iexact H1
  isplitl [H9]; · iexact H9
  isplitl [H17]; · iexact H17
  iexact H21

theorem core_alloc (c : Dev nD) :
    iprop(Pipeline.ownSems0 (Ix := Unit) (Name := ℕ) (U := UU) (Lvl := ℕ) (Val := Elt F) (τ := τ) osem c ∗ unscopedSems0 c ∗ G K c)
      ⊢ |={Set.univ}=> iprop((bigSep Finset.univ fun k => iprop(∃ κ : ℕ, cellInv ER (Rd K) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 22 => semVal (kcell (c, k)) 0) ∗ bigSep Finset.univ fun k : Fin 22 => roundState ER (Rd K) (kcell (c, k)) 0)
      ⊢ (|={Set.univ}=> bigSep Finset.univ fun k => iprop(∃ κ : ℕ, cellInv ER (Rd K) κ (kcell (c, k))) : sProp 𝕄) from by
        rw [← bigSep_sep']
        exact (bigSep_mono fun k _ => (Rounds.body_intro ER (Rd K) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## From the dealt pieces to each device's ghost state -/

def records (κ : Dev nD × Fin 22 → ℕ) : sProp 𝕄 :=
  iprop((bigSep Finset.univ fun ck : Dev nD × Fin 22 => cellInv ER (Rd K) (κ ck) (kcell ck))
    ∗ bigSep Finset.univ fun ck : Dev nD × Fin 22 => reached ER (kcell ck) 0)

instance records_persistent (κ : Dev nD × Fin 22 → ℕ) : BI.Persistent (records K κ) := by unfold records; infer_instance

theorem inv_at (κ : Dev nD × Fin 22 → ℕ) (ck : Dev nD × Fin 22) :
    (bigSep Finset.univ fun ck : Dev nD × Fin 22 => (cellInv ER (Rd K) (κ ck) (kcell ck) : sProp 𝕄)) ⊢ cellInv ER (Rd K) (κ ck) (kcell ck) :=
  bigSep_elim (Finset.mem_univ ck)
omit [FloatOps F] in
theorem reached_at (ck : Dev nD × Fin 22) :
    (bigSep Finset.univ fun ck : Dev nD × Fin 22 => (reached ER (kcell ck) 0 : sProp 𝕄)) ⊢ reached ER (kcell ck) 0 :=
  bigSep_elim (Finset.mem_univ ck)

/-- The tokens of the duties device `c` pays. -/
def payToks (c : Dev nD) : sProp 𝕄 :=
  iprop(dutyTok ER (barCell (rotq c 1)) 0 (c, (6 : Fin 8))
    ∗ dutyTok ER (barCell (rotq c 2)) 0 (c, (5 : Fin 8))
    ∗ dutyTok ER (barCell (rotq c 3)) 0 (c, (4 : Fin 8))
    ∗ dutyTok ER (barCell (rotq c 4)) 0 (c, (3 : Fin 8))
    ∗ dutyTok ER (barCell (rotq c 5)) 0 (c, (2 : Fin 8))
    ∗ dutyTok ER (barCell (rotq c 6)) 0 (c, (1 : Fin 8))
    ∗ dutyTok ER (barCell (rotq c 7)) 0 (c, (0 : Fin 8))
    ∗ dutyTok ER (zrCell (rotz c 1)) 0 (c, (2 : Fin 8))
    ∗ dutyTok ER (zrCell (rotz c 2)) 0 (c, (1 : Fin 8))
    ∗ dutyTok ER (zrCell (rotz c 3)) 0 (c, (0 : Fin 8))
    ∗ dutyTok ER (v1Cell (rotq c 1) 0) 0 (c, (0 : Fin 8))
    ∗ dutyTok ER (v1Cell (rotq c 2) 1) 0 (c, (0 : Fin 8))
    ∗ dutyTok ER (v1Cell (rotq c 3) 2) 0 (c, (0 : Fin 8))
    ∗ dutyTok ER (v1Cell (rotq c 4) 3) 0 (c, (0 : Fin 8))
    ∗ dutyTok ER (v1Cell (rotq c 5) 4) 0 (c, (0 : Fin 8))
    ∗ dutyTok ER (v1Cell (rotq c 6) 5) 0 (c, (0 : Fin 8))
    ∗ dutyTok ER (v1Cell (rotq c 7) 6) 0 (c, (0 : Fin 8))
    ∗ dutyTok ER (s1Cell c 0) 0 (c, (0 : Fin 8))
    ∗ dutyTok ER (s1Cell c 1) 0 (c, (0 : Fin 8))
    ∗ dutyTok ER (s1Cell c 2) 0 (c, (0 : Fin 8))
    ∗ dutyTok ER (s1Cell c 3) 0 (c, (0 : Fin 8))
    ∗ dutyTok ER (s1Cell c 4) 0 (c, (0 : Fin 8))
    ∗ dutyTok ER (s1Cell c 5) 0 (c, (0 : Fin 8))
    ∗ dutyTok ER (s1Cell c 6) 0 (c, (0 : Fin 8))
    ∗ dutyTok ER (v2Cell (rotz c 1) 0) 0 (c, (0 : Fin 8))
    ∗ dutyTok ER (v2Cell (rotz c 2) 1) 0 (c, (0 : Fin 8))
    ∗ dutyTok ER (v2Cell (rotz c 3) 2) 0 (c, (0 : Fin 8))
    ∗ dutyTok ER (s2Cell c 0) 0 (c, (0 : Fin 8))
    ∗ dutyTok ER (s2Cell c 1) 0 (c, (0 : Fin 8))
    ∗ dutyTok ER (s2Cell c 2) 0 (c, (0 : Fin 8)))

omit [FloatOps F] in
theorem linear_intro (c : Dev nD) : iprop((bigSep Finset.univ fun k : Fin 22 => (atPos ER (kcell (c, k)) 0 ∅ 0 : sProp 𝕄)) ∗ payToks c) ⊢ linear c := by
  rw [bigSep_fin22]
  unfold payToks linear
  iintro ⟨⟨A0, A1, A2, A3, A4, A5, A6, A7, A8, A9, A10, A11, A12, A13, A14, A15, A16, A17, A18, A19, A20, A21⟩, T0, T1, T2, T3, T4, T5, T6, T7, T8, T9, T10, T11, T12, T13, T14, T15, T16, T17, T18, T19, T20, T21, T22, T23, T24, T25, T26, T27, T28, T29⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  iexact T29

theorem ghost_intro (κ : Dev nD × Fin 22 → ℕ) (c : Dev nD) : iprop(records K κ ∗ linear c) ⊢ (iprop(∃ κ, ghost K κ c) : sProp 𝕄) := by
  unfold records ghost invs marks
  iintro ⟨⟨#HI, #HR⟩, HL⟩
  iexists κ
  isplitr
  · isplitr; · iapply (inv_at K κ (c, 0)); iexact HI
    isplitr; · iapply (inv_at K κ (c, 1)); iexact HI
    isplitr; · iapply (inv_at K κ (c, 2)); iexact HI
    isplitr; · iapply (inv_at K κ (c, 3)); iexact HI
    isplitr; · iapply (inv_at K κ (c, 4)); iexact HI
    isplitr; · iapply (inv_at K κ (c, 5)); iexact HI
    isplitr; · iapply (inv_at K κ (c, 6)); iexact HI
    isplitr; · iapply (inv_at K κ (c, 7)); iexact HI
    isplitr; · iapply (inv_at K κ (c, 8)); iexact HI
    isplitr; · iapply (inv_at K κ (c, 9)); iexact HI
    isplitr; · iapply (inv_at K κ (c, 10)); iexact HI
    isplitr; · iapply (inv_at K κ (c, 11)); iexact HI
    isplitr; · iapply (inv_at K κ (c, 12)); iexact HI
    isplitr; · iapply (inv_at K κ (c, 13)); iexact HI
    isplitr; · iapply (inv_at K κ (c, 14)); iexact HI
    isplitr; · iapply (inv_at K κ (c, 15)); iexact HI
    isplitr; · iapply (inv_at K κ (c, 16)); iexact HI
    isplitr; · iapply (inv_at K κ (c, 17)); iexact HI
    isplitr; · iapply (inv_at K κ (c, 18)); iexact HI
    isplitr; · iapply (inv_at K κ (c, 19)); iexact HI
    isplitr; · iapply (inv_at K κ (c, 20)); iexact HI
    isplitr; · iapply (inv_at K κ (c, 21)); iexact HI
    isplitr; · iapply (inv_at K κ (rotq c 1, 0)); iexact HI
    isplitr; · iapply (inv_at K κ (rotq c 2, 0)); iexact HI
    isplitr; · iapply (inv_at K κ (rotq c 3, 0)); iexact HI
    isplitr; · iapply (inv_at K κ (rotq c 4, 0)); iexact HI
    isplitr; · iapply (inv_at K κ (rotq c 5, 0)); iexact HI
    isplitr; · iapply (inv_at K κ (rotq c 6, 0)); iexact HI
    isplitr; · iapply (inv_at K κ (rotq c 7, 0)); iexact HI
    isplitr; · iapply (inv_at K κ (rotz c 1, 1)); iexact HI
    isplitr; · iapply (inv_at K κ (rotz c 2, 1)); iexact HI
    isplitr; · iapply (inv_at K κ (rotz c 3, 1)); iexact HI
    isplitr; · iapply (inv_at K κ (rotq c 1, 9)); iexact HI
    isplitr; · iapply (inv_at K κ (rotq c 2, 10)); iexact HI
    isplitr; · iapply (inv_at K κ (rotq c 3, 11)); iexact HI
    isplitr; · iapply (inv_at K κ (rotq c 4, 12)); iexact HI
    isplitr; · iapply (inv_at K κ (rotq c 5, 13)); iexact HI
    isplitr; · iapply (inv_at K κ (rotq c 6, 14)); iexact HI
    isplitr; · iapply (inv_at K κ (rotq c 7, 15)); iexact HI
    isplitr; · iapply (inv_at K κ (rotz c 1, 19)); iexact HI
    isplitr; · iapply (inv_at K κ (rotz c 2, 20)); iexact HI
    iapply (inv_at K κ (rotz c 3, 21)); iexact HI
  isplitr
  · isplitr; · iapply (reached_at (F := F) (rotq c 1, 0)); iexact HR
    isplitr; · iapply (reached_at (F := F) (rotq c 2, 0)); iexact HR
    isplitr; · iapply (reached_at (F := F) (rotq c 3, 0)); iexact HR
    isplitr; · iapply (reached_at (F := F) (rotq c 4, 0)); iexact HR
    isplitr; · iapply (reached_at (F := F) (rotq c 5, 0)); iexact HR
    isplitr; · iapply (reached_at (F := F) (rotq c 6, 0)); iexact HR
    isplitr; · iapply (reached_at (F := F) (rotq c 7, 0)); iexact HR
    isplitr; · iapply (reached_at (F := F) (rotz c 1, 1)); iexact HR
    isplitr; · iapply (reached_at (F := F) (rotz c 2, 1)); iexact HR
    isplitr; · iapply (reached_at (F := F) (rotz c 3, 1)); iexact HR
    isplitr; · iapply (reached_at (F := F) (c, 9)); iexact HR
    isplitr; · iapply (reached_at (F := F) (c, 10)); iexact HR
    isplitr; · iapply (reached_at (F := F) (c, 11)); iexact HR
    isplitr; · iapply (reached_at (F := F) (c, 12)); iexact HR
    isplitr; · iapply (reached_at (F := F) (c, 13)); iexact HR
    isplitr; · iapply (reached_at (F := F) (c, 14)); iexact HR
    isplitr; · iapply (reached_at (F := F) (c, 15)); iexact HR
    isplitr; · iapply (reached_at (F := F) (c, 19)); iexact HR
    isplitr; · iapply (reached_at (F := F) (c, 20)); iexact HR
    isplitr; · iapply (reached_at (F := F) (c, 21)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    isplitr; · iapply (reached_at (F := F) (c, 8)); iexact HR
    isplitr; · iapply (reached_at (F := F) (c, 16)); iexact HR
    isplitr; · iapply (reached_at (F := F) (c, 17)); iexact HR
    iapply (reached_at (F := F) (c, 18)); iexact HR
  iexact HL

/-- The rotations as permutations of the devices. -/
def rotqE (k k' : ℕ) (h1 : ∀ c : Dev nD, rotq (rotq c k) k' = c) (h2 : ∀ c : Dev nD, rotq (rotq c k') k = c) : Dev nD ≃ Dev nD := ⟨(rotq · k), (rotq · k'), h1, h2⟩
def rotzE (k k' : ℕ) (h1 : ∀ c : Dev nD, rotz (rotz c k) k' = c) (h2 : ∀ c : Dev nD, rotz (rotz c k') k = c) : Dev nD ≃ Dev nD := ⟨(rotz · k), (rotz · k'), h1, h2⟩

omit [FloatOps F] in
/-- A family indexed by (cell owner, payer), summed over the owners, is the same summed over the payers. -/
theorem deal (Φ : Dev nD → Dev nD → sProp 𝕄) (e : Dev nD ≃ Dev nD) (pay : Dev nD → Dev nD) (h : ∀ p, pay (e p) = p) :
    (bigSep Finset.univ fun x => Φ x (pay x)) = bigSep Finset.univ fun p => Φ (e p) p := by
  rw [bigSep_univ_equiv e]
  exact bigSep_congr fun p _ => by rw [h]

omit [FloatOps F] in
/-- The tokens dealt around the mesh: each duty's token from the cell's owner to the device that pays it. -/
theorem toks_around : (bigSep Finset.univ fun c : Dev nD => (toks c : sProp 𝕄)) ⊢ bigSep Finset.univ fun c : Dev nD => payToks c := by
  have d0 : (bigSep Finset.univ fun c : Dev nD => (dutyTok ER (barCell c) 0 (rotq c 1, (0 : Fin 8)) : sProp 𝕄)) = bigSep Finset.univ fun c : Dev nD => dutyTok ER (barCell (rotq c 7)) 0 (c, (0 : Fin 8)) :=
    deal (fun x p => dutyTok ER (barCell x) 0 (p, (0 : Fin 8))) (rotqE 7 1 rotq_7_1 rotq_1_7) (fun x => rotq x 1) rotq_7_1
  have d1 : (bigSep Finset.univ fun c : Dev nD => (dutyTok ER (barCell c) 0 (rotq c 2, (1 : Fin 8)) : sProp 𝕄)) = bigSep Finset.univ fun c : Dev nD => dutyTok ER (barCell (rotq c 6)) 0 (c, (1 : Fin 8)) :=
    deal (fun x p => dutyTok ER (barCell x) 0 (p, (1 : Fin 8))) (rotqE 6 2 rotq_6_2 rotq_2_6) (fun x => rotq x 2) rotq_6_2
  have d2 : (bigSep Finset.univ fun c : Dev nD => (dutyTok ER (barCell c) 0 (rotq c 3, (2 : Fin 8)) : sProp 𝕄)) = bigSep Finset.univ fun c : Dev nD => dutyTok ER (barCell (rotq c 5)) 0 (c, (2 : Fin 8)) :=
    deal (fun x p => dutyTok ER (barCell x) 0 (p, (2 : Fin 8))) (rotqE 5 3 rotq_5_3 rotq_3_5) (fun x => rotq x 3) rotq_5_3
  have d3 : (bigSep Finset.univ fun c : Dev nD => (dutyTok ER (barCell c) 0 (rotq c 4, (3 : Fin 8)) : sProp 𝕄)) = bigSep Finset.univ fun c : Dev nD => dutyTok ER (barCell (rotq c 4)) 0 (c, (3 : Fin 8)) :=
    deal (fun x p => dutyTok ER (barCell x) 0 (p, (3 : Fin 8))) (rotqE 4 4 rotq_4_4 rotq_4_4) (fun x => rotq x 4) rotq_4_4
  have d4 : (bigSep Finset.univ fun c : Dev nD => (dutyTok ER (barCell c) 0 (rotq c 5, (4 : Fin 8)) : sProp 𝕄)) = bigSep Finset.univ fun c : Dev nD => dutyTok ER (barCell (rotq c 3)) 0 (c, (4 : Fin 8)) :=
    deal (fun x p => dutyTok ER (barCell x) 0 (p, (4 : Fin 8))) (rotqE 3 5 rotq_3_5 rotq_5_3) (fun x => rotq x 5) rotq_3_5
  have d5 : (bigSep Finset.univ fun c : Dev nD => (dutyTok ER (barCell c) 0 (rotq c 6, (5 : Fin 8)) : sProp 𝕄)) = bigSep Finset.univ fun c : Dev nD => dutyTok ER (barCell (rotq c 2)) 0 (c, (5 : Fin 8)) :=
    deal (fun x p => dutyTok ER (barCell x) 0 (p, (5 : Fin 8))) (rotqE 2 6 rotq_2_6 rotq_6_2) (fun x => rotq x 6) rotq_2_6
  have d6 : (bigSep Finset.univ fun c : Dev nD => (dutyTok ER (barCell c) 0 (rotq c 7, (6 : Fin 8)) : sProp 𝕄)) = bigSep Finset.univ fun c : Dev nD => dutyTok ER (barCell (rotq c 1)) 0 (c, (6 : Fin 8)) :=
    deal (fun x p => dutyTok ER (barCell x) 0 (p, (6 : Fin 8))) (rotqE 1 7 rotq_1_7 rotq_7_1) (fun x => rotq x 7) rotq_1_7
  have d7 : (bigSep Finset.univ fun c : Dev nD => (dutyTok ER (zrCell c) 0 (rotz c 1, (0 : Fin 8)) : sProp 𝕄)) = bigSep Finset.univ fun c : Dev nD => dutyTok ER (zrCell (rotz c 3)) 0 (c, (0 : Fin 8)) :=
    deal (fun x p => dutyTok ER (zrCell x) 0 (p, (0 : Fin 8))) (rotzE 3 1 rotz_3_1 rotz_1_3) (fun x => rotz x 1) rotz_3_1
  have d8 : (bigSep Finset.univ fun c : Dev nD => (dutyTok ER (zrCell c) 0 (rotz c 2, (1 : Fin 8)) : sProp 𝕄)) = bigSep Finset.univ fun c : Dev nD => dutyTok ER (zrCell (rotz c 2)) 0 (c, (1 : Fin 8)) :=
    deal (fun x p => dutyTok ER (zrCell x) 0 (p, (1 : Fin 8))) (rotzE 2 2 rotz_2_2 rotz_2_2) (fun x => rotz x 2) rotz_2_2
  have d9 : (bigSep Finset.univ fun c : Dev nD => (dutyTok ER (zrCell c) 0 (rotz c 3, (2 : Fin 8)) : sProp 𝕄)) = bigSep Finset.univ fun c : Dev nD => dutyTok ER (zrCell (rotz c 1)) 0 (c, (2 : Fin 8)) :=
    deal (fun x p => dutyTok ER (zrCell x) 0 (p, (2 : Fin 8))) (rotzE 1 3 rotz_1_3 rotz_3_1) (fun x => rotz x 3) rotz_1_3
  have d17 : (bigSep Finset.univ fun c : Dev nD => (dutyTok ER (v1Cell c 0) 0 (rotq c 7, (0 : Fin 8)) : sProp 𝕄)) = bigSep Finset.univ fun c : Dev nD => dutyTok ER (v1Cell (rotq c 1) 0) 0 (c, (0 : Fin 8)) :=
    deal (fun x p => dutyTok ER (v1Cell x 0) 0 (p, (0 : Fin 8))) (rotqE 1 7 rotq_1_7 rotq_7_1) (fun x => rotq x 7) rotq_1_7
  have d18 : (bigSep Finset.univ fun c : Dev nD => (dutyTok ER (v1Cell c 1) 0 (rotq c 6, (0 : Fin 8)) : sProp 𝕄)) = bigSep Finset.univ fun c : Dev nD => dutyTok ER (v1Cell (rotq c 2) 1) 0 (c, (0 : Fin 8)) :=
    deal (fun x p => dutyTok ER (v1Cell x 1) 0 (p, (0 : Fin 8))) (rotqE 2 6 rotq_2_6 rotq_6_2) (fun x => rotq x 6) rotq_2_6
  have d19 : (bigSep Finset.univ fun c : Dev nD => (dutyTok ER (v1Cell c 2) 0 (rotq c 5, (0 : Fin 8)) : sProp 𝕄)) = bigSep Finset.univ fun c : Dev nD => dutyTok ER (v1Cell (rotq c 3) 2) 0 (c, (0 : Fin 8)) :=
    deal (fun x p => dutyTok ER (v1Cell x 2) 0 (p, (0 : Fin 8))) (rotqE 3 5 rotq_3_5 rotq_5_3) (fun x => rotq x 5) rotq_3_5
  have d20 : (bigSep Finset.univ fun c : Dev nD => (dutyTok ER (v1Cell c 3) 0 (rotq c 4, (0 : Fin 8)) : sProp 𝕄)) = bigSep Finset.univ fun c : Dev nD => dutyTok ER (v1Cell (rotq c 4) 3) 0 (c, (0 : Fin 8)) :=
    deal (fun x p => dutyTok ER (v1Cell x 3) 0 (p, (0 : Fin 8))) (rotqE 4 4 rotq_4_4 rotq_4_4) (fun x => rotq x 4) rotq_4_4
  have d21 : (bigSep Finset.univ fun c : Dev nD => (dutyTok ER (v1Cell c 4) 0 (rotq c 3, (0 : Fin 8)) : sProp 𝕄)) = bigSep Finset.univ fun c : Dev nD => dutyTok ER (v1Cell (rotq c 5) 4) 0 (c, (0 : Fin 8)) :=
    deal (fun x p => dutyTok ER (v1Cell x 4) 0 (p, (0 : Fin 8))) (rotqE 5 3 rotq_5_3 rotq_3_5) (fun x => rotq x 3) rotq_5_3
  have d22 : (bigSep Finset.univ fun c : Dev nD => (dutyTok ER (v1Cell c 5) 0 (rotq c 2, (0 : Fin 8)) : sProp 𝕄)) = bigSep Finset.univ fun c : Dev nD => dutyTok ER (v1Cell (rotq c 6) 5) 0 (c, (0 : Fin 8)) :=
    deal (fun x p => dutyTok ER (v1Cell x 5) 0 (p, (0 : Fin 8))) (rotqE 6 2 rotq_6_2 rotq_2_6) (fun x => rotq x 2) rotq_6_2
  have d23 : (bigSep Finset.univ fun c : Dev nD => (dutyTok ER (v1Cell c 6) 0 (rotq c 1, (0 : Fin 8)) : sProp 𝕄)) = bigSep Finset.univ fun c : Dev nD => dutyTok ER (v1Cell (rotq c 7) 6) 0 (c, (0 : Fin 8)) :=
    deal (fun x p => dutyTok ER (v1Cell x 6) 0 (p, (0 : Fin 8))) (rotqE 7 1 rotq_7_1 rotq_1_7) (fun x => rotq x 1) rotq_7_1
  have d27 : (bigSep Finset.univ fun c : Dev nD => (dutyTok ER (v2Cell c 0) 0 (rotz c 3, (0 : Fin 8)) : sProp 𝕄)) = bigSep Finset.univ fun c : Dev nD => dutyTok ER (v2Cell (rotz c 1) 0) 0 (c, (0 : Fin 8)) :=
    deal (fun x p => dutyTok ER (v2Cell x 0) 0 (p, (0 : Fin 8))) (rotzE 1 3 rotz_1_3 rotz_3_1) (fun x => rotz x 3) rotz_1_3
  have d28 : (bigSep Finset.univ fun c : Dev nD => (dutyTok ER (v2Cell c 1) 0 (rotz c 2, (0 : Fin 8)) : sProp 𝕄)) = bigSep Finset.univ fun c : Dev nD => dutyTok ER (v2Cell (rotz c 2) 1) 0 (c, (0 : Fin 8)) :=
    deal (fun x p => dutyTok ER (v2Cell x 1) 0 (p, (0 : Fin 8))) (rotzE 2 2 rotz_2_2 rotz_2_2) (fun x => rotz x 2) rotz_2_2
  have d29 : (bigSep Finset.univ fun c : Dev nD => (dutyTok ER (v2Cell c 2) 0 (rotz c 1, (0 : Fin 8)) : sProp 𝕄)) = bigSep Finset.univ fun c : Dev nD => dutyTok ER (v2Cell (rotz c 3) 2) 0 (c, (0 : Fin 8)) :=
    deal (fun x p => dutyTok ER (v2Cell x 2) 0 (p, (0 : Fin 8))) (rotzE 3 1 rotz_3_1 rotz_1_3) (fun x => rotz x 1) rotz_3_1
  unfold toks payToks
  simp only [bigSep_sep']
  rw [d0, d1, d2, d3, d4, d5, d6, d7, d8, d9, d17, d18, d19, d20, d21, d22, d23, d27, d28, d29]
  iintro ⟨T0, T1, T2, T3, T4, T5, T6, T7, T8, T9, T10, T11, T12, T13, T14, T15, T16, T17, T18, T19, T20, T21, T22, T23, T24, T25, T26, T27, T28, T29⟩
  isplitl [T6]; · iexact T6
  isplitl [T5]; · iexact T5
  isplitl [T4]; · iexact T4
  isplitl [T3]; · iexact T3
  isplitl [T2]; · iexact T2
  isplitl [T1]; · iexact T1
  isplitl [T0]; · iexact T0
  isplitl [T9]; · iexact T9
  isplitl [T8]; · iexact T8
  isplitl [T7]; · iexact T7
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T27]; · iexact T27
  isplitl [T28]; · iexact T28
  isplitl [T29]; · iexact T29
  isplitl [T24]; · iexact T24
  isplitl [T25]; · iexact T25
  iexact T26

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd K) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' K) := by
  rw [bigSep_sep', bigSep_sep', bigSep_sep', ← bigSep_univ_prod (fun ck : Dev nD × Fin 22 => iprop(∃ κ : ℕ, cellInv ER (Rd K) κ (kcell ck))),
    bigSep_congr (s := Finset.univ) (fun (c : Dev nD) _ => bigSep_sep' Finset.univ (fun k : Fin 22 => (atPos ER (kcell (c, k)) 0 ∅ 0 : sProp 𝕄)) (fun k => reached ER (kcell (c, k)) 0)),
    bigSep_sep', ← bigSep_univ_prod (fun ck : Dev nD × Fin 22 => (reached ER (kcell ck) 0 : sProp 𝕄))]
  iintro ⟨HI, ⟨Hat, #HR⟩, Htok, Hidle⟩
  ihave HK := (BI.bigSep_exists_pi Finset.univ (fun (ck : Dev nD × Fin 22) (κ : ℕ) => (cellInv ER (Rd K) κ (kcell ck) : sProp 𝕄))) $$ HI
  icases HK with ⟨%κ, #HI⟩
  ihave Htk := (toks_around (F := F)) $$ Htok
  unfold G'
  rw [bigSep_sep']
  isplitr [Hidle]
  · iapply (bigSep_with_persistent (R := records K κ) fun c _ => ghost_intro K κ c)
    isplitr
    · unfold records; isplitl; · iexact HI
      iexact HR
    · iapply ((Entails.of_eq (bigSep_sep' Finset.univ (fun c : Dev nD => bigSep Finset.univ fun k : Fin 22 => (atPos ER (kcell (c, k)) 0 ∅ 0 : sProp 𝕄)) payToks).symm).trans
        (bigSep_mono fun c _ => linear_intro c))
      isplitl [Hat]; · iexact Hat
      iexact Htk
  · iexact Hidle

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G K c) : sProp 𝕄)
    ⊢ |={Set.univ}=> bigSep Finset.univ (G' K) :=
  ((bigSep_mono fun c _ => core_alloc K c).trans (bigSep_fupd _ _)).trans (BI.fupd_mono (regroup K))

end Cert.Kernel.Hand
end

/-- info: 'Cert.Kernel.Hand.glob' depends on axioms: [propext, Classical.choice, Quot.sound] -/
#guard_msgs in #print axioms Cert.Kernel.Hand.glob
-- ==== Proof.Bits.Launch.lean ====
import proofs.«900450_g7700000000000451_dist_matmul_mk_i_outk_m512_n512_k256_v7x_i32_f32_1_alg».proof.Proof.Bits.LaunchAlloc

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Cont F)
variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats K m ρ 0 c).share w = fullShare := by unfold Dat.share; split <;> rfl

/-! ## The launch credit: each waited cell's credit is the sum over the payers of what they owe it -/

omit [FloatOps F] in
theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] in
theorem creds_intro (c : Dev nD) : (Pipeline.launchCred O₀ c : sProp 𝕄) ⊢ creds c := by
  rw [show (O₀ : Dev nD → CellTallies nD τ sig Unit) = fun d => 0 + tallyAt (v2Cell (rotz d 3) 2) () N2 + tallyAt (v2Cell (rotz d 2) 1) () N2 + tallyAt (v2Cell (rotz d 1) 0) () N2 + tallyAt (v1Cell (rotq d 7) 6) () N1 + tallyAt (v1Cell (rotq d 6) 5) () N1 + tallyAt (v1Cell (rotq d 5) 4) () N1 + tallyAt (v1Cell (rotq d 4) 3) () N1 + tallyAt (v1Cell (rotq d 3) 2) () N1 + tallyAt (v1Cell (rotq d 2) 1) () N1 + tallyAt (v1Cell (rotq d 1) 0) () N1 + tallyAt (zrCell (rotz d 3)) () 1 + tallyAt (zrCell (rotz d 2)) () 1 + tallyAt (zrCell (rotz d 1)) () 1 + tallyAt (barCell (rotq d 7)) () 1 + tallyAt (barCell (rotq d 6)) () 1 + tallyAt (barCell (rotq d 5)) () 1 + tallyAt (barCell (rotq d 4)) () 1 + tallyAt (barCell (rotq d 3)) () 1 + tallyAt (barCell (rotq d 2)) () 1 + tallyAt (barCell (rotq d 1)) () 1 from rfl]
  simp only [Pipeline.launchCred_add, Pipeline.launchCred_zero]
  iintro ⟨⟨⟨⟨⟨⟨⟨⟨⟨⟨⟨⟨⟨⟨⟨⟨⟨⟨⟨⟨-, V2c⟩, V2b⟩, V2a⟩, V1_6⟩, V1_5⟩, V1_4⟩, V1_3⟩, V1_2⟩, V1_1⟩, V1_0⟩, Z3⟩, Z2⟩, Z1⟩, B7⟩, B6⟩, B5⟩, B4⟩, B3⟩, B2⟩, B1⟩
  ihave V2c' := (Pipeline.launchCred_tallyAt (SemLoc.dma (v2S 2)) (fun d => rotz d 3) (fun d => rotz d 1) rotz_1_3 rotz_3_1 () N2 c) $$ V2c
  ihave V2b' := (Pipeline.launchCred_tallyAt (SemLoc.dma (v2S 1)) (fun d => rotz d 2) (fun d => rotz d 2) rotz_2_2 rotz_2_2 () N2 c) $$ V2b
  ihave V2a' := (Pipeline.launchCred_tallyAt (SemLoc.dma (v2S 0)) (fun d => rotz d 1) (fun d => rotz d 3) rotz_3_1 rotz_1_3 () N2 c) $$ V2a
  ihave V1_6' := (Pipeline.launchCred_tallyAt (SemLoc.dma (v1S 6)) (fun d => rotq d 7) (fun d => rotq d 1) rotq_1_7 rotq_7_1 () N1 c) $$ V1_6
  ihave V1_5' := (Pipeline.launchCred_tallyAt (SemLoc.dma (v1S 5)) (fun d => rotq d 6) (fun d => rotq d 2) rotq_2_6 rotq_6_2 () N1 c) $$ V1_5
  ihave V1_4' := (Pipeline.launchCred_tallyAt (SemLoc.dma (v1S 4)) (fun d => rotq d 5) (fun d => rotq d 3) rotq_3_5 rotq_5_3 () N1 c) $$ V1_4
  ihave V1_3' := (Pipeline.launchCred_tallyAt (SemLoc.dma (v1S 3)) (fun d => rotq d 4) (fun d => rotq d 4) rotq_4_4 rotq_4_4 () N1 c) $$ V1_3
  ihave V1_2' := (Pipeline.launchCred_tallyAt (SemLoc.dma (v1S 2)) (fun d => rotq d 3) (fun d => rotq d 5) rotq_5_3 rotq_3_5 () N1 c) $$ V1_2
  ihave V1_1' := (Pipeline.launchCred_tallyAt (SemLoc.dma (v1S 1)) (fun d => rotq d 2) (fun d => rotq d 6) rotq_6_2 rotq_2_6 () N1 c) $$ V1_1
  ihave V1_0' := (Pipeline.launchCred_tallyAt (SemLoc.dma (v1S 0)) (fun d => rotq d 1) (fun d => rotq d 7) rotq_7_1 rotq_1_7 () N1 c) $$ V1_0
  ihave Z3' := (Pipeline.launchCred_tallyAt (SemLoc.reg zrS) (fun d => rotz d 3) (fun d => rotz d 1) rotz_1_3 rotz_3_1 () 1 c) $$ Z3
  ihave Z2' := (Pipeline.launchCred_tallyAt (SemLoc.reg zrS) (fun d => rotz d 2) (fun d => rotz d 2) rotz_2_2 rotz_2_2 () 1 c) $$ Z2
  ihave Z1' := (Pipeline.launchCred_tallyAt (SemLoc.reg zrS) (fun d => rotz d 1) (fun d => rotz d 3) rotz_3_1 rotz_1_3 () 1 c) $$ Z1
  ihave B7' := (Pipeline.launchCred_tallyAt (SemLoc.reg barS) (fun d => rotq d 7) (fun d => rotq d 1) rotq_1_7 rotq_7_1 () 1 c) $$ B7
  ihave B6' := (Pipeline.launchCred_tallyAt (SemLoc.reg barS) (fun d => rotq d 6) (fun d => rotq d 2) rotq_2_6 rotq_6_2 () 1 c) $$ B6
  ihave B5' := (Pipeline.launchCred_tallyAt (SemLoc.reg barS) (fun d => rotq d 5) (fun d => rotq d 3) rotq_3_5 rotq_5_3 () 1 c) $$ B5
  ihave B4' := (Pipeline.launchCred_tallyAt (SemLoc.reg barS) (fun d => rotq d 4) (fun d => rotq d 4) rotq_4_4 rotq_4_4 () 1 c) $$ B4
  ihave B3' := (Pipeline.launchCred_tallyAt (SemLoc.reg barS) (fun d => rotq d 3) (fun d => rotq d 5) rotq_5_3 rotq_3_5 () 1 c) $$ B3
  ihave B2' := (Pipeline.launchCred_tallyAt (SemLoc.reg barS) (fun d => rotq d 2) (fun d => rotq d 6) rotq_6_2 rotq_2_6 () 1 c) $$ B2
  ihave B1' := (Pipeline.launchCred_tallyAt (SemLoc.reg barS) (fun d => rotq d 1) (fun d => rotq d 7) rotq_7_1 rotq_1_7 () 1 c) $$ B1
  ihave X2 := (cred_join (F := F) (barCell c) 1 1) $$ [B1' B2']
  · isplitl [B1'] <;> iassumption
  ihave X3 := (cred_join (F := F) (barCell c) 2 1) $$ [X2 B3']
  · isplitl [X2] <;> iassumption
  ihave X4 := (cred_join (F := F) (barCell c) 3 1) $$ [X3 B4']
  · isplitl [X3] <;> iassumption
  ihave X5 := (cred_join (F := F) (barCell c) 4 1) $$ [X4 B5']
  · isplitl [X4] <;> iassumption
  ihave X6 := (cred_join (F := F) (barCell c) 5 1) $$ [X5 B6']
  · isplitl [X5] <;> iassumption
  ihave X7 := (cred_join (F := F) (barCell c) 6 1) $$ [X6 B7']
  · isplitl [X6] <;> iassumption
  ihave Y2 := (cred_join (F := F) (zrCell c) 1 1) $$ [Z1' Z2']
  · isplitl [Z1'] <;> iassumption
  ihave Y3 := (cred_join (F := F) (zrCell c) 2 1) $$ [Y2 Z3']
  · isplitl [Y2] <;> iassumption
  unfold creds
  isplitl [X7]; · iexact X7
  isplitl [Y3]; · iexact Y3
  isplitl [V1_0']; · iexact V1_0'
  isplitl [V1_1']; · iexact V1_1'
  isplitl [V1_2']; · iexact V1_2'
  isplitl [V1_3']; · iexact V1_3'
  isplitl [V1_4']; · iexact V1_4'
  isplitl [V1_5']; · iexact V1_5'
  isplitl [V1_6']; · iexact V1_6'
  isplitl [V2a']; · iexact V2a'
  isplitl [V2b']; · iexact V2b'
  iexact V2c'

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' K c)
      ⊢ |={Set.univ}=> iprop(start K c ∗ emp) := by
  iintro ⟨-, Hlev, Hcr, -, HG⟩
  ihave Hc := (creds_intro (F := F) c) $$ Hcr
  unfold G'
  icases HG with ⟨HG, Hidle⟩
  imodintro
  unfold start
  isplitl
  · isplitl [HG]; · iexact HG
    isplitl [Hc]; · iexact Hc
    isplitl [Hlev]; · iexact Hlev
    iexact Hidle
  · iempintro

theorem phi0_intro (c : Dev nD) :
    iprop(start K c ∗ Pipeline.prefHeld Pipeline.Prefetch.none c (fun _ => fullShare.right) (fun k => k.elim0) ∗ Pipeline.scopedRest cfg0.spec c)
      ⊢ (dats K m ρ 0 c).Φ 0 := by
  rw [show (dats K m ρ 0 c).Φ 0 = Φ₀ K c from rfl, scopedRest0_eq]
  unfold Φ₀ scr
  iintro ⟨Hs, -, Hr⟩
  isplitl [Hs]; · iexact Hs
  iexact Hr

theorem phi1_exit (c : Dev nD) :
    (dats K m ρ 0 c).Φ (Fin.last cfg0.N) ⊢ iprop(emp ∗ Pipeline.ownSems0 osem c ∗ Pipeline.scopedRest cfg0.spec c) := by
  rw [show (dats K m ρ 0 c).Φ (Fin.last cfg0.N) = Φ₁ c from rfl, scopedRest0_eq, ownSems0_eq]
  unfold Φ₁ scr closed idle
  iintro ⟨Hr, ⟨Z0, Z1, Z2, Z3, Z4, Z5, Z6, Z7, Z8, Z9, Z10, Z11, Z12, Z13, Z14, Z15, Z16, Z17, Z18, Z19, Z20⟩, I0, I1, I2, I3⟩
  isplitr; · iempintro
  isplitr [Hr]
  · isplitl [Z0]; · iexact Z0
    isplitl [I0]; · iexact I0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [I1]; · iexact I1
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [I2]; · iexact I2
    isplitl [Z15]; · iexact Z15
    isplitl [Z16]; · iexact Z16
    isplitl [Z17]; · iexact Z17
    isplitl [I3]; · iexact I3
    isplitl [Z18]; · iexact Z18
    isplitl [Z19]; · iexact Z19
    iexact Z20
  iexact Hr

theorem waits (c : Dev nD) : (levAts L lv : sProp 𝕄) ⊢ Pipeline.cellsWaits cfgs (dats K m ρ) () 0 c :=
  Pipeline.cellsWaits_intro cfgs (dats K m ρ) () 0 c fun w s t =>
    mayWait_of_above c _ (by
      have h0 : lv ((c : Thread nD τ), SemLoc.dma ((cfg0.win w).sem s)) () = 0 := by fin_cases w <;> fin_cases s <;> rfl
      rw [h0]
      rcases t with ⟨_ | _, ht⟩
      · exact above_O₀ c
      · exact above_zero 0)

/-! ## The run -/

set_option maxRecDepth 8000 in
/-- At the compiled mesh of 32 devices, for any float values, from any memory with zero counters: given each device's body, every weakly
    fair execution of @main terminates, and every final state has each window's array at what the proof data computes. -/
theorem run_main (hbody : ∀ c : Dev nD, BodyObligation (dats K m ρ 0 c) (defs₀ (F := F)) 𝒱₀ () Set.univ) :
    θ_run defs (onTc (τ := τ) (main (F := F))) (s₀ m ρ)
      (fun r => ∀ (c : Dev nD) (w : Fin cfg0.W), r.2.mem ((cfg0.win w).arr.view.loc (c : Thread nD τ)) = (dats K m ρ 0 c).arrAt w cfg0.N) :=
  Pipeline.θ_run_region_owing_glob_pf (fun p => (cfgs p).toPCfg) (fun p => (cfgs p).toPCfg_adm) (dats K m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq K m ρ)
    (hdistinct := winFacts0.arr_inj)
    (O₀ := O₀) (howed₀ := fun _ => rfl) (howedN := fun _ => rfl)
    (L := L) (lv := lv) (hL := L_of_ne) (hwaits := waits K m ρ)
    (G := G K) (G' := G' K) (u₀ := u₀)
    (hu₀ := by
      unfold u₀
      iintro Hu
      ihave H := (ownU_pair _ _) $$ Hu
      icases H with ⟨HP, HX⟩
      imod (fund_ring K) $$ HX with HG
      imodintro
      isplitl [HP] <;> iassumption)
    (hglob := glob K)
    (hA := fun _ _ => rfl) (hpf := fun _ k => k.elim0)
    (X := start K) (Y := fun _ => iprop(emp)) (Z := fun _ => iprop(emp))
    (hX := start_intro K m ρ) (hin := phi0_intro K m ρ) (hout := phi1_exit K m ρ)
    (QY := fun _ _ => True)
    (hY := fun c s' => by
      iintro ⟨-, -, HSI⟩
      imodintro
      isplitr; · ipureintro; trivial
      iexact HSI)
    (hQ := fun _ h c w => (h c).1 w)

/-! ## The final arrays -/

theorem final_arg0 (c : Dev nD) : (dats K m ρ 0 c).arrAt (0 : Fin 3) cfg0.N = m ((c : Thread nD τ).loc main_arg0) :=
  (dats K m ρ 0 c).arrAt_in (0 : Fin 3) rfl _
theorem final_arg1 (c : Dev nD) : (dats K m ρ 0 c).arrAt (1 : Fin 3) cfg0.N = m ((c : Thread nD τ).loc main_arg1) :=
  (dats K m ρ 0 c).arrAt_in (1 : Fin 3) rfl _

/-- The result array is written once, whole, with what the body leaves in its staging buffer. -/
theorem final_out (c : Dev nD) : (dats K m ρ 0 c).arrAt (2 : Fin 3) cfg0.N = K.out c := by
  have h := (dats K m ρ 0 c).arrAt_succ (2 : Fin 3) t0_0
  rw [flush0_2, if_pos rfl] at h
  show (dats K m ρ 0 c).arrAt (2 : Fin 3) (t0_0.val + 1) = _
  rw [h]
  exact Memref.write_access_unit_zero_univ (Elt F) main_v1 (funext fun a => Nat.zero_mul _) _ _ _

/-- The run with its post read at the three arrays: the result array holds `K.out`, the argument arrays are unchanged. -/
theorem run_post (hbody : ∀ c : Dev nD, BodyObligation (dats K m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = K.out c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (final_out K m ρ c), (h c 0).trans (final_arg0 K m ρ c), (h c 1).trans (final_arg1 K m ρ c)⟩)
    (run_main K m ρ hbody)

end Cert.Kernel.Hand
end

/-- info: 'Cert.Kernel.Hand.run_main' depends on axioms: [propext, Classical.choice, Quot.sound] -/
#guard_msgs in #print axioms Cert.Kernel.Hand.run_main

/-- info: 'Cert.Kernel.Hand.run_post' depends on axioms: [propext, Classical.choice, Quot.sound] -/
#guard_msgs in #print axioms Cert.Kernel.Hand.run_post
-- ==== Proof.Bits.KOf.lean ====
/- The values the schedule promises, built from the launch memory: what each in-plane transfer carries, what each
   cross-plane transfer carries, and each device's result block; and the proof that every device's body computes
   exactly these, whatever its buffers held before and whatever its receive buffers hold outside the slots. -/
import proofs.«900450_g7700000000000451_dist_matmul_mk_i_outk_m512_n512_k256_v7x_i32_f32_1_alg».proof.Proof.Bits.Terms
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.ValueIdx
open Idealize.ShloMosaic.TcCoe
open Idealize.SL.Sem

variable {F : FTy → Type} [FloatOps F]

/-! ## The terms with the received arrays as parameters -/

/-- The store of the in-plane sum, given the seven received blocks as one array. -/
def acc1Lv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) : List (View.Piece (Elt F) S4x16x512 .f32) :=
  [⟨Rect.unit (s := S4x16x512) ![0, 0, 0] S4x16x512.size inb_S4x16x512_S4x16x512_0_0_0,
    k0_pay41 (own0 c la lb f0) (own1 c la lb f0) (own2 c la lb f0) (own3 c la lb f0) w1⟩]
def acc2Lv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) : List (View.Piece (Elt F) S4x16x512 .bf16) :=
  [⟨Rect.unit (s := S4x16x512) ![0, 0, 0] S4x16x512.size inb_S4x16x512_S4x16x512_0_0_0,
    k0_pay42 (own0 c la lb f0) (own1 c la lb f0) (own2 c la lb f0) (own3 c la lb f0) w1⟩]

theorem acc1L_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) : acc1L c la lb f0 g1 = acc1Lv c la lb f0 (r1Load g1) := rfl
theorem acc2L_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) : acc2L c la lb f0 g1 = acc2Lv c la lb f0 (r1Load g1) := rfl

/-- The own plane's slice of the in-plane sum, read back. -/
def accLoadv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) (f1 : (Memref.whole cc0_scratch3 : Memref sig .tc .vmem S4x16x512 .f32).view.ty.Contents (Elt F)) : Vec F S1x16x512 .f32 :=
  View.readAt (Elt F) (Memref.whole cc0_scratch3 : Memref sig .tc .vmem S4x16x512 .f32).view (Rect.unit (s := S4x16x512) (k0_off4 c) S1x16x512.size (k0_off4_inb c)).toLoadRect
    ((Memref.whole cc0_scratch3 : Memref sig .tc .vmem S4x16x512 .f32).view.writes (Elt F) f1 (acc1Lv c la lb f0 w1))

theorem accLoad_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) (f1 : (Memref.whole cc0_scratch3 : Memref sig .tc .vmem S4x16x512 .f32).view.ty.Contents (Elt F)) :
    accLoad c la lb f0 g1 f1 = accLoadv c la lb f0 (r1Load g1) f1 := rfl

/-- The store of the result, given both received arrays. -/
def outLv (c : Dev nD) (la : Vec F S512x256 .f32) (lb : Vec F S256x512 .f32) (f0 : (Memref.whole cc0_scratch0 : Memref sig .tc .vmem S512x512 .f32).view.ty.Contents (Elt F))
    (w1 : Vec F S7x4x16x512 .bf16) (f1 : (Memref.whole cc0_scratch3 : Memref sig .tc .vmem S4x16x512 .f32).view.ty.Contents (Elt F)) (w2 : Vec F S3x16x512 .bf16) :
    List (View.Piece (Elt F) S16x512 .f32) :=
  [⟨Rect.unit (s := S16x512) ![0, 0] S16x512.size inb_S16x512_S16x512_0_0, k0_pay43 (accLoadv c la lb f0 w1 f1) w2⟩]

theorem outL_eq (c : Dev nD) (la : Vec F S512x256 .f32) (lb : Vec F S256x512 .f32) (f0 : (Memref.whole cc0_scratch0 : Memref sig .tc .vmem S512x512 .f32).view.ty.Contents (Elt F))
    (g1 : (Memref.whole cc0_scratch2 : Memref sig .tc .vmem S8x4x16x512 .bf16).view.ty.Contents (Elt F)) (f1 : (Memref.whole cc0_scratch3 : Memref sig .tc .vmem S4x16x512 .f32).view.ty.Contents (Elt F)) (g2 : (Memref.whole cc0_scratch5 : Memref sig .tc .vmem S4x16x512 .bf16).view.ty.Contents (Elt F)) :
    outL c la lb f0 g1 f1 g2 = outLv c la lb f0 (r1Load g1) f1 (r2Load g2) := rfl

/-! ## The slots, with the slot number a variable -/

theorem slot1_inb (r : Fin 7) : ∀ a, (![1 + r.val, 0, 0, 0] : Fin 4 → Nat) a + S1x4x16x512.size a ≤ S8x4x16x512.size a := by
  revert r; decide
theorem slot2_inb (r : Fin 3) : ∀ a, (![1 + r.val, 0, 0] : Fin 3 → Nat) a + S1x16x512.size a ≤ S4x16x512.size a := by
  revert r; decide

/-- Slot `r + 1` of the in-plane receive buffer (for each of the seven `r` this is `slot1 r`). -/
def slot1V (r : Fin 7) : Memref sig .tc .vmem S4x16x512 .bf16 :=
  ((Memref.whole cc0_scratch2 : Memref sig .tc .vmem S8x4x16x512 .bf16).slice (Rect.unit (s := S8x4x16x512) ![1 + r.val, 0, 0, 0] S1x4x16x512.size (slot1_inb r)) (fun _ => rfl)).squeeze S4x16x512 squeezes_S1x4x16x512_S4x16x512
/-- Slot `r + 1` of the cross-plane receive buffer (`slot2 r`). -/
def slot2V (r : Fin 3) : Memref sig .tc .vmem S16x512 .bf16 :=
  ((Memref.whole cc0_scratch5 : Memref sig .tc .vmem S4x16x512 .bf16).slice (Rect.unit (s := S4x16x512) ![1 + r.val, 0, 0] S1x16x512.size (slot2_inb r)) (fun _ => rfl)).squeeze S16x512 squeezes_S1x16x512_S16x512
/-- The slice of the in-plane sum device `c` sends with its cross-plane transfer `r` (`src2 c r`). -/
def src2V (c : Dev nD) (r : Fin 3) : Memref sig .tc .vmem S16x512 .bf16 :=
  ((Memref.whole cc0_scratch4 : Memref sig .tc .vmem S4x16x512 .bf16).slice (Rect.unit (s := S4x16x512) (k0_off3 c (BitVec.ofNat 32 (1 + r.val))) S1x16x512.size (k0_off3_inb c r)) (fun _ => rfl)).squeeze S16x512 squeezes_S1x16x512_S16x512

theorem slot1_eq (r : Fin 7) : slot1 r = slot1V r := by
  match r with
  | 0 => rfl
  | 1 => rfl
  | 2 => rfl
  | 3 => rfl
  | 4 => rfl
  | 5 => rfl
  | 6 => rfl
theorem slot2_eq (r : Fin 3) : slot2 r = slot2V r := by
  match r with
  | 0 => rfl
  | 1 => rfl
  | 2 => rfl
theorem src2_eq (c : Dev nD) (r : Fin 3) : src2 c r = src2V c r := by
  match r with
  | 0 => rfl
  | 1 => rfl
  | 2 => rfl

/-- Seven blocks of four slices as one array. -/
def joinV1 (v : Fin 7 → FVec F S4x16x512 .bf16) : Vec F S7x4x16x512 .bf16 := fun y => v (y 0) (ix3 (y 1) (y 2) (y 3))
/-- Three slices as one array. -/
def joinV2 (v : Fin 3 → FVec F S16x512 .bf16) : Vec F S3x16x512 .bf16 := fun y => v (y 0) (ix2 (y 1) (y 2))

/-- The array read of the in-plane receive buffer sees only its slots. -/
theorem r1Load_eq (g1 : (Memref.whole cc0_scratch2 : Memref sig .tc .vmem S8x4x16x512 .bf16).view.ty.Contents (Elt F)) (v : Fin 7 → FVec F S4x16x512 .bf16)
    (h : ∀ r : Fin 7, (slot1V r).view.read (Elt F) g1 = v r) : r1Load g1 = joinV1 v := by
  funext y
  unfold joinV1
  rw [← h (y 0)]
  unfold r1Load slot1V
  show (Memref.whole cc0_scratch2 : Memref sig .tc .vmem S8x4x16x512 .bf16).view.read (Elt F) g1 _ = (Memref.whole cc0_scratch2 : Memref sig .tc .vmem S8x4x16x512 .bf16).view.read (Elt F) g1
    ((Rect.unit (s := S8x4x16x512) ![1 + (y 0).val, 0, 0, 0] S1x4x16x512.size (slot1_inb (y 0))).emb
      (Shape.reshapeEquiv squeezes_S1x4x16x512_S4x16x512.numel_eq (ix3 (y 1) (y 2) (y 3))))
  have hre : Shape.reshapeEquiv squeezes_S1x4x16x512_S4x16x512.numel_eq (ix3 (y 1) (y 2) (y 3))
      = ix4 (⟨0, Nat.one_pos⟩ : Fin 1) (y 1) (y 2) (y 3) := reshapeEquiv_ix3_1abc _ (y 1) (y 2) (y 3)
  rw [hre]
  refine congrArg ((Memref.whole cc0_scratch2 : Memref sig .tc .vmem S8x4x16x512 .bf16).view.read (Elt F) g1) (funext fun a => Fin.ext ?_)
  match a with
  | ⟨0, _⟩ =>
    show 1 + 1 * (y 0).val = (1 + (y 0).val) + 1 * 0
    omega
  | ⟨1, _⟩ => rfl
  | ⟨2, _⟩ => rfl
  | ⟨3, _⟩ => rfl

/-- The array read of the cross-plane receive buffer sees only its slots. -/
theorem r2Load_eq (g2 : (Memref.whole cc0_scratch5 : Memref sig .tc .vmem S4x16x512 .bf16).view.ty.Contents (Elt F)) (v : Fin 3 → FVec F S16x512 .bf16)
    (h : ∀ r : Fin 3, (slot2V r).view.read (Elt F) g2 = v r) : r2Load g2 = joinV2 v := by
  funext y
  unfold joinV2
  rw [← h (y 0)]
  unfold r2Load slot2V
  show (Memref.whole cc0_scratch5 : Memref sig .tc .vmem S4x16x512 .bf16).view.read (Elt F) g2 _ = (Memref.whole cc0_scratch5 : Memref sig .tc .vmem S4x16x512 .bf16).view.read (Elt F) g2
    ((Rect.unit (s := S4x16x512) ![1 + (y 0).val, 0, 0] S1x16x512.size (slot2_inb (y 0))).emb
      (Shape.reshapeEquiv squeezes_S1x16x512_S16x512.numel_eq (ix2 (y 1) (y 2))))
  have hre : Shape.reshapeEquiv squeezes_S1x16x512_S16x512.numel_eq (ix2 (y 1) (y 2))
      = ix3 (⟨0, Nat.one_pos⟩ : Fin 1) (y 1) (y 2) := reshapeEquiv_ix2_1ab _ (y 1) (y 2)
  rw [hre]
  refine congrArg ((Memref.whole cc0_scratch5 : Memref sig .tc .vmem S4x16x512 .bf16).view.read (Elt F) g2) (funext fun a => Fin.ext ?_)
  match a with
  | ⟨0, _⟩ =>
    show 1 + 1 * (y 0).val = (1 + (y 0).val) + 1 * 0
    omega
  | ⟨1, _⟩ => rfl
  | ⟨2, _⟩ => rfl

/-! ## Nothing read depends on what a buffer held before a store that covers it -/

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A load after stores that cover the buffer does not see the earlier contents. -/
theorem readAt_writes_indep {κ : Kind} {sp : Space} {s : Shape} {e : EltTy} (v : View sig κ sp s e) (B : LoadRect s)
    (L : List (View.Piece (Elt F) s e)) (hc : ∀ y : s.Idx, ∃ p ∈ L, y ∈ p.1.set) (f f' : v.ty.Contents (Elt F)) :
    v.readAt (Elt F) B (v.writes (Elt F) f L) = v.readAt (Elt F) B (v.writes (Elt F) f' L) := by
  funext y
  rw [View.readAt_apply, View.readAt_apply, View.read_writes_apply_eq_canon v f _ L (hc _),
    View.read_writes_apply_eq_canon v f' _ L (hc _)]

/-- A read through a squeezed slice after stores that cover the buffer does not see the earlier contents. -/
theorem read_sq_indep {s s' : Shape} {e : EltTy} (W : Memref sig .tc .vmem s e) (R : Rect s) (hR : ∀ a, R.stride a = 1)
    (hq : R.shape.Squeezes s') (L : List (View.Piece (Elt F) s e)) (hc : ∀ y : s.Idx, ∃ p ∈ L, y ∈ p.1.set)
    (f f' : W.view.ty.Contents (Elt F)) :
    ((W.slice R hR).squeeze s' hq).view.read (Elt F) (W.view.writes (Elt F) f L)
      = ((W.slice R hR).squeeze s' hq).view.read (Elt F) (W.view.writes (Elt F) f' L) := by
  funext y
  show W.view.read (Elt F) _ (R.emb (Shape.reshapeEquiv hq.numel_eq y)) = W.view.read (Elt F) _ (R.emb (Shape.reshapeEquiv hq.numel_eq y))
  rw [View.read_writes_apply_eq_canon _ f _ L (hc _), View.read_writes_apply_eq_canon _ f' _ L (hc _)]

theorem partL_cover (la : Vec F S512x256 .f32) (lb : Vec F S256x512 .f32) :
    ∀ y : S512x512.Idx, ∃ p ∈ partL (F := F) la lb, y ∈ p.1.set :=
  fun y => ⟨_, List.mem_singleton.2 rfl, View.mem_set_unit_zero (S := S512x512) hz2 inb_S512x512_S512x512_0_0 y⟩

section
variable (c : Dev nD) (la : Vec F S512x256 .f32) (lb : Vec F S256x512 .f32) (f0 f0' : (Memref.whole cc0_scratch0 : Memref sig .tc .vmem S512x512 .f32).view.ty.Contents (Elt F))

theorem own0_indep : own0 c la lb f0 = own0 c la lb f0' := readAt_writes_indep _ _ _ (partL_cover la lb) f0 f0'
theorem own1_indep : own1 c la lb f0 = own1 c la lb f0' := readAt_writes_indep _ _ _ (partL_cover la lb) f0 f0'
theorem own2_indep : own2 c la lb f0 = own2 c la lb f0' := readAt_writes_indep _ _ _ (partL_cover la lb) f0 f0'
theorem own3_indep : own3 c la lb f0 = own3 c la lb f0' := readAt_writes_indep _ _ _ (partL_cover la lb) f0 f0'

theorem acc1Lv_indep (w1 : Vec F S7x4x16x512 .bf16) : acc1Lv c la lb f0 w1 = acc1Lv c la lb f0' w1 := by
  unfold acc1Lv
  rw [own0_indep c la lb f0 f0', own1_indep c la lb f0 f0', own2_indep c la lb f0 f0', own3_indep c la lb f0 f0']
theorem acc2Lv_indep (w1 : Vec F S7x4x16x512 .bf16) : acc2Lv c la lb f0 w1 = acc2Lv c la lb f0' w1 := by
  unfold acc2Lv
  rw [own0_indep c la lb f0 f0', own1_indep c la lb f0 f0', own2_indep c la lb f0 f0', own3_indep c la lb f0 f0']

theorem acc1Lv_cover (w1 : Vec F S7x4x16x512 .bf16) : ∀ y : S4x16x512.Idx, ∃ p ∈ acc1Lv c la lb f0 w1, y ∈ p.1.set :=
  fun y => ⟨_, List.mem_singleton.2 rfl, View.mem_set_unit_zero (S := S4x16x512) hz3 inb_S4x16x512_S4x16x512_0_0_0 y⟩
theorem acc2Lv_cover (w1 : Vec F S7x4x16x512 .bf16) : ∀ y : S4x16x512.Idx, ∃ p ∈ acc2Lv c la lb f0 w1, y ∈ p.1.set :=
  fun y => ⟨_, List.mem_singleton.2 rfl, View.mem_set_unit_zero (S := S4x16x512) hz3 inb_S4x16x512_S4x16x512_0_0_0 y⟩

theorem accLoadv_indep (w1 : Vec F S7x4x16x512 .bf16) (f1 f1' : (Memref.whole cc0_scratch3 : Memref sig .tc .vmem S4x16x512 .f32).view.ty.Contents (Elt F)) :
    accLoadv c la lb f0 w1 f1 = accLoadv c la lb f0' w1 f1' := by
  unfold accLoadv
  rw [acc1Lv_indep c la lb f0 f0' w1]
  exact readAt_writes_indep _ _ _ (acc1Lv_cover c la lb f0' w1) f1 f1'

theorem outLv_indep (w1 : Vec F S7x4x16x512 .bf16) (f1 f1' : (Memref.whole cc0_scratch3 : Memref sig .tc .vmem S4x16x512 .f32).view.ty.Contents (Elt F)) (w2 : Vec F S3x16x512 .bf16) :
    outLv c la lb f0 w1 f1 w2 = outLv c la lb f0' w1 f1' w2 := by
  unfold outLv
  rw [accLoadv_indep c la lb f0 f0' w1 f1 f1']

/-- A store of the whole result block replaces whatever the block held. -/
theorem out_writes_indep (w : S16x512.Idx → Elt F .f32) (o0 o0' : (Memref.whole cc0_stg2_0 : Memref sig .tc .vmem S16x512 .f32).view.ty.Contents (Elt F)) :
    (Memref.whole cc0_stg2_0 : Memref sig .tc .vmem S16x512 .f32).view.writes (Elt F) o0 [⟨Rect.unit (s := S16x512) ![0, 0] S16x512.size inb_S16x512_S16x512_0_0, w⟩]
      = (Memref.whole cc0_stg2_0 : Memref sig .tc .vmem S16x512 .f32).view.writes (Elt F) o0' [⟨Rect.unit (s := S16x512) ![0, 0] S16x512.size inb_S16x512_S16x512_0_0, w⟩] :=
  (Memref.write_access_unit_zero_univ (Elt F) cc0_stg2_0 hz2 inb_S16x512_S16x512_0_0 o0 w).trans
    (Memref.write_access_unit_zero_univ (Elt F) cc0_stg2_0 hz2 inb_S16x512_S16x512_0_0 o0' w).symm
end

/-! ## The promised values, and that every body computes them -/

variable (m : (ℓ : Loc nD τ sig) → Buf (Elt F) ℓ) (ρ : Dev nD → PrngReg)

/-- What lands in slot `s + 1` of device `x`'s cross-plane receive buffer: the slice for `x`'s plane of the in-plane sum
    of the sender, the device at `x`'s place `3 - s` planes on (whose transfer `s` is addressed `s + 1` planes on). -/
def v2Of (x : Dev nD) (s : Fin 3) : FVec F S16x512 .bf16 :=
  (src2V (rotz x (3 - s.val)) s).view.read (Elt F)
    ((Memref.whole cc0_scratch4 : Memref sig .tc .vmem S4x16x512 .bf16).view.writes (Elt F) (Memref.whole cc0_scratch4 : Memref sig .tc .vmem S4x16x512 .bf16).view.junk
      (acc2Lv (rotz x (3 - s.val)) (laOf (aC m ρ (rotz x (3 - s.val)))) (lbOf (bC m ρ (rotz x (3 - s.val))))
        (Memref.whole cc0_scratch0 : Memref sig .tc .vmem S512x512 .f32).view.junk (joinV1 (v1Of m ρ (rotz x (3 - s.val))))))

/-- Device `c`'s result block. -/
def outK (c : Dev nD) : Buf (Elt F) ((c : Thread nD τ).loc cc0_stg2_0) :=
  (Memref.whole cc0_stg2_0 : Memref sig .tc .vmem S16x512 .f32).view.writes (Elt F) (Memref.whole cc0_stg2_0 : Memref sig .tc .vmem S16x512 .f32).view.junk
    (outLv c (laOf (aC m ρ c)) (lbOf (bC m ρ c)) (Memref.whole cc0_scratch0 : Memref sig .tc .vmem S512x512 .f32).view.junk (joinV1 (v1Of m ρ c)) (Memref.whole cc0_scratch3 : Memref sig .tc .vmem S4x16x512 .f32).view.junk (joinV2 (v2Of m ρ c)))

/-- The schedule's values, from the launch memory. -/
def KOf : Cont F := ⟨v1Of m ρ, v2Of m ρ, outK m ρ⟩

theorem rotz_back : ∀ (c : Dev nD) (r : Fin 3), rotz (rotz c (r.val + 1)) (3 - r.val) = c := by decide

theorem hv2 (c : Dev nD) (r : Fin 3) (f0 : (Memref.whole cc0_scratch0 : Memref sig .tc .vmem S512x512 .f32).view.ty.Contents (Elt F)) (fa2 : (Memref.whole cc0_scratch4 : Memref sig .tc .vmem S4x16x512 .bf16).view.ty.Contents (Elt F))
    (g1 : (Memref.whole cc0_scratch2 : Memref sig .tc .vmem S8x4x16x512 .bf16).view.ty.Contents (Elt F)) (h1 : ∀ r' : Fin 7, (slot1V r').view.read (Elt F) g1 = v1Of m ρ c r') :
    (src2V c r).view.read (Elt F) ((Memref.whole cc0_scratch4 : Memref sig .tc .vmem S4x16x512 .bf16).view.writes (Elt F) fa2 (acc2L c (laOf (aC m ρ c)) (lbOf (bC m ρ c)) f0 g1))
      = v2Of m ρ (rotz c (r.val + 1)) r := by
  unfold v2Of
  rw [rotz_back c r, acc2L_eq, r1Load_eq g1 _ h1, acc2Lv_indep c _ _ f0 (Memref.whole cc0_scratch0 : Memref sig .tc .vmem S512x512 .f32).view.junk]
  unfold src2V
  exact read_sq_indep (Memref.whole cc0_scratch4 : Memref sig .tc .vmem S4x16x512 .bf16) (Rect.unit (s := S4x16x512) (k0_off3 c (BitVec.ofNat 32 (1 + r.val))) S1x16x512.size (k0_off3_inb c r))
    (fun _ => rfl) squeezes_S1x16x512_S16x512 _ (acc2Lv_cover c _ _ _ _) _ _

theorem hout (c : Dev nD) (f0 : (Memref.whole cc0_scratch0 : Memref sig .tc .vmem S512x512 .f32).view.ty.Contents (Elt F)) (f1 : (Memref.whole cc0_scratch3 : Memref sig .tc .vmem S4x16x512 .f32).view.ty.Contents (Elt F)) (o0 : (Memref.whole cc0_stg2_0 : Memref sig .tc .vmem S16x512 .f32).view.ty.Contents (Elt F))
    (g1 : (Memref.whole cc0_scratch2 : Memref sig .tc .vmem S8x4x16x512 .bf16).view.ty.Contents (Elt F)) (g2 : (Memref.whole cc0_scratch5 : Memref sig .tc .vmem S4x16x512 .bf16).view.ty.Contents (Elt F))
    (h1 : ∀ r' : Fin 7, (slot1V r').view.read (Elt F) g1 = v1Of m ρ c r')
    (h2 : ∀ r' : Fin 3, (slot2V r').view.read (Elt F) g2 = v2Of m ρ c r') :
    (Memref.whole cc0_stg2_0 : Memref sig .tc .vmem S16x512 .f32).view.writes (Elt F) o0 (outL c (laOf (aC m ρ c)) (lbOf (bC m ρ c)) f0 g1 f1 g2) = outK m ρ c := by
  unfold outK
  rw [outL_eq, r1Load_eq g1 _ h1, r2Load_eq g2 _ h2, outLv_indep c _ _ f0 (Memref.whole cc0_scratch0 : Memref sig .tc .vmem S512x512 .f32).view.junk _ f1 (Memref.whole cc0_scratch3 : Memref sig .tc .vmem S4x16x512 .f32).view.junk]
  exact out_writes_indep _ o0 _

/-- Seven facts about the literal slots as one fact about the slot with its number a variable. -/
theorem h1_of7 (g1 : (Memref.whole cc0_scratch2 : Memref sig .tc .vmem S8x4x16x512 .bf16).view.ty.Contents (Elt F)) (v : Fin 7 → FVec F S4x16x512 .bf16)
    (h : (slot1 0).view.read (Elt F) g1 = v 0 ∧ (slot1 1).view.read (Elt F) g1 = v 1 ∧ (slot1 2).view.read (Elt F) g1 = v 2 ∧ (slot1 3).view.read (Elt F) g1 = v 3 ∧ (slot1 4).view.read (Elt F) g1 = v 4 ∧ (slot1 5).view.read (Elt F) g1 = v 5 ∧ (slot1 6).view.read (Elt F) g1 = v 6) :
    ∀ r' : Fin 7, (slot1V r').view.read (Elt F) g1 = v r' := by
  intro r'
  match r' with
  | 0 => exact h.1
  | 1 => exact h.2.1
  | 2 => exact h.2.2.1
  | 3 => exact h.2.2.2.1
  | 4 => exact h.2.2.2.2.1
  | 5 => exact h.2.2.2.2.2.1
  | 6 => exact h.2.2.2.2.2.2

theorem h2_of3 (g2 : (Memref.whole cc0_scratch5 : Memref sig .tc .vmem S4x16x512 .bf16).view.ty.Contents (Elt F)) (v : Fin 3 → FVec F S16x512 .bf16)
    (h : (slot2 0).view.read (Elt F) g2 = v 0 ∧ (slot2 1).view.read (Elt F) g2 = v 1 ∧ (slot2 2).view.read (Elt F) g2 = v 2) :
    ∀ r' : Fin 3, (slot2V r').view.read (Elt F) g2 = v r' := by
  intro r'
  match r' with
  | 0 => exact h.1
  | 1 => exact h.2.1
  | 2 => exact h.2.2

section
attribute [local irreducible] v1Of v2Of outK

theorem KOf_v1 : (KOf m ρ).v1 = v1Of m ρ := rfl
theorem KOf_v2 : (KOf m ρ).v2 = v2Of m ρ := rfl
theorem KOf_out : (KOf m ρ).out = outK m ρ := rfl

/-- Every device's body computes the promised values. -/
theorem good (c : Dev nD) : Good (KOf m ρ) c (aC m ρ c) (bC m ρ c) := by
  refine ⟨?_, ?_, ?_⟩
  · intro fq
    rw [KOf_v1]
    exact ⟨hv1 m ρ c 0 fq, hv1 m ρ c 1 fq, hv1 m ρ c 2 fq, hv1 m ρ c 3 fq, hv1 m ρ c 4 fq, hv1 m ρ c 5 fq, hv1 m ρ c 6 fq⟩
  · intro f0 fa2 g1 h
    rw [KOf_v1] at h
    rw [KOf_v2]
    have h1 := h1_of7 g1 (v1Of m ρ c) h
    exact ⟨hv2 m ρ c 0 f0 fa2 g1 h1, hv2 m ρ c 1 f0 fa2 g1 h1, hv2 m ρ c 2 f0 fa2 g1 h1⟩
  · intro f0 f1 o0 g1 g2 h h'
    rw [KOf_v1] at h
    rw [KOf_v2] at h'
    rw [KOf_out]
    exact hout m ρ c f0 f1 o0 g1 g2 (h1_of7 g1 (v1Of m ρ c) h) (h2_of3 g2 (v2Of m ρ c) h')

end

end Cert.Kernel.Hand

end

/-- info: 'Cert.Kernel.Hand.good' depends on axioms: [propext, Classical.choice, Quot.sound] -/
#guard_msgs in #print axioms Cert.Kernel.Hand.good
-- ==== Proof.Bits.Run.lean ====
import proofs.«900450_g7700000000000451_dist_matmul_mk_i_outk_m512_n512_k256_v7x_i32_f32_1_alg».proof.Proof.Bits.BodyObl
import proofs.«900450_g7700000000000451_dist_matmul_mk_i_outk_m512_n512_k256_v7x_i32_f32_1_alg».proof.Proof.Bits.Launch
import proofs.«900450_g7700000000000451_dist_matmul_mk_i_outk_m512_n512_k256_v7x_i32_f32_1_alg».proof.Proof.Bits.KOf

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- On the mesh of 32 devices, from any memory with every semaphore at zero: every weakly fair execution terminates, nothing faults, each
    device's result block ends at the value the schedule promises it and its two argument blocks end as they began. -/
theorem run_all : θ_run defs (onTc (τ := τ) (main (F := F))) ⟨m, fun _ => 0, ρ⟩ (fun r => ∀ c : Dev nD,
    r.2.mem ((c.tc : Thread nD τ).loc main_v1) = (KOf m ρ).out c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  run_post (KOf m ρ) m ρ (body_obligation (KOf m ρ) m ρ (good m ρ))

/-- info: 'Cert.Kernel.Hand.run_all' depends on axioms: [propext, Classical.choice, Quot.sound] -/
#guard_msgs in #print axioms run_all

end Cert.Kernel.Hand
end
-- ==== Proof.RefSide.lean ====
/- The reference, read as one function of its two whole arrays: entry (i, j) of its result is the sum over
   all 8192 contraction indices k of A(i, k) · B(k, j); it runs to the end and leaves both arrays as they were. -/
import proofs.«900450_g7700000000000451_dist_matmul_mk_i_outk_m512_n512_k256_v7x_i32_f32_1_alg».proof.Proof.Gen.ReferenceIdeal.Read
import proofs.«900450_g7700000000000451_dist_matmul_mk_i_outk_m512_n512_k256_v7x_i32_f32_1_alg».proof.Proof.Gen.Pre_finite_inputs_ReferenceIdeal
import proofs.«900450_g7700000000000451_dist_matmul_mk_i_outk_m512_n512_k256_v7x_i32_f32_1_alg».proof.Defs
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The product of the two whole arrays: entry (i, j) is the sum over all 8192 indices k of A(i, k) · B(k, j). -/
def G (A : (⟨2, ![512, 8192]⟩ : Shape).Idx → EReal) (B : (⟨2, ![8192, 512]⟩ : Shape).Idx → EReal) :
    (⟨2, ![512, 512]⟩ : Shape).Idx → EReal :=
  fun i => ∑ k : Fin 8192, A (ix2 (i 0) k) * B (ix2 k (i 1))

theorem G_apply (A : (⟨2, ![512, 8192]⟩ : Shape).Idx → EReal) (B : (⟨2, ![8192, 512]⟩ : Shape).Idx → EReal)
    (r : Fin 512) (j : Fin 512) : G A B (ix2 r j) = ∑ k : Fin 8192, A (ix2 r k) * B (ix2 k j) := rfl

/-- The reference's one operation, a contraction over the shared axis, is that product. -/
theorem val_eq_G (x0 : (⟨S512x8192, .f32⟩ : BufTy).Contents (Elt Ideal)) (x1 : (⟨S8192x512, .f32⟩ : BufTy).Contents (Elt Ideal)) :
    Read.val_main_v0 (F := Ideal) x0 x1 = G x0 x1 := by
  funext i
  rw [Read.val_main_v0_apply]
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  rw [el, er]
  rfl

/-- Every fair execution of the reference ends with its result holding the product of the two arrays it
    started with, and the two arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).1, Read.val_main_v0_eq, val_eq_G], (h c).2⟩)
    (Cert.ReferenceIdeal.Value.run (F := Ideal) m ρ)

/-- The reference runs to the end, faults nowhere and leaves its arguments unchanged. -/
theorem frame : Cert.frame_ReferenceIdeal :=
  fun m ρ _ => (θ_run Cert.ReferenceIdeal.defs _ _).mono (fun _ h c => (h c).2) (Cert.ReferenceIdeal.Value.run (F := Ideal) m ρ)

end Cert.ReferenceIdeal.RefValue

end

/-- info: 'Cert.ReferenceIdeal.RefValue.run' depends on axioms: [propext, Classical.choice, Quot.sound] -/
#guard_msgs in #print axioms Cert.ReferenceIdeal.RefValue.run
-- ==== Proof.PayIdx.lean ====
/- The kernel body's pure values, read entry by entry at the extended reals: the block product, the 16-row
   slices of it that are exchanged (rounding to the narrower format is the identity here), and the two sums
   of a device's own rows with the rows it receives. -/
import proofs.«900450_g7700000000000451_dist_matmul_mk_i_outk_m512_n512_k256_v7x_i32_f32_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The block product -/

theorem dot_lhs0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem dot_lhs1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem dot_rhs0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem dot_rhs1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- Entry (r, j) of a device's partial product: the sum over its 256 contraction indices. -/
theorem pay1_apply (a : Vec Ideal S512x256 .f32) (b : Vec Ideal S256x512 .f32) (r : Fin 512) (j : Fin 512) :
    Gen.k0_pay1 (F := Ideal) a b (ix2 r j) = ∑ k : Fin 256, a (ix2 r k) * b (ix2 k j) := by
  unfold Gen.k0_pay1
  simp only [shapeCast_self, matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r j) ((contrEquiv1 dot_S512x256_S256x512_S512x512_1_0_0_1_n_n 256 rfl rfl).symm k) = ix2 r k := funext fun a => Fin.ext (by
    match a with
    | ⟨0, _⟩ => exact dot_lhs0 _ _
    | ⟨1, _⟩ => exact (dot_lhs1 _ _).trans hk)
  have er : dot_S512x256_S256x512_S512x512_1_0_0_1_n_n.rhsIdx (ix2 r j) ((contrEquiv1 dot_S512x256_S256x512_S512x512_1_0_0_1_n_n 256 rfl rfl).symm k) = ix2 k j := funext fun a => Fin.ext (by
    match a with
    | ⟨0, _⟩ => exact (dot_rhs0 _ _).trans hk
    | ⟨1, _⟩ => exact dot_rhs1 _ _)
  rw [el, er]

/-- The stored copy of the partial product is the partial product. -/
theorem pay2_eq (a : Vec Ideal S512x256 .f32) (b : Vec Ideal S256x512 .f32) :
    Gen.k0_pay2 (F := Ideal) a b = Gen.k0_pay1 (F := Ideal) a b := by
  unfold Gen.k0_pay2
  exact shapeCast_self _ _

/-! ## The 16-row slices -/

/-- Row `o + r` of a 512-row array, for a slice of 16 rows starting at row `o`. -/
def rowAt (o : Nat) (ho : o + 16 ≤ 512) (r : Fin 16) : Fin 512 := ⟨o + r.val, by omega⟩

@[simp] theorem rowAt_val (o : Nat) (ho : o + 16 ≤ 512) (r : Fin 16) : (rowAt o ho r).val = o + r.val := rfl

/-- Rows `o … o + 15` of a 512 × 512 array, narrowed (the identity on extended reals): entry (r, j) is entry
    (o + r, j) of the array. -/
theorem slice_apply (o : Nat) (ho : o + 16 ≤ 512) (v : FVec Ideal S512x512 .f32) (hS : S512x512.Slices ![o, 0] S16x512)
    (r : Fin 16) (j : Fin 512) :
    (truncf .bf16 (extractStridedSlice S16x512 ![o, 0] v hS) bitsLt_bf16_f32 : FVec Ideal S16x512 .bf16) (ix2 r j)
      = v (ix2 (rowAt o ho r) j) :=
  slice2_axis0_apply o v hS r j _ rfl

/-- A 16 × 512 array seen as 1 × 1 × 16 × 512: entry (0, 0, r, j) is entry (r, j). -/
theorem cast_11_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp [hu, hu'])

theorem cast_11_idx {α : Type} (x : S16x512.Idx → α) (h : S16x512.ShapeCasts S1x1x16x512) (y : S1x1x16x512.Idx) :
    shapeCast S1x1x16x512 x h y = x (ix2 (y 2) (y 3)) :=
  (congrArg _ (eq_ix4 y)).trans (cast_11_apply x h (y 0) (y 1) (y 2) (y 3))

/-- The ONE pattern of an exchanged slice: rows `o … o + 15`, narrowed, as a 1 × 1 × 16 × 512 piece. -/
theorem slice_cast_apply (o : Nat) (ho : o + 16 ≤ 512) (v : FVec Ideal S512x512 .f32) (hS : S512x512.Slices ![o, 0] S16x512)
    (hC : S16x512.ShapeCasts S1x1x16x512) (u u' : Fin 1) (r : Fin 16) (j : Fin 512) :
    shapeCast S1x1x16x512 (truncf .bf16 (extractStridedSlice S16x512 ![o, 0] v hS) bitsLt_bf16_f32 : FVec Ideal S16x512 .bf16) hC
        (ix4 u u' r j) = v (ix2 (rowAt o ho r) j) :=
  (cast_11_apply _ hC u u' r j).trans (slice_apply o ho v hS r j)

theorem slice_cast_idx (o : Nat) (ho : o + 16 ≤ 512) (v : FVec Ideal S512x512 .f32) (hS : S512x512.Slices ![o, 0] S16x512)
    (hC : S16x512.ShapeCasts S1x1x16x512) (y : S1x1x16x512.Idx) :
    shapeCast S1x1x16x512 (truncf .bf16 (extractStridedSlice S16x512 ![o, 0] v hS) bitsLt_bf16_f32 : FVec Ideal S16x512 .bf16) hC y
      = v (ix2 (rowAt o ho (y 2)) (y 3)) :=
  (congrArg _ (eq_ix4 y)).trans (slice_cast_apply o ho v hS hC (y 0) (y 1) (y 2) (y 3))

/-! Slices 0 and 1 are cut from the product of the two loaded blocks directly. -/

theorem pay3_idx (a : Vec Ideal S512x256 .f32) (b : Vec Ideal S256x512 .f32) (y : S1x1x16x512.Idx) :
    Gen.k0_pay3 (F := Ideal) a b y = Gen.k0_pay1 (F := Ideal) a b (ix2 (rowAt 0 (by decide) (y 2)) (y 3)) :=
  slice_cast_idx 0 _ _ _ _ y
theorem pay4_idx (a : Vec Ideal S512x256 .f32) (b : Vec Ideal S256x512 .f32) (y : S1x1x16x512.Idx) :
    Gen.k0_pay4 (F := Ideal) a b y = Gen.k0_pay1 (F := Ideal) a b (ix2 (rowAt 16 (by decide) (y 2)) (y 3)) :=
  slice_cast_idx 16 _ _ _ _ y

/-! Slices 2, 8, 14, 20 and 26 are cut and narrowed in one step and laid out as a piece in the next. -/

theorem pay5_apply (a : Vec Ideal S512x256 .f32) (b : Vec Ideal S256x512 .f32) (r : Fin 16) (j : Fin 512) :
    Gen.k0_pay5 (F := Ideal) a b (ix2 r j) = Gen.k0_pay1 (F := Ideal) a b (ix2 (rowAt 32 (by decide) r) j) :=
  slice_apply 32 _ _ _ r j
theorem pay12_apply (v : FVec Ideal S512x512 .f32) (r : Fin 16) (j : Fin 512) :
    Gen.k0_pay12 (F := Ideal) v (ix2 r j) = v (ix2 (rowAt 128 (by decide) r) j) :=
  slice_apply 128 _ _ _ r j
theorem pay19_apply (v : FVec Ideal S512x512 .f32) (r : Fin 16) (j : Fin 512) :
    Gen.k0_pay19 (F := Ideal) v (ix2 r j) = v (ix2 (rowAt 224 (by decide) r) j) :=
  slice_apply 224 _ _ _ r j
theorem pay26_apply (v : FVec Ideal S512x512 .f32) (r : Fin 16) (j : Fin 512) :
    Gen.k0_pay26 (F := Ideal) v (ix2 r j) = v (ix2 (rowAt 320 (by decide) r) j) :=
  slice_apply 320 _ _ _ r j
theorem pay33_apply (v : FVec Ideal S512x512 .f32) (r : Fin 16) (j : Fin 512) :
    Gen.k0_pay33 (F := Ideal) v (ix2 r j) = v (ix2 (rowAt 416 (by decide) r) j) :=
  slice_apply 416 _ _ _ r j

theorem pay6_idx (w : FVec Ideal S16x512 .bf16) (y : S1x1x16x512.Idx) :
    Gen.k0_pay6 (F := Ideal) w y = w (ix2 (y 2) (y 3)) := cast_11_idx w _ y
theorem pay13_idx (w : FVec Ideal S16x512 .bf16) (y : S1x1x16x512.Idx) :
    Gen.k0_pay13 (F := Ideal) w y = w (ix2 (y 2) (y 3)) := cast_11_idx w _ y
theorem pay20_idx (w : FVec Ideal S16x512 .bf16) (y : S1x1x16x512.Idx) :
    Gen.k0_pay20 (F := Ideal) w y = w (ix2 (y 2) (y 3)) := cast_11_idx w _ y
theorem pay27_idx (w : FVec Ideal S16x512 .bf16) (y : S1x1x16x512.Idx) :
    Gen.k0_pay27 (F := Ideal) w y = w (ix2 (y 2) (y 3)) := cast_11_idx w _ y
theorem pay34_idx (w : FVec Ideal S16x512 .bf16) (y : S1x1x16x512.Idx) :
    Gen.k0_pay34 (F := Ideal) w y = w (ix2 (y 2) (y 3)) := cast_11_idx w _ y

/-! The other slices are cut from the product, narrowed and laid out in one step: slice `e` starts at row `16 e`. -/

theorem pay7_idx (v : FVec Ideal S512x512 .f32) (y : S1x1x16x512.Idx) :
    Gen.k0_pay7 (F := Ideal) v y = v (ix2 (rowAt 48 (by decide) (y 2)) (y 3)) := slice_cast_idx 48 _ v _ _ y
theorem pay8_idx (v : FVec Ideal S512x512 .f32) (y : S1x1x16x512.Idx) :
    Gen.k0_pay8 (F := Ideal) v y = v (ix2 (rowAt 64 (by decide) (y 2)) (y 3)) := slice_cast_idx 64 _ v _ _ y
theorem pay9_idx (v : FVec Ideal S512x512 .f32) (y : S1x1x16x512.Idx) :
    Gen.k0_pay9 (F := Ideal) v y = v (ix2 (rowAt 80 (by decide) (y 2)) (y 3)) := slice_cast_idx 80 _ v _ _ y
theorem pay10_idx (v : FVec Ideal S512x512 .f32) (y : S1x1x16x512.Idx) :
    Gen.k0_pay10 (F := Ideal) v y = v (ix2 (rowAt 96 (by decide) (y 2)) (y 3)) := slice_cast_idx 96 _ v _ _ y
theorem pay11_idx (v : FVec Ideal S512x512 .f32) (y : S1x1x16x512.Idx) :
    Gen.k0_pay11 (F := Ideal) v y = v (ix2 (rowAt 112 (by decide) (y 2)) (y 3)) := slice_cast_idx 112 _ v _ _ y
theorem pay14_idx (v : FVec Ideal S512x512 .f32) (y : S1x1x16x512.Idx) :
    Gen.k0_pay14 (F := Ideal) v y = v (ix2 (rowAt 144 (by decide) (y 2)) (y 3)) := slice_cast_idx 144 _ v _ _ y
theorem pay15_idx (v : FVec Ideal S512x512 .f32) (y : S1x1x16x512.Idx) :
    Gen.k0_pay15 (F := Ideal) v y = v (ix2 (rowAt 160 (by decide) (y 2)) (y 3)) := slice_cast_idx 160 _ v _ _ y
theorem pay16_idx (v : FVec Ideal S512x512 .f32) (y : S1x1x16x512.Idx) :
    Gen.k0_pay16 (F := Ideal) v y = v (ix2 (rowAt 176 (by decide) (y 2)) (y 3)) := slice_cast_idx 176 _ v _ _ y
theorem pay17_idx (v : FVec Ideal S512x512 .f32) (y : S1x1x16x512.Idx) :
    Gen.k0_pay17 (F := Ideal) v y = v (ix2 (rowAt 192 (by decide) (y 2)) (y 3)) := slice_cast_idx 192 _ v _ _ y
theorem pay18_idx (v : FVec Ideal S512x512 .f32) (y : S1x1x16x512.Idx) :
    Gen.k0_pay18 (F := Ideal) v y = v (ix2 (rowAt 208 (by decide) (y 2)) (y 3)) := slice_cast_idx 208 _ v _ _ y
theorem pay21_idx (v : FVec Ideal S512x512 .f32) (y : S1x1x16x512.Idx) :
    Gen.k0_pay21 (F := Ideal) v y = v (ix2 (rowAt 240 (by decide) (y 2)) (y 3)) := slice_cast_idx 240 _ v _ _ y
theorem pay22_idx (v : FVec Ideal S512x512 .f32) (y : S1x1x16x512.Idx) :
    Gen.k0_pay22 (F := Ideal) v y = v (ix2 (rowAt 256 (by decide) (y 2)) (y 3)) := slice_cast_idx 256 _ v _ _ y
theorem pay23_idx (v : FVec Ideal S512x512 .f32) (y : S1x1x16x512.Idx) :
    Gen.k0_pay23 (F := Ideal) v y = v (ix2 (rowAt 272 (by decide) (y 2)) (y 3)) := slice_cast_idx 272 _ v _ _ y
theorem pay24_idx (v : FVec Ideal S512x512 .f32) (y : S1x1x16x512.Idx) :
    Gen.k0_pay24 (F := Ideal) v y = v (ix2 (rowAt 288 (by decide) (y 2)) (y 3)) := slice_cast_idx 288 _ v _ _ y
theorem pay25_idx (v : FVec Ideal S512x512 .f32) (y : S1x1x16x512.Idx) :
    Gen.k0_pay25 (F := Ideal) v y = v (ix2 (rowAt 304 (by decide) (y 2)) (y 3)) := slice_cast_idx 304 _ v _ _ y
theorem pay28_idx (v : FVec Ideal S512x512 .f32) (y : S1x1x16x512.Idx) :
    Gen.k0_pay28 (F := Ideal) v y = v (ix2 (rowAt 336 (by decide) (y 2)) (y 3)) := slice_cast_idx 336 _ v _ _ y
theorem pay29_idx (v : FVec Ideal S512x512 .f32) (y : S1x1x16x512.Idx) :
    Gen.k0_pay29 (F := Ideal) v y = v (ix2 (rowAt 352 (by decide) (y 2)) (y 3)) := slice_cast_idx 352 _ v _ _ y
theorem pay30_idx (v : FVec Ideal S512x512 .f32) (y : S1x1x16x512.Idx) :
    Gen.k0_pay30 (F := Ideal) v y = v (ix2 (rowAt 368 (by decide) (y 2)) (y 3)) := slice_cast_idx 368 _ v _ _ y
theorem pay31_idx (v : FVec Ideal S512x512 .f32) (y : S1x1x16x512.Idx) :
    Gen.k0_pay31 (F := Ideal) v y = v (ix2 (rowAt 384 (by decide) (y 2)) (y 3)) := slice_cast_idx 384 _ v _ _ y
theorem pay32_idx (v : FVec Ideal S512x512 .f32) (y : S1x1x16x512.Idx) :
    Gen.k0_pay32 (F := Ideal) v y = v (ix2 (rowAt 400 (by decide) (y 2)) (y 3)) := slice_cast_idx 400 _ v _ _ y
theorem pay35_idx (v : FVec Ideal S512x512 .f32) (y : S1x1x16x512.Idx) :
    Gen.k0_pay35 (F := Ideal) v y = v (ix2 (rowAt 432 (by decide) (y 2)) (y 3)) := slice_cast_idx 432 _ v _ _ y
theorem pay36_idx (v : FVec Ideal S512x512 .f32) (y : S1x1x16x512.Idx) :
    Gen.k0_pay36 (F := Ideal) v y = v (ix2 (rowAt 448 (by decide) (y 2)) (y 3)) := slice_cast_idx 448 _ v _ _ y
theorem pay37_idx (v : FVec Ideal S512x512 .f32) (y : S1x1x16x512.Idx) :
    Gen.k0_pay37 (F := Ideal) v y = v (ix2 (rowAt 464 (by decide) (y 2)) (y 3)) := slice_cast_idx 464 _ v _ _ y
theorem pay38_idx (v : FVec Ideal S512x512 .f32) (y : S1x1x16x512.Idx) :
    Gen.k0_pay38 (F := Ideal) v y = v (ix2 (rowAt 480 (by decide) (y 2)) (y 3)) := slice_cast_idx 480 _ v _ _ y
theorem pay39_idx (v : FVec Ideal S512x512 .f32) (y : S1x1x16x512.Idx) :
    Gen.k0_pay39 (F := Ideal) v y = v (ix2 (rowAt 496 (by decide) (y 2)) (y 3)) := slice_cast_idx 496 _ v _ _ y

/-! ## The two sums -/

/-- Over the leading axis of a 7 × 4 × 16 × 512 array: the entry of the sum at (z, r, j) is the sum over the seven
    leading coordinates. -/
theorem sum7_apply (w : FVec Ideal S7x4x16x512 .f32) (h : S7x4x16x512.Reduces [0] S4x16x512) (hφ : FKind.Formats .f32)
    (hacc : (0x00000000#32 : BitVec 32) = FKind.add.neutral .f32 hφ) (z : Fin 4) (r : Fin 16) (j : Fin 512) :
    multiReduction (F := Ideal) .add [0] S4x16x512 w 0x00000000#32 h hφ hacc (ix3 z r j) = ∑ t : Fin 7, w (ix4 t z r j) := by
  refine (Ideal.multiReduction_add_single w 0x00000000#32 h hφ hacc (ix3 z r j)).trans ?_
  exact Finset.sum_congr rfl fun t _ => congrArg w (funext fun c => Fin.ext (by
    match c with
    | ⟨0, _⟩ => rfl
    | ⟨1, _⟩ => rfl
    | ⟨2, _⟩ => rfl
    | ⟨3, _⟩ => rfl))

/-- Over the leading axis of a 3 × 16 × 512 array. -/
theorem sum3_apply (w : FVec Ideal S3x16x512 .f32) (h : S3x16x512.Reduces [0] S16x512) (hφ : FKind.Formats .f32)
    (hacc : (0x00000000#32 : BitVec 32) = FKind.add.neutral .f32 hφ) (r : Fin 16) (j : Fin 512) :
    multiReduction (F := Ideal) .add [0] S16x512 w 0x00000000#32 h hφ hacc (ix2 r j) = ∑ t : Fin 3, w (ix3 t r j) := by
  refine (Ideal.multiReduction_add_single w 0x00000000#32 h hφ hacc (ix2 r j)).trans ?_
  exact Finset.sum_congr rfl fun t _ => congrArg w (funext fun c => Fin.ext (by
    match c with
    | ⟨0, _⟩ => rfl
    | ⟨1, _⟩ => rfl
    | ⟨2, _⟩ => rfl))

/-- Four 16 × 512 arrays stacked along a new leading axis: entry (z, r, j) is entry (r, j) of array `z`. -/
theorem stack4_apply (v0 v1 v2 v3 : Vec Ideal S16x512 .f32)
    (hc : Shape.Concatenates [S1x16x512, S1x16x512, S1x16x512, S1x16x512] S4x16x512 0)
    (hs : S16x512.ShapeCasts S1x16x512) (z : Fin 4) (r : Fin 16) (j : Fin 512) :
    concatenate S4x16x512 0 [⟨S1x16x512, shapeCast S1x16x512 v0 hs⟩, ⟨S1x16x512, shapeCast S1x16x512 v1 hs⟩,
        ⟨S1x16x512, shapeCast S1x16x512 v2 hs⟩, ⟨S1x16x512, shapeCast S1x16x512 v3 hs⟩] hc (ix3 z r j)
      = (![v0, v1, v2, v3] z) (ix2 r j) := by
  refine (concatenate_ofFn_unit_apply (t := S4x16x512) (s₁ := S1x16x512) 0
    (fun n : Fin 4 => shapeCast S1x16x512 ((![v0, v1, v2, v3] : Fin 4 → Vec Ideal S16x512 .f32) n) hs) hc rfl rfl (ix3 z r j) z rfl
    (ix3 (0 : Fin 1) r j) (fun b hb => by
      match b with
      | ⟨0, _⟩ => exact absurd rfl hb
      | ⟨1, _⟩ => rfl
      | ⟨2, _⟩ => rfl)).trans ?_
  exact shapeCast_ab_1ab_apply _ hs 0 r j

/-- A device's four own slices plus the seven slices it received for each: entry (z, r, j). -/
theorem pay40_apply (v0 v1 v2 v3 : Vec Ideal S16x512 .f32) (w : Vec Ideal S7x4x16x512 .bf16) (z : Fin 4) (r : Fin 16) (j : Fin 512) :
    Gen.k0_pay40 (F := Ideal) v0 v1 v2 v3 w (ix3 z r j) = (![v0, v1, v2, v3] z) (ix2 r j) + ∑ t : Fin 7, w (ix4 t z r j) := by
  unfold Gen.k0_pay40
  exact congrArg₂ (· + ·) (stack4_apply v0 v1 v2 v3 _ _ z r j) (sum7_apply _ _ _ _ z r j)

theorem pay40_idx (v0 v1 v2 v3 : Vec Ideal S16x512 .f32) (w : Vec Ideal S7x4x16x512 .bf16) (y : S4x16x512.Idx) :
    Gen.k0_pay40 (F := Ideal) v0 v1 v2 v3 w y = (![v0, v1, v2, v3] (y 0)) (ix2 (y 1) (y 2)) + ∑ t : Fin 7, w (ix4 t (y 0) (y 1) (y 2)) :=
  (congrArg _ (eq_ix3 y)).trans (pay40_apply v0 v1 v2 v3 w (y 0) (y 1) (y 2))

/-- The two stored copies of that sum (one of them narrowed: the identity here) are that sum. -/
theorem pay41_eq (v0 v1 v2 v3 : Vec Ideal S16x512 .f32) (w : Vec Ideal S7x4x16x512 .bf16) :
    Gen.k0_pay41 (F := Ideal) v0 v1 v2 v3 w = Gen.k0_pay40 (F := Ideal) v0 v1 v2 v3 w := by
  unfold Gen.k0_pay41
  exact shapeCast_self _ _

theorem pay42_apply (v0 v1 v2 v3 : Vec Ideal S16x512 .f32) (w : Vec Ideal S7x4x16x512 .bf16) (y : S4x16x512.Idx) :
    Gen.k0_pay42 (F := Ideal) v0 v1 v2 v3 w y = Gen.k0_pay40 (F := Ideal) v0 v1 v2 v3 w y := by
  unfold Gen.k0_pay42
  exact congrFun (shapeCast_self _ _) y

/-- The result: a device's own sum for its rows plus the three sums it received: entry (r, j). -/
theorem pay43_apply (v : Vec Ideal S1x16x512 .f32) (w : Vec Ideal S3x16x512 .bf16) (r : Fin 16) (j : Fin 512) :
    Gen.k0_pay43 (F := Ideal) v w (ix2 r j) = v (ix3 (0 : Fin 1) r j) + ∑ t : Fin 3, w (ix3 t r j) := by
  unfold Gen.k0_pay43
  exact congrArg₂ (· + ·) (shapeCast_1ab_ab_apply v _ r j) (sum3_apply _ _ _ _ r j)

theorem pay43_idx (v : Vec Ideal S1x16x512 .f32) (w : Vec Ideal S3x16x512 .bf16) (y : S16x512.Idx) :
    Gen.k0_pay43 (F := Ideal) v w y = v (ix3 (0 : Fin 1) (y 0) (y 1)) + ∑ t : Fin 3, w (ix3 t (y 0) (y 1)) :=
  (congrArg _ (eq_ix2 y)).trans (pay43_apply v w (y 0) (y 1))

end Cert.KernelIdeal.Hand

end

/-- info: 'Cert.KernelIdeal.Hand.pay1_apply' depends on axioms: [propext, Classical.choice, Quot.sound] -/
#guard_msgs in #print axioms Cert.KernelIdeal.Hand.pay1_apply

/-- info: 'Cert.KernelIdeal.Hand.pay39_idx' depends on axioms: [propext, Classical.choice, Quot.sound] -/
#guard_msgs in #print axioms Cert.KernelIdeal.Hand.pay39_idx

/-- info: 'Cert.KernelIdeal.Hand.pay40_apply' depends on axioms: [propext, Classical.choice, Quot.sound] -/
#guard_msgs in #print axioms Cert.KernelIdeal.Hand.pay40_apply

/-- info: 'Cert.KernelIdeal.Hand.pay43_apply' depends on axioms: [propext, Classical.choice, Quot.sound] -/
#guard_msgs in #print axioms Cert.KernelIdeal.Hand.pay43_apply
-- ==== Proof.Algebra.lean ====
/- Pure algebra of finite sums in a commutative additive monoid: a sum over 8192 = 32 · 256 indices
   taken block by block, and a sum over 32 = 4 · 8 blocks taken in any rotated plane-by-plane order.
   Only associativity and commutativity of + are used. -/
import Mathlib

noncomputable section

namespace Cert.KernelIdeal.Hand

open Finset

variable {M : Type*} [AddCommMonoid M]

/-- The index `m·d + k` of element `k` of block `d` among `n` blocks of `m`. -/
def blkIdx (n m : ℕ) (d : Fin n) (k : Fin m) : Fin (n * m) := finProdFinEquiv (d, k)

@[simp] theorem blkIdx_val (n m : ℕ) (d : Fin n) (k : Fin m) :
    (blkIdx n m d k).val = m * d.val + k.val := by
  simp [blkIdx, finProdFinEquiv, Nat.add_comm]

/-- A sum over `n · m` indices is the sum over the `n` blocks of the sums over each block's `m` indices. -/
theorem sum_blocks (n m : ℕ) (f : Fin (n * m) → M) :
    ∑ k : Fin (n * m), f k = ∑ d : Fin n, ∑ k : Fin m, f (blkIdx n m d k) := by
  rw [← Fintype.sum_prod_type']
  exact (Equiv.sum_comp finProdFinEquiv f).symm

/-- Block `d` of 32, element `k` of 256, as an index below 8192: `256·d + k`. -/
def kIdx (d : Fin 32) (k : Fin 256) : Fin 8192 := blkIdx 32 256 d k

@[simp] theorem kIdx_val (d : Fin 32) (k : Fin 256) : (kIdx d k).val = 256 * d.val + k.val :=
  blkIdx_val 32 256 d k

/-- The contraction over 8192 indices, 32 blocks of 256 at a time. -/
theorem sum_8192 (f : Fin 8192 → M) :
    ∑ k : Fin 8192, f k = ∑ d : Fin 32, ∑ k : Fin 256, f (kIdx d k) :=
  sum_blocks 32 256 f

/-- Device `8·z + q`: place `q` of plane `z`. -/
def dev (z : Fin 4) (q : Fin 8) : Fin 32 := blkIdx 4 8 z q

@[simp] theorem dev_val (z : Fin 4) (q : Fin 8) : (dev z q).val = 8 * z.val + q.val :=
  blkIdx_val 4 8 z q

/-- The plane `c / 8` of a device. -/
def planeOf (c : Fin 32) : Fin 4 := ⟨c.val / 8, by omega⟩
/-- The place `c % 8` of a device in its plane. -/
def placeOf (c : Fin 32) : Fin 8 := ⟨c.val % 8, by omega⟩

@[simp] theorem planeOf_val (c : Fin 32) : (planeOf c).val = c.val / 8 := rfl
@[simp] theorem placeOf_val (c : Fin 32) : (placeOf c).val = c.val % 8 := rfl

theorem dev_plane_place (c : Fin 32) : dev (planeOf c) (placeOf c) = c := by
  apply Fin.ext; simp; omega

/-- A sum over the 32 devices, plane by plane. -/
theorem sum_dev (g : Fin 32 → M) : ∑ d : Fin 32, g d = ∑ z : Fin 4, ∑ q : Fin 8, g (dev z q) :=
  sum_blocks 4 8 g

/-- A sum over the 32 devices in ANY order of the planes and, inside each plane, any order of the places. -/
theorem sum_dev_perm (g : Fin 32 → M) (σ : Equiv.Perm (Fin 4)) (π : Fin 4 → Equiv.Perm (Fin 8)) :
    ∑ d : Fin 32, g d = ∑ s : Fin 4, ∑ r : Fin 8, g (dev (σ s) (π s r)) := by
  rw [sum_dev, ← Equiv.sum_comp σ]
  refine Finset.sum_congr rfl fun s _ => ?_
  exact (Equiv.sum_comp (π s) fun r => g (dev (σ s) r)).symm

/-- The order of addition of the two exchanges, seen from place `q` of plane `z`: its own term, then the
    places `q − 1, …, q − 7` of its plane; then, for the planes `z − 1, z − 2, z − 3`, the same sum. -/
theorem sum_dev_rot (g : Fin 32 → M) (z : Fin 4) (q : Fin 8) :
    ∑ d : Fin 32, g d
      = (g (dev z q) + ∑ r : Fin 7, g (dev z (q - r.succ)))
        + ∑ s : Fin 3, (g (dev (z - s.succ) q) + ∑ r : Fin 7, g (dev (z - s.succ) (q - r.succ))) := by
  rw [sum_dev_perm g (Equiv.subLeft z) (fun _ => Equiv.subLeft q), Fin.sum_univ_succ]
  simp only [Equiv.subLeft_apply, sub_zero]
  congr 1
  · rw [Fin.sum_univ_succ]; simp only [sub_zero]
  · refine Finset.sum_congr rfl fun s _ => ?_
    rw [Fin.sum_univ_succ]; simp only [sub_zero]

/-- Subtraction of a rotation step in `Fin 8`, on values. -/
theorem place_sub_val (q : Fin 8) (r : Fin 7) : (q - r.succ).val = (q.val + (8 - (r.val + 1))) % 8 := by
  rw [Fin.sub_def]; simp; omega

/-- Subtraction of a rotation step in `Fin 4`, on values. -/
theorem plane_sub_val (z : Fin 4) (s : Fin 3) : (z - s.succ).val = (z.val + (4 - (s.val + 1))) % 4 := by
  rw [Fin.sub_def]; simp; omega

/-- The place `p` whose step-`r+1` neighbour is `q`: `(p + (r+1)) % 8 = q`. -/
theorem place_sub_add (q : Fin 8) (r : Fin 7) : ((q - r.succ).val + (r.val + 1)) % 8 = q.val := by
  rw [place_sub_val]; omega

theorem plane_sub_add (z : Fin 4) (s : Fin 3) : ((z - s.succ).val + (s.val + 1)) % 4 = z.val := by
  rw [plane_sub_val]; omega

/-- The whole contraction in the order of the exchanges: with `P d` the partial product of block `d`,
    the sum over all 8192 indices is device `(z, q)`'s own partial product, plus those of the other
    places of its plane, plus the like sums of the three other planes. -/
theorem sum_8192_rot (f : Fin 8192 → M) (z : Fin 4) (q : Fin 8) :
    ∑ k : Fin 8192, f k
      = ((∑ k : Fin 256, f (kIdx (dev z q) k))
          + ∑ r : Fin 7, ∑ k : Fin 256, f (kIdx (dev z (q - r.succ)) k))
        + ∑ s : Fin 3, ((∑ k : Fin 256, f (kIdx (dev (z - s.succ) q) k))
          + ∑ r : Fin 7, ∑ k : Fin 256, f (kIdx (dev (z - s.succ) (q - r.succ)) k)) := by
  rw [sum_8192 f]
  exact sum_dev_rot (fun d => ∑ k : Fin 256, f (kIdx d k)) z q

end Cert.KernelIdeal.Hand

end

/-- info: 'Cert.KernelIdeal.Hand.sum_8192_rot' depends on axioms: [propext, Classical.choice, Quot.sound] -/
#guard_msgs in #print axioms Cert.KernelIdeal.Hand.sum_8192_rot
-- ==== Proof.ValueEq.lean ====
/- The mathematics of the whole kernel in one equation. Device d holds columns 256 d … 256 d + 255 of A and the
   same rows of B; the product of these two blocks is its partial product. Summing the 32 partial products, in
   the order the two exchanges add them (own, then the other places of the own plane, then the three other planes'
   sums), gives rows 16 c … 16 c + 15 of A · B on device c. Only + is regrouped and reordered. -/
import proofs.«900450_g7700000000000451_dist_matmul_mk_i_outk_m512_n512_k256_v7x_i32_f32_1_alg».proof.Proof.Algebra
import proofs.«900450_g7700000000000451_dist_matmul_mk_i_outk_m512_n512_k256_v7x_i32_f32_1_alg».proof.Proof.RefSide
import Idealize.ShloMosaic.Lib.Layout
import Idealize.ShloMosaic.Lib.ValueIdx

noncomputable section

namespace Cert.KernelIdeal.Hand

open Idealize.ShloMosaic Idealize.ShloMosaic.ValueIdx Cert.ReferenceIdeal.RefValue

/-- Device `d`'s block of `A`: its columns `256 d … 256 d + 255`. -/
def blkA (A : (⟨2, ![512, 8192]⟩ : Shape).Idx → EReal) (d : Fin 32) : (⟨2, ![512, 256]⟩ : Shape).Idx → EReal :=
  Layout.block ⟨2, ![512, 256]⟩ ⟨2, ![512, 8192]⟩ 1 32 d A

/-- Device `d`'s block of `B`: its rows `256 d … 256 d + 255`. -/
def blkB (B : (⟨2, ![8192, 512]⟩ : Shape).Idx → EReal) (d : Fin 32) : (⟨2, ![256, 512]⟩ : Shape).Idx → EReal :=
  Layout.block ⟨2, ![256, 512]⟩ ⟨2, ![8192, 512]⟩ 0 32 d B

theorem blkA_apply (A : (⟨2, ![512, 8192]⟩ : Shape).Idx → EReal) (d : Fin 32) (r : Fin 512) (k : Fin 256) :
    blkA A d (ix2 r k) = A (ix2 r (kIdx d k)) := by
  show A _ = A _
  refine congrArg A (funext fun a => Fin.ext ?_)
  match a with
  | ⟨0, _⟩ => rfl
  | ⟨1, _⟩ =>
    show d.val * 256 + k.val = (kIdx d k).val
    rw [kIdx_val]; omega

theorem blkB_apply (B : (⟨2, ![8192, 512]⟩ : Shape).Idx → EReal) (d : Fin 32) (k : Fin 256) (j : Fin 512) :
    blkB B d (ix2 k j) = B (ix2 (kIdx d k) j) := by
  show B _ = B _
  refine congrArg B (funext fun a => Fin.ext ?_)
  match a with
  | ⟨0, _⟩ =>
    show d.val * 256 + k.val = (kIdx d k).val
    rw [kIdx_val]; omega
  | ⟨1, _⟩ => rfl

/-- Entry (r, j) of device `d`'s partial product. -/
def partOf (A : (⟨2, ![512, 8192]⟩ : Shape).Idx → EReal) (B : (⟨2, ![8192, 512]⟩ : Shape).Idx → EReal) (d : Fin 32)
    (r : Fin 512) (j : Fin 512) : EReal :=
  ∑ k : Fin 256, blkA A d (ix2 r k) * blkB B d (ix2 k j)

theorem partOf_eq (A : (⟨2, ![512, 8192]⟩ : Shape).Idx → EReal) (B : (⟨2, ![8192, 512]⟩ : Shape).Idx → EReal) (d : Fin 32)
    (r : Fin 512) (j : Fin 512) : partOf A B d r j = ∑ k : Fin 256, A (ix2 r (kIdx d k)) * B (ix2 (kIdx d k) j) :=
  Finset.sum_congr rfl fun k _ => by rw [blkA_apply, blkB_apply]

/-- Row `16 c + r` of the whole result: row `r` of device `c`'s block of it. -/
def outRow (c : Fin 32) (r : Fin 16) : Fin 512 := ⟨16 * c.val + r.val, by omega⟩

@[simp] theorem outRow_val (c : Fin 32) (r : Fin 16) : (outRow c r).val = 16 * c.val + r.val := rfl

/-- Entry (r, j) of device `c`'s block of the whole product. -/
theorem block_G_apply (A : (⟨2, ![512, 8192]⟩ : Shape).Idx → EReal) (B : (⟨2, ![8192, 512]⟩ : Shape).Idx → EReal)
    (c : Fin 32) (r : Fin 16) (j : Fin 512) :
    (Layout.block ⟨2, ![16, 512]⟩ ⟨2, ![512, 512]⟩ 0 32 c (G A B)) (ix2 r j)
      = ∑ κ : Fin 8192, A (ix2 (outRow c r) κ) * B (ix2 κ j) := by
  show ∑ κ : Fin 8192, A (ix2 _ κ) * B (ix2 κ _) = _
  refine Finset.sum_congr rfl fun κ _ => ?_
  refine congrArg₂ (· * ·) (congrArg A (funext fun a => Fin.ext ?_)) (congrArg B (funext fun a => Fin.ext ?_))
  · match a with
    | ⟨0, _⟩ =>
      show c.val * 16 + r.val = 16 * c.val + r.val
      omega
    | ⟨1, _⟩ => rfl
  · match a with
    | ⟨0, _⟩ => rfl
    | ⟨1, _⟩ => rfl

/-- The 32 partial products at row `16 c + r`, added in the order of the two exchanges as seen from device `c`,
    are entry (r, j) of device `c`'s block of `A · B`. -/
theorem kernel_order_eq (A : (⟨2, ![512, 8192]⟩ : Shape).Idx → EReal) (B : (⟨2, ![8192, 512]⟩ : Shape).Idx → EReal)
    (c : Fin 32) (r : Fin 16) (j : Fin 512) :
    (partOf A B (dev (planeOf c) (placeOf c)) (outRow c r) j
        + ∑ t : Fin 7, partOf A B (dev (planeOf c) (placeOf c - t.succ)) (outRow c r) j)
      + ∑ s : Fin 3, (partOf A B (dev (planeOf c - s.succ) (placeOf c)) (outRow c r) j
        + ∑ t : Fin 7, partOf A B (dev (planeOf c - s.succ) (placeOf c - t.succ)) (outRow c r) j)
      = (Layout.block ⟨2, ![16, 512]⟩ ⟨2, ![512, 512]⟩ 0 32 c (G A B)) (ix2 r j) := by
  rw [block_G_apply]
  simp only [partOf_eq]
  exact (sum_8192_rot (fun κ : Fin 8192 => A (ix2 (outRow c r) κ) * B (ix2 κ j)) (planeOf c) (placeOf c)).symm

/-- The same with the device's own term written at `c` itself. -/
theorem kernel_order_eq' (A : (⟨2, ![512, 8192]⟩ : Shape).Idx → EReal) (B : (⟨2, ![8192, 512]⟩ : Shape).Idx → EReal)
    (c : Fin 32) (r : Fin 16) (j : Fin 512) :
    (partOf A B c (outRow c r) j
        + ∑ t : Fin 7, partOf A B (dev (planeOf c) (placeOf c - t.succ)) (outRow c r) j)
      + ∑ s : Fin 3, (partOf A B (dev (planeOf c - s.succ) (placeOf c)) (outRow c r) j
        + ∑ t : Fin 7, partOf A B (dev (planeOf c - s.succ) (placeOf c - t.succ)) (outRow c r) j)
      = (Layout.block ⟨2, ![16, 512]⟩ ⟨2, ![512, 512]⟩ 0 32 c (G A B)) (ix2 r j) := by
  have h := kernel_order_eq A B c r j
  rw [dev_plane_place] at h
  exact h

end Cert.KernelIdeal.Hand

end

/-- info: 'Cert.KernelIdeal.Hand.kernel_order_eq'' depends on axioms: [propext, Classical.choice, Quot.sound] -/
#guard_msgs in #print axioms Cert.KernelIdeal.Hand.kernel_order_eq'
-- ==== Proof.ContentsIdeal.lean ====
/- At the extended reals: the buffer of rounded slices is ONE function of its index — position (q, z), row i,
   column j holds entry (16 (8 z + q) + i, j) of the device's partial product — and so each in-plane transfer
   carries, for every plane z, the rows of the sender's partial product that belong to the receiver's place. -/
import proofs.«900450_g7700000000000451_dist_matmul_mk_i_outk_m512_n512_k256_v7x_i32_f32_1_alg».proof.Proof.Contents
import proofs.«900450_g7700000000000451_dist_matmul_mk_i_outk_m512_n512_k256_v7x_i32_f32_1_alg».proof.Proof.PayIdx
import proofs.«900450_g7700000000000451_dist_matmul_mk_i_outk_m512_n512_k256_v7x_i32_f32_1_alg».proof.Proof.ValueEq

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem

/-- Row `16 (8 z + q) + i` of the partial product: row `i` of the slice for place `q` of plane `z`. -/
def sliceRow (q : Fin 8) (z : Fin 4) (i : Fin 16) : Fin 512 := ⟨16 * (8 * z.val + q.val) + i.val, by omega⟩

@[simp] theorem sliceRow_val (q : Fin 8) (z : Fin 4) (i : Fin 16) : (sliceRow q z i).val = 16 * (8 * z.val + q.val) + i.val := rfl

/-- The buffer of slices as one function of its index. -/
def p2bG (la : Vec Ideal S512x256 .f32) (lb : Vec Ideal S256x512 .f32) : S8x4x16x512.Idx → Ideal .bf16 :=
  fun y => Gen.k0_pay1 (F := Ideal) la lb (ix2 (sliceRow (y 0) (y 1) (y 2)) (y 3))

/-- A piece at position (q, z) whose payload is rows `o … o + 15` of the partial product, `o = 16 (8 z + q)`, is
    the block of that function its rectangle names. -/
theorem piece_ok (la : Vec Ideal S512x256 .f32) (lb : Vec Ideal S256x512 .f32) (q z : Nat) (hq : q < 8) (hz : z < 4)
    (inb : ∀ a, (![q, z, 0, 0] : Fin 4 → Nat) a + S1x1x16x512.size a ≤ S8x4x16x512.size a)
    (o : Nat) (ho : o + 16 ≤ 512) (hoe : o = 16 * (8 * z + q))
    (w : S1x1x16x512.Idx → Ideal .bf16)
    (hw : ∀ y : S1x1x16x512.Idx, w y = Gen.k0_pay1 (F := Ideal) la lb (ix2 (rowAt o ho (y 2)) (y 3))) :
    ∀ x : (Rect.unit (s := S8x4x16x512) ![q, z, 0, 0] S1x1x16x512.size inb).shape.Idx,
      w x = p2bG la lb ((Rect.unit (s := S8x4x16x512) ![q, z, 0, 0] S1x1x16x512.size inb).emb x) := by
  intro x
  rw [hw x]
  unfold p2bG
  refine congrArg (Gen.k0_pay1 (F := Ideal) la lb) (funext fun a => Fin.ext ?_)
  have h0 : (x 0).val < 1 := (x 0).isLt
  have h1 : (x 1).val < 1 := (x 1).isLt
  match a with
  | ⟨0, _⟩ =>
    show o + (x 2).val = 16 * (8 * (z + 1 * (x 1).val) + (q + 1 * (x 0).val)) + (0 + 1 * (x 2).val)
    omega
  | ⟨1, _⟩ =>
    show (x 3).val = 0 + 1 * (x 3).val
    omega

/-- Every one of the 32 stored pieces is the block of that one function its rectangle names. -/
theorem p2bL_pieces (la : Vec Ideal S512x256 .f32) (lb : Vec Ideal S256x512 .f32) :
    ∀ p ∈ p2bL (F := Ideal) la lb, ∀ x : p.1.shape.Idx, p.2 x = p2bG la lb (p.1.emb x) := by
  unfold p2bL
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact piece_ok la lb 7 3 (by decide) (by decide) _ 496 (by decide) rfl _ (fun y => pay39_idx _ y)
  · exact piece_ok la lb 6 3 (by decide) (by decide) _ 480 (by decide) rfl _ (fun y => pay38_idx _ y)
  · exact piece_ok la lb 5 3 (by decide) (by decide) _ 464 (by decide) rfl _ (fun y => pay37_idx _ y)
  · exact piece_ok la lb 4 3 (by decide) (by decide) _ 448 (by decide) rfl _ (fun y => pay36_idx _ y)
  · exact piece_ok la lb 3 3 (by decide) (by decide) _ 432 (by decide) rfl _ (fun y => pay35_idx _ y)
  · exact piece_ok la lb 2 3 (by decide) (by decide) _ 416 (by decide) rfl _ (fun y => (pay34_idx _ y).trans (pay33_apply _ (y 2) (y 3)))
  · exact piece_ok la lb 1 3 (by decide) (by decide) _ 400 (by decide) rfl _ (fun y => pay32_idx _ y)
  · exact piece_ok la lb 0 3 (by decide) (by decide) _ 384 (by decide) rfl _ (fun y => pay31_idx _ y)
  · exact piece_ok la lb 7 2 (by decide) (by decide) _ 368 (by decide) rfl _ (fun y => pay30_idx _ y)
  · exact piece_ok la lb 6 2 (by decide) (by decide) _ 352 (by decide) rfl _ (fun y => pay29_idx _ y)
  · exact piece_ok la lb 5 2 (by decide) (by decide) _ 336 (by decide) rfl _ (fun y => pay28_idx _ y)
  · exact piece_ok la lb 4 2 (by decide) (by decide) _ 320 (by decide) rfl _ (fun y => (pay27_idx _ y).trans (pay26_apply _ (y 2) (y 3)))
  · exact piece_ok la lb 3 2 (by decide) (by decide) _ 304 (by decide) rfl _ (fun y => pay25_idx _ y)
  · exact piece_ok la lb 2 2 (by decide) (by decide) _ 288 (by decide) rfl _ (fun y => pay24_idx _ y)
  · exact piece_ok la lb 1 2 (by decide) (by decide) _ 272 (by decide) rfl _ (fun y => pay23_idx _ y)
  · exact piece_ok la lb 0 2 (by decide) (by decide) _ 256 (by decide) rfl _ (fun y => pay22_idx _ y)
  · exact piece_ok la lb 7 1 (by decide) (by decide) _ 240 (by decide) rfl _ (fun y => pay21_idx _ y)
  · exact piece_ok la lb 6 1 (by decide) (by decide) _ 224 (by decide) rfl _ (fun y => (pay20_idx _ y).trans (pay19_apply _ (y 2) (y 3)))
  · exact piece_ok la lb 5 1 (by decide) (by decide) _ 208 (by decide) rfl _ (fun y => pay18_idx _ y)
  · exact piece_ok la lb 4 1 (by decide) (by decide) _ 192 (by decide) rfl _ (fun y => pay17_idx _ y)
  · exact piece_ok la lb 3 1 (by decide) (by decide) _ 176 (by decide) rfl _ (fun y => pay16_idx _ y)
  · exact piece_ok la lb 2 1 (by decide) (by decide) _ 160 (by decide) rfl _ (fun y => pay15_idx _ y)
  · exact piece_ok la lb 1 1 (by decide) (by decide) _ 144 (by decide) rfl _ (fun y => pay14_idx _ y)
  · exact piece_ok la lb 0 1 (by decide) (by decide) _ 128 (by decide) rfl _ (fun y => (pay13_idx _ y).trans (pay12_apply _ (y 2) (y 3)))
  · exact piece_ok la lb 7 0 (by decide) (by decide) _ 112 (by decide) rfl _ (fun y => pay11_idx _ y)
  · exact piece_ok la lb 6 0 (by decide) (by decide) _ 96 (by decide) rfl _ (fun y => pay10_idx _ y)
  · exact piece_ok la lb 5 0 (by decide) (by decide) _ 80 (by decide) rfl _ (fun y => pay9_idx _ y)
  · exact piece_ok la lb 4 0 (by decide) (by decide) _ 64 (by decide) rfl _ (fun y => pay8_idx _ y)
  · exact piece_ok la lb 3 0 (by decide) (by decide) _ 48 (by decide) rfl _ (fun y => pay7_idx _ y)
  · exact piece_ok la lb 2 0 (by decide) (by decide) _ 32 (by decide) rfl _ (fun y => (pay6_idx _ y).trans (pay5_apply la lb (y 2) (y 3)))
  · exact piece_ok la lb 1 0 (by decide) (by decide) _ 16 (by decide) rfl _ (fun y => pay4_idx la lb y)
  · exact piece_ok la lb 0 0 (by decide) (by decide) _ 0 (by decide) rfl _ (fun y => pay3_idx la lb y)

/-! ## What an in-plane transfer carries -/

/-- The place of a device in its plane. -/
def placeD (x : Dev nD) : Fin 8 := ⟨x.val % 8, Nat.mod_lt _ (by decide)⟩
/-- The plane of a device. -/
def planeD (x : Dev nD) : Fin 4 := ⟨x.val / 8, by have : x.val < 32 := x.isLt; omega⟩

@[simp] theorem placeD_val (x : Dev nD) : (placeD x).val = x.val % 8 := rfl
@[simp] theorem planeD_val (x : Dev nD) : (planeD x).val = x.val / 8 := rfl

/-- Where entry (z, i, j) of the four slices device `p` sends with transfer `r` sits in `p`'s buffer: position
    `((p % 8 + r + 1) % 8, z)`, row `i`, column `j`. -/
theorem src_emb_val (p : Dev nD) (r : Fin 7) (h : S4x16x512.numel = (⟨4, S1x4x16x512.size⟩ : Shape).numel)
    (z : Fin 4) (i : Fin 16) (j : Fin 512) (a : Fin 4) :
    ((Rect.unit (s := S8x4x16x512) (k0_off1 p (BitVec.ofNat 32 (1 + r.val))) S1x4x16x512.size (k0_off1_inb p r)).emb
        (Shape.reshapeEquiv h (ix3 z i j)) a).val
      = (ix4 (⟨((p.val % 8) + r.val + 1) % 8, Nat.mod_lt _ (by decide)⟩ : Fin 8) z i j a).val := by
  have hre : Shape.reshapeEquiv h (ix3 z i j) = ix4 (⟨0, Nat.one_pos⟩ : Fin 1) z i j := reshapeEquiv_ix3_1abc h z i j
  rw [Rect.emb_apply, hre]
  show k0_off1 p (BitVec.ofNat 32 (1 + r.val)) a + 1 * (ix4 (⟨0, Nat.one_pos⟩ : Fin 1) z i j a).val = _
  rw [k0_off1_eq p r]
  match a with
  | ⟨0, _⟩ =>
    show ((p.val % 8) + r.val + 1) % 8 + 1 * 0 = ((p.val % 8) + r.val + 1) % 8
    omega
  | ⟨1, _⟩ =>
    show 0 + 1 * z.val = z.val
    omega
  | ⟨2, _⟩ =>
    show 0 + 1 * i.val = i.val
    omega
  | ⟨3, _⟩ =>
    show 0 + 1 * j.val = j.val
    omega

variable (m : (ℓ : Loc nD τ sig) → Buf (Elt Ideal) ℓ) (ρ : Dev nD → PrngReg)

/-- Slot `r + 1` of device `x`'s in-plane receive buffer holds, at (z, i, j), entry `(16 (8 z + x % 8) + i, j)` of the
    partial product of the sender, the device `7 - r` places on from `x`. -/
theorem v1Of_apply (x : Dev nD) (r : Fin 7) (z : Fin 4) (i : Fin 16) (j : Fin 512) :
    v1Of (F := Ideal) m ρ x r (ix3 z i j)
      = Gen.k0_pay1 (F := Ideal) (laOf (aC m ρ (rotq x (7 - r.val)))) (lbOf (bC m ρ (rotq x (7 - r.val))))
          (ix2 (sliceRow (placeD x) z i) j) := by
  unfold v1Of srcV
  show (Memref.whole cc0_scratch1 : Memref sig .tc .vmem S8x4x16x512 .bf16).view.read (Elt Ideal) _
      ((Rect.unit (s := S8x4x16x512) (k0_off1 (rotq x (7 - r.val)) (BitVec.ofNat 32 (1 + r.val))) S1x4x16x512.size
        (k0_off1_inb (rotq x (7 - r.val)) r)).emb (Shape.reshapeEquiv squeezes_S1x4x16x512_S4x16x512.numel_eq (ix3 z i j))) = _
  rw [View.read_writes_junk_apply_eq_canon,
    View.canon_apply_of_pieces (p2bG _ _) _ (p2bL_pieces _ _) _ (p2bL_cover _ _ _)]
  unfold p2bG
  refine congrArg (Gen.k0_pay1 (F := Ideal) _ _) (funext fun a => Fin.ext ?_)
  have e0 := src_emb_val (rotq x (7 - r.val)) r squeezes_S1x4x16x512_S4x16x512.numel_eq z i j 0
  have e1 := src_emb_val (rotq x (7 - r.val)) r squeezes_S1x4x16x512_S4x16x512.numel_eq z i j 1
  have e2 := src_emb_val (rotq x (7 - r.val)) r squeezes_S1x4x16x512_S4x16x512.numel_eq z i j 2
  have e3 := src_emb_val (rotq x (7 - r.val)) r squeezes_S1x4x16x512_S4x16x512.numel_eq z i j 3
  have hx : x.val < 32 := x.isLt
  have hr : r.val < 7 := r.isLt
  have hp : (rotq x (7 - r.val)).val = 8 * (x.val / 8) + ((x.val % 8) + (7 - r.val)) % 8 := rfl
  match a with
  | ⟨0, _⟩ =>
    show 16 * (8 * _ + _) + _ = 16 * (8 * z.val + x.val % 8) + i.val
    rw [e0, e1, e2]
    show 16 * (8 * z.val + (((rotq x (7 - r.val)).val % 8) + r.val + 1) % 8) + i.val = _
    rw [hp]; omega
  | ⟨1, _⟩ =>
    exact e3

/-- The same in terms of the whole arrays, once the staged blocks are known to be the devices' blocks of them. -/
theorem v1Of_part (A : (⟨2, ![512, 8192]⟩ : Shape).Idx → EReal) (B : (⟨2, ![8192, 512]⟩ : Shape).Idx → EReal)
    (hA : ∀ d : Dev nD, laOf (aC m ρ d) = blkA A d) (hB : ∀ d : Dev nD, lbOf (bC m ρ d) = blkB B d)
    (x : Dev nD) (r : Fin 7) (z : Fin 4) (i : Fin 16) (j : Fin 512) :
    v1Of (F := Ideal) m ρ x r (ix3 z i j) = partOf A B (rotq x (7 - r.val)) (sliceRow (placeD x) z i) j := by
  rw [v1Of_apply, hA, hB]
  exact pay1_apply _ _ _ _

/-- The sender of slot `t + 1`, in the language of planes and places. -/
theorem rotq_eq_dev (c : Dev nD) (t : Fin 7) : rotq c (7 - t.val) = dev (planeOf c) (placeOf c - t.succ) := by
  apply Fin.ext
  have hc : c.val < 32 := c.isLt
  have ht : t.val < 7 := t.isLt
  show 8 * (c.val / 8) + ((c.val % 8) + (7 - t.val)) % 8 = (dev (planeOf c) (placeOf c - t.succ)).val
  rw [dev_val, place_sub_val, planeOf_val, placeOf_val]
  omega

/-- The row of the slice for place `c % 8` of plane `c / 8` is row `16 c + i`. -/
theorem sliceRow_self (c : Dev nD) (i : Fin 16) : sliceRow (placeD c) (planeD c) i = outRow c i := by
  apply Fin.ext
  have hc : c.val < 32 := c.isLt
  show 16 * (8 * (c.val / 8) + c.val % 8) + i.val = 16 * c.val + i.val
  omega

end Cert.KernelIdeal.Hand

end

/-- info: 'Cert.KernelIdeal.Hand.p2bL_pieces' depends on axioms: [propext, Classical.choice, Quot.sound] -/
#guard_msgs in #print axioms Cert.KernelIdeal.Hand.p2bL_pieces

/-- info: 'Cert.KernelIdeal.Hand.v1Of_apply' depends on axioms: [propext, Classical.choice, Quot.sound] -/
#guard_msgs in #print axioms Cert.KernelIdeal.Hand.v1Of_apply

/-- info: 'Cert.KernelIdeal.Hand.v1Of_part' depends on axioms: [propext, Classical.choice, Quot.sound] -/
#guard_msgs in #print axioms Cert.KernelIdeal.Hand.v1Of_part
-- ==== Proof.OutEq.lean ====
/- The two exchanges as sums of partial products. After the in-plane exchange device x holds, for each plane z,
   the sum over the 8 devices of its own plane of their partial products' rows for (place of x, plane z); after the
   cross-plane exchange device c adds to its own such sum for its own plane the three it receives from the devices
   at its place in the other planes. That total is device c's block of A · B. -/
import proofs.«900450_g7700000000000451_dist_matmul_mk_i_outk_m512_n512_k256_v7x_i32_f32_1_alg».proof.Proof.ContentsIdeal

set_option maxRecDepth 16384

noncomputable section

namespace Cert.KernelIdeal.Hand

open Cert.KernelIdeal Cert.KernelIdeal.Gen
open Idealize.ShloMosaic Idealize.ShloMosaic.ValueIdx
open Cert.ReferenceIdeal.RefValue

/-- Entry (z, i, j) of what device `x` holds after the in-plane exchange: its own rows for (its place, plane z)
    plus those of the seven other devices of its plane, in the order of the receive slots. -/
def accOf (A : (⟨2, ![512, 8192]⟩ : Shape).Idx → EReal) (B : (⟨2, ![8192, 512]⟩ : Shape).Idx → EReal)
    (x : Dev nD) (z : Fin 4) (i : Fin 16) (j : Fin 512) : EReal :=
  partOf A B x (sliceRow (placeD x) z i) j + ∑ t : Fin 7, partOf A B (rotq x (7 - t.val)) (sliceRow (placeD x) z i) j

/-- Entry (i, j) of what device `c` stores: its own sum for its own plane plus the three received. -/
def outOf (A : (⟨2, ![512, 8192]⟩ : Shape).Idx → EReal) (B : (⟨2, ![8192, 512]⟩ : Shape).Idx → EReal)
    (c : Dev nD) (i : Fin 16) (j : Fin 512) : EReal :=
  accOf A B c (planeD c) i j + ∑ s : Fin 3, accOf A B (rotz c (3 - s.val)) (planeD c) i j

theorem rotz_eq_dev (c : Dev nD) (s : Fin 3) : rotz c (3 - s.val) = dev (planeOf c - s.succ) (placeOf c) := by
  apply Fin.ext
  have hc : c.val < 32 := c.isLt
  have hs : s.val < 3 := s.isLt
  show 8 * (((c.val / 8) + (3 - s.val)) % 4) + c.val % 8 = (dev (planeOf c - s.succ) (placeOf c)).val
  rw [dev_val, plane_sub_val, planeOf_val, placeOf_val]
  omega

theorem rotq_rotz_eq_dev (c : Dev nD) (s : Fin 3) (t : Fin 7) :
    rotq (rotz c (3 - s.val)) (7 - t.val) = dev (planeOf c - s.succ) (placeOf c - t.succ) := by
  apply Fin.ext
  have hc : c.val < 32 := c.isLt
  have hs : s.val < 3 := s.isLt
  have ht : t.val < 7 := t.isLt
  show 8 * ((8 * (((c.val / 8) + (3 - s.val)) % 4) + c.val % 8) / 8)
      + (((8 * (((c.val / 8) + (3 - s.val)) % 4) + c.val % 8) % 8) + (7 - t.val)) % 8
    = (dev (planeOf c - s.succ) (placeOf c - t.succ)).val
  rw [dev_val, plane_sub_val, place_sub_val, planeOf_val, placeOf_val]
  omega

theorem placeD_rotz (c : Dev nD) (k : ℕ) : placeD (rotz c k) = placeD c := by
  apply Fin.ext
  show (8 * (((c.val / 8) + k) % 4) + c.val % 8) % 8 = c.val % 8
  omega

/-- What device `c` stores is its block of the whole product. -/
theorem outOf_eq (A : (⟨2, ![512, 8192]⟩ : Shape).Idx → EReal) (B : (⟨2, ![8192, 512]⟩ : Shape).Idx → EReal)
    (c : Dev nD) (i : Fin 16) (j : Fin 512) :
    outOf A B c i j = (Layout.block ⟨2, ![16, 512]⟩ ⟨2, ![512, 512]⟩ 0 32 c (G A B)) (ix2 i j) := by
  rw [← kernel_order_eq' A B c i j]
  unfold outOf accOf
  simp only [placeD_rotz, rotq_rotz_eq_dev]
  simp only [sliceRow_self, rotq_eq_dev, rotz_eq_dev]

end Cert.KernelIdeal.Hand

end

/-- info: 'Cert.KernelIdeal.Hand.outOf_eq' depends on axioms: [propext, Classical.choice, Quot.sound] -/
#guard_msgs in #print axioms Cert.KernelIdeal.Hand.outOf_eq
-- ==== Proof.KOfIdeal.lean ====
/- At the extended reals: the promised values are the sums of partial products they should be, and each device's
   result block is its block of the product of the two whole arrays the devices' blocks were cut from. -/
import proofs.«900450_g7700000000000451_dist_matmul_mk_i_outk_m512_n512_k256_v7x_i32_f32_1_alg».proof.Proof.KOf
import proofs.«900450_g7700000000000451_dist_matmul_mk_i_outk_m512_n512_k256_v7x_i32_f32_1_alg».proof.Proof.OutEq

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem
open Cert.ReferenceIdeal.RefValue

attribute [local irreducible] v1Of

/-! ## One store of a whole buffer, read back -/

/-- The piece of a store through the zero-offset rectangle of the buffer's own sizes is the payload itself. -/
theorem single_whole_pieces {s : Shape} {e : EltTy} {off : Fin s.rank → Nat} (hz : off = fun _ => 0)
    (inb : ∀ a, off a + s.size a ≤ s.size a) (w : s.Idx → Elt Ideal e) :
    ∀ p ∈ [(⟨Rect.unit off s.size inb, w⟩ : View.Piece (Elt Ideal) s e)], ∀ x : p.1.shape.Idx, p.2 x = w (p.1.emb x) := by
  intro p hp x
  obtain rfl := List.mem_singleton.1 hp
  subst hz
  exact congrArg w (funext fun a => Fin.ext (by
    show (x a).val = 0 + 1 * (x a).val
    omega))

/-- So after that one store every read sees the payload, whatever the buffer held. -/
theorem read_single_whole {κ : Kind} {sp : Space} {s : Shape} {e : EltTy} (v : View sig κ sp s e) {off : Fin s.rank → Nat}
    (hz : off = fun _ => 0) (inb : ∀ a, off a + s.size a ≤ s.size a) (w : s.Idx → Elt Ideal e)
    (f : v.ty.Contents (Elt Ideal)) (y : s.Idx) :
    v.read (Elt Ideal) (v.writes (Elt Ideal) f [⟨Rect.unit off s.size inb, w⟩]) y = w y :=
  (View.read_writes_apply_eq_canon v f y _ ⟨_, List.mem_singleton.2 rfl, View.mem_set_unit_zero hz inb y⟩).trans
    (View.canon_apply_of_pieces w _ (single_whole_pieces hz inb w) y ⟨_, List.mem_singleton.2 rfl, View.mem_set_unit_zero hz inb y⟩)

/-! ## The own blocks -/

/-- A 16-row block of the partial product read back at rows `128 z + 16 (c % 8) …`: at (i, j) it is entry
    `(16 (8 z + c % 8) + i, j)` of the device's partial product. -/
theorem ownW_apply (c : Dev nD) (la : Vec Ideal S512x256 .f32) (lb : Vec Ideal S256x512 .f32)
    (f0 : (Memref.whole cc0_scratch0 : Memref sig .tc .vmem S512x512 .f32).view.ty.Contents (Elt Ideal)) (w : BitVec 32) (inb : ∀ a, k0_off2 c w a + S16x512.size a ≤ S512x512.size a)
    (z : Fin 4) (hw : k0_off2 c w = ![128 * z.val + 16 * (c.val % 8), 0]) (i : Fin 16) (j : Fin 512) :
    View.readAt (Elt Ideal) (Memref.whole cc0_scratch0 : Memref sig .tc .vmem S512x512 .f32).view (Rect.unit (s := S512x512) (k0_off2 c w) S16x512.size inb).toLoadRect
        ((Memref.whole cc0_scratch0 : Memref sig .tc .vmem S512x512 .f32).view.writes (Elt Ideal) f0 (partL la lb)) (ix2 i j)
      = Gen.k0_pay1 (F := Ideal) la lb (ix2 (sliceRow (placeD c) z i) j) := by
  unfold partL
  rw [View.readAt_apply]
  refine (read_single_whole (s := S512x512) (Memref.whole cc0_scratch0 : Memref sig .tc .vmem S512x512 .f32).view hz2
    inb_S512x512_S512x512_0_0 (Gen.k0_pay2 (F := Ideal) la lb) f0 _).trans ?_
  rw [pay2_eq]
  refine congrArg (Gen.k0_pay1 (F := Ideal) la lb) (funext fun a => Fin.ext ?_)
  match a with
  | ⟨0, _⟩ =>
    show k0_off2 c w 0 + 1 * i.val = 16 * (8 * z.val + c.val % 8) + i.val
    rw [hw]
    show (128 * z.val + 16 * (c.val % 8)) + 1 * i.val = _
    omega
  | ⟨1, _⟩ =>
    show k0_off2 c w 1 + 1 * j.val = j.val
    rw [hw]
    show 0 + 1 * j.val = j.val
    omega

section
variable (c : Dev nD) (la : Vec Ideal S512x256 .f32) (lb : Vec Ideal S256x512 .f32)
  (f0 : (Memref.whole cc0_scratch0 : Memref sig .tc .vmem S512x512 .f32).view.ty.Contents (Elt Ideal)) (i : Fin 16) (j : Fin 512)

theorem own0_apply : own0 c la lb f0 (ix2 i j) = Gen.k0_pay1 (F := Ideal) la lb (ix2 (sliceRow (placeD c) 0 i) j) := by
  unfold own0
  exact ownW_apply c la lb f0 0#32 (k0_off2_inb c 0) 0 (k0_off2_eq c 0) i j
theorem own1_apply : own1 c la lb f0 (ix2 i j) = Gen.k0_pay1 (F := Ideal) la lb (ix2 (sliceRow (placeD c) 1 i) j) := by
  unfold own1
  exact ownW_apply c la lb f0 128#32 (k0_off2_inb c 1) 1 (k0_off2_eq c 1) i j
theorem own2_apply : own2 c la lb f0 (ix2 i j) = Gen.k0_pay1 (F := Ideal) la lb (ix2 (sliceRow (placeD c) 2 i) j) := by
  unfold own2
  exact ownW_apply c la lb f0 256#32 (k0_off2_inb c 2) 2 (k0_off2_eq c 2) i j
theorem own3_apply : own3 c la lb f0 (ix2 i j) = Gen.k0_pay1 (F := Ideal) la lb (ix2 (sliceRow (placeD c) 3 i) j) := by
  unfold own3
  exact ownW_apply c la lb f0 384#32 (k0_off2_inb c 3) 3 (k0_off2_eq c 3) i j
end

variable (m : (ℓ : Loc nD τ sig) → Buf (Elt Ideal) ℓ) (ρ : Dev nD → PrngReg)
variable (A : (⟨2, ![512, 8192]⟩ : Shape).Idx → EReal) (B : (⟨2, ![8192, 512]⟩ : Shape).Idx → EReal)

/-! ## The in-plane sum -/

attribute [local irreducible] own0 own1 own2 own3

/-- The in-plane sum of device `c` at (z, i, j), whatever its partial-product buffer held before. -/
theorem pay40_acc (hA : ∀ d : Dev nD, laOf (aC m ρ d) = blkA A d) (hB : ∀ d : Dev nD, lbOf (bC m ρ d) = blkB B d)
    (c : Dev nD) (f0 : (Memref.whole cc0_scratch0 : Memref sig .tc .vmem S512x512 .f32).view.ty.Contents (Elt Ideal)) (z : Fin 4) (i : Fin 16) (j : Fin 512) :
    Gen.k0_pay40 (F := Ideal) (own0 c (laOf (aC m ρ c)) (lbOf (bC m ρ c)) f0) (own1 c (laOf (aC m ρ c)) (lbOf (bC m ρ c)) f0)
        (own2 c (laOf (aC m ρ c)) (lbOf (bC m ρ c)) f0) (own3 c (laOf (aC m ρ c)) (lbOf (bC m ρ c)) f0)
        (joinV1 (v1Of m ρ c)) (ix3 z i j)
      = accOf A B c z i j := by
  rw [pay40_apply]
  unfold accOf
  refine congrArg₂ (· + ·) ?_ (Finset.sum_congr rfl fun t _ => v1Of_part m ρ A B hA hB c t z i j)
  have hp : ∀ z' : Fin 4, Gen.k0_pay1 (F := Ideal) (laOf (aC m ρ c)) (lbOf (bC m ρ c)) (ix2 (sliceRow (placeD c) z' i) j)
      = partOf A B c (sliceRow (placeD c) z' i) j := fun z' => by
    rw [hA c, hB c]
    exact pay1_apply _ _ _ _
  match z with
  | ⟨0, _⟩ =>
    show own0 c (laOf (aC m ρ c)) (lbOf (bC m ρ c)) f0 (ix2 i j) = partOf A B c (sliceRow (placeD c) 0 i) j
    exact (own0_apply c _ _ f0 i j).trans (hp 0)
  | ⟨1, _⟩ =>
    show own1 c (laOf (aC m ρ c)) (lbOf (bC m ρ c)) f0 (ix2 i j) = partOf A B c (sliceRow (placeD c) 1 i) j
    exact (own1_apply c _ _ f0 i j).trans (hp 1)
  | ⟨2, _⟩ =>
    show own2 c (laOf (aC m ρ c)) (lbOf (bC m ρ c)) f0 (ix2 i j) = partOf A B c (sliceRow (placeD c) 2 i) j
    exact (own2_apply c _ _ f0 i j).trans (hp 2)
  | ⟨3, _⟩ =>
    show own3 c (laOf (aC m ρ c)) (lbOf (bC m ρ c)) f0 (ix2 i j) = partOf A B c (sliceRow (placeD c) 3 i) j
    exact (own3_apply c _ _ f0 i j).trans (hp 3)

/-! ## What a cross-plane transfer carries -/

/-- Where entry (i, j) of the slice device `p` sends with its cross-plane transfer `s` sits in its buffer of sums:
    plane `(p / 8 + s + 1) % 4`. -/
theorem src2_emb_val (p : Dev nD) (s : Fin 3) (h : S16x512.numel = (⟨3, S1x16x512.size⟩ : Shape).numel)
    (i : Fin 16) (j : Fin 512) (a : Fin 3) :
    ((Rect.unit (s := S4x16x512) (k0_off3 p (BitVec.ofNat 32 (1 + s.val))) S1x16x512.size (k0_off3_inb p s)).emb
        (Shape.reshapeEquiv h (ix2 i j)) a).val
      = (ix3 (⟨((p.val / 8) + s.val + 1) % 4, Nat.mod_lt _ (by decide)⟩ : Fin 4) i j a).val := by
  have hre : Shape.reshapeEquiv h (ix2 i j) = ix3 (⟨0, Nat.one_pos⟩ : Fin 1) i j := reshapeEquiv_ix2_1ab h i j
  rw [Rect.emb_apply, hre]
  show k0_off3 p (BitVec.ofNat 32 (1 + s.val)) a + 1 * (ix3 (⟨0, Nat.one_pos⟩ : Fin 1) i j a).val = _
  rw [k0_off3_eq p s]
  match a with
  | ⟨0, _⟩ =>
    show ((p.val / 8) + s.val + 1) % 4 + 1 * 0 = ((p.val / 8) + s.val + 1) % 4
    omega
  | ⟨1, _⟩ =>
    show 0 + 1 * i.val = i.val
    omega
  | ⟨2, _⟩ =>
    show 0 + 1 * j.val = j.val
    omega

/-- Slot `s + 1` of device `x`'s cross-plane receive buffer holds, at (i, j), the in-plane sum for `x`'s plane of
    the sender, the device at `x`'s place `3 - s` planes on. -/
theorem v2Of_apply (hA : ∀ d : Dev nD, laOf (aC m ρ d) = blkA A d) (hB : ∀ d : Dev nD, lbOf (bC m ρ d) = blkB B d)
    (x : Dev nD) (s : Fin 3) (i : Fin 16) (j : Fin 512) :
    v2Of (F := Ideal) m ρ x s (ix2 i j) = accOf A B (rotz x (3 - s.val)) (planeD x) i j := by
  unfold v2Of src2V acc2Lv
  show (Memref.whole cc0_scratch4 : Memref sig .tc .vmem S4x16x512 .bf16).view.read (Elt Ideal) _
      ((Rect.unit (s := S4x16x512) (k0_off3 (rotz x (3 - s.val)) (BitVec.ofNat 32 (1 + s.val))) S1x16x512.size
        (k0_off3_inb (rotz x (3 - s.val)) s)).emb (Shape.reshapeEquiv squeezes_S1x16x512_S16x512.numel_eq (ix2 i j))) = _
  refine (read_single_whole (s := S4x16x512) (Memref.whole cc0_scratch4 : Memref sig .tc .vmem S4x16x512 .bf16).view hz3
    inb_S4x16x512_S4x16x512_0_0_0 _ _ _).trans ?_
  refine (pay42_apply _ _ _ _ _ _).trans ?_
  have hidx : (Rect.unit (s := S4x16x512) (k0_off3 (rotz x (3 - s.val)) (BitVec.ofNat 32 (1 + s.val))) S1x16x512.size
        (k0_off3_inb (rotz x (3 - s.val)) s)).emb (Shape.reshapeEquiv squeezes_S1x16x512_S16x512.numel_eq (ix2 i j))
      = ix3 (planeD x) i j := funext fun a => Fin.ext (by
    rw [src2_emb_val]
    have hx : x.val < 32 := x.isLt
    have hs : s.val < 3 := s.isLt
    have hp : (rotz x (3 - s.val)).val = 8 * (((x.val / 8) + (3 - s.val)) % 4) + x.val % 8 := rfl
    match a with
    | ⟨0, _⟩ =>
      show (((rotz x (3 - s.val)).val / 8) + s.val + 1) % 4 = x.val / 8
      rw [hp]; omega
    | ⟨1, _⟩ => rfl
    | ⟨2, _⟩ => rfl)
  rw [hidx]
  exact pay40_acc m ρ A B hA hB (rotz x (3 - s.val)) _ (planeD x) i j

/-! ## The result -/

/-- The own plane's slice of the in-plane sum, read back, at (0, i, j). -/
theorem accLoadv_apply (hA : ∀ d : Dev nD, laOf (aC m ρ d) = blkA A d) (hB : ∀ d : Dev nD, lbOf (bC m ρ d) = blkB B d)
    (c : Dev nD) (f0 : (Memref.whole cc0_scratch0 : Memref sig .tc .vmem S512x512 .f32).view.ty.Contents (Elt Ideal)) (f1 : (Memref.whole cc0_scratch3 : Memref sig .tc .vmem S4x16x512 .f32).view.ty.Contents (Elt Ideal))
    (u : Fin 1) (i : Fin 16) (j : Fin 512) :
    accLoadv c (laOf (aC m ρ c)) (lbOf (bC m ρ c)) f0 (joinV1 (v1Of m ρ c)) f1 (ix3 u i j) = accOf A B c (planeD c) i j := by
  unfold accLoadv acc1Lv
  rw [View.readAt_apply]
  refine (read_single_whole (s := S4x16x512) (Memref.whole cc0_scratch3 : Memref sig .tc .vmem S4x16x512 .f32).view hz3
    inb_S4x16x512_S4x16x512_0_0_0 _ f1 _).trans ?_
  rw [pay41_eq]
  have hidx : (Rect.unit (s := S4x16x512) (k0_off4 c) S1x16x512.size (k0_off4_inb c)).toLoadRect.idx (ix3 u i j)
      = ix3 (planeD c) i j := funext fun a => Fin.ext (by
    have hu : u.val = 0 := by omega
    show k0_off4 c a + 1 * (ix3 u i j a).val = (ix3 (planeD c) i j a).val
    rw [k0_off4_eq c]
    match a with
    | ⟨0, _⟩ =>
      show c.val / 8 + 1 * u.val = c.val / 8
      omega
    | ⟨1, _⟩ =>
      show 0 + 1 * i.val = i.val
      omega
    | ⟨2, _⟩ =>
      show 0 + 1 * j.val = j.val
      omega)
  rw [hidx]
  exact pay40_acc m ρ A B hA hB c f0 (planeD c) i j

/-- Device `c`'s result block at (i, j). -/
theorem outK_apply (hA : ∀ d : Dev nD, laOf (aC m ρ d) = blkA A d) (hB : ∀ d : Dev nD, lbOf (bC m ρ d) = blkB B d)
    (c : Dev nD) (i : Fin 16) (j : Fin 512) :
    outK (F := Ideal) m ρ c (ix2 i j) = outOf A B c i j := by
  unfold outK outLv
  rw [show (Memref.whole cc0_stg2_0 : Memref sig .tc .vmem S16x512 .f32).view.writes (Elt Ideal) (Memref.whole cc0_stg2_0 : Memref sig .tc .vmem S16x512 .f32).view.junk
        [⟨Rect.unit (s := S16x512) ![0, 0] S16x512.size inb_S16x512_S16x512_0_0, _⟩] = _ from
      Memref.write_access_unit_zero_univ (Elt Ideal) cc0_stg2_0 hz2 inb_S16x512_S16x512_0_0 _ _]
  refine (pay43_apply _ _ i j).trans ?_
  unfold outOf
  exact congrArg₂ (· + ·) (accLoadv_apply m ρ A B hA hB c _ _ 0 i j)
    (Finset.sum_congr rfl fun s _ => v2Of_apply m ρ A B hA hB c s i j)

/-! ## The staged blocks are the devices' blocks of the whole arrays -/

/-- What the body loads of `A` is the device's argument buffer: the window's one block is the whole buffer. -/
theorem laOf_aC (d : Dev nD) : laOf (aC m ρ d) = m ((d : Thread nD τ).loc main_arg0) := by
  unfold laOf aC
  refine (Memref.readAt_unit_zero (Elt Ideal) cc0_stg0_0 hz2 inb_S512x256_S512x256_0_0 _).trans ?_
  exact Memref.read_access_unit_zero (Elt Ideal) main_arg0 (funext fun a => by
    match a with
    | ⟨0, _⟩ => rfl
    | ⟨1, _⟩ => rfl) _ _

theorem lbOf_bC (d : Dev nD) : lbOf (bC m ρ d) = m ((d : Thread nD τ).loc main_arg1) := by
  unfold lbOf bC
  refine (Memref.readAt_unit_zero (Elt Ideal) cc0_stg1_0 hz2 inb_S256x512_S256x512_0_0 _).trans ?_
  exact Memref.read_access_unit_zero (Elt Ideal) main_arg1 (funext fun a => by
    match a with
    | ⟨0, _⟩ => rfl
    | ⟨1, _⟩ => rfl) _ _

/-- From launch memories where each device's argument buffers hold its blocks of `A` and `B`, each device's
    promised result block is its block of `A · B`. -/
theorem out_eq_block
    (hagree : ∀ c : Dev nD,
      m ((c : Thread nD τ).loc main_arg0) = Layout.block ⟨2, ![512, 256]⟩ ⟨2, ![512, 8192]⟩ 1 32 c A
      ∧ m ((c : Thread nD τ).loc main_arg1) = Layout.block ⟨2, ![256, 512]⟩ ⟨2, ![8192, 512]⟩ 0 32 c B)
    (c : Dev nD) :
    (KOf (F := Ideal) m ρ).out c = Layout.block ⟨2, ![16, 512]⟩ ⟨2, ![512, 512]⟩ 0 32 c (G A B) := by
  have hA : ∀ d : Dev nD, laOf (aC m ρ d) = blkA A d := fun d => (laOf_aC m ρ d).trans (hagree d).1
  have hB : ∀ d : Dev nD, lbOf (bC m ρ d) = blkB B d := fun d => (lbOf_bC m ρ d).trans (hagree d).2
  rw [KOf_out]
  funext y
  refine (congrArg (outK (F := Ideal) m ρ c) (eq_ix2 y)).trans ?_
  refine (outK_apply m ρ A B hA hB c (y 0) (y 1)).trans ?_
  refine (outOf_eq A B c (y 0) (y 1)).trans ?_
  exact (congrArg (Layout.block ⟨2, ![16, 512]⟩ ⟨2, ![512, 512]⟩ 0 32 c (G A B)) (eq_ix2 y)).symm

end Cert.KernelIdeal.Hand

end

/-- info: 'Cert.KernelIdeal.Hand.out_eq_block' depends on axioms: [propext, Classical.choice, Quot.sound] -/
#guard_msgs in #print axioms Cert.KernelIdeal.Hand.out_eq_block
-- ==== Proof.lean ====
/-
  The kernel: on a mesh of 32 devices seen as 4 planes of 8 places, device c holds the c-th block of 256 columns of A : f32[512, 8192] and the
  c-th block of 256 rows of B : f32[8192, 512], and must end holding rows 16c … 16c + 15 of A · B. Each device multiplies its two blocks (a
  partial product of the full 512 × 512 shape), cuts it into the 32 row blocks of 16 and rounds them; inside its plane it sends every other
  place the four row blocks of that place (one per plane) and adds the seven it receives to its own: the plane's sum for the rows of its place
  in every plane; across planes it sends every other plane the plane sum of that plane's rows and adds the three it receives to its own. The
  reference is A · B on one device.

  At the extended reals a change of float format is the identity, the block product is the sum over the block's 256 indices, and the kernel's
  result at (i, j) is a sum over all 32 devices, in the order (own + 7 of the plane) + 3 × (1 + 7), of the block products' entries at row
  16c + i: the sum over all 8192 indices regrouped by blocks and reordered, which only uses that + is associative and commutative. So no entry
  needs to be finite.

  The run. Every device signals its seven plane neighbours on the barrier semaphore and its three counterparts in the other planes on a
  second semaphore before it computes; the signal to a device hands it the receive slot it will write, so a transfer is issued only into a
  slot whose owner is inside the kernel, and lands exactly once. A device waits on a cell only while everything it still owes (the in-plane
  arrivals, then the cross-plane ones) lies on cells of a strictly higher level, so no wait is circular. The same run, read at the word-level
  instance with the values forgotten, is the word-level program's frame; read at the extended reals with the result block named it is the
  value claim.
-/
import proofs.«900450_g7700000000000451_dist_matmul_mk_i_outk_m512_n512_k256_v7x_i32_f32_1_alg».proof.Defs
import proofs.«900450_g7700000000000451_dist_matmul_mk_i_outk_m512_n512_k256_v7x_i32_f32_1_alg».proof.Proof.Gen.Kernel
import proofs.«900450_g7700000000000451_dist_matmul_mk_i_outk_m512_n512_k256_v7x_i32_f32_1_alg».proof.Proof.Gen.Kernel.Skeleton
import proofs.«900450_g7700000000000451_dist_matmul_mk_i_outk_m512_n512_k256_v7x_i32_f32_1_alg».proof.Proof.Gen.Kernel.Launch
import proofs.«900450_g7700000000000451_dist_matmul_mk_i_outk_m512_n512_k256_v7x_i32_f32_1_alg».proof.Proof.Gen.Kernel.Points
import proofs.«900450_g7700000000000451_dist_matmul_mk_i_outk_m512_n512_k256_v7x_i32_f32_1_alg».proof.Proof.Gen.Kernel.Frame
import proofs.«900450_g7700000000000451_dist_matmul_mk_i_outk_m512_n512_k256_v7x_i32_f32_1_alg».proof.Proof.Gen.KernelIdeal
import proofs.«900450_g7700000000000451_dist_matmul_mk_i_outk_m512_n512_k256_v7x_i32_f32_1_alg».proof.Proof.Gen.KernelIdeal.Skeleton
import proofs.«900450_g7700000000000451_dist_matmul_mk_i_outk_m512_n512_k256_v7x_i32_f32_1_alg».proof.Proof.Gen.KernelIdeal.Launch
import proofs.«900450_g7700000000000451_dist_matmul_mk_i_outk_m512_n512_k256_v7x_i32_f32_1_alg».proof.Proof.Gen.KernelIdeal.Points
import proofs.«900450_g7700000000000451_dist_matmul_mk_i_outk_m512_n512_k256_v7x_i32_f32_1_alg».proof.Proof.Gen.KernelIdeal.Frame
import proofs.«900450_g7700000000000451_dist_matmul_mk_i_outk_m512_n512_k256_v7x_i32_f32_1_alg».proof.Proof.Gen.ReferenceIdeal
import proofs.«900450_g7700000000000451_dist_matmul_mk_i_outk_m512_n512_k256_v7x_i32_f32_1_alg».proof.Proof.Gen.Pre_finite_inputs_Kernel
import proofs.«900450_g7700000000000451_dist_matmul_mk_i_outk_m512_n512_k256_v7x_i32_f32_1_alg».proof.Proof.Gen.Pre_finite_inputs_ReferenceIdeal
import proofs.«900450_g7700000000000451_dist_matmul_mk_i_outk_m512_n512_k256_v7x_i32_f32_1_alg».proof.Proof.Gen.ReferenceIdeal.Run
import proofs.«900450_g7700000000000451_dist_matmul_mk_i_outk_m512_n512_k256_v7x_i32_f32_1_alg».proof.Proof.Gen.ReferenceIdeal.Read
import proofs.«900450_g7700000000000451_dist_matmul_mk_i_outk_m512_n512_k256_v7x_i32_f32_1_alg».proof.Proof.Run
import proofs.«900450_g7700000000000451_dist_matmul_mk_i_outk_m512_n512_k256_v7x_i32_f32_1_alg».proof.Proof.Bits.Run
import proofs.«900450_g7700000000000451_dist_matmul_mk_i_outk_m512_n512_k256_v7x_i32_f32_1_alg».proof.Proof.RefSide
import proofs.«900450_g7700000000000451_dist_matmul_mk_i_outk_m512_n512_k256_v7x_i32_f32_1_alg».proof.Proof.KOfIdeal
import Idealize.ShloMosaic.Adequacy
import Idealize.ShloMosaic.Init

noncomputable section

namespace Cert.Proof

open Idealize.ShloMosaic Idealize.SL.Sem

/-- The word-level program runs to the end and leaves its argument blocks as they were: the mesh run with the result's value dropped. -/
theorem frame_kernel : Cert.frame_Kernel := fun m ρ _ =>
  (θ_run (Cert.Kernel.defs (F := Bits)) _ _).mono (fun _ h c => (h c).2) (Cert.Kernel.Hand.run_all (F := Bits) m ρ)

/-- The same of the program read at the extended reals. -/
theorem frame_kernelIdeal : Cert.frame_KernelIdeal := fun m ρ _ =>
  (θ_run (Cert.KernelIdeal.defs (F := Ideal)) _ _).mono (fun _ h c => (h c).2) (Cert.KernelIdeal.Hand.run_all (F := Ideal) m ρ)

/-- At the extended reals every device's result block is its 16 rows of the one-device product of the whole arrays. -/
theorem algebraic : Cert.algebraic_KernelIdeal_ReferenceIdeal := by
  intro m ρ m' ρ' _ hagree
  refine ⟨Cert.ReferenceIdeal.RefValue.G (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨(h c).1.trans (Cert.KernelIdeal.Hand.out_eq_block m ρ _ _ hagree c), (h c).2.1, (h c).2.2⟩)
      (Cert.KernelIdeal.Hand.run_all (F := Ideal) m ρ)
  · exact (θ_run (Cert.ReferenceIdeal.defs (F := Ideal)) _ _).mono (fun _ h => h 0) (Cert.ReferenceIdeal.RefValue.run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.ReferenceIdeal.RefValue.frame, trivial, algebraic⟩

end Cert.Proof

end
